-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v489)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v489) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v638) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S4x256x256 : Shape := ⟨3, ![4, 256, 256]⟩
abbrev S4x256 : Shape := ⟨2, ![4, 256]⟩
abbrev S4x256x128 : Shape := ⟨3, ![4, 256, 128]⟩
abbrev S4x128 : Shape := ⟨2, ![4, 128]⟩
abbrev S4x400000 : Shape := ⟨2, ![4, 400000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S4x256x256 : S_.BroadcastsInDim S4x256x256 (![] : Fin 0 → Fin S4x256x256.rank)
  reducesTo_S4x256x256_S_d0_1_2 : S4x256x256.ReducesTo [0, 1, 2] S_
  bcast_S_S4x256 : S_.BroadcastsInDim S4x256 (![] : Fin 0 → Fin S4x256.rank)
  reducesTo_S4x256_S_d0_1 : S4x256.ReducesTo [0, 1] S_
  bcast_S_S4x256x128 : S_.BroadcastsInDim S4x256x128 (![] : Fin 0 → Fin S4x256x128.rank)
  reducesTo_S4x256x128_S_d0_1_2 : S4x256x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part2 {F : FTy → Type} [FloatOps F] (main_arg7 : FVec F S4x256x128 .f32) (main_arg8 : FVec F S4x128 .f32) (main_v33 : IVec S_ 1) : IVec S_ 1 :=
  let main_v34 : FVec F S4x256x128 .f32 := Host.absf main_arg7
  let main_cst_12 : FVec F S_ .f32 := constant S_ .f32 0x7F800000#32
  let main_v35 : FVec F S4x256x128 .f32 := broadcastInDim S4x256x128 ![] bcast_S_S4x256x128 main_cst_12
  let main_v36 : IVec S4x256x128 1 := cmpf .olt main_v34 main_v35
  let main_c_13 : IVec S_ 1 := constantI S_ 1 1#1
  let main_v37 : IVec S_ 1 := (fun x v => Host.reduce IntOp.andi x v reducesTo_S4x256x128_S_d0_1_2 h_S_) main_v36 main_c_13
  let main_v38 : IVec S_ 1 := andi main_v33 main_v37
  let main_v39 : FVec F S4x128 .f32 := Host.absf main_arg8
  let main_cst_14 : FVec F S_ .f32 := constant S_ .f32 0x7F800000#32
  let main_v40 : FVec F S4x128 .f32 := broadcastInDim S4x128 ![] bcast_S_S4x128 main_cst_14
  let main_v41 : IVec S4x128 1 := cmpf .olt main_v39 main_v40
  let main_c_15 : IVec S_ 1 := constantI S_ 1 1#1
  let main_v42 : IVec S_ 1 := (fun x v => Host.reduce IntOp.andi x v reducesTo_S4x128_S_d0_1 h_S_) main_v41 main_c_15
  let main_v43 : IVec S_ 1 := andi main_v38 main_v42
  main_v43

def fn_part1 {F : FTy → Type} [FloatOps F] (main_arg4 : FVec F S4x256 .f32) (main_arg5 : FVec F S4x256x256 .f32) (main_arg6 : FVec F S4x256 .f32) (main_arg7 : FVec F S4x256x128 .f32) (main_arg8 : FVec F S4x128 .f32) (main_v13 : IVec S_ 1) (main_v16 : IVec S4x256x256 1) : IVec S_ 1 :=
  let main_c_5 : IVec S_ 1 := constantI S_ 1 1#1
  let main_v17 : IVec S_ 1 := (fun x v => Host.reduce IntOp.andi x v reducesTo_S4x256x256_S_d0_1_2 h_S_) main_v16 main_c_5
  let main_v18 : IVec S_ 1 := andi main_v13 main_v17
  let main_v19 : FVec F S4x256 .f32 := Host.absf main_arg4
  let main_cst_6 : FVec F S_ .f32 := constant S_ .f32 0x7F800000#32
  let main_v20 : FVec F S4x256 .f32 := broadcastInDim S4x256 ![] bcast_S_S4x256 main_cst_6
  let main_v21 : IVec S4x256 1 := cmpf .olt main_v19 main_v20
  let main_c_7 : IVec S_ 1 := constantI S_ 1 1#1
  let main_v22 : IVec S_ 1 := (fun x v => Host.reduce IntOp.andi x v reducesTo_S4x256_S_d0_1 h_S_) main_v21 main_c_7
  let main_v23 : IVec S_ 1 := andi main_v18 main_v22
  let main_v24 : FVec F S4x256x256 .f32 := Host.absf main_arg5
  let main_cst_8 : FVec F S_ .f32 := constant S_ .f32 0x7F800000#32
  let main_v25 : FVec F S4x256x256 .f32 := broadcastInDim S4x256x256 ![] bcast_S_S4x256x256 main_cst_8
  let main_v26 : IVec S4x256x256 1 := cmpf .olt main_v24 main_v25
  let main_c_9 : IVec S_ 1 := constantI S_ 1 1#1
  let main_v27 : IVec S_ 1 := (fun x v => Host.reduce IntOp.andi x v reducesTo_S4x256x256_S_d0_1_2 h_S_) main_v26 main_c_9
  let main_v28 : IVec S_ 1 := andi main_v23 main_v27
  let main_v29 : FVec F S4x256 .f32 := Host.absf main_arg6
  let main_cst_10 : FVec F S_ .f32 := constant S_ .f32 0x7F800000#32
  let main_v30 : FVec F S4x256 .f32 := broadcastInDim S4x256 ![] bcast_S_S4x256 main_cst_10
  let main_v31 : IVec S4x256 1 := cmpf .olt main_v29 main_v30
  let main_c_11 : IVec S_ 1 := constantI S_ 1 1#1
  let main_v32 : IVec S_ 1 := (fun x v => Host.reduce IntOp.andi x v reducesTo_S4x256_S_d0_1 h_S_) main_v31 main_c_11
  let main_v33 : IVec S_ 1 := andi main_v28 main_v32
  fn_part2 (F := F) main_arg7 main_arg8 main_v33

def fn {F : FTy → Type} [FloatOps F] (main_arg0 : FVec F S50000x256 .f32) (main_arg1 : FVec F S4x256x256 .f32) (main_arg2 : FVec F S4x256 .f32) (main_arg3 : FVec F S4x256x256 .f32) (main_arg4 : FVec F S4x256 .f32) (main_arg5 : FVec F S4x256x256 .f32) (main_arg6 : FVec F S4x256 .f32) (main_arg7 : FVec F S4x256x128 .f32) (main_arg8 : FVec F S4x128 .f32) (main_arg9 : IVec S4x400000 32) (main_arg10 : IVec S4x400000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S4x256x256 .f32 := Host.absf main_arg1
  let main_cst_0 : FVec F S_ .f32 := constant S_ .f32 0x7F800000#32
  let main_v5 : FVec F S4x256x256 .f32 := broadcastInDim S4x256x256 ![] bcast_S_S4x256x256 main_cst_0
  let main_v6 : IVec S4x256x256 1 := cmpf .olt main_v4 main_v5
  let main_c_1 : IVec S_ 1 := constantI S_ 1 1#1
  let main_v7 : IVec S_ 1 := (fun x v => Host.reduce IntOp.andi x v reducesTo_S4x256x256_S_d0_1_2 h_S_) main_v6 main_c_1
  let main_v8 : IVec S_ 1 := andi main_v3 main_v7
  let main_v9 : FVec F S4x256 .f32 := Host.absf main_arg2
  let main_cst_2 : FVec F S_ .f32 := constant S_ .f32 0x7F800000#32
  let main_v10 : FVec F S4x256 .f32 := broadcastInDim S4x256 ![] bcast_S_S4x256 main_cst_2
  let main_v11 : IVec S4x256 1 := cmpf .olt main_v9 main_v10
  let main_c_3 : IVec S_ 1 := constantI S_ 1 1#1
  let main_v12 : IVec S_ 1 := (fun x v => Host.reduce IntOp.andi x v reducesTo_S4x256_S_d0_1 h_S_) main_v11 main_c_3
  let main_v13 : IVec S_ 1 := andi main_v8 main_v12
  let main_v14 : FVec F S4x256x256 .f32 := Host.absf main_arg3
  let main_cst_4 : FVec F S_ .f32 := constant S_ .f32 0x7F800000#32
  let main_v15 : FVec F S4x256x256 .f32 := broadcastInDim S4x256x256 ![] bcast_S_S4x256x256 main_cst_4
  let main_v16 : IVec S4x256x256 1 := cmpf .olt main_v14 main_v15
  fn_part1 (F := F) main_arg4 main_arg5 main_arg6 main_arg7 main_arg8 main_v13 main_v16
-- ==== Kernel.lean ====
abbrev S50000x256 : Shape := ⟨2, ![50000, 256]⟩
abbrev S4x256x256 : Shape := ⟨3, ![4, 256, 256]⟩
abbrev S4x256 : Shape := ⟨2, ![4, 256]⟩
abbrev S4x256x128 : Shape := ⟨3, ![4, 256, 128]⟩
abbrev S4x128 : Shape := ⟨2, ![4, 128]⟩
abbrev S4x400000 : Shape := ⟨2, ![4, 400000]⟩
abbrev S_ : Shape := ⟨0, ![]⟩
abbrev S400000 : Shape := ⟨1, ![400000]⟩
abbrev S1x400000 : Shape := ⟨2, ![1, 400000]⟩
abbrev S50000 : Shape := ⟨1, ![50000]⟩
abbrev S400000x1 : Shape := ⟨2, ![400000, 1]⟩
abbrev S1x50000 : Shape := ⟨2, ![1, 50000]⟩
abbrev S4x50000 : Shape := ⟨2, ![4, 50000]⟩
abbrev S4x50000x1 : Shape := ⟨3, ![4, 50000, 1]⟩
abbrev S4x50000x256 : Shape := ⟨3, ![4, 50000, 256]⟩
abbrev S5000x256 : Shape := ⟨2, ![5000, 256]⟩
abbrev S1x5000x1 : Shape := ⟨3, ![1, 5000, 1]⟩
abbrev S1x256x256 : Shape := ⟨3, ![1, 256, 256]⟩
abbrev S1x5000x256 : Shape := ⟨3, ![1, 5000, 256]⟩
abbrev S5000x1 : Shape := ⟨2, ![5000, 1]⟩
abbrev S256x256 : Shape := ⟨2, ![256, 256]⟩
abbrev S1x50000x256 : Shape := ⟨3, ![1, 50000, 256]⟩
abbrev S400000x256 : Shape := ⟨2, ![400000, 256]⟩
abbrev S1x50000x1 : Shape := ⟨3, ![1, 50000, 1]⟩
abbrev S50000x1 : Shape := ⟨2, ![50000, 1]⟩
abbrev S1x256 : Shape := ⟨2, ![1, 256]⟩
abbrev S256 : Shape := ⟨1, ![256]⟩
abbrev S4x50000x128 : Shape := ⟨3, ![4, 50000, 128]⟩
abbrev S1x256x128 : Shape := ⟨3, ![1, 256, 128]⟩
abbrev S1x5000x128 : Shape := ⟨3, ![1, 5000, 128]⟩
abbrev S256x128 : Shape := ⟨2, ![256, 128]⟩
abbrev S5000x128 : Shape := ⟨2, ![5000, 128]⟩
abbrev S50000x128 : Shape := ⟨2, ![50000, 128]⟩
abbrev S1x50000x128 : Shape := ⟨3, ![1, 50000, 128]⟩
abbrev S400000x128 : Shape := ⟨2, ![400000, 128]⟩
abbrev S1x128 : Shape := ⟨2, ![1, 128]⟩
abbrev S128 : Shape := ⟨1, ![128]⟩

abbrev nBuf : Space → Nat
  | .hbm => 592
  | .vmem => 32
  | .smem => 0
  | _ => 0

abbrev hbmTy0_0 (i : Nat) : BufTy := match i % 128 with
  | 0 => ⟨S50000x256, .f32⟩
  | 1 => ⟨S4x256x256, .f32⟩
  | 2 => ⟨S4x256, .f32⟩
  | 3 => ⟨S4x256x256, .f32⟩
  | 4 => ⟨S4x256, .f32⟩
  | 5 => ⟨S4x256x256, .f32⟩
  | 6 => ⟨S4x256, .f32⟩
  | 7 => ⟨S4x256x128, .f32⟩
  | 8 => ⟨S4x128, .f32⟩
  | 9 => ⟨S4x400000, .i32⟩
  | 10 => ⟨S4x400000, .i32⟩
  | 11 => ⟨S_, .f32⟩
  | 12 => ⟨S400000, .f32⟩
  | 13 => ⟨S1x400000, .i32⟩
  | 14 => ⟨S400000, .i32⟩
  | 15 => ⟨S_, .f32⟩
  | 16 => ⟨S50000, .f32⟩
  | 17 => ⟨S400000x1, .i32⟩
  | 18 => ⟨S50000, .f32⟩
  | 19 => ⟨S_, .f32⟩
  | 20 => ⟨S_, .f32⟩
  | 21 => ⟨S50000, .f32⟩
  | 22 => ⟨S50000, .f32⟩
  | 23 => ⟨S1x400000, .i32⟩
  | 24 => ⟨S400000, .i32⟩
  | 25 => ⟨S_, .f32⟩
  | 26 => ⟨S50000, .f32⟩
  | 27 => ⟨S400000x1, .i32⟩
  | 28 => ⟨S50000, .f32⟩
  | 29 => ⟨S_, .f32⟩
  | 30 => ⟨S_, .f32⟩
  | 31 => ⟨S50000, .f32⟩
  | 32 => ⟨S50000, .f32⟩
  | 33 => ⟨S1x400000, .i32⟩
  | 34 => ⟨S400000, .i32⟩
  | 35 => ⟨S_, .f32⟩
  | 36 => ⟨S50000, .f32⟩
  | 37 => ⟨S400000x1, .i32⟩
  | 38 => ⟨S50000, .f32⟩
  | 39 => ⟨S_, .f32⟩
  | 40 => ⟨S_, .f32⟩
  | 41 => ⟨S50000, .f32⟩
  | 42 => ⟨S50000, .f32⟩
  | 43 => ⟨S1x400000, .i32⟩
  | 44 => ⟨S400000, .i32⟩
  | 45 => ⟨S_, .f32⟩
  | 46 => ⟨S50000, .f32⟩
  | 47 => ⟨S400000x1, .i32⟩
  | 48 => ⟨S50000, .f32⟩
  | 49 => ⟨S_, .f32⟩
  | 50 => ⟨S_, .f32⟩
  | 51 => ⟨S50000, .f32⟩
  | 52 => ⟨S50000, .f32⟩
  | 53 => ⟨S1x50000, .f32⟩
  | 54 => ⟨S1x50000, .f32⟩
  | 55 => ⟨S1x50000, .f32⟩
  | 56 => ⟨S1x50000, .f32⟩
  | 57 => ⟨S4x50000, .f32⟩
  | 58 => ⟨S1x400000, .i32⟩
  | 59 => ⟨S400000, .i32⟩
  | 60 => ⟨S_, .f32⟩
  | 61 => ⟨S50000, .f32⟩
  | 62 => ⟨S400000x1, .i32⟩
  | 63 => ⟨S50000, .f32⟩
  | 64 => ⟨S_, .f32⟩
  | 65 => ⟨S_, .f32⟩
  | 66 => ⟨S50000, .f32⟩
  | 67 => ⟨S50000, .f32⟩
  | 68 => ⟨S1x400000, .i32⟩
  | 69 => ⟨S400000, .i32⟩
  | 70 => ⟨S_, .f32⟩
  | 71 => ⟨S50000, .f32⟩
  | 72 => ⟨S400000x1, .i32⟩
  | 73 => ⟨S50000, .f32⟩
  | 74 => ⟨S_, .f32⟩
  | 75 => ⟨S_, .f32⟩
  | 76 => ⟨S50000, .f32⟩
  | 77 => ⟨S50000, .f32⟩
  | 78 => ⟨S1x400000, .i32⟩
  | 79 => ⟨S400000, .i32⟩
  | 80 => ⟨S_, .f32⟩
  | 81 => ⟨S50000, .f32⟩
  | 82 => ⟨S400000x1, .i32⟩
  | 83 => ⟨S50000, .f32⟩
  | 84 => ⟨S_, .f32⟩
  | 85 => ⟨S_, .f32⟩
  | 86 => ⟨S50000, .f32⟩
  | 87 => ⟨S50000, .f32⟩
  | 88 => ⟨S1x400000, .i32⟩
  | 89 => ⟨S400000, .i32⟩
  | 90 => ⟨S_, .f32⟩
  | 91 => ⟨S50000, .f32⟩
  | 92 => ⟨S400000x1, .i32⟩
  | 93 => ⟨S50000, .f32⟩
  | 94 => ⟨S_, .f32⟩
  | 95 => ⟨S_, .f32⟩
  | 96 => ⟨S50000, .f32⟩
  | 97 => ⟨S50000, .f32⟩
  | 98 => ⟨S1x50000, .f32⟩
  | 99 => ⟨S1x50000, .f32⟩
  | 100 => ⟨S1x50000, .f32⟩
  | 101 => ⟨S1x50000, .f32⟩
  | 102 => ⟨S4x50000, .f32⟩
  | 103 => ⟨S4x50000, .f32⟩
  | 104 => ⟨S4x50000x1, .f32⟩
  | 105 => ⟨S4x50000, .f32⟩
  | 106 => ⟨S4x50000x1, .f32⟩
  | 107 => ⟨S4x50000x256, .f32⟩
  | 108 => ⟨S_, .f32⟩
  | 109 => ⟨S50000x256, .f32⟩
  | 110 => ⟨S1x50000x256, .f32⟩
  | 111 => ⟨S50000x256, .f32⟩
  | 112 => ⟨S1x400000, .i32⟩
  | 113 => ⟨S400000, .i32⟩
  | 114 => ⟨S_, .i32⟩
  | 115 => ⟨S400000, .i32⟩
  | 116 => ⟨S400000, .i1⟩
  | 117 => ⟨S_, .i32⟩
  | 118 => ⟨S400000, .i32⟩
  | 119 => ⟨S400000, .i32⟩
  | 120 => ⟨S400000, .i32⟩
  | 121 => ⟨S400000x1, .i32⟩
  | 122 => ⟨S400000x256, .f32⟩
  | 123 => ⟨S1x400000, .i32⟩
  | 124 => ⟨S400000, .i32⟩
  | 125 => ⟨S_, .f32⟩
  | 126 => ⟨S50000x256, .f32⟩
  | 127 => ⟨S400000x1, .i32⟩
  | _ => ⟨S50000x256, .f32⟩

abbrev hbmTy0_1 (i : Nat) : BufTy := match i % 128 with
  | 0 => ⟨S50000x256, .f32⟩
  | 1 => ⟨S1x50000x1, .f32⟩
  | 2 => ⟨S50000x1, .f32⟩
  | 3 => ⟨S50000x256, .f32⟩
  | 4 => ⟨S50000x256, .f32⟩
  | 5 => ⟨S50000x256, .f32⟩
  | 6 => ⟨S1x256, .f32⟩
  | 7 => ⟨S256, .f32⟩
  | 8 => ⟨S1x256, .f32⟩
  | 9 => ⟨S50000x256, .f32⟩
  | 10 => ⟨S50000x256, .f32⟩
  | 11 => ⟨S1x50000x256, .f32⟩
  | 12 => ⟨S50000x256, .f32⟩
  | 13 => ⟨S1x400000, .i32⟩
  | 14 => ⟨S400000, .i32⟩
  | 15 => ⟨S_, .i32⟩
  | 16 => ⟨S400000, .i32⟩
  | 17 => ⟨S400000, .i1⟩
  | 18 => ⟨S_, .i32⟩
  | 19 => ⟨S400000, .i32⟩
  | 20 => ⟨S400000, .i32⟩
  | 21 => ⟨S400000, .i32⟩
  | 22 => ⟨S400000x1, .i32⟩
  | 23 => ⟨S400000x256, .f32⟩
  | 24 => ⟨S1x400000, .i32⟩
  | 25 => ⟨S400000, .i32⟩
  | 26 => ⟨S_, .f32⟩
  | 27 => ⟨S50000x256, .f32⟩
  | 28 => ⟨S400000x1, .i32⟩
  | 29 => ⟨S50000x256, .f32⟩
  | 30 => ⟨S1x50000x1, .f32⟩
  | 31 => ⟨S50000x1, .f32⟩
  | 32 => ⟨S50000x256, .f32⟩
  | 33 => ⟨S50000x256, .f32⟩
  | 34 => ⟨S50000x256, .f32⟩
  | 35 => ⟨S1x256, .f32⟩
  | 36 => ⟨S256, .f32⟩
  | 37 => ⟨S1x256, .f32⟩
  | 38 => ⟨S50000x256, .f32⟩
  | 39 => ⟨S50000x256, .f32⟩
  | 40 => ⟨S1x50000x256, .f32⟩
  | 41 => ⟨S50000x256, .f32⟩
  | 42 => ⟨S1x400000, .i32⟩
  | 43 => ⟨S400000, .i32⟩
  | 44 => ⟨S_, .i32⟩
  | 45 => ⟨S400000, .i32⟩
  | 46 => ⟨S400000, .i1⟩
  | 47 => ⟨S_, .i32⟩
  | 48 => ⟨S400000, .i32⟩
  | 49 => ⟨S400000, .i32⟩
  | 50 => ⟨S400000, .i32⟩
  | 51 => ⟨S400000x1, .i32⟩
  | 52 => ⟨S400000x256, .f32⟩
  | 53 => ⟨S1x400000, .i32⟩
  | 54 => ⟨S400000, .i32⟩
  | 55 => ⟨S_, .f32⟩
  | 56 => ⟨S50000x256, .f32⟩
  | 57 => ⟨S400000x1, .i32⟩
  | 58 => ⟨S50000x256, .f32⟩
  | 59 => ⟨S1x50000x1, .f32⟩
  | 60 => ⟨S50000x1, .f32⟩
  | 61 => ⟨S50000x256, .f32⟩
  | 62 => ⟨S50000x256, .f32⟩
  | 63 => ⟨S50000x256, .f32⟩
  | 64 => ⟨S1x256, .f32⟩
  | 65 => ⟨S256, .f32⟩
  | 66 => ⟨S1x256, .f32⟩
  | 67 => ⟨S50000x256, .f32⟩
  | 68 => ⟨S50000x256, .f32⟩
  | 69 => ⟨S1x50000x256, .f32⟩
  | 70 => ⟨S50000x256, .f32⟩
  | 71 => ⟨S1x400000, .i32⟩
  | 72 => ⟨S400000, .i32⟩
  | 73 => ⟨S_, .i32⟩
  | 74 => ⟨S400000, .i32⟩
  | 75 => ⟨S400000, .i1⟩
  | 76 => ⟨S_, .i32⟩
  | 77 => ⟨S400000, .i32⟩
  | 78 => ⟨S400000, .i32⟩
  | 79 => ⟨S400000, .i32⟩
  | 80 => ⟨S400000x1, .i32⟩
  | 81 => ⟨S400000x256, .f32⟩
  | 82 => ⟨S1x400000, .i32⟩
  | 83 => ⟨S400000, .i32⟩
  | 84 => ⟨S_, .f32⟩
  | 85 => ⟨S50000x256, .f32⟩
  | 86 => ⟨S400000x1, .i32⟩
  | 87 => ⟨S50000x256, .f32⟩
  | 88 => ⟨S1x50000x1, .f32⟩
  | 89 => ⟨S50000x1, .f32⟩
  | 90 => ⟨S50000x256, .f32⟩
  | 91 => ⟨S50000x256, .f32⟩
  | 92 => ⟨S50000x256, .f32⟩
  | 93 => ⟨S1x256, .f32⟩
  | 94 => ⟨S256, .f32⟩
  | 95 => ⟨S1x256, .f32⟩
  | 96 => ⟨S50000x256, .f32⟩
  | 97 => ⟨S50000x256, .f32⟩
  | 98 => ⟨S_, .f32⟩
  | 99 => ⟨S50000x256, .f32⟩
  | 100 => ⟨S50000x256, .f32⟩
  | 101 => ⟨S4x50000x256, .f32⟩
  | 102 => ⟨S_, .f32⟩
  | 103 => ⟨S50000x256, .f32⟩
  | 104 => ⟨S1x50000x256, .f32⟩
  | 105 => ⟨S50000x256, .f32⟩
  | 106 => ⟨S1x400000, .i32⟩
  | 107 => ⟨S400000, .i32⟩
  | 108 => ⟨S_, .i32⟩
  | 109 => ⟨S400000, .i32⟩
  | 110 => ⟨S400000, .i1⟩
  | 111 => ⟨S_, .i32⟩
  | 112 => ⟨S400000, .i32⟩
  | 113 => ⟨S400000, .i32⟩
  | 114 => ⟨S400000, .i32⟩
  | 115 => ⟨S400000x1, .i32⟩
  | 116 => ⟨S400000x256, .f32⟩
  | 117 => ⟨S1x400000, .i32⟩
  | 118 => ⟨S400000, .i32⟩
  | 119 => ⟨S_, .f32⟩
  | 120 => ⟨S50000x256, .f32⟩
  | 121 => ⟨S400000x1, .i32⟩
  | 122 => ⟨S50000x256, .f32⟩
  | 123 => ⟨S1x50000x1, .f32⟩
  | 124 => ⟨S50000x1, .f32⟩
  | 125 => ⟨S50000x256, .f32⟩
  | 126 => ⟨S50000x256, .f32⟩
  | 127 => ⟨S50000x256, .f32⟩
  | _ => ⟨S50000x256, .f32⟩

abbrev hbmTy0_2 (i : Nat) : BufTy := match i % 128 with
  | 0 => ⟨S1x256, .f32⟩
  | 1 => ⟨S256, .f32⟩
  | 2 => ⟨S1x256, .f32⟩
  | 3 => ⟨S50000x256, .f32⟩
  | 4 => ⟨S50000x256, .f32⟩
  | 5 => ⟨S1x50000x256, .f32⟩
  | 6 => ⟨S50000x256, .f32⟩
  | 7 => ⟨S1x400000, .i32⟩
  | 8 => ⟨S400000, .i32⟩
  | 9 => ⟨S_, .i32⟩
  | 10 => ⟨S400000, .i32⟩
  | 11 => ⟨S400000, .i1⟩
  | 12 => ⟨S_, .i32⟩
  | 13 => ⟨S400000, .i32⟩
  | 14 => ⟨S400000, .i32⟩
  | 15 => ⟨S400000, .i32⟩
  | 16 => ⟨S400000x1, .i32⟩
  | 17 => ⟨S400000x256, .f32⟩
  | 18 => ⟨S1x400000, .i32⟩
  | 19 => ⟨S400000, .i32⟩
  | 20 => ⟨S_, .f32⟩
  | 21 => ⟨S50000x256, .f32⟩
  | 22 => ⟨S400000x1, .i32⟩
  | 23 => ⟨S50000x256, .f32⟩
  | 24 => ⟨S1x50000x1, .f32⟩
  | 25 => ⟨S50000x1, .f32⟩
  | 26 => ⟨S50000x256, .f32⟩
  | 27 => ⟨S50000x256, .f32⟩
  | 28 => ⟨S50000x256, .f32⟩
  | 29 => ⟨S1x256, .f32⟩
  | 30 => ⟨S256, .f32⟩
  | 31 => ⟨S1x256, .f32⟩
  | 32 => ⟨S50000x256, .f32⟩
  | 33 => ⟨S50000x256, .f32⟩
  | 34 => ⟨S1x50000x256, .f32⟩
  | 35 => ⟨S50000x256, .f32⟩
  | 36 => ⟨S1x400000, .i32⟩
  | 37 => ⟨S400000, .i32⟩
  | 38 => ⟨S_, .i32⟩
  | 39 => ⟨S400000, .i32⟩
  | 40 => ⟨S400000, .i1⟩
  | 41 => ⟨S_, .i32⟩
  | 42 => ⟨S400000, .i32⟩
  | 43 => ⟨S400000, .i32⟩
  | 44 => ⟨S400000, .i32⟩
  | 45 => ⟨S400000x1, .i32⟩
  | 46 => ⟨S400000x256, .f32⟩
  | 47 => ⟨S1x400000, .i32⟩
  | 48 => ⟨S400000, .i32⟩
  | 49 => ⟨S_, .f32⟩
  | 50 => ⟨S50000x256, .f32⟩
  | 51 => ⟨S400000x1, .i32⟩
  | 52 => ⟨S50000x256, .f32⟩
  | 53 => ⟨S1x50000x1, .f32⟩
  | 54 => ⟨S50000x1, .f32⟩
  | 55 => ⟨S50000x256, .f32⟩
  | 56 => ⟨S50000x256, .f32⟩
  | 57 => ⟨S50000x256, .f32⟩
  | 58 => ⟨S1x256, .f32⟩
  | 59 => ⟨S256, .f32⟩
  | 60 => ⟨S1x256, .f32⟩
  | 61 => ⟨S50000x256, .f32⟩
  | 62 => ⟨S50000x256, .f32⟩
  | 63 => ⟨S1x50000x256, .f32⟩
  | 64 => ⟨S50000x256, .f32⟩
  | 65 => ⟨S1x400000, .i32⟩
  | 66 => ⟨S400000, .i32⟩
  | 67 => ⟨S_, .i32⟩
  | 68 => ⟨S400000, .i32⟩
  | 69 => ⟨S400000, .i1⟩
  | 70 => ⟨S_, .i32⟩
  | 71 => ⟨S400000, .i32⟩
  | 72 => ⟨S400000, .i32⟩
  | 73 => ⟨S400000, .i32⟩
  | 74 => ⟨S400000x1, .i32⟩
  | 75 => ⟨S400000x256, .f32⟩
  | 76 => ⟨S1x400000, .i32⟩
  | 77 => ⟨S400000, .i32⟩
  | 78 => ⟨S_, .f32⟩
  | 79 => ⟨S50000x256, .f32⟩
  | 80 => ⟨S400000x1, .i32⟩
  | 81 => ⟨S50000x256, .f32⟩
  | 82 => ⟨S1x50000x1, .f32⟩
  | 83 => ⟨S50000x1, .f32⟩
  | 84 => ⟨S50000x256, .f32⟩
  | 85 => ⟨S50000x256, .f32⟩
  | 86 => ⟨S50000x256, .f32⟩
  | 87 => ⟨S1x256, .f32⟩
  | 88 => ⟨S256, .f32⟩
  | 89 => ⟨S1x256, .f32⟩
  | 90 => ⟨S50000x256, .f32⟩
  | 91 => ⟨S50000x256, .f32⟩
  | 92 => ⟨S_, .f32⟩
  | 93 => ⟨S50000x256, .f32⟩
  | 94 => ⟨S50000x256, .f32⟩
  | 95 => ⟨S4x50000x256, .f32⟩
  | 96 => ⟨S_, .f32⟩
  | 97 => ⟨S50000x256, .f32⟩
  | 98 => ⟨S1x50000x256, .f32⟩
  | 99 => ⟨S50000x256, .f32⟩
  | 100 => ⟨S1x400000, .i32⟩
  | 101 => ⟨S400000, .i32⟩
  | 102 => ⟨S_, .i32⟩
  | 103 => ⟨S400000, .i32⟩
  | 104 => ⟨S400000, .i1⟩
  | 105 => ⟨S_, .i32⟩
  | 106 => ⟨S400000, .i32⟩
  | 107 => ⟨S400000, .i32⟩
  | 108 => ⟨S400000, .i32⟩
  | 109 => ⟨S400000x1, .i32⟩
  | 110 => ⟨S400000x256, .f32⟩
  | 111 => ⟨S1x400000, .i32⟩
  | 112 => ⟨S400000, .i32⟩
  | 113 => ⟨S_, .f32⟩
  | 114 => ⟨S50000x256, .f32⟩
  | 115 => ⟨S400000x1, .i32⟩
  | 116 => ⟨S50000x256, .f32⟩
  | 117 => ⟨S1x50000x1, .f32⟩
  | 118 => ⟨S50000x1, .f32⟩
  | 119 => ⟨S50000x256, .f32⟩
  | 120 => ⟨S50000x256, .f32⟩
  | 121 => ⟨S50000x256, .f32⟩
  | 122 => ⟨S1x256, .f32⟩
  | 123 => ⟨S256, .f32⟩
  | 124 => ⟨S1x256, .f32⟩
  | 125 => ⟨S50000x256, .f32⟩
  | 126 => ⟨S50000x256, .f32⟩
  | 127 => ⟨S1x50000x256, .f32⟩
  | _ => ⟨S50000x256, .f32⟩

abbrev hbmTy0_3 (i : Nat) : BufTy := match i % 128 with
  | 0 => ⟨S50000x256, .f32⟩
  | 1 => ⟨S1x400000, .i32⟩
  | 2 => ⟨S400000, .i32⟩
  | 3 => ⟨S_, .i32⟩
  | 4 => ⟨S400000, .i32⟩
  | 5 => ⟨S400000, .i1⟩
  | 6 => ⟨S_, .i32⟩
  | 7 => ⟨S400000, .i32⟩
  | 8 => ⟨S400000, .i32⟩
  | 9 => ⟨S400000, .i32⟩
  | 10 => ⟨S400000x1, .i32⟩
  | 11 => ⟨S400000x256, .f32⟩
  | 12 => ⟨S1x400000, .i32⟩
  | 13 => ⟨S400000, .i32⟩
  | 14 => ⟨S_, .f32⟩
  | 15 => ⟨S50000x256, .f32⟩
  | 16 => ⟨S400000x1, .i32⟩
  | 17 => ⟨S50000x256, .f32⟩
  | 18 => ⟨S1x50000x1, .f32⟩
  | 19 => ⟨S50000x1, .f32⟩
  | 20 => ⟨S50000x256, .f32⟩
  | 21 => ⟨S50000x256, .f32⟩
  | 22 => ⟨S50000x256, .f32⟩
  | 23 => ⟨S1x256, .f32⟩
  | 24 => ⟨S256, .f32⟩
  | 25 => ⟨S1x256, .f32⟩
  | 26 => ⟨S50000x256, .f32⟩
  | 27 => ⟨S50000x256, .f32⟩
  | 28 => ⟨S1x50000x256, .f32⟩
  | 29 => ⟨S50000x256, .f32⟩
  | 30 => ⟨S1x400000, .i32⟩
  | 31 => ⟨S400000, .i32⟩
  | 32 => ⟨S_, .i32⟩
  | 33 => ⟨S400000, .i32⟩
  | 34 => ⟨S400000, .i1⟩
  | 35 => ⟨S_, .i32⟩
  | 36 => ⟨S400000, .i32⟩
  | 37 => ⟨S400000, .i32⟩
  | 38 => ⟨S400000, .i32⟩
  | 39 => ⟨S400000x1, .i32⟩
  | 40 => ⟨S400000x256, .f32⟩
  | 41 => ⟨S1x400000, .i32⟩
  | 42 => ⟨S400000, .i32⟩
  | 43 => ⟨S_, .f32⟩
  | 44 => ⟨S50000x256, .f32⟩
  | 45 => ⟨S400000x1, .i32⟩
  | 46 => ⟨S50000x256, .f32⟩
  | 47 => ⟨S1x50000x1, .f32⟩
  | 48 => ⟨S50000x1, .f32⟩
  | 49 => ⟨S50000x256, .f32⟩
  | 50 => ⟨S50000x256, .f32⟩
  | 51 => ⟨S50000x256, .f32⟩
  | 52 => ⟨S1x256, .f32⟩
  | 53 => ⟨S256, .f32⟩
  | 54 => ⟨S1x256, .f32⟩
  | 55 => ⟨S50000x256, .f32⟩
  | 56 => ⟨S50000x256, .f32⟩
  | 57 => ⟨S1x50000x256, .f32⟩
  | 58 => ⟨S50000x256, .f32⟩
  | 59 => ⟨S1x400000, .i32⟩
  | 60 => ⟨S400000, .i32⟩
  | 61 => ⟨S_, .i32⟩
  | 62 => ⟨S400000, .i32⟩
  | 63 => ⟨S400000, .i1⟩
  | 64 => ⟨S_, .i32⟩
  | 65 => ⟨S400000, .i32⟩
  | 66 => ⟨S400000, .i32⟩
  | 67 => ⟨S400000, .i32⟩
  | 68 => ⟨S400000x1, .i32⟩
  | 69 => ⟨S400000x256, .f32⟩
  | 70 => ⟨S1x400000, .i32⟩
  | 71 => ⟨S400000, .i32⟩
  | 72 => ⟨S_, .f32⟩
  | 73 => ⟨S50000x256, .f32⟩
  | 74 => ⟨S400000x1, .i32⟩
  | 75 => ⟨S50000x256, .f32⟩
  | 76 => ⟨S1x50000x1, .f32⟩
  | 77 => ⟨S50000x1, .f32⟩
  | 78 => ⟨S50000x256, .f32⟩
  | 79 => ⟨S50000x256, .f32⟩
  | 80 => ⟨S50000x256, .f32⟩
  | 81 => ⟨S1x256, .f32⟩
  | 82 => ⟨S256, .f32⟩
  | 83 => ⟨S1x256, .f32⟩
  | 84 => ⟨S50000x256, .f32⟩
  | 85 => ⟨S50000x256, .f32⟩
  | 86 => ⟨S_, .f32⟩
  | 87 => ⟨S50000x256, .f32⟩
  | 88 => ⟨S50000x256, .f32⟩
  | 89 => ⟨S4x50000x128, .f32⟩
  | 90 => ⟨S_, .f32⟩
  | 91 => ⟨S50000x128, .f32⟩
  | 92 => ⟨S1x50000x128, .f32⟩
  | 93 => ⟨S50000x128, .f32⟩
  | 94 => ⟨S1x400000, .i32⟩
  | 95 => ⟨S400000, .i32⟩
  | 96 => ⟨S_, .i32⟩
  | 97 => ⟨S400000, .i32⟩
  | 98 => ⟨S400000, .i1⟩
  | 99 => ⟨S_, .i32⟩
  | 100 => ⟨S400000, .i32⟩
  | 101 => ⟨S400000, .i32⟩
  | 102 => ⟨S400000, .i32⟩
  | 103 => ⟨S400000x1, .i32⟩
  | 104 => ⟨S400000x128, .f32⟩
  | 105 => ⟨S1x400000, .i32⟩
  | 106 => ⟨S400000, .i32⟩
  | 107 => ⟨S_, .f32⟩
  | 108 => ⟨S50000x128, .f32⟩
  | 109 => ⟨S400000x1, .i32⟩
  | 110 => ⟨S50000x128, .f32⟩
  | 111 => ⟨S1x50000x1, .f32⟩
  | 112 => ⟨S50000x1, .f32⟩
  | 113 => ⟨S50000x128, .f32⟩
  | 114 => ⟨S50000x128, .f32⟩
  | 115 => ⟨S50000x128, .f32⟩
  | 116 => ⟨S1x128, .f32⟩
  | 117 => ⟨S128, .f32⟩
  | 118 => ⟨S1x128, .f32⟩
  | 119 => ⟨S50000x128, .f32⟩
  | 120 => ⟨S50000x128, .f32⟩
  | 121 => ⟨S1x50000x128, .f32⟩
  | 122 => ⟨S50000x128, .f32⟩
  | 123 => ⟨S1x400000, .i32⟩
  | 124 => ⟨S400000, .i32⟩
  | 125 => ⟨S_, .i32⟩
  | 126 => ⟨S400000, .i32⟩
  | 127 => ⟨S400000, .i1⟩
  | _ => ⟨S50000x256, .f32⟩

abbrev hbmTy0_4 (i : Nat) : BufTy := match i % 128 with
  | 0 => ⟨S_, .i32⟩
  | 1 => ⟨S400000, .i32⟩
  | 2 => ⟨S400000, .i32⟩
  | 3 => ⟨S400000, .i32⟩
  | 4 => ⟨S400000x1, .i32⟩
  | 5 => ⟨S400000x128, .f32⟩
  | 6 => ⟨S1x400000, .i32⟩
  | 7 => ⟨S400000, .i32⟩
  | 8 => ⟨S_, .f32⟩
  | 9 => ⟨S50000x128, .f32⟩
  | 10 => ⟨S400000x1, .i32⟩
  | 11 => ⟨S50000x128, .f32⟩
  | 12 => ⟨S1x50000x1, .f32⟩
  | 13 => ⟨S50000x1, .f32⟩
  | 14 => ⟨S50000x128, .f32⟩
  | 15 => ⟨S50000x128, .f32⟩
  | 16 => ⟨S50000x128, .f32⟩
  | 17 => ⟨S1x128, .f32⟩
  | 18 => ⟨S128, .f32⟩
  | 19 => ⟨S1x128, .f32⟩
  | 20 => ⟨S50000x128, .f32⟩
  | 21 => ⟨S50000x128, .f32⟩
  | 22 => ⟨S1x50000x128, .f32⟩
  | 23 => ⟨S50000x128, .f32⟩
  | 24 => ⟨S1x400000, .i32⟩
  | 25 => ⟨S400000, .i32⟩
  | 26 => ⟨S_, .i32⟩
  | 27 => ⟨S400000, .i32⟩
  | 28 => ⟨S400000, .i1⟩
  | 29 => ⟨S_, .i32⟩
  | 30 => ⟨S400000, .i32⟩
  | 31 => ⟨S400000, .i32⟩
  | 32 => ⟨S400000, .i32⟩
  | 33 => ⟨S400000x1, .i32⟩
  | 34 => ⟨S400000x128, .f32⟩
  | 35 => ⟨S1x400000, .i32⟩
  | 36 => ⟨S400000, .i32⟩
  | 37 => ⟨S_, .f32⟩
  | 38 => ⟨S50000x128, .f32⟩
  | 39 => ⟨S400000x1, .i32⟩
  | 40 => ⟨S50000x128, .f32⟩
  | 41 => ⟨S1x50000x1, .f32⟩
  | 42 => ⟨S50000x1, .f32⟩
  | 43 => ⟨S50000x128, .f32⟩
  | 44 => ⟨S50000x128, .f32⟩
  | 45 => ⟨S50000x128, .f32⟩
  | 46 => ⟨S1x128, .f32⟩
  | 47 => ⟨S128, .f32⟩
  | 48 => ⟨S1x128, .f32⟩
  | 49 => ⟨S50000x128, .f32⟩
  | 50 => ⟨S50000x128, .f32⟩
  | 51 => ⟨S1x50000x128, .f32⟩
  | 52 => ⟨S50000x128, .f32⟩
  | 53 => ⟨S1x400000, .i32⟩
  | 54 => ⟨S400000, .i32⟩
  | 55 => ⟨S_, .i32⟩
  | 56 => ⟨S400000, .i32⟩
  | 57 => ⟨S400000, .i1⟩
  | 58 => ⟨S_, .i32⟩
  | 59 => ⟨S400000, .i32⟩
  | 60 => ⟨S400000, .i32⟩
  | 61 => ⟨S400000, .i32⟩
  | 62 => ⟨S400000x1, .i32⟩
  | 63 => ⟨S400000x128, .f32⟩
  | 64 => ⟨S1x400000, .i32⟩
  | 65 => ⟨S400000, .i32⟩
  | 66 => ⟨S_, .f32⟩
  | 67 => ⟨S50000x128, .f32⟩
  | 68 => ⟨S400000x1, .i32⟩
  | 69 => ⟨S50000x128, .f32⟩
  | 70 => ⟨S1x50000x1, .f32⟩
  | 71 => ⟨S50000x1, .f32⟩
  | 72 => ⟨S50000x128, .f32⟩
  | 73 => ⟨S50000x128, .f32⟩
  | 74 => ⟨S50000x128, .f32⟩
  | 75 => ⟨S1x128, .f32⟩
  | 76 => ⟨S128, .f32⟩
  | 77 => ⟨S1x128, .f32⟩
  | 78 => ⟨S50000x128, .f32⟩
  | 79 => ⟨S50000x128, .f32⟩
  | _ => ⟨S50000x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S1x5000x1, .f32⟩
  | .local _ .vmem, ⟨3, _⟩ => ⟨S1x5000x1, .f32⟩
  | .local _ .vmem, ⟨4, _⟩ => ⟨S1x256x256, .f32⟩
  | .local _ .vmem, ⟨5, _⟩ => ⟨S1x256x256, .f32⟩
  | .local _ .vmem, ⟨6, _⟩ => ⟨S1x5000x256, .f32⟩
  | .local _ .vmem, ⟨7, _⟩ => ⟨S1x5000x256, .f32⟩
  | .local _ .vmem, ⟨8, _⟩ => ⟨S5000x256, .f32⟩
  | .local _ .vmem, ⟨9, _⟩ => ⟨S5000x256, .f32⟩
  | .local _ .vmem, ⟨10, _⟩ => ⟨S1x5000x1, .f32⟩
  | .local _ .vmem, ⟨11, _⟩ => ⟨S1x5000x1, .f32⟩
  | .local _ .vmem, ⟨12, _⟩ => ⟨S1x256x256, .f32⟩
  | .local _ .vmem, ⟨13, _⟩ => ⟨S1x256x256, .f32⟩
  | .local _ .vmem, ⟨14, _⟩ => ⟨S1x5000x256, .f32⟩
  | .local _ .vmem, ⟨15, _⟩ => ⟨S1x5000x256, .f32⟩
  | .local _ .vmem, ⟨16, _⟩ => ⟨S5000x256, .f32⟩
  | .local _ .vmem, ⟨17, _⟩ => ⟨S5000x256, .f32⟩
  | .local _ .vmem, ⟨18, _⟩ => ⟨S1x5000x1, .f32⟩
  | .local _ .vmem, ⟨19, _⟩ => ⟨S1x5000x1, .f32⟩
  | .local _ .vmem, ⟨20, _⟩ => ⟨S1x256x256, .f32⟩
  | .local _ .vmem, ⟨21, _⟩ => ⟨S1x256x256, .f32⟩
  | .local _ .vmem, ⟨22, _⟩ => ⟨S1x5000x256, .f32⟩
  | .local _ .vmem, ⟨23, _⟩ => ⟨S1x5000x256, .f32⟩
  | .local _ .vmem, ⟨24, _⟩ => ⟨S5000x256, .f32⟩
  | .local _ .vmem, ⟨25, _⟩ => ⟨S5000x256, .f32⟩
  | .local _ .vmem, ⟨26, _⟩ => ⟨S1x5000x1, .f32⟩
  | .local _ .vmem, ⟨27, _⟩ => ⟨S1x5000x1, .f32⟩
  | .local _ .vmem, ⟨28, _⟩ => ⟨S1x256x128, .f32⟩
  | .local _ .vmem, ⟨29, _⟩ => ⟨S1x256x128, .f32⟩
  | .local _ .vmem, ⟨30, _⟩ => ⟨S1x5000x128, .f32⟩
  | .local _ .vmem, ⟨31, _⟩ => ⟨S1x5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_4 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_5 : Ref sig .tc := ⟨.hbm, 39, rfl⟩
abbrev main_call2_v0 : Ref sig .tc := ⟨.hbm, 40, rfl⟩
abbrev main_call2_v1 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_6 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_7 : Ref sig .tc := ⟨.hbm, 49, rfl⟩
abbrev main_call3_v0 : Ref sig .tc := ⟨.hbm, 50, rfl⟩
abbrev main_call3_v1 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_8 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_9 : Ref sig .tc := ⟨.hbm, 64, rfl⟩
abbrev main_call4_v0 : Ref sig .tc := ⟨.hbm, 65, rfl⟩
abbrev main_call4_v1 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_10 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_11 : Ref sig .tc := ⟨.hbm, 74, rfl⟩
abbrev main_call5_v0 : Ref sig .tc := ⟨.hbm, 75, rfl⟩
abbrev main_call5_v1 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_12 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_13 : Ref sig .tc := ⟨.hbm, 84, rfl⟩
abbrev main_call6_v0 : Ref sig .tc := ⟨.hbm, 85, rfl⟩
abbrev main_call6_v1 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_cst_14 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_cst_15 : Ref sig .tc := ⟨.hbm, 94, rfl⟩
abbrev main_call7_v0 : Ref sig .tc := ⟨.hbm, 95, rfl⟩
abbrev main_call7_v1 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_cst_16 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_c : Ref sig .tc := ⟨.hbm, 114, rfl⟩
abbrev main_v69 : Ref sig .tc := ⟨.hbm, 115, rfl⟩
abbrev main_v70 : Ref sig .tc := ⟨.hbm, 116, rfl⟩
abbrev main_c_17 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_cst_18 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_c_19 : Ref sig .tc := ⟨.hbm, 143, rfl⟩
abbrev main_v95 : Ref sig .tc := ⟨.hbm, 144, rfl⟩
abbrev main_v96 : Ref sig .tc := ⟨.hbm, 145, rfl⟩
abbrev main_c_20 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_cst_21 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_c_22 : Ref sig .tc := ⟨.hbm, 172, rfl⟩
abbrev main_v121 : Ref sig .tc := ⟨.hbm, 173, rfl⟩
abbrev main_v122 : Ref sig .tc := ⟨.hbm, 174, rfl⟩
abbrev main_c_23 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_cst_24 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_c_25 : Ref sig .tc := ⟨.hbm, 201, rfl⟩
abbrev main_v147 : Ref sig .tc := ⟨.hbm, 202, rfl⟩
abbrev main_v148 : Ref sig .tc := ⟨.hbm, 203, rfl⟩
abbrev main_c_26 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_cst_27 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_call8_cst : Ref sig .tc := ⟨.hbm, 226, rfl⟩
abbrev main_call8_v0 : Ref sig .tc := ⟨.hbm, 227, rfl⟩
abbrev main_v169 : Ref sig .tc := ⟨.hbm, 228, rfl⟩
abbrev main_v170 : Ref sig .tc := ⟨.hbm, 229, rfl⟩
abbrev main_cst_28 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_c_29 : Ref sig .tc := ⟨.hbm, 236, rfl⟩
abbrev main_v176 : Ref sig .tc := ⟨.hbm, 237, rfl⟩
abbrev main_v177 : Ref sig .tc := ⟨.hbm, 238, rfl⟩
abbrev main_c_30 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_cst_31 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_c_32 : Ref sig .tc := ⟨.hbm, 265, rfl⟩
abbrev main_v202 : Ref sig .tc := ⟨.hbm, 266, rfl⟩
abbrev main_v203 : Ref sig .tc := ⟨.hbm, 267, rfl⟩
abbrev main_c_33 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_v210 : Ref sig .tc := ⟨.hbm, 275, rfl⟩
abbrev main_cst_34 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_v224 : Ref sig .tc := ⟨.hbm, 290, rfl⟩
abbrev main_v225 : Ref sig .tc := ⟨.hbm, 291, rfl⟩
abbrev main_v226 : Ref sig .tc := ⟨.hbm, 292, rfl⟩
abbrev main_v227 : Ref sig .tc := ⟨.hbm, 293, rfl⟩
abbrev main_c_35 : Ref sig .tc := ⟨.hbm, 294, rfl⟩
abbrev main_v228 : Ref sig .tc := ⟨.hbm, 295, rfl⟩
abbrev main_v229 : Ref sig .tc := ⟨.hbm, 296, rfl⟩
abbrev main_c_36 : Ref sig .tc := ⟨.hbm, 297, rfl⟩
abbrev main_v230 : Ref sig .tc := ⟨.hbm, 298, rfl⟩
abbrev main_v231 : Ref sig .tc := ⟨.hbm, 299, rfl⟩
abbrev main_v232 : Ref sig .tc := ⟨.hbm, 300, rfl⟩
abbrev main_v233 : Ref sig .tc := ⟨.hbm, 301, rfl⟩
abbrev main_v234 : Ref sig .tc := ⟨.hbm, 302, rfl⟩
abbrev main_v235 : Ref sig .tc := ⟨.hbm, 303, rfl⟩
abbrev main_v236 : Ref sig .tc := ⟨.hbm, 304, rfl⟩
abbrev main_cst_37 : Ref sig .tc := ⟨.hbm, 305, rfl⟩
abbrev main_v237 : Ref sig .tc := ⟨.hbm, 306, rfl⟩
abbrev main_v238 : Ref sig .tc := ⟨.hbm, 307, rfl⟩
abbrev main_v239 : Ref sig .tc := ⟨.hbm, 308, rfl⟩
abbrev main_v240 : Ref sig .tc := ⟨.hbm, 309, rfl⟩
abbrev main_v241 : Ref sig .tc := ⟨.hbm, 310, rfl⟩
abbrev main_v242 : Ref sig .tc := ⟨.hbm, 311, rfl⟩
abbrev main_v243 : Ref sig .tc := ⟨.hbm, 312, rfl⟩
abbrev main_v244 : Ref sig .tc := ⟨.hbm, 313, rfl⟩
abbrev main_v245 : Ref sig .tc := ⟨.hbm, 314, rfl⟩
abbrev main_v246 : Ref sig .tc := ⟨.hbm, 315, rfl⟩
abbrev main_v247 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩
abbrev main_v251 : Ref sig .tc := ⟨.hbm, 320, rfl⟩
abbrev main_v252 : Ref sig .tc := ⟨.hbm, 321, rfl⟩
abbrev main_v253 : Ref sig .tc := ⟨.hbm, 322, rfl⟩
abbrev main_c_38 : Ref sig .tc := ⟨.hbm, 323, rfl⟩
abbrev main_v254 : Ref sig .tc := ⟨.hbm, 324, rfl⟩
abbrev main_v255 : Ref sig .tc := ⟨.hbm, 325, rfl⟩
abbrev main_c_39 : Ref sig .tc := ⟨.hbm, 326, rfl⟩
abbrev main_v256 : Ref sig .tc := ⟨.hbm, 327, rfl⟩
abbrev main_v257 : Ref sig .tc := ⟨.hbm, 328, rfl⟩
abbrev main_v258 : Ref sig .tc := ⟨.hbm, 329, rfl⟩
abbrev main_v259 : Ref sig .tc := ⟨.hbm, 330, rfl⟩
abbrev main_v260 : Ref sig .tc := ⟨.hbm, 331, rfl⟩
abbrev main_v261 : Ref sig .tc := ⟨.hbm, 332, rfl⟩
abbrev main_v262 : Ref sig .tc := ⟨.hbm, 333, rfl⟩
abbrev main_cst_40 : Ref sig .tc := ⟨.hbm, 334, rfl⟩
abbrev main_v263 : Ref sig .tc := ⟨.hbm, 335, rfl⟩
abbrev main_v264 : Ref sig .tc := ⟨.hbm, 336, rfl⟩
abbrev main_v265 : Ref sig .tc := ⟨.hbm, 337, rfl⟩
abbrev main_v266 : Ref sig .tc := ⟨.hbm, 338, rfl⟩
abbrev main_v267 : Ref sig .tc := ⟨.hbm, 339, rfl⟩
abbrev main_v268 : Ref sig .tc := ⟨.hbm, 340, rfl⟩
abbrev main_v269 : Ref sig .tc := ⟨.hbm, 341, rfl⟩
abbrev main_v270 : Ref sig .tc := ⟨.hbm, 342, rfl⟩
abbrev main_v271 : Ref sig .tc := ⟨.hbm, 343, rfl⟩
abbrev main_v272 : Ref sig .tc := ⟨.hbm, 344, rfl⟩
abbrev main_v273 : Ref sig .tc := ⟨.hbm, 345, rfl⟩
abbrev main_v274 : Ref sig .tc := ⟨.hbm, 346, rfl⟩
abbrev main_v275 : Ref sig .tc := ⟨.hbm, 347, rfl⟩
abbrev main_call9_cst : Ref sig .tc := ⟨.hbm, 348, rfl⟩
abbrev main_call9_v0 : Ref sig .tc := ⟨.hbm, 349, rfl⟩
abbrev main_v276 : Ref sig .tc := ⟨.hbm, 350, rfl⟩
abbrev main_v277 : Ref sig .tc := ⟨.hbm, 351, rfl⟩
abbrev main_cst_41 : Ref sig .tc := ⟨.hbm, 352, rfl⟩
abbrev main_v278 : Ref sig .tc := ⟨.hbm, 353, rfl⟩
abbrev main_v279 : Ref sig .tc := ⟨.hbm, 354, rfl⟩
abbrev main_v280 : Ref sig .tc := ⟨.hbm, 355, rfl⟩
abbrev main_v281 : Ref sig .tc := ⟨.hbm, 356, rfl⟩
abbrev main_v282 : Ref sig .tc := ⟨.hbm, 357, rfl⟩
abbrev main_c_42 : Ref sig .tc := ⟨.hbm, 358, rfl⟩
abbrev main_v283 : Ref sig .tc := ⟨.hbm, 359, rfl⟩
abbrev main_v284 : Ref sig .tc := ⟨.hbm, 360, rfl⟩
abbrev main_c_43 : Ref sig .tc := ⟨.hbm, 361, rfl⟩
abbrev main_v285 : Ref sig .tc := ⟨.hbm, 362, rfl⟩
abbrev main_v286 : Ref sig .tc := ⟨.hbm, 363, rfl⟩
abbrev main_v287 : Ref sig .tc := ⟨.hbm, 364, rfl⟩
abbrev main_v288 : Ref sig .tc := ⟨.hbm, 365, rfl⟩
abbrev main_v289 : Ref sig .tc := ⟨.hbm, 366, rfl⟩
abbrev main_v290 : Ref sig .tc := ⟨.hbm, 367, rfl⟩
abbrev main_v291 : Ref sig .tc := ⟨.hbm, 368, rfl⟩
abbrev main_cst_44 : Ref sig .tc := ⟨.hbm, 369, rfl⟩
abbrev main_v292 : Ref sig .tc := ⟨.hbm, 370, rfl⟩
abbrev main_v293 : Ref sig .tc := ⟨.hbm, 371, rfl⟩
abbrev main_v294 : Ref sig .tc := ⟨.hbm, 372, rfl⟩
abbrev main_v295 : Ref sig .tc := ⟨.hbm, 373, rfl⟩
abbrev main_v296 : Ref sig .tc := ⟨.hbm, 374, rfl⟩
abbrev main_v297 : Ref sig .tc := ⟨.hbm, 375, rfl⟩
abbrev main_v298 : Ref sig .tc := ⟨.hbm, 376, rfl⟩
abbrev main_v299 : Ref sig .tc := ⟨.hbm, 377, rfl⟩
abbrev main_v300 : Ref sig .tc := ⟨.hbm, 378, rfl⟩
abbrev main_v301 : Ref sig .tc := ⟨.hbm, 379, rfl⟩
abbrev main_v302 : Ref sig .tc := ⟨.hbm, 380, rfl⟩
abbrev main_v303 : Ref sig .tc := ⟨.hbm, 381, rfl⟩
abbrev main_v304 : Ref sig .tc := ⟨.hbm, 382, rfl⟩
abbrev main_v305 : Ref sig .tc := ⟨.hbm, 383, rfl⟩
abbrev main_v306 : Ref sig .tc := ⟨.hbm, 384, rfl⟩
abbrev main_v307 : Ref sig .tc := ⟨.hbm, 385, rfl⟩
abbrev main_v308 : Ref sig .tc := ⟨.hbm, 386, rfl⟩
abbrev main_c_45 : Ref sig .tc := ⟨.hbm, 387, rfl⟩
abbrev main_v309 : Ref sig .tc := ⟨.hbm, 388, rfl⟩
abbrev main_v310 : Ref sig .tc := ⟨.hbm, 389, rfl⟩
abbrev main_c_46 : Ref sig .tc := ⟨.hbm, 390, rfl⟩
abbrev main_v311 : Ref sig .tc := ⟨.hbm, 391, rfl⟩
abbrev main_v312 : Ref sig .tc := ⟨.hbm, 392, rfl⟩
abbrev main_v313 : Ref sig .tc := ⟨.hbm, 393, rfl⟩
abbrev main_v314 : Ref sig .tc := ⟨.hbm, 394, rfl⟩
abbrev main_v315 : Ref sig .tc := ⟨.hbm, 395, rfl⟩
abbrev main_v316 : Ref sig .tc := ⟨.hbm, 396, rfl⟩
abbrev main_v317 : Ref sig .tc := ⟨.hbm, 397, rfl⟩
abbrev main_cst_47 : Ref sig .tc := ⟨.hbm, 398, rfl⟩
abbrev main_v318 : Ref sig .tc := ⟨.hbm, 399, rfl⟩
abbrev main_v319 : Ref sig .tc := ⟨.hbm, 400, rfl⟩
abbrev main_v320 : Ref sig .tc := ⟨.hbm, 401, rfl⟩
abbrev main_v321 : Ref sig .tc := ⟨.hbm, 402, rfl⟩
abbrev main_v322 : Ref sig .tc := ⟨.hbm, 403, rfl⟩
abbrev main_v323 : Ref sig .tc := ⟨.hbm, 404, rfl⟩
abbrev main_v324 : Ref sig .tc := ⟨.hbm, 405, rfl⟩
abbrev main_v325 : Ref sig .tc := ⟨.hbm, 406, rfl⟩
abbrev main_v326 : Ref sig .tc := ⟨.hbm, 407, rfl⟩
abbrev main_v327 : Ref sig .tc := ⟨.hbm, 408, rfl⟩
abbrev main_v328 : Ref sig .tc := ⟨.hbm, 409, rfl⟩
abbrev main_v329 : Ref sig .tc := ⟨.hbm, 410, rfl⟩
abbrev main_v330 : Ref sig .tc := ⟨.hbm, 411, rfl⟩
abbrev main_v331 : Ref sig .tc := ⟨.hbm, 412, rfl⟩
abbrev main_v332 : Ref sig .tc := ⟨.hbm, 413, rfl⟩
abbrev main_v333 : Ref sig .tc := ⟨.hbm, 414, rfl⟩
abbrev main_v334 : Ref sig .tc := ⟨.hbm, 415, rfl⟩
abbrev main_c_48 : Ref sig .tc := ⟨.hbm, 416, rfl⟩
abbrev main_v335 : Ref sig .tc := ⟨.hbm, 417, rfl⟩
abbrev main_v336 : Ref sig .tc := ⟨.hbm, 418, rfl⟩
abbrev main_c_49 : Ref sig .tc := ⟨.hbm, 419, rfl⟩
abbrev main_v337 : Ref sig .tc := ⟨.hbm, 420, rfl⟩
abbrev main_v338 : Ref sig .tc := ⟨.hbm, 421, rfl⟩
abbrev main_v339 : Ref sig .tc := ⟨.hbm, 422, rfl⟩
abbrev main_v340 : Ref sig .tc := ⟨.hbm, 423, rfl⟩
abbrev main_v341 : Ref sig .tc := ⟨.hbm, 424, rfl⟩
abbrev main_v342 : Ref sig .tc := ⟨.hbm, 425, rfl⟩
abbrev main_v343 : Ref sig .tc := ⟨.hbm, 426, rfl⟩
abbrev main_cst_50 : Ref sig .tc := ⟨.hbm, 427, rfl⟩
abbrev main_v344 : Ref sig .tc := ⟨.hbm, 428, rfl⟩
abbrev main_v345 : Ref sig .tc := ⟨.hbm, 429, rfl⟩
abbrev main_v346 : Ref sig .tc := ⟨.hbm, 430, rfl⟩
abbrev main_v347 : Ref sig .tc := ⟨.hbm, 431, rfl⟩
abbrev main_v348 : Ref sig .tc := ⟨.hbm, 432, rfl⟩
abbrev main_v349 : Ref sig .tc := ⟨.hbm, 433, rfl⟩
abbrev main_v350 : Ref sig .tc := ⟨.hbm, 434, rfl⟩
abbrev main_v351 : Ref sig .tc := ⟨.hbm, 435, rfl⟩
abbrev main_v352 : Ref sig .tc := ⟨.hbm, 436, rfl⟩
abbrev main_v353 : Ref sig .tc := ⟨.hbm, 437, rfl⟩
abbrev main_v354 : Ref sig .tc := ⟨.hbm, 438, rfl⟩
abbrev main_v355 : Ref sig .tc := ⟨.hbm, 439, rfl⟩
abbrev main_v356 : Ref sig .tc := ⟨.hbm, 440, rfl⟩
abbrev main_v357 : Ref sig .tc := ⟨.hbm, 441, rfl⟩
abbrev main_v358 : Ref sig .tc := ⟨.hbm, 442, rfl⟩
abbrev main_v359 : Ref sig .tc := ⟨.hbm, 443, rfl⟩
abbrev main_v360 : Ref sig .tc := ⟨.hbm, 444, rfl⟩
abbrev main_c_51 : Ref sig .tc := ⟨.hbm, 445, rfl⟩
abbrev main_v361 : Ref sig .tc := ⟨.hbm, 446, rfl⟩
abbrev main_v362 : Ref sig .tc := ⟨.hbm, 447, rfl⟩
abbrev main_c_52 : Ref sig .tc := ⟨.hbm, 448, rfl⟩
abbrev main_v363 : Ref sig .tc := ⟨.hbm, 449, rfl⟩
abbrev main_v364 : Ref sig .tc := ⟨.hbm, 450, rfl⟩
abbrev main_v365 : Ref sig .tc := ⟨.hbm, 451, rfl⟩
abbrev main_v366 : Ref sig .tc := ⟨.hbm, 452, rfl⟩
abbrev main_v367 : Ref sig .tc := ⟨.hbm, 453, rfl⟩
abbrev main_v368 : Ref sig .tc := ⟨.hbm, 454, rfl⟩
abbrev main_v369 : Ref sig .tc := ⟨.hbm, 455, rfl⟩
abbrev main_cst_53 : Ref sig .tc := ⟨.hbm, 456, rfl⟩
abbrev main_v370 : Ref sig .tc := ⟨.hbm, 457, rfl⟩
abbrev main_v371 : Ref sig .tc := ⟨.hbm, 458, rfl⟩
abbrev main_v372 : Ref sig .tc := ⟨.hbm, 459, rfl⟩
abbrev main_v373 : Ref sig .tc := ⟨.hbm, 460, rfl⟩
abbrev main_v374 : Ref sig .tc := ⟨.hbm, 461, rfl⟩
abbrev main_v375 : Ref sig .tc := ⟨.hbm, 462, rfl⟩
abbrev main_v376 : Ref sig .tc := ⟨.hbm, 463, rfl⟩
abbrev main_v377 : Ref sig .tc := ⟨.hbm, 464, rfl⟩
abbrev main_v378 : Ref sig .tc := ⟨.hbm, 465, rfl⟩
abbrev main_v379 : Ref sig .tc := ⟨.hbm, 466, rfl⟩
abbrev main_v380 : Ref sig .tc := ⟨.hbm, 467, rfl⟩
abbrev main_v381 : Ref sig .tc := ⟨.hbm, 468, rfl⟩
abbrev main_v382 : Ref sig .tc := ⟨.hbm, 469, rfl⟩
abbrev main_call10_cst : Ref sig .tc := ⟨.hbm, 470, rfl⟩
abbrev main_call10_v0 : Ref sig .tc := ⟨.hbm, 471, rfl⟩
abbrev main_v383 : Ref sig .tc := ⟨.hbm, 472, rfl⟩
abbrev main_v384 : Ref sig .tc := ⟨.hbm, 473, rfl⟩
abbrev main_cst_54 : Ref sig .tc := ⟨.hbm, 474, rfl⟩
abbrev main_v385 : Ref sig .tc := ⟨.hbm, 475, rfl⟩
abbrev main_v386 : Ref sig .tc := ⟨.hbm, 476, rfl⟩
abbrev main_v387 : Ref sig .tc := ⟨.hbm, 477, rfl⟩
abbrev main_v388 : Ref sig .tc := ⟨.hbm, 478, rfl⟩
abbrev main_v389 : Ref sig .tc := ⟨.hbm, 479, rfl⟩
abbrev main_c_55 : Ref sig .tc := ⟨.hbm, 480, rfl⟩
abbrev main_v390 : Ref sig .tc := ⟨.hbm, 481, rfl⟩
abbrev main_v391 : Ref sig .tc := ⟨.hbm, 482, rfl⟩
abbrev main_c_56 : Ref sig .tc := ⟨.hbm, 483, rfl⟩
abbrev main_v392 : Ref sig .tc := ⟨.hbm, 484, rfl⟩
abbrev main_v393 : Ref sig .tc := ⟨.hbm, 485, rfl⟩
abbrev main_v394 : Ref sig .tc := ⟨.hbm, 486, rfl⟩
abbrev main_v395 : Ref sig .tc := ⟨.hbm, 487, rfl⟩
abbrev main_v396 : Ref sig .tc := ⟨.hbm, 488, rfl⟩
abbrev main_v397 : Ref sig .tc := ⟨.hbm, 489, rfl⟩
abbrev main_v398 : Ref sig .tc := ⟨.hbm, 490, rfl⟩
abbrev main_cst_57 : Ref sig .tc := ⟨.hbm, 491, rfl⟩
abbrev main_v399 : Ref sig .tc := ⟨.hbm, 492, rfl⟩
abbrev main_v400 : Ref sig .tc := ⟨.hbm, 493, rfl⟩
abbrev main_v401 : Ref sig .tc := ⟨.hbm, 494, rfl⟩
abbrev main_v402 : Ref sig .tc := ⟨.hbm, 495, rfl⟩
abbrev main_v403 : Ref sig .tc := ⟨.hbm, 496, rfl⟩
abbrev main_v404 : Ref sig .tc := ⟨.hbm, 497, rfl⟩
abbrev main_v405 : Ref sig .tc := ⟨.hbm, 498, rfl⟩
abbrev main_v406 : Ref sig .tc := ⟨.hbm, 499, rfl⟩
abbrev main_v407 : Ref sig .tc := ⟨.hbm, 500, rfl⟩
abbrev main_v408 : Ref sig .tc := ⟨.hbm, 501, rfl⟩
abbrev main_v409 : Ref sig .tc := ⟨.hbm, 502, rfl⟩
abbrev main_v410 : Ref sig .tc := ⟨.hbm, 503, rfl⟩
abbrev main_v411 : Ref sig .tc := ⟨.hbm, 504, rfl⟩
abbrev main_v412 : Ref sig .tc := ⟨.hbm, 505, rfl⟩
abbrev main_v413 : Ref sig .tc := ⟨.hbm, 506, rfl⟩
abbrev main_v414 : Ref sig .tc := ⟨.hbm, 507, rfl⟩
abbrev main_v415 : Ref sig .tc := ⟨.hbm, 508, rfl⟩
abbrev main_c_58 : Ref sig .tc := ⟨.hbm, 509, rfl⟩
abbrev main_v416 : Ref sig .tc := ⟨.hbm, 510, rfl⟩
abbrev main_v417 : Ref sig .tc := ⟨.hbm, 511, rfl⟩
abbrev main_c_59 : Ref sig .tc := ⟨.hbm, 512, rfl⟩
abbrev main_v418 : Ref sig .tc := ⟨.hbm, 513, rfl⟩
abbrev main_v419 : Ref sig .tc := ⟨.hbm, 514, rfl⟩
abbrev main_v420 : Ref sig .tc := ⟨.hbm, 515, rfl⟩
abbrev main_v421 : Ref sig .tc := ⟨.hbm, 516, rfl⟩
abbrev main_v422 : Ref sig .tc := ⟨.hbm, 517, rfl⟩
abbrev main_v423 : Ref sig .tc := ⟨.hbm, 518, rfl⟩
abbrev main_v424 : Ref sig .tc := ⟨.hbm, 519, rfl⟩
abbrev main_cst_60 : Ref sig .tc := ⟨.hbm, 520, rfl⟩
abbrev main_v425 : Ref sig .tc := ⟨.hbm, 521, rfl⟩
abbrev main_v426 : Ref sig .tc := ⟨.hbm, 522, rfl⟩
abbrev main_v427 : Ref sig .tc := ⟨.hbm, 523, rfl⟩
abbrev main_v428 : Ref sig .tc := ⟨.hbm, 524, rfl⟩
abbrev main_v429 : Ref sig .tc := ⟨.hbm, 525, rfl⟩
abbrev main_v430 : Ref sig .tc := ⟨.hbm, 526, rfl⟩
abbrev main_v431 : Ref sig .tc := ⟨.hbm, 527, rfl⟩
abbrev main_v432 : Ref sig .tc := ⟨.hbm, 528, rfl⟩
abbrev main_v433 : Ref sig .tc := ⟨.hbm, 529, rfl⟩
abbrev main_v434 : Ref sig .tc := ⟨.hbm, 530, rfl⟩
abbrev main_v435 : Ref sig .tc := ⟨.hbm, 531, rfl⟩
abbrev main_v436 : Ref sig .tc := ⟨.hbm, 532, rfl⟩
abbrev main_v437 : Ref sig .tc := ⟨.hbm, 533, rfl⟩
abbrev main_v438 : Ref sig .tc := ⟨.hbm, 534, rfl⟩
abbrev main_v439 : Ref sig .tc := ⟨.hbm, 535, rfl⟩
abbrev main_v440 : Ref sig .tc := ⟨.hbm, 536, rfl⟩
abbrev main_v441 : Ref sig .tc := ⟨.hbm, 537, rfl⟩
abbrev main_c_61 : Ref sig .tc := ⟨.hbm, 538, rfl⟩
abbrev main_v442 : Ref sig .tc := ⟨.hbm, 539, rfl⟩
abbrev main_v443 : Ref sig .tc := ⟨.hbm, 540, rfl⟩
abbrev main_c_62 : Ref sig .tc := ⟨.hbm, 541, rfl⟩
abbrev main_v444 : Ref sig .tc := ⟨.hbm, 542, rfl⟩
abbrev main_v445 : Ref sig .tc := ⟨.hbm, 543, rfl⟩
abbrev main_v446 : Ref sig .tc := ⟨.hbm, 544, rfl⟩
abbrev main_v447 : Ref sig .tc := ⟨.hbm, 545, rfl⟩
abbrev main_v448 : Ref sig .tc := ⟨.hbm, 546, rfl⟩
abbrev main_v449 : Ref sig .tc := ⟨.hbm, 547, rfl⟩
abbrev main_v450 : Ref sig .tc := ⟨.hbm, 548, rfl⟩
abbrev main_cst_63 : Ref sig .tc := ⟨.hbm, 549, rfl⟩
abbrev main_v451 : Ref sig .tc := ⟨.hbm, 550, rfl⟩
abbrev main_v452 : Ref sig .tc := ⟨.hbm, 551, rfl⟩
abbrev main_v453 : Ref sig .tc := ⟨.hbm, 552, rfl⟩
abbrev main_v454 : Ref sig .tc := ⟨.hbm, 553, rfl⟩
abbrev main_v455 : Ref sig .tc := ⟨.hbm, 554, rfl⟩
abbrev main_v456 : Ref sig .tc := ⟨.hbm, 555, rfl⟩
abbrev main_v457 : Ref sig .tc := ⟨.hbm, 556, rfl⟩
abbrev main_v458 : Ref sig .tc := ⟨.hbm, 557, rfl⟩
abbrev main_v459 : Ref sig .tc := ⟨.hbm, 558, rfl⟩
abbrev main_v460 : Ref sig .tc := ⟨.hbm, 559, rfl⟩
abbrev main_v461 : Ref sig .tc := ⟨.hbm, 560, rfl⟩
abbrev main_v462 : Ref sig .tc := ⟨.hbm, 561, rfl⟩
abbrev main_v463 : Ref sig .tc := ⟨.hbm, 562, rfl⟩
abbrev main_v464 : Ref sig .tc := ⟨.hbm, 563, rfl⟩
abbrev main_v465 : Ref sig .tc := ⟨.hbm, 564, rfl⟩
abbrev main_v466 : Ref sig .tc := ⟨.hbm, 565, rfl⟩
abbrev main_v467 : Ref sig .tc := ⟨.hbm, 566, rfl⟩
abbrev main_c_64 : Ref sig .tc := ⟨.hbm, 567, rfl⟩
abbrev main_v468 : Ref sig .tc := ⟨.hbm, 568, rfl⟩
abbrev main_v469 : Ref sig .tc := ⟨.hbm, 569, rfl⟩
abbrev main_c_65 : Ref sig .tc := ⟨.hbm, 570, rfl⟩
abbrev main_v470 : Ref sig .tc := ⟨.hbm, 571, rfl⟩
abbrev main_v471 : Ref sig .tc := ⟨.hbm, 572, rfl⟩
abbrev main_v472 : Ref sig .tc := ⟨.hbm, 573, rfl⟩
abbrev main_v473 : Ref sig .tc := ⟨.hbm, 574, rfl⟩
abbrev main_v474 : Ref sig .tc := ⟨.hbm, 575, rfl⟩
abbrev main_v475 : Ref sig .tc := ⟨.hbm, 576, rfl⟩
abbrev main_v476 : Ref sig .tc := ⟨.hbm, 577, rfl⟩
abbrev main_cst_66 : Ref sig .tc := ⟨.hbm, 578, rfl⟩
abbrev main_v477 : Ref sig .tc := ⟨.hbm, 579, rfl⟩
abbrev main_v478 : Ref sig .tc := ⟨.hbm, 580, rfl⟩
abbrev main_v479 : Ref sig .tc := ⟨.hbm, 581, rfl⟩
abbrev main_v480 : Ref sig .tc := ⟨.hbm, 582, rfl⟩
abbrev main_v481 : Ref sig .tc := ⟨.hbm, 583, rfl⟩
abbrev main_v482 : Ref sig .tc := ⟨.hbm, 584, rfl⟩
abbrev main_v483 : Ref sig .tc := ⟨.hbm, 585, rfl⟩
abbrev main_v484 : Ref sig .tc := ⟨.hbm, 586, rfl⟩
abbrev main_v485 : Ref sig .tc := ⟨.hbm, 587, rfl⟩
abbrev main_v486 : Ref sig .tc := ⟨.hbm, 588, rfl⟩
abbrev main_v487 : Ref sig .tc := ⟨.hbm, 589, rfl⟩
abbrev main_v488 : Ref sig .tc := ⟨.hbm, 590, rfl⟩
abbrev main_v489 : Ref sig .tc := ⟨.hbm, 591, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31

abbrev nD : Nat := 1
abbrev τ : Topo := Topo.v7x

variable {F : FTy → Type} [FloatOps F]

abbrev grid0 : Pipeline.Grid := ⟨2, ![10, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![10, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![10, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x256x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x5000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![10, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1x5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x256x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1x5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

class Facts₀ : Prop where
  bcast_S_S400000 : S_.BroadcastsInDim S400000 (![] : Fin 0 → Fin S400000.rank)
  slices_S4x400000_S1x400000_0_0 : S4x400000.Slices ![0, 0] S1x400000
  shapeCasts_S1x400000_S400000 : S1x400000.ShapeCasts S400000
  bcast_S_S50000 : S_.BroadcastsInDim S50000 (![] : Fin 0 → Fin S50000.rank)
  bcast_S400000_S400000x1_0 : S400000.BroadcastsInDim S400000x1 (![0] : Fin 1 → Fin S400000x1.rank)
  slices_S4x400000_S1x400000_1_0 : S4x400000.Slices ![1, 0] S1x400000
  slices_S4x400000_S1x400000_2_0 : S4x400000.Slices ![2, 0] S1x400000
  slices_S4x400000_S1x400000_3_0 : S4x400000.Slices ![3, 0] S1x400000
  bcast_S50000_S1x50000_1 : S50000.BroadcastsInDim S1x50000 (![1] : Fin 1 → Fin S1x50000.rank)
  concatenates_S1x50000_S1x50000_S1x50000_S1x50000_S4x50000_d0 : Shape.Concatenates [S1x50000, S1x50000, S1x50000, S1x50000] S4x50000 0
  bcast_S4x50000_S4x50000x1_0_1 : S4x50000.BroadcastsInDim S4x50000x1 (![0, 1] : Fin 2 → Fin S4x50000x1.rank)
  inb_S5000x256_S5000x256_0_0 : ∀ a, (![0, 0] : Fin 2 → Nat) a + S5000x256.size a ≤ S5000x256.size a
  h_S5000x256 : 0 < S5000x256.numel
  inb_S1x5000x1_S1x5000x1_0_0_0 : ∀ a, (![0, 0, 0] : Fin 3 → Nat) a + S1x5000x1.size a ≤ S1x5000x1.size a
  h_S1x5000x1 : 0 < S1x5000x1.numel
  shapeCasts_S1x5000x1_S5000x1 : S1x5000x1.ShapeCasts S5000x1
  broadcasts_S5000x1_S5000x256 : S5000x1.Broadcasts S5000x256
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x5000x256_S1x5000x256_0_0_0 : ∀ a, (![0, 0, 0] : Fin 3 → Nat) a + S1x5000x256.size a ≤ S1x5000x256.size a
  h_S1x5000x256 : 0 < S1x5000x256.numel
  shapeCasts_S1x5000x256_S5000x256 : S1x5000x256.ShapeCasts S5000x256
  shapeCasts_S5000x256_S1x5000x256 : S5000x256.ShapeCasts S1x5000x256
  bcast_S_S50000x256 : S_.BroadcastsInDim S50000x256 (![] : Fin 0 → Fin S50000x256.rank)
  slices_S4x50000x256_S1x50000x256_0_0_0 : S4x50000x256.Slices ![0, 0, 0] S1x50000x256
  shapeCasts_S1x50000x256_S50000x256 : S1x50000x256.ShapeCasts S50000x256
  slices_S4x50000x1_S1x50000x1_0_0_0 : S4x50000x1.Slices ![0, 0, 0] S1x50000x1
  shapeCasts_S1x50000x1_S50000x1 : S1x50000x1.ShapeCasts S50000x1
  bcast_S50000x1_S50000x256_0_1 : S50000x1.BroadcastsInDim S50000x256 (![0, 1] : Fin 2 → Fin S50000x256.rank)
  slices_S4x256_S1x256_0_0 : S4x256.Slices ![0, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S4x50000x256_S1x50000x256_1_0_0 : S4x50000x256.Slices ![1, 0, 0] S1x50000x256
  slices_S4x50000x1_S1x50000x1_1_0_0 : S4x50000x1.Slices ![1, 0, 0] S1x50000x1
  slices_S4x256_S1x256_1_0 : S4x256.Slices ![1, 0] S1x256
  slices_S4x50000x256_S1x50000x256_2_0_0 : S4x50000x256.Slices ![2, 0, 0] S1x50000x256
  slices_S4x50000x1_S1x50000x1_2_0_0 : S4x50000x1.Slices ![2, 0, 0] S1x50000x1
  slices_S4x256_S1x256_2_0 : S4x256.Slices ![2, 0] S1x256
  slices_S4x50000x256_S1x50000x256_3_0_0 : S4x50000x256.Slices ![3, 0, 0] S1x50000x256
  slices_S4x50000x1_S1x50000x1_3_0_0 : S4x50000x1.Slices ![3, 0, 0] S1x50000x1
  slices_S4x256_S1x256_3_0 : S4x256.Slices ![3, 0] S1x256
  shapeCasts_S5000x256_S5000x256 : S5000x256.ShapeCasts S5000x256
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x5000x128_S1x5000x128_0_0_0 : ∀ a, (![0, 0, 0] : Fin 3 → Nat) a + S1x5000x128.size a ≤ S1x5000x128.size a
  h_S1x5000x128 : 0 < S1x5000x128.numel
  shapeCasts_S1x5000x128_S5000x128 : S1x5000x128.ShapeCasts S5000x128
  shapeCasts_S5000x128_S1x5000x128 : S5000x128.ShapeCasts S1x5000x128
  bcast_S_S50000x128 : S_.BroadcastsInDim S50000x128 (![] : Fin 0 → Fin S50000x128.rank)
  slices_S4x50000x128_S1x50000x128_0_0_0 : S4x50000x128.Slices ![0, 0, 0] S1x50000x128
  shapeCasts_S1x50000x128_S50000x128 : S1x50000x128.ShapeCasts S50000x128
  bcast_S50000x1_S50000x128_0_1 : S50000x1.BroadcastsInDim S50000x128 (![0, 1] : Fin 2 → Fin S50000x128.rank)
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S4x50000x128_S1x50000x128_1_0_0 : S4x50000x128.Slices ![1, 0, 0] S1x50000x128
  slices_S4x128_S1x128_1_0 : S4x128.Slices ![1, 0] S1x128
  slices_S4x50000x128_S1x50000x128_2_0_0 : S4x50000x128.Slices ![2, 0, 0] S1x50000x128
  slices_S4x128_S1x128_2_0 : S4x128.Slices ![2, 0] S1x128
  slices_S4x50000x128_S1x50000x128_3_0_0 : S4x50000x128.Slices ![3, 0, 0] S1x50000x128
  slices_S4x128_S1x128_3_0 : S4x128.Slices ![3, 0] S1x128
  scatter_S50000_S400000x1_S400000_n_0_0_1_wf : ScatterDims.WF S50000 S400000x1 S400000 [] [0] [0] 1
  dot_S5000x256_S256x256_S5000x256_1_0_0_1_n_n_wf : DotDims.WF S5000x256 S256x256 S5000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  dot_S5000x256_S256x128_S5000x128_1_0_0_1_n_n_wf : DotDims.WF S5000x256 S256x128 S5000x128 [1] [0] [0] [1] [] []
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x5000x1.size a ≤ S4x50000x1.size a
  hwx0_1 : ∀ i : grid0.Coords, EltTy.bits .f32 = 32 ∨ (Rect.block (s := S4x50000x1) S1x5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x256.size a ≤ S4x256x256.size a
  hwx0_2 : ∀ i : grid0.Coords, EltTy.bits .f32 = 32 ∨ (Rect.block (s := S4x256x256) S1x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x5000x256.size a ≤ S4x50000x256.size a
  hwx0_3 : ∀ i : grid0.Coords, EltTy.bits .f32 = 32 ∨ (Rect.block (s := S4x50000x256) S1x5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x5000x1.size a ≤ S4x50000x1.size a
  hwx1_1 : ∀ i : grid1.Coords, EltTy.bits .f32 = 32 ∨ (Rect.block (s := S4x50000x1) S1x5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x256.size a ≤ S4x256x256.size a
  hwx1_2 : ∀ i : grid1.Coords, EltTy.bits .f32 = 32 ∨ (Rect.block (s := S4x256x256) S1x256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x5000x256.size a ≤ S4x50000x256.size a
  hwx1_3 : ∀ i : grid1.Coords, EltTy.bits .f32 = 32 ∨ (Rect.block (s := S4x50000x256) S1x5000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x5000x1.size a ≤ S4x50000x1.size a
  hwx2_1 : ∀ i : grid2.Coords, EltTy.bits .f32 = 32 ∨ (Rect.block (s := S4x50000x1) S1x5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x256x256.size a ≤ S4x256x256.size a
  hwx2_2 : ∀ i : grid2.Coords, EltTy.bits .f32 = 32 ∨ (Rect.block (s := S4x256x256) S1x256x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x5000x256.size a ≤ S4x50000x256.size a
  hwx2_3 : ∀ i : grid2.Coords, EltTy.bits .f32 = 32 ∨ (Rect.block (s := S4x50000x256) S1x5000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x5000x1.size a ≤ S4x50000x1.size a
  hwx3_1 : ∀ i : grid3.Coords, EltTy.bits .f32 = 32 ∨ (Rect.block (s := S4x50000x1) S1x5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x256x128.size a ≤ S4x256x128.size a
  hwx3_2 : ∀ i : grid3.Coords, EltTy.bits .f32 = 32 ∨ (Rect.block (s := S4x256x128) S1x256x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x5000x128.size a ≤ S4x50000x128.size a
  hwx3_3 : ∀ i : grid3.Coords, EltTy.bits .f32 = 32 ∨ (Rect.block (s := S4x50000x128) S1x5000x128.size (cc3_transform_3 i) (hinb3_3 i)).WholeWords (EltTy.packing .f32)

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v60) S1x5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v63) S1x5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v169) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S1x5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1x256x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v170) S1x5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v276) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S1x256x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v277) S1x5000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v383) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S1x256x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v384) S1x5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x256 : Shape := ⟨2, ![50000, 256]⟩
abbrev S4x256x256 : Shape := ⟨3, ![4, 256, 256]⟩
abbrev S4x256 : Shape := ⟨2, ![4, 256]⟩
abbrev S4x256x128 : Shape := ⟨3, ![4, 256, 128]⟩
abbrev S4x128 : Shape := ⟨2, ![4, 128]⟩
abbrev S4x400000 : Shape := ⟨2, ![4, 400000]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1x400000 : Shape := ⟨2, ![1, 400000]⟩
abbrev S400000 : Shape := ⟨1, ![400000]⟩
abbrev S_ : Shape := ⟨0, ![]⟩
abbrev S50000 : Shape := ⟨1, ![50000]⟩
abbrev S400000x1 : Shape := ⟨2, ![400000, 1]⟩
abbrev S50000x1 : Shape := ⟨2, ![50000, 1]⟩
abbrev S400000x256 : Shape := ⟨2, ![400000, 256]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩
abbrev S50000x128 : Shape := ⟨2, ![50000, 128]⟩
abbrev S400000x128 : Shape := ⟨2, ![400000, 128]⟩

abbrev nBuf : Space → Nat
  | .hbm => 848
  | .vmem => 0
  | .smem => 0
  | _ => 0

abbrev hbmTy0_0 (i : Nat) : BufTy := match i % 128 with
  | 0 => ⟨S50000x256, .f32⟩
  | 1 => ⟨S4x256x256, .f32⟩
  | 2 => ⟨S4x256, .f32⟩
  | 3 => ⟨S4x256x256, .f32⟩
  | 4 => ⟨S4x256, .f32⟩
  | 5 => ⟨S4x256x256, .f32⟩
  | 6 => ⟨S4x256, .f32⟩
  | 7 => ⟨S4x256x128, .f32⟩
  | 8 => ⟨S4x128, .f32⟩
  | 9 => ⟨S4x400000, .i32⟩
  | 10 => ⟨S4x400000, .i32⟩
  | 11 => ⟨S1x256x256, .f32⟩
  | 12 => ⟨S256x256, .f32⟩
  | 13 => ⟨S1x256, .f32⟩
  | 14 => ⟨S256, .f32⟩
  | 15 => ⟨S1x400000, .i32⟩
  | 16 => ⟨S400000, .i32⟩
  | 17 => ⟨S1x400000, .i32⟩
  | 18 => ⟨S400000, .i32⟩
  | 19 => ⟨S_, .f32⟩
  | 20 => ⟨S400000, .f32⟩
  | 21 => ⟨S_, .f32⟩
  | 22 => ⟨S50000, .f32⟩
  | 23 => ⟨S400000x1, .i32⟩
  | 24 => ⟨S50000, .f32⟩
  | 25 => ⟨S_, .f32⟩
  | 26 => ⟨S_, .f32⟩
  | 27 => ⟨S50000, .f32⟩
  | 28 => ⟨S50000, .f32⟩
  | 29 => ⟨S_, .f32⟩
  | 30 => ⟨S50000, .f32⟩
  | 31 => ⟨S400000x1, .i32⟩
  | 32 => ⟨S50000, .f32⟩
  | 33 => ⟨S_, .f32⟩
  | 34 => ⟨S_, .f32⟩
  | 35 => ⟨S50000, .f32⟩
  | 36 => ⟨S50000, .f32⟩
  | 37 => ⟨S50000, .f32⟩
  | 38 => ⟨S50000x1, .f32⟩
  | 39 => ⟨S50000x256, .f32⟩
  | 40 => ⟨S50000x256, .f32⟩
  | 41 => ⟨S50000x256, .f32⟩
  | 42 => ⟨S_, .i32⟩
  | 43 => ⟨S400000, .i32⟩
  | 44 => ⟨S400000, .i1⟩
  | 45 => ⟨S_, .i32⟩
  | 46 => ⟨S400000, .i32⟩
  | 47 => ⟨S400000, .i32⟩
  | 48 => ⟨S400000, .i32⟩
  | 49 => ⟨S400000x1, .i32⟩
  | 50 => ⟨S400000x256, .f32⟩
  | 51 => ⟨S_, .f32⟩
  | 52 => ⟨S50000x256, .f32⟩
  | 53 => ⟨S400000x1, .i32⟩
  | 54 => ⟨S50000x256, .f32⟩
  | 55 => ⟨S50000, .f32⟩
  | 56 => ⟨S50000x1, .f32⟩
  | 57 => ⟨S50000x256, .f32⟩
  | 58 => ⟨S50000x256, .f32⟩
  | 59 => ⟨S1x256, .f32⟩
  | 60 => ⟨S50000x256, .f32⟩
  | 61 => ⟨S50000x256, .f32⟩
  | 62 => ⟨S1x256x256, .f32⟩
  | 63 => ⟨S256x256, .f32⟩
  | 64 => ⟨S1x256, .f32⟩
  | 65 => ⟨S256, .f32⟩
  | 66 => ⟨S1x400000, .i32⟩
  | 67 => ⟨S400000, .i32⟩
  | 68 => ⟨S1x400000, .i32⟩
  | 69 => ⟨S400000, .i32⟩
  | 70 => ⟨S_, .f32⟩
  | 71 => ⟨S400000, .f32⟩
  | 72 => ⟨S_, .f32⟩
  | 73 => ⟨S50000, .f32⟩
  | 74 => ⟨S400000x1, .i32⟩
  | 75 => ⟨S50000, .f32⟩
  | 76 => ⟨S_, .f32⟩
  | 77 => ⟨S_, .f32⟩
  | 78 => ⟨S50000, .f32⟩
  | 79 => ⟨S50000, .f32⟩
  | 80 => ⟨S_, .f32⟩
  | 81 => ⟨S50000, .f32⟩
  | 82 => ⟨S400000x1, .i32⟩
  | 83 => ⟨S50000, .f32⟩
  | 84 => ⟨S_, .f32⟩
  | 85 => ⟨S_, .f32⟩
  | 86 => ⟨S50000, .f32⟩
  | 87 => ⟨S50000, .f32⟩
  | 88 => ⟨S50000, .f32⟩
  | 89 => ⟨S50000x1, .f32⟩
  | 90 => ⟨S50000x256, .f32⟩
  | 91 => ⟨S50000x256, .f32⟩
  | 92 => ⟨S50000x256, .f32⟩
  | 93 => ⟨S_, .i32⟩
  | 94 => ⟨S400000, .i32⟩
  | 95 => ⟨S400000, .i1⟩
  | 96 => ⟨S_, .i32⟩
  | 97 => ⟨S400000, .i32⟩
  | 98 => ⟨S400000, .i32⟩
  | 99 => ⟨S400000, .i32⟩
  | 100 => ⟨S400000x1, .i32⟩
  | 101 => ⟨S400000x256, .f32⟩
  | 102 => ⟨S_, .f32⟩
  | 103 => ⟨S50000x256, .f32⟩
  | 104 => ⟨S400000x1, .i32⟩
  | 105 => ⟨S50000x256, .f32⟩
  | 106 => ⟨S50000, .f32⟩
  | 107 => ⟨S50000x1, .f32⟩
  | 108 => ⟨S50000x256, .f32⟩
  | 109 => ⟨S50000x256, .f32⟩
  | 110 => ⟨S1x256, .f32⟩
  | 111 => ⟨S50000x256, .f32⟩
  | 112 => ⟨S50000x256, .f32⟩
  | 113 => ⟨S50000x256, .f32⟩
  | 114 => ⟨S1x256x256, .f32⟩
  | 115 => ⟨S256x256, .f32⟩
  | 116 => ⟨S1x256, .f32⟩
  | 117 => ⟨S256, .f32⟩
  | 118 => ⟨S1x400000, .i32⟩
  | 119 => ⟨S400000, .i32⟩
  | 120 => ⟨S1x400000, .i32⟩
  | 121 => ⟨S400000, .i32⟩
  | 122 => ⟨S_, .f32⟩
  | 123 => ⟨S400000, .f32⟩
  | 124 => ⟨S_, .f32⟩
  | 125 => ⟨S50000, .f32⟩
  | 126 => ⟨S400000x1, .i32⟩
  | 127 => ⟨S50000, .f32⟩
  | _ => ⟨S50000x256, .f32⟩

abbrev hbmTy0_1 (i : Nat) : BufTy := match i % 128 with
  | 0 => ⟨S_, .f32⟩
  | 1 => ⟨S_, .f32⟩
  | 2 => ⟨S50000, .f32⟩
  | 3 => ⟨S50000, .f32⟩
  | 4 => ⟨S_, .f32⟩
  | 5 => ⟨S50000, .f32⟩
  | 6 => ⟨S400000x1, .i32⟩
  | 7 => ⟨S50000, .f32⟩
  | 8 => ⟨S_, .f32⟩
  | 9 => ⟨S_, .f32⟩
  | 10 => ⟨S50000, .f32⟩
  | 11 => ⟨S50000, .f32⟩
  | 12 => ⟨S50000, .f32⟩
  | 13 => ⟨S50000x1, .f32⟩
  | 14 => ⟨S50000x256, .f32⟩
  | 15 => ⟨S50000x256, .f32⟩
  | 16 => ⟨S50000x256, .f32⟩
  | 17 => ⟨S_, .i32⟩
  | 18 => ⟨S400000, .i32⟩
  | 19 => ⟨S400000, .i1⟩
  | 20 => ⟨S_, .i32⟩
  | 21 => ⟨S400000, .i32⟩
  | 22 => ⟨S400000, .i32⟩
  | 23 => ⟨S400000, .i32⟩
  | 24 => ⟨S400000x1, .i32⟩
  | 25 => ⟨S400000x256, .f32⟩
  | 26 => ⟨S_, .f32⟩
  | 27 => ⟨S50000x256, .f32⟩
  | 28 => ⟨S400000x1, .i32⟩
  | 29 => ⟨S50000x256, .f32⟩
  | 30 => ⟨S50000, .f32⟩
  | 31 => ⟨S50000x1, .f32⟩
  | 32 => ⟨S50000x256, .f32⟩
  | 33 => ⟨S50000x256, .f32⟩
  | 34 => ⟨S1x256, .f32⟩
  | 35 => ⟨S50000x256, .f32⟩
  | 36 => ⟨S50000x256, .f32⟩
  | 37 => ⟨S50000x256, .f32⟩
  | 38 => ⟨S1x256x256, .f32⟩
  | 39 => ⟨S256x256, .f32⟩
  | 40 => ⟨S1x256, .f32⟩
  | 41 => ⟨S256, .f32⟩
  | 42 => ⟨S1x400000, .i32⟩
  | 43 => ⟨S400000, .i32⟩
  | 44 => ⟨S1x400000, .i32⟩
  | 45 => ⟨S400000, .i32⟩
  | 46 => ⟨S_, .f32⟩
  | 47 => ⟨S400000, .f32⟩
  | 48 => ⟨S_, .f32⟩
  | 49 => ⟨S50000, .f32⟩
  | 50 => ⟨S400000x1, .i32⟩
  | 51 => ⟨S50000, .f32⟩
  | 52 => ⟨S_, .f32⟩
  | 53 => ⟨S_, .f32⟩
  | 54 => ⟨S50000, .f32⟩
  | 55 => ⟨S50000, .f32⟩
  | 56 => ⟨S_, .f32⟩
  | 57 => ⟨S50000, .f32⟩
  | 58 => ⟨S400000x1, .i32⟩
  | 59 => ⟨S50000, .f32⟩
  | 60 => ⟨S_, .f32⟩
  | 61 => ⟨S_, .f32⟩
  | 62 => ⟨S50000, .f32⟩
  | 63 => ⟨S50000, .f32⟩
  | 64 => ⟨S50000, .f32⟩
  | 65 => ⟨S50000x1, .f32⟩
  | 66 => ⟨S50000x256, .f32⟩
  | 67 => ⟨S50000x256, .f32⟩
  | 68 => ⟨S50000x256, .f32⟩
  | 69 => ⟨S_, .i32⟩
  | 70 => ⟨S400000, .i32⟩
  | 71 => ⟨S400000, .i1⟩
  | 72 => ⟨S_, .i32⟩
  | 73 => ⟨S400000, .i32⟩
  | 74 => ⟨S400000, .i32⟩
  | 75 => ⟨S400000, .i32⟩
  | 76 => ⟨S400000x1, .i32⟩
  | 77 => ⟨S400000x256, .f32⟩
  | 78 => ⟨S_, .f32⟩
  | 79 => ⟨S50000x256, .f32⟩
  | 80 => ⟨S400000x1, .i32⟩
  | 81 => ⟨S50000x256, .f32⟩
  | 82 => ⟨S50000, .f32⟩
  | 83 => ⟨S50000x1, .f32⟩
  | 84 => ⟨S50000x256, .f32⟩
  | 85 => ⟨S50000x256, .f32⟩
  | 86 => ⟨S1x256, .f32⟩
  | 87 => ⟨S50000x256, .f32⟩
  | 88 => ⟨S50000x256, .f32⟩
  | 89 => ⟨S50000x256, .f32⟩
  | 90 => ⟨S_, .f32⟩
  | 91 => ⟨S50000x256, .f32⟩
  | 92 => ⟨S50000x256, .f32⟩
  | 93 => ⟨S1x256x256, .f32⟩
  | 94 => ⟨S256x256, .f32⟩
  | 95 => ⟨S1x256, .f32⟩
  | 96 => ⟨S256, .f32⟩
  | 97 => ⟨S1x400000, .i32⟩
  | 98 => ⟨S400000, .i32⟩
  | 99 => ⟨S1x400000, .i32⟩
  | 100 => ⟨S400000, .i32⟩
  | 101 => ⟨S_, .f32⟩
  | 102 => ⟨S400000, .f32⟩
  | 103 => ⟨S_, .f32⟩
  | 104 => ⟨S50000, .f32⟩
  | 105 => ⟨S400000x1, .i32⟩
  | 106 => ⟨S50000, .f32⟩
  | 107 => ⟨S_, .f32⟩
  | 108 => ⟨S_, .f32⟩
  | 109 => ⟨S50000, .f32⟩
  | 110 => ⟨S50000, .f32⟩
  | 111 => ⟨S_, .f32⟩
  | 112 => ⟨S50000, .f32⟩
  | 113 => ⟨S400000x1, .i32⟩
  | 114 => ⟨S50000, .f32⟩
  | 115 => ⟨S_, .f32⟩
  | 116 => ⟨S_, .f32⟩
  | 117 => ⟨S50000, .f32⟩
  | 118 => ⟨S50000, .f32⟩
  | 119 => ⟨S50000, .f32⟩
  | 120 => ⟨S50000x1, .f32⟩
  | 121 => ⟨S50000x256, .f32⟩
  | 122 => ⟨S50000x256, .f32⟩
  | 123 => ⟨S50000x256, .f32⟩
  | 124 => ⟨S_, .i32⟩
  | 125 => ⟨S400000, .i32⟩
  | 126 => ⟨S400000, .i1⟩
  | 127 => ⟨S_, .i32⟩
  | _ => ⟨S50000x256, .f32⟩

abbrev hbmTy0_2 (i : Nat) : BufTy := match i % 128 with
  | 0 => ⟨S400000, .i32⟩
  | 1 => ⟨S400000, .i32⟩
  | 2 => ⟨S400000, .i32⟩
  | 3 => ⟨S400000x1, .i32⟩
  | 4 => ⟨S400000x256, .f32⟩
  | 5 => ⟨S_, .f32⟩
  | 6 => ⟨S50000x256, .f32⟩
  | 7 => ⟨S400000x1, .i32⟩
  | 8 => ⟨S50000x256, .f32⟩
  | 9 => ⟨S50000, .f32⟩
  | 10 => ⟨S50000x1, .f32⟩
  | 11 => ⟨S50000x256, .f32⟩
  | 12 => ⟨S50000x256, .f32⟩
  | 13 => ⟨S1x256, .f32⟩
  | 14 => ⟨S50000x256, .f32⟩
  | 15 => ⟨S50000x256, .f32⟩
  | 16 => ⟨S1x256x256, .f32⟩
  | 17 => ⟨S256x256, .f32⟩
  | 18 => ⟨S1x256, .f32⟩
  | 19 => ⟨S256, .f32⟩
  | 20 => ⟨S1x400000, .i32⟩
  | 21 => ⟨S400000, .i32⟩
  | 22 => ⟨S1x400000, .i32⟩
  | 23 => ⟨S400000, .i32⟩
  | 24 => ⟨S_, .f32⟩
  | 25 => ⟨S400000, .f32⟩
  | 26 => ⟨S_, .f32⟩
  | 27 => ⟨S50000, .f32⟩
  | 28 => ⟨S400000x1, .i32⟩
  | 29 => ⟨S50000, .f32⟩
  | 30 => ⟨S_, .f32⟩
  | 31 => ⟨S_, .f32⟩
  | 32 => ⟨S50000, .f32⟩
  | 33 => ⟨S50000, .f32⟩
  | 34 => ⟨S_, .f32⟩
  | 35 => ⟨S50000, .f32⟩
  | 36 => ⟨S400000x1, .i32⟩
  | 37 => ⟨S50000, .f32⟩
  | 38 => ⟨S_, .f32⟩
  | 39 => ⟨S_, .f32⟩
  | 40 => ⟨S50000, .f32⟩
  | 41 => ⟨S50000, .f32⟩
  | 42 => ⟨S50000, .f32⟩
  | 43 => ⟨S50000x1, .f32⟩
  | 44 => ⟨S50000x256, .f32⟩
  | 45 => ⟨S50000x256, .f32⟩
  | 46 => ⟨S50000x256, .f32⟩
  | 47 => ⟨S_, .i32⟩
  | 48 => ⟨S400000, .i32⟩
  | 49 => ⟨S400000, .i1⟩
  | 50 => ⟨S_, .i32⟩
  | 51 => ⟨S400000, .i32⟩
  | 52 => ⟨S400000, .i32⟩
  | 53 => ⟨S400000, .i32⟩
  | 54 => ⟨S400000x1, .i32⟩
  | 55 => ⟨S400000x256, .f32⟩
  | 56 => ⟨S_, .f32⟩
  | 57 => ⟨S50000x256, .f32⟩
  | 58 => ⟨S400000x1, .i32⟩
  | 59 => ⟨S50000x256, .f32⟩
  | 60 => ⟨S50000, .f32⟩
  | 61 => ⟨S50000x1, .f32⟩
  | 62 => ⟨S50000x256, .f32⟩
  | 63 => ⟨S50000x256, .f32⟩
  | 64 => ⟨S1x256, .f32⟩
  | 65 => ⟨S50000x256, .f32⟩
  | 66 => ⟨S50000x256, .f32⟩
  | 67 => ⟨S50000x256, .f32⟩
  | 68 => ⟨S1x256x256, .f32⟩
  | 69 => ⟨S256x256, .f32⟩
  | 70 => ⟨S1x256, .f32⟩
  | 71 => ⟨S256, .f32⟩
  | 72 => ⟨S1x400000, .i32⟩
  | 73 => ⟨S400000, .i32⟩
  | 74 => ⟨S1x400000, .i32⟩
  | 75 => ⟨S400000, .i32⟩
  | 76 => ⟨S_, .f32⟩
  | 77 => ⟨S400000, .f32⟩
  | 78 => ⟨S_, .f32⟩
  | 79 => ⟨S50000, .f32⟩
  | 80 => ⟨S400000x1, .i32⟩
  | 81 => ⟨S50000, .f32⟩
  | 82 => ⟨S_, .f32⟩
  | 83 => ⟨S_, .f32⟩
  | 84 => ⟨S50000, .f32⟩
  | 85 => ⟨S50000, .f32⟩
  | 86 => ⟨S_, .f32⟩
  | 87 => ⟨S50000, .f32⟩
  | 88 => ⟨S400000x1, .i32⟩
  | 89 => ⟨S50000, .f32⟩
  | 90 => ⟨S_, .f32⟩
  | 91 => ⟨S_, .f32⟩
  | 92 => ⟨S50000, .f32⟩
  | 93 => ⟨S50000, .f32⟩
  | 94 => ⟨S50000, .f32⟩
  | 95 => ⟨S50000x1, .f32⟩
  | 96 => ⟨S50000x256, .f32⟩
  | 97 => ⟨S50000x256, .f32⟩
  | 98 => ⟨S50000x256, .f32⟩
  | 99 => ⟨S_, .i32⟩
  | 100 => ⟨S400000, .i32⟩
  | 101 => ⟨S400000, .i1⟩
  | 102 => ⟨S_, .i32⟩
  | 103 => ⟨S400000, .i32⟩
  | 104 => ⟨S400000, .i32⟩
  | 105 => ⟨S400000, .i32⟩
  | 106 => ⟨S400000x1, .i32⟩
  | 107 => ⟨S400000x256, .f32⟩
  | 108 => ⟨S_, .f32⟩
  | 109 => ⟨S50000x256, .f32⟩
  | 110 => ⟨S400000x1, .i32⟩
  | 111 => ⟨S50000x256, .f32⟩
  | 112 => ⟨S50000, .f32⟩
  | 113 => ⟨S50000x1, .f32⟩
  | 114 => ⟨S50000x256, .f32⟩
  | 115 => ⟨S50000x256, .f32⟩
  | 116 => ⟨S1x256, .f32⟩
  | 117 => ⟨S50000x256, .f32⟩
  | 118 => ⟨S50000x256, .f32⟩
  | 119 => ⟨S50000x256, .f32⟩
  | 120 => ⟨S1x256x256, .f32⟩
  | 121 => ⟨S256x256, .f32⟩
  | 122 => ⟨S1x256, .f32⟩
  | 123 => ⟨S256, .f32⟩
  | 124 => ⟨S1x400000, .i32⟩
  | 125 => ⟨S400000, .i32⟩
  | 126 => ⟨S1x400000, .i32⟩
  | 127 => ⟨S400000, .i32⟩
  | _ => ⟨S50000x256, .f32⟩

abbrev hbmTy0_3 (i : Nat) : BufTy := match i % 128 with
  | 0 => ⟨S_, .f32⟩
  | 1 => ⟨S400000, .f32⟩
  | 2 => ⟨S_, .f32⟩
  | 3 => ⟨S50000, .f32⟩
  | 4 => ⟨S400000x1, .i32⟩
  | 5 => ⟨S50000, .f32⟩
  | 6 => ⟨S_, .f32⟩
  | 7 => ⟨S_, .f32⟩
  | 8 => ⟨S50000, .f32⟩
  | 9 => ⟨S50000, .f32⟩
  | 10 => ⟨S_, .f32⟩
  | 11 => ⟨S50000, .f32⟩
  | 12 => ⟨S400000x1, .i32⟩
  | 13 => ⟨S50000, .f32⟩
  | 14 => ⟨S_, .f32⟩
  | 15 => ⟨S_, .f32⟩
  | 16 => ⟨S50000, .f32⟩
  | 17 => ⟨S50000, .f32⟩
  | 18 => ⟨S50000, .f32⟩
  | 19 => ⟨S50000x1, .f32⟩
  | 20 => ⟨S50000x256, .f32⟩
  | 21 => ⟨S50000x256, .f32⟩
  | 22 => ⟨S50000x256, .f32⟩
  | 23 => ⟨S_, .i32⟩
  | 24 => ⟨S400000, .i32⟩
  | 25 => ⟨S400000, .i1⟩
  | 26 => ⟨S_, .i32⟩
  | 27 => ⟨S400000, .i32⟩
  | 28 => ⟨S400000, .i32⟩
  | 29 => ⟨S400000, .i32⟩
  | 30 => ⟨S400000x1, .i32⟩
  | 31 => ⟨S400000x256, .f32⟩
  | 32 => ⟨S_, .f32⟩
  | 33 => ⟨S50000x256, .f32⟩
  | 34 => ⟨S400000x1, .i32⟩
  | 35 => ⟨S50000x256, .f32⟩
  | 36 => ⟨S50000, .f32⟩
  | 37 => ⟨S50000x1, .f32⟩
  | 38 => ⟨S50000x256, .f32⟩
  | 39 => ⟨S50000x256, .f32⟩
  | 40 => ⟨S1x256, .f32⟩
  | 41 => ⟨S50000x256, .f32⟩
  | 42 => ⟨S50000x256, .f32⟩
  | 43 => ⟨S50000x256, .f32⟩
  | 44 => ⟨S_, .f32⟩
  | 45 => ⟨S50000x256, .f32⟩
  | 46 => ⟨S50000x256, .f32⟩
  | 47 => ⟨S1x256x256, .f32⟩
  | 48 => ⟨S256x256, .f32⟩
  | 49 => ⟨S1x256, .f32⟩
  | 50 => ⟨S256, .f32⟩
  | 51 => ⟨S1x400000, .i32⟩
  | 52 => ⟨S400000, .i32⟩
  | 53 => ⟨S1x400000, .i32⟩
  | 54 => ⟨S400000, .i32⟩
  | 55 => ⟨S_, .f32⟩
  | 56 => ⟨S400000, .f32⟩
  | 57 => ⟨S_, .f32⟩
  | 58 => ⟨S50000, .f32⟩
  | 59 => ⟨S400000x1, .i32⟩
  | 60 => ⟨S50000, .f32⟩
  | 61 => ⟨S_, .f32⟩
  | 62 => ⟨S_, .f32⟩
  | 63 => ⟨S50000, .f32⟩
  | 64 => ⟨S50000, .f32⟩
  | 65 => ⟨S_, .f32⟩
  | 66 => ⟨S50000, .f32⟩
  | 67 => ⟨S400000x1, .i32⟩
  | 68 => ⟨S50000, .f32⟩
  | 69 => ⟨S_, .f32⟩
  | 70 => ⟨S_, .f32⟩
  | 71 => ⟨S50000, .f32⟩
  | 72 => ⟨S50000, .f32⟩
  | 73 => ⟨S50000, .f32⟩
  | 74 => ⟨S50000x1, .f32⟩
  | 75 => ⟨S50000x256, .f32⟩
  | 76 => ⟨S50000x256, .f32⟩
  | 77 => ⟨S50000x256, .f32⟩
  | 78 => ⟨S_, .i32⟩
  | 79 => ⟨S400000, .i32⟩
  | 80 => ⟨S400000, .i1⟩
  | 81 => ⟨S_, .i32⟩
  | 82 => ⟨S400000, .i32⟩
  | 83 => ⟨S400000, .i32⟩
  | 84 => ⟨S400000, .i32⟩
  | 85 => ⟨S400000x1, .i32⟩
  | 86 => ⟨S400000x256, .f32⟩
  | 87 => ⟨S_, .f32⟩
  | 88 => ⟨S50000x256, .f32⟩
  | 89 => ⟨S400000x1, .i32⟩
  | 90 => ⟨S50000x256, .f32⟩
  | 91 => ⟨S50000, .f32⟩
  | 92 => ⟨S50000x1, .f32⟩
  | 93 => ⟨S50000x256, .f32⟩
  | 94 => ⟨S50000x256, .f32⟩
  | 95 => ⟨S1x256, .f32⟩
  | 96 => ⟨S50000x256, .f32⟩
  | 97 => ⟨S50000x256, .f32⟩
  | 98 => ⟨S1x256x256, .f32⟩
  | 99 => ⟨S256x256, .f32⟩
  | 100 => ⟨S1x256, .f32⟩
  | 101 => ⟨S256, .f32⟩
  | 102 => ⟨S1x400000, .i32⟩
  | 103 => ⟨S400000, .i32⟩
  | 104 => ⟨S1x400000, .i32⟩
  | 105 => ⟨S400000, .i32⟩
  | 106 => ⟨S_, .f32⟩
  | 107 => ⟨S400000, .f32⟩
  | 108 => ⟨S_, .f32⟩
  | 109 => ⟨S50000, .f32⟩
  | 110 => ⟨S400000x1, .i32⟩
  | 111 => ⟨S50000, .f32⟩
  | 112 => ⟨S_, .f32⟩
  | 113 => ⟨S_, .f32⟩
  | 114 => ⟨S50000, .f32⟩
  | 115 => ⟨S50000, .f32⟩
  | 116 => ⟨S_, .f32⟩
  | 117 => ⟨S50000, .f32⟩
  | 118 => ⟨S400000x1, .i32⟩
  | 119 => ⟨S50000, .f32⟩
  | 120 => ⟨S_, .f32⟩
  | 121 => ⟨S_, .f32⟩
  | 122 => ⟨S50000, .f32⟩
  | 123 => ⟨S50000, .f32⟩
  | 124 => ⟨S50000, .f32⟩
  | 125 => ⟨S50000x1, .f32⟩
  | 126 => ⟨S50000x256, .f32⟩
  | 127 => ⟨S50000x256, .f32⟩
  | _ => ⟨S50000x256, .f32⟩

abbrev hbmTy0_4 (i : Nat) : BufTy := match i % 128 with
  | 0 => ⟨S50000x256, .f32⟩
  | 1 => ⟨S_, .i32⟩
  | 2 => ⟨S400000, .i32⟩
  | 3 => ⟨S400000, .i1⟩
  | 4 => ⟨S_, .i32⟩
  | 5 => ⟨S400000, .i32⟩
  | 6 => ⟨S400000, .i32⟩
  | 7 => ⟨S400000, .i32⟩
  | 8 => ⟨S400000x1, .i32⟩
  | 9 => ⟨S400000x256, .f32⟩
  | 10 => ⟨S_, .f32⟩
  | 11 => ⟨S50000x256, .f32⟩
  | 12 => ⟨S400000x1, .i32⟩
  | 13 => ⟨S50000x256, .f32⟩
  | 14 => ⟨S50000, .f32⟩
  | 15 => ⟨S50000x1, .f32⟩
  | 16 => ⟨S50000x256, .f32⟩
  | 17 => ⟨S50000x256, .f32⟩
  | 18 => ⟨S1x256, .f32⟩
  | 19 => ⟨S50000x256, .f32⟩
  | 20 => ⟨S50000x256, .f32⟩
  | 21 => ⟨S50000x256, .f32⟩
  | 22 => ⟨S1x256x256, .f32⟩
  | 23 => ⟨S256x256, .f32⟩
  | 24 => ⟨S1x256, .f32⟩
  | 25 => ⟨S256, .f32⟩
  | 26 => ⟨S1x400000, .i32⟩
  | 27 => ⟨S400000, .i32⟩
  | 28 => ⟨S1x400000, .i32⟩
  | 29 => ⟨S400000, .i32⟩
  | 30 => ⟨S_, .f32⟩
  | 31 => ⟨S400000, .f32⟩
  | 32 => ⟨S_, .f32⟩
  | 33 => ⟨S50000, .f32⟩
  | 34 => ⟨S400000x1, .i32⟩
  | 35 => ⟨S50000, .f32⟩
  | 36 => ⟨S_, .f32⟩
  | 37 => ⟨S_, .f32⟩
  | 38 => ⟨S50000, .f32⟩
  | 39 => ⟨S50000, .f32⟩
  | 40 => ⟨S_, .f32⟩
  | 41 => ⟨S50000, .f32⟩
  | 42 => ⟨S400000x1, .i32⟩
  | 43 => ⟨S50000, .f32⟩
  | 44 => ⟨S_, .f32⟩
  | 45 => ⟨S_, .f32⟩
  | 46 => ⟨S50000, .f32⟩
  | 47 => ⟨S50000, .f32⟩
  | 48 => ⟨S50000, .f32⟩
  | 49 => ⟨S50000x1, .f32⟩
  | 50 => ⟨S50000x256, .f32⟩
  | 51 => ⟨S50000x256, .f32⟩
  | 52 => ⟨S50000x256, .f32⟩
  | 53 => ⟨S_, .i32⟩
  | 54 => ⟨S400000, .i32⟩
  | 55 => ⟨S400000, .i1⟩
  | 56 => ⟨S_, .i32⟩
  | 57 => ⟨S400000, .i32⟩
  | 58 => ⟨S400000, .i32⟩
  | 59 => ⟨S400000, .i32⟩
  | 60 => ⟨S400000x1, .i32⟩
  | 61 => ⟨S400000x256, .f32⟩
  | 62 => ⟨S_, .f32⟩
  | 63 => ⟨S50000x256, .f32⟩
  | 64 => ⟨S400000x1, .i32⟩
  | 65 => ⟨S50000x256, .f32⟩
  | 66 => ⟨S50000, .f32⟩
  | 67 => ⟨S50000x1, .f32⟩
  | 68 => ⟨S50000x256, .f32⟩
  | 69 => ⟨S50000x256, .f32⟩
  | 70 => ⟨S1x256, .f32⟩
  | 71 => ⟨S50000x256, .f32⟩
  | 72 => ⟨S50000x256, .f32⟩
  | 73 => ⟨S50000x256, .f32⟩
  | 74 => ⟨S1x256x256, .f32⟩
  | 75 => ⟨S256x256, .f32⟩
  | 76 => ⟨S1x256, .f32⟩
  | 77 => ⟨S256, .f32⟩
  | 78 => ⟨S1x400000, .i32⟩
  | 79 => ⟨S400000, .i32⟩
  | 80 => ⟨S1x400000, .i32⟩
  | 81 => ⟨S400000, .i32⟩
  | 82 => ⟨S_, .f32⟩
  | 83 => ⟨S400000, .f32⟩
  | 84 => ⟨S_, .f32⟩
  | 85 => ⟨S50000, .f32⟩
  | 86 => ⟨S400000x1, .i32⟩
  | 87 => ⟨S50000, .f32⟩
  | 88 => ⟨S_, .f32⟩
  | 89 => ⟨S_, .f32⟩
  | 90 => ⟨S50000, .f32⟩
  | 91 => ⟨S50000, .f32⟩
  | 92 => ⟨S_, .f32⟩
  | 93 => ⟨S50000, .f32⟩
  | 94 => ⟨S400000x1, .i32⟩
  | 95 => ⟨S50000, .f32⟩
  | 96 => ⟨S_, .f32⟩
  | 97 => ⟨S_, .f32⟩
  | 98 => ⟨S50000, .f32⟩
  | 99 => ⟨S50000, .f32⟩
  | 100 => ⟨S50000, .f32⟩
  | 101 => ⟨S50000x1, .f32⟩
  | 102 => ⟨S50000x256, .f32⟩
  | 103 => ⟨S50000x256, .f32⟩
  | 104 => ⟨S50000x256, .f32⟩
  | 105 => ⟨S_, .i32⟩
  | 106 => ⟨S400000, .i32⟩
  | 107 => ⟨S400000, .i1⟩
  | 108 => ⟨S_, .i32⟩
  | 109 => ⟨S400000, .i32⟩
  | 110 => ⟨S400000, .i32⟩
  | 111 => ⟨S400000, .i32⟩
  | 112 => ⟨S400000x1, .i32⟩
  | 113 => ⟨S400000x256, .f32⟩
  | 114 => ⟨S_, .f32⟩
  | 115 => ⟨S50000x256, .f32⟩
  | 116 => ⟨S400000x1, .i32⟩
  | 117 => ⟨S50000x256, .f32⟩
  | 118 => ⟨S50000, .f32⟩
  | 119 => ⟨S50000x1, .f32⟩
  | 120 => ⟨S50000x256, .f32⟩
  | 121 => ⟨S50000x256, .f32⟩
  | 122 => ⟨S1x256, .f32⟩
  | 123 => ⟨S50000x256, .f32⟩
  | 124 => ⟨S50000x256, .f32⟩
  | 125 => ⟨S50000x256, .f32⟩
  | 126 => ⟨S_, .f32⟩
  | 127 => ⟨S50000x256, .f32⟩
  | _ => ⟨S50000x256, .f32⟩

abbrev hbmTy0_5 (i : Nat) : BufTy := match i % 128 with
  | 0 => ⟨S50000x256, .f32⟩
  | 1 => ⟨S1x256x128, .f32⟩
  | 2 => ⟨S256x128, .f32⟩
  | 3 => ⟨S1x128, .f32⟩
  | 4 => ⟨S128, .f32⟩
  | 5 => ⟨S1x400000, .i32⟩
  | 6 => ⟨S400000, .i32⟩
  | 7 => ⟨S1x400000, .i32⟩
  | 8 => ⟨S400000, .i32⟩
  | 9 => ⟨S_, .f32⟩
  | 10 => ⟨S400000, .f32⟩
  | 11 => ⟨S_, .f32⟩
  | 12 => ⟨S50000, .f32⟩
  | 13 => ⟨S400000x1, .i32⟩
  | 14 => ⟨S50000, .f32⟩
  | 15 => ⟨S_, .f32⟩
  | 16 => ⟨S_, .f32⟩
  | 17 => ⟨S50000, .f32⟩
  | 18 => ⟨S50000, .f32⟩
  | 19 => ⟨S_, .f32⟩
  | 20 => ⟨S50000, .f32⟩
  | 21 => ⟨S400000x1, .i32⟩
  | 22 => ⟨S50000, .f32⟩
  | 23 => ⟨S_, .f32⟩
  | 24 => ⟨S_, .f32⟩
  | 25 => ⟨S50000, .f32⟩
  | 26 => ⟨S50000, .f32⟩
  | 27 => ⟨S50000, .f32⟩
  | 28 => ⟨S50000x1, .f32⟩
  | 29 => ⟨S50000x256, .f32⟩
  | 30 => ⟨S50000x256, .f32⟩
  | 31 => ⟨S50000x128, .f32⟩
  | 32 => ⟨S_, .i32⟩
  | 33 => ⟨S400000, .i32⟩
  | 34 => ⟨S400000, .i1⟩
  | 35 => ⟨S_, .i32⟩
  | 36 => ⟨S400000, .i32⟩
  | 37 => ⟨S400000, .i32⟩
  | 38 => ⟨S400000, .i32⟩
  | 39 => ⟨S400000x1, .i32⟩
  | 40 => ⟨S400000x128, .f32⟩
  | 41 => ⟨S_, .f32⟩
  | 42 => ⟨S50000x128, .f32⟩
  | 43 => ⟨S400000x1, .i32⟩
  | 44 => ⟨S50000x128, .f32⟩
  | 45 => ⟨S50000, .f32⟩
  | 46 => ⟨S50000x1, .f32⟩
  | 47 => ⟨S50000x128, .f32⟩
  | 48 => ⟨S50000x128, .f32⟩
  | 49 => ⟨S1x128, .f32⟩
  | 50 => ⟨S50000x128, .f32⟩
  | 51 => ⟨S50000x128, .f32⟩
  | 52 => ⟨S1x256x128, .f32⟩
  | 53 => ⟨S256x128, .f32⟩
  | 54 => ⟨S1x128, .f32⟩
  | 55 => ⟨S128, .f32⟩
  | 56 => ⟨S1x400000, .i32⟩
  | 57 => ⟨S400000, .i32⟩
  | 58 => ⟨S1x400000, .i32⟩
  | 59 => ⟨S400000, .i32⟩
  | 60 => ⟨S_, .f32⟩
  | 61 => ⟨S400000, .f32⟩
  | 62 => ⟨S_, .f32⟩
  | 63 => ⟨S50000, .f32⟩
  | 64 => ⟨S400000x1, .i32⟩
  | 65 => ⟨S50000, .f32⟩
  | 66 => ⟨S_, .f32⟩
  | 67 => ⟨S_, .f32⟩
  | 68 => ⟨S50000, .f32⟩
  | 69 => ⟨S50000, .f32⟩
  | 70 => ⟨S_, .f32⟩
  | 71 => ⟨S50000, .f32⟩
  | 72 => ⟨S400000x1, .i32⟩
  | 73 => ⟨S50000, .f32⟩
  | 74 => ⟨S_, .f32⟩
  | 75 => ⟨S_, .f32⟩
  | 76 => ⟨S50000, .f32⟩
  | 77 => ⟨S50000, .f32⟩
  | 78 => ⟨S50000, .f32⟩
  | 79 => ⟨S50000x1, .f32⟩
  | 80 => ⟨S50000x256, .f32⟩
  | 81 => ⟨S50000x256, .f32⟩
  | 82 => ⟨S50000x128, .f32⟩
  | 83 => ⟨S_, .i32⟩
  | 84 => ⟨S400000, .i32⟩
  | 85 => ⟨S400000, .i1⟩
  | 86 => ⟨S_, .i32⟩
  | 87 => ⟨S400000, .i32⟩
  | 88 => ⟨S400000, .i32⟩
  | 89 => ⟨S400000, .i32⟩
  | 90 => ⟨S400000x1, .i32⟩
  | 91 => ⟨S400000x128, .f32⟩
  | 92 => ⟨S_, .f32⟩
  | 93 => ⟨S50000x128, .f32⟩
  | 94 => ⟨S400000x1, .i32⟩
  | 95 => ⟨S50000x128, .f32⟩
  | 96 => ⟨S50000, .f32⟩
  | 97 => ⟨S50000x1, .f32⟩
  | 98 => ⟨S50000x128, .f32⟩
  | 99 => ⟨S50000x128, .f32⟩
  | 100 => ⟨S1x128, .f32⟩
  | 101 => ⟨S50000x128, .f32⟩
  | 102 => ⟨S50000x128, .f32⟩
  | 103 => ⟨S50000x128, .f32⟩
  | 104 => ⟨S1x256x128, .f32⟩
  | 105 => ⟨S256x128, .f32⟩
  | 106 => ⟨S1x128, .f32⟩
  | 107 => ⟨S128, .f32⟩
  | 108 => ⟨S1x400000, .i32⟩
  | 109 => ⟨S400000, .i32⟩
  | 110 => ⟨S1x400000, .i32⟩
  | 111 => ⟨S400000, .i32⟩
  | 112 => ⟨S_, .f32⟩
  | 113 => ⟨S400000, .f32⟩
  | 114 => ⟨S_, .f32⟩
  | 115 => ⟨S50000, .f32⟩
  | 116 => ⟨S400000x1, .i32⟩
  | 117 => ⟨S50000, .f32⟩
  | 118 => ⟨S_, .f32⟩
  | 119 => ⟨S_, .f32⟩
  | 120 => ⟨S50000, .f32⟩
  | 121 => ⟨S50000, .f32⟩
  | 122 => ⟨S_, .f32⟩
  | 123 => ⟨S50000, .f32⟩
  | 124 => ⟨S400000x1, .i32⟩
  | 125 => ⟨S50000, .f32⟩
  | 126 => ⟨S_, .f32⟩
  | 127 => ⟨S_, .f32⟩
  | _ => ⟨S50000x256, .f32⟩

abbrev hbmTy0_6 (i : Nat) : BufTy := match i % 128 with
  | 0 => ⟨S50000, .f32⟩
  | 1 => ⟨S50000, .f32⟩
  | 2 => ⟨S50000, .f32⟩
  | 3 => ⟨S50000x1, .f32⟩
  | 4 => ⟨S50000x256, .f32⟩
  | 5 => ⟨S50000x256, .f32⟩
  | 6 => ⟨S50000x128, .f32⟩
  | 7 => ⟨S_, .i32⟩
  | 8 => ⟨S400000, .i32⟩
  | 9 => ⟨S400000, .i1⟩
  | 10 => ⟨S_, .i32⟩
  | 11 => ⟨S400000, .i32⟩
  | 12 => ⟨S400000, .i32⟩
  | 13 => ⟨S400000, .i32⟩
  | 14 => ⟨S400000x1, .i32⟩
  | 15 => ⟨S400000x128, .f32⟩
  | 16 => ⟨S_, .f32⟩
  | 17 => ⟨S50000x128, .f32⟩
  | 18 => ⟨S400000x1, .i32⟩
  | 19 => ⟨S50000x128, .f32⟩
  | 20 => ⟨S50000, .f32⟩
  | 21 => ⟨S50000x1, .f32⟩
  | 22 => ⟨S50000x128, .f32⟩
  | 23 => ⟨S50000x128, .f32⟩
  | 24 => ⟨S1x128, .f32⟩
  | 25 => ⟨S50000x128, .f32⟩
  | 26 => ⟨S50000x128, .f32⟩
  | 27 => ⟨S50000x128, .f32⟩
  | 28 => ⟨S1x256x128, .f32⟩
  | 29 => ⟨S256x128, .f32⟩
  | 30 => ⟨S1x128, .f32⟩
  | 31 => ⟨S128, .f32⟩
  | 32 => ⟨S1x400000, .i32⟩
  | 33 => ⟨S400000, .i32⟩
  | 34 => ⟨S1x400000, .i32⟩
  | 35 => ⟨S400000, .i32⟩
  | 36 => ⟨S_, .f32⟩
  | 37 => ⟨S400000, .f32⟩
  | 38 => ⟨S_, .f32⟩
  | 39 => ⟨S50000, .f32⟩
  | 40 => ⟨S400000x1, .i32⟩
  | 41 => ⟨S50000, .f32⟩
  | 42 => ⟨S_, .f32⟩
  | 43 => ⟨S_, .f32⟩
  | 44 => ⟨S50000, .f32⟩
  | 45 => ⟨S50000, .f32⟩
  | 46 => ⟨S_, .f32⟩
  | 47 => ⟨S50000, .f32⟩
  | 48 => ⟨S400000x1, .i32⟩
  | 49 => ⟨S50000, .f32⟩
  | 50 => ⟨S_, .f32⟩
  | 51 => ⟨S_, .f32⟩
  | 52 => ⟨S50000, .f32⟩
  | 53 => ⟨S50000, .f32⟩
  | 54 => ⟨S50000, .f32⟩
  | 55 => ⟨S50000x1, .f32⟩
  | 56 => ⟨S50000x256, .f32⟩
  | 57 => ⟨S50000x256, .f32⟩
  | 58 => ⟨S50000x128, .f32⟩
  | 59 => ⟨S_, .i32⟩
  | 60 => ⟨S400000, .i32⟩
  | 61 => ⟨S400000, .i1⟩
  | 62 => ⟨S_, .i32⟩
  | 63 => ⟨S400000, .i32⟩
  | 64 => ⟨S400000, .i32⟩
  | 65 => ⟨S400000, .i32⟩
  | 66 => ⟨S400000x1, .i32⟩
  | 67 => ⟨S400000x128, .f32⟩
  | 68 => ⟨S_, .f32⟩
  | 69 => ⟨S50000x128, .f32⟩
  | 70 => ⟨S400000x1, .i32⟩
  | 71 => ⟨S50000x128, .f32⟩
  | 72 => ⟨S50000, .f32⟩
  | 73 => ⟨S50000x1, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S50000x128, .f32⟩
  | _ => ⟨S50000x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call1_v0 : Ref sig .tc := ⟨.hbm, 34, rfl⟩
abbrev main_call1_v1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_6 : Ref sig .tc := ⟨.hbm, 70, rfl⟩
abbrev main_v47 : Ref sig .tc := ⟨.hbm, 71, rfl⟩
abbrev main_cst_7 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_8 : Ref sig .tc := ⟨.hbm, 76, rfl⟩
abbrev main_call2_v0 : Ref sig .tc := ⟨.hbm, 77, rfl⟩
abbrev main_call2_v1 : Ref sig .tc := ⟨.hbm, 78, rfl⟩
abbrev main_v51 : Ref sig .tc := ⟨.hbm, 79, rfl⟩
abbrev main_cst_9 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_10 : Ref sig .tc := ⟨.hbm, 84, rfl⟩
abbrev main_call3_v0 : Ref sig .tc := ⟨.hbm, 85, rfl⟩
abbrev main_call3_v1 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_c_11 : Ref sig .tc := ⟨.hbm, 93, rfl⟩
abbrev main_v61 : Ref sig .tc := ⟨.hbm, 94, rfl⟩
abbrev main_v62 : Ref sig .tc := ⟨.hbm, 95, rfl⟩
abbrev main_c_12 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_13 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_14 : Ref sig .tc := ⟨.hbm, 122, rfl⟩
abbrev main_v87 : Ref sig .tc := ⟨.hbm, 123, rfl⟩
abbrev main_cst_15 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_16 : Ref sig .tc := ⟨.hbm, 128, rfl⟩
abbrev main_call4_v0 : Ref sig .tc := ⟨.hbm, 129, rfl⟩
abbrev main_call4_v1 : Ref sig .tc := ⟨.hbm, 130, rfl⟩
abbrev main_v91 : Ref sig .tc := ⟨.hbm, 131, rfl⟩
abbrev main_cst_17 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_18 : Ref sig .tc := ⟨.hbm, 136, rfl⟩
abbrev main_call5_v0 : Ref sig .tc := ⟨.hbm, 137, rfl⟩
abbrev main_call5_v1 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_c_19 : Ref sig .tc := ⟨.hbm, 145, rfl⟩
abbrev main_v101 : Ref sig .tc := ⟨.hbm, 146, rfl⟩
abbrev main_v102 : Ref sig .tc := ⟨.hbm, 147, rfl⟩
abbrev main_c_20 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_21 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_cst_22 : Ref sig .tc := ⟨.hbm, 174, rfl⟩
abbrev main_v127 : Ref sig .tc := ⟨.hbm, 175, rfl⟩
abbrev main_cst_23 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_cst_24 : Ref sig .tc := ⟨.hbm, 180, rfl⟩
abbrev main_call6_v0 : Ref sig .tc := ⟨.hbm, 181, rfl⟩
abbrev main_call6_v1 : Ref sig .tc := ⟨.hbm, 182, rfl⟩
abbrev main_v131 : Ref sig .tc := ⟨.hbm, 183, rfl⟩
abbrev main_cst_25 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_cst_26 : Ref sig .tc := ⟨.hbm, 188, rfl⟩
abbrev main_call7_v0 : Ref sig .tc := ⟨.hbm, 189, rfl⟩
abbrev main_call7_v1 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_c_27 : Ref sig .tc := ⟨.hbm, 197, rfl⟩
abbrev main_v141 : Ref sig .tc := ⟨.hbm, 198, rfl⟩
abbrev main_v142 : Ref sig .tc := ⟨.hbm, 199, rfl⟩
abbrev main_c_28 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_cst_29 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_call8_cst : Ref sig .tc := ⟨.hbm, 218, rfl⟩
abbrev main_call8_v0 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_cst_30 : Ref sig .tc := ⟨.hbm, 229, rfl⟩
abbrev main_v168 : Ref sig .tc := ⟨.hbm, 230, rfl⟩
abbrev main_cst_31 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_cst_32 : Ref sig .tc := ⟨.hbm, 235, rfl⟩
abbrev main_call9_v0 : Ref sig .tc := ⟨.hbm, 236, rfl⟩
abbrev main_call9_v1 : Ref sig .tc := ⟨.hbm, 237, rfl⟩
abbrev main_v172 : Ref sig .tc := ⟨.hbm, 238, rfl⟩
abbrev main_cst_33 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_cst_34 : Ref sig .tc := ⟨.hbm, 243, rfl⟩
abbrev main_call10_v0 : Ref sig .tc := ⟨.hbm, 244, rfl⟩
abbrev main_call10_v1 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_c_35 : Ref sig .tc := ⟨.hbm, 252, rfl⟩
abbrev main_v182 : Ref sig .tc := ⟨.hbm, 253, rfl⟩
abbrev main_v183 : Ref sig .tc := ⟨.hbm, 254, rfl⟩
abbrev main_c_36 : Ref sig .tc := ⟨.hbm, 255, rfl⟩
abbrev main_v184 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_cst_37 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_cst_38 : Ref sig .tc := ⟨.hbm, 280, rfl⟩
abbrev main_v207 : Ref sig .tc := ⟨.hbm, 281, rfl⟩
abbrev main_cst_39 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_cst_40 : Ref sig .tc := ⟨.hbm, 286, rfl⟩
abbrev main_call11_v0 : Ref sig .tc := ⟨.hbm, 287, rfl⟩
abbrev main_call11_v1 : Ref sig .tc := ⟨.hbm, 288, rfl⟩
abbrev main_v211 : Ref sig .tc := ⟨.hbm, 289, rfl⟩
abbrev main_cst_41 : Ref sig .tc := ⟨.hbm, 290, rfl⟩
abbrev main_v212 : Ref sig .tc := ⟨.hbm, 291, rfl⟩
abbrev main_v213 : Ref sig .tc := ⟨.hbm, 292, rfl⟩
abbrev main_v214 : Ref sig .tc := ⟨.hbm, 293, rfl⟩
abbrev main_cst_42 : Ref sig .tc := ⟨.hbm, 294, rfl⟩
abbrev main_call12_v0 : Ref sig .tc := ⟨.hbm, 295, rfl⟩
abbrev main_call12_v1 : Ref sig .tc := ⟨.hbm, 296, rfl⟩
abbrev main_v215 : Ref sig .tc := ⟨.hbm, 297, rfl⟩
abbrev main_v216 : Ref sig .tc := ⟨.hbm, 298, rfl⟩
abbrev main_v217 : Ref sig .tc := ⟨.hbm, 299, rfl⟩
abbrev main_v218 : Ref sig .tc := ⟨.hbm, 300, rfl⟩
abbrev main_v219 : Ref sig .tc := ⟨.hbm, 301, rfl⟩
abbrev main_v220 : Ref sig .tc := ⟨.hbm, 302, rfl⟩
abbrev main_c_43 : Ref sig .tc := ⟨.hbm, 303, rfl⟩
abbrev main_v221 : Ref sig .tc := ⟨.hbm, 304, rfl⟩
abbrev main_v222 : Ref sig .tc := ⟨.hbm, 305, rfl⟩
abbrev main_c_44 : Ref sig .tc := ⟨.hbm, 306, rfl⟩
abbrev main_v223 : Ref sig .tc := ⟨.hbm, 307, rfl⟩
abbrev main_v224 : Ref sig .tc := ⟨.hbm, 308, rfl⟩
abbrev main_v225 : Ref sig .tc := ⟨.hbm, 309, rfl⟩
abbrev main_v226 : Ref sig .tc := ⟨.hbm, 310, rfl⟩
abbrev main_v227 : Ref sig .tc := ⟨.hbm, 311, rfl⟩
abbrev main_cst_45 : Ref sig .tc := ⟨.hbm, 312, rfl⟩
abbrev main_v228 : Ref sig .tc := ⟨.hbm, 313, rfl⟩
abbrev main_v229 : Ref sig .tc := ⟨.hbm, 314, rfl⟩
abbrev main_v230 : Ref sig .tc := ⟨.hbm, 315, rfl⟩
abbrev main_v231 : Ref sig .tc := ⟨.hbm, 316, rfl⟩
abbrev main_v232 : Ref sig .tc := ⟨.hbm, 317, rfl⟩
abbrev main_v233 : Ref sig .tc := ⟨.hbm, 318, rfl⟩
abbrev main_v234 : Ref sig .tc := ⟨.hbm, 319, rfl⟩
abbrev main_v235 : Ref sig .tc := ⟨.hbm, 320, rfl⟩
abbrev main_v236 : Ref sig .tc := ⟨.hbm, 321, rfl⟩
abbrev main_v237 : Ref sig .tc := ⟨.hbm, 322, rfl⟩
abbrev main_v238 : Ref sig .tc := ⟨.hbm, 323, rfl⟩
abbrev main_v239 : Ref sig .tc := ⟨.hbm, 324, rfl⟩
abbrev main_v240 : Ref sig .tc := ⟨.hbm, 325, rfl⟩
abbrev main_v241 : Ref sig .tc := ⟨.hbm, 326, rfl⟩
abbrev main_v242 : Ref sig .tc := ⟨.hbm, 327, rfl⟩
abbrev main_v243 : Ref sig .tc := ⟨.hbm, 328, rfl⟩
abbrev main_v244 : Ref sig .tc := ⟨.hbm, 329, rfl⟩
abbrev main_v245 : Ref sig .tc := ⟨.hbm, 330, rfl⟩
abbrev main_v246 : Ref sig .tc := ⟨.hbm, 331, rfl⟩
abbrev main_cst_46 : Ref sig .tc := ⟨.hbm, 332, rfl⟩
abbrev main_v247 : Ref sig .tc := ⟨.hbm, 333, rfl⟩
abbrev main_cst_47 : Ref sig .tc := ⟨.hbm, 334, rfl⟩
abbrev main_v248 : Ref sig .tc := ⟨.hbm, 335, rfl⟩
abbrev main_v249 : Ref sig .tc := ⟨.hbm, 336, rfl⟩
abbrev main_v250 : Ref sig .tc := ⟨.hbm, 337, rfl⟩
abbrev main_cst_48 : Ref sig .tc := ⟨.hbm, 338, rfl⟩
abbrev main_call13_v0 : Ref sig .tc := ⟨.hbm, 339, rfl⟩
abbrev main_call13_v1 : Ref sig .tc := ⟨.hbm, 340, rfl⟩
abbrev main_v251 : Ref sig .tc := ⟨.hbm, 341, rfl⟩
abbrev main_cst_49 : Ref sig .tc := ⟨.hbm, 342, rfl⟩
abbrev main_v252 : Ref sig .tc := ⟨.hbm, 343, rfl⟩
abbrev main_v253 : Ref sig .tc := ⟨.hbm, 344, rfl⟩
abbrev main_v254 : Ref sig .tc := ⟨.hbm, 345, rfl⟩
abbrev main_cst_50 : Ref sig .tc := ⟨.hbm, 346, rfl⟩
abbrev main_call14_v0 : Ref sig .tc := ⟨.hbm, 347, rfl⟩
abbrev main_call14_v1 : Ref sig .tc := ⟨.hbm, 348, rfl⟩
abbrev main_v255 : Ref sig .tc := ⟨.hbm, 349, rfl⟩
abbrev main_v256 : Ref sig .tc := ⟨.hbm, 350, rfl⟩
abbrev main_v257 : Ref sig .tc := ⟨.hbm, 351, rfl⟩
abbrev main_v258 : Ref sig .tc := ⟨.hbm, 352, rfl⟩
abbrev main_v259 : Ref sig .tc := ⟨.hbm, 353, rfl⟩
abbrev main_v260 : Ref sig .tc := ⟨.hbm, 354, rfl⟩
abbrev main_c_51 : Ref sig .tc := ⟨.hbm, 355, rfl⟩
abbrev main_v261 : Ref sig .tc := ⟨.hbm, 356, rfl⟩
abbrev main_v262 : Ref sig .tc := ⟨.hbm, 357, rfl⟩
abbrev main_c_52 : Ref sig .tc := ⟨.hbm, 358, rfl⟩
abbrev main_v263 : Ref sig .tc := ⟨.hbm, 359, rfl⟩
abbrev main_v264 : Ref sig .tc := ⟨.hbm, 360, rfl⟩
abbrev main_v265 : Ref sig .tc := ⟨.hbm, 361, rfl⟩
abbrev main_v266 : Ref sig .tc := ⟨.hbm, 362, rfl⟩
abbrev main_v267 : Ref sig .tc := ⟨.hbm, 363, rfl⟩
abbrev main_cst_53 : Ref sig .tc := ⟨.hbm, 364, rfl⟩
abbrev main_v268 : Ref sig .tc := ⟨.hbm, 365, rfl⟩
abbrev main_v269 : Ref sig .tc := ⟨.hbm, 366, rfl⟩
abbrev main_v270 : Ref sig .tc := ⟨.hbm, 367, rfl⟩
abbrev main_v271 : Ref sig .tc := ⟨.hbm, 368, rfl⟩
abbrev main_v272 : Ref sig .tc := ⟨.hbm, 369, rfl⟩
abbrev main_v273 : Ref sig .tc := ⟨.hbm, 370, rfl⟩
abbrev main_v274 : Ref sig .tc := ⟨.hbm, 371, rfl⟩
abbrev main_v275 : Ref sig .tc := ⟨.hbm, 372, rfl⟩
abbrev main_v276 : Ref sig .tc := ⟨.hbm, 373, rfl⟩
abbrev main_v277 : Ref sig .tc := ⟨.hbm, 374, rfl⟩
abbrev main_v278 : Ref sig .tc := ⟨.hbm, 375, rfl⟩
abbrev main_v279 : Ref sig .tc := ⟨.hbm, 376, rfl⟩
abbrev main_v280 : Ref sig .tc := ⟨.hbm, 377, rfl⟩
abbrev main_v281 : Ref sig .tc := ⟨.hbm, 378, rfl⟩
abbrev main_v282 : Ref sig .tc := ⟨.hbm, 379, rfl⟩
abbrev main_v283 : Ref sig .tc := ⟨.hbm, 380, rfl⟩
abbrev main_v284 : Ref sig .tc := ⟨.hbm, 381, rfl⟩
abbrev main_v285 : Ref sig .tc := ⟨.hbm, 382, rfl⟩
abbrev main_v286 : Ref sig .tc := ⟨.hbm, 383, rfl⟩
abbrev main_cst_54 : Ref sig .tc := ⟨.hbm, 384, rfl⟩
abbrev main_v287 : Ref sig .tc := ⟨.hbm, 385, rfl⟩
abbrev main_cst_55 : Ref sig .tc := ⟨.hbm, 386, rfl⟩
abbrev main_v288 : Ref sig .tc := ⟨.hbm, 387, rfl⟩
abbrev main_v289 : Ref sig .tc := ⟨.hbm, 388, rfl⟩
abbrev main_v290 : Ref sig .tc := ⟨.hbm, 389, rfl⟩
abbrev main_cst_56 : Ref sig .tc := ⟨.hbm, 390, rfl⟩
abbrev main_call15_v0 : Ref sig .tc := ⟨.hbm, 391, rfl⟩
abbrev main_call15_v1 : Ref sig .tc := ⟨.hbm, 392, rfl⟩
abbrev main_v291 : Ref sig .tc := ⟨.hbm, 393, rfl⟩
abbrev main_cst_57 : Ref sig .tc := ⟨.hbm, 394, rfl⟩
abbrev main_v292 : Ref sig .tc := ⟨.hbm, 395, rfl⟩
abbrev main_v293 : Ref sig .tc := ⟨.hbm, 396, rfl⟩
abbrev main_v294 : Ref sig .tc := ⟨.hbm, 397, rfl⟩
abbrev main_cst_58 : Ref sig .tc := ⟨.hbm, 398, rfl⟩
abbrev main_call16_v0 : Ref sig .tc := ⟨.hbm, 399, rfl⟩
abbrev main_call16_v1 : Ref sig .tc := ⟨.hbm, 400, rfl⟩
abbrev main_v295 : Ref sig .tc := ⟨.hbm, 401, rfl⟩
abbrev main_v296 : Ref sig .tc := ⟨.hbm, 402, rfl⟩
abbrev main_v297 : Ref sig .tc := ⟨.hbm, 403, rfl⟩
abbrev main_v298 : Ref sig .tc := ⟨.hbm, 404, rfl⟩
abbrev main_v299 : Ref sig .tc := ⟨.hbm, 405, rfl⟩
abbrev main_v300 : Ref sig .tc := ⟨.hbm, 406, rfl⟩
abbrev main_c_59 : Ref sig .tc := ⟨.hbm, 407, rfl⟩
abbrev main_v301 : Ref sig .tc := ⟨.hbm, 408, rfl⟩
abbrev main_v302 : Ref sig .tc := ⟨.hbm, 409, rfl⟩
abbrev main_c_60 : Ref sig .tc := ⟨.hbm, 410, rfl⟩
abbrev main_v303 : Ref sig .tc := ⟨.hbm, 411, rfl⟩
abbrev main_v304 : Ref sig .tc := ⟨.hbm, 412, rfl⟩
abbrev main_v305 : Ref sig .tc := ⟨.hbm, 413, rfl⟩
abbrev main_v306 : Ref sig .tc := ⟨.hbm, 414, rfl⟩
abbrev main_v307 : Ref sig .tc := ⟨.hbm, 415, rfl⟩
abbrev main_cst_61 : Ref sig .tc := ⟨.hbm, 416, rfl⟩
abbrev main_v308 : Ref sig .tc := ⟨.hbm, 417, rfl⟩
abbrev main_v309 : Ref sig .tc := ⟨.hbm, 418, rfl⟩
abbrev main_v310 : Ref sig .tc := ⟨.hbm, 419, rfl⟩
abbrev main_v311 : Ref sig .tc := ⟨.hbm, 420, rfl⟩
abbrev main_v312 : Ref sig .tc := ⟨.hbm, 421, rfl⟩
abbrev main_v313 : Ref sig .tc := ⟨.hbm, 422, rfl⟩
abbrev main_v314 : Ref sig .tc := ⟨.hbm, 423, rfl⟩
abbrev main_v315 : Ref sig .tc := ⟨.hbm, 424, rfl⟩
abbrev main_v316 : Ref sig .tc := ⟨.hbm, 425, rfl⟩
abbrev main_v317 : Ref sig .tc := ⟨.hbm, 426, rfl⟩
abbrev main_v318 : Ref sig .tc := ⟨.hbm, 427, rfl⟩
abbrev main_call17_cst : Ref sig .tc := ⟨.hbm, 428, rfl⟩
abbrev main_call17_v0 : Ref sig .tc := ⟨.hbm, 429, rfl⟩
abbrev main_v319 : Ref sig .tc := ⟨.hbm, 430, rfl⟩
abbrev main_v320 : Ref sig .tc := ⟨.hbm, 431, rfl⟩
abbrev main_v321 : Ref sig .tc := ⟨.hbm, 432, rfl⟩
abbrev main_v322 : Ref sig .tc := ⟨.hbm, 433, rfl⟩
abbrev main_v323 : Ref sig .tc := ⟨.hbm, 434, rfl⟩
abbrev main_v324 : Ref sig .tc := ⟨.hbm, 435, rfl⟩
abbrev main_v325 : Ref sig .tc := ⟨.hbm, 436, rfl⟩
abbrev main_v326 : Ref sig .tc := ⟨.hbm, 437, rfl⟩
abbrev main_v327 : Ref sig .tc := ⟨.hbm, 438, rfl⟩
abbrev main_cst_62 : Ref sig .tc := ⟨.hbm, 439, rfl⟩
abbrev main_v328 : Ref sig .tc := ⟨.hbm, 440, rfl⟩
abbrev main_cst_63 : Ref sig .tc := ⟨.hbm, 441, rfl⟩
abbrev main_v329 : Ref sig .tc := ⟨.hbm, 442, rfl⟩
abbrev main_v330 : Ref sig .tc := ⟨.hbm, 443, rfl⟩
abbrev main_v331 : Ref sig .tc := ⟨.hbm, 444, rfl⟩
abbrev main_cst_64 : Ref sig .tc := ⟨.hbm, 445, rfl⟩
abbrev main_call18_v0 : Ref sig .tc := ⟨.hbm, 446, rfl⟩
abbrev main_call18_v1 : Ref sig .tc := ⟨.hbm, 447, rfl⟩
abbrev main_v332 : Ref sig .tc := ⟨.hbm, 448, rfl⟩
abbrev main_cst_65 : Ref sig .tc := ⟨.hbm, 449, rfl⟩
abbrev main_v333 : Ref sig .tc := ⟨.hbm, 450, rfl⟩
abbrev main_v334 : Ref sig .tc := ⟨.hbm, 451, rfl⟩
abbrev main_v335 : Ref sig .tc := ⟨.hbm, 452, rfl⟩
abbrev main_cst_66 : Ref sig .tc := ⟨.hbm, 453, rfl⟩
abbrev main_call19_v0 : Ref sig .tc := ⟨.hbm, 454, rfl⟩
abbrev main_call19_v1 : Ref sig .tc := ⟨.hbm, 455, rfl⟩
abbrev main_v336 : Ref sig .tc := ⟨.hbm, 456, rfl⟩
abbrev main_v337 : Ref sig .tc := ⟨.hbm, 457, rfl⟩
abbrev main_v338 : Ref sig .tc := ⟨.hbm, 458, rfl⟩
abbrev main_v339 : Ref sig .tc := ⟨.hbm, 459, rfl⟩
abbrev main_v340 : Ref sig .tc := ⟨.hbm, 460, rfl⟩
abbrev main_v341 : Ref sig .tc := ⟨.hbm, 461, rfl⟩
abbrev main_c_67 : Ref sig .tc := ⟨.hbm, 462, rfl⟩
abbrev main_v342 : Ref sig .tc := ⟨.hbm, 463, rfl⟩
abbrev main_v343 : Ref sig .tc := ⟨.hbm, 464, rfl⟩
abbrev main_c_68 : Ref sig .tc := ⟨.hbm, 465, rfl⟩
abbrev main_v344 : Ref sig .tc := ⟨.hbm, 466, rfl⟩
abbrev main_v345 : Ref sig .tc := ⟨.hbm, 467, rfl⟩
abbrev main_v346 : Ref sig .tc := ⟨.hbm, 468, rfl⟩
abbrev main_v347 : Ref sig .tc := ⟨.hbm, 469, rfl⟩
abbrev main_v348 : Ref sig .tc := ⟨.hbm, 470, rfl⟩
abbrev main_cst_69 : Ref sig .tc := ⟨.hbm, 471, rfl⟩
abbrev main_v349 : Ref sig .tc := ⟨.hbm, 472, rfl⟩
abbrev main_v350 : Ref sig .tc := ⟨.hbm, 473, rfl⟩
abbrev main_v351 : Ref sig .tc := ⟨.hbm, 474, rfl⟩
abbrev main_v352 : Ref sig .tc := ⟨.hbm, 475, rfl⟩
abbrev main_v353 : Ref sig .tc := ⟨.hbm, 476, rfl⟩
abbrev main_v354 : Ref sig .tc := ⟨.hbm, 477, rfl⟩
abbrev main_v355 : Ref sig .tc := ⟨.hbm, 478, rfl⟩
abbrev main_v356 : Ref sig .tc := ⟨.hbm, 479, rfl⟩
abbrev main_v357 : Ref sig .tc := ⟨.hbm, 480, rfl⟩
abbrev main_v358 : Ref sig .tc := ⟨.hbm, 481, rfl⟩
abbrev main_v359 : Ref sig .tc := ⟨.hbm, 482, rfl⟩
abbrev main_v360 : Ref sig .tc := ⟨.hbm, 483, rfl⟩
abbrev main_v361 : Ref sig .tc := ⟨.hbm, 484, rfl⟩
abbrev main_v362 : Ref sig .tc := ⟨.hbm, 485, rfl⟩
abbrev main_v363 : Ref sig .tc := ⟨.hbm, 486, rfl⟩
abbrev main_v364 : Ref sig .tc := ⟨.hbm, 487, rfl⟩
abbrev main_v365 : Ref sig .tc := ⟨.hbm, 488, rfl⟩
abbrev main_v366 : Ref sig .tc := ⟨.hbm, 489, rfl⟩
abbrev main_cst_70 : Ref sig .tc := ⟨.hbm, 490, rfl⟩
abbrev main_v367 : Ref sig .tc := ⟨.hbm, 491, rfl⟩
abbrev main_cst_71 : Ref sig .tc := ⟨.hbm, 492, rfl⟩
abbrev main_v368 : Ref sig .tc := ⟨.hbm, 493, rfl⟩
abbrev main_v369 : Ref sig .tc := ⟨.hbm, 494, rfl⟩
abbrev main_v370 : Ref sig .tc := ⟨.hbm, 495, rfl⟩
abbrev main_cst_72 : Ref sig .tc := ⟨.hbm, 496, rfl⟩
abbrev main_call20_v0 : Ref sig .tc := ⟨.hbm, 497, rfl⟩
abbrev main_call20_v1 : Ref sig .tc := ⟨.hbm, 498, rfl⟩
abbrev main_v371 : Ref sig .tc := ⟨.hbm, 499, rfl⟩
abbrev main_cst_73 : Ref sig .tc := ⟨.hbm, 500, rfl⟩
abbrev main_v372 : Ref sig .tc := ⟨.hbm, 501, rfl⟩
abbrev main_v373 : Ref sig .tc := ⟨.hbm, 502, rfl⟩
abbrev main_v374 : Ref sig .tc := ⟨.hbm, 503, rfl⟩
abbrev main_cst_74 : Ref sig .tc := ⟨.hbm, 504, rfl⟩
abbrev main_call21_v0 : Ref sig .tc := ⟨.hbm, 505, rfl⟩
abbrev main_call21_v1 : Ref sig .tc := ⟨.hbm, 506, rfl⟩
abbrev main_v375 : Ref sig .tc := ⟨.hbm, 507, rfl⟩
abbrev main_v376 : Ref sig .tc := ⟨.hbm, 508, rfl⟩
abbrev main_v377 : Ref sig .tc := ⟨.hbm, 509, rfl⟩
abbrev main_v378 : Ref sig .tc := ⟨.hbm, 510, rfl⟩
abbrev main_v379 : Ref sig .tc := ⟨.hbm, 511, rfl⟩
abbrev main_v380 : Ref sig .tc := ⟨.hbm, 512, rfl⟩
abbrev main_c_75 : Ref sig .tc := ⟨.hbm, 513, rfl⟩
abbrev main_v381 : Ref sig .tc := ⟨.hbm, 514, rfl⟩
abbrev main_v382 : Ref sig .tc := ⟨.hbm, 515, rfl⟩
abbrev main_c_76 : Ref sig .tc := ⟨.hbm, 516, rfl⟩
abbrev main_v383 : Ref sig .tc := ⟨.hbm, 517, rfl⟩
abbrev main_v384 : Ref sig .tc := ⟨.hbm, 518, rfl⟩
abbrev main_v385 : Ref sig .tc := ⟨.hbm, 519, rfl⟩
abbrev main_v386 : Ref sig .tc := ⟨.hbm, 520, rfl⟩
abbrev main_v387 : Ref sig .tc := ⟨.hbm, 521, rfl⟩
abbrev main_cst_77 : Ref sig .tc := ⟨.hbm, 522, rfl⟩
abbrev main_v388 : Ref sig .tc := ⟨.hbm, 523, rfl⟩
abbrev main_v389 : Ref sig .tc := ⟨.hbm, 524, rfl⟩
abbrev main_v390 : Ref sig .tc := ⟨.hbm, 525, rfl⟩
abbrev main_v391 : Ref sig .tc := ⟨.hbm, 526, rfl⟩
abbrev main_v392 : Ref sig .tc := ⟨.hbm, 527, rfl⟩
abbrev main_v393 : Ref sig .tc := ⟨.hbm, 528, rfl⟩
abbrev main_v394 : Ref sig .tc := ⟨.hbm, 529, rfl⟩
abbrev main_v395 : Ref sig .tc := ⟨.hbm, 530, rfl⟩
abbrev main_v396 : Ref sig .tc := ⟨.hbm, 531, rfl⟩
abbrev main_v397 : Ref sig .tc := ⟨.hbm, 532, rfl⟩
abbrev main_v398 : Ref sig .tc := ⟨.hbm, 533, rfl⟩
abbrev main_v399 : Ref sig .tc := ⟨.hbm, 534, rfl⟩
abbrev main_v400 : Ref sig .tc := ⟨.hbm, 535, rfl⟩
abbrev main_v401 : Ref sig .tc := ⟨.hbm, 536, rfl⟩
abbrev main_v402 : Ref sig .tc := ⟨.hbm, 537, rfl⟩
abbrev main_v403 : Ref sig .tc := ⟨.hbm, 538, rfl⟩
abbrev main_v404 : Ref sig .tc := ⟨.hbm, 539, rfl⟩
abbrev main_v405 : Ref sig .tc := ⟨.hbm, 540, rfl⟩
abbrev main_v406 : Ref sig .tc := ⟨.hbm, 541, rfl⟩
abbrev main_cst_78 : Ref sig .tc := ⟨.hbm, 542, rfl⟩
abbrev main_v407 : Ref sig .tc := ⟨.hbm, 543, rfl⟩
abbrev main_cst_79 : Ref sig .tc := ⟨.hbm, 544, rfl⟩
abbrev main_v408 : Ref sig .tc := ⟨.hbm, 545, rfl⟩
abbrev main_v409 : Ref sig .tc := ⟨.hbm, 546, rfl⟩
abbrev main_v410 : Ref sig .tc := ⟨.hbm, 547, rfl⟩
abbrev main_cst_80 : Ref sig .tc := ⟨.hbm, 548, rfl⟩
abbrev main_call22_v0 : Ref sig .tc := ⟨.hbm, 549, rfl⟩
abbrev main_call22_v1 : Ref sig .tc := ⟨.hbm, 550, rfl⟩
abbrev main_v411 : Ref sig .tc := ⟨.hbm, 551, rfl⟩
abbrev main_cst_81 : Ref sig .tc := ⟨.hbm, 552, rfl⟩
abbrev main_v412 : Ref sig .tc := ⟨.hbm, 553, rfl⟩
abbrev main_v413 : Ref sig .tc := ⟨.hbm, 554, rfl⟩
abbrev main_v414 : Ref sig .tc := ⟨.hbm, 555, rfl⟩
abbrev main_cst_82 : Ref sig .tc := ⟨.hbm, 556, rfl⟩
abbrev main_call23_v0 : Ref sig .tc := ⟨.hbm, 557, rfl⟩
abbrev main_call23_v1 : Ref sig .tc := ⟨.hbm, 558, rfl⟩
abbrev main_v415 : Ref sig .tc := ⟨.hbm, 559, rfl⟩
abbrev main_v416 : Ref sig .tc := ⟨.hbm, 560, rfl⟩
abbrev main_v417 : Ref sig .tc := ⟨.hbm, 561, rfl⟩
abbrev main_v418 : Ref sig .tc := ⟨.hbm, 562, rfl⟩
abbrev main_v419 : Ref sig .tc := ⟨.hbm, 563, rfl⟩
abbrev main_v420 : Ref sig .tc := ⟨.hbm, 564, rfl⟩
abbrev main_c_83 : Ref sig .tc := ⟨.hbm, 565, rfl⟩
abbrev main_v421 : Ref sig .tc := ⟨.hbm, 566, rfl⟩
abbrev main_v422 : Ref sig .tc := ⟨.hbm, 567, rfl⟩
abbrev main_c_84 : Ref sig .tc := ⟨.hbm, 568, rfl⟩
abbrev main_v423 : Ref sig .tc := ⟨.hbm, 569, rfl⟩
abbrev main_v424 : Ref sig .tc := ⟨.hbm, 570, rfl⟩
abbrev main_v425 : Ref sig .tc := ⟨.hbm, 571, rfl⟩
abbrev main_v426 : Ref sig .tc := ⟨.hbm, 572, rfl⟩
abbrev main_v427 : Ref sig .tc := ⟨.hbm, 573, rfl⟩
abbrev main_cst_85 : Ref sig .tc := ⟨.hbm, 574, rfl⟩
abbrev main_v428 : Ref sig .tc := ⟨.hbm, 575, rfl⟩
abbrev main_v429 : Ref sig .tc := ⟨.hbm, 576, rfl⟩
abbrev main_v430 : Ref sig .tc := ⟨.hbm, 577, rfl⟩
abbrev main_v431 : Ref sig .tc := ⟨.hbm, 578, rfl⟩
abbrev main_v432 : Ref sig .tc := ⟨.hbm, 579, rfl⟩
abbrev main_v433 : Ref sig .tc := ⟨.hbm, 580, rfl⟩
abbrev main_v434 : Ref sig .tc := ⟨.hbm, 581, rfl⟩
abbrev main_v435 : Ref sig .tc := ⟨.hbm, 582, rfl⟩
abbrev main_v436 : Ref sig .tc := ⟨.hbm, 583, rfl⟩
abbrev main_v437 : Ref sig .tc := ⟨.hbm, 584, rfl⟩
abbrev main_v438 : Ref sig .tc := ⟨.hbm, 585, rfl⟩
abbrev main_v439 : Ref sig .tc := ⟨.hbm, 586, rfl⟩
abbrev main_v440 : Ref sig .tc := ⟨.hbm, 587, rfl⟩
abbrev main_v441 : Ref sig .tc := ⟨.hbm, 588, rfl⟩
abbrev main_v442 : Ref sig .tc := ⟨.hbm, 589, rfl⟩
abbrev main_v443 : Ref sig .tc := ⟨.hbm, 590, rfl⟩
abbrev main_v444 : Ref sig .tc := ⟨.hbm, 591, rfl⟩
abbrev main_v445 : Ref sig .tc := ⟨.hbm, 592, rfl⟩
abbrev main_v446 : Ref sig .tc := ⟨.hbm, 593, rfl⟩
abbrev main_cst_86 : Ref sig .tc := ⟨.hbm, 594, rfl⟩
abbrev main_v447 : Ref sig .tc := ⟨.hbm, 595, rfl⟩
abbrev main_cst_87 : Ref sig .tc := ⟨.hbm, 596, rfl⟩
abbrev main_v448 : Ref sig .tc := ⟨.hbm, 597, rfl⟩
abbrev main_v449 : Ref sig .tc := ⟨.hbm, 598, rfl⟩
abbrev main_v450 : Ref sig .tc := ⟨.hbm, 599, rfl⟩
abbrev main_cst_88 : Ref sig .tc := ⟨.hbm, 600, rfl⟩
abbrev main_call24_v0 : Ref sig .tc := ⟨.hbm, 601, rfl⟩
abbrev main_call24_v1 : Ref sig .tc := ⟨.hbm, 602, rfl⟩
abbrev main_v451 : Ref sig .tc := ⟨.hbm, 603, rfl⟩
abbrev main_cst_89 : Ref sig .tc := ⟨.hbm, 604, rfl⟩
abbrev main_v452 : Ref sig .tc := ⟨.hbm, 605, rfl⟩
abbrev main_v453 : Ref sig .tc := ⟨.hbm, 606, rfl⟩
abbrev main_v454 : Ref sig .tc := ⟨.hbm, 607, rfl⟩
abbrev main_cst_90 : Ref sig .tc := ⟨.hbm, 608, rfl⟩
abbrev main_call25_v0 : Ref sig .tc := ⟨.hbm, 609, rfl⟩
abbrev main_call25_v1 : Ref sig .tc := ⟨.hbm, 610, rfl⟩
abbrev main_v455 : Ref sig .tc := ⟨.hbm, 611, rfl⟩
abbrev main_v456 : Ref sig .tc := ⟨.hbm, 612, rfl⟩
abbrev main_v457 : Ref sig .tc := ⟨.hbm, 613, rfl⟩
abbrev main_v458 : Ref sig .tc := ⟨.hbm, 614, rfl⟩
abbrev main_v459 : Ref sig .tc := ⟨.hbm, 615, rfl⟩
abbrev main_v460 : Ref sig .tc := ⟨.hbm, 616, rfl⟩
abbrev main_c_91 : Ref sig .tc := ⟨.hbm, 617, rfl⟩
abbrev main_v461 : Ref sig .tc := ⟨.hbm, 618, rfl⟩
abbrev main_v462 : Ref sig .tc := ⟨.hbm, 619, rfl⟩
abbrev main_c_92 : Ref sig .tc := ⟨.hbm, 620, rfl⟩
abbrev main_v463 : Ref sig .tc := ⟨.hbm, 621, rfl⟩
abbrev main_v464 : Ref sig .tc := ⟨.hbm, 622, rfl⟩
abbrev main_v465 : Ref sig .tc := ⟨.hbm, 623, rfl⟩
abbrev main_v466 : Ref sig .tc := ⟨.hbm, 624, rfl⟩
abbrev main_v467 : Ref sig .tc := ⟨.hbm, 625, rfl⟩
abbrev main_cst_93 : Ref sig .tc := ⟨.hbm, 626, rfl⟩
abbrev main_v468 : Ref sig .tc := ⟨.hbm, 627, rfl⟩
abbrev main_v469 : Ref sig .tc := ⟨.hbm, 628, rfl⟩
abbrev main_v470 : Ref sig .tc := ⟨.hbm, 629, rfl⟩
abbrev main_v471 : Ref sig .tc := ⟨.hbm, 630, rfl⟩
abbrev main_v472 : Ref sig .tc := ⟨.hbm, 631, rfl⟩
abbrev main_v473 : Ref sig .tc := ⟨.hbm, 632, rfl⟩
abbrev main_v474 : Ref sig .tc := ⟨.hbm, 633, rfl⟩
abbrev main_v475 : Ref sig .tc := ⟨.hbm, 634, rfl⟩
abbrev main_v476 : Ref sig .tc := ⟨.hbm, 635, rfl⟩
abbrev main_v477 : Ref sig .tc := ⟨.hbm, 636, rfl⟩
abbrev main_v478 : Ref sig .tc := ⟨.hbm, 637, rfl⟩
abbrev main_call26_cst : Ref sig .tc := ⟨.hbm, 638, rfl⟩
abbrev main_call26_v0 : Ref sig .tc := ⟨.hbm, 639, rfl⟩
abbrev main_v479 : Ref sig .tc := ⟨.hbm, 640, rfl⟩
abbrev main_v480 : Ref sig .tc := ⟨.hbm, 641, rfl⟩
abbrev main_v481 : Ref sig .tc := ⟨.hbm, 642, rfl⟩
abbrev main_v482 : Ref sig .tc := ⟨.hbm, 643, rfl⟩
abbrev main_v483 : Ref sig .tc := ⟨.hbm, 644, rfl⟩
abbrev main_v484 : Ref sig .tc := ⟨.hbm, 645, rfl⟩
abbrev main_v485 : Ref sig .tc := ⟨.hbm, 646, rfl⟩
abbrev main_v486 : Ref sig .tc := ⟨.hbm, 647, rfl⟩
abbrev main_v487 : Ref sig .tc := ⟨.hbm, 648, rfl⟩
abbrev main_cst_94 : Ref sig .tc := ⟨.hbm, 649, rfl⟩
abbrev main_v488 : Ref sig .tc := ⟨.hbm, 650, rfl⟩
abbrev main_cst_95 : Ref sig .tc := ⟨.hbm, 651, rfl⟩
abbrev main_v489 : Ref sig .tc := ⟨.hbm, 652, rfl⟩
abbrev main_v490 : Ref sig .tc := ⟨.hbm, 653, rfl⟩
abbrev main_v491 : Ref sig .tc := ⟨.hbm, 654, rfl⟩
abbrev main_cst_96 : Ref sig .tc := ⟨.hbm, 655, rfl⟩
abbrev main_call27_v0 : Ref sig .tc := ⟨.hbm, 656, rfl⟩
abbrev main_call27_v1 : Ref sig .tc := ⟨.hbm, 657, rfl⟩
abbrev main_v492 : Ref sig .tc := ⟨.hbm, 658, rfl⟩
abbrev main_cst_97 : Ref sig .tc := ⟨.hbm, 659, rfl⟩
abbrev main_v493 : Ref sig .tc := ⟨.hbm, 660, rfl⟩
abbrev main_v494 : Ref sig .tc := ⟨.hbm, 661, rfl⟩
abbrev main_v495 : Ref sig .tc := ⟨.hbm, 662, rfl⟩
abbrev main_cst_98 : Ref sig .tc := ⟨.hbm, 663, rfl⟩
abbrev main_call28_v0 : Ref sig .tc := ⟨.hbm, 664, rfl⟩
abbrev main_call28_v1 : Ref sig .tc := ⟨.hbm, 665, rfl⟩
abbrev main_v496 : Ref sig .tc := ⟨.hbm, 666, rfl⟩
abbrev main_v497 : Ref sig .tc := ⟨.hbm, 667, rfl⟩
abbrev main_v498 : Ref sig .tc := ⟨.hbm, 668, rfl⟩
abbrev main_v499 : Ref sig .tc := ⟨.hbm, 669, rfl⟩
abbrev main_v500 : Ref sig .tc := ⟨.hbm, 670, rfl⟩
abbrev main_v501 : Ref sig .tc := ⟨.hbm, 671, rfl⟩
abbrev main_c_99 : Ref sig .tc := ⟨.hbm, 672, rfl⟩
abbrev main_v502 : Ref sig .tc := ⟨.hbm, 673, rfl⟩
abbrev main_v503 : Ref sig .tc := ⟨.hbm, 674, rfl⟩
abbrev main_c_100 : Ref sig .tc := ⟨.hbm, 675, rfl⟩
abbrev main_v504 : Ref sig .tc := ⟨.hbm, 676, rfl⟩
abbrev main_v505 : Ref sig .tc := ⟨.hbm, 677, rfl⟩
abbrev main_v506 : Ref sig .tc := ⟨.hbm, 678, rfl⟩
abbrev main_v507 : Ref sig .tc := ⟨.hbm, 679, rfl⟩
abbrev main_v508 : Ref sig .tc := ⟨.hbm, 680, rfl⟩
abbrev main_cst_101 : Ref sig .tc := ⟨.hbm, 681, rfl⟩
abbrev main_v509 : Ref sig .tc := ⟨.hbm, 682, rfl⟩
abbrev main_v510 : Ref sig .tc := ⟨.hbm, 683, rfl⟩
abbrev main_v511 : Ref sig .tc := ⟨.hbm, 684, rfl⟩
abbrev main_v512 : Ref sig .tc := ⟨.hbm, 685, rfl⟩
abbrev main_v513 : Ref sig .tc := ⟨.hbm, 686, rfl⟩
abbrev main_v514 : Ref sig .tc := ⟨.hbm, 687, rfl⟩
abbrev main_v515 : Ref sig .tc := ⟨.hbm, 688, rfl⟩
abbrev main_v516 : Ref sig .tc := ⟨.hbm, 689, rfl⟩
abbrev main_v517 : Ref sig .tc := ⟨.hbm, 690, rfl⟩
abbrev main_v518 : Ref sig .tc := ⟨.hbm, 691, rfl⟩
abbrev main_v519 : Ref sig .tc := ⟨.hbm, 692, rfl⟩
abbrev main_v520 : Ref sig .tc := ⟨.hbm, 693, rfl⟩
abbrev main_v521 : Ref sig .tc := ⟨.hbm, 694, rfl⟩
abbrev main_v522 : Ref sig .tc := ⟨.hbm, 695, rfl⟩
abbrev main_v523 : Ref sig .tc := ⟨.hbm, 696, rfl⟩
abbrev main_v524 : Ref sig .tc := ⟨.hbm, 697, rfl⟩
abbrev main_v525 : Ref sig .tc := ⟨.hbm, 698, rfl⟩
abbrev main_v526 : Ref sig .tc := ⟨.hbm, 699, rfl⟩
abbrev main_cst_102 : Ref sig .tc := ⟨.hbm, 700, rfl⟩
abbrev main_v527 : Ref sig .tc := ⟨.hbm, 701, rfl⟩
abbrev main_cst_103 : Ref sig .tc := ⟨.hbm, 702, rfl⟩
abbrev main_v528 : Ref sig .tc := ⟨.hbm, 703, rfl⟩
abbrev main_v529 : Ref sig .tc := ⟨.hbm, 704, rfl⟩
abbrev main_v530 : Ref sig .tc := ⟨.hbm, 705, rfl⟩
abbrev main_cst_104 : Ref sig .tc := ⟨.hbm, 706, rfl⟩
abbrev main_call29_v0 : Ref sig .tc := ⟨.hbm, 707, rfl⟩
abbrev main_call29_v1 : Ref sig .tc := ⟨.hbm, 708, rfl⟩
abbrev main_v531 : Ref sig .tc := ⟨.hbm, 709, rfl⟩
abbrev main_cst_105 : Ref sig .tc := ⟨.hbm, 710, rfl⟩
abbrev main_v532 : Ref sig .tc := ⟨.hbm, 711, rfl⟩
abbrev main_v533 : Ref sig .tc := ⟨.hbm, 712, rfl⟩
abbrev main_v534 : Ref sig .tc := ⟨.hbm, 713, rfl⟩
abbrev main_cst_106 : Ref sig .tc := ⟨.hbm, 714, rfl⟩
abbrev main_call30_v0 : Ref sig .tc := ⟨.hbm, 715, rfl⟩
abbrev main_call30_v1 : Ref sig .tc := ⟨.hbm, 716, rfl⟩
abbrev main_v535 : Ref sig .tc := ⟨.hbm, 717, rfl⟩
abbrev main_v536 : Ref sig .tc := ⟨.hbm, 718, rfl⟩
abbrev main_v537 : Ref sig .tc := ⟨.hbm, 719, rfl⟩
abbrev main_v538 : Ref sig .tc := ⟨.hbm, 720, rfl⟩
abbrev main_v539 : Ref sig .tc := ⟨.hbm, 721, rfl⟩
abbrev main_v540 : Ref sig .tc := ⟨.hbm, 722, rfl⟩
abbrev main_c_107 : Ref sig .tc := ⟨.hbm, 723, rfl⟩
abbrev main_v541 : Ref sig .tc := ⟨.hbm, 724, rfl⟩
abbrev main_v542 : Ref sig .tc := ⟨.hbm, 725, rfl⟩
abbrev main_c_108 : Ref sig .tc := ⟨.hbm, 726, rfl⟩
abbrev main_v543 : Ref sig .tc := ⟨.hbm, 727, rfl⟩
abbrev main_v544 : Ref sig .tc := ⟨.hbm, 728, rfl⟩
abbrev main_v545 : Ref sig .tc := ⟨.hbm, 729, rfl⟩
abbrev main_v546 : Ref sig .tc := ⟨.hbm, 730, rfl⟩
abbrev main_v547 : Ref sig .tc := ⟨.hbm, 731, rfl⟩
abbrev main_cst_109 : Ref sig .tc := ⟨.hbm, 732, rfl⟩
abbrev main_v548 : Ref sig .tc := ⟨.hbm, 733, rfl⟩
abbrev main_v549 : Ref sig .tc := ⟨.hbm, 734, rfl⟩
abbrev main_v550 : Ref sig .tc := ⟨.hbm, 735, rfl⟩
abbrev main_v551 : Ref sig .tc := ⟨.hbm, 736, rfl⟩
abbrev main_v552 : Ref sig .tc := ⟨.hbm, 737, rfl⟩
abbrev main_v553 : Ref sig .tc := ⟨.hbm, 738, rfl⟩
abbrev main_v554 : Ref sig .tc := ⟨.hbm, 739, rfl⟩
abbrev main_v555 : Ref sig .tc := ⟨.hbm, 740, rfl⟩
abbrev main_v556 : Ref sig .tc := ⟨.hbm, 741, rfl⟩
abbrev main_v557 : Ref sig .tc := ⟨.hbm, 742, rfl⟩
abbrev main_v558 : Ref sig .tc := ⟨.hbm, 743, rfl⟩
abbrev main_v559 : Ref sig .tc := ⟨.hbm, 744, rfl⟩
abbrev main_v560 : Ref sig .tc := ⟨.hbm, 745, rfl⟩
abbrev main_v561 : Ref sig .tc := ⟨.hbm, 746, rfl⟩
abbrev main_v562 : Ref sig .tc := ⟨.hbm, 747, rfl⟩
abbrev main_v563 : Ref sig .tc := ⟨.hbm, 748, rfl⟩
abbrev main_v564 : Ref sig .tc := ⟨.hbm, 749, rfl⟩
abbrev main_v565 : Ref sig .tc := ⟨.hbm, 750, rfl⟩
abbrev main_v566 : Ref sig .tc := ⟨.hbm, 751, rfl⟩
abbrev main_cst_110 : Ref sig .tc := ⟨.hbm, 752, rfl⟩
abbrev main_v567 : Ref sig .tc := ⟨.hbm, 753, rfl⟩
abbrev main_cst_111 : Ref sig .tc := ⟨.hbm, 754, rfl⟩
abbrev main_v568 : Ref sig .tc := ⟨.hbm, 755, rfl⟩
abbrev main_v569 : Ref sig .tc := ⟨.hbm, 756, rfl⟩
abbrev main_v570 : Ref sig .tc := ⟨.hbm, 757, rfl⟩
abbrev main_cst_112 : Ref sig .tc := ⟨.hbm, 758, rfl⟩
abbrev main_call31_v0 : Ref sig .tc := ⟨.hbm, 759, rfl⟩
abbrev main_call31_v1 : Ref sig .tc := ⟨.hbm, 760, rfl⟩
abbrev main_v571 : Ref sig .tc := ⟨.hbm, 761, rfl⟩
abbrev main_cst_113 : Ref sig .tc := ⟨.hbm, 762, rfl⟩
abbrev main_v572 : Ref sig .tc := ⟨.hbm, 763, rfl⟩
abbrev main_v573 : Ref sig .tc := ⟨.hbm, 764, rfl⟩
abbrev main_v574 : Ref sig .tc := ⟨.hbm, 765, rfl⟩
abbrev main_cst_114 : Ref sig .tc := ⟨.hbm, 766, rfl⟩
abbrev main_call32_v0 : Ref sig .tc := ⟨.hbm, 767, rfl⟩
abbrev main_call32_v1 : Ref sig .tc := ⟨.hbm, 768, rfl⟩
abbrev main_v575 : Ref sig .tc := ⟨.hbm, 769, rfl⟩
abbrev main_v576 : Ref sig .tc := ⟨.hbm, 770, rfl⟩
abbrev main_v577 : Ref sig .tc := ⟨.hbm, 771, rfl⟩
abbrev main_v578 : Ref sig .tc := ⟨.hbm, 772, rfl⟩
abbrev main_v579 : Ref sig .tc := ⟨.hbm, 773, rfl⟩
abbrev main_v580 : Ref sig .tc := ⟨.hbm, 774, rfl⟩
abbrev main_c_115 : Ref sig .tc := ⟨.hbm, 775, rfl⟩
abbrev main_v581 : Ref sig .tc := ⟨.hbm, 776, rfl⟩
abbrev main_v582 : Ref sig .tc := ⟨.hbm, 777, rfl⟩
abbrev main_c_116 : Ref sig .tc := ⟨.hbm, 778, rfl⟩
abbrev main_v583 : Ref sig .tc := ⟨.hbm, 779, rfl⟩
abbrev main_v584 : Ref sig .tc := ⟨.hbm, 780, rfl⟩
abbrev main_v585 : Ref sig .tc := ⟨.hbm, 781, rfl⟩
abbrev main_v586 : Ref sig .tc := ⟨.hbm, 782, rfl⟩
abbrev main_v587 : Ref sig .tc := ⟨.hbm, 783, rfl⟩
abbrev main_cst_117 : Ref sig .tc := ⟨.hbm, 784, rfl⟩
abbrev main_v588 : Ref sig .tc := ⟨.hbm, 785, rfl⟩
abbrev main_v589 : Ref sig .tc := ⟨.hbm, 786, rfl⟩
abbrev main_v590 : Ref sig .tc := ⟨.hbm, 787, rfl⟩
abbrev main_v591 : Ref sig .tc := ⟨.hbm, 788, rfl⟩
abbrev main_v592 : Ref sig .tc := ⟨.hbm, 789, rfl⟩
abbrev main_v593 : Ref sig .tc := ⟨.hbm, 790, rfl⟩
abbrev main_v594 : Ref sig .tc := ⟨.hbm, 791, rfl⟩
abbrev main_v595 : Ref sig .tc := ⟨.hbm, 792, rfl⟩
abbrev main_v596 : Ref sig .tc := ⟨.hbm, 793, rfl⟩
abbrev main_v597 : Ref sig .tc := ⟨.hbm, 794, rfl⟩
abbrev main_v598 : Ref sig .tc := ⟨.hbm, 795, rfl⟩
abbrev main_v599 : Ref sig .tc := ⟨.hbm, 796, rfl⟩
abbrev main_v600 : Ref sig .tc := ⟨.hbm, 797, rfl⟩
abbrev main_v601 : Ref sig .tc := ⟨.hbm, 798, rfl⟩
abbrev main_v602 : Ref sig .tc := ⟨.hbm, 799, rfl⟩
abbrev main_v603 : Ref sig .tc := ⟨.hbm, 800, rfl⟩
abbrev main_v604 : Ref sig .tc := ⟨.hbm, 801, rfl⟩
abbrev main_v605 : Ref sig .tc := ⟨.hbm, 802, rfl⟩
abbrev main_v606 : Ref sig .tc := ⟨.hbm, 803, rfl⟩
abbrev main_cst_118 : Ref sig .tc := ⟨.hbm, 804, rfl⟩
abbrev main_v607 : Ref sig .tc := ⟨.hbm, 805, rfl⟩
abbrev main_cst_119 : Ref sig .tc := ⟨.hbm, 806, rfl⟩
abbrev main_v608 : Ref sig .tc := ⟨.hbm, 807, rfl⟩
abbrev main_v609 : Ref sig .tc := ⟨.hbm, 808, rfl⟩
abbrev main_v610 : Ref sig .tc := ⟨.hbm, 809, rfl⟩
abbrev main_cst_120 : Ref sig .tc := ⟨.hbm, 810, rfl⟩
abbrev main_call33_v0 : Ref sig .tc := ⟨.hbm, 811, rfl⟩
abbrev main_call33_v1 : Ref sig .tc := ⟨.hbm, 812, rfl⟩
abbrev main_v611 : Ref sig .tc := ⟨.hbm, 813, rfl⟩
abbrev main_cst_121 : Ref sig .tc := ⟨.hbm, 814, rfl⟩
abbrev main_v612 : Ref sig .tc := ⟨.hbm, 815, rfl⟩
abbrev main_v613 : Ref sig .tc := ⟨.hbm, 816, rfl⟩
abbrev main_v614 : Ref sig .tc := ⟨.hbm, 817, rfl⟩
abbrev main_cst_122 : Ref sig .tc := ⟨.hbm, 818, rfl⟩
abbrev main_call34_v0 : Ref sig .tc := ⟨.hbm, 819, rfl⟩
abbrev main_call34_v1 : Ref sig .tc := ⟨.hbm, 820, rfl⟩
abbrev main_v615 : Ref sig .tc := ⟨.hbm, 821, rfl⟩
abbrev main_v616 : Ref sig .tc := ⟨.hbm, 822, rfl⟩
abbrev main_v617 : Ref sig .tc := ⟨.hbm, 823, rfl⟩
abbrev main_v618 : Ref sig .tc := ⟨.hbm, 824, rfl⟩
abbrev main_v619 : Ref sig .tc := ⟨.hbm, 825, rfl⟩
abbrev main_v620 : Ref sig .tc := ⟨.hbm, 826, rfl⟩
abbrev main_c_123 : Ref sig .tc := ⟨.hbm, 827, rfl⟩
abbrev main_v621 : Ref sig .tc := ⟨.hbm, 828, rfl⟩
abbrev main_v622 : Ref sig .tc := ⟨.hbm, 829, rfl⟩
abbrev main_c_124 : Ref sig .tc := ⟨.hbm, 830, rfl⟩
abbrev main_v623 : Ref sig .tc := ⟨.hbm, 831, rfl⟩
abbrev main_v624 : Ref sig .tc := ⟨.hbm, 832, rfl⟩
abbrev main_v625 : Ref sig .tc := ⟨.hbm, 833, rfl⟩
abbrev main_v626 : Ref sig .tc := ⟨.hbm, 834, rfl⟩
abbrev main_v627 : Ref sig .tc := ⟨.hbm, 835, rfl⟩
abbrev main_cst_125 : Ref sig .tc := ⟨.hbm, 836, rfl⟩
abbrev main_v628 : Ref sig .tc := ⟨.hbm, 837, rfl⟩
abbrev main_v629 : Ref sig .tc := ⟨.hbm, 838, rfl⟩
abbrev main_v630 : Ref sig .tc := ⟨.hbm, 839, rfl⟩
abbrev main_v631 : Ref sig .tc := ⟨.hbm, 840, rfl⟩
abbrev main_v632 : Ref sig .tc := ⟨.hbm, 841, rfl⟩
abbrev main_v633 : Ref sig .tc := ⟨.hbm, 842, rfl⟩
abbrev main_v634 : Ref sig .tc := ⟨.hbm, 843, rfl⟩
abbrev main_v635 : Ref sig .tc := ⟨.hbm, 844, rfl⟩
abbrev main_v636 : Ref sig .tc := ⟨.hbm, 845, rfl⟩
abbrev main_v637 : Ref sig .tc := ⟨.hbm, 846, rfl⟩
abbrev main_v638 : Ref sig .tc := ⟨.hbm, 847, rfl⟩

abbrev nD : Nat := 1
abbrev τ : Topo := Topo.v7x

variable {F : FTy → Type} [FloatOps F]

class Facts₀ : Prop where
  slices_S4x256x256_S1x256x256_0_0_0 : S4x256x256.Slices ![0, 0, 0] S1x256x256
  shapeCasts_S1x256x256_S256x256 : S1x256x256.ShapeCasts S256x256
  slices_S4x256_S1x256_0_0 : S4x256.Slices ![0, 0] S1x256
  shapeCasts_S1x256_S256 : S1x256.ShapeCasts S256
  slices_S4x400000_S1x400000_0_0 : S4x400000.Slices ![0, 0] S1x400000
  shapeCasts_S1x400000_S400000 : S1x400000.ShapeCasts S400000
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S4x256x256_S1x256x256_1_0_0 : S4x256x256.Slices ![1, 0, 0] S1x256x256
  slices_S4x256_S1x256_1_0 : S4x256.Slices ![1, 0] S1x256
  slices_S4x400000_S1x400000_1_0 : S4x400000.Slices ![1, 0] S1x400000
  slices_S4x256x256_S1x256x256_2_0_0 : S4x256x256.Slices ![2, 0, 0] S1x256x256
  slices_S4x256_S1x256_2_0 : S4x256.Slices ![2, 0] S1x256
  slices_S4x400000_S1x400000_2_0 : S4x400000.Slices ![2, 0] S1x400000
  slices_S4x256x256_S1x256x256_3_0_0 : S4x256x256.Slices ![3, 0, 0] S1x256x256
  slices_S4x256_S1x256_3_0 : S4x256.Slices ![3, 0] S1x256
  slices_S4x400000_S1x400000_3_0 : S4x400000.Slices ![3, 0] S1x400000
  slices_S4x256x128_S1x256x128_0_0_0 : S4x256x128.Slices ![0, 0, 0] S1x256x128
  shapeCasts_S1x256x128_S256x128 : S1x256x128.ShapeCasts S256x128
  slices_S4x128_S1x128_0_0 : S4x128.Slices ![0, 0] S1x128
  shapeCasts_S1x128_S128 : S1x128.ShapeCasts S128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S4x256x128_S1x256x128_1_0_0 : S4x256x128.Slices ![1, 0, 0] S1x256x128
  slices_S4x128_S1x128_1_0 : S4x128.Slices ![1, 0] S1x128
  slices_S4x256x128_S1x256x128_2_0_0 : S4x256x128.Slices ![2, 0, 0] S1x256x128
  slices_S4x128_S1x128_2_0 : S4x128.Slices ![2, 0] S1x128
  slices_S4x256x128_S1x256x128_3_0_0 : S4x256x128.Slices ![3, 0, 0] S1x256x128
  slices_S4x128_S1x128_3_0 : S4x128.Slices ![3, 0] S1x128
  scatter_S50000_S400000x1_S400000_n_0_0_1_wf : ScatterDims.WF S50000 S400000x1 S400000 [] [0] [0] 1
  dot_S50000x256_S256x256_S50000x256_1_0_0_1_n_n_wf : DotDims.WF S50000x256 S256x256 S50000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  dot_S50000x256_S256x128_S50000x128_1_0_0_1_n_n_wf : DotDims.WF S50000x256 S256x128 S50000x128 [1] [0] [0] [1] [] []
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf

class Facts : Prop extends Facts₀ where

variable [Facts]
-- ==== Proof.K.Host.lean ====
import proofs.«111407_j24215025614983_1_alg».proof.Proof.Gen.Kernel.Launch
import proofs.«111407_j24215025614983_1_alg».proof.Proof.Gen.Kernel.Skeleton
import proofs.«111407_j24215025614983_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
The host side of the run of @main: what the stretches of host operations between the four kernel regions write,
and what they leave alone.

Every host operation writes exactly one buffer, its result. A stretch therefore keeps the contents of every buffer
that is the result of none of its operations. Two families of buffers matter downstream: the eleven argument arrays
(no operation anywhere writes an argument), and the two degree scalings computed before the first region, which no
later stretch writes. Both facts are checked operation by operation: the operation's result reference is read off the
operation, and it is decided not to be among the references kept.

No operation allocates a buffer (none has contents it leaves undetermined), which is what lets a stretch run as one
segment whose end contents are the fold of the operations' results over its start contents.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The argument arrays. -/
abbrev argList : List (Ref sig .tc) :=
  [main_arg0, main_arg1, main_arg2, main_arg3, main_arg4, main_arg5, main_arg6, main_arg7, main_arg8, main_arg9, main_arg10]

/-- The buffers every segment from the first region on leaves as it finds them: the arguments and the two degree
    scalings. -/
abbrev keepList : List (Ref sig .tc) :=
  [main_arg0, main_arg1, main_arg2, main_arg3, main_arg4, main_arg5, main_arg6, main_arg7, main_arg8, main_arg9, main_arg10, main_v60, main_v62]

namespace RunB

/-- A stretch each of whose operations writes one buffer, none of them among the references `K`, leaves every
    reference of `K` at its contents. -/
theorem after_keep {K : List (Ref sig .tc)} (ops : List (HloOp τ sig (Elt F))) (V : Valuation τ sig (Elt F))
    (h : ops.Forall fun op => ∃ y : Ref sig .tc, op.writes = {Proc.devRef .tc y} ∧ y ∉ K)
    {r : Ref sig .tc} (hr : r ∈ K) : StableHlo.after ops V (Proc.devRef .tc r) = V (Proc.devRef .tc r) :=
  StableHlo.after_of_forall_not_mem ops V fun op hop hb => by
    obtain ⟨y, hw, hy⟩ := (List.forall_iff_forall_mem.mp h) op hop
    rw [hw, Finset.mem_singleton] at hb
    exact hy (Proc.devRef_injective _ hb ▸ hr)

end RunB

/-- No operation of `hostOps0` allocates a buffer. -/
theorem hostOps0_fresh : (hostOps0 : List (HloOp τ sig (Elt F))).Forall fun op => op.fresh = ∅ :=
  ⟨rfl, rfl, rfl, rfl, rfl, rfl, rfl, rfl, rfl⟩
/-- Each operation of `hostOps0` writes its one result, which is not among the references kept. -/
theorem hostOps0_wr : (hostOps0 : List (HloOp τ sig (Elt F))).Forall fun op => ∃ y : Ref sig .tc, op.writes = {Proc.devRef .tc y} ∧ y ∉ argList :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
/-- so the stretch leaves those references' buffers as it finds them. -/
theorem hostOps0_keep (V : Valuation τ sig (Elt F)) {r : Ref sig .tc} (hr : r ∈ argList) :
    StableHlo.after hostOps0 V (Proc.devRef .tc r) = V (Proc.devRef .tc r) :=
  RunB.after_keep hostOps0 V hostOps0_wr hr

/-- No operation of `hostOps0_1` allocates a buffer. -/
theorem hostOps0_1_fresh : (hostOps0_1 : List (HloOp τ sig (Elt F))).Forall fun op => op.fresh = ∅ :=
  ⟨rfl, rfl, rfl⟩
/-- Each operation of `hostOps0_1` writes its one result, which is not among the references kept. -/
theorem hostOps0_1_wr : (hostOps0_1 : List (HloOp τ sig (Elt F))).Forall fun op => ∃ y : Ref sig .tc, op.writes = {Proc.devRef .tc y} ∧ y ∉ argList :=
  ⟨⟨_, rfl, by decide⟩, ⟨_, rfl, by decide⟩, ⟨_, rfl, by decide⟩⟩
/-- so the stretch leaves those references' buffers as it finds them. -/
theorem hostOps0_1_keep (V : Valuation τ sig (Elt F)) {r : Ref sig .tc} (hr : r ∈ argList) :
    StableHlo.after hostOps0_1 V (Proc.devRef .tc r) = V (Proc.devRef .tc r) :=
  RunB.after_keep hostOps0_1 V hostOps0_1_wr hr

/-- No operation of `hostOps0_2` allocates a buffer. -/
theorem hostOps0_2_fresh : (hostOps0_2 : List (HloOp τ sig (Elt F))).Forall fun op => op.fresh = ∅ :=
  ⟨rfl, rfl, rfl, rfl, rfl, rfl, rfl⟩
/-- Each operation of `hostOps0_2` writes its one result, which is not among the references kept. -/
theorem hostOps0_2_wr : (hostOps0_2 : List (HloOp τ sig (Elt F))).Forall fun op => ∃ y : Ref sig .tc, op.writes = {Proc.devRef .tc y} ∧ y ∉ argList :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩⟩
/-- so the stretch leaves those references' buffers as it finds them. -/
theorem hostOps0_2_keep (V : Valuation τ sig (Elt F)) {r : Ref sig .tc} (hr : r ∈ argList) :
    StableHlo.after hostOps0_2 V (Proc.devRef .tc r) = V (Proc.devRef .tc r) :=
  RunB.after_keep hostOps0_2 V hostOps0_2_wr hr

/-- No operation of `hostOps0_3` allocates a buffer. -/
theorem hostOps0_3_fresh : (hostOps0_3 : List (HloOp τ sig (Elt F))).Forall fun op => op.fresh = ∅ :=
  ⟨rfl, rfl, rfl⟩
/-- Each operation of `hostOps0_3` writes its one result, which is not among the references kept. -/
theorem hostOps0_3_wr : (hostOps0_3 : List (HloOp τ sig (Elt F))).Forall fun op => ∃ y : Ref sig .tc, op.writes = {Proc.devRef .tc y} ∧ y ∉ argList :=
  ⟨⟨_, rfl, by decide⟩, ⟨_, rfl, by decide⟩, ⟨_, rfl, by decide⟩⟩
/-- so the stretch leaves those references' buffers as it finds them. -/
theorem hostOps0_3_keep (V : Valuation τ sig (Elt F)) {r : Ref sig .tc} (hr : r ∈ argList) :
    StableHlo.after hostOps0_3 V (Proc.devRef .tc r) = V (Proc.devRef .tc r) :=
  RunB.after_keep hostOps0_3 V hostOps0_3_wr hr

/-- No operation of `hostOps0_4` allocates a buffer. -/
theorem hostOps0_4_fresh : (hostOps0_4 : List (HloOp τ sig (Elt F))).Forall fun op => op.fresh = ∅ :=
  ⟨rfl, rfl, rfl, rfl, rfl, rfl, rfl⟩
/-- Each operation of `hostOps0_4` writes its one result, which is not among the references kept. -/
theorem hostOps0_4_wr : (hostOps0_4 : List (HloOp τ sig (Elt F))).Forall fun op => ∃ y : Ref sig .tc, op.writes = {Proc.devRef .tc y} ∧ y ∉ argList :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩⟩
/-- so the stretch leaves those references' buffers as it finds them. -/
theorem hostOps0_4_keep (V : Valuation τ sig (Elt F)) {r : Ref sig .tc} (hr : r ∈ argList) :
    StableHlo.after hostOps0_4 V (Proc.devRef .tc r) = V (Proc.devRef .tc r) :=
  RunB.after_keep hostOps0_4 V hostOps0_4_wr hr

/-- No operation of `hostOps0_5` allocates a buffer. -/
theorem hostOps0_5_fresh : (hostOps0_5 : List (HloOp τ sig (Elt F))).Forall fun op => op.fresh = ∅ :=
  ⟨rfl, rfl, rfl⟩
/-- Each operation of `hostOps0_5` writes its one result, which is not among the references kept. -/
theorem hostOps0_5_wr : (hostOps0_5 : List (HloOp τ sig (Elt F))).Forall fun op => ∃ y : Ref sig .tc, op.writes = {Proc.devRef .tc y} ∧ y ∉ argList :=
  ⟨⟨_, rfl, by decide⟩, ⟨_, rfl, by decide⟩, ⟨_, rfl, by decide⟩⟩
/-- so the stretch leaves those references' buffers as it finds them. -/
theorem hostOps0_5_keep (V : Valuation τ sig (Elt F)) {r : Ref sig .tc} (hr : r ∈ argList) :
    StableHlo.after hostOps0_5 V (Proc.devRef .tc r) = V (Proc.devRef .tc r) :=
  RunB.after_keep hostOps0_5 V hostOps0_5_wr hr

/-- No operation of `hostOps0_6` allocates a buffer. -/
theorem hostOps0_6_fresh : (hostOps0_6 : List (HloOp τ sig (Elt F))).Forall fun op => op.fresh = ∅ :=
  ⟨rfl, rfl, rfl, rfl, rfl, rfl, rfl⟩
/-- Each operation of `hostOps0_6` writes its one result, which is not among the references kept. -/
theorem hostOps0_6_wr : (hostOps0_6 : List (HloOp τ sig (Elt F))).Forall fun op => ∃ y : Ref sig .tc, op.writes = {Proc.devRef .tc y} ∧ y ∉ argList :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩⟩
/-- so the stretch leaves those references' buffers as it finds them. -/
theorem hostOps0_6_keep (V : Valuation τ sig (Elt F)) {r : Ref sig .tc} (hr : r ∈ argList) :
    StableHlo.after hostOps0_6 V (Proc.devRef .tc r) = V (Proc.devRef .tc r) :=
  RunB.after_keep hostOps0_6 V hostOps0_6_wr hr

/-- No operation of `hostOps0_7` allocates a buffer. -/
theorem hostOps0_7_fresh : (hostOps0_7 : List (HloOp τ sig (Elt F))).Forall fun op => op.fresh = ∅ :=
  ⟨rfl, rfl, rfl⟩
/-- Each operation of `hostOps0_7` writes its one result, which is not among the references kept. -/
theorem hostOps0_7_wr : (hostOps0_7 : List (HloOp τ sig (Elt F))).Forall fun op => ∃ y : Ref sig .tc, op.writes = {Proc.devRef .tc y} ∧ y ∉ argList :=
  ⟨⟨_, rfl, by decide⟩, ⟨_, rfl, by decide⟩, ⟨_, rfl, by decide⟩⟩
/-- so the stretch leaves those references' buffers as it finds them. -/
theorem hostOps0_7_keep (V : Valuation τ sig (Elt F)) {r : Ref sig .tc} (hr : r ∈ argList) :
    StableHlo.after hostOps0_7 V (Proc.devRef .tc r) = V (Proc.devRef .tc r) :=
  RunB.after_keep hostOps0_7 V hostOps0_7_wr hr

/-- No operation of `hostOps0_8` allocates a buffer. -/
theorem hostOps0_8_fresh : (hostOps0_8 : List (HloOp τ sig (Elt F))).Forall fun op => op.fresh = ∅ :=
  ⟨rfl, rfl, rfl, rfl, rfl, rfl, rfl, rfl, rfl, rfl, rfl, rfl⟩
/-- Each operation of `hostOps0_8` writes its one result, which is not among the references kept. -/
theorem hostOps0_8_wr : (hostOps0_8 : List (HloOp τ sig (Elt F))).Forall fun op => ∃ y : Ref sig .tc, op.writes = {Proc.devRef .tc y} ∧ y ∉ argList :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
/-- so the stretch leaves those references' buffers as it finds them. -/
theorem hostOps0_8_keep (V : Valuation τ sig (Elt F)) {r : Ref sig .tc} (hr : r ∈ argList) :
    StableHlo.after hostOps0_8 V (Proc.devRef .tc r) = V (Proc.devRef .tc r) :=
  RunB.after_keep hostOps0_8 V hostOps0_8_wr hr

/-- No operation of `hostOps0_9` allocates a buffer. -/
theorem hostOps0_9_fresh : (hostOps0_9 : List (HloOp τ sig (Elt F))).Forall fun op => op.fresh = ∅ :=
  ⟨rfl, rfl, rfl⟩
/-- Each operation of `hostOps0_9` writes its one result, which is not among the references kept. -/
theorem hostOps0_9_wr : (hostOps0_9 : List (HloOp τ sig (Elt F))).Forall fun op => ∃ y : Ref sig .tc, op.writes = {Proc.devRef .tc y} ∧ y ∉ argList :=
  ⟨⟨_, rfl, by decide⟩, ⟨_, rfl, by decide⟩, ⟨_, rfl, by decide⟩⟩
/-- so the stretch leaves those references' buffers as it finds them. -/
theorem hostOps0_9_keep (V : Valuation τ sig (Elt F)) {r : Ref sig .tc} (hr : r ∈ argList) :
    StableHlo.after hostOps0_9 V (Proc.devRef .tc r) = V (Proc.devRef .tc r) :=
  RunB.after_keep hostOps0_9 V hostOps0_9_wr hr

/-- No operation of `hostOps0_10` allocates a buffer. -/
theorem hostOps0_10_fresh : (hostOps0_10 : List (HloOp τ sig (Elt F))).Forall fun op => op.fresh = ∅ :=
  ⟨rfl, rfl, rfl, rfl, rfl, rfl, rfl⟩
/-- Each operation of `hostOps0_10` writes its one result, which is not among the references kept. -/
theorem hostOps0_10_wr : (hostOps0_10 : List (HloOp τ sig (Elt F))).Forall fun op => ∃ y : Ref sig .tc, op.writes = {Proc.devRef .tc y} ∧ y ∉ argList :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩⟩
/-- so the stretch leaves those references' buffers as it finds them. -/
theorem hostOps0_10_keep (V : Valuation τ sig (Elt F)) {r : Ref sig .tc} (hr : r ∈ argList) :
    StableHlo.after hostOps0_10 V (Proc.devRef .tc r) = V (Proc.devRef .tc r) :=
  RunB.after_keep hostOps0_10 V hostOps0_10_wr hr

/-- No operation of `hostOps0_11` allocates a buffer. -/
theorem hostOps0_11_fresh : (hostOps0_11 : List (HloOp τ sig (Elt F))).Forall fun op => op.fresh = ∅ :=
  ⟨rfl, rfl, rfl⟩
/-- Each operation of `hostOps0_11` writes its one result, which is not among the references kept. -/
theorem hostOps0_11_wr : (hostOps0_11 : List (HloOp τ sig (Elt F))).Forall fun op => ∃ y : Ref sig .tc, op.writes = {Proc.devRef .tc y} ∧ y ∉ argList :=
  ⟨⟨_, rfl, by decide⟩, ⟨_, rfl, by decide⟩, ⟨_, rfl, by decide⟩⟩
/-- so the stretch leaves those references' buffers as it finds them. -/
theorem hostOps0_11_keep (V : Valuation τ sig (Elt F)) {r : Ref sig .tc} (hr : r ∈ argList) :
    StableHlo.after hostOps0_11 V (Proc.devRef .tc r) = V (Proc.devRef .tc r) :=
  RunB.after_keep hostOps0_11 V hostOps0_11_wr hr

/-- No operation of `hostOps0_12` allocates a buffer. -/
theorem hostOps0_12_fresh : (hostOps0_12 : List (HloOp τ sig (Elt F))).Forall fun op => op.fresh = ∅ :=
  ⟨rfl, rfl, rfl, rfl, rfl, rfl, rfl⟩
/-- Each operation of `hostOps0_12` writes its one result, which is not among the references kept. -/
theorem hostOps0_12_wr : (hostOps0_12 : List (HloOp τ sig (Elt F))).Forall fun op => ∃ y : Ref sig .tc, op.writes = {Proc.devRef .tc y} ∧ y ∉ argList :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩⟩
/-- so the stretch leaves those references' buffers as it finds them. -/
theorem hostOps0_12_keep (V : Valuation τ sig (Elt F)) {r : Ref sig .tc} (hr : r ∈ argList) :
    StableHlo.after hostOps0_12 V (Proc.devRef .tc r) = V (Proc.devRef .tc r) :=
  RunB.after_keep hostOps0_12 V hostOps0_12_wr hr

/-- No operation of `hostOps0_13` allocates a buffer. -/
theorem hostOps0_13_fresh : (hostOps0_13 : List (HloOp τ sig (Elt F))).Forall fun op => op.fresh = ∅ :=
  ⟨rfl, rfl, rfl⟩
/-- Each operation of `hostOps0_13` writes its one result, which is not among the references kept. -/
theorem hostOps0_13_wr : (hostOps0_13 : List (HloOp τ sig (Elt F))).Forall fun op => ∃ y : Ref sig .tc, op.writes = {Proc.devRef .tc y} ∧ y ∉ argList :=
  ⟨⟨_, rfl, by decide⟩, ⟨_, rfl, by decide⟩, ⟨_, rfl, by decide⟩⟩
/-- so the stretch leaves those references' buffers as it finds them. -/
theorem hostOps0_13_keep (V : Valuation τ sig (Elt F)) {r : Ref sig .tc} (hr : r ∈ argList) :
    StableHlo.after hostOps0_13 V (Proc.devRef .tc r) = V (Proc.devRef .tc r) :=
  RunB.after_keep hostOps0_13 V hostOps0_13_wr hr

/-- No operation of `hostOps0_14` allocates a buffer. -/
theorem hostOps0_14_fresh : (hostOps0_14 : List (HloOp τ sig (Elt F))).Forall fun op => op.fresh = ∅ :=
  ⟨rfl, rfl, rfl, rfl, rfl, rfl, rfl⟩
/-- Each operation of `hostOps0_14` writes its one result, which is not among the references kept. -/
theorem hostOps0_14_wr : (hostOps0_14 : List (HloOp τ sig (Elt F))).Forall fun op => ∃ y : Ref sig .tc, op.writes = {Proc.devRef .tc y} ∧ y ∉ argList :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩⟩
/-- so the stretch leaves those references' buffers as it finds them. -/
theorem hostOps0_14_keep (V : Valuation τ sig (Elt F)) {r : Ref sig .tc} (hr : r ∈ argList) :
    StableHlo.after hostOps0_14 V (Proc.devRef .tc r) = V (Proc.devRef .tc r) :=
  RunB.after_keep hostOps0_14 V hostOps0_14_wr hr

/-- No operation of `hostOps0_15` allocates a buffer. -/
theorem hostOps0_15_fresh : (hostOps0_15 : List (HloOp τ sig (Elt F))).Forall fun op => op.fresh = ∅ :=
  ⟨rfl, rfl, rfl⟩
/-- Each operation of `hostOps0_15` writes its one result, which is not among the references kept. -/
theorem hostOps0_15_wr : (hostOps0_15 : List (HloOp τ sig (Elt F))).Forall fun op => ∃ y : Ref sig .tc, op.writes = {Proc.devRef .tc y} ∧ y ∉ argList :=
  ⟨⟨_, rfl, by decide⟩, ⟨_, rfl, by decide⟩, ⟨_, rfl, by decide⟩⟩
/-- so the stretch leaves those references' buffers as it finds them. -/
theorem hostOps0_15_keep (V : Valuation τ sig (Elt F)) {r : Ref sig .tc} (hr : r ∈ argList) :
    StableHlo.after hostOps0_15 V (Proc.devRef .tc r) = V (Proc.devRef .tc r) :=
  RunB.after_keep hostOps0_15 V hostOps0_15_wr hr

/-- No operation of `hostOps0_16` allocates a buffer. -/
theorem hostOps0_16_fresh : (hostOps0_16 : List (HloOp τ sig (Elt F))).Forall fun op => op.fresh = ∅ :=
  ⟨rfl, rfl, rfl, rfl, rfl, rfl, rfl, rfl, rfl⟩
/-- Each operation of `hostOps0_16` writes its one result, which is not among the references kept. -/
theorem hostOps0_16_wr : (hostOps0_16 : List (HloOp τ sig (Elt F))).Forall fun op => ∃ y : Ref sig .tc, op.writes = {Proc.devRef .tc y} ∧ y ∉ argList :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
/-- so the stretch leaves those references' buffers as it finds them. -/
theorem hostOps0_16_keep (V : Valuation τ sig (Elt F)) {r : Ref sig .tc} (hr : r ∈ argList) :
    StableHlo.after hostOps0_16 V (Proc.devRef .tc r) = V (Proc.devRef .tc r) :=
  RunB.after_keep hostOps0_16 V hostOps0_16_wr hr

/-- No operation of `hostOps1` allocates a buffer. -/
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- Each operation of `hostOps1` writes its one result, which is not among the references kept. -/
theorem hostOps1_wr : (hostOps1 : List (HloOp τ sig (Elt F))).Forall fun op => ∃ y : Ref sig .tc, op.writes = {Proc.devRef .tc y} ∧ y ∉ keepList :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
/-- so the stretch leaves those references' buffers as it finds them. -/
theorem hostOps1_keep (V : Valuation τ sig (Elt F)) {r : Ref sig .tc} (hr : r ∈ keepList) :
    StableHlo.after hostOps1 V (Proc.devRef .tc r) = V (Proc.devRef .tc r) :=
  RunB.after_keep hostOps1 V hostOps1_wr hr

/-- No operation of `hostOps1_1` allocates a buffer. -/
theorem hostOps1_1_fresh : (hostOps1_1 : List (HloOp τ sig (Elt F))).Forall fun op => op.fresh = ∅ :=
  ⟨rfl, rfl, rfl⟩
/-- Each operation of `hostOps1_1` writes its one result, which is not among the references kept. -/
theorem hostOps1_1_wr : (hostOps1_1 : List (HloOp τ sig (Elt F))).Forall fun op => ∃ y : Ref sig .tc, op.writes = {Proc.devRef .tc y} ∧ y ∉ keepList :=
  ⟨⟨_, rfl, by decide⟩, ⟨_, rfl, by decide⟩, ⟨_, rfl, by decide⟩⟩
/-- so the stretch leaves those references' buffers as it finds them. -/
theorem hostOps1_1_keep (V : Valuation τ sig (Elt F)) {r : Ref sig .tc} (hr : r ∈ keepList) :
    StableHlo.after hostOps1_1 V (Proc.devRef .tc r) = V (Proc.devRef .tc r) :=
  RunB.after_keep hostOps1_1 V hostOps1_1_wr hr

/-- No operation of `hostOps2` allocates a buffer. -/
theorem hostOps2_fresh : (hostOps2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- Each operation of `hostOps2` writes its one result, which is not among the references kept. -/
theorem hostOps2_wr : (hostOps2 : List (HloOp τ sig (Elt F))).Forall fun op => ∃ y : Ref sig .tc, op.writes = {Proc.devRef .tc y} ∧ y ∉ keepList :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
/-- so the stretch leaves those references' buffers as it finds them. -/
theorem hostOps2_keep (V : Valuation τ sig (Elt F)) {r : Ref sig .tc} (hr : r ∈ keepList) :
    StableHlo.after hostOps2 V (Proc.devRef .tc r) = V (Proc.devRef .tc r) :=
  RunB.after_keep hostOps2 V hostOps2_wr hr

/-- No operation of `hostOps2_1` allocates a buffer. -/
theorem hostOps2_1_fresh : (hostOps2_1 : List (HloOp τ sig (Elt F))).Forall fun op => op.fresh = ∅ :=
  ⟨rfl, rfl, rfl⟩
/-- Each operation of `hostOps2_1` writes its one result, which is not among the references kept. -/
theorem hostOps2_1_wr : (hostOps2_1 : List (HloOp τ sig (Elt F))).Forall fun op => ∃ y : Ref sig .tc, op.writes = {Proc.devRef .tc y} ∧ y ∉ keepList :=
  ⟨⟨_, rfl, by decide⟩, ⟨_, rfl, by decide⟩, ⟨_, rfl, by decide⟩⟩
/-- so the stretch leaves those references' buffers as it finds them. -/
theorem hostOps2_1_keep (V : Valuation τ sig (Elt F)) {r : Ref sig .tc} (hr : r ∈ keepList) :
    StableHlo.after hostOps2_1 V (Proc.devRef .tc r) = V (Proc.devRef .tc r) :=
  RunB.after_keep hostOps2_1 V hostOps2_1_wr hr

/-- No operation of `hostOps3` allocates a buffer. -/
theorem hostOps3_fresh : (hostOps3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- Each operation of `hostOps3` writes its one result, which is not among the references kept. -/
theorem hostOps3_wr : (hostOps3 : List (HloOp τ sig (Elt F))).Forall fun op => ∃ y : Ref sig .tc, op.writes = {Proc.devRef .tc y} ∧ y ∉ keepList :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
/-- so the stretch leaves those references' buffers as it finds them. -/
theorem hostOps3_keep (V : Valuation τ sig (Elt F)) {r : Ref sig .tc} (hr : r ∈ keepList) :
    StableHlo.after hostOps3 V (Proc.devRef .tc r) = V (Proc.devRef .tc r) :=
  RunB.after_keep hostOps3 V hostOps3_wr hr

/-- No operation of `hostOps3_1` allocates a buffer. -/
theorem hostOps3_1_fresh : (hostOps3_1 : List (HloOp τ sig (Elt F))).Forall fun op => op.fresh = ∅ :=
  ⟨rfl, rfl, rfl⟩
/-- Each operation of `hostOps3_1` writes its one result, which is not among the references kept. -/
theorem hostOps3_1_wr : (hostOps3_1 : List (HloOp τ sig (Elt F))).Forall fun op => ∃ y : Ref sig .tc, op.writes = {Proc.devRef .tc y} ∧ y ∉ keepList :=
  ⟨⟨_, rfl, by decide⟩, ⟨_, rfl, by decide⟩, ⟨_, rfl, by decide⟩⟩
/-- so the stretch leaves those references' buffers as it finds them. -/
theorem hostOps3_1_keep (V : Valuation τ sig (Elt F)) {r : Ref sig .tc} (hr : r ∈ keepList) :
    StableHlo.after hostOps3_1 V (Proc.devRef .tc r) = V (Proc.devRef .tc r) :=
  RunB.after_keep hostOps3_1 V hostOps3_1_wr hr

/-- No operation of `hostOps4` allocates a buffer. -/
theorem hostOps4_fresh : (hostOps4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- Each operation of `hostOps4` writes its one result, which is not among the references kept. -/
theorem hostOps4_wr : (hostOps4 : List (HloOp τ sig (Elt F))).Forall fun op => ∃ y : Ref sig .tc, op.writes = {Proc.devRef .tc y} ∧ y ∉ keepList :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
/-- so the stretch leaves those references' buffers as it finds them. -/
theorem hostOps4_keep (V : Valuation τ sig (Elt F)) {r : Ref sig .tc} (hr : r ∈ keepList) :
    StableHlo.after hostOps4 V (Proc.devRef .tc r) = V (Proc.devRef .tc r) :=
  RunB.after_keep hostOps4 V hostOps4_wr hr

end Cert.Kernel.Hand

end
-- ==== Proof.K.Reg0.lean ====
import proofs.«111407_j24215025614983_1_alg».proof.Proof.Gen.Kernel.Launch
import proofs.«111407_j24215025614983_1_alg».proof.Proof.Gen.Kernel.Skeleton
import proofs.«111407_j24215025614983_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with 5000 rows is checked coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered; every statement below is at this parameter
variable (V : (c : Dev nD) → (b : Ref sig .tc) → Buf (Elt F) ((c : Thread nD τ).loc b))

/-! # Region 0: one matrix product per grid point, at the entry contents `V`

At point `(i, r)` the body reads rows `5000 i … 5000 i + 4999` of the features (window 0), the per-row scale of
relation `r` (window 1) and the weight of relation `r` (window 2), and overwrites the whole of the output block
(window 3) with `(features ⊙ scale) · weight`. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The four accesses of the body, each the whole of its staging buffer. -/
abbrev r0_0 : Rect S5000x256 := Rect.unit (s := S5000x256) ![0, 0] S5000x256.size inb_S5000x256_S5000x256_0_0
abbrev r0_1 : Rect S1x5000x1 := Rect.unit (s := S1x5000x1) ![0, 0, 0] S1x5000x1.size inb_S1x5000x1_S1x5000x1_0_0_0
abbrev r0_2 : Rect S1x256x256 := Rect.unit (s := S1x256x256) ![0, 0, 0] S1x256x256.size inb_S1x256x256_S1x256x256_0_0_0
abbrev r0_3 : Rect S1x5000x256 := Rect.unit (s := S1x5000x256) ![0, 0, 0] S1x5000x256.size inb_S1x5000x256_S1x5000x256_0_0_0

/-- The output buffer after the body, from the three input blocks: its single store, which spans the buffer. -/
def out0_3 (x0 : Vec F S5000x256 .f32) (x1 : Vec F S1x5000x1 .f32) (x2 : Vec F S1x256x256 .f32) : Vec F S1x5000x256 .f32 :=
  View.canon [⟨r0_3, k0_pay1 (View.ld x0 r0_0) (View.ld x1 r0_1) (View.ld x2 r0_2)⟩]

/-- The proof data of the region on core `c`: the arrays as the region finds them; after the body at point `t`
    each input buffer still at its block and the output buffer at `out0_3` of the three input blocks; the
    invariant is the untouched rest of the core; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

namespace RegA

/-! ## The input buffers hold their blocks at every point -/

/-- An input window's current staging buffer holds its block at every point, fetched there or not, for any proof
    data whose array is `V`'s and whose body leaves the block in place: where the window is not fetched its block
    index has not moved (the features' block changes only with the row coordinate of the grid). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The single store covers the output buffer -/

/-- The store's rectangle is the whole buffer, so every index of the buffer lies in it. -/
theorem cover0_3 (p0 : Vec F S1x5000x256 .f32) (y : S1x5000x256.Idx) :
    ∃ pc ∈ ([⟨r0_3, p0⟩] : List (View.Piece (Elt F) S1x5000x256 .f32)), y ∈ pc.1.set :=
  View.cover_of_tiled [⟨r0_3, p0⟩] S1x5000x256.size (by rfl) y

/-! ## The body's triple -/

set_option maxHeartbeats 1000000 in
/-- The body on whole staging buffers, the three inputs' at contents `x0 x1 x2` and the output's at anything, runs
    to the continuation with the inputs' as they were and the output's at `out0_3 x0 x1 x2`. The body also reads
    the output buffer before overwriting it; that value is not used, so any contents do. -/
theorem sound_kernel0 (c : Dev nD) (E : Set ℕ) (i : grid0.Coords)
    (arg0 : Memref sig .tc .vmem S5000x256 .f32) (harg0 : arg0.IsWhole)
    (arg1 : Memref sig .tc .vmem S1x5000x1 .f32) (harg1 : arg1.IsWhole)
    (arg2 : Memref sig .tc .vmem S1x256x256 .f32) (harg2 : arg2.IsWhole)
    (arg3 : Memref sig .tc .vmem S1x5000x256 .f32) (harg3 : arg3.IsWhole)
    (x0 : Vec F S5000x256 .f32) (x1 : Vec F S1x5000x1 .f32) (x2 : Vec F S1x256x256 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out0_3 x0 x1 x2)) -∗ K ⟨⟩))
      ⊢ wp frame (wpE (defs₀ (F := F)) Variants.none c none) E (cc0__proj_kernel i arg0 harg0 arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end RegA

/-- The library's body obligation, at every point. -/
theorem body_obligation0 (c : Dev nD) : BodyObligation (dat0 (F := F) V c) (defs₀ (F := F)) Variants.none () Set.univ := fun t => by
  rw [bigSep_W0, bigSep_W0]
  exact RegA.sound_body0 V c t

end Cert.Kernel.Hand

end
-- ==== Proof.K.Reg1.lean ====
import proofs.«111407_j24215025614983_1_alg».proof.Proof.Gen.Kernel.Launch
import proofs.«111407_j24215025614983_1_alg».proof.Proof.Gen.Kernel.Skeleton
import proofs.«111407_j24215025614983_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with 5000 rows is checked coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered; every statement below is at this parameter
variable (V : (c : Dev nD) → (b : Ref sig .tc) → Buf (Elt F) ((c : Thread nD τ).loc b))

/-! # Region 1: one matrix product per grid point, at the entry contents `V`

At point `(i, r)` the body reads rows `5000 i … 5000 i + 4999` of the features (window 0), the per-row scale of
relation `r` (window 1) and the weight of relation `r` (window 2), and overwrites the whole of the output block
(window 3) with `(features ⊙ scale) · weight`. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The four accesses of the body, each the whole of its staging buffer. -/
abbrev r1_0 : Rect S5000x256 := Rect.unit (s := S5000x256) ![0, 0] S5000x256.size inb_S5000x256_S5000x256_0_0
abbrev r1_1 : Rect S1x5000x1 := Rect.unit (s := S1x5000x1) ![0, 0, 0] S1x5000x1.size inb_S1x5000x1_S1x5000x1_0_0_0
abbrev r1_2 : Rect S1x256x256 := Rect.unit (s := S1x256x256) ![0, 0, 0] S1x256x256.size inb_S1x256x256_S1x256x256_0_0_0
abbrev r1_3 : Rect S1x5000x256 := Rect.unit (s := S1x5000x256) ![0, 0, 0] S1x5000x256.size inb_S1x5000x256_S1x5000x256_0_0_0

/-- The output buffer after the body, from the three input blocks: its single store, which spans the buffer. -/
def out1_3 (x0 : Vec F S5000x256 .f32) (x1 : Vec F S1x5000x1 .f32) (x2 : Vec F S1x256x256 .f32) : Vec F S1x5000x256 .f32 :=
  View.canon [⟨r1_3, k1_pay1 (View.ld x0 r1_0) (View.ld x1 r1_1) (View.ld x2 r1_2)⟩]

/-- The proof data of the region on core `c`: the arrays as the region finds them; after the body at point `t`
    each input buffer still at its block and the output buffer at `out1_3` of the three input blocks; the
    invariant is the untouched rest of the core; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

namespace RegA

/-! ## The input buffers hold their blocks at every point -/

/-- An input window's current staging buffer holds its block at every point, fetched there or not, for any proof
    data whose array is `V`'s and whose body leaves the block in place: where the window is not fetched its block
    index has not moved (the features' block changes only with the row coordinate of the grid). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The single store covers the output buffer -/

/-- The store's rectangle is the whole buffer, so every index of the buffer lies in it. -/
theorem cover1_3 (p0 : Vec F S1x5000x256 .f32) (y : S1x5000x256.Idx) :
    ∃ pc ∈ ([⟨r1_3, p0⟩] : List (View.Piece (Elt F) S1x5000x256 .f32)), y ∈ pc.1.set :=
  View.cover_of_tiled [⟨r1_3, p0⟩] S1x5000x256.size (by rfl) y

/-! ## The body's triple -/

set_option maxHeartbeats 1000000 in
/-- The body on whole staging buffers, the three inputs' at contents `x0 x1 x2` and the output's at anything, runs
    to the continuation with the inputs' as they were and the output's at `out1_3 x0 x1 x2`. The body also reads
    the output buffer before overwriting it; that value is not used, so any contents do. -/
theorem sound_kernel1 (c : Dev nD) (E : Set ℕ) (i : grid1.Coords)
    (arg0 : Memref sig .tc .vmem S5000x256 .f32) (harg0 : arg0.IsWhole)
    (arg1 : Memref sig .tc .vmem S1x5000x1 .f32) (harg1 : arg1.IsWhole)
    (arg2 : Memref sig .tc .vmem S1x256x256 .f32) (harg2 : arg2.IsWhole)
    (arg3 : Memref sig .tc .vmem S1x5000x256 .f32) (harg3 : arg3.IsWhole)
    (x0 : Vec F S5000x256 .f32) (x1 : Vec F S1x5000x1 .f32) (x2 : Vec F S1x256x256 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out1_3 x0 x1 x2)) -∗ K ⟨⟩))
      ⊢ wp frame (wpE (defs₀ (F := F)) Variants.none c none) E (cc1__proj_kernel i arg0 harg0 arg1 harg1 arg2 harg2 arg3 harg3) K := by
  simp only [cc1__proj_kernel_eq_skeleton]; unfold cc1__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end RegA

/-- The library's body obligation, at every point. -/
theorem body_obligation1 (c : Dev nD) : BodyObligation (dat1 (F := F) V c) (defs₀ (F := F)) Variants.none () Set.univ := fun t => by
  rw [bigSep_W1, bigSep_W1]
  exact RegA.sound_body1 V c t

end Cert.Kernel.Hand

end
-- ==== Proof.K.Reg2.lean ====
import proofs.«111407_j24215025614983_1_alg».proof.Proof.Gen.Kernel.Launch
import proofs.«111407_j24215025614983_1_alg».proof.Proof.Gen.Kernel.Skeleton
import proofs.«111407_j24215025614983_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with 5000 rows is checked coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered; every statement below is at this parameter
variable (V : (c : Dev nD) → (b : Ref sig .tc) → Buf (Elt F) ((c : Thread nD τ).loc b))

/-! # Region 2: one matrix product per grid point, at the entry contents `V`

At point `(i, r)` the body reads rows `5000 i … 5000 i + 4999` of the features (window 0), the per-row scale of
relation `r` (window 1) and the weight of relation `r` (window 2), and overwrites the whole of the output block
(window 3) with `(features ⊙ scale) · weight`. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The four accesses of the body, each the whole of its staging buffer. -/
abbrev r2_0 : Rect S5000x256 := Rect.unit (s := S5000x256) ![0, 0] S5000x256.size inb_S5000x256_S5000x256_0_0
abbrev r2_1 : Rect S1x5000x1 := Rect.unit (s := S1x5000x1) ![0, 0, 0] S1x5000x1.size inb_S1x5000x1_S1x5000x1_0_0_0
abbrev r2_2 : Rect S1x256x256 := Rect.unit (s := S1x256x256) ![0, 0, 0] S1x256x256.size inb_S1x256x256_S1x256x256_0_0_0
abbrev r2_3 : Rect S1x5000x256 := Rect.unit (s := S1x5000x256) ![0, 0, 0] S1x5000x256.size inb_S1x5000x256_S1x5000x256_0_0_0

/-- The output buffer after the body, from the three input blocks: its single store, which spans the buffer. -/
def out2_3 (x0 : Vec F S5000x256 .f32) (x1 : Vec F S1x5000x1 .f32) (x2 : Vec F S1x256x256 .f32) : Vec F S1x5000x256 .f32 :=
  View.canon [⟨r2_3, k2_pay1 (View.ld x0 r2_0) (View.ld x1 r2_1) (View.ld x2 r2_2)⟩]

/-- The proof data of the region on core `c`: the arrays as the region finds them; after the body at point `t`
    each input buffer still at its block and the output buffer at `out2_3` of the three input blocks; the
    invariant is the untouched rest of the core; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

namespace RegA

/-! ## The input buffers hold their blocks at every point -/

/-- An input window's current staging buffer holds its block at every point, fetched there or not, for any proof
    data whose array is `V`'s and whose body leaves the block in place: where the window is not fetched its block
    index has not moved (the features' block changes only with the row coordinate of the grid). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The single store covers the output buffer -/

/-- The store's rectangle is the whole buffer, so every index of the buffer lies in it. -/
theorem cover2_3 (p0 : Vec F S1x5000x256 .f32) (y : S1x5000x256.Idx) :
    ∃ pc ∈ ([⟨r2_3, p0⟩] : List (View.Piece (Elt F) S1x5000x256 .f32)), y ∈ pc.1.set :=
  View.cover_of_tiled [⟨r2_3, p0⟩] S1x5000x256.size (by rfl) y

/-! ## The body's triple -/

set_option maxHeartbeats 1000000 in
/-- The body on whole staging buffers, the three inputs' at contents `x0 x1 x2` and the output's at anything, runs
    to the continuation with the inputs' as they were and the output's at `out2_3 x0 x1 x2`. The body also reads
    the output buffer before overwriting it; that value is not used, so any contents do. -/
theorem sound_kernel2 (c : Dev nD) (E : Set ℕ) (i : grid2.Coords)
    (arg0 : Memref sig .tc .vmem S5000x256 .f32) (harg0 : arg0.IsWhole)
    (arg1 : Memref sig .tc .vmem S1x5000x1 .f32) (harg1 : arg1.IsWhole)
    (arg2 : Memref sig .tc .vmem S1x256x256 .f32) (harg2 : arg2.IsWhole)
    (arg3 : Memref sig .tc .vmem S1x5000x256 .f32) (harg3 : arg3.IsWhole)
    (x0 : Vec F S5000x256 .f32) (x1 : Vec F S1x5000x1 .f32) (x2 : Vec F S1x256x256 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out2_3 x0 x1 x2)) -∗ K ⟨⟩))
      ⊢ wp frame (wpE (defs₀ (F := F)) Variants.none c none) E (cc2__proj_kernel i arg0 harg0 arg1 harg1 arg2 harg2 arg3 harg3) K := by
  simp only [cc2__proj_kernel_eq_skeleton]; unfold cc2__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so the triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end RegA

/-- The library's body obligation, at every point. -/
theorem body_obligation2 (c : Dev nD) : BodyObligation (dat2 (F := F) V c) (defs₀ (F := F)) Variants.none () Set.univ := fun t => by
  rw [bigSep_W2, bigSep_W2]
  exact RegA.sound_body2 V c t

end Cert.Kernel.Hand

end
-- ==== Proof.K.Reg3.lean ====
import proofs.«111407_j24215025614983_1_alg».proof.Proof.Gen.Kernel.Launch
import proofs.«111407_j24215025614983_1_alg».proof.Proof.Gen.Kernel.Skeleton
import proofs.«111407_j24215025614983_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with 5000 rows is checked coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered; every statement below is at this parameter
variable (V : (c : Dev nD) → (b : Ref sig .tc) → Buf (Elt F) ((c : Thread nD τ).loc b))

/-! # Region 3: one matrix product per grid point, at the entry contents `V`

At point `(i, r)` the body reads rows `5000 i … 5000 i + 4999` of the features (window 0), the per-row scale of
relation `r` (window 1) and the weight of relation `r` (window 2), and overwrites the whole of the output block
(window 3) with `(features ⊙ scale) · weight`. -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The four accesses of the body, each the whole of its staging buffer. -/
abbrev r3_0 : Rect S5000x256 := Rect.unit (s := S5000x256) ![0, 0] S5000x256.size inb_S5000x256_S5000x256_0_0
abbrev r3_1 : Rect S1x5000x1 := Rect.unit (s := S1x5000x1) ![0, 0, 0] S1x5000x1.size inb_S1x5000x1_S1x5000x1_0_0_0
abbrev r3_2 : Rect S1x256x128 := Rect.unit (s := S1x256x128) ![0, 0, 0] S1x256x128.size inb_S1x256x128_S1x256x128_0_0_0
abbrev r3_3 : Rect S1x5000x128 := Rect.unit (s := S1x5000x128) ![0, 0, 0] S1x5000x128.size inb_S1x5000x128_S1x5000x128_0_0_0

/-- The output buffer after the body, from the three input blocks: its single store, which spans the buffer. -/
def out3_3 (x0 : Vec F S5000x256 .f32) (x1 : Vec F S1x5000x1 .f32) (x2 : Vec F S1x256x128 .f32) : Vec F S1x5000x128 .f32 :=
  View.canon [⟨r3_3, k3_pay1 (View.ld x0 r3_0) (View.ld x1 r3_1) (View.ld x2 r3_2)⟩]

/-- The proof data of the region on core `c`: the arrays as the region finds them; after the body at point `t`
    each input buffer still at its block and the output buffer at `out3_3` of the three input blocks; the
    invariant is the untouched rest of the core; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

namespace RegA

/-! ## The input buffers hold their blocks at every point -/

/-- An input window's current staging buffer holds its block at every point, fetched there or not, for any proof
    data whose array is `V`'s and whose body leaves the block in place: where the window is not fetched its block
    index has not moved (the features' block changes only with the row coordinate of the grid). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The single store covers the output buffer -/

/-- The store's rectangle is the whole buffer, so every index of the buffer lies in it. -/
theorem cover3_3 (p0 : Vec F S1x5000x128 .f32) (y : S1x5000x128.Idx) :
    ∃ pc ∈ ([⟨r3_3, p0⟩] : List (View.Piece (Elt F) S1x5000x128 .f32)), y ∈ pc.1.set :=
  View.cover_of_tiled [⟨r3_3, p0⟩] S1x5000x128.size (by rfl) y

/-! ## The body's triple -/

set_option maxHeartbeats 1000000 in
/-- The body on whole staging buffers, the three inputs' at contents `x0 x1 x2` and the output's at anything, runs
    to the continuation with the inputs' as they were and the output's at `out3_3 x0 x1 x2`. The body also reads
    the output buffer before overwriting it; that value is not used, so any contents do. -/
theorem sound_kernel3 (c : Dev nD) (E : Set ℕ) (i : grid3.Coords)
    (arg0 : Memref sig .tc .vmem S5000x256 .f32) (harg0 : arg0.IsWhole)
    (arg1 : Memref sig .tc .vmem S1x5000x1 .f32) (harg1 : arg1.IsWhole)
    (arg2 : Memref sig .tc .vmem S1x256x128 .f32) (harg2 : arg2.IsWhole)
    (arg3 : Memref sig .tc .vmem S1x5000x128 .f32) (harg3 : arg3.IsWhole)
    (x0 : Vec F S5000x256 .f32) (x1 : Vec F S1x5000x1 .f32) (x2 : Vec F S1x256x128 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out3_3 x0 x1 x2)) -∗ K ⟨⟩))
      ⊢ wp frame (wpE (defs₀ (F := F)) Variants.none c none) E (cc3__proj_kernel i arg0 harg0 arg1 harg1 arg2 harg2 arg3 harg3) K := by
  simp only [cc3__proj_kernel_eq_skeleton]; unfold cc3__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the input buffers hold their blocks, so the triple applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end RegA

/-- The library's body obligation, at every point. -/
theorem body_obligation3 (c : Dev nD) : BodyObligation (dat3 (F := F) V c) (defs₀ (F := F)) Variants.none () Set.univ := fun t => by
  rw [bigSep_W3, bigSep_W3]
  exact RegA.sound_body3 V c t

end Cert.Kernel.Hand

end
-- ==== Proof.K.Fold.lean ====
import proofs.«111407_j24215025614983_1_alg».proof.Proof.K.Host
import proofs.«111407_j24215025614983_1_alg».proof.Proof.K.Reg0
import proofs.«111407_j24215025614983_1_alg».proof.Proof.K.Reg1
import proofs.«111407_j24215025614983_1_alg».proof.Proof.K.Reg2
import proofs.«111407_j24215025614983_1_alg».proof.Proof.K.Reg3

/-!
The contents of every TensorCore buffer at each boundary between two segments of @main, as a fold from the launch
memory: a stretch of host operations rewrites the results of its operations in order; a kernel region leaves each of
its four arrays at what its write-backs leave there (an input array as it was entered, the output array with every
block written back) and every other buffer as it was entered.

Read back through the fold: no segment from the first region on changes an argument array or either degree scaling,
and no stretch before the first region changes an argument array, so each argument holds its launch contents at
every boundary.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2`. -/
abbrev W3 : Dev nD → Valuation τ sig (Elt F) := fun c => StableHlo.after hostOps0_2 (W2 m ρ c)
/-- After `hostOps0_3`. -/
abbrev W4 : Dev nD → Valuation τ sig (Elt F) := fun c => StableHlo.after hostOps0_3 (W3 m ρ c)
/-- After `hostOps0_4`. -/
abbrev W5 : Dev nD → Valuation τ sig (Elt F) := fun c => StableHlo.after hostOps0_4 (W4 m ρ c)
/-- After `hostOps0_5`. -/
abbrev W6 : Dev nD → Valuation τ sig (Elt F) := fun c => StableHlo.after hostOps0_5 (W5 m ρ c)
/-- After `hostOps0_6`. -/
abbrev W7 : Dev nD → Valuation τ sig (Elt F) := fun c => StableHlo.after hostOps0_6 (W6 m ρ c)
/-- After `hostOps0_7`. -/
abbrev W8 : Dev nD → Valuation τ sig (Elt F) := fun c => StableHlo.after hostOps0_7 (W7 m ρ c)
/-- After `hostOps0_8`. -/
abbrev W9 : Dev nD → Valuation τ sig (Elt F) := fun c => StableHlo.after hostOps0_8 (W8 m ρ c)
/-- After `hostOps0_9`. -/
abbrev W10 : Dev nD → Valuation τ sig (Elt F) := fun c => StableHlo.after hostOps0_9 (W9 m ρ c)
/-- After `hostOps0_10`. -/
abbrev W11 : Dev nD → Valuation τ sig (Elt F) := fun c => StableHlo.after hostOps0_10 (W10 m ρ c)
/-- After `hostOps0_11`. -/
abbrev W12 : Dev nD → Valuation τ sig (Elt F) := fun c => StableHlo.after hostOps0_11 (W11 m ρ c)
/-- After `hostOps0_12`. -/
abbrev W13 : Dev nD → Valuation τ sig (Elt F) := fun c => StableHlo.after hostOps0_12 (W12 m ρ c)
/-- After `hostOps0_13`. -/
abbrev W14 : Dev nD → Valuation τ sig (Elt F) := fun c => StableHlo.after hostOps0_13 (W13 m ρ c)
/-- After `hostOps0_14`. -/
abbrev W15 : Dev nD → Valuation τ sig (Elt F) := fun c => StableHlo.after hostOps0_14 (W14 m ρ c)
/-- After `hostOps0_15`. -/
abbrev W16 : Dev nD → Valuation τ sig (Elt F) := fun c => StableHlo.after hostOps0_15 (W15 m ρ c)
/-- After `hostOps0_16`. -/
abbrev W17 : Dev nD → Valuation τ sig (Elt F) := fun c => StableHlo.after hostOps0_16 (W16 m ρ c)
/-- The same read at the TensorCore's references (what region 0's proof data take). -/
abbrev V17 : (c : Dev nD) → (b : Ref sig .tc) → Buf (Elt F) ((c : Thread nD τ).loc b) := fun c b => W17 m ρ c b
/-- At region 0's exit: its arrays at what the pipeline leaves (the inputs as entered, the output's write-backs
    folded), every other buffer as entered. -/
def W18 (c : Dev nD) : Valuation τ sig (Elt F) :=
  Pipeline.withArrays spec0 c (W17 m ρ c) fun w => (dat0 (V17 m ρ) c).arrAt w cfg0.N
theorem W18_arr (c : Dev nD) (w : Fin cfg0.W) :
    W18 m ρ c (Proc.devRef .tc (Pipeline.arrRef spec0 w)) = (dat0 (V17 m ρ) c).arrAt w cfg0.N := by
  unfold W18; exact Pipeline.withArrays_arr spec0 launch0.win.arr_inj c _ _ w
theorem W18_of_ne (c : Dev nD) (b : Ref sig .tc) (hb : ∀ w, Pipeline.arrRef spec0 w ≠ b) :
    W18 m ρ c (Proc.devRef .tc b) = W17 m ρ c (Proc.devRef .tc b) := by
  unfold W18; exact Pipeline.withArrays_of_ne spec0 c _ _ b hb
/-- The same read at the TensorCore's references (region 0's exit contents). -/
abbrev V18 : (c : Dev nD) → (b : Ref sig .tc) → Buf (Elt F) ((c : Thread nD τ).loc b) := fun c b => W18 m ρ c b
namespace RunB
/-- At region 0's exit each of its arrays holds what the pipeline leaves and every other buffer what it held at entry. -/
theorem hF0 (c : Dev nD) (w : Fin cfg0.W) : (dat0 (V17 m ρ) c).arrAt w cfg0.N = V18 m ρ c (Pipeline.arrRef spec0 w) :=
  (W18_arr m ρ c w).symm
theorem hrest0 (c : Dev nD) : ∀ b, b ∉ Finset.univ.image (Pipeline.arrRef spec0) → V18 m ρ c b = V17 m ρ c b :=
  fun b hb => W18_of_ne m ρ c b fun w e => hb (Finset.mem_image.mpr ⟨w, Finset.mem_univ _, e⟩)
/-- An input array leaves region 0 as it entered: the pipeline writes back output blocks only. -/
theorem W18_in (c : Dev nD) (w : Fin cfg0.W) (hw : (cfg0.win w).isOut = false) :
    W18 m ρ c (Proc.devRef .tc (Pipeline.arrRef spec0 w)) = W17 m ρ c (Proc.devRef .tc (Pipeline.arrRef spec0 w)) :=
  (W18_arr m ρ c w).trans (((dat0 (V17 m ρ) c).arrAt_in w hw _).trans (A_eq0 (V17 m ρ) c w))
end RunB
/-- After `hostOps1`. -/
abbrev W19 : Dev nD → Valuation τ sig (Elt F) := fun c => StableHlo.after hostOps1 (W18 m ρ c)
/-- After `hostOps1_1`. -/
abbrev W20 : Dev nD → Valuation τ sig (Elt F) := fun c => StableHlo.after hostOps1_1 (W19 m ρ c)
/-- The same read at the TensorCore's references (what region 1's proof data take). -/
abbrev V20 : (c : Dev nD) → (b : Ref sig .tc) → Buf (Elt F) ((c : Thread nD τ).loc b) := fun c b => W20 m ρ c b
/-- At region 1's exit: its arrays at what the pipeline leaves (the inputs as entered, the output's write-backs
    folded), every other buffer as entered. -/
def W21 (c : Dev nD) : Valuation τ sig (Elt F) :=
  Pipeline.withArrays spec1 c (W20 m ρ c) fun w => (dat1 (V20 m ρ) c).arrAt w cfg1.N
theorem W21_arr (c : Dev nD) (w : Fin cfg1.W) :
    W21 m ρ c (Proc.devRef .tc (Pipeline.arrRef spec1 w)) = (dat1 (V20 m ρ) c).arrAt w cfg1.N := by
  unfold W21; exact Pipeline.withArrays_arr spec1 launch1.win.arr_inj c _ _ w
theorem W21_of_ne (c : Dev nD) (b : Ref sig .tc) (hb : ∀ w, Pipeline.arrRef spec1 w ≠ b) :
    W21 m ρ c (Proc.devRef .tc b) = W20 m ρ c (Proc.devRef .tc b) := by
  unfold W21; exact Pipeline.withArrays_of_ne spec1 c _ _ b hb
/-- The same read at the TensorCore's references (region 1's exit contents). -/
abbrev V21 : (c : Dev nD) → (b : Ref sig .tc) → Buf (Elt F) ((c : Thread nD τ).loc b) := fun c b => W21 m ρ c b
namespace RunB
/-- At region 1's exit each of its arrays holds what the pipeline leaves and every other buffer what it held at entry. -/
theorem hF1 (c : Dev nD) (w : Fin cfg1.W) : (dat1 (V20 m ρ) c).arrAt w cfg1.N = V21 m ρ c (Pipeline.arrRef spec1 w) :=
  (W21_arr m ρ c w).symm
theorem hrest1 (c : Dev nD) : ∀ b, b ∉ Finset.univ.image (Pipeline.arrRef spec1) → V21 m ρ c b = V20 m ρ c b :=
  fun b hb => W21_of_ne m ρ c b fun w e => hb (Finset.mem_image.mpr ⟨w, Finset.mem_univ _, e⟩)
/-- An input array leaves region 1 as it entered: the pipeline writes back output blocks only. -/
theorem W21_in (c : Dev nD) (w : Fin cfg1.W) (hw : (cfg1.win w).isOut = false) :
    W21 m ρ c (Proc.devRef .tc (Pipeline.arrRef spec1 w)) = W20 m ρ c (Proc.devRef .tc (Pipeline.arrRef spec1 w)) :=
  (W21_arr m ρ c w).trans (((dat1 (V20 m ρ) c).arrAt_in w hw _).trans (A_eq1 (V20 m ρ) c w))
end RunB
/-- After `hostOps2`. -/
abbrev W22 : Dev nD → Valuation τ sig (Elt F) := fun c => StableHlo.after hostOps2 (W21 m ρ c)
/-- After `hostOps2_1`. -/
abbrev W23 : Dev nD → Valuation τ sig (Elt F) := fun c => StableHlo.after hostOps2_1 (W22 m ρ c)
/-- The same read at the TensorCore's references (what region 2's proof data take). -/
abbrev V23 : (c : Dev nD) → (b : Ref sig .tc) → Buf (Elt F) ((c : Thread nD τ).loc b) := fun c b => W23 m ρ c b
/-- At region 2's exit: its arrays at what the pipeline leaves (the inputs as entered, the output's write-backs
    folded), every other buffer as entered. -/
def W24 (c : Dev nD) : Valuation τ sig (Elt F) :=
  Pipeline.withArrays spec2 c (W23 m ρ c) fun w => (dat2 (V23 m ρ) c).arrAt w cfg2.N
theorem W24_arr (c : Dev nD) (w : Fin cfg2.W) :
    W24 m ρ c (Proc.devRef .tc (Pipeline.arrRef spec2 w)) = (dat2 (V23 m ρ) c).arrAt w cfg2.N := by
  unfold W24; exact Pipeline.withArrays_arr spec2 launch2.win.arr_inj c _ _ w
theorem W24_of_ne (c : Dev nD) (b : Ref sig .tc) (hb : ∀ w, Pipeline.arrRef spec2 w ≠ b) :
    W24 m ρ c (Proc.devRef .tc b) = W23 m ρ c (Proc.devRef .tc b) := by
  unfold W24; exact Pipeline.withArrays_of_ne spec2 c _ _ b hb
/-- The same read at the TensorCore's references (region 2's exit contents). -/
abbrev V24 : (c : Dev nD) → (b : Ref sig .tc) → Buf (Elt F) ((c : Thread nD τ).loc b) := fun c b => W24 m ρ c b
namespace RunB
/-- At region 2's exit each of its arrays holds what the pipeline leaves and every other buffer what it held at entry. -/
theorem hF2 (c : Dev nD) (w : Fin cfg2.W) : (dat2 (V23 m ρ) c).arrAt w cfg2.N = V24 m ρ c (Pipeline.arrRef spec2 w) :=
  (W24_arr m ρ c w).symm
theorem hrest2 (c : Dev nD) : ∀ b, b ∉ Finset.univ.image (Pipeline.arrRef spec2) → V24 m ρ c b = V23 m ρ c b :=
  fun b hb => W24_of_ne m ρ c b fun w e => hb (Finset.mem_image.mpr ⟨w, Finset.mem_univ _, e⟩)
/-- An input array leaves region 2 as it entered: the pipeline writes back output blocks only. -/
theorem W24_in (c : Dev nD) (w : Fin cfg2.W) (hw : (cfg2.win w).isOut = false) :
    W24 m ρ c (Proc.devRef .tc (Pipeline.arrRef spec2 w)) = W23 m ρ c (Proc.devRef .tc (Pipeline.arrRef spec2 w)) :=
  (W24_arr m ρ c w).trans (((dat2 (V23 m ρ) c).arrAt_in w hw _).trans (A_eq2 (V23 m ρ) c w))
end RunB
/-- After `hostOps3`. -/
abbrev W25 : Dev nD → Valuation τ sig (Elt F) := fun c => StableHlo.after hostOps3 (W24 m ρ c)
/-- After `hostOps3_1`. -/
abbrev W26 : Dev nD → Valuation τ sig (Elt F) := fun c => StableHlo.after hostOps3_1 (W25 m ρ c)
/-- The same read at the TensorCore's references (what region 3's proof data take). -/
abbrev V26 : (c : Dev nD) → (b : Ref sig .tc) → Buf (Elt F) ((c : Thread nD τ).loc b) := fun c b => W26 m ρ c b
/-- At region 3's exit: its arrays at what the pipeline leaves (the inputs as entered, the output's write-backs
    folded), every other buffer as entered. -/
def W27 (c : Dev nD) : Valuation τ sig (Elt F) :=
  Pipeline.withArrays spec3 c (W26 m ρ c) fun w => (dat3 (V26 m ρ) c).arrAt w cfg3.N
theorem W27_arr (c : Dev nD) (w : Fin cfg3.W) :
    W27 m ρ c (Proc.devRef .tc (Pipeline.arrRef spec3 w)) = (dat3 (V26 m ρ) c).arrAt w cfg3.N := by
  unfold W27; exact Pipeline.withArrays_arr spec3 launch3.win.arr_inj c _ _ w
theorem W27_of_ne (c : Dev nD) (b : Ref sig .tc) (hb : ∀ w, Pipeline.arrRef spec3 w ≠ b) :
    W27 m ρ c (Proc.devRef .tc b) = W26 m ρ c (Proc.devRef .tc b) := by
  unfold W27; exact Pipeline.withArrays_of_ne spec3 c _ _ b hb
/-- The same read at the TensorCore's references (region 3's exit contents). -/
abbrev V27 : (c : Dev nD) → (b : Ref sig .tc) → Buf (Elt F) ((c : Thread nD τ).loc b) := fun c b => W27 m ρ c b
namespace RunB
/-- At region 3's exit each of its arrays holds what the pipeline leaves and every other buffer what it held at entry. -/
theorem hF3 (c : Dev nD) (w : Fin cfg3.W) : (dat3 (V26 m ρ) c).arrAt w cfg3.N = V27 m ρ c (Pipeline.arrRef spec3 w) :=
  (W27_arr m ρ c w).symm
theorem hrest3 (c : Dev nD) : ∀ b, b ∉ Finset.univ.image (Pipeline.arrRef spec3) → V27 m ρ c b = V26 m ρ c b :=
  fun b hb => W27_of_ne m ρ c b fun w e => hb (Finset.mem_image.mpr ⟨w, Finset.mem_univ _, e⟩)
/-- An input array leaves region 3 as it entered: the pipeline writes back output blocks only. -/
theorem W27_in (c : Dev nD) (w : Fin cfg3.W) (hw : (cfg3.win w).isOut = false) :
    W27 m ρ c (Proc.devRef .tc (Pipeline.arrRef spec3 w)) = W26 m ρ c (Proc.devRef .tc (Pipeline.arrRef spec3 w)) :=
  (W27_arr m ρ c w).trans (((dat3 (V26 m ρ) c).arrAt_in w hw _).trans (A_eq3 (V26 m ρ) c w))
end RunB
/-- After `hostOps4`. -/
abbrev W28 : Dev nD → Valuation τ sig (Elt F) := fun c => StableHlo.after hostOps4 (W27 m ρ c)

/-! ## What every segment from the first region on leaves alone -/

theorem W18_keep (c : Dev nD) (b : Ref sig .tc) (hb : b ∈ keepList) :
    W18 m ρ c (Proc.devRef .tc b) = W17 m ρ c (Proc.devRef .tc b) := by
  simp only [keepList, List.mem_cons, List.not_mem_nil, or_false] at hb
  rcases hb with rfl | rfl | rfl | rfl | rfl | rfl | rfl | rfl | rfl | rfl | rfl | rfl | rfl
  · exact RunB.W18_in m ρ c 0 rfl
  · exact RunB.W18_in m ρ c 2 rfl
  · exact W18_of_ne m ρ c _ (by decide)
  · exact W18_of_ne m ρ c _ (by decide)
  · exact W18_of_ne m ρ c _ (by decide)
  · exact W18_of_ne m ρ c _ (by decide)
  · exact W18_of_ne m ρ c _ (by decide)
  · exact W18_of_ne m ρ c _ (by decide)
  · exact W18_of_ne m ρ c _ (by decide)
  · exact W18_of_ne m ρ c _ (by decide)
  · exact W18_of_ne m ρ c _ (by decide)
  · exact RunB.W18_in m ρ c 1 rfl
  · exact W18_of_ne m ρ c _ (by decide)
theorem W19_keep (c : Dev nD) (b : Ref sig .tc) (hb : b ∈ keepList) :
    W19 m ρ c (Proc.devRef .tc b) = W18 m ρ c (Proc.devRef .tc b) := hostOps1_keep (W18 m ρ c) hb
theorem W20_keep (c : Dev nD) (b : Ref sig .tc) (hb : b ∈ keepList) :
    W20 m ρ c (Proc.devRef .tc b) = W19 m ρ c (Proc.devRef .tc b) := hostOps1_1_keep (W19 m ρ c) hb
theorem W21_keep (c : Dev nD) (b : Ref sig .tc) (hb : b ∈ keepList) :
    W21 m ρ c (Proc.devRef .tc b) = W20 m ρ c (Proc.devRef .tc b) := by
  simp only [keepList, List.mem_cons, List.not_mem_nil, or_false] at hb
  rcases hb with rfl | rfl | rfl | rfl | rfl | rfl | rfl | rfl | rfl | rfl | rfl | rfl | rfl
  · exact W21_of_ne m ρ c _ (by decide)
  · exact W21_of_ne m ρ c _ (by decide)
  · exact W21_of_ne m ρ c _ (by decide)
  · exact RunB.W21_in m ρ c 2 rfl
  · exact W21_of_ne m ρ c _ (by decide)
  · exact W21_of_ne m ρ c _ (by decide)
  · exact W21_of_ne m ρ c _ (by decide)
  · exact W21_of_ne m ρ c _ (by decide)
  · exact W21_of_ne m ρ c _ (by decide)
  · exact W21_of_ne m ρ c _ (by decide)
  · exact W21_of_ne m ρ c _ (by decide)
  · exact RunB.W21_in m ρ c 1 rfl
  · exact W21_of_ne m ρ c _ (by decide)
theorem W22_keep (c : Dev nD) (b : Ref sig .tc) (hb : b ∈ keepList) :
    W22 m ρ c (Proc.devRef .tc b) = W21 m ρ c (Proc.devRef .tc b) := hostOps2_keep (W21 m ρ c) hb
theorem W23_keep (c : Dev nD) (b : Ref sig .tc) (hb : b ∈ keepList) :
    W23 m ρ c (Proc.devRef .tc b) = W22 m ρ c (Proc.devRef .tc b) := hostOps2_1_keep (W22 m ρ c) hb
theorem W24_keep (c : Dev nD) (b : Ref sig .tc) (hb : b ∈ keepList) :
    W24 m ρ c (Proc.devRef .tc b) = W23 m ρ c (Proc.devRef .tc b) := by
  simp only [keepList, List.mem_cons, List.not_mem_nil, or_false] at hb
  rcases hb with rfl | rfl | rfl | rfl | rfl | rfl | rfl | rfl | rfl | rfl | rfl | rfl | rfl
  · exact W24_of_ne m ρ c _ (by decide)
  · exact W24_of_ne m ρ c _ (by decide)
  · exact W24_of_ne m ρ c _ (by decide)
  · exact W24_of_ne m ρ c _ (by decide)
  · exact W24_of_ne m ρ c _ (by decide)
  · exact RunB.W24_in m ρ c 2 rfl
  · exact W24_of_ne m ρ c _ (by decide)
  · exact W24_of_ne m ρ c _ (by decide)
  · exact W24_of_ne m ρ c _ (by decide)
  · exact W24_of_ne m ρ c _ (by decide)
  · exact W24_of_ne m ρ c _ (by decide)
  · exact RunB.W24_in m ρ c 1 rfl
  · exact W24_of_ne m ρ c _ (by decide)
theorem W25_keep (c : Dev nD) (b : Ref sig .tc) (hb : b ∈ keepList) :
    W25 m ρ c (Proc.devRef .tc b) = W24 m ρ c (Proc.devRef .tc b) := hostOps3_keep (W24 m ρ c) hb
theorem W26_keep (c : Dev nD) (b : Ref sig .tc) (hb : b ∈ keepList) :
    W26 m ρ c (Proc.devRef .tc b) = W25 m ρ c (Proc.devRef .tc b) := hostOps3_1_keep (W25 m ρ c) hb
theorem W27_keep (c : Dev nD) (b : Ref sig .tc) (hb : b ∈ keepList) :
    W27 m ρ c (Proc.devRef .tc b) = W26 m ρ c (Proc.devRef .tc b) := by
  simp only [keepList, List.mem_cons, List.not_mem_nil, or_false] at hb
  rcases hb with rfl | rfl | rfl | rfl | rfl | rfl | rfl | rfl | rfl | rfl | rfl | rfl | rfl
  · exact W27_of_ne m ρ c _ (by decide)
  · exact W27_of_ne m ρ c _ (by decide)
  · exact W27_of_ne m ρ c _ (by decide)
  · exact W27_of_ne m ρ c _ (by decide)
  · exact W27_of_ne m ρ c _ (by decide)
  · exact W27_of_ne m ρ c _ (by decide)
  · exact W27_of_ne m ρ c _ (by decide)
  · exact RunB.W27_in m ρ c 2 rfl
  · exact W27_of_ne m ρ c _ (by decide)
  · exact W27_of_ne m ρ c _ (by decide)
  · exact W27_of_ne m ρ c _ (by decide)
  · exact RunB.W27_in m ρ c 1 rfl
  · exact W27_of_ne m ρ c _ (by decide)
theorem W28_keep (c : Dev nD) (b : Ref sig .tc) (hb : b ∈ keepList) :
    W28 m ρ c (Proc.devRef .tc b) = W27 m ρ c (Proc.devRef .tc b) := hostOps4_keep (W27 m ρ c) hb

/-! ## The arguments before the first region -/

/-- No stretch before the first region writes an argument array. -/
theorem W17_arg (c : Dev nD) (b : Ref sig .tc) (hb : b ∈ argList) :
    W17 m ρ c (Proc.devRef .tc b) = m ((c : Thread nD τ).loc b) :=
  (hostOps0_16_keep (W16 m ρ c) hb).trans <|
  (hostOps0_15_keep (W15 m ρ c) hb).trans <|
  (hostOps0_14_keep (W14 m ρ c) hb).trans <|
  (hostOps0_13_keep (W13 m ρ c) hb).trans <|
  (hostOps0_12_keep (W12 m ρ c) hb).trans <|
  (hostOps0_11_keep (W11 m ρ c) hb).trans <|
  (hostOps0_10_keep (W10 m ρ c) hb).trans <|
  (hostOps0_9_keep (W9 m ρ c) hb).trans <|
  (hostOps0_8_keep (W8 m ρ c) hb).trans <|
  (hostOps0_7_keep (W7 m ρ c) hb).trans <|
  (hostOps0_6_keep (W6 m ρ c) hb).trans <|
  (hostOps0_5_keep (W5 m ρ c) hb).trans <|
  (hostOps0_4_keep (W4 m ρ c) hb).trans <|
  (hostOps0_3_keep (W3 m ρ c) hb).trans <|
  (hostOps0_2_keep (W2 m ρ c) hb).trans <|
  (hostOps0_1_keep (W1 m ρ c) hb).trans <|
  (hostOps0_keep (W0 m ρ c) hb).trans <|
  rfl

end Cert.Kernel.Hand

end
-- ==== Proof.K.Run.lean ====
import proofs.«111407_j24215025614983_1_alg».proof.Proof.K.Fold

/-!
The run of @main from the launch to the return, and the frame.

@main is twenty-eight segments in order: twenty-four stretches of host operations and the four kernel regions. Each
core's thread state at a boundary is: every unscoped buffer held whole at that boundary's contents (the fold), the
generator register at some state, nothing owed to another core. A stretch runs from the state at its start to the
state at its end, the end contents being the fold of its operations; a region splits its four arrays out of the
unscoped buffers, runs its pipeline under the body obligation, and puts the arrays back at the exit contents. The
states chain, so the several-regions launch theorem gives: from any memory with every counter at zero, every weakly
fair execution terminates without fault, and in every final state each unscoped TensorCore buffer holds the last
boundary's contents. Read at the eleven argument arrays through the fold, those are the launch contents.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

namespace RunB

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V17 m ρ) c
  | ⟨1, _⟩ => fun c => dat1 (V20 m ρ) c
  | ⟨2, _⟩ => fun c => dat2 (V23 m ρ) c
  | ⟨3, _⟩ => fun c => dat3 (V26 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends at
    those references at the fold of its operations over `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues: every unscoped buffer at the last boundary's contents, the generator
    register at some state. -/
abbrev Tₙ (c : Dev nD) : sProp 𝕄 := iprop(StableHlo.held (c : Thread nD τ) (Pipeline.ucRefs τ sig) (W28 m ρ c) ∗ ∃ r, prngReg c r)

/-- The last stretch's end state is the last thread state beside the core owing nothing. -/
theorem last_step (c : Dev nD) :
    iprop(StableHlo.held (c : Thread nD τ) (Pipeline.ucRefs τ sig) (W28 m ρ c) ∗ R c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- Region 0 over the thread state: entered from every unscoped buffer at `W17`, left at `W18`. Its arrays split out
    of the unscoped buffers and put back at the exit contents; the generator register into the region's invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V17 m ρ) c).loose
  hwaits := Pipeline.hwaits_of_owed_zero _ _ _ _ L lv 0 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec0 c (V17 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V17 m ρ c) (V18 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W20`, left at `W21`. Its arrays split out
    of the unscoped buffers and put back at the exit contents; the generator register into the region's invariant and
    out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V20 m ρ) c).loose
  hwaits := Pipeline.hwaits_of_owed_zero _ _ _ _ L lv 1 fun _ _ => rfl
  pre c := iprop(StableHlo.held (c : Thread nD τ) (Pipeline.ucRefs τ sig) (W20 m ρ c) ∗ R c)
  post c := iprop(StableHlo.held (c : Thread nD τ) (Pipeline.ucRefs τ sig) (W21 m ρ c) ∗ R c)
  X c := iprop(∃ r, prngReg c r)
  Y c := iprop(∃ r, prngReg c r)
  Z c := Pipeline.unscopedRest (Ix := Unit) (Name := ℕ) (U := UR sig nD τ) (Lvl := ℕ) spec1 c (V20 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V20 m ρ c) (V21 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W23`, left at `W24`. Its arrays split out
    of the unscoped buffers and put back at the exit contents; the generator register into the region's invariant and
    out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V23 m ρ) c).loose
  hwaits := Pipeline.hwaits_of_owed_zero _ _ _ _ L lv 2 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec2 c (V23 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V23 m ρ c) (V24 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W26`, left at `W27`. Its arrays split out
    of the unscoped buffers and put back at the exit contents; the generator register into the region's invariant and
    out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V26 m ρ) c).loose
  hwaits := Pipeline.hwaits_of_owed_zero _ _ _ _ L lv 3 fun _ _ => rfl
  pre c := iprop(StableHlo.held (c : Thread nD τ) (Pipeline.ucRefs τ sig) (W26 m ρ c) ∗ R c)
  post c := iprop(StableHlo.held (c : Thread nD τ) (Pipeline.ucRefs τ sig) (W27 m ρ c) ∗ R c)
  X c := iprop(∃ r, prngReg c r)
  Y c := iprop(∃ r, prngReg c r)
  Z c := Pipeline.unscopedRest (Ix := Unit) (Name := ℕ) (U := UR sig nD τ) (Lvl := ℕ) spec3 c (V26 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V26 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V26 m ρ c) (V27 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 28 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .host (hseg hostOps0_11 hostOps0_11_sub hostOps0_11_fresh (W11 m ρ)),
    .host (hseg hostOps0_12 hostOps0_12_sub hostOps0_12_fresh (W12 m ρ)),
    .host (hseg hostOps0_13 hostOps0_13_sub hostOps0_13_fresh (W13 m ρ)),
    .host (hseg hostOps0_14 hostOps0_14_sub hostOps0_14_fresh (W14 m ρ)),
    .host (hseg hostOps0_15 hostOps0_15_sub hostOps0_15_fresh (W15 m ρ)),
    .host (hseg hostOps0_16 hostOps0_16_sub hostOps0_16_fresh (W16 m ρ)),
    .region (reg0 m ρ),
    .host (hseg hostOps1 hostOps1_sub hostOps1_fresh (W18 m ρ)),
    .host (hseg hostOps1_1 hostOps1_1_sub hostOps1_1_fresh (W19 m ρ)),
    .region (reg1 m ρ),
    .host (hseg hostOps2 hostOps2_sub hostOps2_fresh (W21 m ρ)),
    .host (hseg hostOps2_1 hostOps2_1_sub hostOps2_1_fresh (W22 m ρ)),
    .region (reg2 m ρ),
    .host (hseg hostOps3 hostOps3_sub hostOps3_fresh (W24 m ρ)),
    .host (hseg hostOps3_1 hostOps3_1_sub hostOps3_1_fresh (W25 m ρ)),
    .region (reg3 m ρ),
    .host (hseg hostOps4 hostOps4_sub hostOps4_fresh (W27 m ρ)) ]
/-- @main is the run of the segments: its chain of items, then the segments' run against that chain. -/
theorem main_run (c : Dev nD) : main (F := F) c = Pipeline.Seg.run (segs m ρ) := (main_chain c).trans (by chain_rfl)

end RunB

open RunB

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters, every weakly fair execution of @main on the TensorCores terminates,
    nothing faulting, and every final state has each unscoped TensorCore buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W28 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => last_step m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W28 m ρ c b)
    (hfin := fun c s' => by
      iintro ⟨⟨Hh, -⟩, HSI⟩
      unfold StableHlo.held
      imodintro
      iapply (pointsTo_read_all (Pipeline.ucRefs τ sig) (fun b => (((c : Thread nD τ)).1, b)) (W28 m ρ c) s')
      isplitl [Hh] <;> iassumption)
    (hQ := fun s h => h)

/-- An argument array holds its launch contents at the last boundary: no segment writes it. -/
theorem W28_arg (c : Dev nD) (b : Ref sig .tc) (hb : b ∈ argList) :
    W28 m ρ c (Proc.devRef .tc b) = m ((c : Thread nD τ).loc b) :=
  have hk : b ∈ keepList := List.mem_append_left [main_v60, main_v62] hb
  (W28_keep m ρ c b hk).trans <|
  (W27_keep m ρ c b hk).trans <|
  (W26_keep m ρ c b hk).trans <|
  (W25_keep m ρ c b hk).trans <|
  (W24_keep m ρ c b hk).trans <|
  (W23_keep m ρ c b hk).trans <|
  (W22_keep m ρ c b hk).trans <|
  (W21_keep m ρ c b hk).trans <|
  (W20_keep m ρ c b hk).trans <|
  (W19_keep m ρ c b hk).trans <|
  (W18_keep m ρ c b hk).trans <|
  W17_arg m ρ c b hb

/-- THE FRAME: every weakly fair execution of @main terminates, nothing faulting, and every final state has the
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs (onTc (τ := τ) (main (F := F))) ⟨m, fun _ => 0, ρ⟩).mono
    (fun r h c => ⟨(h c _ (mem_uc main_arg0 (by decide))).trans (W28_arg m ρ c main_arg0 (by decide)),
      (h c _ (mem_uc main_arg1 (by decide))).trans (W28_arg m ρ c main_arg1 (by decide)),
      (h c _ (mem_uc main_arg2 (by decide))).trans (W28_arg m ρ c main_arg2 (by decide)),
      (h c _ (mem_uc main_arg3 (by decide))).trans (W28_arg m ρ c main_arg3 (by decide)),
      (h c _ (mem_uc main_arg4 (by decide))).trans (W28_arg m ρ c main_arg4 (by decide)),
      (h c _ (mem_uc main_arg5 (by decide))).trans (W28_arg m ρ c main_arg5 (by decide)),
      (h c _ (mem_uc main_arg6 (by decide))).trans (W28_arg m ρ c main_arg6 (by decide)),
      (h c _ (mem_uc main_arg7 (by decide))).trans (W28_arg m ρ c main_arg7 (by decide)),
      (h c _ (mem_uc main_arg8 (by decide))).trans (W28_arg m ρ c main_arg8 (by decide)),
      (h c _ (mem_uc main_arg9 (by decide))).trans (W28_arg m ρ c main_arg9 (by decide)),
      (h c _ (mem_uc main_arg10 (by decide))).trans (W28_arg m ρ c main_arg10 (by decide))⟩)
    (run_all m ρ)

end Cert.Kernel.Hand

end
-- ==== Proof.KI.Host.lean ====
import proofs.«111407_j24215025614983_1_alg».proof.Proof.Gen.KernelIdeal.Launch
import proofs.«111407_j24215025614983_1_alg».proof.Proof.Gen.KernelIdeal.Skeleton
import proofs.«111407_j24215025614983_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
The host side of the run of @main: what the stretches of host operations between the four kernel regions write,
and what they leave alone.

Every host operation writes exactly one buffer, its result. A stretch therefore keeps the contents of every buffer
that is the result of none of its operations. Two families of buffers matter downstream: the eleven argument arrays
(no operation anywhere writes an argument), and the two degree scalings computed before the first region, which no
later stretch writes. Both facts are checked operation by operation: the operation's result reference is read off the
operation, and it is decided not to be among the references kept.

No operation allocates a buffer (none has contents it leaves undetermined), which is what lets a stretch run as one
segment whose end contents are the fold of the operations' results over its start contents.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The argument arrays. -/
abbrev argList : List (Ref sig .tc) :=
  [main_arg0, main_arg1, main_arg2, main_arg3, main_arg4, main_arg5, main_arg6, main_arg7, main_arg8, main_arg9, main_arg10]

/-- The buffers every segment from the first region on leaves as it finds them: the arguments and the two degree
    scalings. -/
abbrev keepList : List (Ref sig .tc) :=
  [main_arg0, main_arg1, main_arg2, main_arg3, main_arg4, main_arg5, main_arg6, main_arg7, main_arg8, main_arg9, main_arg10, main_v60, main_v62]

namespace RunB

/-- A stretch each of whose operations writes one buffer, none of them among the references `K`, leaves every
    reference of `K` at its contents. -/
theorem after_keep {K : List (Ref sig .tc)} (ops : List (HloOp τ sig (Elt F))) (V : Valuation τ sig (Elt F))
    (h : ops.Forall fun op => ∃ y : Ref sig .tc, op.writes = {Proc.devRef .tc y} ∧ y ∉ K)
    {r : Ref sig .tc} (hr : r ∈ K) : StableHlo.after ops V (Proc.devRef .tc r) = V (Proc.devRef .tc r) :=
  StableHlo.after_of_forall_not_mem ops V fun op hop hb => by
    obtain ⟨y, hw, hy⟩ := (List.forall_iff_forall_mem.mp h) op hop
    rw [hw, Finset.mem_singleton] at hb
    exact hy (Proc.devRef_injective _ hb ▸ hr)

end RunB

/-- No operation of `hostOps0` allocates a buffer. -/
theorem hostOps0_fresh : (hostOps0 : List (HloOp τ sig (Elt F))).Forall fun op => op.fresh = ∅ :=
  ⟨rfl, rfl, rfl, rfl, rfl, rfl, rfl, rfl, rfl⟩
/-- Each operation of `hostOps0` writes its one result, which is not among the references kept. -/
theorem hostOps0_wr : (hostOps0 : List (HloOp τ sig (Elt F))).Forall fun op => ∃ y : Ref sig .tc, op.writes = {Proc.devRef .tc y} ∧ y ∉ argList :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
/-- so the stretch leaves those references' buffers as it finds them. -/
theorem hostOps0_keep (V : Valuation τ sig (Elt F)) {r : Ref sig .tc} (hr : r ∈ argList) :
    StableHlo.after hostOps0 V (Proc.devRef .tc r) = V (Proc.devRef .tc r) :=
  RunB.after_keep hostOps0 V hostOps0_wr hr

/-- No operation of `hostOps0_1` allocates a buffer. -/
theorem hostOps0_1_fresh : (hostOps0_1 : List (HloOp τ sig (Elt F))).Forall fun op => op.fresh = ∅ :=
  ⟨rfl, rfl, rfl⟩
/-- Each operation of `hostOps0_1` writes its one result, which is not among the references kept. -/
theorem hostOps0_1_wr : (hostOps0_1 : List (HloOp τ sig (Elt F))).Forall fun op => ∃ y : Ref sig .tc, op.writes = {Proc.devRef .tc y} ∧ y ∉ argList :=
  ⟨⟨_, rfl, by decide⟩, ⟨_, rfl, by decide⟩, ⟨_, rfl, by decide⟩⟩
/-- so the stretch leaves those references' buffers as it finds them. -/
theorem hostOps0_1_keep (V : Valuation τ sig (Elt F)) {r : Ref sig .tc} (hr : r ∈ argList) :
    StableHlo.after hostOps0_1 V (Proc.devRef .tc r) = V (Proc.devRef .tc r) :=
  RunB.after_keep hostOps0_1 V hostOps0_1_wr hr

/-- No operation of `hostOps0_2` allocates a buffer. -/
theorem hostOps0_2_fresh : (hostOps0_2 : List (HloOp τ sig (Elt F))).Forall fun op => op.fresh = ∅ :=
  ⟨rfl, rfl, rfl, rfl, rfl, rfl, rfl⟩
/-- Each operation of `hostOps0_2` writes its one result, which is not among the references kept. -/
theorem hostOps0_2_wr : (hostOps0_2 : List (HloOp τ sig (Elt F))).Forall fun op => ∃ y : Ref sig .tc, op.writes = {Proc.devRef .tc y} ∧ y ∉ argList :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩⟩
/-- so the stretch leaves those references' buffers as it finds them. -/
theorem hostOps0_2_keep (V : Valuation τ sig (Elt F)) {r : Ref sig .tc} (hr : r ∈ argList) :
    StableHlo.after hostOps0_2 V (Proc.devRef .tc r) = V (Proc.devRef .tc r) :=
  RunB.after_keep hostOps0_2 V hostOps0_2_wr hr

/-- No operation of `hostOps0_3` allocates a buffer. -/
theorem hostOps0_3_fresh : (hostOps0_3 : List (HloOp τ sig (Elt F))).Forall fun op => op.fresh = ∅ :=
  ⟨rfl, rfl, rfl⟩
/-- Each operation of `hostOps0_3` writes its one result, which is not among the references kept. -/
theorem hostOps0_3_wr : (hostOps0_3 : List (HloOp τ sig (Elt F))).Forall fun op => ∃ y : Ref sig .tc, op.writes = {Proc.devRef .tc y} ∧ y ∉ argList :=
  ⟨⟨_, rfl, by decide⟩, ⟨_, rfl, by decide⟩, ⟨_, rfl, by decide⟩⟩
/-- so the stretch leaves those references' buffers as it finds them. -/
theorem hostOps0_3_keep (V : Valuation τ sig (Elt F)) {r : Ref sig .tc} (hr : r ∈ argList) :
    StableHlo.after hostOps0_3 V (Proc.devRef .tc r) = V (Proc.devRef .tc r) :=
  RunB.after_keep hostOps0_3 V hostOps0_3_wr hr

/-- No operation of `hostOps0_4` allocates a buffer. -/
theorem hostOps0_4_fresh : (hostOps0_4 : List (HloOp τ sig (Elt F))).Forall fun op => op.fresh = ∅ :=
  ⟨rfl, rfl, rfl, rfl, rfl, rfl, rfl⟩
/-- Each operation of `hostOps0_4` writes its one result, which is not among the references kept. -/
theorem hostOps0_4_wr : (hostOps0_4 : List (HloOp τ sig (Elt F))).Forall fun op => ∃ y : Ref sig .tc, op.writes = {Proc.devRef .tc y} ∧ y ∉ argList :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩⟩
/-- so the stretch leaves those references' buffers as it finds them. -/
theorem hostOps0_4_keep (V : Valuation τ sig (Elt F)) {r : Ref sig .tc} (hr : r ∈ argList) :
    StableHlo.after hostOps0_4 V (Proc.devRef .tc r) = V (Proc.devRef .tc r) :=
  RunB.after_keep hostOps0_4 V hostOps0_4_wr hr

/-- No operation of `hostOps0_5` allocates a buffer. -/
theorem hostOps0_5_fresh : (hostOps0_5 : List (HloOp τ sig (Elt F))).Forall fun op => op.fresh = ∅ :=
  ⟨rfl, rfl, rfl⟩
/-- Each operation of `hostOps0_5` writes its one result, which is not among the references kept. -/
theorem hostOps0_5_wr : (hostOps0_5 : List (HloOp τ sig (Elt F))).Forall fun op => ∃ y : Ref sig .tc, op.writes = {Proc.devRef .tc y} ∧ y ∉ argList :=
  ⟨⟨_, rfl, by decide⟩, ⟨_, rfl, by decide⟩, ⟨_, rfl, by decide⟩⟩
/-- so the stretch leaves those references' buffers as it finds them. -/
theorem hostOps0_5_keep (V : Valuation τ sig (Elt F)) {r : Ref sig .tc} (hr : r ∈ argList) :
    StableHlo.after hostOps0_5 V (Proc.devRef .tc r) = V (Proc.devRef .tc r) :=
  RunB.after_keep hostOps0_5 V hostOps0_5_wr hr

/-- No operation of `hostOps0_6` allocates a buffer. -/
theorem hostOps0_6_fresh : (hostOps0_6 : List (HloOp τ sig (Elt F))).Forall fun op => op.fresh = ∅ :=
  ⟨rfl, rfl, rfl, rfl, rfl, rfl, rfl⟩
/-- Each operation of `hostOps0_6` writes its one result, which is not among the references kept. -/
theorem hostOps0_6_wr : (hostOps0_6 : List (HloOp τ sig (Elt F))).Forall fun op => ∃ y : Ref sig .tc, op.writes = {Proc.devRef .tc y} ∧ y ∉ argList :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩⟩
/-- so the stretch leaves those references' buffers as it finds them. -/
theorem hostOps0_6_keep (V : Valuation τ sig (Elt F)) {r : Ref sig .tc} (hr : r ∈ argList) :
    StableHlo.after hostOps0_6 V (Proc.devRef .tc r) = V (Proc.devRef .tc r) :=
  RunB.after_keep hostOps0_6 V hostOps0_6_wr hr

/-- No operation of `hostOps0_7` allocates a buffer. -/
theorem hostOps0_7_fresh : (hostOps0_7 : List (HloOp τ sig (Elt F))).Forall fun op => op.fresh = ∅ :=
  ⟨rfl, rfl, rfl⟩
/-- Each operation of `hostOps0_7` writes its one result, which is not among the references kept. -/
theorem hostOps0_7_wr : (hostOps0_7 : List (HloOp τ sig (Elt F))).Forall fun op => ∃ y : Ref sig .tc, op.writes = {Proc.devRef .tc y} ∧ y ∉ argList :=
  ⟨⟨_, rfl, by decide⟩, ⟨_, rfl, by decide⟩, ⟨_, rfl, by decide⟩⟩
/-- so the stretch leaves those references' buffers as it finds them. -/
theorem hostOps0_7_keep (V : Valuation τ sig (Elt F)) {r : Ref sig .tc} (hr : r ∈ argList) :
    StableHlo.after hostOps0_7 V (Proc.devRef .tc r) = V (Proc.devRef .tc r) :=
  RunB.after_keep hostOps0_7 V hostOps0_7_wr hr

/-- No operation of `hostOps0_8` allocates a buffer. -/
theorem hostOps0_8_fresh : (hostOps0_8 : List (HloOp τ sig (Elt F))).Forall fun op => op.fresh = ∅ :=
  ⟨rfl, rfl, rfl, rfl, rfl, rfl, rfl, rfl, rfl, rfl, rfl, rfl⟩
/-- Each operation of `hostOps0_8` writes its one result, which is not among the references kept. -/
theorem hostOps0_8_wr : (hostOps0_8 : List (HloOp τ sig (Elt F))).Forall fun op => ∃ y : Ref sig .tc, op.writes = {Proc.devRef .tc y} ∧ y ∉ argList :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
/-- so the stretch leaves those references' buffers as it finds them. -/
theorem hostOps0_8_keep (V : Valuation τ sig (Elt F)) {r : Ref sig .tc} (hr : r ∈ argList) :
    StableHlo.after hostOps0_8 V (Proc.devRef .tc r) = V (Proc.devRef .tc r) :=
  RunB.after_keep hostOps0_8 V hostOps0_8_wr hr

/-- No operation of `hostOps0_9` allocates a buffer. -/
theorem hostOps0_9_fresh : (hostOps0_9 : List (HloOp τ sig (Elt F))).Forall fun op => op.fresh = ∅ :=
  ⟨rfl, rfl, rfl⟩
/-- Each operation of `hostOps0_9` writes its one result, which is not among the references kept. -/
theorem hostOps0_9_wr : (hostOps0_9 : List (HloOp τ sig (Elt F))).Forall fun op => ∃ y : Ref sig .tc, op.writes = {Proc.devRef .tc y} ∧ y ∉ argList :=
  ⟨⟨_, rfl, by decide⟩, ⟨_, rfl, by decide⟩, ⟨_, rfl, by decide⟩⟩
/-- so the stretch leaves those references' buffers as it finds them. -/
theorem hostOps0_9_keep (V : Valuation τ sig (Elt F)) {r : Ref sig .tc} (hr : r ∈ argList) :
    StableHlo.after hostOps0_9 V (Proc.devRef .tc r) = V (Proc.devRef .tc r) :=
  RunB.after_keep hostOps0_9 V hostOps0_9_wr hr

/-- No operation of `hostOps0_10` allocates a buffer. -/
theorem hostOps0_10_fresh : (hostOps0_10 : List (HloOp τ sig (Elt F))).Forall fun op => op.fresh = ∅ :=
  ⟨rfl, rfl, rfl, rfl, rfl, rfl, rfl⟩
/-- Each operation of `hostOps0_10` writes its one result, which is not among the references kept. -/
theorem hostOps0_10_wr : (hostOps0_10 : List (HloOp τ sig (Elt F))).Forall fun op => ∃ y : Ref sig .tc, op.writes = {Proc.devRef .tc y} ∧ y ∉ argList :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩⟩
/-- so the stretch leaves those references' buffers as it finds them. -/
theorem hostOps0_10_keep (V : Valuation τ sig (Elt F)) {r : Ref sig .tc} (hr : r ∈ argList) :
    StableHlo.after hostOps0_10 V (Proc.devRef .tc r) = V (Proc.devRef .tc r) :=
  RunB.after_keep hostOps0_10 V hostOps0_10_wr hr

/-- No operation of `hostOps0_11` allocates a buffer. -/
theorem hostOps0_11_fresh : (hostOps0_11 : List (HloOp τ sig (Elt F))).Forall fun op => op.fresh = ∅ :=
  ⟨rfl, rfl, rfl⟩
/-- Each operation of `hostOps0_11` writes its one result, which is not among the references kept. -/
theorem hostOps0_11_wr : (hostOps0_11 : List (HloOp τ sig (Elt F))).Forall fun op => ∃ y : Ref sig .tc, op.writes = {Proc.devRef .tc y} ∧ y ∉ argList :=
  ⟨⟨_, rfl, by decide⟩, ⟨_, rfl, by decide⟩, ⟨_, rfl, by decide⟩⟩
/-- so the stretch leaves those references' buffers as it finds them. -/
theorem hostOps0_11_keep (V : Valuation τ sig (Elt F)) {r : Ref sig .tc} (hr : r ∈ argList) :
    StableHlo.after hostOps0_11 V (Proc.devRef .tc r) = V (Proc.devRef .tc r) :=
  RunB.after_keep hostOps0_11 V hostOps0_11_wr hr

/-- No operation of `hostOps0_12` allocates a buffer. -/
theorem hostOps0_12_fresh : (hostOps0_12 : List (HloOp τ sig (Elt F))).Forall fun op => op.fresh = ∅ :=
  ⟨rfl, rfl, rfl, rfl, rfl, rfl, rfl⟩
/-- Each operation of `hostOps0_12` writes its one result, which is not among the references kept. -/
theorem hostOps0_12_wr : (hostOps0_12 : List (HloOp τ sig (Elt F))).Forall fun op => ∃ y : Ref sig .tc, op.writes = {Proc.devRef .tc y} ∧ y ∉ argList :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩⟩
/-- so the stretch leaves those references' buffers as it finds them. -/
theorem hostOps0_12_keep (V : Valuation τ sig (Elt F)) {r : Ref sig .tc} (hr : r ∈ argList) :
    StableHlo.after hostOps0_12 V (Proc.devRef .tc r) = V (Proc.devRef .tc r) :=
  RunB.after_keep hostOps0_12 V hostOps0_12_wr hr

/-- No operation of `hostOps0_13` allocates a buffer. -/
theorem hostOps0_13_fresh : (hostOps0_13 : List (HloOp τ sig (Elt F))).Forall fun op => op.fresh = ∅ :=
  ⟨rfl, rfl, rfl⟩
/-- Each operation of `hostOps0_13` writes its one result, which is not among the references kept. -/
theorem hostOps0_13_wr : (hostOps0_13 : List (HloOp τ sig (Elt F))).Forall fun op => ∃ y : Ref sig .tc, op.writes = {Proc.devRef .tc y} ∧ y ∉ argList :=
  ⟨⟨_, rfl, by decide⟩, ⟨_, rfl, by decide⟩, ⟨_, rfl, by decide⟩⟩
/-- so the stretch leaves those references' buffers as it finds them. -/
theorem hostOps0_13_keep (V : Valuation τ sig (Elt F)) {r : Ref sig .tc} (hr : r ∈ argList) :
    StableHlo.after hostOps0_13 V (Proc.devRef .tc r) = V (Proc.devRef .tc r) :=
  RunB.after_keep hostOps0_13 V hostOps0_13_wr hr

/-- No operation of `hostOps0_14` allocates a buffer. -/
theorem hostOps0_14_fresh : (hostOps0_14 : List (HloOp τ sig (Elt F))).Forall fun op => op.fresh = ∅ :=
  ⟨rfl, rfl, rfl, rfl, rfl, rfl, rfl⟩
/-- Each operation of `hostOps0_14` writes its one result, which is not among the references kept. -/
theorem hostOps0_14_wr : (hostOps0_14 : List (HloOp τ sig (Elt F))).Forall fun op => ∃ y : Ref sig .tc, op.writes = {Proc.devRef .tc y} ∧ y ∉ argList :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩⟩
/-- so the stretch leaves those references' buffers as it finds them. -/
theorem hostOps0_14_keep (V : Valuation τ sig (Elt F)) {r : Ref sig .tc} (hr : r ∈ argList) :
    StableHlo.after hostOps0_14 V (Proc.devRef .tc r) = V (Proc.devRef .tc r) :=
  RunB.after_keep hostOps0_14 V hostOps0_14_wr hr

/-- No operation of `hostOps0_15` allocates a buffer. -/
theorem hostOps0_15_fresh : (hostOps0_15 : List (HloOp τ sig (Elt F))).Forall fun op => op.fresh = ∅ :=
  ⟨rfl, rfl, rfl⟩
/-- Each operation of `hostOps0_15` writes its one result, which is not among the references kept. -/
theorem hostOps0_15_wr : (hostOps0_15 : List (HloOp τ sig (Elt F))).Forall fun op => ∃ y : Ref sig .tc, op.writes = {Proc.devRef .tc y} ∧ y ∉ argList :=
  ⟨⟨_, rfl, by decide⟩, ⟨_, rfl, by decide⟩, ⟨_, rfl, by decide⟩⟩
/-- so the stretch leaves those references' buffers as it finds them. -/
theorem hostOps0_15_keep (V : Valuation τ sig (Elt F)) {r : Ref sig .tc} (hr : r ∈ argList) :
    StableHlo.after hostOps0_15 V (Proc.devRef .tc r) = V (Proc.devRef .tc r) :=
  RunB.after_keep hostOps0_15 V hostOps0_15_wr hr

/-- No operation of `hostOps0_16` allocates a buffer. -/
theorem hostOps0_16_fresh : (hostOps0_16 : List (HloOp τ sig (Elt F))).Forall fun op => op.fresh = ∅ :=
  ⟨rfl, rfl, rfl, rfl, rfl, rfl, rfl, rfl, rfl⟩
/-- Each operation of `hostOps0_16` writes its one result, which is not among the references kept. -/
theorem hostOps0_16_wr : (hostOps0_16 : List (HloOp τ sig (Elt F))).Forall fun op => ∃ y : Ref sig .tc, op.writes = {Proc.devRef .tc y} ∧ y ∉ argList :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
/-- so the stretch leaves those references' buffers as it finds them. -/
theorem hostOps0_16_keep (V : Valuation τ sig (Elt F)) {r : Ref sig .tc} (hr : r ∈ argList) :
    StableHlo.after hostOps0_16 V (Proc.devRef .tc r) = V (Proc.devRef .tc r) :=
  RunB.after_keep hostOps0_16 V hostOps0_16_wr hr

/-- No operation of `hostOps1` allocates a buffer. -/
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- Each operation of `hostOps1` writes its one result, which is not among the references kept. -/
theorem hostOps1_wr : (hostOps1 : List (HloOp τ sig (Elt F))).Forall fun op => ∃ y : Ref sig .tc, op.writes = {Proc.devRef .tc y} ∧ y ∉ keepList :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
/-- so the stretch leaves those references' buffers as it finds them. -/
theorem hostOps1_keep (V : Valuation τ sig (Elt F)) {r : Ref sig .tc} (hr : r ∈ keepList) :
    StableHlo.after hostOps1 V (Proc.devRef .tc r) = V (Proc.devRef .tc r) :=
  RunB.after_keep hostOps1 V hostOps1_wr hr

/-- No operation of `hostOps1_1` allocates a buffer. -/
theorem hostOps1_1_fresh : (hostOps1_1 : List (HloOp τ sig (Elt F))).Forall fun op => op.fresh = ∅ :=
  ⟨rfl, rfl, rfl⟩
/-- Each operation of `hostOps1_1` writes its one result, which is not among the references kept. -/
theorem hostOps1_1_wr : (hostOps1_1 : List (HloOp τ sig (Elt F))).Forall fun op => ∃ y : Ref sig .tc, op.writes = {Proc.devRef .tc y} ∧ y ∉ keepList :=
  ⟨⟨_, rfl, by decide⟩, ⟨_, rfl, by decide⟩, ⟨_, rfl, by decide⟩⟩
/-- so the stretch leaves those references' buffers as it finds them. -/
theorem hostOps1_1_keep (V : Valuation τ sig (Elt F)) {r : Ref sig .tc} (hr : r ∈ keepList) :
    StableHlo.after hostOps1_1 V (Proc.devRef .tc r) = V (Proc.devRef .tc r) :=
  RunB.after_keep hostOps1_1 V hostOps1_1_wr hr

/-- No operation of `hostOps2` allocates a buffer. -/
theorem hostOps2_fresh : (hostOps2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- Each operation of `hostOps2` writes its one result, which is not among the references kept. -/
theorem hostOps2_wr : (hostOps2 : List (HloOp τ sig (Elt F))).Forall fun op => ∃ y : Ref sig .tc, op.writes = {Proc.devRef .tc y} ∧ y ∉ keepList :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
/-- so the stretch leaves those references' buffers as it finds them. -/
theorem hostOps2_keep (V : Valuation τ sig (Elt F)) {r : Ref sig .tc} (hr : r ∈ keepList) :
    StableHlo.after hostOps2 V (Proc.devRef .tc r) = V (Proc.devRef .tc r) :=
  RunB.after_keep hostOps2 V hostOps2_wr hr

/-- No operation of `hostOps2_1` allocates a buffer. -/
theorem hostOps2_1_fresh : (hostOps2_1 : List (HloOp τ sig (Elt F))).Forall fun op => op.fresh = ∅ :=
  ⟨rfl, rfl, rfl⟩
/-- Each operation of `hostOps2_1` writes its one result, which is not among the references kept. -/
theorem hostOps2_1_wr : (hostOps2_1 : List (HloOp τ sig (Elt F))).Forall fun op => ∃ y : Ref sig .tc, op.writes = {Proc.devRef .tc y} ∧ y ∉ keepList :=
  ⟨⟨_, rfl, by decide⟩, ⟨_, rfl, by decide⟩, ⟨_, rfl, by decide⟩⟩
/-- so the stretch leaves those references' buffers as it finds them. -/
theorem hostOps2_1_keep (V : Valuation τ sig (Elt F)) {r : Ref sig .tc} (hr : r ∈ keepList) :
    StableHlo.after hostOps2_1 V (Proc.devRef .tc r) = V (Proc.devRef .tc r) :=
  RunB.after_keep hostOps2_1 V hostOps2_1_wr hr

/-- No operation of `hostOps3` allocates a buffer. -/
theorem hostOps3_fresh : (hostOps3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- Each operation of `hostOps3` writes its one result, which is not among the references kept. -/
theorem hostOps3_wr : (hostOps3 : List (HloOp τ sig (Elt F))).Forall fun op => ∃ y : Ref sig .tc, op.writes = {Proc.devRef .tc y} ∧ y ∉ keepList :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
/-- so the stretch leaves those references' buffers as it finds them. -/
theorem hostOps3_keep (V : Valuation τ sig (Elt F)) {r : Ref sig .tc} (hr : r ∈ keepList) :
    StableHlo.after hostOps3 V (Proc.devRef .tc r) = V (Proc.devRef .tc r) :=
  RunB.after_keep hostOps3 V hostOps3_wr hr

/-- No operation of `hostOps3_1` allocates a buffer. -/
theorem hostOps3_1_fresh : (hostOps3_1 : List (HloOp τ sig (Elt F))).Forall fun op => op.fresh = ∅ :=
  ⟨rfl, rfl, rfl⟩
/-- Each operation of `hostOps3_1` writes its one result, which is not among the references kept. -/
theorem hostOps3_1_wr : (hostOps3_1 : List (HloOp τ sig (Elt F))).Forall fun op => ∃ y : Ref sig .tc, op.writes = {Proc.devRef .tc y} ∧ y ∉ keepList :=
  ⟨⟨_, rfl, by decide⟩, ⟨_, rfl, by decide⟩, ⟨_, rfl, by decide⟩⟩
/-- so the stretch leaves those references' buffers as it finds them. -/
theorem hostOps3_1_keep (V : Valuation τ sig (Elt F)) {r : Ref sig .tc} (hr : r ∈ keepList) :
    StableHlo.after hostOps3_1 V (Proc.devRef .tc r) = V (Proc.devRef .tc r) :=
  RunB.after_keep hostOps3_1 V hostOps3_1_wr hr

/-- No operation of `hostOps4` allocates a buffer. -/
theorem hostOps4_fresh : (hostOps4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- Each operation of `hostOps4` writes its one result, which is not among the references kept. -/
theorem hostOps4_wr : (hostOps4 : List (HloOp τ sig (Elt F))).Forall fun op => ∃ y : Ref sig .tc, op.writes = {Proc.devRef .tc y} ∧ y ∉ keepList :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
/-- so the stretch leaves those references' buffers as it finds them. -/
theorem hostOps4_keep (V : Valuation τ sig (Elt F)) {r : Ref sig .tc} (hr : r ∈ keepList) :
    StableHlo.after hostOps4 V (Proc.devRef .tc r) = V (Proc.devRef .tc r) :=
  RunB.after_keep hostOps4 V hostOps4_wr hr

end Cert.KernelIdeal.Hand

end
-- ==== Proof.KI.Reg0.lean ====
import proofs.«111407_j24215025614983_1_alg».proof.Proof.Gen.KernelIdeal.Launch
import proofs.«111407_j24215025614983_1_alg».proof.Proof.Gen.KernelIdeal.Skeleton
import proofs.«111407_j24215025614983_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with 5000 rows is checked coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered; every statement below is at this parameter
variable (V : (c : Dev nD) → (b : Ref sig .tc) → Buf (Elt F) ((c : Thread nD τ).loc b))

/-! # Region 0: one matrix product per grid point, at the entry contents `V`

At point `(i, r)` the body reads rows `5000 i … 5000 i + 4999` of the features (window 0), the per-row scale of
relation `r` (window 1) and the weight of relation `r` (window 2), and overwrites the whole of the output block
(window 3) with `(features ⊙ scale) · weight`. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The four accesses of the body, each the whole of its staging buffer. -/
abbrev r0_0 : Rect S5000x256 := Rect.unit (s := S5000x256) ![0, 0] S5000x256.size inb_S5000x256_S5000x256_0_0
abbrev r0_1 : Rect S1x5000x1 := Rect.unit (s := S1x5000x1) ![0, 0, 0] S1x5000x1.size inb_S1x5000x1_S1x5000x1_0_0_0
abbrev r0_2 : Rect S1x256x256 := Rect.unit (s := S1x256x256) ![0, 0, 0] S1x256x256.size inb_S1x256x256_S1x256x256_0_0_0
abbrev r0_3 : Rect S1x5000x256 := Rect.unit (s := S1x5000x256) ![0, 0, 0] S1x5000x256.size inb_S1x5000x256_S1x5000x256_0_0_0

/-- The output buffer after the body, from the three input blocks: its single store, which spans the buffer. -/
def out0_3 (x0 : Vec F S5000x256 .f32) (x1 : Vec F S1x5000x1 .f32) (x2 : Vec F S1x256x256 .f32) : Vec F S1x5000x256 .f32 :=
  View.canon [⟨r0_3, k0_pay1 (View.ld x0 r0_0) (View.ld x1 r0_1) (View.ld x2 r0_2)⟩]

/-- The proof data of the region on core `c`: the arrays as the region finds them; after the body at point `t`
    each input buffer still at its block and the output buffer at `out0_3` of the three input blocks; the
    invariant is the untouched rest of the core; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

namespace RegA

/-! ## The input buffers hold their blocks at every point -/

/-- An input window's current staging buffer holds its block at every point, fetched there or not, for any proof
    data whose array is `V`'s and whose body leaves the block in place: where the window is not fetched its block
    index has not moved (the features' block changes only with the row coordinate of the grid). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The single store covers the output buffer -/

/-- The store's rectangle is the whole buffer, so every index of the buffer lies in it. -/
theorem cover0_3 (p0 : Vec F S1x5000x256 .f32) (y : S1x5000x256.Idx) :
    ∃ pc ∈ ([⟨r0_3, p0⟩] : List (View.Piece (Elt F) S1x5000x256 .f32)), y ∈ pc.1.set :=
  View.cover_of_tiled [⟨r0_3, p0⟩] S1x5000x256.size (by rfl) y

/-! ## The body's triple -/

set_option maxHeartbeats 1000000 in
/-- The body on whole staging buffers, the three inputs' at contents `x0 x1 x2` and the output's at anything, runs
    to the continuation with the inputs' as they were and the output's at `out0_3 x0 x1 x2`. The body also reads
    the output buffer before overwriting it; that value is not used, so any contents do. -/
theorem sound_kernel0 (c : Dev nD) (E : Set ℕ) (i : grid0.Coords)
    (arg0 : Memref sig .tc .vmem S5000x256 .f32) (harg0 : arg0.IsWhole)
    (arg1 : Memref sig .tc .vmem S1x5000x1 .f32) (harg1 : arg1.IsWhole)
    (arg2 : Memref sig .tc .vmem S1x256x256 .f32) (harg2 : arg2.IsWhole)
    (arg3 : Memref sig .tc .vmem S1x5000x256 .f32) (harg3 : arg3.IsWhole)
    (x0 : Vec F S5000x256 .f32) (x1 : Vec F S1x5000x1 .f32) (x2 : Vec F S1x256x256 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out0_3 x0 x1 x2)) -∗ K ⟨⟩))
      ⊢ wp frame (wpE (defs₀ (F := F)) Variants.none c none) E (cc0__proj_kernel i arg0 harg0 arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end RegA

/-- The library's body obligation, at every point. -/
theorem body_obligation0 (c : Dev nD) : BodyObligation (dat0 (F := F) V c) (defs₀ (F := F)) Variants.none () Set.univ := fun t => by
  rw [bigSep_W0, bigSep_W0]
  exact RegA.sound_body0 V c t

end Cert.KernelIdeal.Hand

end
-- ==== Proof.KI.Reg1.lean ====
import proofs.«111407_j24215025614983_1_alg».proof.Proof.Gen.KernelIdeal.Launch
import proofs.«111407_j24215025614983_1_alg».proof.Proof.Gen.KernelIdeal.Skeleton
import proofs.«111407_j24215025614983_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with 5000 rows is checked coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered; every statement below is at this parameter
variable (V : (c : Dev nD) → (b : Ref sig .tc) → Buf (Elt F) ((c : Thread nD τ).loc b))

/-! # Region 1: one matrix product per grid point, at the entry contents `V`

At point `(i, r)` the body reads rows `5000 i … 5000 i + 4999` of the features (window 0), the per-row scale of
relation `r` (window 1) and the weight of relation `r` (window 2), and overwrites the whole of the output block
(window 3) with `(features ⊙ scale) · weight`. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The four accesses of the body, each the whole of its staging buffer. -/
abbrev r1_0 : Rect S5000x256 := Rect.unit (s := S5000x256) ![0, 0] S5000x256.size inb_S5000x256_S5000x256_0_0
abbrev r1_1 : Rect S1x5000x1 := Rect.unit (s := S1x5000x1) ![0, 0, 0] S1x5000x1.size inb_S1x5000x1_S1x5000x1_0_0_0
abbrev r1_2 : Rect S1x256x256 := Rect.unit (s := S1x256x256) ![0, 0, 0] S1x256x256.size inb_S1x256x256_S1x256x256_0_0_0
abbrev r1_3 : Rect S1x5000x256 := Rect.unit (s := S1x5000x256) ![0, 0, 0] S1x5000x256.size inb_S1x5000x256_S1x5000x256_0_0_0

/-- The output buffer after the body, from the three input blocks: its single store, which spans the buffer. -/
def out1_3 (x0 : Vec F S5000x256 .f32) (x1 : Vec F S1x5000x1 .f32) (x2 : Vec F S1x256x256 .f32) : Vec F S1x5000x256 .f32 :=
  View.canon [⟨r1_3, k1_pay1 (View.ld x0 r1_0) (View.ld x1 r1_1) (View.ld x2 r1_2)⟩]

/-- The proof data of the region on core `c`: the arrays as the region finds them; after the body at point `t`
    each input buffer still at its block and the output buffer at `out1_3` of the three input blocks; the
    invariant is the untouched rest of the core; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

namespace RegA

/-! ## The input buffers hold their blocks at every point -/

/-- An input window's current staging buffer holds its block at every point, fetched there or not, for any proof
    data whose array is `V`'s and whose body leaves the block in place: where the window is not fetched its block
    index has not moved (the features' block changes only with the row coordinate of the grid). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The single store covers the output buffer -/

/-- The store's rectangle is the whole buffer, so every index of the buffer lies in it. -/
theorem cover1_3 (p0 : Vec F S1x5000x256 .f32) (y : S1x5000x256.Idx) :
    ∃ pc ∈ ([⟨r1_3, p0⟩] : List (View.Piece (Elt F) S1x5000x256 .f32)), y ∈ pc.1.set :=
  View.cover_of_tiled [⟨r1_3, p0⟩] S1x5000x256.size (by rfl) y

/-! ## The body's triple -/

set_option maxHeartbeats 1000000 in
/-- The body on whole staging buffers, the three inputs' at contents `x0 x1 x2` and the output's at anything, runs
    to the continuation with the inputs' as they were and the output's at `out1_3 x0 x1 x2`. The body also reads
    the output buffer before overwriting it; that value is not used, so any contents do. -/
theorem sound_kernel1 (c : Dev nD) (E : Set ℕ) (i : grid1.Coords)
    (arg0 : Memref sig .tc .vmem S5000x256 .f32) (harg0 : arg0.IsWhole)
    (arg1 : Memref sig .tc .vmem S1x5000x1 .f32) (harg1 : arg1.IsWhole)
    (arg2 : Memref sig .tc .vmem S1x256x256 .f32) (harg2 : arg2.IsWhole)
    (arg3 : Memref sig .tc .vmem S1x5000x256 .f32) (harg3 : arg3.IsWhole)
    (x0 : Vec F S5000x256 .f32) (x1 : Vec F S1x5000x1 .f32) (x2 : Vec F S1x256x256 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out1_3 x0 x1 x2)) -∗ K ⟨⟩))
      ⊢ wp frame (wpE (defs₀ (F := F)) Variants.none c none) E (cc1__proj_kernel i arg0 harg0 arg1 harg1 arg2 harg2 arg3 harg3) K := by
  simp only [cc1__proj_kernel_eq_skeleton]; unfold cc1__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end RegA

/-- The library's body obligation, at every point. -/
theorem body_obligation1 (c : Dev nD) : BodyObligation (dat1 (F := F) V c) (defs₀ (F := F)) Variants.none () Set.univ := fun t => by
  rw [bigSep_W1, bigSep_W1]
  exact RegA.sound_body1 V c t

end Cert.KernelIdeal.Hand

end
-- ==== Proof.KI.Reg2.lean ====
import proofs.«111407_j24215025614983_1_alg».proof.Proof.Gen.KernelIdeal.Launch
import proofs.«111407_j24215025614983_1_alg».proof.Proof.Gen.KernelIdeal.Skeleton
import proofs.«111407_j24215025614983_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with 5000 rows is checked coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered; every statement below is at this parameter
variable (V : (c : Dev nD) → (b : Ref sig .tc) → Buf (Elt F) ((c : Thread nD τ).loc b))

/-! # Region 2: one matrix product per grid point, at the entry contents `V`

At point `(i, r)` the body reads rows `5000 i … 5000 i + 4999` of the features (window 0), the per-row scale of
relation `r` (window 1) and the weight of relation `r` (window 2), and overwrites the whole of the output block
(window 3) with `(features ⊙ scale) · weight`. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The four accesses of the body, each the whole of its staging buffer. -/
abbrev r2_0 : Rect S5000x256 := Rect.unit (s := S5000x256) ![0, 0] S5000x256.size inb_S5000x256_S5000x256_0_0
abbrev r2_1 : Rect S1x5000x1 := Rect.unit (s := S1x5000x1) ![0, 0, 0] S1x5000x1.size inb_S1x5000x1_S1x5000x1_0_0_0
abbrev r2_2 : Rect S1x256x256 := Rect.unit (s := S1x256x256) ![0, 0, 0] S1x256x256.size inb_S1x256x256_S1x256x256_0_0_0
abbrev r2_3 : Rect S1x5000x256 := Rect.unit (s := S1x5000x256) ![0, 0, 0] S1x5000x256.size inb_S1x5000x256_S1x5000x256_0_0_0

/-- The output buffer after the body, from the three input blocks: its single store, which spans the buffer. -/
def out2_3 (x0 : Vec F S5000x256 .f32) (x1 : Vec F S1x5000x1 .f32) (x2 : Vec F S1x256x256 .f32) : Vec F S1x5000x256 .f32 :=
  View.canon [⟨r2_3, k2_pay1 (View.ld x0 r2_0) (View.ld x1 r2_1) (View.ld x2 r2_2)⟩]

/-- The proof data of the region on core `c`: the arrays as the region finds them; after the body at point `t`
    each input buffer still at its block and the output buffer at `out2_3` of the three input blocks; the
    invariant is the untouched rest of the core; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

namespace RegA

/-! ## The input buffers hold their blocks at every point -/

/-- An input window's current staging buffer holds its block at every point, fetched there or not, for any proof
    data whose array is `V`'s and whose body leaves the block in place: where the window is not fetched its block
    index has not moved (the features' block changes only with the row coordinate of the grid). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The single store covers the output buffer -/

/-- The store's rectangle is the whole buffer, so every index of the buffer lies in it. -/
theorem cover2_3 (p0 : Vec F S1x5000x256 .f32) (y : S1x5000x256.Idx) :
    ∃ pc ∈ ([⟨r2_3, p0⟩] : List (View.Piece (Elt F) S1x5000x256 .f32)), y ∈ pc.1.set :=
  View.cover_of_tiled [⟨r2_3, p0⟩] S1x5000x256.size (by rfl) y

/-! ## The body's triple -/

set_option maxHeartbeats 1000000 in
/-- The body on whole staging buffers, the three inputs' at contents `x0 x1 x2` and the output's at anything, runs
    to the continuation with the inputs' as they were and the output's at `out2_3 x0 x1 x2`. The body also reads
    the output buffer before overwriting it; that value is not used, so any contents do. -/
theorem sound_kernel2 (c : Dev nD) (E : Set ℕ) (i : grid2.Coords)
    (arg0 : Memref sig .tc .vmem S5000x256 .f32) (harg0 : arg0.IsWhole)
    (arg1 : Memref sig .tc .vmem S1x5000x1 .f32) (harg1 : arg1.IsWhole)
    (arg2 : Memref sig .tc .vmem S1x256x256 .f32) (harg2 : arg2.IsWhole)
    (arg3 : Memref sig .tc .vmem S1x5000x256 .f32) (harg3 : arg3.IsWhole)
    (x0 : Vec F S5000x256 .f32) (x1 : Vec F S1x5000x1 .f32) (x2 : Vec F S1x256x256 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out2_3 x0 x1 x2)) -∗ K ⟨⟩))
      ⊢ wp frame (wpE (defs₀ (F := F)) Variants.none c none) E (cc2__proj_kernel i arg0 harg0 arg1 harg1 arg2 harg2 arg3 harg3) K := by
  simp only [cc2__proj_kernel_eq_skeleton]; unfold cc2__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so the triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end RegA

/-- The library's body obligation, at every point. -/
theorem body_obligation2 (c : Dev nD) : BodyObligation (dat2 (F := F) V c) (defs₀ (F := F)) Variants.none () Set.univ := fun t => by
  rw [bigSep_W2, bigSep_W2]
  exact RegA.sound_body2 V c t

end Cert.KernelIdeal.Hand

end
-- ==== Proof.KI.Reg3.lean ====
import proofs.«111407_j24215025614983_1_alg».proof.Proof.Gen.KernelIdeal.Launch
import proofs.«111407_j24215025614983_1_alg».proof.Proof.Gen.KernelIdeal.Skeleton
import proofs.«111407_j24215025614983_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with 5000 rows is checked coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered; every statement below is at this parameter
variable (V : (c : Dev nD) → (b : Ref sig .tc) → Buf (Elt F) ((c : Thread nD τ).loc b))

/-! # Region 3: one matrix product per grid point, at the entry contents `V`

At point `(i, r)` the body reads rows `5000 i … 5000 i + 4999` of the features (window 0), the per-row scale of
relation `r` (window 1) and the weight of relation `r` (window 2), and overwrites the whole of the output block
(window 3) with `(features ⊙ scale) · weight`. -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The four accesses of the body, each the whole of its staging buffer. -/
abbrev r3_0 : Rect S5000x256 := Rect.unit (s := S5000x256) ![0, 0] S5000x256.size inb_S5000x256_S5000x256_0_0
abbrev r3_1 : Rect S1x5000x1 := Rect.unit (s := S1x5000x1) ![0, 0, 0] S1x5000x1.size inb_S1x5000x1_S1x5000x1_0_0_0
abbrev r3_2 : Rect S1x256x128 := Rect.unit (s := S1x256x128) ![0, 0, 0] S1x256x128.size inb_S1x256x128_S1x256x128_0_0_0
abbrev r3_3 : Rect S1x5000x128 := Rect.unit (s := S1x5000x128) ![0, 0, 0] S1x5000x128.size inb_S1x5000x128_S1x5000x128_0_0_0

/-- The output buffer after the body, from the three input blocks: its single store, which spans the buffer. -/
def out3_3 (x0 : Vec F S5000x256 .f32) (x1 : Vec F S1x5000x1 .f32) (x2 : Vec F S1x256x128 .f32) : Vec F S1x5000x128 .f32 :=
  View.canon [⟨r3_3, k3_pay1 (View.ld x0 r3_0) (View.ld x1 r3_1) (View.ld x2 r3_2)⟩]

/-- The proof data of the region on core `c`: the arrays as the region finds them; after the body at point `t`
    each input buffer still at its block and the output buffer at `out3_3` of the three input blocks; the
    invariant is the untouched rest of the core; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

namespace RegA

/-! ## The input buffers hold their blocks at every point -/

/-- An input window's current staging buffer holds its block at every point, fetched there or not, for any proof
    data whose array is `V`'s and whose body leaves the block in place: where the window is not fetched its block
    index has not moved (the features' block changes only with the row coordinate of the grid). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The single store covers the output buffer -/

/-- The store's rectangle is the whole buffer, so every index of the buffer lies in it. -/
theorem cover3_3 (p0 : Vec F S1x5000x128 .f32) (y : S1x5000x128.Idx) :
    ∃ pc ∈ ([⟨r3_3, p0⟩] : List (View.Piece (Elt F) S1x5000x128 .f32)), y ∈ pc.1.set :=
  View.cover_of_tiled [⟨r3_3, p0⟩] S1x5000x128.size (by rfl) y

/-! ## The body's triple -/

set_option maxHeartbeats 1000000 in
/-- The body on whole staging buffers, the three inputs' at contents `x0 x1 x2` and the output's at anything, runs
    to the continuation with the inputs' as they were and the output's at `out3_3 x0 x1 x2`. The body also reads
    the output buffer before overwriting it; that value is not used, so any contents do. -/
theorem sound_kernel3 (c : Dev nD) (E : Set ℕ) (i : grid3.Coords)
    (arg0 : Memref sig .tc .vmem S5000x256 .f32) (harg0 : arg0.IsWhole)
    (arg1 : Memref sig .tc .vmem S1x5000x1 .f32) (harg1 : arg1.IsWhole)
    (arg2 : Memref sig .tc .vmem S1x256x128 .f32) (harg2 : arg2.IsWhole)
    (arg3 : Memref sig .tc .vmem S1x5000x128 .f32) (harg3 : arg3.IsWhole)
    (x0 : Vec F S5000x256 .f32) (x1 : Vec F S1x5000x1 .f32) (x2 : Vec F S1x256x128 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out3_3 x0 x1 x2)) -∗ K ⟨⟩))
      ⊢ wp frame (wpE (defs₀ (F := F)) Variants.none c none) E (cc3__proj_kernel i arg0 harg0 arg1 harg1 arg2 harg2 arg3 harg3) K := by
  simp only [cc3__proj_kernel_eq_skeleton]; unfold cc3__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the input buffers hold their blocks, so the triple applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end RegA

/-- The library's body obligation, at every point. -/
theorem body_obligation3 (c : Dev nD) : BodyObligation (dat3 (F := F) V c) (defs₀ (F := F)) Variants.none () Set.univ := fun t => by
  rw [bigSep_W3, bigSep_W3]
  exact RegA.sound_body3 V c t

end Cert.KernelIdeal.Hand

end
-- ==== Proof.KI.Fold.lean ====
import proofs.«111407_j24215025614983_1_alg».proof.Proof.KI.Host
import proofs.«111407_j24215025614983_1_alg».proof.Proof.KI.Reg0
import proofs.«111407_j24215025614983_1_alg».proof.Proof.KI.Reg1
import proofs.«111407_j24215025614983_1_alg».proof.Proof.KI.Reg2
import proofs.«111407_j24215025614983_1_alg».proof.Proof.KI.Reg3

/-!
The contents of every TensorCore buffer at each boundary between two segments of @main, as a fold from the launch
memory: a stretch of host operations rewrites the results of its operations in order; a kernel region leaves each of
its four arrays at what its write-backs leave there (an input array as it was entered, the output array with every
block written back) and every other buffer as it was entered.

Read back through the fold: no segment from the first region on changes an argument array or either degree scaling,
and no stretch before the first region changes an argument array, so each argument holds its launch contents at
every boundary.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2`. -/
abbrev W3 : Dev nD → Valuation τ sig (Elt F) := fun c => StableHlo.after hostOps0_2 (W2 m ρ c)
/-- After `hostOps0_3`. -/
abbrev W4 : Dev nD → Valuation τ sig (Elt F) := fun c => StableHlo.after hostOps0_3 (W3 m ρ c)
/-- After `hostOps0_4`. -/
abbrev W5 : Dev nD → Valuation τ sig (Elt F) := fun c => StableHlo.after hostOps0_4 (W4 m ρ c)
/-- After `hostOps0_5`. -/
abbrev W6 : Dev nD → Valuation τ sig (Elt F) := fun c => StableHlo.after hostOps0_5 (W5 m ρ c)
/-- After `hostOps0_6`. -/
abbrev W7 : Dev nD → Valuation τ sig (Elt F) := fun c => StableHlo.after hostOps0_6 (W6 m ρ c)
/-- After `hostOps0_7`. -/
abbrev W8 : Dev nD → Valuation τ sig (Elt F) := fun c => StableHlo.after hostOps0_7 (W7 m ρ c)
/-- After `hostOps0_8`. -/
abbrev W9 : Dev nD → Valuation τ sig (Elt F) := fun c => StableHlo.after hostOps0_8 (W8 m ρ c)
/-- After `hostOps0_9`. -/
abbrev W10 : Dev nD → Valuation τ sig (Elt F) := fun c => StableHlo.after hostOps0_9 (W9 m ρ c)
/-- After `hostOps0_10`. -/
abbrev W11 : Dev nD → Valuation τ sig (Elt F) := fun c => StableHlo.after hostOps0_10 (W10 m ρ c)
/-- After `hostOps0_11`. -/
abbrev W12 : Dev nD → Valuation τ sig (Elt F) := fun c => StableHlo.after hostOps0_11 (W11 m ρ c)
/-- After `hostOps0_12`. -/
abbrev W13 : Dev nD → Valuation τ sig (Elt F) := fun c => StableHlo.after hostOps0_12 (W12 m ρ c)
/-- After `hostOps0_13`. -/
abbrev W14 : Dev nD → Valuation τ sig (Elt F) := fun c => StableHlo.after hostOps0_13 (W13 m ρ c)
/-- After `hostOps0_14`. -/
abbrev W15 : Dev nD → Valuation τ sig (Elt F) := fun c => StableHlo.after hostOps0_14 (W14 m ρ c)
/-- After `hostOps0_15`. -/
abbrev W16 : Dev nD → Valuation τ sig (Elt F) := fun c => StableHlo.after hostOps0_15 (W15 m ρ c)
/-- After `hostOps0_16`. -/
abbrev W17 : Dev nD → Valuation τ sig (Elt F) := fun c => StableHlo.after hostOps0_16 (W16 m ρ c)
/-- The same read at the TensorCore's references (what region 0's proof data take). -/
abbrev V17 : (c : Dev nD) → (b : Ref sig .tc) → Buf (Elt F) ((c : Thread nD τ).loc b) := fun c b => W17 m ρ c b
/-- At region 0's exit: its arrays at what the pipeline leaves (the inputs as entered, the output's write-backs
    folded), every other buffer as entered. -/
def W18 (c : Dev nD) : Valuation τ sig (Elt F) :=
  Pipeline.withArrays spec0 c (W17 m ρ c) fun w => (dat0 (V17 m ρ) c).arrAt w cfg0.N
theorem W18_arr (c : Dev nD) (w : Fin cfg0.W) :
    W18 m ρ c (Proc.devRef .tc (Pipeline.arrRef spec0 w)) = (dat0 (V17 m ρ) c).arrAt w cfg0.N := by
  unfold W18; exact Pipeline.withArrays_arr spec0 launch0.win.arr_inj c _ _ w
theorem W18_of_ne (c : Dev nD) (b : Ref sig .tc) (hb : ∀ w, Pipeline.arrRef spec0 w ≠ b) :
    W18 m ρ c (Proc.devRef .tc b) = W17 m ρ c (Proc.devRef .tc b) := by
  unfold W18; exact Pipeline.withArrays_of_ne spec0 c _ _ b hb
/-- The same read at the TensorCore's references (region 0's exit contents). -/
abbrev V18 : (c : Dev nD) → (b : Ref sig .tc) → Buf (Elt F) ((c : Thread nD τ).loc b) := fun c b => W18 m ρ c b
namespace RunB
/-- At region 0's exit each of its arrays holds what the pipeline leaves and every other buffer what it held at entry. -/
theorem hF0 (c : Dev nD) (w : Fin cfg0.W) : (dat0 (V17 m ρ) c).arrAt w cfg0.N = V18 m ρ c (Pipeline.arrRef spec0 w) :=
  (W18_arr m ρ c w).symm
theorem hrest0 (c : Dev nD) : ∀ b, b ∉ Finset.univ.image (Pipeline.arrRef spec0) → V18 m ρ c b = V17 m ρ c b :=
  fun b hb => W18_of_ne m ρ c b fun w e => hb (Finset.mem_image.mpr ⟨w, Finset.mem_univ _, e⟩)
/-- An input array leaves region 0 as it entered: the pipeline writes back output blocks only. -/
theorem W18_in (c : Dev nD) (w : Fin cfg0.W) (hw : (cfg0.win w).isOut = false) :
    W18 m ρ c (Proc.devRef .tc (Pipeline.arrRef spec0 w)) = W17 m ρ c (Proc.devRef .tc (Pipeline.arrRef spec0 w)) :=
  (W18_arr m ρ c w).trans (((dat0 (V17 m ρ) c).arrAt_in w hw _).trans (A_eq0 (V17 m ρ) c w))
end RunB
/-- After `hostOps1`. -/
abbrev W19 : Dev nD → Valuation τ sig (Elt F) := fun c => StableHlo.after hostOps1 (W18 m ρ c)
/-- After `hostOps1_1`. -/
abbrev W20 : Dev nD → Valuation τ sig (Elt F) := fun c => StableHlo.after hostOps1_1 (W19 m ρ c)
/-- The same read at the TensorCore's references (what region 1's proof data take). -/
abbrev V20 : (c : Dev nD) → (b : Ref sig .tc) → Buf (Elt F) ((c : Thread nD τ).loc b) := fun c b => W20 m ρ c b
/-- At region 1's exit: its arrays at what the pipeline leaves (the inputs as entered, the output's write-backs
    folded), every other buffer as entered. -/
def W21 (c : Dev nD) : Valuation τ sig (Elt F) :=
  Pipeline.withArrays spec1 c (W20 m ρ c) fun w => (dat1 (V20 m ρ) c).arrAt w cfg1.N
theorem W21_arr (c : Dev nD) (w : Fin cfg1.W) :
    W21 m ρ c (Proc.devRef .tc (Pipeline.arrRef spec1 w)) = (dat1 (V20 m ρ) c).arrAt w cfg1.N := by
  unfold W21; exact Pipeline.withArrays_arr spec1 launch1.win.arr_inj c _ _ w
theorem W21_of_ne (c : Dev nD) (b : Ref sig .tc) (hb : ∀ w, Pipeline.arrRef spec1 w ≠ b) :
    W21 m ρ c (Proc.devRef .tc b) = W20 m ρ c (Proc.devRef .tc b) := by
  unfold W21; exact Pipeline.withArrays_of_ne spec1 c _ _ b hb
/-- The same read at the TensorCore's references (region 1's exit contents). -/
abbrev V21 : (c : Dev nD) → (b : Ref sig .tc) → Buf (Elt F) ((c : Thread nD τ).loc b) := fun c b => W21 m ρ c b
namespace RunB
/-- At region 1's exit each of its arrays holds what the pipeline leaves and every other buffer what it held at entry. -/
theorem hF1 (c : Dev nD) (w : Fin cfg1.W) : (dat1 (V20 m ρ) c).arrAt w cfg1.N = V21 m ρ c (Pipeline.arrRef spec1 w) :=
  (W21_arr m ρ c w).symm
theorem hrest1 (c : Dev nD) : ∀ b, b ∉ Finset.univ.image (Pipeline.arrRef spec1) → V21 m ρ c b = V20 m ρ c b :=
  fun b hb => W21_of_ne m ρ c b fun w e => hb (Finset.mem_image.mpr ⟨w, Finset.mem_univ _, e⟩)
/-- An input array leaves region 1 as it entered: the pipeline writes back output blocks only. -/
theorem W21_in (c : Dev nD) (w : Fin cfg1.W) (hw : (cfg1.win w).isOut = false) :
    W21 m ρ c (Proc.devRef .tc (Pipeline.arrRef spec1 w)) = W20 m ρ c (Proc.devRef .tc (Pipeline.arrRef spec1 w)) :=
  (W21_arr m ρ c w).trans (((dat1 (V20 m ρ) c).arrAt_in w hw _).trans (A_eq1 (V20 m ρ) c w))
end RunB
/-- After `hostOps2`. -/
abbrev W22 : Dev nD → Valuation τ sig (Elt F) := fun c => StableHlo.after hostOps2 (W21 m ρ c)
/-- After `hostOps2_1`. -/
abbrev W23 : Dev nD → Valuation τ sig (Elt F) := fun c => StableHlo.after hostOps2_1 (W22 m ρ c)
/-- The same read at the TensorCore's references (what region 2's proof data take). -/
abbrev V23 : (c : Dev nD) → (b : Ref sig .tc) → Buf (Elt F) ((c : Thread nD τ).loc b) := fun c b => W23 m ρ c b
/-- At region 2's exit: its arrays at what the pipeline leaves (the inputs as entered, the output's write-backs
    folded), every other buffer as entered. -/
def W24 (c : Dev nD) : Valuation τ sig (Elt F) :=
  Pipeline.withArrays spec2 c (W23 m ρ c) fun w => (dat2 (V23 m ρ) c).arrAt w cfg2.N
theorem W24_arr (c : Dev nD) (w : Fin cfg2.W) :
    W24 m ρ c (Proc.devRef .tc (Pipeline.arrRef spec2 w)) = (dat2 (V23 m ρ) c).arrAt w cfg2.N := by
  unfold W24; exact Pipeline.withArrays_arr spec2 launch2.win.arr_inj c _ _ w
theorem W24_of_ne (c : Dev nD) (b : Ref sig .tc) (hb : ∀ w, Pipeline.arrRef spec2 w ≠ b) :
    W24 m ρ c (Proc.devRef .tc b) = W23 m ρ c (Proc.devRef .tc b) := by
  unfold W24; exact Pipeline.withArrays_of_ne spec2 c _ _ b hb
/-- The same read at the TensorCore's references (region 2's exit contents). -/
abbrev V24 : (c : Dev nD) → (b : Ref sig .tc) → Buf (Elt F) ((c : Thread nD τ).loc b) := fun c b => W24 m ρ c b
namespace RunB
/-- At region 2's exit each of its arrays holds what the pipeline leaves and every other buffer what it held at entry. -/
theorem hF2 (c : Dev nD) (w : Fin cfg2.W) : (dat2 (V23 m ρ) c).arrAt w cfg2.N = V24 m ρ c (Pipeline.arrRef spec2 w) :=
  (W24_arr m ρ c w).symm
theorem hrest2 (c : Dev nD) : ∀ b, b ∉ Finset.univ.image (Pipeline.arrRef spec2) → V24 m ρ c b = V23 m ρ c b :=
  fun b hb => W24_of_ne m ρ c b fun w e => hb (Finset.mem_image.mpr ⟨w, Finset.mem_univ _, e⟩)
/-- An input array leaves region 2 as it entered: the pipeline writes back output blocks only. -/
theorem W24_in (c : Dev nD) (w : Fin cfg2.W) (hw : (cfg2.win w).isOut = false) :
    W24 m ρ c (Proc.devRef .tc (Pipeline.arrRef spec2 w)) = W23 m ρ c (Proc.devRef .tc (Pipeline.arrRef spec2 w)) :=
  (W24_arr m ρ c w).trans (((dat2 (V23 m ρ) c).arrAt_in w hw _).trans (A_eq2 (V23 m ρ) c w))
end RunB
/-- After `hostOps3`. -/
abbrev W25 : Dev nD → Valuation τ sig (Elt F) := fun c => StableHlo.after hostOps3 (W24 m ρ c)
/-- After `hostOps3_1`. -/
abbrev W26 : Dev nD → Valuation τ sig (Elt F) := fun c => StableHlo.after hostOps3_1 (W25 m ρ c)
/-- The same read at the TensorCore's references (what region 3's proof data take). -/
abbrev V26 : (c : Dev nD) → (b : Ref sig .tc) → Buf (Elt F) ((c : Thread nD τ).loc b) := fun c b => W26 m ρ c b
/-- At region 3's exit: its arrays at what the pipeline leaves (the inputs as entered, the output's write-backs
    folded), every other buffer as entered. -/
def W27 (c : Dev nD) : Valuation τ sig (Elt F) :=
  Pipeline.withArrays spec3 c (W26 m ρ c) fun w => (dat3 (V26 m ρ) c).arrAt w cfg3.N
theorem W27_arr (c : Dev nD) (w : Fin cfg3.W) :
    W27 m ρ c (Proc.devRef .tc (Pipeline.arrRef spec3 w)) = (dat3 (V26 m ρ) c).arrAt w cfg3.N := by
  unfold W27; exact Pipeline.withArrays_arr spec3 launch3.win.arr_inj c _ _ w
theorem W27_of_ne (c : Dev nD) (b : Ref sig .tc) (hb : ∀ w, Pipeline.arrRef spec3 w ≠ b) :
    W27 m ρ c (Proc.devRef .tc b) = W26 m ρ c (Proc.devRef .tc b) := by
  unfold W27; exact Pipeline.withArrays_of_ne spec3 c _ _ b hb
/-- The same read at the TensorCore's references (region 3's exit contents). -/
abbrev V27 : (c : Dev nD) → (b : Ref sig .tc) → Buf (Elt F) ((c : Thread nD τ).loc b) := fun c b => W27 m ρ c b
namespace RunB
/-- At region 3's exit each of its arrays holds what the pipeline leaves and every other buffer what it held at entry. -/
theorem hF3 (c : Dev nD) (w : Fin cfg3.W) : (dat3 (V26 m ρ) c).arrAt w cfg3.N = V27 m ρ c (Pipeline.arrRef spec3 w) :=
  (W27_arr m ρ c w).symm
theorem hrest3 (c : Dev nD) : ∀ b, b ∉ Finset.univ.image (Pipeline.arrRef spec3) → V27 m ρ c b = V26 m ρ c b :=
  fun b hb => W27_of_ne m ρ c b fun w e => hb (Finset.mem_image.mpr ⟨w, Finset.mem_univ _, e⟩)
/-- An input array leaves region 3 as it entered: the pipeline writes back output blocks only. -/
theorem W27_in (c : Dev nD) (w : Fin cfg3.W) (hw : (cfg3.win w).isOut = false) :
    W27 m ρ c (Proc.devRef .tc (Pipeline.arrRef spec3 w)) = W26 m ρ c (Proc.devRef .tc (Pipeline.arrRef spec3 w)) :=
  (W27_arr m ρ c w).trans (((dat3 (V26 m ρ) c).arrAt_in w hw _).trans (A_eq3 (V26 m ρ) c w))
end RunB
/-- After `hostOps4`. -/
abbrev W28 : Dev nD → Valuation τ sig (Elt F) := fun c => StableHlo.after hostOps4 (W27 m ρ c)

/-! ## What every segment from the first region on leaves alone -/

theorem W18_keep (c : Dev nD) (b : Ref sig .tc) (hb : b ∈ keepList) :
    W18 m ρ c (Proc.devRef .tc b) = W17 m ρ c (Proc.devRef .tc b) := by
  simp only [keepList, List.mem_cons, List.not_mem_nil, or_false] at hb
  rcases hb with rfl | rfl | rfl | rfl | rfl | rfl | rfl | rfl | rfl | rfl | rfl | rfl | rfl
  · exact RunB.W18_in m ρ c 0 rfl
  · exact RunB.W18_in m ρ c 2 rfl
  · exact W18_of_ne m ρ c _ (by decide)
  · exact W18_of_ne m ρ c _ (by decide)
  · exact W18_of_ne m ρ c _ (by decide)
  · exact W18_of_ne m ρ c _ (by decide)
  · exact W18_of_ne m ρ c _ (by decide)
  · exact W18_of_ne m ρ c _ (by decide)
  · exact W18_of_ne m ρ c _ (by decide)
  · exact W18_of_ne m ρ c _ (by decide)
  · exact W18_of_ne m ρ c _ (by decide)
  · exact RunB.W18_in m ρ c 1 rfl
  · exact W18_of_ne m ρ c _ (by decide)
theorem W19_keep (c : Dev nD) (b : Ref sig .tc) (hb : b ∈ keepList) :
    W19 m ρ c (Proc.devRef .tc b) = W18 m ρ c (Proc.devRef .tc b) := hostOps1_keep (W18 m ρ c) hb
theorem W20_keep (c : Dev nD) (b : Ref sig .tc) (hb : b ∈ keepList) :
    W20 m ρ c (Proc.devRef .tc b) = W19 m ρ c (Proc.devRef .tc b) := hostOps1_1_keep (W19 m ρ c) hb
theorem W21_keep (c : Dev nD) (b : Ref sig .tc) (hb : b ∈ keepList) :
    W21 m ρ c (Proc.devRef .tc b) = W20 m ρ c (Proc.devRef .tc b) := by
  simp only [keepList, List.mem_cons, List.not_mem_nil, or_false] at hb
  rcases hb with rfl | rfl | rfl | rfl | rfl | rfl | rfl | rfl | rfl | rfl | rfl | rfl | rfl
  · exact W21_of_ne m ρ c _ (by decide)
  · exact W21_of_ne m ρ c _ (by decide)
  · exact W21_of_ne m ρ c _ (by decide)
  · exact RunB.W21_in m ρ c 2 rfl
  · exact W21_of_ne m ρ c _ (by decide)
  · exact W21_of_ne m ρ c _ (by decide)
  · exact W21_of_ne m ρ c _ (by decide)
  · exact W21_of_ne m ρ c _ (by decide)
  · exact W21_of_ne m ρ c _ (by decide)
  · exact W21_of_ne m ρ c _ (by decide)
  · exact W21_of_ne m ρ c _ (by decide)
  · exact RunB.W21_in m ρ c 1 rfl
  · exact W21_of_ne m ρ c _ (by decide)
theorem W22_keep (c : Dev nD) (b : Ref sig .tc) (hb : b ∈ keepList) :
    W22 m ρ c (Proc.devRef .tc b) = W21 m ρ c (Proc.devRef .tc b) := hostOps2_keep (W21 m ρ c) hb
theorem W23_keep (c : Dev nD) (b : Ref sig .tc) (hb : b ∈ keepList) :
    W23 m ρ c (Proc.devRef .tc b) = W22 m ρ c (Proc.devRef .tc b) := hostOps2_1_keep (W22 m ρ c) hb
theorem W24_keep (c : Dev nD) (b : Ref sig .tc) (hb : b ∈ keepList) :
    W24 m ρ c (Proc.devRef .tc b) = W23 m ρ c (Proc.devRef .tc b) := by
  simp only [keepList, List.mem_cons, List.not_mem_nil, or_false] at hb
  rcases hb with rfl | rfl | rfl | rfl | rfl | rfl | rfl | rfl | rfl | rfl | rfl | rfl | rfl
  · exact W24_of_ne m ρ c _ (by decide)
  · exact W24_of_ne m ρ c _ (by decide)
  · exact W24_of_ne m ρ c _ (by decide)
  · exact W24_of_ne m ρ c _ (by decide)
  · exact W24_of_ne m ρ c _ (by decide)
  · exact RunB.W24_in m ρ c 2 rfl
  · exact W24_of_ne m ρ c _ (by decide)
  · exact W24_of_ne m ρ c _ (by decide)
  · exact W24_of_ne m ρ c _ (by decide)
  · exact W24_of_ne m ρ c _ (by decide)
  · exact W24_of_ne m ρ c _ (by decide)
  · exact RunB.W24_in m ρ c 1 rfl
  · exact W24_of_ne m ρ c _ (by decide)
theorem W25_keep (c : Dev nD) (b : Ref sig .tc) (hb : b ∈ keepList) :
    W25 m ρ c (Proc.devRef .tc b) = W24 m ρ c (Proc.devRef .tc b) := hostOps3_keep (W24 m ρ c) hb
theorem W26_keep (c : Dev nD) (b : Ref sig .tc) (hb : b ∈ keepList) :
    W26 m ρ c (Proc.devRef .tc b) = W25 m ρ c (Proc.devRef .tc b) := hostOps3_1_keep (W25 m ρ c) hb
theorem W27_keep (c : Dev nD) (b : Ref sig .tc) (hb : b ∈ keepList) :
    W27 m ρ c (Proc.devRef .tc b) = W26 m ρ c (Proc.devRef .tc b) := by
  simp only [keepList, List.mem_cons, List.not_mem_nil, or_false] at hb
  rcases hb with rfl | rfl | rfl | rfl | rfl | rfl | rfl | rfl | rfl | rfl | rfl | rfl | rfl
  · exact W27_of_ne m ρ c _ (by decide)
  · exact W27_of_ne m ρ c _ (by decide)
  · exact W27_of_ne m ρ c _ (by decide)
  · exact W27_of_ne m ρ c _ (by decide)
  · exact W27_of_ne m ρ c _ (by decide)
  · exact W27_of_ne m ρ c _ (by decide)
  · exact W27_of_ne m ρ c _ (by decide)
  · exact RunB.W27_in m ρ c 2 rfl
  · exact W27_of_ne m ρ c _ (by decide)
  · exact W27_of_ne m ρ c _ (by decide)
  · exact W27_of_ne m ρ c _ (by decide)
  · exact RunB.W27_in m ρ c 1 rfl
  · exact W27_of_ne m ρ c _ (by decide)
theorem W28_keep (c : Dev nD) (b : Ref sig .tc) (hb : b ∈ keepList) :
    W28 m ρ c (Proc.devRef .tc b) = W27 m ρ c (Proc.devRef .tc b) := hostOps4_keep (W27 m ρ c) hb

/-! ## The arguments before the first region -/

/-- No stretch before the first region writes an argument array. -/
theorem W17_arg (c : Dev nD) (b : Ref sig .tc) (hb : b ∈ argList) :
    W17 m ρ c (Proc.devRef .tc b) = m ((c : Thread nD τ).loc b) :=
  (hostOps0_16_keep (W16 m ρ c) hb).trans <|
  (hostOps0_15_keep (W15 m ρ c) hb).trans <|
  (hostOps0_14_keep (W14 m ρ c) hb).trans <|
  (hostOps0_13_keep (W13 m ρ c) hb).trans <|
  (hostOps0_12_keep (W12 m ρ c) hb).trans <|
  (hostOps0_11_keep (W11 m ρ c) hb).trans <|
  (hostOps0_10_keep (W10 m ρ c) hb).trans <|
  (hostOps0_9_keep (W9 m ρ c) hb).trans <|
  (hostOps0_8_keep (W8 m ρ c) hb).trans <|
  (hostOps0_7_keep (W7 m ρ c) hb).trans <|
  (hostOps0_6_keep (W6 m ρ c) hb).trans <|
  (hostOps0_5_keep (W5 m ρ c) hb).trans <|
  (hostOps0_4_keep (W4 m ρ c) hb).trans <|
  (hostOps0_3_keep (W3 m ρ c) hb).trans <|
  (hostOps0_2_keep (W2 m ρ c) hb).trans <|
  (hostOps0_1_keep (W1 m ρ c) hb).trans <|
  (hostOps0_keep (W0 m ρ c) hb).trans <|
  rfl

end Cert.KernelIdeal.Hand

end
-- ==== Proof.KI.Run.lean ====
import proofs.«111407_j24215025614983_1_alg».proof.Proof.KI.Fold

/-!
The run of @main from the launch to the return, and the frame.

@main is twenty-eight segments in order: twenty-four stretches of host operations and the four kernel regions. Each
core's thread state at a boundary is: every unscoped buffer held whole at that boundary's contents (the fold), the
generator register at some state, nothing owed to another core. A stretch runs from the state at its start to the
state at its end, the end contents being the fold of its operations; a region splits its four arrays out of the
unscoped buffers, runs its pipeline under the body obligation, and puts the arrays back at the exit contents. The
states chain, so the several-regions launch theorem gives: from any memory with every counter at zero, every weakly
fair execution terminates without fault, and in every final state each unscoped TensorCore buffer holds the last
boundary's contents. Read at the eleven argument arrays through the fold, those are the launch contents.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

namespace RunB

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V17 m ρ) c
  | ⟨1, _⟩ => fun c => dat1 (V20 m ρ) c
  | ⟨2, _⟩ => fun c => dat2 (V23 m ρ) c
  | ⟨3, _⟩ => fun c => dat3 (V26 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends at
    those references at the fold of its operations over `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues: every unscoped buffer at the last boundary's contents, the generator
    register at some state. -/
abbrev Tₙ (c : Dev nD) : sProp 𝕄 := iprop(StableHlo.held (c : Thread nD τ) (Pipeline.ucRefs τ sig) (W28 m ρ c) ∗ ∃ r, prngReg c r)

/-- The last stretch's end state is the last thread state beside the core owing nothing. -/
theorem last_step (c : Dev nD) :
    iprop(StableHlo.held (c : Thread nD τ) (Pipeline.ucRefs τ sig) (W28 m ρ c) ∗ R c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- Region 0 over the thread state: entered from every unscoped buffer at `W17`, left at `W18`. Its arrays split out
    of the unscoped buffers and put back at the exit contents; the generator register into the region's invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V17 m ρ) c).loose
  hwaits := Pipeline.hwaits_of_owed_zero _ _ _ _ L lv 0 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec0 c (V17 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V17 m ρ c) (V18 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W20`, left at `W21`. Its arrays split out
    of the unscoped buffers and put back at the exit contents; the generator register into the region's invariant and
    out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V20 m ρ) c).loose
  hwaits := Pipeline.hwaits_of_owed_zero _ _ _ _ L lv 1 fun _ _ => rfl
  pre c := iprop(StableHlo.held (c : Thread nD τ) (Pipeline.ucRefs τ sig) (W20 m ρ c) ∗ R c)
  post c := iprop(StableHlo.held (c : Thread nD τ) (Pipeline.ucRefs τ sig) (W21 m ρ c) ∗ R c)
  X c := iprop(∃ r, prngReg c r)
  Y c := iprop(∃ r, prngReg c r)
  Z c := Pipeline.unscopedRest (Ix := Unit) (Name := ℕ) (U := UR sig nD τ) (Lvl := ℕ) spec1 c (V20 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V20 m ρ c) (V21 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W23`, left at `W24`. Its arrays split out
    of the unscoped buffers and put back at the exit contents; the generator register into the region's invariant and
    out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V23 m ρ) c).loose
  hwaits := Pipeline.hwaits_of_owed_zero _ _ _ _ L lv 2 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec2 c (V23 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V23 m ρ c) (V24 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W26`, left at `W27`. Its arrays split out
    of the unscoped buffers and put back at the exit contents; the generator register into the region's invariant and
    out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V26 m ρ) c).loose
  hwaits := Pipeline.hwaits_of_owed_zero _ _ _ _ L lv 3 fun _ _ => rfl
  pre c := iprop(StableHlo.held (c : Thread nD τ) (Pipeline.ucRefs τ sig) (W26 m ρ c) ∗ R c)
  post c := iprop(StableHlo.held (c : Thread nD τ) (Pipeline.ucRefs τ sig) (W27 m ρ c) ∗ R c)
  X c := iprop(∃ r, prngReg c r)
  Y c := iprop(∃ r, prngReg c r)
  Z c := Pipeline.unscopedRest (Ix := Unit) (Name := ℕ) (U := UR sig nD τ) (Lvl := ℕ) spec3 c (V26 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V26 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V26 m ρ c) (V27 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 28 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .host (hseg hostOps0_11 hostOps0_11_sub hostOps0_11_fresh (W11 m ρ)),
    .host (hseg hostOps0_12 hostOps0_12_sub hostOps0_12_fresh (W12 m ρ)),
    .host (hseg hostOps0_13 hostOps0_13_sub hostOps0_13_fresh (W13 m ρ)),
    .host (hseg hostOps0_14 hostOps0_14_sub hostOps0_14_fresh (W14 m ρ)),
    .host (hseg hostOps0_15 hostOps0_15_sub hostOps0_15_fresh (W15 m ρ)),
    .host (hseg hostOps0_16 hostOps0_16_sub hostOps0_16_fresh (W16 m ρ)),
    .region (reg0 m ρ),
    .host (hseg hostOps1 hostOps1_sub hostOps1_fresh (W18 m ρ)),
    .host (hseg hostOps1_1 hostOps1_1_sub hostOps1_1_fresh (W19 m ρ)),
    .region (reg1 m ρ),
    .host (hseg hostOps2 hostOps2_sub hostOps2_fresh (W21 m ρ)),
    .host (hseg hostOps2_1 hostOps2_1_sub hostOps2_1_fresh (W22 m ρ)),
    .region (reg2 m ρ),
    .host (hseg hostOps3 hostOps3_sub hostOps3_fresh (W24 m ρ)),
    .host (hseg hostOps3_1 hostOps3_1_sub hostOps3_1_fresh (W25 m ρ)),
    .region (reg3 m ρ),
    .host (hseg hostOps4 hostOps4_sub hostOps4_fresh (W27 m ρ)) ]
/-- @main is the run of the segments: its chain of items, then the segments' run against that chain. -/
theorem main_run (c : Dev nD) : main (F := F) c = Pipeline.Seg.run (segs m ρ) := (main_chain c).trans (by chain_rfl)

end RunB

open RunB

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters, every weakly fair execution of @main on the TensorCores terminates,
    nothing faulting, and every final state has each unscoped TensorCore buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W28 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => last_step m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W28 m ρ c b)
    (hfin := fun c s' => by
      iintro ⟨⟨Hh, -⟩, HSI⟩
      unfold StableHlo.held
      imodintro
      iapply (pointsTo_read_all (Pipeline.ucRefs τ sig) (fun b => (((c : Thread nD τ)).1, b)) (W28 m ρ c) s')
      isplitl [Hh] <;> iassumption)
    (hQ := fun s h => h)

/-- An argument array holds its launch contents at the last boundary: no segment writes it. -/
theorem W28_arg (c : Dev nD) (b : Ref sig .tc) (hb : b ∈ argList) :
    W28 m ρ c (Proc.devRef .tc b) = m ((c : Thread nD τ).loc b) :=
  have hk : b ∈ keepList := List.mem_append_left [main_v60, main_v62] hb
  (W28_keep m ρ c b hk).trans <|
  (W27_keep m ρ c b hk).trans <|
  (W26_keep m ρ c b hk).trans <|
  (W25_keep m ρ c b hk).trans <|
  (W24_keep m ρ c b hk).trans <|
  (W23_keep m ρ c b hk).trans <|
  (W22_keep m ρ c b hk).trans <|
  (W21_keep m ρ c b hk).trans <|
  (W20_keep m ρ c b hk).trans <|
  (W19_keep m ρ c b hk).trans <|
  (W18_keep m ρ c b hk).trans <|
  W17_arg m ρ c b hb

/-- THE FRAME: every weakly fair execution of @main terminates, nothing faulting, and every final state has the
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs (onTc (τ := τ) (main (F := F))) ⟨m, fun _ => 0, ρ⟩).mono
    (fun r h c => ⟨(h c _ (mem_uc main_arg0 (by decide))).trans (W28_arg m ρ c main_arg0 (by decide)),
      (h c _ (mem_uc main_arg1 (by decide))).trans (W28_arg m ρ c main_arg1 (by decide)),
      (h c _ (mem_uc main_arg2 (by decide))).trans (W28_arg m ρ c main_arg2 (by decide)),
      (h c _ (mem_uc main_arg3 (by decide))).trans (W28_arg m ρ c main_arg3 (by decide)),
      (h c _ (mem_uc main_arg4 (by decide))).trans (W28_arg m ρ c main_arg4 (by decide)),
      (h c _ (mem_uc main_arg5 (by decide))).trans (W28_arg m ρ c main_arg5 (by decide)),
      (h c _ (mem_uc main_arg6 (by decide))).trans (W28_arg m ρ c main_arg6 (by decide)),
      (h c _ (mem_uc main_arg7 (by decide))).trans (W28_arg m ρ c main_arg7 (by decide)),
      (h c _ (mem_uc main_arg8 (by decide))).trans (W28_arg m ρ c main_arg8 (by decide)),
      (h c _ (mem_uc main_arg9 (by decide))).trans (W28_arg m ρ c main_arg9 (by decide)),
      (h c _ (mem_uc main_arg10 (by decide))).trans (W28_arg m ρ c main_arg10 (by decide))⟩)
    (run_all m ρ)

end Cert.KernelIdeal.Hand

end
-- ==== Proof.KI.ProjPay.lean ====
import proofs.«111407_j24215025614983_1_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout

/-!
What one grid point's body computes, entry by entry, at the ideal values.

The body takes a block `x0` of 5000 feature rows, the 5000 matching entries `x1` of one relation's degree scale and
that relation's weight matrix `x2`. It scales row `p` of `x0` by `x1[0, p, 0]`, multiplies by the weight matrix,
and stores the product with a unit leading axis. At the ideal values the two roundings to a shorter format change
nothing and the product accumulated into the zero array is the plain sum over the 256 contracted columns:

  result[0, p, q] = sum over k of (x0[p, k] * x1[0, p, 0]) * x2[0, k, q].
-/

noncomputable section

namespace Cert.KernelIdeal.Hand.ProjC

open Idealize.ShloMosaic Idealize.ShloMosaic.ValueIdx Cert.KernelIdeal Cert.KernelIdeal.Gen

/-- A column `[a, 1]` laid out over `b` columns reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The operand indices of the two matrix products -/

theorem lhs256_0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide),
    dif_pos (show (0 : Fin S5000x256.rank) ∈ dot_S5000x256_S256x256_S5000x256_1_0_0_1_n_n.lhsNonContracting by decide)]
  rfl

theorem lhs256_1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q

theorem rhs256_0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q

theorem rhs256_1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide),
    dif_pos (show (1 : Fin S256x256.rank) ∈ dot_S5000x256_S256x256_S5000x256_1_0_0_1_n_n.rhsNonContracting by decide)]
  rfl

/-- The product of a `[5000, 256]` by a `[256, 256]` matrix accumulated into zero, read at `(p, q)`. -/
theorem matmul256_apply {φ₁ φ₂ : FTy} (A : FVec Ideal S5000x256 φ₁) (B : FVec Ideal S256x256 φ₂) (p : Fin 5000) (q : Fin 256) :
    matmul dot_S5000x256_S256x256_S5000x256_1_0_0_1_n_n none A B (constant S5000x256 .f32 0x00000000#32) (ix2 p q)
      = ∑ k : Fin 256, A (ix2 p k) * B (ix2 k q) := by
  show FloatOps.matmul dot_S5000x256_S256x256_S5000x256_1_0_0_1_n_n none A B (constant S5000x256 .f32 0x00000000#32) (ix2 p q) = _
  rw [Ideal.matmul_constant_zero_apply,
    ← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 p q)
      ((contrEquiv1 dot_S5000x256_S256x256_S5000x256_1_0_0_1_n_n 256 rfl rfl).symm k) = ix2 p k :=
    funext fun a => Fin.ext (by
      match a with
      | ⟨0, _⟩ => exact lhs256_0 _ _
      | ⟨1, _⟩ => exact (lhs256_1 _ _).trans hk)
  have er : dot_S5000x256_S256x256_S5000x256_1_0_0_1_n_n.rhsIdx (ix2 p q)
      ((contrEquiv1 dot_S5000x256_S256x256_S5000x256_1_0_0_1_n_n 256 rfl rfl).symm k) = ix2 k q :=
    funext fun a => Fin.ext (by
      match a with
      | ⟨0, _⟩ => exact (rhs256_0 _ _).trans hk
      | ⟨1, _⟩ => exact rhs256_1 _ _)
  rw [el, er]

theorem lhs128_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl

theorem lhs128_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q

theorem rhs128_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q

theorem rhs128_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-- The product of a `[5000, 256]` by a `[256, 128]` matrix accumulated into zero, read at `(p, q)`. -/
theorem matmul128_apply {φ₁ φ₂ : FTy} (A : FVec Ideal S5000x256 φ₁) (B : FVec Ideal S256x128 φ₂) (p : Fin 5000) (q : Fin 128) :
    matmul dot_S5000x256_S256x128_S5000x128_1_0_0_1_n_n none A B (constant S5000x128 .f32 0x00000000#32) (ix2 p q)
      = ∑ k : Fin 256, A (ix2 p k) * B (ix2 k q) := by
  show FloatOps.matmul dot_S5000x256_S256x128_S5000x128_1_0_0_1_n_n none A B (constant S5000x128 .f32 0x00000000#32) (ix2 p q) = _
  rw [Ideal.matmul_constant_zero_apply,
    ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q)
      ((contrEquiv1 dot_S5000x256_S256x128_S5000x128_1_0_0_1_n_n 256 rfl rfl).symm k) = ix2 p k :=
    funext fun a => Fin.ext (by
      match a with
      | ⟨0, _⟩ => exact lhs128_0 _ _
      | ⟨1, _⟩ => exact (lhs128_1 _ _).trans hk)
  have er : dot_S5000x256_S256x128_S5000x128_1_0_0_1_n_n.rhsIdx (ix2 p q)
      ((contrEquiv1 dot_S5000x256_S256x128_S5000x128_1_0_0_1_n_n 256 rfl rfl).symm k) = ix2 k q :=
    funext fun a => Fin.ext (by
      match a with
      | ⟨0, _⟩ => exact (rhs128_0 _ _).trans hk
      | ⟨1, _⟩ => exact rhs128_1 _ _)
  rw [el, er]

/-! ## The stored value of each region's body at an entry -/

/-- Region 0: entry `(0, p, q)` of the stored block. -/
theorem pay0_apply (x0 : Vec Ideal S5000x256 .f32) (x1 : Vec Ideal S1x5000x1 .f32) (x2 : Vec Ideal S1x256x256 .f32)
    (p : Fin 5000) (q : Fin 256) :
    (k0_pay1 x0 x1 x2 (ix3 (0 : Fin 1) p q) : EReal)
      = ∑ k : Fin 256, ((x0 (ix2 p k) : EReal) * x1 (ix3 (0 : Fin 1) p (0 : Fin 1))) * x2 (ix3 (0 : Fin 1) k q) := by
  unfold k0_pay1
  refine (shapeCast_ab_1ab_apply _ shapeCasts_S5000x256_S1x5000x256 (0 : Fin 1) p q).trans ?_
  refine (matmul256_apply _ _ p q).trans ?_
  refine Finset.sum_congr rfl fun k _ => ?_
  show ((x0 (ix2 p k) : EReal) * broadcastTo S5000x256 (shapeCast S5000x1 x1 shapeCasts_S1x5000x1_S5000x1) broadcasts_S5000x1_S5000x256 (ix2 p k))
      * shapeCast S256x256 x2 shapeCasts_S1x256x256_S256x256 (ix2 k q) = _
  rw [broadcastTo_a1_ab_apply, shapeCast_1ab_ab_apply, shapeCast_1ab_ab_apply]

/-- Region 1: entry `(0, p, q)` of the stored block. -/
theorem pay1_apply (x0 : Vec Ideal S5000x256 .f32) (x1 : Vec Ideal S1x5000x1 .f32) (x2 : Vec Ideal S1x256x256 .f32)
    (p : Fin 5000) (q : Fin 256) :
    (k1_pay1 x0 x1 x2 (ix3 (0 : Fin 1) p q) : EReal)
      = ∑ k : Fin 256, ((x0 (ix2 p k) : EReal) * x1 (ix3 (0 : Fin 1) p (0 : Fin 1))) * x2 (ix3 (0 : Fin 1) k q) := by
  unfold k1_pay1
  refine (shapeCast_ab_1ab_apply _ shapeCasts_S5000x256_S1x5000x256 (0 : Fin 1) p q).trans ?_
  refine (matmul256_apply _ _ p q).trans ?_
  refine Finset.sum_congr rfl fun k _ => ?_
  show ((shapeCast S5000x256 x0 shapeCasts_S5000x256_S5000x256 (ix2 p k) : EReal)
        * broadcastTo S5000x256 (shapeCast S5000x1 x1 shapeCasts_S1x5000x1_S5000x1) broadcasts_S5000x1_S5000x256 (ix2 p k))
      * shapeCast S256x256 x2 shapeCasts_S1x256x256_S256x256 (ix2 k q) = _
  rw [shapeCast_self, broadcastTo_a1_ab_apply, shapeCast_1ab_ab_apply, shapeCast_1ab_ab_apply]

/-- Region 2: entry `(0, p, q)` of the stored block. -/
theorem pay2_apply (x0 : Vec Ideal S5000x256 .f32) (x1 : Vec Ideal S1x5000x1 .f32) (x2 : Vec Ideal S1x256x256 .f32)
    (p : Fin 5000) (q : Fin 256) :
    (k2_pay1 x0 x1 x2 (ix3 (0 : Fin 1) p q) : EReal)
      = ∑ k : Fin 256, ((x0 (ix2 p k) : EReal) * x1 (ix3 (0 : Fin 1) p (0 : Fin 1))) * x2 (ix3 (0 : Fin 1) k q) := by
  unfold k2_pay1
  refine (shapeCast_ab_1ab_apply _ shapeCasts_S5000x256_S1x5000x256 (0 : Fin 1) p q).trans ?_
  refine (matmul256_apply _ _ p q).trans ?_
  refine Finset.sum_congr rfl fun k _ => ?_
  show ((shapeCast S5000x256 x0 shapeCasts_S5000x256_S5000x256 (ix2 p k) : EReal)
        * broadcastTo S5000x256 (shapeCast S5000x1 x1 shapeCasts_S1x5000x1_S5000x1) broadcasts_S5000x1_S5000x256 (ix2 p k))
      * shapeCast S256x256 x2 shapeCasts_S1x256x256_S256x256 (ix2 k q) = _
  rw [shapeCast_self, broadcastTo_a1_ab_apply, shapeCast_1ab_ab_apply, shapeCast_1ab_ab_apply]

/-- Region 3: entry `(0, p, q)` of the stored block, 128 columns. -/
theorem pay3_apply (x0 : Vec Ideal S5000x256 .f32) (x1 : Vec Ideal S1x5000x1 .f32) (x2 : Vec Ideal S1x256x128 .f32)
    (p : Fin 5000) (q : Fin 128) :
    (k3_pay1 x0 x1 x2 (ix3 (0 : Fin 1) p q) : EReal)
      = ∑ k : Fin 256, ((x0 (ix2 p k) : EReal) * x1 (ix3 (0 : Fin 1) p (0 : Fin 1))) * x2 (ix3 (0 : Fin 1) k q) := by
  unfold k3_pay1
  refine (shapeCast_ab_1ab_apply _ shapeCasts_S5000x128_S1x5000x128 (0 : Fin 1) p q).trans ?_
  refine (matmul128_apply _ _ p q).trans ?_
  refine Finset.sum_congr rfl fun k _ => ?_
  show ((shapeCast S5000x256 x0 shapeCasts_S5000x256_S5000x256 (ix2 p k) : EReal)
        * broadcastTo S5000x256 (shapeCast S5000x1 x1 shapeCasts_S1x5000x1_S5000x1) broadcasts_S5000x1_S5000x256 (ix2 p k))
      * shapeCast S256x128 x2 shapeCasts_S1x256x128_S256x128 (ix2 k q) = _
  rw [shapeCast_self, broadcastTo_a1_ab_apply, shapeCast_1ab_ab_apply, shapeCast_1ab_ab_apply]

end Cert.KernelIdeal.Hand.ProjC

end
-- ==== Proof.SpecK.lean ====
import proofs.«111407_j24215025614983_1_alg».proof.Proof.Gen.KernelIdeal
import Idealize.ShloMosaic.PureOps.Ideal
import Idealize.ShloMosaic.Lib.ValueIdx

/-!
The network as functions of whole arrays, written with this program's own printed operations.

Four relations r = 0..3 share one node set of 50000 nodes; relation r has 400000 edges, the edge k going from node
`src[r,k]` to node `dst[r,k]`. One layer maps node features h to

  sum over r of ( A_r ( (h * rsqrt(degOut_r)) W_r ) * rsqrt(degIn_r) + b_r ),

where `degOut_r` / `degIn_r` count the edges leaving / entering each node (at least 1), and `A_r` gathers the
rows of its operand at the edges' sources and adds each into the row of the edge's target. Four layers are
composed, with max(., 0) after the first three.

This file holds the pieces common to both programs: a row of an edge table, the degrees, the gather index with
negative entries wrapped, the aggregation `A_r`, and the bias laid out over all rows.
-/

noncomputable section

namespace Cert.KSpec

open Idealize.ShloMosaic Idealize.ShloMosaic.TcCoe Cert.KernelIdeal Cert.KernelIdeal.Gen

variable {F : FTy → Type} [FloatOps F]

/-- The constant-one weight of every edge. -/
def onesE : Vec F S400000 .f32 := broadcastInDim S400000 ![] bcast_S_S400000 (constant S_ .f32 0x3F800000#32)

/-- An edge vector as one column. -/
def col (v : Vec F S400000 .i32) : Vec F S400000x1 .i32 := (broadcastInDim S400000x1 ![0] bcast_S400000_S400000x1_0 : Vec F S400000 .i32 → Vec F S400000x1 .i32) v

/-- Row `r` of an edge table `[4, 400000]`. -/
def edgeRow (r : Fin 4) (t : Vec F S4x400000 .i32) : Vec F S400000 .i32 :=
  match r with
  | 0 => shapeCast S400000 (extractStridedSlice S1x400000 ![0, 0] t slices_S4x400000_S1x400000_0_0) shapeCasts_S1x400000_S400000
  | 1 => shapeCast S400000 (extractStridedSlice S1x400000 ![1, 0] t slices_S4x400000_S1x400000_1_0) shapeCasts_S1x400000_S400000
  | 2 => shapeCast S400000 (extractStridedSlice S1x400000 ![2, 0] t slices_S4x400000_S1x400000_2_0) shapeCasts_S1x400000_S400000
  | 3 => shapeCast S400000 (extractStridedSlice S1x400000 ![3, 0] t slices_S4x400000_S1x400000_3_0) shapeCasts_S1x400000_S400000

/-- The number of edges of an edge vector at each node, at least one: max(1, sum over the edges at that node of 1). -/
def degOf (e : Vec F S400000 .i32) : Vec F S50000 .f32 :=
  maximumf (broadcastInDim S50000 ![] bcast_S_S50000 (id (constant S_ .f32 0x3F800000#32)))
    (Host.scatterAdd scatter_S50000_S400000x1_S400000_n_0_0_1
      (broadcastInDim S50000 ![] bcast_S_S50000 (constant S_ .f32 0x00000000#32)) (col e) onesE)

/-- The gather index of an edge vector: a negative entry wrapped by 50000, as one column. -/
def wrapIdx (e : Vec F S400000 .i32) : Vec F S400000x1 .i32 :=
  col (select (cmpi .slt e (broadcastInDim S400000 ![] bcast_S_S400000 (constantI S_ 32 0#32)))
    (addi e (broadcastInDim S400000 ![] bcast_S_S400000 (constantI S_ 32 50000#32))) e)

/-- Aggregation over one relation's edges, 256 features: row `n` of the result is the sum, over the edges `k`
    with target `n`, of row `source k` of `hw`. -/
def agg256 (hw : Vec F S50000x256 .f32) (s d : Vec F S400000 .i32) : Vec F S50000x256 .f32 :=
  Host.scatterAdd scatter_S50000x256_S400000x1_S400000x256_1_0_0_1
    (broadcastInDim S50000x256 ![] bcast_S_S50000x256 (constant S_ .f32 0x00000000#32)) (col d)
    (Host.gather gather_S50000x256_S400000x1_S400000x256_1_0_n_n_0_1_1256 hw (wrapIdx s))

/-- The same with 128 features. -/
def agg128 (hw : Vec F S50000x128 .f32) (s d : Vec F S400000 .i32) : Vec F S50000x128 .f32 :=
  Host.scatterAdd scatter_S50000x128_S400000x1_S400000x128_1_0_0_1
    (broadcastInDim S50000x128 ![] bcast_S_S50000x128 (constant S_ .f32 0x00000000#32)) (col d)
    (Host.gather gather_S50000x128_S400000x1_S400000x128_1_0_n_n_0_1_1128 hw (wrapIdx s))

/-- Row `r` of a bias table `[4, 256]`, laid out over all 50000 rows. -/
def bias256 (r : Fin 4) (b : Vec F S4x256 .f32) : Vec F S50000x256 .f32 :=
  match r with
  | 0 => (broadcastInDim S50000x256 ![0, 1] bcast_S1x256_S50000x256_0_1 : Vec F S1x256 .f32 → Vec F S50000x256 .f32) ((broadcastInDim S1x256 ![1] bcast_S256_S1x256_1 : Vec F S256 .f32 → Vec F S1x256 .f32) (shapeCast S256 (extractStridedSlice S1x256 ![0, 0] b slices_S4x256_S1x256_0_0) shapeCasts_S1x256_S256))
  | 1 => (broadcastInDim S50000x256 ![0, 1] bcast_S1x256_S50000x256_0_1 : Vec F S1x256 .f32 → Vec F S50000x256 .f32) ((broadcastInDim S1x256 ![1] bcast_S256_S1x256_1 : Vec F S256 .f32 → Vec F S1x256 .f32) (shapeCast S256 (extractStridedSlice S1x256 ![1, 0] b slices_S4x256_S1x256_1_0) shapeCasts_S1x256_S256))
  | 2 => (broadcastInDim S50000x256 ![0, 1] bcast_S1x256_S50000x256_0_1 : Vec F S1x256 .f32 → Vec F S50000x256 .f32) ((broadcastInDim S1x256 ![1] bcast_S256_S1x256_1 : Vec F S256 .f32 → Vec F S1x256 .f32) (shapeCast S256 (extractStridedSlice S1x256 ![2, 0] b slices_S4x256_S1x256_2_0) shapeCasts_S1x256_S256))
  | 3 => (broadcastInDim S50000x256 ![0, 1] bcast_S1x256_S50000x256_0_1 : Vec F S1x256 .f32 → Vec F S50000x256 .f32) ((broadcastInDim S1x256 ![1] bcast_S256_S1x256_1 : Vec F S256 .f32 → Vec F S1x256 .f32) (shapeCast S256 (extractStridedSlice S1x256 ![3, 0] b slices_S4x256_S1x256_3_0) shapeCasts_S1x256_S256))

/-- Row `r` of a bias table `[4, 128]`, laid out over all 50000 rows. -/
def bias128 (r : Fin 4) (b : Vec F S4x128 .f32) : Vec F S50000x128 .f32 :=
  match r with
  | 0 => (broadcastInDim S50000x128 ![0, 1] bcast_S1x128_S50000x128_0_1 : Vec F S1x128 .f32 → Vec F S50000x128 .f32) ((broadcastInDim S1x128 ![1] bcast_S128_S1x128_1 : Vec F S128 .f32 → Vec F S1x128 .f32) (shapeCast S128 (extractStridedSlice S1x128 ![0, 0] b slices_S4x128_S1x128_0_0) shapeCasts_S1x128_S128))
  | 1 => (broadcastInDim S50000x128 ![0, 1] bcast_S1x128_S50000x128_0_1 : Vec F S1x128 .f32 → Vec F S50000x128 .f32) ((broadcastInDim S1x128 ![1] bcast_S128_S1x128_1 : Vec F S128 .f32 → Vec F S1x128 .f32) (shapeCast S128 (extractStridedSlice S1x128 ![1, 0] b slices_S4x128_S1x128_1_0) shapeCasts_S1x128_S128))
  | 2 => (broadcastInDim S50000x128 ![0, 1] bcast_S1x128_S50000x128_0_1 : Vec F S1x128 .f32 → Vec F S50000x128 .f32) ((broadcastInDim S1x128 ![1] bcast_S128_S1x128_1 : Vec F S128 .f32 → Vec F S1x128 .f32) (shapeCast S128 (extractStridedSlice S1x128 ![2, 0] b slices_S4x128_S1x128_2_0) shapeCasts_S1x128_S128))
  | 3 => (broadcastInDim S50000x128 ![0, 1] bcast_S1x128_S50000x128_0_1 : Vec F S1x128 .f32 → Vec F S50000x128 .f32) ((broadcastInDim S1x128 ![1] bcast_S128_S1x128_1 : Vec F S128 .f32 → Vec F S1x128 .f32) (shapeCast S128 (extractStridedSlice S1x128 ![3, 0] b slices_S4x128_S1x128_3_0) shapeCasts_S1x128_S128))

/-- max(., 0) on 256 features. -/
def relu256 (x : Vec F S50000x256 .f32) : Vec F S50000x256 .f32 :=
  maximumf x (broadcastInDim S50000x256 ![] bcast_S_S50000x256 (constant S_ .f32 0x00000000#32))

/-! ## The kernel program's own arrangement

The degrees are computed once: the four relations' degree vectors are stacked into `[4, 50000]`, rsqrt is taken,
and a unit axis is added. The projection `(h * rsqrt(degOut_r)) W_r` of all four relations is one array
`[4, 50000, N]`; the layer's sum starts from zero and adds, per relation, the scaled aggregate and then the bias. -/

/-- A node vector as one row. -/
def row (v : Vec F S50000 .f32) : Vec F S1x50000 .f32 := (broadcastInDim S1x50000 ![1] bcast_S50000_S1x50000_1 : Vec F S50000 .f32 → Vec F S1x50000 .f32) v

/-- rsqrt of the four relations' degrees, stacked: entry (r, n, 0) is rsqrt of relation r's degree at node n. -/
def degScale (t : Vec F S4x400000 .i32) : Vec F S4x50000x1 .f32 :=
  (broadcastInDim S4x50000x1 ![0, 1] bcast_S4x50000_S4x50000x1_0_1 : Vec F S4x50000 .f32 → Vec F S4x50000x1 .f32)
    (Host.rsqrt (concatenate S4x50000 0 [⟨S1x50000, row (degOf (edgeRow 0 t))⟩, ⟨S1x50000, row (degOf (edgeRow 1 t))⟩,
      ⟨S1x50000, row (degOf (edgeRow 2 t))⟩, ⟨S1x50000, row (degOf (edgeRow 3 t))⟩]
      concatenates_S1x50000_S1x50000_S1x50000_S1x50000_S4x50000_d0))

/-- Relation `r`'s `[50000, 256]` slice of the stacked projections. -/
def hwSlice256 (r : Fin 4) (HW : Vec F S4x50000x256 .f32) : Vec F S50000x256 .f32 :=
  match r with
  | 0 => shapeCast S50000x256 (extractStridedSlice S1x50000x256 ![0, 0, 0] HW slices_S4x50000x256_S1x50000x256_0_0_0) shapeCasts_S1x50000x256_S50000x256
  | 1 => shapeCast S50000x256 (extractStridedSlice S1x50000x256 ![1, 0, 0] HW slices_S4x50000x256_S1x50000x256_1_0_0) shapeCasts_S1x50000x256_S50000x256
  | 2 => shapeCast S50000x256 (extractStridedSlice S1x50000x256 ![2, 0, 0] HW slices_S4x50000x256_S1x50000x256_2_0_0) shapeCasts_S1x50000x256_S50000x256
  | 3 => shapeCast S50000x256 (extractStridedSlice S1x50000x256 ![3, 0, 0] HW slices_S4x50000x256_S1x50000x256_3_0_0) shapeCasts_S1x50000x256_S50000x256

/-- Relation `r`'s `[50000, 128]` slice of the stacked projections. -/
def hwSlice128 (r : Fin 4) (HW : Vec F S4x50000x128 .f32) : Vec F S50000x128 .f32 :=
  match r with
  | 0 => shapeCast S50000x128 (extractStridedSlice S1x50000x128 ![0, 0, 0] HW slices_S4x50000x128_S1x50000x128_0_0_0) shapeCasts_S1x50000x128_S50000x128
  | 1 => shapeCast S50000x128 (extractStridedSlice S1x50000x128 ![1, 0, 0] HW slices_S4x50000x128_S1x50000x128_1_0_0) shapeCasts_S1x50000x128_S50000x128
  | 2 => shapeCast S50000x128 (extractStridedSlice S1x50000x128 ![2, 0, 0] HW slices_S4x50000x128_S1x50000x128_2_0_0) shapeCasts_S1x50000x128_S50000x128
  | 3 => shapeCast S50000x128 (extractStridedSlice S1x50000x128 ![3, 0, 0] HW slices_S4x50000x128_S1x50000x128_3_0_0) shapeCasts_S1x50000x128_S50000x128

/-- Relation `r`'s column of the stacked degree scale, laid out over 256 columns. -/
def scaleCol256 (r : Fin 4) (D : Vec F S4x50000x1 .f32) : Vec F S50000x256 .f32 :=
  match r with
  | 0 => (broadcastInDim S50000x256 ![0, 1] bcast_S50000x1_S50000x256_0_1 : Vec F S50000x1 .f32 → Vec F S50000x256 .f32) (shapeCast S50000x1 (extractStridedSlice S1x50000x1 ![0, 0, 0] D slices_S4x50000x1_S1x50000x1_0_0_0) shapeCasts_S1x50000x1_S50000x1)
  | 1 => (broadcastInDim S50000x256 ![0, 1] bcast_S50000x1_S50000x256_0_1 : Vec F S50000x1 .f32 → Vec F S50000x256 .f32) (shapeCast S50000x1 (extractStridedSlice S1x50000x1 ![1, 0, 0] D slices_S4x50000x1_S1x50000x1_1_0_0) shapeCasts_S1x50000x1_S50000x1)
  | 2 => (broadcastInDim S50000x256 ![0, 1] bcast_S50000x1_S50000x256_0_1 : Vec F S50000x1 .f32 → Vec F S50000x256 .f32) (shapeCast S50000x1 (extractStridedSlice S1x50000x1 ![2, 0, 0] D slices_S4x50000x1_S1x50000x1_2_0_0) shapeCasts_S1x50000x1_S50000x1)
  | 3 => (broadcastInDim S50000x256 ![0, 1] bcast_S50000x1_S50000x256_0_1 : Vec F S50000x1 .f32 → Vec F S50000x256 .f32) (shapeCast S50000x1 (extractStridedSlice S1x50000x1 ![3, 0, 0] D slices_S4x50000x1_S1x50000x1_3_0_0) shapeCasts_S1x50000x1_S50000x1)

/-- Relation `r`'s column of the stacked degree scale, laid out over 128 columns. -/
def scaleCol128 (r : Fin 4) (D : Vec F S4x50000x1 .f32) : Vec F S50000x128 .f32 :=
  match r with
  | 0 => (broadcastInDim S50000x128 ![0, 1] bcast_S50000x1_S50000x128_0_1 : Vec F S50000x1 .f32 → Vec F S50000x128 .f32) (shapeCast S50000x1 (extractStridedSlice S1x50000x1 ![0, 0, 0] D slices_S4x50000x1_S1x50000x1_0_0_0) shapeCasts_S1x50000x1_S50000x1)
  | 1 => (broadcastInDim S50000x128 ![0, 1] bcast_S50000x1_S50000x128_0_1 : Vec F S50000x1 .f32 → Vec F S50000x128 .f32) (shapeCast S50000x1 (extractStridedSlice S1x50000x1 ![1, 0, 0] D slices_S4x50000x1_S1x50000x1_1_0_0) shapeCasts_S1x50000x1_S50000x1)
  | 2 => (broadcastInDim S50000x128 ![0, 1] bcast_S50000x1_S50000x128_0_1 : Vec F S50000x1 .f32 → Vec F S50000x128 .f32) (shapeCast S50000x1 (extractStridedSlice S1x50000x1 ![2, 0, 0] D slices_S4x50000x1_S1x50000x1_2_0_0) shapeCasts_S1x50000x1_S50000x1)
  | 3 => (broadcastInDim S50000x128 ![0, 1] bcast_S50000x1_S50000x128_0_1 : Vec F S50000x1 .f32 → Vec F S50000x128 .f32) (shapeCast S50000x1 (extractStridedSlice S1x50000x1 ![3, 0, 0] D slices_S4x50000x1_S1x50000x1_3_0_0) shapeCasts_S1x50000x1_S50000x1)

/-- The running sum after relation `r`: acc + A_r(hw_r) * rsqrt(degIn_r) + b_r. -/
def step256 (r : Fin 4) (acc : Vec F S50000x256 .f32) (HW : Vec F S4x50000x256 .f32) (D : Vec F S4x50000x1 .f32)
    (s d : Vec F S4x400000 .i32) (b : Vec F S4x256 .f32) : Vec F S50000x256 .f32 :=
  addf (addf acc (mulf (agg256 (hwSlice256 r HW) (edgeRow r s) (edgeRow r d)) (scaleCol256 r D))) (bias256 r b)

def step128 (r : Fin 4) (acc : Vec F S50000x128 .f32) (HW : Vec F S4x50000x128 .f32) (D : Vec F S4x50000x1 .f32)
    (s d : Vec F S4x400000 .i32) (b : Vec F S4x128 .f32) : Vec F S50000x128 .f32 :=
  addf (addf acc (mulf (agg128 (hwSlice128 r HW) (edgeRow r s) (edgeRow r d)) (scaleCol128 r D))) (bias128 r b)

/-- The layer's sum over the four relations, from the stacked projections `HW` and the stacked target scale `D`. -/
def tail256 (HW : Vec F S4x50000x256 .f32) (D : Vec F S4x50000x1 .f32) (s d : Vec F S4x400000 .i32) (b : Vec F S4x256 .f32) :
    Vec F S50000x256 .f32 :=
  step256 3 (step256 2 (step256 1 (step256 0
    (broadcastInDim S50000x256 ![] bcast_S_S50000x256 (constant S_ .f32 0x00000000#32)) HW D s d b) HW D s d b) HW D s d b) HW D s d b

def tail128 (HW : Vec F S4x50000x128 .f32) (D : Vec F S4x50000x1 .f32) (s d : Vec F S4x400000 .i32) (b : Vec F S4x128 .f32) :
    Vec F S50000x128 .f32 :=
  step128 3 (step128 2 (step128 1 (step128 0
    (broadcastInDim S50000x128 ![] bcast_S_S50000x128 (constant S_ .f32 0x00000000#32)) HW D s d b) HW D s d b) HW D s d b) HW D s d b

open ValueIdx in
/-- Entry (r, n, j) of the stacked projections at the ideal values: the sum over k of (h(n,k) * D(r,n,0)) * W(r,k,j). -/
def projAt256 (h : S50000x256.Idx → EReal) (D : S4x50000x1.Idx → EReal) (W : S4x256x256.Idx → EReal)
    (r : Fin 4) (n : Fin 50000) (j : Fin 256) : EReal :=
  ∑ k : Fin 256, (h (ix2 n k) * D (ix3 r n (0 : Fin 1))) * W (ix3 r k j)

open ValueIdx in
def projAt128 (h : S50000x256.Idx → EReal) (D : S4x50000x1.Idx → EReal) (W : S4x256x128.Idx → EReal)
    (r : Fin 4) (n : Fin 50000) (j : Fin 128) : EReal :=
  ∑ k : Fin 256, (h (ix2 n k) * D (ix3 r n (0 : Fin 1))) * W (ix3 r k j)

/-- The stacked projections `[4, 50000, 256]` as one array. -/
def proj256 (h : Vec Ideal S50000x256 .f32) (D : Vec Ideal S4x50000x1 .f32) (W : Vec Ideal S4x256x256 .f32) :
    Vec Ideal S4x50000x256 .f32 := fun i => projAt256 h D W (i 0) (i 1) (i 2)

def proj128 (h : Vec Ideal S50000x256 .f32) (D : Vec Ideal S4x50000x1 .f32) (W : Vec Ideal S4x256x128 .f32) :
    Vec Ideal S4x50000x128 .f32 := fun i => projAt128 h D W (i 0) (i 1) (i 2)

/-- One layer of the kernel program, 256 output features. -/
def layer256 (h : Vec Ideal S50000x256 .f32) (W : Vec Ideal S4x256x256 .f32) (b : Vec Ideal S4x256 .f32)
    (s d : Vec Ideal S4x400000 .i32) : Vec Ideal S50000x256 .f32 :=
  tail256 (proj256 h (degScale s) W) (degScale d) s d b

def layer128 (h : Vec Ideal S50000x256 .f32) (W : Vec Ideal S4x256x128 .f32) (b : Vec Ideal S4x128 .f32)
    (s d : Vec Ideal S4x400000 .i32) : Vec Ideal S50000x128 .f32 :=
  tail128 (proj128 h (degScale s) W) (degScale d) s d b

/-- The kernel program's result. -/
def net (x : Vec Ideal S50000x256 .f32) (W1 : Vec Ideal S4x256x256 .f32) (b1 : Vec Ideal S4x256 .f32)
    (W2 : Vec Ideal S4x256x256 .f32) (b2 : Vec Ideal S4x256 .f32) (W3 : Vec Ideal S4x256x256 .f32) (b3 : Vec Ideal S4x256 .f32)
    (W4 : Vec Ideal S4x256x128 .f32) (b4 : Vec Ideal S4x128 .f32) (s d : Vec Ideal S4x400000 .i32) : Vec Ideal S50000x128 .f32 :=
  layer128 (relu256 (layer256 (relu256 (layer256 (relu256 (layer256 x W1 b1 s d)) W2 b2 s d)) W3 b3 s d)) W4 b4 s d

end Cert.KSpec

end
-- ==== Proof.KI.ProjValue0.lean ====
import proofs.«111407_j24215025614983_1_alg».proof.Proof.KI.Reg0
import proofs.«111407_j24215025614983_1_alg».proof.Proof.KI.ProjPay
import proofs.«111407_j24215025614983_1_alg».proof.Proof.SpecK
import Idealize.ShloMosaic.Lib.Pipeline.Value

/-!
What region 0 leaves in its output array, at the ideal values.

The grid has 10 × 4 points. The point `(i, r)` reads rows `5000 i … 5000 i + 4999` of the features, the same rows of
relation `r`'s degree scale and relation `r`'s weight matrix, and writes the product into block `(r, i)` of the
output array `[4, 50000, 256]`. Each block read is the array at block index × block size + the coordinate inside the
block, so the entry `(0, p, q)` of what the point writes back is entry `(r, 5000 i + p, q)` of the stacked projections

  (r, n, j) ↦ sum over k of (h(n, k) * D(r, n, 0)) * W(r, k, j),

and the forty blocks fill the array: the entry `(r, n, j)` lies in the block of the point `(n / 5000, r)`.
-/

noncomputable section

namespace Cert.KernelIdeal.Hand.ProjC

open Idealize.ShloMosaic Idealize.ShloMosaic.TcCoe Idealize.ShloMosaic.ValueIdx
open Idealize.ShloMosaic.Pipeline (Dat)
open Cert.KernelIdeal Cert.KernelIdeal.Gen Cert.KernelIdeal.Hand

theorem hz2_0 : (![0, 0] : Fin 2 → Nat) = fun _ => 0 := funext fun a => by fin_cases a <;> rfl
theorem hz3_0 : (![0, 0, 0] : Fin 3 → Nat) = fun _ => 0 := funext fun a => by fin_cases a <;> rfl

/-- The four index maps, decided over the grid: the features' block follows the output's row block, the scale's
    block the output's relation and row block, the weight's block the output's relation; every other block index
    is zero. -/
theorem idx_facts0 : ∀ t : Fin cfg0.N,
      win0_0.index t (0 : Fin 2) = win0_3.index t (1 : Fin 3) ∧ win0_0.index t (1 : Fin 2) = 0
    ∧ win0_1.index t (0 : Fin 3) = win0_3.index t (0 : Fin 3) ∧ win0_1.index t (1 : Fin 3) = win0_3.index t (1 : Fin 3)
    ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 3 ∧ win0_3.index t (1 : Fin 3) ≤ 9 ∧ win0_3.index t (2 : Fin 3) = 0 :=
  (by decide +kernel : ∀ t : Fin grid0.N, _)

/-- Every block `(r, i, 0)` of the output array is some point's. -/
theorem idx_onto0 : ∀ (r : Fin 4) (i : Fin 10), ∃ t : Fin cfg0.N, win0_3.index t = ![r.val, i.val, 0] :=
  (by decide +kernel : ∀ (r : Fin 4) (i : Fin 10), ∃ t : Fin grid0.N, win0_3.index t = ![r.val, i.val, 0])

variable (V : (c : Dev nD) → (b : Ref sig .tc) → Buf (Elt Ideal) ((c : Thread nD τ).loc b))

/-- Window 0's block at point `t` holds rows `5000 i … 5000 i + 4999` of the features. -/
theorem read0_0 (c : Dev nD) (t : Fin cfg0.N) (p : Fin 5000) (k : Fin 256) (n : Fin 50000)
    (hn : n.val = win0_0.index t (0 : Fin 2) * 5000 + p.val) (h1 : win0_0.index t (1 : Fin 2) = 0) :
    (iblk0 V c 0 t (ix2 p k) : EReal) = (V c main_arg0 : S50000x256.Idx → EReal) (ix2 n k) := by
  unfold iblk0
  rw [View.read_apply]
  show (V c main_arg0 : S50000x256.Idx → EReal) (((cfg0.win 0).blk t).view.emb (ix2 p k)) = _
  refine congrArg (V c main_arg0 : S50000x256.Idx → EReal) (funext fun a => Fin.ext ?_)
  have hp : p.val < 5000 := p.isLt
  match a with
  | ⟨0, _⟩ => show win0_0.index t (0 : Fin 2) * 5000 + 1 * p.val = n.val; omega
  | ⟨1, _⟩ => show win0_0.index t (1 : Fin 2) * 256 + 1 * k.val = k.val; omega

/-- Window 1's block at point `t` holds entries `5000 i … 5000 i + 4999` of relation `r`'s degree scale. -/
theorem read0_1 (c : Dev nD) (t : Fin cfg0.N) (p : Fin 5000) (r : Fin 4) (n : Fin 50000)
    (hr : r.val = win0_1.index t (0 : Fin 3)) (hn : n.val = win0_1.index t (1 : Fin 3) * 5000 + p.val)
    (h2 : win0_1.index t (2 : Fin 3) = 0) :
    (iblk0 V c 1 t (ix3 (0 : Fin 1) p (0 : Fin 1)) : EReal) = (V c main_v60 : S4x50000x1.Idx → EReal) (ix3 r n (0 : Fin 1)) := by
  unfold iblk0
  rw [View.read_apply]
  show (V c main_v60 : S4x50000x1.Idx → EReal) (((cfg0.win 1).blk t).view.emb (ix3 (0 : Fin 1) p (0 : Fin 1))) = _
  refine congrArg (V c main_v60 : S4x50000x1.Idx → EReal) (funext fun a => Fin.ext ?_)
  match a with
  | ⟨0, _⟩ => show win0_1.index t (0 : Fin 3) * 1 + 1 * 0 = r.val; omega
  | ⟨1, _⟩ => show win0_1.index t (1 : Fin 3) * 5000 + 1 * p.val = n.val; omega
  | ⟨2, _⟩ => show win0_1.index t (2 : Fin 3) * 1 + 1 * 0 = 0; omega

/-- Window 2's block at point `t` is relation `r`'s weight matrix. -/
theorem read0_2 (c : Dev nD) (t : Fin cfg0.N) (k : Fin 256) (q jj : Fin 256) (r : Fin 4)
    (hr : r.val = win0_2.index t (0 : Fin 3)) (h1 : win0_2.index t (1 : Fin 3) = 0)
    (hj : jj.val = win0_2.index t (2 : Fin 3) * 256 + q.val) :
    (iblk0 V c 2 t (ix3 (0 : Fin 1) k q) : EReal) = (V c main_arg1 : S4x256x256.Idx → EReal) (ix3 r k jj) := by
  unfold iblk0
  rw [View.read_apply]
  show (V c main_arg1 : S4x256x256.Idx → EReal) (((cfg0.win 2).blk t).view.emb (ix3 (0 : Fin 1) k q)) = _
  refine congrArg (V c main_arg1 : S4x256x256.Idx → EReal) (funext fun a => Fin.ext ?_)
  match a with
  | ⟨0, _⟩ => show win0_2.index t (0 : Fin 3) * 1 + 1 * 0 = r.val; omega
  | ⟨1, _⟩ => show win0_2.index t (1 : Fin 3) * 256 + 1 * k.val = k.val; omega
  | ⟨2, _⟩ => show win0_2.index t (2 : Fin 3) * 256 + 1 * q.val = jj.val; omega

/-- The body's result at point `t`, entry `(0, p, q)`, is the stacked projection at the entry's place in the array. -/
theorem block0_entry (c : Dev nD) (t : Fin cfg0.N) (p : Fin 5000) (q : Fin 256) :
    (k0_pay1 (iblk0 V c 0 t) (iblk0 V c 1 t) (iblk0 V c 2 t) (ix3 (0 : Fin 1) p q) : EReal)
      = Cert.KSpec.proj256 (V c main_arg0) (V c main_v60) (V c main_arg1)
          (((cfg0.win 3).blk t).view.emb (ix3 (0 : Fin 1) p q)) := by
  obtain ⟨e0, e1, e2, e3, e4, e5, e6, e7, b0, b1, e8⟩ := idx_facts0 t
  refine (pay0_apply _ _ _ p q).trans ?_
  generalize hi : ((cfg0.win 3).blk t).view.emb (ix3 (0 : Fin 1) p q) = i
  have hr : (i 0).val = win0_3.index t (0 : Fin 3) * 1 + 1 * 0 := by rw [← hi]; rfl
  have hn : (i 1).val = win0_3.index t (1 : Fin 3) * 5000 + 1 * p.val := by rw [← hi]; rfl
  have hq : (i 2).val = win0_3.index t (2 : Fin 3) * 256 + 1 * q.val := by rw [← hi]; rfl
  clear hi
  unfold Cert.KSpec.proj256 Cert.KSpec.projAt256
  refine Finset.sum_congr rfl fun k _ => ?_
  rw [read0_0 V c t p k (i 1) (by omega) e1, read0_1 V c t p (i 0) (i 1) (by omega) (by omega) e4,
    read0_2 V c t k q (i 2) (i 0) (by omega) e6 (by omega)]

/-- What point `t` writes back is block `t` of the stacked projections. -/
theorem flushed0_eq (c : Dev nD) (t : Fin cfg0.N) :
    (dat0 (F := Ideal) V c).flushed 3 t
      = ((cfg0.win 3).blk t).view.read (Elt Ideal) (Cert.KSpec.proj256 (V c main_arg0) (V c main_v60) (V c main_arg1)) := by
  show (cfg0.win 3).cut (grid0.coords t) ((dat0 V c).after 3 t) = _
  rw [after0_3]
  unfold out0_3
  rw [View.canon_unit_zero hz3_0]
  simp only [View.ld_unit_zero (S := S5000x256) hz2_0, View.ld_unit_zero (S := S1x5000x1) hz3_0, View.ld_unit_zero (S := S1x256x256) hz3_0]
  funext j
  rw [View.read_apply]
  obtain ⟨p, q, rfl⟩ : ∃ (p : Fin 5000) (q : Fin 256), j = ix3 (0 : Fin 1) p q :=
    ⟨j 1, j 2, funext fun a => by
      match a with
      | ⟨0, _⟩ => exact Fin.ext (by have h : (j 0).val < 1 := (j 0).isLt; show (j 0).val = 0; omega)
      | ⟨1, _⟩ => rfl
      | ⟨2, _⟩ => rfl⟩
  exact block0_entry V c t p q

/-- An index of the array is in point `t`'s block iff each coordinate is in the block's range on its axis. -/
theorem mem_blk0 (t : Fin cfg0.N) (i : S4x50000x256.Idx) :
    i ∈ ((cfg0.win 3).blk t).view.set ↔ ∀ a : Fin 3, win0_3.index t a * S1x5000x256.size a ≤ (i a).val
      ∧ (i a).val < win0_3.index t a * S1x5000x256.size a + S1x5000x256.size a := by
  show i ∈ ((View.whole main_v63).slice (win0_3.rect t)).set ↔ _
  rw [View.set_slice_whole, Rect.mem_set_unit]
  exact Iff.rfl

/-- Every entry `(r, n, j)` of the array lies in the block of the point `(n / 5000, r)`, which writes it back. -/
theorem cover0 (i : S4x50000x256.Idx) :
    ∃ t : Fin cfg0.N, (cfg0.win 3).flush t = true ∧ i ∈ ((cfg0.win 3).blk t).view.set := by
  have hi0 : (i 0).val < 4 := (i 0).isLt
  have hi1 : (i 1).val < 50000 := (i 1).isLt
  have hi2 : (i 2).val < 256 := (i 2).isLt
  obtain ⟨t, ht⟩ := idx_onto0 ⟨(i 0).val, hi0⟩ ⟨(i 1).val / 5000, by omega⟩
  have q0 : win0_3.index t (0 : Fin 3) = (i 0).val := congrFun ht 0
  have q1 : win0_3.index t (1 : Fin 3) = (i 1).val / 5000 := congrFun ht 1
  have q2 : win0_3.index t (2 : Fin 3) = 0 := congrFun ht 2
  refine ⟨t, flush0_3 t, ?_⟩
  rw [mem_blk0]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 5000 ≤ (i 1).val ∧ (i 1).val < win0_3.index t (1 : Fin 3) * 5000 + 5000; omega
  | ⟨2, _⟩ => show win0_3.index t (2 : Fin 3) * 256 ≤ (i 2).val ∧ (i 2).val < win0_3.index t (2 : Fin 3) * 256 + 256; omega

end Cert.KernelIdeal.Hand.ProjC

namespace Cert.KernelIdeal.Hand

open Idealize.ShloMosaic Idealize.ShloMosaic.TcCoe
open Cert.KernelIdeal Cert.KernelIdeal.Gen

/-- After region 0 its output array holds the stacked projections of the features it was given. -/
theorem proj_value0 (V : (c : Dev nD) → (b : Ref sig .tc) → Buf (Elt Ideal) ((c : Thread nD τ).loc b)) (c : Dev nD) :
    ((dat0 (F := Ideal) V c).arrAt 3 cfg0.N : S4x50000x256.Idx → EReal)
      = Cert.KSpec.proj256 (V c main_arg0) (V c main_v60) (V c main_arg1) :=
  (dat0 (F := Ideal) V c).arrAt_eq_of_cover 3 (Cert.KSpec.proj256 (V c main_arg0) (V c main_v60) (V c main_arg1))
    (fun t _ => ProjC.flushed0_eq V c t) ProjC.cover0

end Cert.KernelIdeal.Hand

end
-- ==== Proof.KI.ProjValue1.lean ====
import proofs.«111407_j24215025614983_1_alg».proof.Proof.KI.Reg1
import proofs.«111407_j24215025614983_1_alg».proof.Proof.KI.ProjPay
import proofs.«111407_j24215025614983_1_alg».proof.Proof.SpecK
import Idealize.ShloMosaic.Lib.Pipeline.Value

/-!
What region 1 leaves in its output array, at the ideal values.

The grid has 10 × 4 points. The point `(i, r)` reads rows `5000 i … 5000 i + 4999` of the features, the same rows of
relation `r`'s degree scale and relation `r`'s weight matrix, and writes the product into block `(r, i)` of the
output array `[4, 50000, 256]`. Each block read is the array at block index × block size + the coordinate inside the
block, so the entry `(0, p, q)` of what the point writes back is entry `(r, 5000 i + p, q)` of the stacked projections

  (r, n, j) ↦ sum over k of (h(n, k) * D(r, n, 0)) * W(r, k, j),

and the forty blocks fill the array: the entry `(r, n, j)` lies in the block of the point `(n / 5000, r)`.
-/

noncomputable section

namespace Cert.KernelIdeal.Hand.ProjC

open Idealize.ShloMosaic Idealize.ShloMosaic.TcCoe Idealize.ShloMosaic.ValueIdx
open Idealize.ShloMosaic.Pipeline (Dat)
open Cert.KernelIdeal Cert.KernelIdeal.Gen Cert.KernelIdeal.Hand

theorem hz2_1 : (![0, 0] : Fin 2 → Nat) = fun _ => 0 := funext fun a => by fin_cases a <;> rfl
theorem hz3_1 : (![0, 0, 0] : Fin 3 → Nat) = fun _ => 0 := funext fun a => by fin_cases a <;> rfl

/-- The four index maps, decided over the grid: the features' block follows the output's row block, the scale's
    block the output's relation and row block, the weight's block the output's relation; every other block index
    is zero. -/
theorem idx_facts1 : ∀ t : Fin cfg1.N,
      win1_0.index t (0 : Fin 2) = win1_3.index t (1 : Fin 3) ∧ win1_0.index t (1 : Fin 2) = 0
    ∧ win1_1.index t (0 : Fin 3) = win1_3.index t (0 : Fin 3) ∧ win1_1.index t (1 : Fin 3) = win1_3.index t (1 : Fin 3)
    ∧ win1_1.index t (2 : Fin 3) = 0
    ∧ win1_2.index t (0 : Fin 3) = win1_3.index t (0 : Fin 3) ∧ win1_2.index t (1 : Fin 3) = 0 ∧ win1_2.index t (2 : Fin 3) = 0
    ∧ win1_3.index t (0 : Fin 3) ≤ 3 ∧ win1_3.index t (1 : Fin 3) ≤ 9 ∧ win1_3.index t (2 : Fin 3) = 0 :=
  (by decide +kernel : ∀ t : Fin grid1.N, _)

/-- Every block `(r, i, 0)` of the output array is some point's. -/
theorem idx_onto1 : ∀ (r : Fin 4) (i : Fin 10), ∃ t : Fin cfg1.N, win1_3.index t = ![r.val, i.val, 0] :=
  (by decide +kernel : ∀ (r : Fin 4) (i : Fin 10), ∃ t : Fin grid1.N, win1_3.index t = ![r.val, i.val, 0])

variable (V : (c : Dev nD) → (b : Ref sig .tc) → Buf (Elt Ideal) ((c : Thread nD τ).loc b))

/-- Window 0's block at point `t` holds rows `5000 i … 5000 i + 4999` of the features. -/
theorem read1_0 (c : Dev nD) (t : Fin cfg1.N) (p : Fin 5000) (k : Fin 256) (n : Fin 50000)
    (hn : n.val = win1_0.index t (0 : Fin 2) * 5000 + p.val) (h1 : win1_0.index t (1 : Fin 2) = 0) :
    (iblk1 V c 0 t (ix2 p k) : EReal) = (V c main_v169 : S50000x256.Idx → EReal) (ix2 n k) := by
  unfold iblk1
  rw [View.read_apply]
  show (V c main_v169 : S50000x256.Idx → EReal) (((cfg1.win 0).blk t).view.emb (ix2 p k)) = _
  refine congrArg (V c main_v169 : S50000x256.Idx → EReal) (funext fun a => Fin.ext ?_)
  have hp : p.val < 5000 := p.isLt
  match a with
  | ⟨0, _⟩ => show win1_0.index t (0 : Fin 2) * 5000 + 1 * p.val = n.val; omega
  | ⟨1, _⟩ => show win1_0.index t (1 : Fin 2) * 256 + 1 * k.val = k.val; omega

/-- Window 1's block at point `t` holds entries `5000 i … 5000 i + 4999` of relation `r`'s degree scale. -/
theorem read1_1 (c : Dev nD) (t : Fin cfg1.N) (p : Fin 5000) (r : Fin 4) (n : Fin 50000)
    (hr : r.val = win1_1.index t (0 : Fin 3)) (hn : n.val = win1_1.index t (1 : Fin 3) * 5000 + p.val)
    (h2 : win1_1.index t (2 : Fin 3) = 0) :
    (iblk1 V c 1 t (ix3 (0 : Fin 1) p (0 : Fin 1)) : EReal) = (V c main_v60 : S4x50000x1.Idx → EReal) (ix3 r n (0 : Fin 1)) := by
  unfold iblk1
  rw [View.read_apply]
  show (V c main_v60 : S4x50000x1.Idx → EReal) (((cfg1.win 1).blk t).view.emb (ix3 (0 : Fin 1) p (0 : Fin 1))) = _
  refine congrArg (V c main_v60 : S4x50000x1.Idx → EReal) (funext fun a => Fin.ext ?_)
  match a with
  | ⟨0, _⟩ => show win1_1.index t (0 : Fin 3) * 1 + 1 * 0 = r.val; omega
  | ⟨1, _⟩ => show win1_1.index t (1 : Fin 3) * 5000 + 1 * p.val = n.val; omega
  | ⟨2, _⟩ => show win1_1.index t (2 : Fin 3) * 1 + 1 * 0 = 0; omega

/-- Window 2's block at point `t` is relation `r`'s weight matrix. -/
theorem read1_2 (c : Dev nD) (t : Fin cfg1.N) (k : Fin 256) (q jj : Fin 256) (r : Fin 4)
    (hr : r.val = win1_2.index t (0 : Fin 3)) (h1 : win1_2.index t (1 : Fin 3) = 0)
    (hj : jj.val = win1_2.index t (2 : Fin 3) * 256 + q.val) :
    (iblk1 V c 2 t (ix3 (0 : Fin 1) k q) : EReal) = (V c main_arg3 : S4x256x256.Idx → EReal) (ix3 r k jj) := by
  unfold iblk1
  rw [View.read_apply]
  show (V c main_arg3 : S4x256x256.Idx → EReal) (((cfg1.win 2).blk t).view.emb (ix3 (0 : Fin 1) k q)) = _
  refine congrArg (V c main_arg3 : S4x256x256.Idx → EReal) (funext fun a => Fin.ext ?_)
  match a with
  | ⟨0, _⟩ => show win1_2.index t (0 : Fin 3) * 1 + 1 * 0 = r.val; omega
  | ⟨1, _⟩ => show win1_2.index t (1 : Fin 3) * 256 + 1 * k.val = k.val; omega
  | ⟨2, _⟩ => show win1_2.index t (2 : Fin 3) * 256 + 1 * q.val = jj.val; omega

/-- The body's result at point `t`, entry `(0, p, q)`, is the stacked projection at the entry's place in the array. -/
theorem block1_entry (c : Dev nD) (t : Fin cfg1.N) (p : Fin 5000) (q : Fin 256) :
    (k1_pay1 (iblk1 V c 0 t) (iblk1 V c 1 t) (iblk1 V c 2 t) (ix3 (0 : Fin 1) p q) : EReal)
      = Cert.KSpec.proj256 (V c main_v169) (V c main_v60) (V c main_arg3)
          (((cfg1.win 3).blk t).view.emb (ix3 (0 : Fin 1) p q)) := by
  obtain ⟨e0, e1, e2, e3, e4, e5, e6, e7, b0, b1, e8⟩ := idx_facts1 t
  refine (pay1_apply _ _ _ p q).trans ?_
  generalize hi : ((cfg1.win 3).blk t).view.emb (ix3 (0 : Fin 1) p q) = i
  have hr : (i 0).val = win1_3.index t (0 : Fin 3) * 1 + 1 * 0 := by rw [← hi]; rfl
  have hn : (i 1).val = win1_3.index t (1 : Fin 3) * 5000 + 1 * p.val := by rw [← hi]; rfl
  have hq : (i 2).val = win1_3.index t (2 : Fin 3) * 256 + 1 * q.val := by rw [← hi]; rfl
  clear hi
  unfold Cert.KSpec.proj256 Cert.KSpec.projAt256
  refine Finset.sum_congr rfl fun k _ => ?_
  rw [read1_0 V c t p k (i 1) (by omega) e1, read1_1 V c t p (i 0) (i 1) (by omega) (by omega) e4,
    read1_2 V c t k q (i 2) (i 0) (by omega) e6 (by omega)]

/-- What point `t` writes back is block `t` of the stacked projections. -/
theorem flushed1_eq (c : Dev nD) (t : Fin cfg1.N) :
    (dat1 (F := Ideal) V c).flushed 3 t
      = ((cfg1.win 3).blk t).view.read (Elt Ideal) (Cert.KSpec.proj256 (V c main_v169) (V c main_v60) (V c main_arg3)) := by
  show (cfg1.win 3).cut (grid1.coords t) ((dat1 V c).after 3 t) = _
  rw [after1_3]
  unfold out1_3
  rw [View.canon_unit_zero hz3_1]
  simp only [View.ld_unit_zero (S := S5000x256) hz2_1, View.ld_unit_zero (S := S1x5000x1) hz3_1, View.ld_unit_zero (S := S1x256x256) hz3_1]
  funext j
  rw [View.read_apply]
  obtain ⟨p, q, rfl⟩ : ∃ (p : Fin 5000) (q : Fin 256), j = ix3 (0 : Fin 1) p q :=
    ⟨j 1, j 2, funext fun a => by
      match a with
      | ⟨0, _⟩ => exact Fin.ext (by have h : (j 0).val < 1 := (j 0).isLt; show (j 0).val = 0; omega)
      | ⟨1, _⟩ => rfl
      | ⟨2, _⟩ => rfl⟩
  exact block1_entry V c t p q

/-- An index of the array is in point `t`'s block iff each coordinate is in the block's range on its axis. -/
theorem mem_blk1 (t : Fin cfg1.N) (i : S4x50000x256.Idx) :
    i ∈ ((cfg1.win 3).blk t).view.set ↔ ∀ a : Fin 3, win1_3.index t a * S1x5000x256.size a ≤ (i a).val
      ∧ (i a).val < win1_3.index t a * S1x5000x256.size a + S1x5000x256.size a := by
  show i ∈ ((View.whole main_v170).slice (win1_3.rect t)).set ↔ _
  rw [View.set_slice_whole, Rect.mem_set_unit]
  exact Iff.rfl

/-- Every entry `(r, n, j)` of the array lies in the block of the point `(n / 5000, r)`, which writes it back. -/
theorem cover1 (i : S4x50000x256.Idx) :
    ∃ t : Fin cfg1.N, (cfg1.win 3).flush t = true ∧ i ∈ ((cfg1.win 3).blk t).view.set := by
  have hi0 : (i 0).val < 4 := (i 0).isLt
  have hi1 : (i 1).val < 50000 := (i 1).isLt
  have hi2 : (i 2).val < 256 := (i 2).isLt
  obtain ⟨t, ht⟩ := idx_onto1 ⟨(i 0).val, hi0⟩ ⟨(i 1).val / 5000, by omega⟩
  have q0 : win1_3.index t (0 : Fin 3) = (i 0).val := congrFun ht 0
  have q1 : win1_3.index t (1 : Fin 3) = (i 1).val / 5000 := congrFun ht 1
  have q2 : win1_3.index t (2 : Fin 3) = 0 := congrFun ht 2
  refine ⟨t, flush1_3 t, ?_⟩
  rw [mem_blk1]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 5000 ≤ (i 1).val ∧ (i 1).val < win1_3.index t (1 : Fin 3) * 5000 + 5000; omega
  | ⟨2, _⟩ => show win1_3.index t (2 : Fin 3) * 256 ≤ (i 2).val ∧ (i 2).val < win1_3.index t (2 : Fin 3) * 256 + 256; omega

end Cert.KernelIdeal.Hand.ProjC

namespace Cert.KernelIdeal.Hand

open Idealize.ShloMosaic Idealize.ShloMosaic.TcCoe
open Cert.KernelIdeal Cert.KernelIdeal.Gen

/-- After region 1 its output array holds the stacked projections of the features it was given. -/
theorem proj_value1 (V : (c : Dev nD) → (b : Ref sig .tc) → Buf (Elt Ideal) ((c : Thread nD τ).loc b)) (c : Dev nD) :
    ((dat1 (F := Ideal) V c).arrAt 3 cfg1.N : S4x50000x256.Idx → EReal)
      = Cert.KSpec.proj256 (V c main_v169) (V c main_v60) (V c main_arg3) :=
  (dat1 (F := Ideal) V c).arrAt_eq_of_cover 3 (Cert.KSpec.proj256 (V c main_v169) (V c main_v60) (V c main_arg3))
    (fun t _ => ProjC.flushed1_eq V c t) ProjC.cover1

end Cert.KernelIdeal.Hand

end
-- ==== Proof.KI.ProjValue2.lean ====
import proofs.«111407_j24215025614983_1_alg».proof.Proof.KI.Reg2
import proofs.«111407_j24215025614983_1_alg».proof.Proof.KI.ProjPay
import proofs.«111407_j24215025614983_1_alg».proof.Proof.SpecK
import Idealize.ShloMosaic.Lib.Pipeline.Value

/-!
What region 2 leaves in its output array, at the ideal values.

The grid has 10 × 4 points. The point `(i, r)` reads rows `5000 i … 5000 i + 4999` of the features, the same rows of
relation `r`'s degree scale and relation `r`'s weight matrix, and writes the product into block `(r, i)` of the
output array `[4, 50000, 256]`. Each block read is the array at block index × block size + the coordinate inside the
block, so the entry `(0, p, q)` of what the point writes back is entry `(r, 5000 i + p, q)` of the stacked projections

  (r, n, j) ↦ sum over k of (h(n, k) * D(r, n, 0)) * W(r, k, j),

and the forty blocks fill the array: the entry `(r, n, j)` lies in the block of the point `(n / 5000, r)`.
-/

noncomputable section

namespace Cert.KernelIdeal.Hand.ProjC

open Idealize.ShloMosaic Idealize.ShloMosaic.TcCoe Idealize.ShloMosaic.ValueIdx
open Idealize.ShloMosaic.Pipeline (Dat)
open Cert.KernelIdeal Cert.KernelIdeal.Gen Cert.KernelIdeal.Hand

theorem hz2_2 : (![0, 0] : Fin 2 → Nat) = fun _ => 0 := funext fun a => by fin_cases a <;> rfl
theorem hz3_2 : (![0, 0, 0] : Fin 3 → Nat) = fun _ => 0 := funext fun a => by fin_cases a <;> rfl

/-- The four index maps, decided over the grid: the features' block follows the output's row block, the scale's
    block the output's relation and row block, the weight's block the output's relation; every other block index
    is zero. -/
theorem idx_facts2 : ∀ t : Fin cfg2.N,
      win2_0.index t (0 : Fin 2) = win2_3.index t (1 : Fin 3) ∧ win2_0.index t (1 : Fin 2) = 0
    ∧ win2_1.index t (0 : Fin 3) = win2_3.index t (0 : Fin 3) ∧ win2_1.index t (1 : Fin 3) = win2_3.index t (1 : Fin 3)
    ∧ win2_1.index t (2 : Fin 3) = 0
    ∧ win2_2.index t (0 : Fin 3) = win2_3.index t (0 : Fin 3) ∧ win2_2.index t (1 : Fin 3) = 0 ∧ win2_2.index t (2 : Fin 3) = 0
    ∧ win2_3.index t (0 : Fin 3) ≤ 3 ∧ win2_3.index t (1 : Fin 3) ≤ 9 ∧ win2_3.index t (2 : Fin 3) = 0 :=
  (by decide +kernel : ∀ t : Fin grid2.N, _)

/-- Every block `(r, i, 0)` of the output array is some point's. -/
theorem idx_onto2 : ∀ (r : Fin 4) (i : Fin 10), ∃ t : Fin cfg2.N, win2_3.index t = ![r.val, i.val, 0] :=
  (by decide +kernel : ∀ (r : Fin 4) (i : Fin 10), ∃ t : Fin grid2.N, win2_3.index t = ![r.val, i.val, 0])

variable (V : (c : Dev nD) → (b : Ref sig .tc) → Buf (Elt Ideal) ((c : Thread nD τ).loc b))

/-- Window 0's block at point `t` holds rows `5000 i … 5000 i + 4999` of the features. -/
theorem read2_0 (c : Dev nD) (t : Fin cfg2.N) (p : Fin 5000) (k : Fin 256) (n : Fin 50000)
    (hn : n.val = win2_0.index t (0 : Fin 2) * 5000 + p.val) (h1 : win2_0.index t (1 : Fin 2) = 0) :
    (iblk2 V c 0 t (ix2 p k) : EReal) = (V c main_v276 : S50000x256.Idx → EReal) (ix2 n k) := by
  unfold iblk2
  rw [View.read_apply]
  show (V c main_v276 : S50000x256.Idx → EReal) (((cfg2.win 0).blk t).view.emb (ix2 p k)) = _
  refine congrArg (V c main_v276 : S50000x256.Idx → EReal) (funext fun a => Fin.ext ?_)
  have hp : p.val < 5000 := p.isLt
  match a with
  | ⟨0, _⟩ => show win2_0.index t (0 : Fin 2) * 5000 + 1 * p.val = n.val; omega
  | ⟨1, _⟩ => show win2_0.index t (1 : Fin 2) * 256 + 1 * k.val = k.val; omega

/-- Window 1's block at point `t` holds entries `5000 i … 5000 i + 4999` of relation `r`'s degree scale. -/
theorem read2_1 (c : Dev nD) (t : Fin cfg2.N) (p : Fin 5000) (r : Fin 4) (n : Fin 50000)
    (hr : r.val = win2_1.index t (0 : Fin 3)) (hn : n.val = win2_1.index t (1 : Fin 3) * 5000 + p.val)
    (h2 : win2_1.index t (2 : Fin 3) = 0) :
    (iblk2 V c 1 t (ix3 (0 : Fin 1) p (0 : Fin 1)) : EReal) = (V c main_v60 : S4x50000x1.Idx → EReal) (ix3 r n (0 : Fin 1)) := by
  unfold iblk2
  rw [View.read_apply]
  show (V c main_v60 : S4x50000x1.Idx → EReal) (((cfg2.win 1).blk t).view.emb (ix3 (0 : Fin 1) p (0 : Fin 1))) = _
  refine congrArg (V c main_v60 : S4x50000x1.Idx → EReal) (funext fun a => Fin.ext ?_)
  match a with
  | ⟨0, _⟩ => show win2_1.index t (0 : Fin 3) * 1 + 1 * 0 = r.val; omega
  | ⟨1, _⟩ => show win2_1.index t (1 : Fin 3) * 5000 + 1 * p.val = n.val; omega
  | ⟨2, _⟩ => show win2_1.index t (2 : Fin 3) * 1 + 1 * 0 = 0; omega

/-- Window 2's block at point `t` is relation `r`'s weight matrix. -/
theorem read2_2 (c : Dev nD) (t : Fin cfg2.N) (k : Fin 256) (q jj : Fin 256) (r : Fin 4)
    (hr : r.val = win2_2.index t (0 : Fin 3)) (h1 : win2_2.index t (1 : Fin 3) = 0)
    (hj : jj.val = win2_2.index t (2 : Fin 3) * 256 + q.val) :
    (iblk2 V c 2 t (ix3 (0 : Fin 1) k q) : EReal) = (V c main_arg5 : S4x256x256.Idx → EReal) (ix3 r k jj) := by
  unfold iblk2
  rw [View.read_apply]
  show (V c main_arg5 : S4x256x256.Idx → EReal) (((cfg2.win 2).blk t).view.emb (ix3 (0 : Fin 1) k q)) = _
  refine congrArg (V c main_arg5 : S4x256x256.Idx → EReal) (funext fun a => Fin.ext ?_)
  match a with
  | ⟨0, _⟩ => show win2_2.index t (0 : Fin 3) * 1 + 1 * 0 = r.val; omega
  | ⟨1, _⟩ => show win2_2.index t (1 : Fin 3) * 256 + 1 * k.val = k.val; omega
  | ⟨2, _⟩ => show win2_2.index t (2 : Fin 3) * 256 + 1 * q.val = jj.val; omega

/-- The body's result at point `t`, entry `(0, p, q)`, is the stacked projection at the entry's place in the array. -/
theorem block2_entry (c : Dev nD) (t : Fin cfg2.N) (p : Fin 5000) (q : Fin 256) :
    (k2_pay1 (iblk2 V c 0 t) (iblk2 V c 1 t) (iblk2 V c 2 t) (ix3 (0 : Fin 1) p q) : EReal)
      = Cert.KSpec.proj256 (V c main_v276) (V c main_v60) (V c main_arg5)
          (((cfg2.win 3).blk t).view.emb (ix3 (0 : Fin 1) p q)) := by
  obtain ⟨e0, e1, e2, e3, e4, e5, e6, e7, b0, b1, e8⟩ := idx_facts2 t
  refine (pay2_apply _ _ _ p q).trans ?_
  generalize hi : ((cfg2.win 3).blk t).view.emb (ix3 (0 : Fin 1) p q) = i
  have hr : (i 0).val = win2_3.index t (0 : Fin 3) * 1 + 1 * 0 := by rw [← hi]; rfl
  have hn : (i 1).val = win2_3.index t (1 : Fin 3) * 5000 + 1 * p.val := by rw [← hi]; rfl
  have hq : (i 2).val = win2_3.index t (2 : Fin 3) * 256 + 1 * q.val := by rw [← hi]; rfl
  clear hi
  unfold Cert.KSpec.proj256 Cert.KSpec.projAt256
  refine Finset.sum_congr rfl fun k _ => ?_
  rw [read2_0 V c t p k (i 1) (by omega) e1, read2_1 V c t p (i 0) (i 1) (by omega) (by omega) e4,
    read2_2 V c t k q (i 2) (i 0) (by omega) e6 (by omega)]

/-- What point `t` writes back is block `t` of the stacked projections. -/
theorem flushed2_eq (c : Dev nD) (t : Fin cfg2.N) :
    (dat2 (F := Ideal) V c).flushed 3 t
      = ((cfg2.win 3).blk t).view.read (Elt Ideal) (Cert.KSpec.proj256 (V c main_v276) (V c main_v60) (V c main_arg5)) := by
  show (cfg2.win 3).cut (grid2.coords t) ((dat2 V c).after 3 t) = _
  rw [after2_3]
  unfold out2_3
  rw [View.canon_unit_zero hz3_2]
  simp only [View.ld_unit_zero (S := S5000x256) hz2_2, View.ld_unit_zero (S := S1x5000x1) hz3_2, View.ld_unit_zero (S := S1x256x256) hz3_2]
  funext j
  rw [View.read_apply]
  obtain ⟨p, q, rfl⟩ : ∃ (p : Fin 5000) (q : Fin 256), j = ix3 (0 : Fin 1) p q :=
    ⟨j 1, j 2, funext fun a => by
      match a with
      | ⟨0, _⟩ => exact Fin.ext (by have h : (j 0).val < 1 := (j 0).isLt; show (j 0).val = 0; omega)
      | ⟨1, _⟩ => rfl
      | ⟨2, _⟩ => rfl⟩
  exact block2_entry V c t p q

/-- An index of the array is in point `t`'s block iff each coordinate is in the block's range on its axis. -/
theorem mem_blk2 (t : Fin cfg2.N) (i : S4x50000x256.Idx) :
    i ∈ ((cfg2.win 3).blk t).view.set ↔ ∀ a : Fin 3, win2_3.index t a * S1x5000x256.size a ≤ (i a).val
      ∧ (i a).val < win2_3.index t a * S1x5000x256.size a + S1x5000x256.size a := by
  show i ∈ ((View.whole main_v277).slice (win2_3.rect t)).set ↔ _
  rw [View.set_slice_whole, Rect.mem_set_unit]
  exact Iff.rfl

/-- Every entry `(r, n, j)` of the array lies in the block of the point `(n / 5000, r)`, which writes it back. -/
theorem cover2 (i : S4x50000x256.Idx) :
    ∃ t : Fin cfg2.N, (cfg2.win 3).flush t = true ∧ i ∈ ((cfg2.win 3).blk t).view.set := by
  have hi0 : (i 0).val < 4 := (i 0).isLt
  have hi1 : (i 1).val < 50000 := (i 1).isLt
  have hi2 : (i 2).val < 256 := (i 2).isLt
  obtain ⟨t, ht⟩ := idx_onto2 ⟨(i 0).val, hi0⟩ ⟨(i 1).val / 5000, by omega⟩
  have q0 : win2_3.index t (0 : Fin 3) = (i 0).val := congrFun ht 0
  have q1 : win2_3.index t (1 : Fin 3) = (i 1).val / 5000 := congrFun ht 1
  have q2 : win2_3.index t (2 : Fin 3) = 0 := congrFun ht 2
  refine ⟨t, flush2_3 t, ?_⟩
  rw [mem_blk2]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 5000 ≤ (i 1).val ∧ (i 1).val < win2_3.index t (1 : Fin 3) * 5000 + 5000; omega
  | ⟨2, _⟩ => show win2_3.index t (2 : Fin 3) * 256 ≤ (i 2).val ∧ (i 2).val < win2_3.index t (2 : Fin 3) * 256 + 256; omega

end Cert.KernelIdeal.Hand.ProjC

namespace Cert.KernelIdeal.Hand

open Idealize.ShloMosaic Idealize.ShloMosaic.TcCoe
open Cert.KernelIdeal Cert.KernelIdeal.Gen

/-- After region 2 its output array holds the stacked projections of the features it was given. -/
theorem proj_value2 (V : (c : Dev nD) → (b : Ref sig .tc) → Buf (Elt Ideal) ((c : Thread nD τ).loc b)) (c : Dev nD) :
    ((dat2 (F := Ideal) V c).arrAt 3 cfg2.N : S4x50000x256.Idx → EReal)
      = Cert.KSpec.proj256 (V c main_v276) (V c main_v60) (V c main_arg5) :=
  (dat2 (F := Ideal) V c).arrAt_eq_of_cover 3 (Cert.KSpec.proj256 (V c main_v276) (V c main_v60) (V c main_arg5))
    (fun t _ => ProjC.flushed2_eq V c t) ProjC.cover2

end Cert.KernelIdeal.Hand

end
-- ==== Proof.KI.ProjValue3.lean ====
import proofs.«111407_j24215025614983_1_alg».proof.Proof.KI.Reg3
import proofs.«111407_j24215025614983_1_alg».proof.Proof.KI.ProjPay
import proofs.«111407_j24215025614983_1_alg».proof.Proof.SpecK
import Idealize.ShloMosaic.Lib.Pipeline.Value

/-!
What region 3 leaves in its output array, at the ideal values.

The grid has 10 × 4 points. The point `(i, r)` reads rows `5000 i … 5000 i + 4999` of the features, the same rows of
relation `r`'s degree scale and relation `r`'s weight matrix, and writes the product into block `(r, i)` of the
output array `[4, 50000, 128]`. Each block read is the array at block index × block size + the coordinate inside the
block, so the entry `(0, p, q)` of what the point writes back is entry `(r, 5000 i + p, q)` of the stacked projections

  (r, n, j) ↦ sum over k of (h(n, k) * D(r, n, 0)) * W(r, k, j),

and the forty blocks fill the array: the entry `(r, n, j)` lies in the block of the point `(n / 5000, r)`.
-/

noncomputable section

namespace Cert.KernelIdeal.Hand.ProjC

open Idealize.ShloMosaic Idealize.ShloMosaic.TcCoe Idealize.ShloMosaic.ValueIdx
open Idealize.ShloMosaic.Pipeline (Dat)
open Cert.KernelIdeal Cert.KernelIdeal.Gen Cert.KernelIdeal.Hand

theorem hz2_3 : (![0, 0] : Fin 2 → Nat) = fun _ => 0 := funext fun a => by fin_cases a <;> rfl
theorem hz3_3 : (![0, 0, 0] : Fin 3 → Nat) = fun _ => 0 := funext fun a => by fin_cases a <;> rfl

/-- The four index maps, decided over the grid: the features' block follows the output's row block, the scale's
    block the output's relation and row block, the weight's block the output's relation; every other block index
    is zero. -/
theorem idx_facts3 : ∀ t : Fin cfg3.N,
      win3_0.index t (0 : Fin 2) = win3_3.index t (1 : Fin 3) ∧ win3_0.index t (1 : Fin 2) = 0
    ∧ win3_1.index t (0 : Fin 3) = win3_3.index t (0 : Fin 3) ∧ win3_1.index t (1 : Fin 3) = win3_3.index t (1 : Fin 3)
    ∧ win3_1.index t (2 : Fin 3) = 0
    ∧ win3_2.index t (0 : Fin 3) = win3_3.index t (0 : Fin 3) ∧ win3_2.index t (1 : Fin 3) = 0 ∧ win3_2.index t (2 : Fin 3) = 0
    ∧ win3_3.index t (0 : Fin 3) ≤ 3 ∧ win3_3.index t (1 : Fin 3) ≤ 9 ∧ win3_3.index t (2 : Fin 3) = 0 :=
  (by decide +kernel : ∀ t : Fin grid3.N, _)

/-- Every block `(r, i, 0)` of the output array is some point's. -/
theorem idx_onto3 : ∀ (r : Fin 4) (i : Fin 10), ∃ t : Fin cfg3.N, win3_3.index t = ![r.val, i.val, 0] :=
  (by decide +kernel : ∀ (r : Fin 4) (i : Fin 10), ∃ t : Fin grid3.N, win3_3.index t = ![r.val, i.val, 0])

variable (V : (c : Dev nD) → (b : Ref sig .tc) → Buf (Elt Ideal) ((c : Thread nD τ).loc b))

/-- Window 0's block at point `t` holds rows `5000 i … 5000 i + 4999` of the features. -/
theorem read3_0 (c : Dev nD) (t : Fin cfg3.N) (p : Fin 5000) (k : Fin 256) (n : Fin 50000)
    (hn : n.val = win3_0.index t (0 : Fin 2) * 5000 + p.val) (h1 : win3_0.index t (1 : Fin 2) = 0) :
    (iblk3 V c 0 t (ix2 p k) : EReal) = (V c main_v383 : S50000x256.Idx → EReal) (ix2 n k) := by
  unfold iblk3
  rw [View.read_apply]
  show (V c main_v383 : S50000x256.Idx → EReal) (((cfg3.win 0).blk t).view.emb (ix2 p k)) = _
  refine congrArg (V c main_v383 : S50000x256.Idx → EReal) (funext fun a => Fin.ext ?_)
  have hp : p.val < 5000 := p.isLt
  match a with
  | ⟨0, _⟩ => show win3_0.index t (0 : Fin 2) * 5000 + 1 * p.val = n.val; omega
  | ⟨1, _⟩ => show win3_0.index t (1 : Fin 2) * 256 + 1 * k.val = k.val; omega

/-- Window 1's block at point `t` holds entries `5000 i … 5000 i + 4999` of relation `r`'s degree scale. -/
theorem read3_1 (c : Dev nD) (t : Fin cfg3.N) (p : Fin 5000) (r : Fin 4) (n : Fin 50000)
    (hr : r.val = win3_1.index t (0 : Fin 3)) (hn : n.val = win3_1.index t (1 : Fin 3) * 5000 + p.val)
    (h2 : win3_1.index t (2 : Fin 3) = 0) :
    (iblk3 V c 1 t (ix3 (0 : Fin 1) p (0 : Fin 1)) : EReal) = (V c main_v60 : S4x50000x1.Idx → EReal) (ix3 r n (0 : Fin 1)) := by
  unfold iblk3
  rw [View.read_apply]
  show (V c main_v60 : S4x50000x1.Idx → EReal) (((cfg3.win 1).blk t).view.emb (ix3 (0 : Fin 1) p (0 : Fin 1))) = _
  refine congrArg (V c main_v60 : S4x50000x1.Idx → EReal) (funext fun a => Fin.ext ?_)
  match a with
  | ⟨0, _⟩ => show win3_1.index t (0 : Fin 3) * 1 + 1 * 0 = r.val; omega
  | ⟨1, _⟩ => show win3_1.index t (1 : Fin 3) * 5000 + 1 * p.val = n.val; omega
  | ⟨2, _⟩ => show win3_1.index t (2 : Fin 3) * 1 + 1 * 0 = 0; omega

/-- Window 2's block at point `t` is relation `r`'s weight matrix. -/
theorem read3_2 (c : Dev nD) (t : Fin cfg3.N) (k : Fin 256) (q jj : Fin 128) (r : Fin 4)
    (hr : r.val = win3_2.index t (0 : Fin 3)) (h1 : win3_2.index t (1 : Fin 3) = 0)
    (hj : jj.val = win3_2.index t (2 : Fin 3) * 128 + q.val) :
    (iblk3 V c 2 t (ix3 (0 : Fin 1) k q) : EReal) = (V c main_arg7 : S4x256x128.Idx → EReal) (ix3 r k jj) := by
  unfold iblk3
  rw [View.read_apply]
  show (V c main_arg7 : S4x256x128.Idx → EReal) (((cfg3.win 2).blk t).view.emb (ix3 (0 : Fin 1) k q)) = _
  refine congrArg (V c main_arg7 : S4x256x128.Idx → EReal) (funext fun a => Fin.ext ?_)
  match a with
  | ⟨0, _⟩ => show win3_2.index t (0 : Fin 3) * 1 + 1 * 0 = r.val; omega
  | ⟨1, _⟩ => show win3_2.index t (1 : Fin 3) * 256 + 1 * k.val = k.val; omega
  | ⟨2, _⟩ => show win3_2.index t (2 : Fin 3) * 128 + 1 * q.val = jj.val; omega

/-- The body's result at point `t`, entry `(0, p, q)`, is the stacked projection at the entry's place in the array. -/
theorem block3_entry (c : Dev nD) (t : Fin cfg3.N) (p : Fin 5000) (q : Fin 128) :
    (k3_pay1 (iblk3 V c 0 t) (iblk3 V c 1 t) (iblk3 V c 2 t) (ix3 (0 : Fin 1) p q) : EReal)
      = Cert.KSpec.proj128 (V c main_v383) (V c main_v60) (V c main_arg7)
          (((cfg3.win 3).blk t).view.emb (ix3 (0 : Fin 1) p q)) := by
  obtain ⟨e0, e1, e2, e3, e4, e5, e6, e7, b0, b1, e8⟩ := idx_facts3 t
  refine (pay3_apply _ _ _ p q).trans ?_
  generalize hi : ((cfg3.win 3).blk t).view.emb (ix3 (0 : Fin 1) p q) = i
  have hr : (i 0).val = win3_3.index t (0 : Fin 3) * 1 + 1 * 0 := by rw [← hi]; rfl
  have hn : (i 1).val = win3_3.index t (1 : Fin 3) * 5000 + 1 * p.val := by rw [← hi]; rfl
  have hq : (i 2).val = win3_3.index t (2 : Fin 3) * 128 + 1 * q.val := by rw [← hi]; rfl
  clear hi
  unfold Cert.KSpec.proj128 Cert.KSpec.projAt128
  refine Finset.sum_congr rfl fun k _ => ?_
  rw [read3_0 V c t p k (i 1) (by omega) e1, read3_1 V c t p (i 0) (i 1) (by omega) (by omega) e4,
    read3_2 V c t k q (i 2) (i 0) (by omega) e6 (by omega)]

/-- What point `t` writes back is block `t` of the stacked projections. -/
theorem flushed3_eq (c : Dev nD) (t : Fin cfg3.N) :
    (dat3 (F := Ideal) V c).flushed 3 t
      = ((cfg3.win 3).blk t).view.read (Elt Ideal) (Cert.KSpec.proj128 (V c main_v383) (V c main_v60) (V c main_arg7)) := by
  show (cfg3.win 3).cut (grid3.coords t) ((dat3 V c).after 3 t) = _
  rw [after3_3]
  unfold out3_3
  rw [View.canon_unit_zero hz3_3]
  simp only [View.ld_unit_zero (S := S5000x256) hz2_3, View.ld_unit_zero (S := S1x5000x1) hz3_3, View.ld_unit_zero (S := S1x256x128) hz3_3]
  funext j
  rw [View.read_apply]
  obtain ⟨p, q, rfl⟩ : ∃ (p : Fin 5000) (q : Fin 128), j = ix3 (0 : Fin 1) p q :=
    ⟨j 1, j 2, funext fun a => by
      match a with
      | ⟨0, _⟩ => exact Fin.ext (by have h : (j 0).val < 1 := (j 0).isLt; show (j 0).val = 0; omega)
      | ⟨1, _⟩ => rfl
      | ⟨2, _⟩ => rfl⟩
  exact block3_entry V c t p q

/-- An index of the array is in point `t`'s block iff each coordinate is in the block's range on its axis. -/
theorem mem_blk3 (t : Fin cfg3.N) (i : S4x50000x128.Idx) :
    i ∈ ((cfg3.win 3).blk t).view.set ↔ ∀ a : Fin 3, win3_3.index t a * S1x5000x128.size a ≤ (i a).val
      ∧ (i a).val < win3_3.index t a * S1x5000x128.size a + S1x5000x128.size a := by
  show i ∈ ((View.whole main_v384).slice (win3_3.rect t)).set ↔ _
  rw [View.set_slice_whole, Rect.mem_set_unit]
  exact Iff.rfl

/-- Every entry `(r, n, j)` of the array lies in the block of the point `(n / 5000, r)`, which writes it back. -/
theorem cover3 (i : S4x50000x128.Idx) :
    ∃ t : Fin cfg3.N, (cfg3.win 3).flush t = true ∧ i ∈ ((cfg3.win 3).blk t).view.set := by
  have hi0 : (i 0).val < 4 := (i 0).isLt
  have hi1 : (i 1).val < 50000 := (i 1).isLt
  have hi2 : (i 2).val < 128 := (i 2).isLt
  obtain ⟨t, ht⟩ := idx_onto3 ⟨(i 0).val, hi0⟩ ⟨(i 1).val / 5000, by omega⟩
  have q0 : win3_3.index t (0 : Fin 3) = (i 0).val := congrFun ht 0
  have q1 : win3_3.index t (1 : Fin 3) = (i 1).val / 5000 := congrFun ht 1
  have q2 : win3_3.index t (2 : Fin 3) = 0 := congrFun ht 2
  refine ⟨t, flush3_3 t, ?_⟩
  rw [mem_blk3]
  intro a
  match a with
  | ⟨0, _⟩ => show win3_3.index t (0 : Fin 3) * 1 ≤ (i 0).val ∧ (i 0).val < win3_3.index t (0 : Fin 3) * 1 + 1; omega
  | ⟨1, _⟩ => show win3_3.index t (1 : Fin 3) * 5000 ≤ (i 1).val ∧ (i 1).val < win3_3.index t (1 : Fin 3) * 5000 + 5000; omega
  | ⟨2, _⟩ => show win3_3.index t (2 : Fin 3) * 128 ≤ (i 2).val ∧ (i 2).val < win3_3.index t (2 : Fin 3) * 128 + 128; omega

end Cert.KernelIdeal.Hand.ProjC

namespace Cert.KernelIdeal.Hand

open Idealize.ShloMosaic Idealize.ShloMosaic.TcCoe
open Cert.KernelIdeal Cert.KernelIdeal.Gen

/-- After region 3 its output array holds the stacked projections of the features it was given. -/
theorem proj_value3 (V : (c : Dev nD) → (b : Ref sig .tc) → Buf (Elt Ideal) ((c : Thread nD τ).loc b)) (c : Dev nD) :
    ((dat3 (F := Ideal) V c).arrAt 3 cfg3.N : S4x50000x128.Idx → EReal)
      = Cert.KSpec.proj128 (V c main_v383) (V c main_v60) (V c main_arg7) :=
  (dat3 (F := Ideal) V c).arrAt_eq_of_cover 3 (Cert.KSpec.proj128 (V c main_v383) (V c main_v60) (V c main_arg7))
    (fun t _ => ProjC.flushed3_eq V c t) ProjC.cover3

end Cert.KernelIdeal.Hand

end
-- ==== Proof.KI.ProjValue.lean ====
import proofs.«111407_j24215025614983_1_alg».proof.Proof.KI.ProjValue0
import proofs.«111407_j24215025614983_1_alg».proof.Proof.KI.ProjValue1
import proofs.«111407_j24215025614983_1_alg».proof.Proof.KI.ProjValue2
import proofs.«111407_j24215025614983_1_alg».proof.Proof.KI.ProjValue3

/-!
What the four regions leave in their output arrays, at the ideal values: the stacked projections of the features
each region was given (`Cert.KernelIdeal.Hand.proj_value0` … `proj_value3`, one module per region).
-/
-- ==== Proof.KI.HostPre.lean ====
import proofs.«111407_j24215025614983_1_alg».proof.Proof.Gen.KernelIdeal.Launch
import proofs.«111407_j24215025614983_1_alg».proof.Proof.SpecK
import Idealize.ShloMosaic.Lib.StableHlo.Run
import Idealize.ShloMosaic.Lib.Pipeline.Frame

/-!
# The stretches before the first projection: the two degree scales

For each of the two edge tables (the edges' sources, the edges' targets) and each of the four relations the program
counts the edges at every node: a scatter-add, into zeros, of a constant weight one per edge at that relation's row
of the table, followed by max(1, .). The four counts become the rows of a `[4, 50000]` array; rsqrt and a unit last
axis make it the degree scale `[4, 50000, 1]`. The sources' scale multiplies the features going into the projections,
the targets' scale multiplies the aggregates.

The seventeen stretches are read in five groups, each run from ANY buffer contents:
  A  the weights (all ones) and the source counts of relations 0 and 1;
  B  the source counts of relations 2 and 3;
  C  the four source counts stacked, and the target count of relation 0;
  D  the target counts of relations 1 and 2;
  E  the target count of relation 3, the four target counts stacked, rsqrt and the unit axis of both stacks.
For every group we state what it puts into the buffers read later and which earlier buffers it leaves as they were;
chaining the groups gives `KSpec.degScale` of the sources' table in one buffer and of the targets' table in the other.
The weights are written once, in group A, and read by all eight scatter-adds: a count in a later group is stated
with the weights' buffer as found (`degWith`) and becomes `KSpec.degOf` once that buffer is known to hold ones.
-/

set_option maxRecDepth 8000

noncomputable section

namespace Cert.KernelIdeal.HostRead

open Idealize.ShloMosaic Idealize.ShloMosaic.TcCoe StableHlo Cert.KernelIdeal Cert.KernelIdeal.Gen

variable {F : FTy → Type} [FloatOps F]

/-- The edge count of an edge vector under given edge weights, at least one: max(1, sum over the edges at a node of
    the edge's weight). With all weights one it is `KSpec.degOf`. -/
def degWith (w : Vec F S400000 .f32) (e : Vec F S400000 .i32) : Vec F S50000 .f32 :=
  maximumf (broadcastInDim S50000 ![] bcast_S_S50000 (id (constant S_ .f32 0x3F800000#32)))
    (Host.scatterAdd scatter_S50000_S400000x1_S400000_n_0_0_1
      (broadcastInDim S50000 ![] bcast_S_S50000 (constant S_ .f32 0x00000000#32)) (Cert.KSpec.col e) w)

/-- Group A: the weights and the source counts of relations 0 and 1. -/
def preA (W : Valuation τ sig (Elt F)) : Valuation τ sig (Elt F) :=
  after hostOps0_3 (after hostOps0_2 (after hostOps0_1 (after hostOps0 W)))
/-- Group B: the source counts of relations 2 and 3. -/
def preB (W : Valuation τ sig (Elt F)) : Valuation τ sig (Elt F) :=
  after hostOps0_7 (after hostOps0_6 (after hostOps0_5 (after hostOps0_4 W)))
/-- Group C: the source counts stacked; the target count of relation 0. -/
def preC (W : Valuation τ sig (Elt F)) : Valuation τ sig (Elt F) :=
  after hostOps0_9 (after hostOps0_8 W)
/-- Group D: the target counts of relations 1 and 2. -/
def preD (W : Valuation τ sig (Elt F)) : Valuation τ sig (Elt F) :=
  after hostOps0_13 (after hostOps0_12 (after hostOps0_11 (after hostOps0_10 W)))
/-- Group E: the target count of relation 3, the target counts stacked, and both scales. -/
def preE (W : Valuation τ sig (Elt F)) : Valuation τ sig (Elt F) :=
  after hostOps0_16 (after hostOps0_15 (after hostOps0_14 W))

/-! ## Group A -/

theorem preA_v6 (W : Valuation τ sig (Elt F)) :
    preA W (Proc.devRef .tc main_v6) = Cert.KSpec.degOf (Cert.KSpec.edgeRow 0 (W (Proc.devRef .tc main_arg9))) := by
  simp only [preA]
  after_results_simp
  rfl

theorem preA_v12 (W : Valuation τ sig (Elt F)) :
    preA W (Proc.devRef .tc main_v12) = Cert.KSpec.degOf (Cert.KSpec.edgeRow 1 (W (Proc.devRef .tc main_arg9))) := by
  simp only [preA]
  after_results_simp
  rfl

/-- The weights are all ones. -/
theorem preA_v0 (W : Valuation τ sig (Elt F)) : preA W (Proc.devRef .tc main_v0) = Cert.KSpec.onesE := by
  simp only [preA]
  after_results_simp
  rfl

theorem preA_keep (W : Valuation τ sig (Elt F)) :
    preA W (Proc.devRef .tc main_arg9) = W (Proc.devRef .tc main_arg9)
    ∧ preA W (Proc.devRef .tc main_arg10) = W (Proc.devRef .tc main_arg10) := by
  simp only [preA]
  refine ⟨?_, ?_⟩ <;> after_results_simp

/-! ## Group B -/

theorem preB_v18 (W : Valuation τ sig (Elt F)) :
    preB W (Proc.devRef .tc main_v18) = degWith (W (Proc.devRef .tc main_v0)) (Cert.KSpec.edgeRow 2 (W (Proc.devRef .tc main_arg9))) := by
  simp only [preB]
  after_results_simp
  rfl

theorem preB_v24 (W : Valuation τ sig (Elt F)) :
    preB W (Proc.devRef .tc main_v24) = degWith (W (Proc.devRef .tc main_v0)) (Cert.KSpec.edgeRow 3 (W (Proc.devRef .tc main_arg9))) := by
  simp only [preB]
  after_results_simp
  rfl

theorem preB_keep (W : Valuation τ sig (Elt F)) :
    preB W (Proc.devRef .tc main_v6) = W (Proc.devRef .tc main_v6)
    ∧ preB W (Proc.devRef .tc main_v12) = W (Proc.devRef .tc main_v12)
    ∧ preB W (Proc.devRef .tc main_v0) = W (Proc.devRef .tc main_v0)
    ∧ preB W (Proc.devRef .tc main_arg10) = W (Proc.devRef .tc main_arg10) := by
  simp only [preB]
  refine ⟨?_, ?_, ?_, ?_⟩ <;> after_results_simp

/-! ## Group C -/

theorem preC_v29 (W : Valuation τ sig (Elt F)) :
    preC W (Proc.devRef .tc main_v29)
      = concatenate S4x50000 0 [⟨S1x50000, Cert.KSpec.row (W (Proc.devRef .tc main_v6))⟩, ⟨S1x50000, Cert.KSpec.row (W (Proc.devRef .tc main_v12))⟩,
        ⟨S1x50000, Cert.KSpec.row (W (Proc.devRef .tc main_v18))⟩, ⟨S1x50000, Cert.KSpec.row (W (Proc.devRef .tc main_v24))⟩]
        concatenates_S1x50000_S1x50000_S1x50000_S1x50000_S4x50000_d0 := by
  simp only [preC]
  after_results_simp
  rfl

theorem preC_v35 (W : Valuation τ sig (Elt F)) :
    preC W (Proc.devRef .tc main_v35) = degWith (W (Proc.devRef .tc main_v0)) (Cert.KSpec.edgeRow 0 (W (Proc.devRef .tc main_arg10))) := by
  simp only [preC]
  after_results_simp
  rfl

theorem preC_keep (W : Valuation τ sig (Elt F)) :
    preC W (Proc.devRef .tc main_v0) = W (Proc.devRef .tc main_v0)
    ∧ preC W (Proc.devRef .tc main_arg10) = W (Proc.devRef .tc main_arg10) := by
  simp only [preC]
  refine ⟨?_, ?_⟩ <;> after_results_simp

/-! ## Group D -/

theorem preD_v41 (W : Valuation τ sig (Elt F)) :
    preD W (Proc.devRef .tc main_v41) = degWith (W (Proc.devRef .tc main_v0)) (Cert.KSpec.edgeRow 1 (W (Proc.devRef .tc main_arg10))) := by
  simp only [preD]
  after_results_simp
  rfl

theorem preD_v47 (W : Valuation τ sig (Elt F)) :
    preD W (Proc.devRef .tc main_v47) = degWith (W (Proc.devRef .tc main_v0)) (Cert.KSpec.edgeRow 2 (W (Proc.devRef .tc main_arg10))) := by
  simp only [preD]
  after_results_simp
  rfl

theorem preD_keep (W : Valuation τ sig (Elt F)) :
    preD W (Proc.devRef .tc main_v29) = W (Proc.devRef .tc main_v29)
    ∧ preD W (Proc.devRef .tc main_v35) = W (Proc.devRef .tc main_v35)
    ∧ preD W (Proc.devRef .tc main_v0) = W (Proc.devRef .tc main_v0)
    ∧ preD W (Proc.devRef .tc main_arg10) = W (Proc.devRef .tc main_arg10) := by
  simp only [preD]
  refine ⟨?_, ?_, ?_, ?_⟩ <;> after_results_simp

/-! ## Group E -/

/-- The sources' scale: rsqrt of the stacked source counts, with a unit axis. -/
theorem preE_v60 (W : Valuation τ sig (Elt F)) :
    preE W (Proc.devRef .tc main_v60)
      = (broadcastInDim S4x50000x1 ![0, 1] bcast_S4x50000_S4x50000x1_0_1 : Vec F S4x50000 .f32 → Vec F S4x50000x1 .f32)
        (Host.rsqrt (W (Proc.devRef .tc main_v29))) := by
  simp only [preE]
  after_results_simp

/-- The targets' scale: rsqrt of the stacked target counts, with a unit axis. -/
theorem preE_v62 (W : Valuation τ sig (Elt F)) :
    preE W (Proc.devRef .tc main_v62)
      = (broadcastInDim S4x50000x1 ![0, 1] bcast_S4x50000_S4x50000x1_0_1 : Vec F S4x50000 .f32 → Vec F S4x50000x1 .f32)
        (Host.rsqrt (concatenate S4x50000 0 [⟨S1x50000, Cert.KSpec.row (W (Proc.devRef .tc main_v35))⟩, ⟨S1x50000, Cert.KSpec.row (W (Proc.devRef .tc main_v41))⟩,
        ⟨S1x50000, Cert.KSpec.row (W (Proc.devRef .tc main_v47))⟩, ⟨S1x50000, Cert.KSpec.row (degWith (W (Proc.devRef .tc main_v0)) (Cert.KSpec.edgeRow 3 (W (Proc.devRef .tc main_arg10))))⟩]
        concatenates_S1x50000_S1x50000_S1x50000_S1x50000_S4x50000_d0)) := by
  simp only [preE]
  after_results_simp
  rfl

/-! ## The chain -/

/-- The seventeen stretches, from any buffer contents: the degree scale of the sources' table. -/
theorem pre_v60 (V : Valuation τ sig (Elt F)) :
    (after hostOps0_16 (after hostOps0_15 (after hostOps0_14 (after hostOps0_13 (after hostOps0_12 (after hostOps0_11 (after hostOps0_10 (after hostOps0_9 (after hostOps0_8 (after hostOps0_7 (after hostOps0_6 (after hostOps0_5 (after hostOps0_4 (after hostOps0_3 (after hostOps0_2 (after hostOps0_1 (after hostOps0 (V)))))))))))))))))) (Proc.devRef .tc main_v60)
      = Cert.KSpec.degScale (V (Proc.devRef .tc main_arg9)) := by
  show preE (preD (preC (preB (preA V)))) (Proc.devRef .tc main_v60) = _
  rw [preE_v60, (preD_keep _).1, preC_v29, preB_v18, preB_v24, (preB_keep _).1, (preB_keep _).2.1,
    preA_v6, preA_v12, preA_v0, (preA_keep _).1]
  rfl

/-- The seventeen stretches, from any buffer contents: the degree scale of the targets' table. -/
theorem pre_v62 (V : Valuation τ sig (Elt F)) :
    (after hostOps0_16 (after hostOps0_15 (after hostOps0_14 (after hostOps0_13 (after hostOps0_12 (after hostOps0_11 (after hostOps0_10 (after hostOps0_9 (after hostOps0_8 (after hostOps0_7 (after hostOps0_6 (after hostOps0_5 (after hostOps0_4 (after hostOps0_3 (after hostOps0_2 (after hostOps0_1 (after hostOps0 (V)))))))))))))))))) (Proc.devRef .tc main_v62)
      = Cert.KSpec.degScale (V (Proc.devRef .tc main_arg10)) := by
  show preE (preD (preC (preB (preA V)))) (Proc.devRef .tc main_v62) = _
  rw [preE_v62, preD_v41, preD_v47, (preD_keep _).2.1, (preD_keep _).2.2.1, (preD_keep _).2.2.2,
    preC_v35, (preC_keep _).1, (preC_keep _).2, (preB_keep _).2.2.1, (preB_keep _).2.2.2,
    preA_v0, (preA_keep _).2]
  rfl

end Cert.KernelIdeal.HostRead
-- ==== Proof.KI.HostTail1.lean ====
import proofs.«111407_j24215025614983_1_alg».proof.Proof.Gen.KernelIdeal.Launch
import proofs.«111407_j24215025614983_1_alg».proof.Proof.SpecK
import Idealize.ShloMosaic.Lib.StableHlo.Run
import Idealize.ShloMosaic.Lib.Pipeline.Frame

/-!
# The first layer's host stretch as the specification's sum over the four relations

After the first projection the program adds up, relation by relation, the aggregate of that relation's slice of the
stacked projections (rows gathered at the edges' sources, added into the rows of the edges' targets), scaled per
target node by the relation's column of the degree scale, plus the relation's bias row; the running sum starts from
zero. The stretch is cut into the zero start (two operations) and one piece of 29 operations per relation. Run from
ANY buffer contents, the piece of relation `r` puts `KSpec.step256 r` of the incoming running sum into the next
running-sum buffer, and no piece touches the stacked projections, the degree scale, the two edge tables or the bias
table. Composing the five pieces gives `KSpec.tail256` of what those five buffers held when the stretch began;
the three operations that follow take max(., 0).
-/

set_option maxRecDepth 8000

noncomputable section

namespace Cert.KernelIdeal.HostRead

open Idealize.ShloMosaic Idealize.ShloMosaic.TcCoe StableHlo Cert.KernelIdeal Cert.KernelIdeal.Gen

variable {F : FTy → Type} [FloatOps F]

/-- The zero start of the running sum: the stretch's first two operations. -/
def t1Init : List (HloOp τ sig (Elt F)) := (hostOps1 (F := F)).take 2
/-- Relation 0's 29 operations. -/
def t1Rel0 : List (HloOp τ sig (Elt F)) := ((hostOps1 (F := F)).drop 2).take 29
/-- Relation 1's 29 operations. -/
def t1Rel1 : List (HloOp τ sig (Elt F)) := ((hostOps1 (F := F)).drop 31).take 29
/-- Relation 2's 29 operations. -/
def t1Rel2 : List (HloOp τ sig (Elt F)) := ((hostOps1 (F := F)).drop 60).take 29
/-- Relation 3's 29 operations. -/
def t1Rel3 : List (HloOp τ sig (Elt F)) := (hostOps1 (F := F)).drop 89

set_option maxHeartbeats 4000000 in
/-- The stretch is its five pieces in order. -/
theorem hostOps1_split : (hostOps1 : List (HloOp τ sig (Elt F))) = t1Init ++ (t1Rel0 ++ (t1Rel1 ++ (t1Rel2 ++ t1Rel3))) := rfl

/-- The start: the running sum is zero everywhere. -/
theorem t1Init_out (W : Valuation τ sig (Elt F)) :
    after t1Init W (Proc.devRef .tc main_v64)
      = broadcastInDim S50000x256 ![] bcast_S_S50000x256 (constant S_ .f32 0x00000000#32) := by
  simp only [t1Init, hostOps1, List.drop_succ_cons, List.drop_zero, List.take_succ_cons, List.take_zero]
  after_results_simp

/-- The start writes none of the five buffers the relations read. -/
theorem t1Init_keep (W : Valuation τ sig (Elt F)) :
    after t1Init W (Proc.devRef .tc main_v63) = W (Proc.devRef .tc main_v63)
    ∧ after t1Init W (Proc.devRef .tc main_v62) = W (Proc.devRef .tc main_v62)
    ∧ after t1Init W (Proc.devRef .tc main_arg9) = W (Proc.devRef .tc main_arg9)
    ∧ after t1Init W (Proc.devRef .tc main_arg10) = W (Proc.devRef .tc main_arg10)
    ∧ after t1Init W (Proc.devRef .tc main_arg2) = W (Proc.devRef .tc main_arg2) := by
  simp only [t1Init, hostOps1, List.drop_succ_cons, List.drop_zero, List.take_succ_cons, List.take_zero]
  refine ⟨?_, ?_, ?_, ?_, ?_⟩ <;> after_results_simp

set_option maxHeartbeats 4000000 in
/-- Relation 0's piece: the running sum plus relation 0's scaled aggregate plus its bias row. -/
theorem t1Rel0_out (W : Valuation τ sig (Elt F)) :
    after t1Rel0 W (Proc.devRef .tc main_v90)
      = Cert.KSpec.step256 0 (W (Proc.devRef .tc main_v64)) (W (Proc.devRef .tc main_v63)) (W (Proc.devRef .tc main_v62))
          (W (Proc.devRef .tc main_arg9)) (W (Proc.devRef .tc main_arg10)) (W (Proc.devRef .tc main_arg2)) := by
  simp only [t1Rel0, hostOps1, List.drop_succ_cons, List.drop_zero, List.take_succ_cons, List.take_zero]
  after_results_simp
  rfl

set_option maxHeartbeats 4000000 in
/-- Relation 0's piece writes none of the five buffers the later relations read. -/
theorem t1Rel0_keep (W : Valuation τ sig (Elt F)) :
    after t1Rel0 W (Proc.devRef .tc main_v63) = W (Proc.devRef .tc main_v63)
    ∧ after t1Rel0 W (Proc.devRef .tc main_v62) = W (Proc.devRef .tc main_v62)
    ∧ after t1Rel0 W (Proc.devRef .tc main_arg9) = W (Proc.devRef .tc main_arg9)
    ∧ after t1Rel0 W (Proc.devRef .tc main_arg10) = W (Proc.devRef .tc main_arg10)
    ∧ after t1Rel0 W (Proc.devRef .tc main_arg2) = W (Proc.devRef .tc main_arg2) := by
  simp only [t1Rel0, hostOps1, List.drop_succ_cons, List.drop_zero, List.take_succ_cons, List.take_zero]
  refine ⟨?_, ?_, ?_, ?_, ?_⟩ <;> after_results_simp

set_option maxHeartbeats 4000000 in
/-- Relation 1's piece: the running sum plus relation 1's scaled aggregate plus its bias row. -/
theorem t1Rel1_out (W : Valuation τ sig (Elt F)) :
    after t1Rel1 W (Proc.devRef .tc main_v116)
      = Cert.KSpec.step256 1 (W (Proc.devRef .tc main_v90)) (W (Proc.devRef .tc main_v63)) (W (Proc.devRef .tc main_v62))
          (W (Proc.devRef .tc main_arg9)) (W (Proc.devRef .tc main_arg10)) (W (Proc.devRef .tc main_arg2)) := by
  simp only [t1Rel1, hostOps1, List.drop_succ_cons, List.drop_zero, List.take_succ_cons, List.take_zero]
  after_results_simp
  rfl

set_option maxHeartbeats 4000000 in
/-- Relation 1's piece writes none of the five buffers the later relations read. -/
theorem t1Rel1_keep (W : Valuation τ sig (Elt F)) :
    after t1Rel1 W (Proc.devRef .tc main_v63) = W (Proc.devRef .tc main_v63)
    ∧ after t1Rel1 W (Proc.devRef .tc main_v62) = W (Proc.devRef .tc main_v62)
    ∧ after t1Rel1 W (Proc.devRef .tc main_arg9) = W (Proc.devRef .tc main_arg9)
    ∧ after t1Rel1 W (Proc.devRef .tc main_arg10) = W (Proc.devRef .tc main_arg10)
    ∧ after t1Rel1 W (Proc.devRef .tc main_arg2) = W (Proc.devRef .tc main_arg2) := by
  simp only [t1Rel1, hostOps1, List.drop_succ_cons, List.drop_zero, List.take_succ_cons, List.take_zero]
  refine ⟨?_, ?_, ?_, ?_, ?_⟩ <;> after_results_simp

set_option maxHeartbeats 4000000 in
/-- Relation 2's piece: the running sum plus relation 2's scaled aggregate plus its bias row. -/
theorem t1Rel2_out (W : Valuation τ sig (Elt F)) :
    after t1Rel2 W (Proc.devRef .tc main_v142)
      = Cert.KSpec.step256 2 (W (Proc.devRef .tc main_v116)) (W (Proc.devRef .tc main_v63)) (W (Proc.devRef .tc main_v62))
          (W (Proc.devRef .tc main_arg9)) (W (Proc.devRef .tc main_arg10)) (W (Proc.devRef .tc main_arg2)) := by
  simp only [t1Rel2, hostOps1, List.drop_succ_cons, List.drop_zero, List.take_succ_cons, List.take_zero]
  after_results_simp
  rfl

set_option maxHeartbeats 4000000 in
/-- Relation 2's piece writes none of the five buffers the later relations read. -/
theorem t1Rel2_keep (W : Valuation τ sig (Elt F)) :
    after t1Rel2 W (Proc.devRef .tc main_v63) = W (Proc.devRef .tc main_v63)
    ∧ after t1Rel2 W (Proc.devRef .tc main_v62) = W (Proc.devRef .tc main_v62)
    ∧ after t1Rel2 W (Proc.devRef .tc main_arg9) = W (Proc.devRef .tc main_arg9)
    ∧ after t1Rel2 W (Proc.devRef .tc main_arg10) = W (Proc.devRef .tc main_arg10)
    ∧ after t1Rel2 W (Proc.devRef .tc main_arg2) = W (Proc.devRef .tc main_arg2) := by
  simp only [t1Rel2, hostOps1, List.drop_succ_cons, List.drop_zero, List.take_succ_cons, List.take_zero]
  refine ⟨?_, ?_, ?_, ?_, ?_⟩ <;> after_results_simp

set_option maxHeartbeats 4000000 in
/-- Relation 3's piece: the running sum plus relation 3's scaled aggregate plus its bias row. -/
theorem t1Rel3_out (W : Valuation τ sig (Elt F)) :
    after t1Rel3 W (Proc.devRef .tc main_v168)
      = Cert.KSpec.step256 3 (W (Proc.devRef .tc main_v142)) (W (Proc.devRef .tc main_v63)) (W (Proc.devRef .tc main_v62))
          (W (Proc.devRef .tc main_arg9)) (W (Proc.devRef .tc main_arg10)) (W (Proc.devRef .tc main_arg2)) := by
  simp only [t1Rel3, hostOps1, List.drop_succ_cons, List.drop_zero, List.take_succ_cons, List.take_zero]
  after_results_simp
  rfl

/-- The three operations after the sum take max(., 0). -/
theorem t1Relu (W : Valuation τ sig (Elt F)) :
    after hostOps1_1 W (Proc.devRef .tc main_v169) = Cert.KSpec.relu256 (W (Proc.devRef .tc main_v168)) := by
  after_results_simp
  rfl

set_option maxHeartbeats 4000000 in
/-- The first layer's host stretches, from any buffer contents: max(., 0) of the sum over the four relations. -/
theorem tail1 (V : Valuation τ sig (Elt F)) :
    after hostOps1_1 (after hostOps1 V) (Proc.devRef .tc main_v169)
      = Cert.KSpec.relu256 (Cert.KSpec.tail256 (V (Proc.devRef .tc main_v63)) (V (Proc.devRef .tc main_v62))
          (V (Proc.devRef .tc main_arg9)) (V (Proc.devRef .tc main_arg10)) (V (Proc.devRef .tc main_arg2))) := by
  rw [t1Relu, hostOps1_split, after_append, after_append, after_append, after_append]
  rw [t1Rel3_out]
  rw [t1Rel2_out, (t1Rel2_keep _).1, (t1Rel2_keep _).2.1, (t1Rel2_keep _).2.2.1, (t1Rel2_keep _).2.2.2.1, (t1Rel2_keep _).2.2.2.2]
  rw [t1Rel1_out, (t1Rel1_keep _).1, (t1Rel1_keep _).2.1, (t1Rel1_keep _).2.2.1, (t1Rel1_keep _).2.2.2.1, (t1Rel1_keep _).2.2.2.2]
  rw [t1Rel0_out, (t1Rel0_keep _).1, (t1Rel0_keep _).2.1, (t1Rel0_keep _).2.2.1, (t1Rel0_keep _).2.2.2.1, (t1Rel0_keep _).2.2.2.2]
  rw [t1Init_out, (t1Init_keep _).1, (t1Init_keep _).2.1, (t1Init_keep _).2.2.1, (t1Init_keep _).2.2.2.1, (t1Init_keep _).2.2.2.2]
  rfl

end Cert.KernelIdeal.HostRead
-- ==== Proof.KI.HostTail2.lean ====
import proofs.«111407_j24215025614983_1_alg».proof.Proof.Gen.KernelIdeal.Launch
import proofs.«111407_j24215025614983_1_alg».proof.Proof.SpecK
import Idealize.ShloMosaic.Lib.StableHlo.Run
import Idealize.ShloMosaic.Lib.Pipeline.Frame

/-!
# The second layer's host stretch as the specification's sum over the four relations

After the second projection the program adds up, relation by relation, the aggregate of that relation's slice of the
stacked projections (rows gathered at the edges' sources, added into the rows of the edges' targets), scaled per
target node by the relation's column of the degree scale, plus the relation's bias row; the running sum starts from
zero. The stretch is cut into the zero start (two operations) and one piece of 29 operations per relation. Run from
ANY buffer contents, the piece of relation `r` puts `KSpec.step256 r` of the incoming running sum into the next
running-sum buffer, and no piece touches the stacked projections, the degree scale, the two edge tables or the bias
table. Composing the five pieces gives `KSpec.tail256` of what those five buffers held when the stretch began;
the three operations that follow take max(., 0).
-/

set_option maxRecDepth 8000

noncomputable section

namespace Cert.KernelIdeal.HostRead

open Idealize.ShloMosaic Idealize.ShloMosaic.TcCoe StableHlo Cert.KernelIdeal Cert.KernelIdeal.Gen

variable {F : FTy → Type} [FloatOps F]

/-- The zero start of the running sum: the stretch's first two operations. -/
def t2Init : List (HloOp τ sig (Elt F)) := (hostOps2 (F := F)).take 2
/-- Relation 0's 29 operations. -/
def t2Rel0 : List (HloOp τ sig (Elt F)) := ((hostOps2 (F := F)).drop 2).take 29
/-- Relation 1's 29 operations. -/
def t2Rel1 : List (HloOp τ sig (Elt F)) := ((hostOps2 (F := F)).drop 31).take 29
/-- Relation 2's 29 operations. -/
def t2Rel2 : List (HloOp τ sig (Elt F)) := ((hostOps2 (F := F)).drop 60).take 29
/-- Relation 3's 29 operations. -/
def t2Rel3 : List (HloOp τ sig (Elt F)) := (hostOps2 (F := F)).drop 89

set_option maxHeartbeats 4000000 in
/-- The stretch is its five pieces in order. -/
theorem hostOps2_split : (hostOps2 : List (HloOp τ sig (Elt F))) = t2Init ++ (t2Rel0 ++ (t2Rel1 ++ (t2Rel2 ++ t2Rel3))) := rfl

/-- The start: the running sum is zero everywhere. -/
theorem t2Init_out (W : Valuation τ sig (Elt F)) :
    after t2Init W (Proc.devRef .tc main_v171)
      = broadcastInDim S50000x256 ![] bcast_S_S50000x256 (constant S_ .f32 0x00000000#32) := by
  simp only [t2Init, hostOps2, List.drop_succ_cons, List.drop_zero, List.take_succ_cons, List.take_zero]
  after_results_simp

/-- The start writes none of the five buffers the relations read. -/
theorem t2Init_keep (W : Valuation τ sig (Elt F)) :
    after t2Init W (Proc.devRef .tc main_v170) = W (Proc.devRef .tc main_v170)
    ∧ after t2Init W (Proc.devRef .tc main_v62) = W (Proc.devRef .tc main_v62)
    ∧ after t2Init W (Proc.devRef .tc main_arg9) = W (Proc.devRef .tc main_arg9)
    ∧ after t2Init W (Proc.devRef .tc main_arg10) = W (Proc.devRef .tc main_arg10)
    ∧ after t2Init W (Proc.devRef .tc main_arg4) = W (Proc.devRef .tc main_arg4) := by
  simp only [t2Init, hostOps2, List.drop_succ_cons, List.drop_zero, List.take_succ_cons, List.take_zero]
  refine ⟨?_, ?_, ?_, ?_, ?_⟩ <;> after_results_simp

set_option maxHeartbeats 4000000 in
/-- Relation 0's piece: the running sum plus relation 0's scaled aggregate plus its bias row. -/
theorem t2Rel0_out (W : Valuation τ sig (Elt F)) :
    after t2Rel0 W (Proc.devRef .tc main_v197)
      = Cert.KSpec.step256 0 (W (Proc.devRef .tc main_v171)) (W (Proc.devRef .tc main_v170)) (W (Proc.devRef .tc main_v62))
          (W (Proc.devRef .tc main_arg9)) (W (Proc.devRef .tc main_arg10)) (W (Proc.devRef .tc main_arg4)) := by
  simp only [t2Rel0, hostOps2, List.drop_succ_cons, List.drop_zero, List.take_succ_cons, List.take_zero]
  after_results_simp
  rfl

set_option maxHeartbeats 4000000 in
/-- Relation 0's piece writes none of the five buffers the later relations read. -/
theorem t2Rel0_keep (W : Valuation τ sig (Elt F)) :
    after t2Rel0 W (Proc.devRef .tc main_v170) = W (Proc.devRef .tc main_v170)
    ∧ after t2Rel0 W (Proc.devRef .tc main_v62) = W (Proc.devRef .tc main_v62)
    ∧ after t2Rel0 W (Proc.devRef .tc main_arg9) = W (Proc.devRef .tc main_arg9)
    ∧ after t2Rel0 W (Proc.devRef .tc main_arg10) = W (Proc.devRef .tc main_arg10)
    ∧ after t2Rel0 W (Proc.devRef .tc main_arg4) = W (Proc.devRef .tc main_arg4) := by
  simp only [t2Rel0, hostOps2, List.drop_succ_cons, List.drop_zero, List.take_succ_cons, List.take_zero]
  refine ⟨?_, ?_, ?_, ?_, ?_⟩ <;> after_results_simp

set_option maxHeartbeats 4000000 in
/-- Relation 1's piece: the running sum plus relation 1's scaled aggregate plus its bias row. -/
theorem t2Rel1_out (W : Valuation τ sig (Elt F)) :
    after t2Rel1 W (Proc.devRef .tc main_v223)
      = Cert.KSpec.step256 1 (W (Proc.devRef .tc main_v197)) (W (Proc.devRef .tc main_v170)) (W (Proc.devRef .tc main_v62))
          (W (Proc.devRef .tc main_arg9)) (W (Proc.devRef .tc main_arg10)) (W (Proc.devRef .tc main_arg4)) := by
  simp only [t2Rel1, hostOps2, List.drop_succ_cons, List.drop_zero, List.take_succ_cons, List.take_zero]
  after_results_simp
  rfl

set_option maxHeartbeats 4000000 in
/-- Relation 1's piece writes none of the five buffers the later relations read. -/
theorem t2Rel1_keep (W : Valuation τ sig (Elt F)) :
    after t2Rel1 W (Proc.devRef .tc main_v170) = W (Proc.devRef .tc main_v170)
    ∧ after t2Rel1 W (Proc.devRef .tc main_v62) = W (Proc.devRef .tc main_v62)
    ∧ after t2Rel1 W (Proc.devRef .tc main_arg9) = W (Proc.devRef .tc main_arg9)
    ∧ after t2Rel1 W (Proc.devRef .tc main_arg10) = W (Proc.devRef .tc main_arg10)
    ∧ after t2Rel1 W (Proc.devRef .tc main_arg4) = W (Proc.devRef .tc main_arg4) := by
  simp only [t2Rel1, hostOps2, List.drop_succ_cons, List.drop_zero, List.take_succ_cons, List.take_zero]
  refine ⟨?_, ?_, ?_, ?_, ?_⟩ <;> after_results_simp

set_option maxHeartbeats 4000000 in
/-- Relation 2's piece: the running sum plus relation 2's scaled aggregate plus its bias row. -/
theorem t2Rel2_out (W : Valuation τ sig (Elt F)) :
    after t2Rel2 W (Proc.devRef .tc main_v249)
      = Cert.KSpec.step256 2 (W (Proc.devRef .tc main_v223)) (W (Proc.devRef .tc main_v170)) (W (Proc.devRef .tc main_v62))
          (W (Proc.devRef .tc main_arg9)) (W (Proc.devRef .tc main_arg10)) (W (Proc.devRef .tc main_arg4)) := by
  simp only [t2Rel2, hostOps2, List.drop_succ_cons, List.drop_zero, List.take_succ_cons, List.take_zero]
  after_results_simp
  rfl

set_option maxHeartbeats 4000000 in
/-- Relation 2's piece writes none of the five buffers the later relations read. -/
theorem t2Rel2_keep (W : Valuation τ sig (Elt F)) :
    after t2Rel2 W (Proc.devRef .tc main_v170) = W (Proc.devRef .tc main_v170)
    ∧ after t2Rel2 W (Proc.devRef .tc main_v62) = W (Proc.devRef .tc main_v62)
    ∧ after t2Rel2 W (Proc.devRef .tc main_arg9) = W (Proc.devRef .tc main_arg9)
    ∧ after t2Rel2 W (Proc.devRef .tc main_arg10) = W (Proc.devRef .tc main_arg10)
    ∧ after t2Rel2 W (Proc.devRef .tc main_arg4) = W (Proc.devRef .tc main_arg4) := by
  simp only [t2Rel2, hostOps2, List.drop_succ_cons, List.drop_zero, List.take_succ_cons, List.take_zero]
  refine ⟨?_, ?_, ?_, ?_, ?_⟩ <;> after_results_simp

set_option maxHeartbeats 4000000 in
/-- Relation 3's piece: the running sum plus relation 3's scaled aggregate plus its bias row. -/
theorem t2Rel3_out (W : Valuation τ sig (Elt F)) :
    after t2Rel3 W (Proc.devRef .tc main_v275)
      = Cert.KSpec.step256 3 (W (Proc.devRef .tc main_v249)) (W (Proc.devRef .tc main_v170)) (W (Proc.devRef .tc main_v62))
          (W (Proc.devRef .tc main_arg9)) (W (Proc.devRef .tc main_arg10)) (W (Proc.devRef .tc main_arg4)) := by
  simp only [t2Rel3, hostOps2, List.drop_succ_cons, List.drop_zero, List.take_succ_cons, List.take_zero]
  after_results_simp
  rfl

/-- The three operations after the sum take max(., 0). -/
theorem t2Relu (W : Valuation τ sig (Elt F)) :
    after hostOps2_1 W (Proc.devRef .tc main_v276) = Cert.KSpec.relu256 (W (Proc.devRef .tc main_v275)) := by
  after_results_simp
  rfl

set_option maxHeartbeats 4000000 in
/-- The second layer's host stretches, from any buffer contents: max(., 0) of the sum over the four relations. -/
theorem tail2 (V : Valuation τ sig (Elt F)) :
    after hostOps2_1 (after hostOps2 V) (Proc.devRef .tc main_v276)
      = Cert.KSpec.relu256 (Cert.KSpec.tail256 (V (Proc.devRef .tc main_v170)) (V (Proc.devRef .tc main_v62))
          (V (Proc.devRef .tc main_arg9)) (V (Proc.devRef .tc main_arg10)) (V (Proc.devRef .tc main_arg4))) := by
  rw [t2Relu, hostOps2_split, after_append, after_append, after_append, after_append]
  rw [t2Rel3_out]
  rw [t2Rel2_out, (t2Rel2_keep _).1, (t2Rel2_keep _).2.1, (t2Rel2_keep _).2.2.1, (t2Rel2_keep _).2.2.2.1, (t2Rel2_keep _).2.2.2.2]
  rw [t2Rel1_out, (t2Rel1_keep _).1, (t2Rel1_keep _).2.1, (t2Rel1_keep _).2.2.1, (t2Rel1_keep _).2.2.2.1, (t2Rel1_keep _).2.2.2.2]
  rw [t2Rel0_out, (t2Rel0_keep _).1, (t2Rel0_keep _).2.1, (t2Rel0_keep _).2.2.1, (t2Rel0_keep _).2.2.2.1, (t2Rel0_keep _).2.2.2.2]
  rw [t2Init_out, (t2Init_keep _).1, (t2Init_keep _).2.1, (t2Init_keep _).2.2.1, (t2Init_keep _).2.2.2.1, (t2Init_keep _).2.2.2.2]
  rfl

end Cert.KernelIdeal.HostRead
-- ==== Proof.KI.HostTail3.lean ====
import proofs.«111407_j24215025614983_1_alg».proof.Proof.Gen.KernelIdeal.Launch
import proofs.«111407_j24215025614983_1_alg».proof.Proof.SpecK
import Idealize.ShloMosaic.Lib.StableHlo.Run
import Idealize.ShloMosaic.Lib.Pipeline.Frame

/-!
# The third layer's host stretch as the specification's sum over the four relations

After the third projection the program adds up, relation by relation, the aggregate of that relation's slice of the
stacked projections (rows gathered at the edges' sources, added into the rows of the edges' targets), scaled per
target node by the relation's column of the degree scale, plus the relation's bias row; the running sum starts from
zero. The stretch is cut into the zero start (two operations) and one piece of 29 operations per relation. Run from
ANY buffer contents, the piece of relation `r` puts `KSpec.step256 r` of the incoming running sum into the next
running-sum buffer, and no piece touches the stacked projections, the degree scale, the two edge tables or the bias
table. Composing the five pieces gives `KSpec.tail256` of what those five buffers held when the stretch began;
the three operations that follow take max(., 0).
-/

set_option maxRecDepth 8000

noncomputable section

namespace Cert.KernelIdeal.HostRead

open Idealize.ShloMosaic Idealize.ShloMosaic.TcCoe StableHlo Cert.KernelIdeal Cert.KernelIdeal.Gen

variable {F : FTy → Type} [FloatOps F]

/-- The zero start of the running sum: the stretch's first two operations. -/
def t3Init : List (HloOp τ sig (Elt F)) := (hostOps3 (F := F)).take 2
/-- Relation 0's 29 operations. -/
def t3Rel0 : List (HloOp τ sig (Elt F)) := ((hostOps3 (F := F)).drop 2).take 29
/-- Relation 1's 29 operations. -/
def t3Rel1 : List (HloOp τ sig (Elt F)) := ((hostOps3 (F := F)).drop 31).take 29
/-- Relation 2's 29 operations. -/
def t3Rel2 : List (HloOp τ sig (Elt F)) := ((hostOps3 (F := F)).drop 60).take 29
/-- Relation 3's 29 operations. -/
def t3Rel3 : List (HloOp τ sig (Elt F)) := (hostOps3 (F := F)).drop 89

set_option maxHeartbeats 4000000 in
/-- The stretch is its five pieces in order. -/
theorem hostOps3_split : (hostOps3 : List (HloOp τ sig (Elt F))) = t3Init ++ (t3Rel0 ++ (t3Rel1 ++ (t3Rel2 ++ t3Rel3))) := rfl

/-- The start: the running sum is zero everywhere. -/
theorem t3Init_out (W : Valuation τ sig (Elt F)) :
    after t3Init W (Proc.devRef .tc main_v278)
      = broadcastInDim S50000x256 ![] bcast_S_S50000x256 (constant S_ .f32 0x00000000#32) := by
  simp only [t3Init, hostOps3, List.drop_succ_cons, List.drop_zero, List.take_succ_cons, List.take_zero]
  after_results_simp

/-- The start writes none of the five buffers the relations read. -/
theorem t3Init_keep (W : Valuation τ sig (Elt F)) :
    after t3Init W (Proc.devRef .tc main_v277) = W (Proc.devRef .tc main_v277)
    ∧ after t3Init W (Proc.devRef .tc main_v62) = W (Proc.devRef .tc main_v62)
    ∧ after t3Init W (Proc.devRef .tc main_arg9) = W (Proc.devRef .tc main_arg9)
    ∧ after t3Init W (Proc.devRef .tc main_arg10) = W (Proc.devRef .tc main_arg10)
    ∧ after t3Init W (Proc.devRef .tc main_arg6) = W (Proc.devRef .tc main_arg6) := by
  simp only [t3Init, hostOps3, List.drop_succ_cons, List.drop_zero, List.take_succ_cons, List.take_zero]
  refine ⟨?_, ?_, ?_, ?_, ?_⟩ <;> after_results_simp

set_option maxHeartbeats 4000000 in
/-- Relation 0's piece: the running sum plus relation 0's scaled aggregate plus its bias row. -/
theorem t3Rel0_out (W : Valuation τ sig (Elt F)) :
    after t3Rel0 W (Proc.devRef .tc main_v304)
      = Cert.KSpec.step256 0 (W (Proc.devRef .tc main_v278)) (W (Proc.devRef .tc main_v277)) (W (Proc.devRef .tc main_v62))
          (W (Proc.devRef .tc main_arg9)) (W (Proc.devRef .tc main_arg10)) (W (Proc.devRef .tc main_arg6)) := by
  simp only [t3Rel0, hostOps3, List.drop_succ_cons, List.drop_zero, List.take_succ_cons, List.take_zero]
  after_results_simp
  rfl

set_option maxHeartbeats 4000000 in
/-- Relation 0's piece writes none of the five buffers the later relations read. -/
theorem t3Rel0_keep (W : Valuation τ sig (Elt F)) :
    after t3Rel0 W (Proc.devRef .tc main_v277) = W (Proc.devRef .tc main_v277)
    ∧ after t3Rel0 W (Proc.devRef .tc main_v62) = W (Proc.devRef .tc main_v62)
    ∧ after t3Rel0 W (Proc.devRef .tc main_arg9) = W (Proc.devRef .tc main_arg9)
    ∧ after t3Rel0 W (Proc.devRef .tc main_arg10) = W (Proc.devRef .tc main_arg10)
    ∧ after t3Rel0 W (Proc.devRef .tc main_arg6) = W (Proc.devRef .tc main_arg6) := by
  simp only [t3Rel0, hostOps3, List.drop_succ_cons, List.drop_zero, List.take_succ_cons, List.take_zero]
  refine ⟨?_, ?_, ?_, ?_, ?_⟩ <;> after_results_simp

set_option maxHeartbeats 4000000 in
/-- Relation 1's piece: the running sum plus relation 1's scaled aggregate plus its bias row. -/
theorem t3Rel1_out (W : Valuation τ sig (Elt F)) :
    after t3Rel1 W (Proc.devRef .tc main_v330)
      = Cert.KSpec.step256 1 (W (Proc.devRef .tc main_v304)) (W (Proc.devRef .tc main_v277)) (W (Proc.devRef .tc main_v62))
          (W (Proc.devRef .tc main_arg9)) (W (Proc.devRef .tc main_arg10)) (W (Proc.devRef .tc main_arg6)) := by
  simp only [t3Rel1, hostOps3, List.drop_succ_cons, List.drop_zero, List.take_succ_cons, List.take_zero]
  after_results_simp
  rfl

set_option maxHeartbeats 4000000 in
/-- Relation 1's piece writes none of the five buffers the later relations read. -/
theorem t3Rel1_keep (W : Valuation τ sig (Elt F)) :
    after t3Rel1 W (Proc.devRef .tc main_v277) = W (Proc.devRef .tc main_v277)
    ∧ after t3Rel1 W (Proc.devRef .tc main_v62) = W (Proc.devRef .tc main_v62)
    ∧ after t3Rel1 W (Proc.devRef .tc main_arg9) = W (Proc.devRef .tc main_arg9)
    ∧ after t3Rel1 W (Proc.devRef .tc main_arg10) = W (Proc.devRef .tc main_arg10)
    ∧ after t3Rel1 W (Proc.devRef .tc main_arg6) = W (Proc.devRef .tc main_arg6) := by
  simp only [t3Rel1, hostOps3, List.drop_succ_cons, List.drop_zero, List.take_succ_cons, List.take_zero]
  refine ⟨?_, ?_, ?_, ?_, ?_⟩ <;> after_results_simp

set_option maxHeartbeats 4000000 in
/-- Relation 2's piece: the running sum plus relation 2's scaled aggregate plus its bias row. -/
theorem t3Rel2_out (W : Valuation τ sig (Elt F)) :
    after t3Rel2 W (Proc.devRef .tc main_v356)
      = Cert.KSpec.step256 2 (W (Proc.devRef .tc main_v330)) (W (Proc.devRef .tc main_v277)) (W (Proc.devRef .tc main_v62))
          (W (Proc.devRef .tc main_arg9)) (W (Proc.devRef .tc main_arg10)) (W (Proc.devRef .tc main_arg6)) := by
  simp only [t3Rel2, hostOps3, List.drop_succ_cons, List.drop_zero, List.take_succ_cons, List.take_zero]
  after_results_simp
  rfl

set_option maxHeartbeats 4000000 in
/-- Relation 2's piece writes none of the five buffers the later relations read. -/
theorem t3Rel2_keep (W : Valuation τ sig (Elt F)) :
    after t3Rel2 W (Proc.devRef .tc main_v277) = W (Proc.devRef .tc main_v277)
    ∧ after t3Rel2 W (Proc.devRef .tc main_v62) = W (Proc.devRef .tc main_v62)
    ∧ after t3Rel2 W (Proc.devRef .tc main_arg9) = W (Proc.devRef .tc main_arg9)
    ∧ after t3Rel2 W (Proc.devRef .tc main_arg10) = W (Proc.devRef .tc main_arg10)
    ∧ after t3Rel2 W (Proc.devRef .tc main_arg6) = W (Proc.devRef .tc main_arg6) := by
  simp only [t3Rel2, hostOps3, List.drop_succ_cons, List.drop_zero, List.take_succ_cons, List.take_zero]
  refine ⟨?_, ?_, ?_, ?_, ?_⟩ <;> after_results_simp

set_option maxHeartbeats 4000000 in
/-- Relation 3's piece: the running sum plus relation 3's scaled aggregate plus its bias row. -/
theorem t3Rel3_out (W : Valuation τ sig (Elt F)) :
    after t3Rel3 W (Proc.devRef .tc main_v382)
      = Cert.KSpec.step256 3 (W (Proc.devRef .tc main_v356)) (W (Proc.devRef .tc main_v277)) (W (Proc.devRef .tc main_v62))
          (W (Proc.devRef .tc main_arg9)) (W (Proc.devRef .tc main_arg10)) (W (Proc.devRef .tc main_arg6)) := by
  simp only [t3Rel3, hostOps3, List.drop_succ_cons, List.drop_zero, List.take_succ_cons, List.take_zero]
  after_results_simp
  rfl

/-- The three operations after the sum take max(., 0). -/
theorem t3Relu (W : Valuation τ sig (Elt F)) :
    after hostOps3_1 W (Proc.devRef .tc main_v383) = Cert.KSpec.relu256 (W (Proc.devRef .tc main_v382)) := by
  after_results_simp
  rfl

set_option maxHeartbeats 4000000 in
/-- The third layer's host stretches, from any buffer contents: max(., 0) of the sum over the four relations. -/
theorem tail3 (V : Valuation τ sig (Elt F)) :
    after hostOps3_1 (after hostOps3 V) (Proc.devRef .tc main_v383)
      = Cert.KSpec.relu256 (Cert.KSpec.tail256 (V (Proc.devRef .tc main_v277)) (V (Proc.devRef .tc main_v62))
          (V (Proc.devRef .tc main_arg9)) (V (Proc.devRef .tc main_arg10)) (V (Proc.devRef .tc main_arg6))) := by
  rw [t3Relu, hostOps3_split, after_append, after_append, after_append, after_append]
  rw [t3Rel3_out]
  rw [t3Rel2_out, (t3Rel2_keep _).1, (t3Rel2_keep _).2.1, (t3Rel2_keep _).2.2.1, (t3Rel2_keep _).2.2.2.1, (t3Rel2_keep _).2.2.2.2]
  rw [t3Rel1_out, (t3Rel1_keep _).1, (t3Rel1_keep _).2.1, (t3Rel1_keep _).2.2.1, (t3Rel1_keep _).2.2.2.1, (t3Rel1_keep _).2.2.2.2]
  rw [t3Rel0_out, (t3Rel0_keep _).1, (t3Rel0_keep _).2.1, (t3Rel0_keep _).2.2.1, (t3Rel0_keep _).2.2.2.1, (t3Rel0_keep _).2.2.2.2]
  rw [t3Init_out, (t3Init_keep _).1, (t3Init_keep _).2.1, (t3Init_keep _).2.2.1, (t3Init_keep _).2.2.2.1, (t3Init_keep _).2.2.2.2]
  rfl

end Cert.KernelIdeal.HostRead
-- ==== Proof.KI.HostTail4.lean ====
import proofs.«111407_j24215025614983_1_alg».proof.Proof.Gen.KernelIdeal.Launch
import proofs.«111407_j24215025614983_1_alg».proof.Proof.SpecK
import Idealize.ShloMosaic.Lib.StableHlo.Run
import Idealize.ShloMosaic.Lib.Pipeline.Frame

/-!
# The last layer's host stretch as the specification's sum over the four relations

After the last projection the program adds up, relation by relation, the aggregate of that relation's slice of the
stacked projections (rows gathered at the edges' sources, added into the rows of the edges' targets), scaled per
target node by the relation's column of the degree scale, plus the relation's bias row; the running sum starts from
zero. The stretch is cut into the zero start (two operations) and one piece of 29 operations per relation. Run from
ANY buffer contents, the piece of relation `r` puts `KSpec.step128 r` of the incoming running sum into the next
running-sum buffer, and no piece touches the stacked projections, the degree scale, the two edge tables or the bias
table. Composing the five pieces gives `KSpec.tail128` of what those five buffers held when the stretch began.
-/

set_option maxRecDepth 8000

noncomputable section

namespace Cert.KernelIdeal.HostRead

open Idealize.ShloMosaic Idealize.ShloMosaic.TcCoe StableHlo Cert.KernelIdeal Cert.KernelIdeal.Gen

variable {F : FTy → Type} [FloatOps F]

/-- The zero start of the running sum: the stretch's first two operations. -/
def t4Init : List (HloOp τ sig (Elt F)) := (hostOps4 (F := F)).take 2
/-- Relation 0's 29 operations. -/
def t4Rel0 : List (HloOp τ sig (Elt F)) := ((hostOps4 (F := F)).drop 2).take 29
/-- Relation 1's 29 operations. -/
def t4Rel1 : List (HloOp τ sig (Elt F)) := ((hostOps4 (F := F)).drop 31).take 29
/-- Relation 2's 29 operations. -/
def t4Rel2 : List (HloOp τ sig (Elt F)) := ((hostOps4 (F := F)).drop 60).take 29
/-- Relation 3's 29 operations. -/
def t4Rel3 : List (HloOp τ sig (Elt F)) := (hostOps4 (F := F)).drop 89

set_option maxHeartbeats 4000000 in
/-- The stretch is its five pieces in order. -/
theorem hostOps4_split : (hostOps4 : List (HloOp τ sig (Elt F))) = t4Init ++ (t4Rel0 ++ (t4Rel1 ++ (t4Rel2 ++ t4Rel3))) := rfl

/-- The start: the running sum is zero everywhere. -/
theorem t4Init_out (W : Valuation τ sig (Elt F)) :
    after t4Init W (Proc.devRef .tc main_v385)
      = broadcastInDim S50000x128 ![] bcast_S_S50000x128 (constant S_ .f32 0x00000000#32) := by
  simp only [t4Init, hostOps4, List.drop_succ_cons, List.drop_zero, List.take_succ_cons, List.take_zero]
  after_results_simp

/-- The start writes none of the five buffers the relations read. -/
theorem t4Init_keep (W : Valuation τ sig (Elt F)) :
    after t4Init W (Proc.devRef .tc main_v384) = W (Proc.devRef .tc main_v384)
    ∧ after t4Init W (Proc.devRef .tc main_v62) = W (Proc.devRef .tc main_v62)
    ∧ after t4Init W (Proc.devRef .tc main_arg9) = W (Proc.devRef .tc main_arg9)
    ∧ after t4Init W (Proc.devRef .tc main_arg10) = W (Proc.devRef .tc main_arg10)
    ∧ after t4Init W (Proc.devRef .tc main_arg8) = W (Proc.devRef .tc main_arg8) := by
  simp only [t4Init, hostOps4, List.drop_succ_cons, List.drop_zero, List.take_succ_cons, List.take_zero]
  refine ⟨?_, ?_, ?_, ?_, ?_⟩ <;> after_results_simp

set_option maxHeartbeats 4000000 in
/-- Relation 0's piece: the running sum plus relation 0's scaled aggregate plus its bias row. -/
theorem t4Rel0_out (W : Valuation τ sig (Elt F)) :
    after t4Rel0 W (Proc.devRef .tc main_v411)
      = Cert.KSpec.step128 0 (W (Proc.devRef .tc main_v385)) (W (Proc.devRef .tc main_v384)) (W (Proc.devRef .tc main_v62))
          (W (Proc.devRef .tc main_arg9)) (W (Proc.devRef .tc main_arg10)) (W (Proc.devRef .tc main_arg8)) := by
  simp only [t4Rel0, hostOps4, List.drop_succ_cons, List.drop_zero, List.take_succ_cons, List.take_zero]
  after_results_simp
  rfl

set_option maxHeartbeats 4000000 in
/-- Relation 0's piece writes none of the five buffers the later relations read. -/
theorem t4Rel0_keep (W : Valuation τ sig (Elt F)) :
    after t4Rel0 W (Proc.devRef .tc main_v384) = W (Proc.devRef .tc main_v384)
    ∧ after t4Rel0 W (Proc.devRef .tc main_v62) = W (Proc.devRef .tc main_v62)
    ∧ after t4Rel0 W (Proc.devRef .tc main_arg9) = W (Proc.devRef .tc main_arg9)
    ∧ after t4Rel0 W (Proc.devRef .tc main_arg10) = W (Proc.devRef .tc main_arg10)
    ∧ after t4Rel0 W (Proc.devRef .tc main_arg8) = W (Proc.devRef .tc main_arg8) := by
  simp only [t4Rel0, hostOps4, List.drop_succ_cons, List.drop_zero, List.take_succ_cons, List.take_zero]
  refine ⟨?_, ?_, ?_, ?_, ?_⟩ <;> after_results_simp

set_option maxHeartbeats 4000000 in
/-- Relation 1's piece: the running sum plus relation 1's scaled aggregate plus its bias row. -/
theorem t4Rel1_out (W : Valuation τ sig (Elt F)) :
    after t4Rel1 W (Proc.devRef .tc main_v437)
      = Cert.KSpec.step128 1 (W (Proc.devRef .tc main_v411)) (W (Proc.devRef .tc main_v384)) (W (Proc.devRef .tc main_v62))
          (W (Proc.devRef .tc main_arg9)) (W (Proc.devRef .tc main_arg10)) (W (Proc.devRef .tc main_arg8)) := by
  simp only [t4Rel1, hostOps4, List.drop_succ_cons, List.drop_zero, List.take_succ_cons, List.take_zero]
  after_results_simp
  rfl

set_option maxHeartbeats 4000000 in
/-- Relation 1's piece writes none of the five buffers the later relations read. -/
theorem t4Rel1_keep (W : Valuation τ sig (Elt F)) :
    after t4Rel1 W (Proc.devRef .tc main_v384) = W (Proc.devRef .tc main_v384)
    ∧ after t4Rel1 W (Proc.devRef .tc main_v62) = W (Proc.devRef .tc main_v62)
    ∧ after t4Rel1 W (Proc.devRef .tc main_arg9) = W (Proc.devRef .tc main_arg9)
    ∧ after t4Rel1 W (Proc.devRef .tc main_arg10) = W (Proc.devRef .tc main_arg10)
    ∧ after t4Rel1 W (Proc.devRef .tc main_arg8) = W (Proc.devRef .tc main_arg8) := by
  simp only [t4Rel1, hostOps4, List.drop_succ_cons, List.drop_zero, List.take_succ_cons, List.take_zero]
  refine ⟨?_, ?_, ?_, ?_, ?_⟩ <;> after_results_simp

set_option maxHeartbeats 4000000 in
/-- Relation 2's piece: the running sum plus relation 2's scaled aggregate plus its bias row. -/
theorem t4Rel2_out (W : Valuation τ sig (Elt F)) :
    after t4Rel2 W (Proc.devRef .tc main_v463)
      = Cert.KSpec.step128 2 (W (Proc.devRef .tc main_v437)) (W (Proc.devRef .tc main_v384)) (W (Proc.devRef .tc main_v62))
          (W (Proc.devRef .tc main_arg9)) (W (Proc.devRef .tc main_arg10)) (W (Proc.devRef .tc main_arg8)) := by
  simp only [t4Rel2, hostOps4, List.drop_succ_cons, List.drop_zero, List.take_succ_cons, List.take_zero]
  after_results_simp
  rfl

set_option maxHeartbeats 4000000 in
/-- Relation 2's piece writes none of the five buffers the later relations read. -/
theorem t4Rel2_keep (W : Valuation τ sig (Elt F)) :
    after t4Rel2 W (Proc.devRef .tc main_v384) = W (Proc.devRef .tc main_v384)
    ∧ after t4Rel2 W (Proc.devRef .tc main_v62) = W (Proc.devRef .tc main_v62)
    ∧ after t4Rel2 W (Proc.devRef .tc main_arg9) = W (Proc.devRef .tc main_arg9)
    ∧ after t4Rel2 W (Proc.devRef .tc main_arg10) = W (Proc.devRef .tc main_arg10)
    ∧ after t4Rel2 W (Proc.devRef .tc main_arg8) = W (Proc.devRef .tc main_arg8) := by
  simp only [t4Rel2, hostOps4, List.drop_succ_cons, List.drop_zero, List.take_succ_cons, List.take_zero]
  refine ⟨?_, ?_, ?_, ?_, ?_⟩ <;> after_results_simp

set_option maxHeartbeats 4000000 in
/-- Relation 3's piece: the running sum plus relation 3's scaled aggregate plus its bias row. -/
theorem t4Rel3_out (W : Valuation τ sig (Elt F)) :
    after t4Rel3 W (Proc.devRef .tc main_v489)
      = Cert.KSpec.step128 3 (W (Proc.devRef .tc main_v463)) (W (Proc.devRef .tc main_v384)) (W (Proc.devRef .tc main_v62))
          (W (Proc.devRef .tc main_arg9)) (W (Proc.devRef .tc main_arg10)) (W (Proc.devRef .tc main_arg8)) := by
  simp only [t4Rel3, hostOps4, List.drop_succ_cons, List.drop_zero, List.take_succ_cons, List.take_zero]
  after_results_simp
  rfl

set_option maxHeartbeats 4000000 in
/-- The last layer's host stretch, from any buffer contents: the sum over the four relations (no max(., 0) after it). -/
theorem tail4 (V : Valuation τ sig (Elt F)) :
    after hostOps4 V (Proc.devRef .tc main_v489)
      = Cert.KSpec.tail128 (V (Proc.devRef .tc main_v384)) (V (Proc.devRef .tc main_v62))
          (V (Proc.devRef .tc main_arg9)) (V (Proc.devRef .tc main_arg10)) (V (Proc.devRef .tc main_arg8)) := by
  rw [hostOps4_split, after_append, after_append, after_append, after_append]
  rw [t4Rel3_out]
  rw [t4Rel2_out, (t4Rel2_keep _).1, (t4Rel2_keep _).2.1, (t4Rel2_keep _).2.2.1, (t4Rel2_keep _).2.2.2.1, (t4Rel2_keep _).2.2.2.2]
  rw [t4Rel1_out, (t4Rel1_keep _).1, (t4Rel1_keep _).2.1, (t4Rel1_keep _).2.2.1, (t4Rel1_keep _).2.2.2.1, (t4Rel1_keep _).2.2.2.2]
  rw [t4Rel0_out, (t4Rel0_keep _).1, (t4Rel0_keep _).2.1, (t4Rel0_keep _).2.2.1, (t4Rel0_keep _).2.2.2.1, (t4Rel0_keep _).2.2.2.2]
  rw [t4Init_out, (t4Init_keep _).1, (t4Init_keep _).2.1, (t4Init_keep _).2.2.1, (t4Init_keep _).2.2.2.1, (t4Init_keep _).2.2.2.2]
  rfl

end Cert.KernelIdeal.HostRead
-- ==== Proof.KI.Value.lean ====
import proofs.«111407_j24215025614983_1_alg».proof.Proof.KI.Run
import proofs.«111407_j24215025614983_1_alg».proof.Proof.KI.ProjValue
import proofs.«111407_j24215025614983_1_alg».proof.Proof.KI.HostPre
import proofs.«111407_j24215025614983_1_alg».proof.Proof.KI.HostTail1
import proofs.«111407_j24215025614983_1_alg».proof.Proof.KI.HostTail2
import proofs.«111407_j24215025614983_1_alg».proof.Proof.KI.HostTail3
import proofs.«111407_j24215025614983_1_alg».proof.Proof.KI.HostTail4
import proofs.«111407_j24215025614983_1_alg».proof.Proof.SpecK

/-!
The kernel program's result as one function of its arguments, at the ideal values.

The buffer contents are followed through @main's 28 items. The two degree scales (rsqrt of the clipped out- and
in-degrees, stacked over the four relations) are computed before the first region and no later item writes them;
no item writes an argument. Each region leaves in its output array the stacked projections
(h * rsqrt degOut_r) W_r of its entry contents, and the host operations after it add, relation by relation, the
aggregate of that projection scaled by rsqrt degIn_r and the bias, then take max(., 0) (not after the last
layer). Composing the four layers gives `Cert.KSpec.net`.
-/

noncomputable section

namespace Cert.KernelIdeal.Hand

open Cert.KernelIdeal Cert.KernelIdeal.Gen Idealize.ShloMosaic Idealize.ShloMosaic.TcCoe Idealize.SL.Sem

section

variable (m : (ℓ : Loc nD τ sig) → Buf (Elt Ideal) ℓ) (ρ : Dev nD → PrngReg) (c : Dev nD)

/-! ## Nothing after the first region's entry writes an argument or a degree scale -/

theorem to17_18 (b : Ref sig .tc) (hb : b ∈ keepList) : W18 m ρ c (Proc.devRef .tc b) = W17 m ρ c (Proc.devRef .tc b) :=
  (W18_keep m ρ c b hb)
theorem to17_19 (b : Ref sig .tc) (hb : b ∈ keepList) : W19 m ρ c (Proc.devRef .tc b) = W17 m ρ c (Proc.devRef .tc b) :=
  (W19_keep m ρ c b hb).trans (to17_18 m ρ c b hb)
theorem to17_20 (b : Ref sig .tc) (hb : b ∈ keepList) : W20 m ρ c (Proc.devRef .tc b) = W17 m ρ c (Proc.devRef .tc b) :=
  (W20_keep m ρ c b hb).trans (to17_19 m ρ c b hb)
theorem to17_21 (b : Ref sig .tc) (hb : b ∈ keepList) : W21 m ρ c (Proc.devRef .tc b) = W17 m ρ c (Proc.devRef .tc b) :=
  (W21_keep m ρ c b hb).trans (to17_20 m ρ c b hb)
theorem to17_22 (b : Ref sig .tc) (hb : b ∈ keepList) : W22 m ρ c (Proc.devRef .tc b) = W17 m ρ c (Proc.devRef .tc b) :=
  (W22_keep m ρ c b hb).trans (to17_21 m ρ c b hb)
theorem to17_23 (b : Ref sig .tc) (hb : b ∈ keepList) : W23 m ρ c (Proc.devRef .tc b) = W17 m ρ c (Proc.devRef .tc b) :=
  (W23_keep m ρ c b hb).trans (to17_22 m ρ c b hb)
theorem to17_24 (b : Ref sig .tc) (hb : b ∈ keepList) : W24 m ρ c (Proc.devRef .tc b) = W17 m ρ c (Proc.devRef .tc b) :=
  (W24_keep m ρ c b hb).trans (to17_23 m ρ c b hb)
theorem to17_25 (b : Ref sig .tc) (hb : b ∈ keepList) : W25 m ρ c (Proc.devRef .tc b) = W17 m ρ c (Proc.devRef .tc b) :=
  (W25_keep m ρ c b hb).trans (to17_24 m ρ c b hb)
theorem to17_26 (b : Ref sig .tc) (hb : b ∈ keepList) : W26 m ρ c (Proc.devRef .tc b) = W17 m ρ c (Proc.devRef .tc b) :=
  (W26_keep m ρ c b hb).trans (to17_25 m ρ c b hb)
theorem to17_27 (b : Ref sig .tc) (hb : b ∈ keepList) : W27 m ρ c (Proc.devRef .tc b) = W17 m ρ c (Proc.devRef .tc b) :=
  (W27_keep m ρ c b hb).trans (to17_26 m ρ c b hb)
theorem to17_28 (b : Ref sig .tc) (hb : b ∈ keepList) : W28 m ρ c (Proc.devRef .tc b) = W17 m ρ c (Proc.devRef .tc b) :=
  (W28_keep m ρ c b hb).trans (to17_27 m ρ c b hb)

/-- An argument, at any boundary from the first region's entry on, holds its launch contents. -/
theorem arg17 (b : Ref sig .tc) (hb : b ∈ [main_arg0, main_arg1, main_arg2, main_arg3, main_arg4, main_arg5, main_arg6, main_arg7, main_arg8, main_arg9, main_arg10]) :
    W17 m ρ c (Proc.devRef .tc b) = m ((c.tc : Thread nD τ).loc b) := W17_arg m ρ c b hb

/-- The source-degree scale at the first region's entry. -/
theorem v60_17 : W17 m ρ c (Proc.devRef .tc main_v60) = Cert.KSpec.degScale (m ((c.tc : Thread nD τ).loc main_arg9)) :=
  Cert.KernelIdeal.HostRead.pre_v60 (W0 m ρ c)

/-- The target-degree scale at the first region's entry. -/
theorem v62_17 : W17 m ρ c (Proc.devRef .tc main_v62) = Cert.KSpec.degScale (m ((c.tc : Thread nD τ).loc main_arg10)) :=
  Cert.KernelIdeal.HostRead.pre_v62 (W0 m ρ c)

/-! ## The four layers -/

/-- The stacked projections region 0 leaves, from its entry contents. -/
theorem hw1 : W18 m ρ c (Proc.devRef .tc main_v63)
    = Cert.KSpec.proj256 (m ((c.tc : Thread nD τ).loc main_arg0)) (Cert.KSpec.degScale (m ((c.tc : Thread nD τ).loc main_arg9))) (m ((c.tc : Thread nD τ).loc main_arg1)) := by
  refine (W18_arr m ρ c 3).trans ((proj_value0 (V17 m ρ) c).trans ?_)
  rw [show V17 m ρ c main_arg0 = (m ((c.tc : Thread nD τ).loc main_arg0)) from arg17 m ρ c main_arg0 (by decide),
    show V17 m ρ c main_v60 = Cert.KSpec.degScale (m ((c.tc : Thread nD τ).loc main_arg9)) from v60_17 m ρ c,
    show V17 m ρ c main_arg1 = m ((c.tc : Thread nD τ).loc main_arg1) from arg17 m ρ c main_arg1 (by decide)]

/-- After layer 1 (region, host operations, max(., 0)). -/
theorem layer1 : W20 m ρ c (Proc.devRef .tc main_v169) = Cert.KSpec.relu256 (Cert.KSpec.layer256 (m ((c.tc : Thread nD τ).loc main_arg0)) (m ((c.tc : Thread nD τ).loc main_arg1)) (m ((c.tc : Thread nD τ).loc main_arg2)) (m ((c.tc : Thread nD τ).loc main_arg9)) (m ((c.tc : Thread nD τ).loc main_arg10))) := by
  refine (Cert.KernelIdeal.HostRead.tail1 (W18 m ρ c)).trans ?_
  rw [hw1 m ρ c,
    show W18 m ρ c (Proc.devRef .tc main_v62) = Cert.KSpec.degScale (m ((c.tc : Thread nD τ).loc main_arg10)) from (to17_18 m ρ c main_v62 (by decide)).trans (v62_17 m ρ c),
    show W18 m ρ c (Proc.devRef .tc main_arg9) = m ((c.tc : Thread nD τ).loc main_arg9) from (to17_18 m ρ c main_arg9 (by decide)).trans (arg17 m ρ c main_arg9 (by decide)),
    show W18 m ρ c (Proc.devRef .tc main_arg10) = m ((c.tc : Thread nD τ).loc main_arg10) from (to17_18 m ρ c main_arg10 (by decide)).trans (arg17 m ρ c main_arg10 (by decide)),
    show W18 m ρ c (Proc.devRef .tc main_arg2) = m ((c.tc : Thread nD τ).loc main_arg2) from (to17_18 m ρ c main_arg2 (by decide)).trans (arg17 m ρ c main_arg2 (by decide))]
  rfl

/-- The stacked projections region 1 leaves, from its entry contents. -/
theorem hw2 : W21 m ρ c (Proc.devRef .tc main_v170)
    = Cert.KSpec.proj256 (Cert.KSpec.relu256 (Cert.KSpec.layer256 (m ((c.tc : Thread nD τ).loc main_arg0)) (m ((c.tc : Thread nD τ).loc main_arg1)) (m ((c.tc : Thread nD τ).loc main_arg2)) (m ((c.tc : Thread nD τ).loc main_arg9)) (m ((c.tc : Thread nD τ).loc main_arg10)))) (Cert.KSpec.degScale (m ((c.tc : Thread nD τ).loc main_arg9))) (m ((c.tc : Thread nD τ).loc main_arg3)) := by
  refine (W21_arr m ρ c 3).trans ((proj_value1 (V20 m ρ) c).trans ?_)
  rw [show V20 m ρ c main_v169 = (Cert.KSpec.relu256 (Cert.KSpec.layer256 (m ((c.tc : Thread nD τ).loc main_arg0)) (m ((c.tc : Thread nD τ).loc main_arg1)) (m ((c.tc : Thread nD τ).loc main_arg2)) (m ((c.tc : Thread nD τ).loc main_arg9)) (m ((c.tc : Thread nD τ).loc main_arg10)))) from layer1 m ρ c,
    show V20 m ρ c main_v60 = Cert.KSpec.degScale (m ((c.tc : Thread nD τ).loc main_arg9)) from (to17_20 m ρ c main_v60 (by decide)).trans (v60_17 m ρ c),
    show V20 m ρ c main_arg3 = m ((c.tc : Thread nD τ).loc main_arg3) from (to17_20 m ρ c main_arg3 (by decide)).trans (arg17 m ρ c main_arg3 (by decide))]

/-- After layer 2 (region, host operations, max(., 0)). -/
theorem layer2 : W23 m ρ c (Proc.devRef .tc main_v276) = Cert.KSpec.relu256 (Cert.KSpec.layer256 (Cert.KSpec.relu256 (Cert.KSpec.layer256 (m ((c.tc : Thread nD τ).loc main_arg0)) (m ((c.tc : Thread nD τ).loc main_arg1)) (m ((c.tc : Thread nD τ).loc main_arg2)) (m ((c.tc : Thread nD τ).loc main_arg9)) (m ((c.tc : Thread nD τ).loc main_arg10)))) (m ((c.tc : Thread nD τ).loc main_arg3)) (m ((c.tc : Thread nD τ).loc main_arg4)) (m ((c.tc : Thread nD τ).loc main_arg9)) (m ((c.tc : Thread nD τ).loc main_arg10))) := by
  refine (Cert.KernelIdeal.HostRead.tail2 (W21 m ρ c)).trans ?_
  rw [hw2 m ρ c,
    show W21 m ρ c (Proc.devRef .tc main_v62) = Cert.KSpec.degScale (m ((c.tc : Thread nD τ).loc main_arg10)) from (to17_21 m ρ c main_v62 (by decide)).trans (v62_17 m ρ c),
    show W21 m ρ c (Proc.devRef .tc main_arg9) = m ((c.tc : Thread nD τ).loc main_arg9) from (to17_21 m ρ c main_arg9 (by decide)).trans (arg17 m ρ c main_arg9 (by decide)),
    show W21 m ρ c (Proc.devRef .tc main_arg10) = m ((c.tc : Thread nD τ).loc main_arg10) from (to17_21 m ρ c main_arg10 (by decide)).trans (arg17 m ρ c main_arg10 (by decide)),
    show W21 m ρ c (Proc.devRef .tc main_arg4) = m ((c.tc : Thread nD τ).loc main_arg4) from (to17_21 m ρ c main_arg4 (by decide)).trans (arg17 m ρ c main_arg4 (by decide))]
  rfl

/-- The stacked projections region 2 leaves, from its entry contents. -/
theorem hw3 : W24 m ρ c (Proc.devRef .tc main_v277)
    = Cert.KSpec.proj256 (Cert.KSpec.relu256 (Cert.KSpec.layer256 (Cert.KSpec.relu256 (Cert.KSpec.layer256 (m ((c.tc : Thread nD τ).loc main_arg0)) (m ((c.tc : Thread nD τ).loc main_arg1)) (m ((c.tc : Thread nD τ).loc main_arg2)) (m ((c.tc : Thread nD τ).loc main_arg9)) (m ((c.tc : Thread nD τ).loc main_arg10)))) (m ((c.tc : Thread nD τ).loc main_arg3)) (m ((c.tc : Thread nD τ).loc main_arg4)) (m ((c.tc : Thread nD τ).loc main_arg9)) (m ((c.tc : Thread nD τ).loc main_arg10)))) (Cert.KSpec.degScale (m ((c.tc : Thread nD τ).loc main_arg9))) (m ((c.tc : Thread nD τ).loc main_arg5)) := by
  refine (W24_arr m ρ c 3).trans ((proj_value2 (V23 m ρ) c).trans ?_)
  rw [show V23 m ρ c main_v276 = (Cert.KSpec.relu256 (Cert.KSpec.layer256 (Cert.KSpec.relu256 (Cert.KSpec.layer256 (m ((c.tc : Thread nD τ).loc main_arg0)) (m ((c.tc : Thread nD τ).loc main_arg1)) (m ((c.tc : Thread nD τ).loc main_arg2)) (m ((c.tc : Thread nD τ).loc main_arg9)) (m ((c.tc : Thread nD τ).loc main_arg10)))) (m ((c.tc : Thread nD τ).loc main_arg3)) (m ((c.tc : Thread nD τ).loc main_arg4)) (m ((c.tc : Thread nD τ).loc main_arg9)) (m ((c.tc : Thread nD τ).loc main_arg10)))) from layer2 m ρ c,
    show V23 m ρ c main_v60 = Cert.KSpec.degScale (m ((c.tc : Thread nD τ).loc main_arg9)) from (to17_23 m ρ c main_v60 (by decide)).trans (v60_17 m ρ c),
    show V23 m ρ c main_arg5 = m ((c.tc : Thread nD τ).loc main_arg5) from (to17_23 m ρ c main_arg5 (by decide)).trans (arg17 m ρ c main_arg5 (by decide))]

/-- After layer 3 (region, host operations, max(., 0)). -/
theorem layer3 : W26 m ρ c (Proc.devRef .tc main_v383) = Cert.KSpec.relu256 (Cert.KSpec.layer256 (Cert.KSpec.relu256 (Cert.KSpec.layer256 (Cert.KSpec.relu256 (Cert.KSpec.layer256 (m ((c.tc : Thread nD τ).loc main_arg0)) (m ((c.tc : Thread nD τ).loc main_arg1)) (m ((c.tc : Thread nD τ).loc main_arg2)) (m ((c.tc : Thread nD τ).loc main_arg9)) (m ((c.tc : Thread nD τ).loc main_arg10)))) (m ((c.tc : Thread nD τ).loc main_arg3)) (m ((c.tc : Thread nD τ).loc main_arg4)) (m ((c.tc : Thread nD τ).loc main_arg9)) (m ((c.tc : Thread nD τ).loc main_arg10)))) (m ((c.tc : Thread nD τ).loc main_arg5)) (m ((c.tc : Thread nD τ).loc main_arg6)) (m ((c.tc : Thread nD τ).loc main_arg9)) (m ((c.tc : Thread nD τ).loc main_arg10))) := by
  refine (Cert.KernelIdeal.HostRead.tail3 (W24 m ρ c)).trans ?_
  rw [hw3 m ρ c,
    show W24 m ρ c (Proc.devRef .tc main_v62) = Cert.KSpec.degScale (m ((c.tc : Thread nD τ).loc main_arg10)) from (to17_24 m ρ c main_v62 (by decide)).trans (v62_17 m ρ c),
    show W24 m ρ c (Proc.devRef .tc main_arg9) = m ((c.tc : Thread nD τ).loc main_arg9) from (to17_24 m ρ c main_arg9 (by decide)).trans (arg17 m ρ c main_arg9 (by decide)),
    show W24 m ρ c (Proc.devRef .tc main_arg10) = m ((c.tc : Thread nD τ).loc main_arg10) from (to17_24 m ρ c main_arg10 (by decide)).trans (arg17 m ρ c main_arg10 (by decide)),
    show W24 m ρ c (Proc.devRef .tc main_arg6) = m ((c.tc : Thread nD τ).loc main_arg6) from (to17_24 m ρ c main_arg6 (by decide)).trans (arg17 m ρ c main_arg6 (by decide))]
  rfl

/-- The stacked projections region 3 leaves, from its entry contents. -/
theorem hw4 : W27 m ρ c (Proc.devRef .tc main_v384)
    = Cert.KSpec.proj128 (Cert.KSpec.relu256 (Cert.KSpec.layer256 (Cert.KSpec.relu256 (Cert.KSpec.layer256 (Cert.KSpec.relu256 (Cert.KSpec.layer256 (m ((c.tc : Thread nD τ).loc main_arg0)) (m ((c.tc : Thread nD τ).loc main_arg1)) (m ((c.tc : Thread nD τ).loc main_arg2)) (m ((c.tc : Thread nD τ).loc main_arg9)) (m ((c.tc : Thread nD τ).loc main_arg10)))) (m ((c.tc : Thread nD τ).loc main_arg3)) (m ((c.tc : Thread nD τ).loc main_arg4)) (m ((c.tc : Thread nD τ).loc main_arg9)) (m ((c.tc : Thread nD τ).loc main_arg10)))) (m ((c.tc : Thread nD τ).loc main_arg5)) (m ((c.tc : Thread nD τ).loc main_arg6)) (m ((c.tc : Thread nD τ).loc main_arg9)) (m ((c.tc : Thread nD τ).loc main_arg10)))) (Cert.KSpec.degScale (m ((c.tc : Thread nD τ).loc main_arg9))) (m ((c.tc : Thread nD τ).loc main_arg7)) := by
  refine (W27_arr m ρ c 3).trans ((proj_value3 (V26 m ρ) c).trans ?_)
  rw [show V26 m ρ c main_v383 = (Cert.KSpec.relu256 (Cert.KSpec.layer256 (Cert.KSpec.relu256 (Cert.KSpec.layer256 (Cert.KSpec.relu256 (Cert.KSpec.layer256 (m ((c.tc : Thread nD τ).loc main_arg0)) (m ((c.tc : Thread nD τ).loc main_arg1)) (m ((c.tc : Thread nD τ).loc main_arg2)) (m ((c.tc : Thread nD τ).loc main_arg9)) (m ((c.tc : Thread nD τ).loc main_arg10)))) (m ((c.tc : Thread nD τ).loc main_arg3)) (m ((c.tc : Thread nD τ).loc main_arg4)) (m ((c.tc : Thread nD τ).loc main_arg9)) (m ((c.tc : Thread nD τ).loc main_arg10)))) (m ((c.tc : Thread nD τ).loc main_arg5)) (m ((c.tc : Thread nD τ).loc main_arg6)) (m ((c.tc : Thread nD τ).loc main_arg9)) (m ((c.tc : Thread nD τ).loc main_arg10)))) from layer3 m ρ c,
    show V26 m ρ c main_v60 = Cert.KSpec.degScale (m ((c.tc : Thread nD τ).loc main_arg9)) from (to17_26 m ρ c main_v60 (by decide)).trans (v60_17 m ρ c),
    show V26 m ρ c main_arg7 = m ((c.tc : Thread nD τ).loc main_arg7) from (to17_26 m ρ c main_arg7 (by decide)).trans (arg17 m ρ c main_arg7 (by decide))]

/-- After layer 4 (region and host operations: the result). -/
theorem layer4 : W28 m ρ c (Proc.devRef .tc main_v489) = Cert.KSpec.layer128 (Cert.KSpec.relu256 (Cert.KSpec.layer256 (Cert.KSpec.relu256 (Cert.KSpec.layer256 (Cert.KSpec.relu256 (Cert.KSpec.layer256 (m ((c.tc : Thread nD τ).loc main_arg0)) (m ((c.tc : Thread nD τ).loc main_arg1)) (m ((c.tc : Thread nD τ).loc main_arg2)) (m ((c.tc : Thread nD τ).loc main_arg9)) (m ((c.tc : Thread nD τ).loc main_arg10)))) (m ((c.tc : Thread nD τ).loc main_arg3)) (m ((c.tc : Thread nD τ).loc main_arg4)) (m ((c.tc : Thread nD τ).loc main_arg9)) (m ((c.tc : Thread nD τ).loc main_arg10)))) (m ((c.tc : Thread nD τ).loc main_arg5)) (m ((c.tc : Thread nD τ).loc main_arg6)) (m ((c.tc : Thread nD τ).loc main_arg9)) (m ((c.tc : Thread nD τ).loc main_arg10)))) (m ((c.tc : Thread nD τ).loc main_arg7)) (m ((c.tc : Thread nD τ).loc main_arg8)) (m ((c.tc : Thread nD τ).loc main_arg9)) (m ((c.tc : Thread nD τ).loc main_arg10)) := by
  refine (Cert.KernelIdeal.HostRead.tail4 (W27 m ρ c)).trans ?_
  rw [hw4 m ρ c,
    show W27 m ρ c (Proc.devRef .tc main_v62) = Cert.KSpec.degScale (m ((c.tc : Thread nD τ).loc main_arg10)) from (to17_27 m ρ c main_v62 (by decide)).trans (v62_17 m ρ c),
    show W27 m ρ c (Proc.devRef .tc main_arg9) = m ((c.tc : Thread nD τ).loc main_arg9) from (to17_27 m ρ c main_arg9 (by decide)).trans (arg17 m ρ c main_arg9 (by decide)),
    show W27 m ρ c (Proc.devRef .tc main_arg10) = m ((c.tc : Thread nD τ).loc main_arg10) from (to17_27 m ρ c main_arg10 (by decide)).trans (arg17 m ρ c main_arg10 (by decide)),
    show W27 m ρ c (Proc.devRef .tc main_arg8) = m ((c.tc : Thread nD τ).loc main_arg8) from (to17_27 m ρ c main_arg8 (by decide)).trans (arg17 m ρ c main_arg8 (by decide))]
  rfl

/-- The kernel program's result is the specification's network of its arguments. -/
theorem result_eq : W28 m ρ c (Proc.devRef .tc main_v489) = Cert.KSpec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  layer4 m ρ c

end

/-- Every weakly fair execution of the kernel program ends with the result at the specification's network of the
    arguments, the arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v489) = Cert.KSpec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v489 (by decide))).trans (result_eq m ρ c),
      (h c _ (mem_uc main_arg0 (by decide))).trans ((to17_28 m ρ c main_arg0 (by decide)).trans (arg17 m ρ c main_arg0 (by decide))),
      (h c _ (mem_uc main_arg1 (by decide))).trans ((to17_28 m ρ c main_arg1 (by decide)).trans (arg17 m ρ c main_arg1 (by decide))),
      (h c _ (mem_uc main_arg2 (by decide))).trans ((to17_28 m ρ c main_arg2 (by decide)).trans (arg17 m ρ c main_arg2 (by decide))),
      (h c _ (mem_uc main_arg3 (by decide))).trans ((to17_28 m ρ c main_arg3 (by decide)).trans (arg17 m ρ c main_arg3 (by decide))),
      (h c _ (mem_uc main_arg4 (by decide))).trans ((to17_28 m ρ c main_arg4 (by decide)).trans (arg17 m ρ c main_arg4 (by decide))),
      (h c _ (mem_uc main_arg5 (by decide))).trans ((to17_28 m ρ c main_arg5 (by decide)).trans (arg17 m ρ c main_arg5 (by decide))),
      (h c _ (mem_uc main_arg6 (by decide))).trans ((to17_28 m ρ c main_arg6 (by decide)).trans (arg17 m ρ c main_arg6 (by decide))),
      (h c _ (mem_uc main_arg7 (by decide))).trans ((to17_28 m ρ c main_arg7 (by decide)).trans (arg17 m ρ c main_arg7 (by decide))),
      (h c _ (mem_uc main_arg8 (by decide))).trans ((to17_28 m ρ c main_arg8 (by decide)).trans (arg17 m ρ c main_arg8 (by decide))),
      (h c _ (mem_uc main_arg9 (by decide))).trans ((to17_28 m ρ c main_arg9 (by decide)).trans (arg17 m ρ c main_arg9 (by decide))),
      (h c _ (mem_uc main_arg10 (by decide))).trans ((to17_28 m ρ c main_arg10 (by decide)).trans (arg17 m ρ c main_arg10 (by decide)))⟩)
    (run_all (F := Ideal) m ρ)

end Cert.KernelIdeal.Hand

end
-- ==== Proof.Ref.Basic.lean ====
import proofs.«111407_j24215025614983_1_alg».proof.Proof.Gen.ReferenceIdeal
import Idealize.ShloMosaic.Lib.StableHlo.Run
import Idealize.ShloMosaic.Lib.Pipeline.Frame

/-!
A fact about lists used throughout: a property of every element of two lists holds of every element of their
concatenation.
-/

noncomputable section

namespace Cert.RefHand

open Cert.ReferenceIdeal Cert.ReferenceIdeal.Gen Idealize.ShloMosaic Idealize.ShloMosaic.TcCoe Idealize.SL.Sem Idealize.ShloMosaic.StableHlo

/-- What holds of every element of each of two lists holds of every element of their concatenation. -/
theorem forall_mem_append_of {α : Type} {p : α → Prop} {a b : List α} (ha : ∀ x ∈ a, p x) (hb : ∀ x ∈ b, p x) :
    ∀ x ∈ a ++ b, p x := fun x hx => (List.mem_append.1 hx).elim (ha x) (hb x)

end Cert.RefHand

end
-- ==== Proof.Ref.Win0.lean ====
import proofs.«111407_j24215025614983_1_alg».proof.Proof.Gen.ReferenceIdeal
import proofs.«111407_j24215025614983_1_alg».proof.Proof.Ref.Basic

/-!
Statements 1 to 60 of the reference program's entry function, written as lists of host
operations (a called function's body is listed at its call, over that call's own buffers), and the fact that
running those statements is running the lists in order.
-/

noncomputable section

namespace Cert.RefHand

open Cert.ReferenceIdeal Cert.ReferenceIdeal.Gen Idealize.ShloMosaic Idealize.ShloMosaic.TcCoe Idealize.SL.Sem Idealize.ShloMosaic.StableHlo

variable {F : FTy → Type} [FloatOps F]

/-- Operations 0 to 25 of the program, in order. -/
abbrev ck0 : List (HloOp τ sig (Elt F)) :=
  [
    StableHlo.unary main_arg1 main_v0 ((extractStridedSlice S1x256x256 ![0, 0, 0] · slices_S4x256x256_S1x256x256_0_0_0) : (⟨S4x256x256, .f32⟩ : BufTy).Contents (Elt F) → (⟨S1x256x256, .f32⟩ : BufTy).Contents (Elt F)),
    StableHlo.reshape main_v0 main_v1 rfl shapeCasts_S1x256x256_S256x256,
    StableHlo.unary main_arg2 main_v2 ((extractStridedSlice S1x256 ![0, 0] · slices_S4x256_S1x256_0_0) : (⟨S4x256, .f32⟩ : BufTy).Contents (Elt F) → (⟨S1x256, .f32⟩ : BufTy).Contents (Elt F)),
    StableHlo.reshape main_v2 main_v3 rfl shapeCasts_S1x256_S256,
    StableHlo.unary main_arg9 main_v4 ((extractStridedSlice S1x400000 ![0, 0] · slices_S4x400000_S1x400000_0_0) : (⟨S4x400000, .i32⟩ : BufTy).Contents (Elt F) → (⟨S1x400000, .i32⟩ : BufTy).Contents (Elt F)),
    StableHlo.reshape main_v4 main_v5 rfl shapeCasts_S1x400000_S400000,
    StableHlo.unary main_arg10 main_v6 ((extractStridedSlice S1x400000 ![0, 0] · slices_S4x400000_S1x400000_0_0) : (⟨S4x400000, .i32⟩ : BufTy).Contents (Elt F) → (⟨S1x400000, .i32⟩ : BufTy).Contents (Elt F)),
    StableHlo.reshape main_v6 main_v7 rfl shapeCasts_S1x400000_S400000,
    StableHlo.nullary main_cst (constant S_ .f32 0x3F800000#32),
    StableHlo.unary main_cst main_v8 (broadcastInDim S400000 ![] bcast_S_S400000 : (⟨S_, .f32⟩ : BufTy).Contents (Elt F) → (⟨S400000, .f32⟩ : BufTy).Contents (Elt F)),
    StableHlo.nullary main_cst_0 (constant S_ .f32 0x00000000#32),
    StableHlo.unary main_cst_0 main_v9 (broadcastInDim S50000 ![] bcast_S_S50000 : (⟨S_, .f32⟩ : BufTy).Contents (Elt F) → (⟨S50000, .f32⟩ : BufTy).Contents (Elt F)),
    StableHlo.unary main_v5 main_v10 (broadcastInDim S400000x1 ![0] bcast_S400000_S400000x1_0 : (⟨S400000, .i32⟩ : BufTy).Contents (Elt F) → (⟨S400000x1, .i32⟩ : BufTy).Contents (Elt F)),
    StableHlo.ternary main_v9 main_v10 main_v8 main_v11 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_1 (constant S_ .f32 0x3F800000#32),
    StableHlo.TRef.unary (.of main_cst_1 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.binary (.of main_call0_v1 : StableHlo.TRef sig ⟨S50000, .f32⟩) (.of main_v11 : StableHlo.TRef sig ⟨S50000, .f32⟩) (.of main_v12 : StableHlo.TRef sig ⟨S50000, .f32⟩) maximumf,
    StableHlo.nullary main_cst_2 (constant S_ .f32 0x00000000#32),
    StableHlo.unary main_cst_2 main_v13 (broadcastInDim S50000 ![] bcast_S_S50000 : (⟨S_, .f32⟩ : BufTy).Contents (Elt F) → (⟨S50000, .f32⟩ : BufTy).Contents (Elt F)),
    StableHlo.unary main_v7 main_v14 (broadcastInDim S400000x1 ![0] bcast_S400000_S400000x1_0 : (⟨S400000, .i32⟩ : BufTy).Contents (Elt F) → (⟨S400000x1, .i32⟩ : BufTy).Contents (Elt F)),
    StableHlo.ternary main_v13 main_v14 main_v8 main_v15 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_3 (constant S_ .f32 0x3F800000#32),
    StableHlo.TRef.unary (.of main_cst_3 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S50000, .f32⟩) (broadcastInDim S50000 ![] bcast_S_S50000),
    StableHlo.TRef.binary (.of main_call1_v1 : StableHlo.TRef sig ⟨S50000, .f32⟩) (.of main_v15 : StableHlo.TRef sig ⟨S50000, .f32⟩) (.of main_v16 : StableHlo.TRef sig ⟨S50000, .f32⟩) maximumf ]

theorem ck0_sub : (ck0 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., unary_bufs_sub .., ternary_bufs_sub .., nullary_bufs_sub .., unary_bufs_sub .., unary_bufs_sub .., binary_bufs_sub ..⟩

theorem ck0_fresh : ∀ op ∈ (ck0 : List (HloOp τ sig (Elt F))), op.fresh = ∅ := by
  intro _ h; (repeat (cases h with | head => rfl | tail _ h => ?_)); exact nomatch h

/-- Operations 26 to 50 of the program, in order. -/
abbrev ck1 : List (HloOp τ sig (Elt F)) :=
  [
    StableHlo.unary main_v12 main_v17 (Host.rsqrt : (⟨S50000, .f32⟩ : BufTy).Contents (Elt F) → (⟨S50000, .f32⟩ : BufTy).Contents (Elt F)),
    StableHlo.unary main_v17 main_v18 (broadcastInDim S50000x1 ![0] bcast_S50000_S50000x1_0 : (⟨S50000, .f32⟩ : BufTy).Contents (Elt F) → (⟨S50000x1, .f32⟩ : BufTy).Contents (Elt F)),
    StableHlo.unary main_v18 main_v19 (broadcastInDim S50000x256 ![0, 1] bcast_S50000x1_S50000x256_0_1 : (⟨S50000x1, .f32⟩ : BufTy).Contents (Elt F) → (⟨S50000x256, .f32⟩ : BufTy).Contents (Elt F)),
    StableHlo.binary main_arg0 main_v19 main_v20 (mulf : (⟨S50000x256, .f32⟩ : BufTy).Contents (Elt F) → (⟨S50000x256, .f32⟩ : BufTy).Contents (Elt F) → (⟨S50000x256, .f32⟩ : BufTy).Contents (Elt F)),
    StableHlo.binary main_v20 main_v1 main_v21 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_c (constantI S_ 32 0#32),
    StableHlo.unary main_c main_v22 (broadcastInDim S400000 ![] bcast_S_S400000 : (⟨S_, .i32⟩ : BufTy).Contents (Elt F) → (⟨S400000, .i32⟩ : BufTy).Contents (Elt F)),
    StableHlo.binary main_v5 main_v22 main_v23 (cmpi .slt : (⟨S400000, .i32⟩ : BufTy).Contents (Elt F) → (⟨S400000, .i32⟩ : BufTy).Contents (Elt F) → (⟨S400000, .i1⟩ : BufTy).Contents (Elt F)),
    StableHlo.nullary main_c_4 (constantI S_ 32 50000#32),
    StableHlo.unary main_c_4 main_v24 (broadcastInDim S400000 ![] bcast_S_S400000 : (⟨S_, .i32⟩ : BufTy).Contents (Elt F) → (⟨S400000, .i32⟩ : BufTy).Contents (Elt F)),
    StableHlo.binary main_v5 main_v24 main_v25 (addi : (⟨S400000, .i32⟩ : BufTy).Contents (Elt F) → (⟨S400000, .i32⟩ : BufTy).Contents (Elt F) → (⟨S400000, .i32⟩ : BufTy).Contents (Elt F)),
    StableHlo.ternary main_v23 main_v25 main_v5 main_v26 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v26 main_v27 (broadcastInDim S400000x1 ![0] bcast_S400000_S400000x1_0 : (⟨S400000, .i32⟩ : BufTy).Contents (Elt F) → (⟨S400000x1, .i32⟩ : BufTy).Contents (Elt F)),
    StableHlo.binary main_v21 main_v27 main_v28 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    StableHlo.nullary main_cst_5 (constant S_ .f32 0x00000000#32),
    StableHlo.unary main_cst_5 main_v29 (broadcastInDim S50000x256 ![] bcast_S_S50000x256 : (⟨S_, .f32⟩ : BufTy).Contents (Elt F) → (⟨S50000x256, .f32⟩ : BufTy).Contents (Elt F)),
    StableHlo.unary main_v7 main_v30 (broadcastInDim S400000x1 ![0] bcast_S400000_S400000x1_0 : (⟨S400000, .i32⟩ : BufTy).Contents (Elt F) → (⟨S400000x1, .i32⟩ : BufTy).Contents (Elt F)),
    StableHlo.ternary main_v29 main_v30 main_v28 main_v31 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    StableHlo.unary main_v16 main_v32 (Host.rsqrt : (⟨S50000, .f32⟩ : BufTy).Contents (Elt F) → (⟨S50000, .f32⟩ : BufTy).Contents (Elt F)),
    StableHlo.unary main_v32 main_v33 (broadcastInDim S50000x1 ![0] bcast_S50000_S50000x1_0 : (⟨S50000, .f32⟩ : BufTy).Contents (Elt F) → (⟨S50000x1, .f32⟩ : BufTy).Contents (Elt F)),
    StableHlo.unary main_v33 main_v34 (broadcastInDim S50000x256 ![0, 1] bcast_S50000x1_S50000x256_0_1 : (⟨S50000x1, .f32⟩ : BufTy).Contents (Elt F) → (⟨S50000x256, .f32⟩ : BufTy).Contents (Elt F)),
    StableHlo.binary main_v31 main_v34 main_v35 (mulf : (⟨S50000x256, .f32⟩ : BufTy).Contents (Elt F) → (⟨S50000x256, .f32⟩ : BufTy).Contents (Elt F) → (⟨S50000x256, .f32⟩ : BufTy).Contents (Elt F)),
    StableHlo.unary main_v3 main_v36 (broadcastInDim S1x256 ![1] bcast_S256_S1x256_1 : (⟨S256, .f32⟩ : BufTy).Contents (Elt F) → (⟨S1x256, .f32⟩ : BufTy).Contents (Elt F)),
    StableHlo.unary main_v36 main_v37 (broadcastInDim S50000x256 ![0, 1] bcast_S1x256_S50000x256_0_1 : (⟨S1x256, .f32⟩ : BufTy).Contents (Elt F) → (⟨S50000x256, .f32⟩ : BufTy).Contents (Elt F)),
    StableHlo.binary main_v35 main_v37 main_v38 (addf : (⟨S50000x256, .f32⟩ : BufTy).Contents (Elt F) → (⟨S50000x256, .f32⟩ : BufTy).Contents (Elt F) → (⟨S50000x256, .f32⟩ : BufTy).Contents (Elt F)) ]

theorem ck1_sub : (ck1 : List (HloOp τ sig (Elt F))).Forall fun op => op.bufs ⊆ tcRefs τ sig :=
  ⟨unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., unary_bufs_sub .., binary_bufs_sub .., unary_bufs_sub .., unary_bufs_sub .., binary_bufs_sub ..⟩

theorem ck1_fresh : ∀ op ∈ (ck1 : List (HloOp τ sig (Elt F))), op.fresh = ∅ := by
  intro _ h; (repeat (cases h with | head => rfl | tail _ h => ?_)); exact nomatch h

/-- Operations 51 to 63 of the program, in order. -/
abbrev ck2 : List (HloOp τ sig (Elt F)) :=
  [
    StableHlo.unary main_arg1 main_v39 ((extractStridedSlice S1x256x256 ![1, 0, 0] · slices_S4x256x256_S1x256x256_1_0_0) : (⟨S4x256x256, .f32⟩ : BufTy).Contents (Elt F) → (⟨S1x256x256, .f32⟩ : BufTy).Contents (Elt F)),
    StableHlo.reshape main_v39 main_v40 rfl shapeCasts_S1x256x256_S256x256,
    StableHlo.unary main_arg2 main_v41 ((extractStridedSlice S1x256 ![1, 0] · slices_S4x256_S1x256_1_0) : (⟨S4x256, .f32⟩ : BufTy).Contents (Elt F) → (⟨S1x256, .f32⟩ : BufTy).Contents (Elt F)),
    StableHlo.reshape main_v41 main_v42 rfl shapeCasts_S1x256_S256,
    StableHlo.unary main_arg9 main_v43 ((extractStridedSlice S1x400000 ![1, 0] · slices_S4x400000_S1x400000_1_0) : (⟨S4x400000, .i32⟩ : BufTy).Contents (Elt F) → (⟨S1x400000, .i32⟩ : BufTy).Contents (Elt F)),
    StableHlo.reshape main_v43 main_v44 rfl shapeCasts_S1x400000_S400000,
    StableHlo.unary main_arg10 main_v45 ((extractStridedSlice S1x400000 ![1, 0] · slices_S4x400000_S1x400000_1_0) : (⟨S4x400000, .i32⟩ : BufTy).Contents (Elt F) → (⟨S1x400000, .i32⟩ : BufTy).Contents (Elt F)),
    StableHlo.reshape main_v45 main_v46 rfl shapeCasts_S1x400000_S400000,
    StableHlo.nullary main_cst_6 (constant S_ .f32 0x3F800000#32),
    StableHlo.unary main_cst_6 main_v47 (broadcastInDim S400000 ![] bcast_S_S400000 : (⟨S_, .f32⟩ : BufTy).Contents (Elt F) → (⟨S400000, .f32⟩ : BufTy).Contents (Elt F)),
    StableHlo.nullary main_cst_7 (constant S_ .f32 0x00000000#32),
    StableHlo.unary main_cst_7 main_v48 (broadcastInDim S50000 ![] bcast_S_S50000 : (⟨S_, .f32⟩ : BufTy).Contents (Elt F) → (⟨S50000, .f32⟩ : BufTy).Contents (Elt F)),
    StableHlo.unary main_v44 main_v49 (broadcastInDim S400000x1 ![0] bcast_S400000_S400000x1_0 : (⟨S400000, .i32⟩ : BufTy).Contents (Elt F) → (⟨S400000x1, .i32⟩ : BufTy).Contents (Elt F)) ]

theorem ck2_sub : (ck2 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., unary_bufs_sub ..⟩

theorem ck2_fresh : ∀ op ∈ (ck2 : List (HloOp τ sig (Elt F))), op.fresh = ∅ := by
  intro _ h; (repeat (cases h with | head => rfl | tail _ h => ?_)); exact nomatch h

/-- The lists of this stretch of statements, in order. -/
abbrev win0 : List (HloOp τ sig (Elt F)) := ck0 ++ (ck1 ++ (ck2))

theorem win0_sub : ∀ op ∈ (win0 : List (HloOp τ sig (Elt F))), op.bufs ⊆ tcRefs τ sig :=
  (forall_mem_append_of (List.forall_iff_forall_mem.1 ck0_sub) (forall_mem_append_of (List.forall_iff_forall_mem.1 ck1_sub) (List.forall_iff_forall_mem.1 ck2_sub)))

theorem win0_fresh : ∀ op ∈ (win0 : List (HloOp τ sig (Elt F))), op.fresh = ∅ :=
  (forall_mem_append_of ck0_fresh (forall_mem_append_of ck1_fresh ck2_fresh))

set_option maxRecDepth 8192 in
set_option maxHeartbeats 4000000 in
/-- The statements are exactly these operations, one after the other. -/
theorem part0_eq (c : Dev nD) : main_part0 (F := F) c = seq win0 := rfl

end Cert.RefHand

end
-- ==== Proof.Ref.Win1.lean ====
import proofs.«111407_j24215025614983_1_alg».proof.Proof.Gen.ReferenceIdeal
import proofs.«111407_j24215025614983_1_alg».proof.Proof.Ref.Basic

/-!
Statements 61 to 120 of the reference program's entry function, written as lists of host
operations (a called function's body is listed at its call, over that call's own buffers), and the fact that
running those statements is running the lists in order.
-/

noncomputable section

namespace Cert.RefHand

open Cert.ReferenceIdeal Cert.ReferenceIdeal.Gen Idealize.ShloMosaic Idealize.ShloMosaic.TcCoe Idealize.SL.Sem Idealize.ShloMosaic.StableHlo

variable {F : FTy → Type} [FloatOps F]

/-- Operations 64 to 76 of the program, in order. -/
abbrev ck3 : List (HloOp τ sig (Elt F)) :=
  [
    StableHlo.ternary main_v48 main_v49 main_v47 main_v50 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_8 (constant S_ .f32 0x3F800000#32),
    StableHlo.TRef.unary (.of main_cst_8 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S50000, .f32⟩) (broadcastInDim S50000 ![] bcast_S_S50000),
    StableHlo.TRef.binary (.of main_call2_v1 : StableHlo.TRef sig ⟨S50000, .f32⟩) (.of main_v50 : StableHlo.TRef sig ⟨S50000, .f32⟩) (.of main_v51 : StableHlo.TRef sig ⟨S50000, .f32⟩) maximumf,
    StableHlo.nullary main_cst_9 (constant S_ .f32 0x00000000#32),
    StableHlo.unary main_cst_9 main_v52 (broadcastInDim S50000 ![] bcast_S_S50000 : (⟨S_, .f32⟩ : BufTy).Contents (Elt F) → (⟨S50000, .f32⟩ : BufTy).Contents (Elt F)),
    StableHlo.unary main_v46 main_v53 (broadcastInDim S400000x1 ![0] bcast_S400000_S400000x1_0 : (⟨S400000, .i32⟩ : BufTy).Contents (Elt F) → (⟨S400000x1, .i32⟩ : BufTy).Contents (Elt F)),
    StableHlo.ternary main_v52 main_v53 main_v47 main_v54 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_10 (constant S_ .f32 0x3F800000#32),
    StableHlo.TRef.unary (.of main_cst_10 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S50000, .f32⟩) (broadcastInDim S50000 ![] bcast_S_S50000),
    StableHlo.TRef.binary (.of main_call3_v1 : StableHlo.TRef sig ⟨S50000, .f32⟩) (.of main_v54 : StableHlo.TRef sig ⟨S50000, .f32⟩) (.of main_v55 : StableHlo.TRef sig ⟨S50000, .f32⟩) maximumf ]

theorem ck3_sub : (ck3 : List (HloOp τ sig (Elt F))).Forall fun op => op.bufs ⊆ tcRefs τ sig :=
  ⟨ternary_bufs_sub .., nullary_bufs_sub .., unary_bufs_sub .., unary_bufs_sub .., binary_bufs_sub .., nullary_bufs_sub .., unary_bufs_sub .., unary_bufs_sub .., ternary_bufs_sub .., nullary_bufs_sub .., unary_bufs_sub .., unary_bufs_sub .., binary_bufs_sub ..⟩

theorem ck3_fresh : ∀ op ∈ (ck3 : List (HloOp τ sig (Elt F))), op.fresh = ∅ := by
  intro _ h; (repeat (cases h with | head => rfl | tail _ h => ?_)); exact nomatch h

/-- Operations 77 to 101 of the program, in order. -/
abbrev ck4 : List (HloOp τ sig (Elt F)) :=
  [
    StableHlo.unary main_v51 main_v56 (Host.rsqrt : (⟨S50000, .f32⟩ : BufTy).Contents (Elt F) → (⟨S50000, .f32⟩ : BufTy).Contents (Elt F)),
    StableHlo.unary main_v56 main_v57 (broadcastInDim S50000x1 ![0] bcast_S50000_S50000x1_0 : (⟨S50000, .f32⟩ : BufTy).Contents (Elt F) → (⟨S50000x1, .f32⟩ : BufTy).Contents (Elt F)),
    StableHlo.unary main_v57 main_v58 (broadcastInDim S50000x256 ![0, 1] bcast_S50000x1_S50000x256_0_1 : (⟨S50000x1, .f32⟩ : BufTy).Contents (Elt F) → (⟨S50000x256, .f32⟩ : BufTy).Contents (Elt F)),
    StableHlo.binary main_arg0 main_v58 main_v59 (mulf : (⟨S50000x256, .f32⟩ : BufTy).Contents (Elt F) → (⟨S50000x256, .f32⟩ : BufTy).Contents (Elt F) → (⟨S50000x256, .f32⟩ : BufTy).Contents (Elt F)),
    StableHlo.binary main_v59 main_v40 main_v60 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_c_11 (constantI S_ 32 0#32),
    StableHlo.unary main_c_11 main_v61 (broadcastInDim S400000 ![] bcast_S_S400000 : (⟨S_, .i32⟩ : BufTy).Contents (Elt F) → (⟨S400000, .i32⟩ : BufTy).Contents (Elt F)),
    StableHlo.binary main_v44 main_v61 main_v62 (cmpi .slt : (⟨S400000, .i32⟩ : BufTy).Contents (Elt F) → (⟨S400000, .i32⟩ : BufTy).Contents (Elt F) → (⟨S400000, .i1⟩ : BufTy).Contents (Elt F)),
    StableHlo.nullary main_c_12 (constantI S_ 32 50000#32),
    StableHlo.unary main_c_12 main_v63 (broadcastInDim S400000 ![] bcast_S_S400000 : (⟨S_, .i32⟩ : BufTy).Contents (Elt F) → (⟨S400000, .i32⟩ : BufTy).Contents (Elt F)),
    StableHlo.binary main_v44 main_v63 main_v64 (addi : (⟨S400000, .i32⟩ : BufTy).Contents (Elt F) → (⟨S400000, .i32⟩ : BufTy).Contents (Elt F) → (⟨S400000, .i32⟩ : BufTy).Contents (Elt F)),
    StableHlo.ternary main_v62 main_v64 main_v44 main_v65 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v65 main_v66 (broadcastInDim S400000x1 ![0] bcast_S400000_S400000x1_0 : (⟨S400000, .i32⟩ : BufTy).Contents (Elt F) → (⟨S400000x1, .i32⟩ : BufTy).Contents (Elt F)),
    StableHlo.binary main_v60 main_v66 main_v67 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    StableHlo.nullary main_cst_13 (constant S_ .f32 0x00000000#32),
    StableHlo.unary main_cst_13 main_v68 (broadcastInDim S50000x256 ![] bcast_S_S50000x256 : (⟨S_, .f32⟩ : BufTy).Contents (Elt F) → (⟨S50000x256, .f32⟩ : BufTy).Contents (Elt F)),
    StableHlo.unary main_v46 main_v69 (broadcastInDim S400000x1 ![0] bcast_S400000_S400000x1_0 : (⟨S400000, .i32⟩ : BufTy).Contents (Elt F) → (⟨S400000x1, .i32⟩ : BufTy).Contents (Elt F)),
    StableHlo.ternary main_v68 main_v69 main_v67 main_v70 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    StableHlo.unary main_v55 main_v71 (Host.rsqrt : (⟨S50000, .f32⟩ : BufTy).Contents (Elt F) → (⟨S50000, .f32⟩ : BufTy).Contents (Elt F)),
    StableHlo.unary main_v71 main_v72 (broadcastInDim S50000x1 ![0] bcast_S50000_S50000x1_0 : (⟨S50000, .f32⟩ : BufTy).Contents (Elt F) → (⟨S50000x1, .f32⟩ : BufTy).Contents (Elt F)),
    StableHlo.unary main_v72 main_v73 (broadcastInDim S50000x256 ![0, 1] bcast_S50000x1_S50000x256_0_1 : (⟨S50000x1, .f32⟩ : BufTy).Contents (Elt F) → (⟨S50000x256, .f32⟩ : BufTy).Contents (Elt F)),
    StableHlo.binary main_v70 main_v73 main_v74 (mulf : (⟨S50000x256, .f32⟩ : BufTy).Contents (Elt F) → (⟨S50000x256, .f32⟩ : BufTy).Contents (Elt F) → (⟨S50000x256, .f32⟩ : BufTy).Contents (Elt F)),
    StableHlo.unary main_v42 main_v75 (broadcastInDim S1x256 ![1] bcast_S256_S1x256_1 : (⟨S256, .f32⟩ : BufTy).Contents (Elt F) → (⟨S1x256, .f32⟩ : BufTy).Contents (Elt F)),
    StableHlo.unary main_v75 main_v76 (broadcastInDim S50000x256 ![0, 1] bcast_S1x256_S50000x256_0_1 : (⟨S1x256, .f32⟩ : BufTy).Contents (Elt F) → (⟨S50000x256, .f32⟩ : BufTy).Contents (Elt F)),
    StableHlo.binary main_v74 main_v76 main_v77 (addf : (⟨S50000x256, .f32⟩ : BufTy).Contents (Elt F) → (⟨S50000x256, .f32⟩ : BufTy).Contents (Elt F) → (⟨S50000x256, .f32⟩ : BufTy).Contents (Elt F)) ]

theorem ck4_sub : (ck4 : List (HloOp τ sig (Elt F))).Forall fun op => op.bufs ⊆ tcRefs τ sig :=
  ⟨unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., unary_bufs_sub .., binary_bufs_sub .., unary_bufs_sub .., unary_bufs_sub .., binary_bufs_sub ..⟩

theorem ck4_fresh : ∀ op ∈ (ck4 : List (HloOp τ sig (Elt F))), op.fresh = ∅ := by
  intro _ h; (repeat (cases h with | head => rfl | tail _ h => ?_)); exact nomatch h

/-- Operations 102 to 102 of the program, in order. -/
abbrev ck5 : List (HloOp τ sig (Elt F)) :=
  [
    StableHlo.binary main_v38 main_v77 main_v78 (addf : (⟨S50000x256, .f32⟩ : BufTy).Contents (Elt F) → (⟨S50000x256, .f32⟩ : BufTy).Contents (Elt F) → (⟨S50000x256, .f32⟩ : BufTy).Contents (Elt F)) ]

theorem ck5_sub : (ck5 : List (HloOp τ sig (Elt F))).Forall fun op => op.bufs ⊆ tcRefs τ sig :=
  (binary_bufs_sub ..)

theorem ck5_fresh : ∀ op ∈ (ck5 : List (HloOp τ sig (Elt F))), op.fresh = ∅ := by
  intro _ h; (repeat (cases h with | head => rfl | tail _ h => ?_)); exact nomatch h

/-- Operations 103 to 128 of the program, in order. -/
abbrev ck6 : List (HloOp τ sig (Elt F)) :=
  [
    StableHlo.unary main_arg1 main_v79 ((extractStridedSlice S1x256x256 ![2, 0, 0] · slices_S4x256x256_S1x256x256_2_0_0) : (⟨S4x256x256, .f32⟩ : BufTy).Contents (Elt F) → (⟨S1x256x256, .f32⟩ : BufTy).Contents (Elt F)),
    StableHlo.reshape main_v79 main_v80 rfl shapeCasts_S1x256x256_S256x256,
    StableHlo.unary main_arg2 main_v81 ((extractStridedSlice S1x256 ![2, 0] · slices_S4x256_S1x256_2_0) : (⟨S4x256, .f32⟩ : BufTy).Contents (Elt F) → (⟨S1x256, .f32⟩ : BufTy).Contents (Elt F)),
    StableHlo.reshape main_v81 main_v82 rfl shapeCasts_S1x256_S256,
    StableHlo.unary main_arg9 main_v83 ((extractStridedSlice S1x400000 ![2, 0] · slices_S4x400000_S1x400000_2_0) : (⟨S4x400000, .i32⟩ : BufTy).Contents (Elt F) → (⟨S1x400000, .i32⟩ : BufTy).Contents (Elt F)),
    StableHlo.reshape main_v83 main_v84 rfl shapeCasts_S1x400000_S400000,
    StableHlo.unary main_arg10 main_v85 ((extractStridedSlice S1x400000 ![2, 0] · slices_S4x400000_S1x400000_2_0) : (⟨S4x400000, .i32⟩ : BufTy).Contents (Elt F) → (⟨S1x400000, .i32⟩ : BufTy).Contents (Elt F)),
    StableHlo.reshape main_v85 main_v86 rfl shapeCasts_S1x400000_S400000,
    StableHlo.nullary main_cst_14 (constant S_ .f32 0x3F800000#32),
    StableHlo.unary main_cst_14 main_v87 (broadcastInDim S400000 ![] bcast_S_S400000 : (⟨S_, .f32⟩ : BufTy).Contents (Elt F) → (⟨S400000, .f32⟩ : BufTy).Contents (Elt F)),
    StableHlo.nullary main_cst_15 (constant S_ .f32 0x00000000#32),
    StableHlo.unary main_cst_15 main_v88 (broadcastInDim S50000 ![] bcast_S_S50000 : (⟨S_, .f32⟩ : BufTy).Contents (Elt F) → (⟨S50000, .f32⟩ : BufTy).Contents (Elt F)),
    StableHlo.unary main_v84 main_v89 (broadcastInDim S400000x1 ![0] bcast_S400000_S400000x1_0 : (⟨S400000, .i32⟩ : BufTy).Contents (Elt F) → (⟨S400000x1, .i32⟩ : BufTy).Contents (Elt F)),
    StableHlo.ternary main_v88 main_v89 main_v87 main_v90 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_16 (constant S_ .f32 0x3F800000#32),
    StableHlo.TRef.unary (.of main_cst_16 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S50000, .f32⟩) (broadcastInDim S50000 ![] bcast_S_S50000),
    StableHlo.TRef.binary (.of main_call4_v1 : StableHlo.TRef sig ⟨S50000, .f32⟩) (.of main_v90 : StableHlo.TRef sig ⟨S50000, .f32⟩) (.of main_v91 : StableHlo.TRef sig ⟨S50000, .f32⟩) maximumf,
    StableHlo.nullary main_cst_17 (constant S_ .f32 0x00000000#32),
    StableHlo.unary main_cst_17 main_v92 (broadcastInDim S50000 ![] bcast_S_S50000 : (⟨S_, .f32⟩ : BufTy).Contents (Elt F) → (⟨S50000, .f32⟩ : BufTy).Contents (Elt F)),
    StableHlo.unary main_v86 main_v93 (broadcastInDim S400000x1 ![0] bcast_S400000_S400000x1_0 : (⟨S400000, .i32⟩ : BufTy).Contents (Elt F) → (⟨S400000x1, .i32⟩ : BufTy).Contents (Elt F)),
    StableHlo.ternary main_v92 main_v93 main_v87 main_v94 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_18 (constant S_ .f32 0x3F800000#32),
    StableHlo.TRef.unary (.of main_cst_18 : StableHlo.TRef sig ⟨S_, .f32⟩) (.of main_call5_v0 : StableHlo.TRef sig ⟨S_, .f32⟩) id,
    StableHlo.TRef.unary (.of main_call5_v0 : StableHlo.TRef sig ⟨S_, .f32⟩) (.of main_call5_v1 : StableHlo.TRef sig ⟨S50000, .f32⟩) (broadcastInDim S50000 ![] bcast_S_S50000),
    StableHlo.TRef.binary (.of main_call5_v1 : StableHlo.TRef sig ⟨S50000, .f32⟩) (.of main_v94 : StableHlo.TRef sig ⟨S50000, .f32⟩) (.of main_v95 : StableHlo.TRef sig ⟨S50000, .f32⟩) maximumf ]

theorem ck6_sub : (ck6 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., unary_bufs_sub .., ternary_bufs_sub .., nullary_bufs_sub .., unary_bufs_sub .., unary_bufs_sub .., binary_bufs_sub ..⟩

theorem ck6_fresh : ∀ op ∈ (ck6 : List (HloOp τ sig (Elt F))), op.fresh = ∅ := by
  intro _ h; (repeat (cases h with | head => rfl | tail _ h => ?_)); exact nomatch h

/-- Operations 129 to 131 of the program, in order. -/
abbrev ck7 : List (HloOp τ sig (Elt F)) :=
  [
    StableHlo.unary main_v91 main_v96 (Host.rsqrt : (⟨S50000, .f32⟩ : BufTy).Contents (Elt F) → (⟨S50000, .f32⟩ : BufTy).Contents (Elt F)),
    StableHlo.unary main_v96 main_v97 (broadcastInDim S50000x1 ![0] bcast_S50000_S50000x1_0 : (⟨S50000, .f32⟩ : BufTy).Contents (Elt F) → (⟨S50000x1, .f32⟩ : BufTy).Contents (Elt F)),
    StableHlo.unary main_v97 main_v98 (broadcastInDim S50000x256 ![0, 1] bcast_S50000x1_S50000x256_0_1 : (⟨S50000x1, .f32⟩ : BufTy).Contents (Elt F) → (⟨S50000x256, .f32⟩ : BufTy).Contents (Elt F)) ]

theorem ck7_sub : (ck7 : List (HloOp τ sig (Elt F))).Forall fun op => op.bufs ⊆ tcRefs τ sig :=
  ⟨unary_bufs_sub .., unary_bufs_sub .., unary_bufs_sub ..⟩

theorem ck7_fresh : ∀ op ∈ (ck7 : List (HloOp τ sig (Elt F))), op.fresh = ∅ := by
  intro _ h; (repeat (cases h with | head => rfl | tail _ h => ?_)); exact nomatch h

/-- The lists of this stretch of statements, in order. -/
abbrev win1 : List (HloOp τ sig (Elt F)) := ck3 ++ (ck4 ++ (ck5 ++ (ck6 ++ (ck7))))

theorem win1_sub : ∀ op ∈ (win1 : List (HloOp τ sig (Elt F))), op.bufs ⊆ tcRefs τ sig :=
  (forall_mem_append_of (List.forall_iff_forall_mem.1 ck3_sub) (forall_mem_append_of (List.forall_iff_forall_mem.1 ck4_sub) (forall_mem_append_of (List.forall_iff_forall_mem.1 ck5_sub) (forall_mem_append_of (List.forall_iff_forall_mem.1 ck6_sub) (List.forall_iff_forall_mem.1 ck7_sub)))))

theorem win1_fresh : ∀ op ∈ (win1 : List (HloOp τ sig (Elt F))), op.fresh = ∅ :=
  (forall_mem_append_of ck3_fresh (forall_mem_append_of ck4_fresh (forall_mem_append_of ck5_fresh (forall_mem_append_of ck6_fresh ck7_fresh))))

set_option maxRecDepth 8192 in
set_option maxHeartbeats 4000000 in
/-- The statements are exactly these operations, one after the other. -/
theorem part1_eq (c : Dev nD) : main_part1 (F := F) c = seq win1 := rfl

end Cert.RefHand

end
-- ==== Proof.Ref.Win2.lean ====
import proofs.«111407_j24215025614983_1_alg».proof.Proof.Gen.ReferenceIdeal
import proofs.«111407_j24215025614983_1_alg».proof.Proof.Ref.Basic

/-!
Statements 121 to 180 of the reference program's entry function, written as lists of host
operations (a called function's body is listed at its call, over that call's own buffers), and the fact that
running those statements is running the lists in order.
-/

noncomputable section

namespace Cert.RefHand

open Cert.ReferenceIdeal Cert.ReferenceIdeal.Gen Idealize.ShloMosaic Idealize.ShloMosaic.TcCoe Idealize.SL.Sem Idealize.ShloMosaic.StableHlo

variable {F : FTy → Type} [FloatOps F]

/-- Operations 132 to 153 of the program, in order. -/
abbrev ck8 : List (HloOp τ sig (Elt F)) :=
  [
    StableHlo.binary main_arg0 main_v98 main_v99 (mulf : (⟨S50000x256, .f32⟩ : BufTy).Contents (Elt F) → (⟨S50000x256, .f32⟩ : BufTy).Contents (Elt F) → (⟨S50000x256, .f32⟩ : BufTy).Contents (Elt F)),
    StableHlo.binary main_v99 main_v80 main_v100 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_c_19 (constantI S_ 32 0#32),
    StableHlo.unary main_c_19 main_v101 (broadcastInDim S400000 ![] bcast_S_S400000 : (⟨S_, .i32⟩ : BufTy).Contents (Elt F) → (⟨S400000, .i32⟩ : BufTy).Contents (Elt F)),
    StableHlo.binary main_v84 main_v101 main_v102 (cmpi .slt : (⟨S400000, .i32⟩ : BufTy).Contents (Elt F) → (⟨S400000, .i32⟩ : BufTy).Contents (Elt F) → (⟨S400000, .i1⟩ : BufTy).Contents (Elt F)),
    StableHlo.nullary main_c_20 (constantI S_ 32 50000#32),
    StableHlo.unary main_c_20 main_v103 (broadcastInDim S400000 ![] bcast_S_S400000 : (⟨S_, .i32⟩ : BufTy).Contents (Elt F) → (⟨S400000, .i32⟩ : BufTy).Contents (Elt F)),
    StableHlo.binary main_v84 main_v103 main_v104 (addi : (⟨S400000, .i32⟩ : BufTy).Contents (Elt F) → (⟨S400000, .i32⟩ : BufTy).Contents (Elt F) → (⟨S400000, .i32⟩ : BufTy).Contents (Elt F)),
    StableHlo.ternary main_v102 main_v104 main_v84 main_v105 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v105 main_v106 (broadcastInDim S400000x1 ![0] bcast_S400000_S400000x1_0 : (⟨S400000, .i32⟩ : BufTy).Contents (Elt F) → (⟨S400000x1, .i32⟩ : BufTy).Contents (Elt F)),
    StableHlo.binary main_v100 main_v106 main_v107 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    StableHlo.nullary main_cst_21 (constant S_ .f32 0x00000000#32),
    StableHlo.unary main_cst_21 main_v108 (broadcastInDim S50000x256 ![] bcast_S_S50000x256 : (⟨S_, .f32⟩ : BufTy).Contents (Elt F) → (⟨S50000x256, .f32⟩ : BufTy).Contents (Elt F)),
    StableHlo.unary main_v86 main_v109 (broadcastInDim S400000x1 ![0] bcast_S400000_S400000x1_0 : (⟨S400000, .i32⟩ : BufTy).Contents (Elt F) → (⟨S400000x1, .i32⟩ : BufTy).Contents (Elt F)),
    StableHlo.ternary main_v108 main_v109 main_v107 main_v110 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    StableHlo.unary main_v95 main_v111 (Host.rsqrt : (⟨S50000, .f32⟩ : BufTy).Contents (Elt F) → (⟨S50000, .f32⟩ : BufTy).Contents (Elt F)),
    StableHlo.unary main_v111 main_v112 (broadcastInDim S50000x1 ![0] bcast_S50000_S50000x1_0 : (⟨S50000, .f32⟩ : BufTy).Contents (Elt F) → (⟨S50000x1, .f32⟩ : BufTy).Contents (Elt F)),
    StableHlo.unary main_v112 main_v113 (broadcastInDim S50000x256 ![0, 1] bcast_S50000x1_S50000x256_0_1 : (⟨S50000x1, .f32⟩ : BufTy).Contents (Elt F) → (⟨S50000x256, .f32⟩ : BufTy).Contents (Elt F)),
    StableHlo.binary main_v110 main_v113 main_v114 (mulf : (⟨S50000x256, .f32⟩ : BufTy).Contents (Elt F) → (⟨S50000x256, .f32⟩ : BufTy).Contents (Elt F) → (⟨S50000x256, .f32⟩ : BufTy).Contents (Elt F)),
    StableHlo.unary main_v82 main_v115 (broadcastInDim S1x256 ![1] bcast_S256_S1x256_1 : (⟨S256, .f32⟩ : BufTy).Contents (Elt F) → (⟨S1x256, .f32⟩ : BufTy).Contents (Elt F)),
    StableHlo.unary main_v115 main_v116 (broadcastInDim S50000x256 ![0, 1] bcast_S1x256_S50000x256_0_1 : (⟨S1x256, .f32⟩ : BufTy).Contents (Elt F) → (⟨S50000x256, .f32⟩ : BufTy).Contents (Elt F)),
    StableHlo.binary main_v114 main_v116 main_v117 (addf : (⟨S50000x256, .f32⟩ : BufTy).Contents (Elt F) → (⟨S50000x256, .f32⟩ : BufTy).Contents (Elt F) → (⟨S50000x256, .f32⟩ : BufTy).Contents (Elt F)) ]

theorem ck8_sub : (ck8 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., unary_bufs_sub .., binary_bufs_sub .., unary_bufs_sub .., unary_bufs_sub .., binary_bufs_sub ..⟩

theorem ck8_fresh : ∀ op ∈ (ck8 : List (HloOp τ sig (Elt F))), op.fresh = ∅ := by
  intro _ h; (repeat (cases h with | head => rfl | tail _ h => ?_)); exact nomatch h

/-- Operations 154 to 154 of the program, in order. -/
abbrev ck9 : List (HloOp τ sig (Elt F)) :=
  [
    StableHlo.binary main_v78 main_v117 main_v118 (addf : (⟨S50000x256, .f32⟩ : BufTy).Contents (Elt F) → (⟨S50000x256, .f32⟩ : BufTy).Contents (Elt F) → (⟨S50000x256, .f32⟩ : BufTy).Contents (Elt F)) ]

theorem ck9_sub : (ck9 : List (HloOp τ sig (Elt F))).Forall fun op => op.bufs ⊆ tcRefs τ sig :=
  (binary_bufs_sub ..)

theorem ck9_fresh : ∀ op ∈ (ck9 : List (HloOp τ sig (Elt F))), op.fresh = ∅ := by
  intro _ h; (repeat (cases h with | head => rfl | tail _ h => ?_)); exact nomatch h

/-- Operations 155 to 180 of the program, in order. -/
abbrev ck10 : List (HloOp τ sig (Elt F)) :=
  [
    StableHlo.unary main_arg1 main_v119 ((extractStridedSlice S1x256x256 ![3, 0, 0] · slices_S4x256x256_S1x256x256_3_0_0) : (⟨S4x256x256, .f32⟩ : BufTy).Contents (Elt F) → (⟨S1x256x256, .f32⟩ : BufTy).Contents (Elt F)),
    StableHlo.reshape main_v119 main_v120 rfl shapeCasts_S1x256x256_S256x256,
    StableHlo.unary main_arg2 main_v121 ((extractStridedSlice S1x256 ![3, 0] · slices_S4x256_S1x256_3_0) : (⟨S4x256, .f32⟩ : BufTy).Contents (Elt F) → (⟨S1x256, .f32⟩ : BufTy).Contents (Elt F)),
    StableHlo.reshape main_v121 main_v122 rfl shapeCasts_S1x256_S256,
    StableHlo.unary main_arg9 main_v123 ((extractStridedSlice S1x400000 ![3, 0] · slices_S4x400000_S1x400000_3_0) : (⟨S4x400000, .i32⟩ : BufTy).Contents (Elt F) → (⟨S1x400000, .i32⟩ : BufTy).Contents (Elt F)),
    StableHlo.reshape main_v123 main_v124 rfl shapeCasts_S1x400000_S400000,
    StableHlo.unary main_arg10 main_v125 ((extractStridedSlice S1x400000 ![3, 0] · slices_S4x400000_S1x400000_3_0) : (⟨S4x400000, .i32⟩ : BufTy).Contents (Elt F) → (⟨S1x400000, .i32⟩ : BufTy).Contents (Elt F)),
    StableHlo.reshape main_v125 main_v126 rfl shapeCasts_S1x400000_S400000,
    StableHlo.nullary main_cst_22 (constant S_ .f32 0x3F800000#32),
    StableHlo.unary main_cst_22 main_v127 (broadcastInDim S400000 ![] bcast_S_S400000 : (⟨S_, .f32⟩ : BufTy).Contents (Elt F) → (⟨S400000, .f32⟩ : BufTy).Contents (Elt F)),
    StableHlo.nullary main_cst_23 (constant S_ .f32 0x00000000#32),
    StableHlo.unary main_cst_23 main_v128 (broadcastInDim S50000 ![] bcast_S_S50000 : (⟨S_, .f32⟩ : BufTy).Contents (Elt F) → (⟨S50000, .f32⟩ : BufTy).Contents (Elt F)),
    StableHlo.unary main_v124 main_v129 (broadcastInDim S400000x1 ![0] bcast_S400000_S400000x1_0 : (⟨S400000, .i32⟩ : BufTy).Contents (Elt F) → (⟨S400000x1, .i32⟩ : BufTy).Contents (Elt F)),
    StableHlo.ternary main_v128 main_v129 main_v127 main_v130 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_24 (constant S_ .f32 0x3F800000#32),
    StableHlo.TRef.unary (.of main_cst_24 : StableHlo.TRef sig ⟨S_, .f32⟩) (.of main_call6_v0 : StableHlo.TRef sig ⟨S_, .f32⟩) id,
    StableHlo.TRef.unary (.of main_call6_v0 : StableHlo.TRef sig ⟨S_, .f32⟩) (.of main_call6_v1 : StableHlo.TRef sig ⟨S50000, .f32⟩) (broadcastInDim S50000 ![] bcast_S_S50000),
    StableHlo.TRef.binary (.of main_call6_v1 : StableHlo.TRef sig ⟨S50000, .f32⟩) (.of main_v130 : StableHlo.TRef sig ⟨S50000, .f32⟩) (.of main_v131 : StableHlo.TRef sig ⟨S50000, .f32⟩) maximumf,
    StableHlo.nullary main_cst_25 (constant S_ .f32 0x00000000#32),
    StableHlo.unary main_cst_25 main_v132 (broadcastInDim S50000 ![] bcast_S_S50000 : (⟨S_, .f32⟩ : BufTy).Contents (Elt F) → (⟨S50000, .f32⟩ : BufTy).Contents (Elt F)),
    StableHlo.unary main_v126 main_v133 (broadcastInDim S400000x1 ![0] bcast_S400000_S400000x1_0 : (⟨S400000, .i32⟩ : BufTy).Contents (Elt F) → (⟨S400000x1, .i32⟩ : BufTy).Contents (Elt F)),
    StableHlo.ternary main_v132 main_v133 main_v127 main_v134 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_26 (constant S_ .f32 0x3F800000#32),
    StableHlo.TRef.unary (.of main_cst_26 : StableHlo.TRef sig ⟨S_, .f32⟩) (.of main_call7_v0 : StableHlo.TRef sig ⟨S_, .f32⟩) id,
    StableHlo.TRef.unary (.of main_call7_v0 : StableHlo.TRef sig ⟨S_, .f32⟩) (.of main_call7_v1 : StableHlo.TRef sig ⟨S50000, .f32⟩) (broadcastInDim S50000 ![] bcast_S_S50000),
    StableHlo.TRef.binary (.of main_call7_v1 : StableHlo.TRef sig ⟨S50000, .f32⟩) (.of main_v134 : StableHlo.TRef sig ⟨S50000, .f32⟩) (.of main_v135 : StableHlo.TRef sig ⟨S50000, .f32⟩) maximumf ]

theorem ck10_sub : (ck10 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., unary_bufs_sub .., ternary_bufs_sub .., nullary_bufs_sub .., unary_bufs_sub .., unary_bufs_sub .., binary_bufs_sub ..⟩

theorem ck10_fresh : ∀ op ∈ (ck10 : List (HloOp τ sig (Elt F))), op.fresh = ∅ := by
  intro _ h; (repeat (cases h with | head => rfl | tail _ h => ?_)); exact nomatch h

/-- Operations 181 to 195 of the program, in order. -/
abbrev ck11 : List (HloOp τ sig (Elt F)) :=
  [
    StableHlo.unary main_v131 main_v136 (Host.rsqrt : (⟨S50000, .f32⟩ : BufTy).Contents (Elt F) → (⟨S50000, .f32⟩ : BufTy).Contents (Elt F)),
    StableHlo.unary main_v136 main_v137 (broadcastInDim S50000x1 ![0] bcast_S50000_S50000x1_0 : (⟨S50000, .f32⟩ : BufTy).Contents (Elt F) → (⟨S50000x1, .f32⟩ : BufTy).Contents (Elt F)),
    StableHlo.unary main_v137 main_v138 (broadcastInDim S50000x256 ![0, 1] bcast_S50000x1_S50000x256_0_1 : (⟨S50000x1, .f32⟩ : BufTy).Contents (Elt F) → (⟨S50000x256, .f32⟩ : BufTy).Contents (Elt F)),
    StableHlo.binary main_arg0 main_v138 main_v139 (mulf : (⟨S50000x256, .f32⟩ : BufTy).Contents (Elt F) → (⟨S50000x256, .f32⟩ : BufTy).Contents (Elt F) → (⟨S50000x256, .f32⟩ : BufTy).Contents (Elt F)),
    StableHlo.binary main_v139 main_v120 main_v140 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_c_27 (constantI S_ 32 0#32),
    StableHlo.unary main_c_27 main_v141 (broadcastInDim S400000 ![] bcast_S_S400000 : (⟨S_, .i32⟩ : BufTy).Contents (Elt F) → (⟨S400000, .i32⟩ : BufTy).Contents (Elt F)),
    StableHlo.binary main_v124 main_v141 main_v142 (cmpi .slt : (⟨S400000, .i32⟩ : BufTy).Contents (Elt F) → (⟨S400000, .i32⟩ : BufTy).Contents (Elt F) → (⟨S400000, .i1⟩ : BufTy).Contents (Elt F)),
    StableHlo.nullary main_c_28 (constantI S_ 32 50000#32),
    StableHlo.unary main_c_28 main_v143 (broadcastInDim S400000 ![] bcast_S_S400000 : (⟨S_, .i32⟩ : BufTy).Contents (Elt F) → (⟨S400000, .i32⟩ : BufTy).Contents (Elt F)),
    StableHlo.binary main_v124 main_v143 main_v144 (addi : (⟨S400000, .i32⟩ : BufTy).Contents (Elt F) → (⟨S400000, .i32⟩ : BufTy).Contents (Elt F) → (⟨S400000, .i32⟩ : BufTy).Contents (Elt F)),
    StableHlo.ternary main_v142 main_v144 main_v124 main_v145 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v145 main_v146 (broadcastInDim S400000x1 ![0] bcast_S400000_S400000x1_0 : (⟨S400000, .i32⟩ : BufTy).Contents (Elt F) → (⟨S400000x1, .i32⟩ : BufTy).Contents (Elt F)),
    StableHlo.binary main_v140 main_v146 main_v147 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    StableHlo.nullary main_cst_29 (constant S_ .f32 0x00000000#32) ]

theorem ck11_sub : (ck11 : List (HloOp τ sig (Elt F))).Forall fun op => op.bufs ⊆ tcRefs τ sig :=
  ⟨unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub ..⟩

theorem ck11_fresh : ∀ op ∈ (ck11 : List (HloOp τ sig (Elt F))), op.fresh = ∅ := by
  intro _ h; (repeat (cases h with | head => rfl | tail _ h => ?_)); exact nomatch h

/-- The lists of this stretch of statements, in order. -/
abbrev win2 : List (HloOp τ sig (Elt F)) := ck8 ++ (ck9 ++ (ck10 ++ (ck11)))

theorem win2_sub : ∀ op ∈ (win2 : List (HloOp τ sig (Elt F))), op.bufs ⊆ tcRefs τ sig :=
  (forall_mem_append_of (List.forall_iff_forall_mem.1 ck8_sub) (forall_mem_append_of (List.forall_iff_forall_mem.1 ck9_sub) (forall_mem_append_of (List.forall_iff_forall_mem.1 ck10_sub) (List.forall_iff_forall_mem.1 ck11_sub))))

theorem win2_fresh : ∀ op ∈ (win2 : List (HloOp τ sig (Elt F))), op.fresh = ∅ :=
  (forall_mem_append_of ck8_fresh (forall_mem_append_of ck9_fresh (forall_mem_append_of ck10_fresh ck11_fresh)))

set_option maxRecDepth 8192 in
set_option maxHeartbeats 4000000 in
/-- The statements are exactly these operations, one after the other. -/
theorem part2_eq (c : Dev nD) : main_part2 (F := F) c = seq win2 := rfl

end Cert.RefHand

end
-- ==== Proof.Ref.Win3.lean ====
import proofs.«111407_j24215025614983_1_alg».proof.Proof.Gen.ReferenceIdeal
import proofs.«111407_j24215025614983_1_alg».proof.Proof.Ref.Basic

/-!
Statements 181 to 240 of the reference program's entry function, written as lists of host
operations (a called function's body is listed at its call, over that call's own buffers), and the fact that
running those statements is running the lists in order.
-/

noncomputable section

namespace Cert.RefHand

open Cert.ReferenceIdeal Cert.ReferenceIdeal.Gen Idealize.ShloMosaic Idealize.ShloMosaic.TcCoe Idealize.SL.Sem Idealize.ShloMosaic.StableHlo

variable {F : FTy → Type} [FloatOps F]

/-- Operations 196 to 205 of the program, in order. -/
abbrev ck12 : List (HloOp τ sig (Elt F)) :=
  [
    StableHlo.unary main_cst_29 main_v148 (broadcastInDim S50000x256 ![] bcast_S_S50000x256 : (⟨S_, .f32⟩ : BufTy).Contents (Elt F) → (⟨S50000x256, .f32⟩ : BufTy).Contents (Elt F)),
    StableHlo.unary main_v126 main_v149 (broadcastInDim S400000x1 ![0] bcast_S400000_S400000x1_0 : (⟨S400000, .i32⟩ : BufTy).Contents (Elt F) → (⟨S400000x1, .i32⟩ : BufTy).Contents (Elt F)),
    StableHlo.ternary main_v148 main_v149 main_v147 main_v150 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    StableHlo.unary main_v135 main_v151 (Host.rsqrt : (⟨S50000, .f32⟩ : BufTy).Contents (Elt F) → (⟨S50000, .f32⟩ : BufTy).Contents (Elt F)),
    StableHlo.unary main_v151 main_v152 (broadcastInDim S50000x1 ![0] bcast_S50000_S50000x1_0 : (⟨S50000, .f32⟩ : BufTy).Contents (Elt F) → (⟨S50000x1, .f32⟩ : BufTy).Contents (Elt F)),
    StableHlo.unary main_v152 main_v153 (broadcastInDim S50000x256 ![0, 1] bcast_S50000x1_S50000x256_0_1 : (⟨S50000x1, .f32⟩ : BufTy).Contents (Elt F) → (⟨S50000x256, .f32⟩ : BufTy).Contents (Elt F)),
    StableHlo.binary main_v150 main_v153 main_v154 (mulf : (⟨S50000x256, .f32⟩ : BufTy).Contents (Elt F) → (⟨S50000x256, .f32⟩ : BufTy).Contents (Elt F) → (⟨S50000x256, .f32⟩ : BufTy).Contents (Elt F)),
    StableHlo.unary main_v122 main_v155 (broadcastInDim S1x256 ![1] bcast_S256_S1x256_1 : (⟨S256, .f32⟩ : BufTy).Contents (Elt F) → (⟨S1x256, .f32⟩ : BufTy).Contents (Elt F)),
    StableHlo.unary main_v155 main_v156 (broadcastInDim S50000x256 ![0, 1] bcast_S1x256_S50000x256_0_1 : (⟨S1x256, .f32⟩ : BufTy).Contents (Elt F) → (⟨S50000x256, .f32⟩ : BufTy).Contents (Elt F)),
    StableHlo.binary main_v154 main_v156 main_v157 (addf : (⟨S50000x256, .f32⟩ : BufTy).Contents (Elt F) → (⟨S50000x256, .f32⟩ : BufTy).Contents (Elt F) → (⟨S50000x256, .f32⟩ : BufTy).Contents (Elt F)) ]

theorem ck12_sub : (ck12 : List (HloOp τ sig (Elt F))).Forall fun op => op.bufs ⊆ tcRefs τ sig :=
  ⟨unary_bufs_sub .., unary_bufs_sub .., ternary_bufs_sub .., unary_bufs_sub .., unary_bufs_sub .., unary_bufs_sub .., binary_bufs_sub .., unary_bufs_sub .., unary_bufs_sub .., binary_bufs_sub ..⟩

theorem ck12_fresh : ∀ op ∈ (ck12 : List (HloOp τ sig (Elt F))), op.fresh = ∅ := by
  intro _ h; (repeat (cases h with | head => rfl | tail _ h => ?_)); exact nomatch h

/-- Operations 206 to 206 of the program, in order. -/
abbrev ck13 : List (HloOp τ sig (Elt F)) :=
  [
    StableHlo.binary main_v118 main_v157 main_v158 (addf : (⟨S50000x256, .f32⟩ : BufTy).Contents (Elt F) → (⟨S50000x256, .f32⟩ : BufTy).Contents (Elt F) → (⟨S50000x256, .f32⟩ : BufTy).Contents (Elt F)) ]

theorem ck13_sub : (ck13 : List (HloOp τ sig (Elt F))).Forall fun op => op.bufs ⊆ tcRefs τ sig :=
  (binary_bufs_sub ..)

theorem ck13_fresh : ∀ op ∈ (ck13 : List (HloOp τ sig (Elt F))), op.fresh = ∅ := by
  intro _ h; (repeat (cases h with | head => rfl | tail _ h => ?_)); exact nomatch h

/-- Operations 207 to 209 of the program, in order. -/
abbrev ck14 : List (HloOp τ sig (Elt F)) :=
  [
    StableHlo.TRef.nullary (.of main_call8_cst : StableHlo.TRef sig ⟨S_, .f32⟩) (constant S_ .f32 0x00000000#32),
    StableHlo.TRef.unary (.of main_call8_cst : StableHlo.TRef sig ⟨S_, .f32⟩) (.of main_call8_v0 : StableHlo.TRef sig ⟨S50000x256, .f32⟩) (broadcastInDim S50000x256 ![] bcast_S_S50000x256),
    StableHlo.TRef.binary (.of main_v158 : StableHlo.TRef sig ⟨S50000x256, .f32⟩) (.of main_call8_v0 : StableHlo.TRef sig ⟨S50000x256, .f32⟩) (.of main_v159 : StableHlo.TRef sig ⟨S50000x256, .f32⟩) maximumf ]

theorem ck14_sub : (ck14 : List (HloOp τ sig (Elt F))).Forall fun op => op.bufs ⊆ tcRefs τ sig :=
  ⟨nullary_bufs_sub .., unary_bufs_sub .., binary_bufs_sub ..⟩

theorem ck14_fresh : ∀ op ∈ (ck14 : List (HloOp τ sig (Elt F))), op.fresh = ∅ := by
  intro _ h; (repeat (cases h with | head => rfl | tail _ h => ?_)); exact nomatch h

/-- Operations 210 to 235 of the program, in order. -/
abbrev ck15 : List (HloOp τ sig (Elt F)) :=
  [
    StableHlo.unary main_arg3 main_v160 ((extractStridedSlice S1x256x256 ![0, 0, 0] · slices_S4x256x256_S1x256x256_0_0_0) : (⟨S4x256x256, .f32⟩ : BufTy).Contents (Elt F) → (⟨S1x256x256, .f32⟩ : BufTy).Contents (Elt F)),
    StableHlo.reshape main_v160 main_v161 rfl shapeCasts_S1x256x256_S256x256,
    StableHlo.unary main_arg4 main_v162 ((extractStridedSlice S1x256 ![0, 0] · slices_S4x256_S1x256_0_0) : (⟨S4x256, .f32⟩ : BufTy).Contents (Elt F) → (⟨S1x256, .f32⟩ : BufTy).Contents (Elt F)),
    StableHlo.reshape main_v162 main_v163 rfl shapeCasts_S1x256_S256,
    StableHlo.unary main_arg9 main_v164 ((extractStridedSlice S1x400000 ![0, 0] · slices_S4x400000_S1x400000_0_0) : (⟨S4x400000, .i32⟩ : BufTy).Contents (Elt F) → (⟨S1x400000, .i32⟩ : BufTy).Contents (Elt F)),
    StableHlo.reshape main_v164 main_v165 rfl shapeCasts_S1x400000_S400000,
    StableHlo.unary main_arg10 main_v166 ((extractStridedSlice S1x400000 ![0, 0] · slices_S4x400000_S1x400000_0_0) : (⟨S4x400000, .i32⟩ : BufTy).Contents (Elt F) → (⟨S1x400000, .i32⟩ : BufTy).Contents (Elt F)),
    StableHlo.reshape main_v166 main_v167 rfl shapeCasts_S1x400000_S400000,
    StableHlo.nullary main_cst_30 (constant S_ .f32 0x3F800000#32),
    StableHlo.unary main_cst_30 main_v168 (broadcastInDim S400000 ![] bcast_S_S400000 : (⟨S_, .f32⟩ : BufTy).Contents (Elt F) → (⟨S400000, .f32⟩ : BufTy).Contents (Elt F)),
    StableHlo.nullary main_cst_31 (constant S_ .f32 0x00000000#32),
    StableHlo.unary main_cst_31 main_v169 (broadcastInDim S50000 ![] bcast_S_S50000 : (⟨S_, .f32⟩ : BufTy).Contents (Elt F) → (⟨S50000, .f32⟩ : BufTy).Contents (Elt F)),
    StableHlo.unary main_v165 main_v170 (broadcastInDim S400000x1 ![0] bcast_S400000_S400000x1_0 : (⟨S400000, .i32⟩ : BufTy).Contents (Elt F) → (⟨S400000x1, .i32⟩ : BufTy).Contents (Elt F)),
    StableHlo.ternary main_v169 main_v170 main_v168 main_v171 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_32 (constant S_ .f32 0x3F800000#32),
    StableHlo.TRef.unary (.of main_cst_32 : StableHlo.TRef sig ⟨S_, .f32⟩) (.of main_call9_v0 : StableHlo.TRef sig ⟨S_, .f32⟩) id,
    StableHlo.TRef.unary (.of main_call9_v0 : StableHlo.TRef sig ⟨S_, .f32⟩) (.of main_call9_v1 : StableHlo.TRef sig ⟨S50000, .f32⟩) (broadcastInDim S50000 ![] bcast_S_S50000),
    StableHlo.TRef.binary (.of main_call9_v1 : StableHlo.TRef sig ⟨S50000, .f32⟩) (.of main_v171 : StableHlo.TRef sig ⟨S50000, .f32⟩) (.of main_v172 : StableHlo.TRef sig ⟨S50000, .f32⟩) maximumf,
    StableHlo.nullary main_cst_33 (constant S_ .f32 0x00000000#32),
    StableHlo.unary main_cst_33 main_v173 (broadcastInDim S50000 ![] bcast_S_S50000 : (⟨S_, .f32⟩ : BufTy).Contents (Elt F) → (⟨S50000, .f32⟩ : BufTy).Contents (Elt F)),
    StableHlo.unary main_v167 main_v174 (broadcastInDim S400000x1 ![0] bcast_S400000_S400000x1_0 : (⟨S400000, .i32⟩ : BufTy).Contents (Elt F) → (⟨S400000x1, .i32⟩ : BufTy).Contents (Elt F)),
    StableHlo.ternary main_v173 main_v174 main_v168 main_v175 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_34 (constant S_ .f32 0x3F800000#32),
    StableHlo.TRef.unary (.of main_cst_34 : StableHlo.TRef sig ⟨S_, .f32⟩) (.of main_call10_v0 : StableHlo.TRef sig ⟨S_, .f32⟩) id,
    StableHlo.TRef.unary (.of main_call10_v0 : StableHlo.TRef sig ⟨S_, .f32⟩) (.of main_call10_v1 : StableHlo.TRef sig ⟨S50000, .f32⟩) (broadcastInDim S50000 ![] bcast_S_S50000),
    StableHlo.TRef.binary (.of main_call10_v1 : StableHlo.TRef sig ⟨S50000, .f32⟩) (.of main_v175 : StableHlo.TRef sig ⟨S50000, .f32⟩) (.of main_v176 : StableHlo.TRef sig ⟨S50000, .f32⟩) maximumf ]

theorem ck15_sub : (ck15 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., unary_bufs_sub .., ternary_bufs_sub .., nullary_bufs_sub .., unary_bufs_sub .., unary_bufs_sub .., binary_bufs_sub ..⟩

theorem ck15_fresh : ∀ op ∈ (ck15 : List (HloOp τ sig (Elt F))), op.fresh = ∅ := by
  intro _ h; (repeat (cases h with | head => rfl | tail _ h => ?_)); exact nomatch h

/-- Operations 236 to 260 of the program, in order. -/
abbrev ck16 : List (HloOp τ sig (Elt F)) :=
  [
    StableHlo.unary main_v172 main_v177 (Host.rsqrt : (⟨S50000, .f32⟩ : BufTy).Contents (Elt F) → (⟨S50000, .f32⟩ : BufTy).Contents (Elt F)),
    StableHlo.unary main_v177 main_v178 (broadcastInDim S50000x1 ![0] bcast_S50000_S50000x1_0 : (⟨S50000, .f32⟩ : BufTy).Contents (Elt F) → (⟨S50000x1, .f32⟩ : BufTy).Contents (Elt F)),
    StableHlo.unary main_v178 main_v179 (broadcastInDim S50000x256 ![0, 1] bcast_S50000x1_S50000x256_0_1 : (⟨S50000x1, .f32⟩ : BufTy).Contents (Elt F) → (⟨S50000x256, .f32⟩ : BufTy).Contents (Elt F)),
    StableHlo.binary main_v159 main_v179 main_v180 (mulf : (⟨S50000x256, .f32⟩ : BufTy).Contents (Elt F) → (⟨S50000x256, .f32⟩ : BufTy).Contents (Elt F) → (⟨S50000x256, .f32⟩ : BufTy).Contents (Elt F)),
    StableHlo.binary main_v180 main_v161 main_v181 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_c_35 (constantI S_ 32 0#32),
    StableHlo.unary main_c_35 main_v182 (broadcastInDim S400000 ![] bcast_S_S400000 : (⟨S_, .i32⟩ : BufTy).Contents (Elt F) → (⟨S400000, .i32⟩ : BufTy).Contents (Elt F)),
    StableHlo.binary main_v165 main_v182 main_v183 (cmpi .slt : (⟨S400000, .i32⟩ : BufTy).Contents (Elt F) → (⟨S400000, .i32⟩ : BufTy).Contents (Elt F) → (⟨S400000, .i1⟩ : BufTy).Contents (Elt F)),
    StableHlo.nullary main_c_36 (constantI S_ 32 50000#32),
    StableHlo.unary main_c_36 main_v184 (broadcastInDim S400000 ![] bcast_S_S400000 : (⟨S_, .i32⟩ : BufTy).Contents (Elt F) → (⟨S400000, .i32⟩ : BufTy).Contents (Elt F)),
    StableHlo.binary main_v165 main_v184 main_v185 (addi : (⟨S400000, .i32⟩ : BufTy).Contents (Elt F) → (⟨S400000, .i32⟩ : BufTy).Contents (Elt F) → (⟨S400000, .i32⟩ : BufTy).Contents (Elt F)),
    StableHlo.ternary main_v183 main_v185 main_v165 main_v186 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v186 main_v187 (broadcastInDim S400000x1 ![0] bcast_S400000_S400000x1_0 : (⟨S400000, .i32⟩ : BufTy).Contents (Elt F) → (⟨S400000x1, .i32⟩ : BufTy).Contents (Elt F)),
    StableHlo.binary main_v181 main_v187 main_v188 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    StableHlo.nullary main_cst_37 (constant S_ .f32 0x00000000#32),
    StableHlo.unary main_cst_37 main_v189 (broadcastInDim S50000x256 ![] bcast_S_S50000x256 : (⟨S_, .f32⟩ : BufTy).Contents (Elt F) → (⟨S50000x256, .f32⟩ : BufTy).Contents (Elt F)),
    StableHlo.unary main_v167 main_v190 (broadcastInDim S400000x1 ![0] bcast_S400000_S400000x1_0 : (⟨S400000, .i32⟩ : BufTy).Contents (Elt F) → (⟨S400000x1, .i32⟩ : BufTy).Contents (Elt F)),
    StableHlo.ternary main_v189 main_v190 main_v188 main_v191 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    StableHlo.unary main_v176 main_v192 (Host.rsqrt : (⟨S50000, .f32⟩ : BufTy).Contents (Elt F) → (⟨S50000, .f32⟩ : BufTy).Contents (Elt F)),
    StableHlo.unary main_v192 main_v193 (broadcastInDim S50000x1 ![0] bcast_S50000_S50000x1_0 : (⟨S50000, .f32⟩ : BufTy).Contents (Elt F) → (⟨S50000x1, .f32⟩ : BufTy).Contents (Elt F)),
    StableHlo.unary main_v193 main_v194 (broadcastInDim S50000x256 ![0, 1] bcast_S50000x1_S50000x256_0_1 : (⟨S50000x1, .f32⟩ : BufTy).Contents (Elt F) → (⟨S50000x256, .f32⟩ : BufTy).Contents (Elt F)),
    StableHlo.binary main_v191 main_v194 main_v195 (mulf : (⟨S50000x256, .f32⟩ : BufTy).Contents (Elt F) → (⟨S50000x256, .f32⟩ : BufTy).Contents (Elt F) → (⟨S50000x256, .f32⟩ : BufTy).Contents (Elt F)),
    StableHlo.unary main_v163 main_v196 (broadcastInDim S1x256 ![1] bcast_S256_S1x256_1 : (⟨S256, .f32⟩ : BufTy).Contents (Elt F) → (⟨S1x256, .f32⟩ : BufTy).Contents (Elt F)),
    StableHlo.unary main_v196 main_v197 (broadcastInDim S50000x256 ![0, 1] bcast_S1x256_S50000x256_0_1 : (⟨S1x256, .f32⟩ : BufTy).Contents (Elt F) → (⟨S50000x256, .f32⟩ : BufTy).Contents (Elt F)),
    StableHlo.binary main_v195 main_v197 main_v198 (addf : (⟨S50000x256, .f32⟩ : BufTy).Contents (Elt F) → (⟨S50000x256, .f32⟩ : BufTy).Contents (Elt F) → (⟨S50000x256, .f32⟩ : BufTy).Contents (Elt F)) ]

theorem ck16_sub : (ck16 : List (HloOp τ sig (Elt F))).Forall fun op => op.bufs ⊆ tcRefs τ sig :=
  ⟨unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., unary_bufs_sub .., binary_bufs_sub .., unary_bufs_sub .., unary_bufs_sub .., binary_bufs_sub ..⟩

theorem ck16_fresh : ∀ op ∈ (ck16 : List (HloOp τ sig (Elt F))), op.fresh = ∅ := by
  intro _ h; (repeat (cases h with | head => rfl | tail _ h => ?_)); exact nomatch h

/-- Operations 261 to 261 of the program, in order. -/
abbrev ck17 : List (HloOp τ sig (Elt F)) :=
  [
    StableHlo.unary main_arg3 main_v199 ((extractStridedSlice S1x256x256 ![1, 0, 0] · slices_S4x256x256_S1x256x256_1_0_0) : (⟨S4x256x256, .f32⟩ : BufTy).Contents (Elt F) → (⟨S1x256x256, .f32⟩ : BufTy).Contents (Elt F)) ]

theorem ck17_sub : (ck17 : List (HloOp τ sig (Elt F))).Forall fun op => op.bufs ⊆ tcRefs τ sig :=
  (unary_bufs_sub ..)

theorem ck17_fresh : ∀ op ∈ (ck17 : List (HloOp τ sig (Elt F))), op.fresh = ∅ := by
  intro _ h; (repeat (cases h with | head => rfl | tail _ h => ?_)); exact nomatch h

/-- The lists of this stretch of statements, in order. -/
abbrev win3 : List (HloOp τ sig (Elt F)) := ck12 ++ (ck13 ++ (ck14 ++ (ck15 ++ (ck16 ++ (ck17)))))

theorem win3_sub : ∀ op ∈ (win3 : List (HloOp τ sig (Elt F))), op.bufs ⊆ tcRefs τ sig :=
  (forall_mem_append_of (List.forall_iff_forall_mem.1 ck12_sub) (forall_mem_append_of (List.forall_iff_forall_mem.1 ck13_sub) (forall_mem_append_of (List.forall_iff_forall_mem.1 ck14_sub) (forall_mem_append_of (List.forall_iff_forall_mem.1 ck15_sub) (forall_mem_append_of (List.forall_iff_forall_mem.1 ck16_sub) (List.forall_iff_forall_mem.1 ck17_sub))))))

theorem win3_fresh : ∀ op ∈ (win3 : List (HloOp τ sig (Elt F))), op.fresh = ∅ :=
  (forall_mem_append_of ck12_fresh (forall_mem_append_of ck13_fresh (forall_mem_append_of ck14_fresh (forall_mem_append_of ck15_fresh (forall_mem_append_of ck16_fresh ck17_fresh)))))

set_option maxRecDepth 8192 in
set_option maxHeartbeats 4000000 in
/-- The statements are exactly these operations, one after the other. -/
theorem part3_eq (c : Dev nD) : main_part3 (F := F) c = seq win3 := rfl

end Cert.RefHand

end
-- ==== Proof.Ref.Win4.lean ====
import proofs.«111407_j24215025614983_1_alg».proof.Proof.Gen.ReferenceIdeal
import proofs.«111407_j24215025614983_1_alg».proof.Proof.Ref.Basic

/-!
Statements 241 to 300 of the reference program's entry function, written as lists of host
operations (a called function's body is listed at its call, over that call's own buffers), and the fact that
running those statements is running the lists in order.
-/

noncomputable section

namespace Cert.RefHand

open Cert.ReferenceIdeal Cert.ReferenceIdeal.Gen Idealize.ShloMosaic Idealize.ShloMosaic.TcCoe Idealize.SL.Sem Idealize.ShloMosaic.StableHlo

variable {F : FTy → Type} [FloatOps F]

/-- Operations 262 to 286 of the program, in order. -/
abbrev ck18 : List (HloOp τ sig (Elt F)) :=
  [
    StableHlo.reshape main_v199 main_v200 rfl shapeCasts_S1x256x256_S256x256,
    StableHlo.unary main_arg4 main_v201 ((extractStridedSlice S1x256 ![1, 0] · slices_S4x256_S1x256_1_0) : (⟨S4x256, .f32⟩ : BufTy).Contents (Elt F) → (⟨S1x256, .f32⟩ : BufTy).Contents (Elt F)),
    StableHlo.reshape main_v201 main_v202 rfl shapeCasts_S1x256_S256,
    StableHlo.unary main_arg9 main_v203 ((extractStridedSlice S1x400000 ![1, 0] · slices_S4x400000_S1x400000_1_0) : (⟨S4x400000, .i32⟩ : BufTy).Contents (Elt F) → (⟨S1x400000, .i32⟩ : BufTy).Contents (Elt F)),
    StableHlo.reshape main_v203 main_v204 rfl shapeCasts_S1x400000_S400000,
    StableHlo.unary main_arg10 main_v205 ((extractStridedSlice S1x400000 ![1, 0] · slices_S4x400000_S1x400000_1_0) : (⟨S4x400000, .i32⟩ : BufTy).Contents (Elt F) → (⟨S1x400000, .i32⟩ : BufTy).Contents (Elt F)),
    StableHlo.reshape main_v205 main_v206 rfl shapeCasts_S1x400000_S400000,
    StableHlo.nullary main_cst_38 (constant S_ .f32 0x3F800000#32),
    StableHlo.unary main_cst_38 main_v207 (broadcastInDim S400000 ![] bcast_S_S400000 : (⟨S_, .f32⟩ : BufTy).Contents (Elt F) → (⟨S400000, .f32⟩ : BufTy).Contents (Elt F)),
    StableHlo.nullary main_cst_39 (constant S_ .f32 0x00000000#32),
    StableHlo.unary main_cst_39 main_v208 (broadcastInDim S50000 ![] bcast_S_S50000 : (⟨S_, .f32⟩ : BufTy).Contents (Elt F) → (⟨S50000, .f32⟩ : BufTy).Contents (Elt F)),
    StableHlo.unary main_v204 main_v209 (broadcastInDim S400000x1 ![0] bcast_S400000_S400000x1_0 : (⟨S400000, .i32⟩ : BufTy).Contents (Elt F) → (⟨S400000x1, .i32⟩ : BufTy).Contents (Elt F)),
    StableHlo.ternary main_v208 main_v209 main_v207 main_v210 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_40 (constant S_ .f32 0x3F800000#32),
    StableHlo.TRef.unary (.of main_cst_40 : StableHlo.TRef sig ⟨S_, .f32⟩) (.of main_call11_v0 : StableHlo.TRef sig ⟨S_, .f32⟩) id,
    StableHlo.TRef.unary (.of main_call11_v0 : StableHlo.TRef sig ⟨S_, .f32⟩) (.of main_call11_v1 : StableHlo.TRef sig ⟨S50000, .f32⟩) (broadcastInDim S50000 ![] bcast_S_S50000),
    StableHlo.TRef.binary (.of main_call11_v1 : StableHlo.TRef sig ⟨S50000, .f32⟩) (.of main_v210 : StableHlo.TRef sig ⟨S50000, .f32⟩) (.of main_v211 : StableHlo.TRef sig ⟨S50000, .f32⟩) maximumf,
    StableHlo.nullary main_cst_41 (constant S_ .f32 0x00000000#32),
    StableHlo.unary main_cst_41 main_v212 (broadcastInDim S50000 ![] bcast_S_S50000 : (⟨S_, .f32⟩ : BufTy).Contents (Elt F) → (⟨S50000, .f32⟩ : BufTy).Contents (Elt F)),
    StableHlo.unary main_v206 main_v213 (broadcastInDim S400000x1 ![0] bcast_S400000_S400000x1_0 : (⟨S400000, .i32⟩ : BufTy).Contents (Elt F) → (⟨S400000x1, .i32⟩ : BufTy).Contents (Elt F)),
    StableHlo.ternary main_v212 main_v213 main_v207 main_v214 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_42 (constant S_ .f32 0x3F800000#32),
    StableHlo.TRef.unary (.of main_cst_42 : StableHlo.TRef sig ⟨S_, .f32⟩) (.of main_call12_v0 : StableHlo.TRef sig ⟨S_, .f32⟩) id,
    StableHlo.TRef.unary (.of main_call12_v0 : StableHlo.TRef sig ⟨S_, .f32⟩) (.of main_call12_v1 : StableHlo.TRef sig ⟨S50000, .f32⟩) (broadcastInDim S50000 ![] bcast_S_S50000),
    StableHlo.TRef.binary (.of main_call12_v1 : StableHlo.TRef sig ⟨S50000, .f32⟩) (.of main_v214 : StableHlo.TRef sig ⟨S50000, .f32⟩) (.of main_v215 : StableHlo.TRef sig ⟨S50000, .f32⟩) maximumf ]

theorem ck18_sub : (ck18 : List (HloOp τ sig (Elt F))).Forall fun op => op.bufs ⊆ tcRefs τ sig :=
  ⟨reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., unary_bufs_sub .., ternary_bufs_sub .., nullary_bufs_sub .., unary_bufs_sub .., unary_bufs_sub .., binary_bufs_sub ..⟩

theorem ck18_fresh : ∀ op ∈ (ck18 : List (HloOp τ sig (Elt F))), op.fresh = ∅ := by
  intro _ h; (repeat (cases h with | head => rfl | tail _ h => ?_)); exact nomatch h

/-- Operations 287 to 311 of the program, in order. -/
abbrev ck19 : List (HloOp τ sig (Elt F)) :=
  [
    StableHlo.unary main_v211 main_v216 (Host.rsqrt : (⟨S50000, .f32⟩ : BufTy).Contents (Elt F) → (⟨S50000, .f32⟩ : BufTy).Contents (Elt F)),
    StableHlo.unary main_v216 main_v217 (broadcastInDim S50000x1 ![0] bcast_S50000_S50000x1_0 : (⟨S50000, .f32⟩ : BufTy).Contents (Elt F) → (⟨S50000x1, .f32⟩ : BufTy).Contents (Elt F)),
    StableHlo.unary main_v217 main_v218 (broadcastInDim S50000x256 ![0, 1] bcast_S50000x1_S50000x256_0_1 : (⟨S50000x1, .f32⟩ : BufTy).Contents (Elt F) → (⟨S50000x256, .f32⟩ : BufTy).Contents (Elt F)),
    StableHlo.binary main_v159 main_v218 main_v219 (mulf : (⟨S50000x256, .f32⟩ : BufTy).Contents (Elt F) → (⟨S50000x256, .f32⟩ : BufTy).Contents (Elt F) → (⟨S50000x256, .f32⟩ : BufTy).Contents (Elt F)),
    StableHlo.binary main_v219 main_v200 main_v220 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_c_43 (constantI S_ 32 0#32),
    StableHlo.unary main_c_43 main_v221 (broadcastInDim S400000 ![] bcast_S_S400000 : (⟨S_, .i32⟩ : BufTy).Contents (Elt F) → (⟨S400000, .i32⟩ : BufTy).Contents (Elt F)),
    StableHlo.binary main_v204 main_v221 main_v222 (cmpi .slt : (⟨S400000, .i32⟩ : BufTy).Contents (Elt F) → (⟨S400000, .i32⟩ : BufTy).Contents (Elt F) → (⟨S400000, .i1⟩ : BufTy).Contents (Elt F)),
    StableHlo.nullary main_c_44 (constantI S_ 32 50000#32),
    StableHlo.unary main_c_44 main_v223 (broadcastInDim S400000 ![] bcast_S_S400000 : (⟨S_, .i32⟩ : BufTy).Contents (Elt F) → (⟨S400000, .i32⟩ : BufTy).Contents (Elt F)),
    StableHlo.binary main_v204 main_v223 main_v224 (addi : (⟨S400000, .i32⟩ : BufTy).Contents (Elt F) → (⟨S400000, .i32⟩ : BufTy).Contents (Elt F) → (⟨S400000, .i32⟩ : BufTy).Contents (Elt F)),
    StableHlo.ternary main_v222 main_v224 main_v204 main_v225 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v225 main_v226 (broadcastInDim S400000x1 ![0] bcast_S400000_S400000x1_0 : (⟨S400000, .i32⟩ : BufTy).Contents (Elt F) → (⟨S400000x1, .i32⟩ : BufTy).Contents (Elt F)),
    StableHlo.binary main_v220 main_v226 main_v227 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    StableHlo.nullary main_cst_45 (constant S_ .f32 0x00000000#32),
    StableHlo.unary main_cst_45 main_v228 (broadcastInDim S50000x256 ![] bcast_S_S50000x256 : (⟨S_, .f32⟩ : BufTy).Contents (Elt F) → (⟨S50000x256, .f32⟩ : BufTy).Contents (Elt F)),
    StableHlo.unary main_v206 main_v229 (broadcastInDim S400000x1 ![0] bcast_S400000_S400000x1_0 : (⟨S400000, .i32⟩ : BufTy).Contents (Elt F) → (⟨S400000x1, .i32⟩ : BufTy).Contents (Elt F)),
    StableHlo.ternary main_v228 main_v229 main_v227 main_v230 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    StableHlo.unary main_v215 main_v231 (Host.rsqrt : (⟨S50000, .f32⟩ : BufTy).Contents (Elt F) → (⟨S50000, .f32⟩ : BufTy).Contents (Elt F)),
    StableHlo.unary main_v231 main_v232 (broadcastInDim S50000x1 ![0] bcast_S50000_S50000x1_0 : (⟨S50000, .f32⟩ : BufTy).Contents (Elt F) → (⟨S50000x1, .f32⟩ : BufTy).Contents (Elt F)),
    StableHlo.unary main_v232 main_v233 (broadcastInDim S50000x256 ![0, 1] bcast_S50000x1_S50000x256_0_1 : (⟨S50000x1, .f32⟩ : BufTy).Contents (Elt F) → (⟨S50000x256, .f32⟩ : BufTy).Contents (Elt F)),
    StableHlo.binary main_v230 main_v233 main_v234 (mulf : (⟨S50000x256, .f32⟩ : BufTy).Contents (Elt F) → (⟨S50000x256, .f32⟩ : BufTy).Contents (Elt F) → (⟨S50000x256, .f32⟩ : BufTy).Contents (Elt F)),
    StableHlo.unary main_v202 main_v235 (broadcastInDim S1x256 ![1] bcast_S256_S1x256_1 : (⟨S256, .f32⟩ : BufTy).Contents (Elt F) → (⟨S1x256, .f32⟩ : BufTy).Contents (Elt F)),
    StableHlo.unary main_v235 main_v236 (broadcastInDim S50000x256 ![0, 1] bcast_S1x256_S50000x256_0_1 : (⟨S1x256, .f32⟩ : BufTy).Contents (Elt F) → (⟨S50000x256, .f32⟩ : BufTy).Contents (Elt F)),
    StableHlo.binary main_v234 main_v236 main_v237 (addf : (⟨S50000x256, .f32⟩ : BufTy).Contents (Elt F) → (⟨S50000x256, .f32⟩ : BufTy).Contents (Elt F) → (⟨S50000x256, .f32⟩ : BufTy).Contents (Elt F)) ]

theorem ck19_sub : (ck19 : List (HloOp τ sig (Elt F))).Forall fun op => op.bufs ⊆ tcRefs τ sig :=
  ⟨unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., unary_bufs_sub .., binary_bufs_sub .., unary_bufs_sub .., unary_bufs_sub .., binary_bufs_sub ..⟩

theorem ck19_fresh : ∀ op ∈ (ck19 : List (HloOp τ sig (Elt F))), op.fresh = ∅ := by
  intro _ h; (repeat (cases h with | head => rfl | tail _ h => ?_)); exact nomatch h

/-- Operations 312 to 312 of the program, in order. -/
abbrev ck20 : List (HloOp τ sig (Elt F)) :=
  [
    StableHlo.binary main_v198 main_v237 main_v238 (addf : (⟨S50000x256, .f32⟩ : BufTy).Contents (Elt F) → (⟨S50000x256, .f32⟩ : BufTy).Contents (Elt F) → (⟨S50000x256, .f32⟩ : BufTy).Contents (Elt F)) ]

theorem ck20_sub : (ck20 : List (HloOp τ sig (Elt F))).Forall fun op => op.bufs ⊆ tcRefs τ sig :=
  (binary_bufs_sub ..)

theorem ck20_fresh : ∀ op ∈ (ck20 : List (HloOp τ sig (Elt F))), op.fresh = ∅ := by
  intro _ h; (repeat (cases h with | head => rfl | tail _ h => ?_)); exact nomatch h

/-- Operations 313 to 325 of the program, in order. -/
abbrev ck21 : List (HloOp τ sig (Elt F)) :=
  [
    StableHlo.unary main_arg3 main_v239 ((extractStridedSlice S1x256x256 ![2, 0, 0] · slices_S4x256x256_S1x256x256_2_0_0) : (⟨S4x256x256, .f32⟩ : BufTy).Contents (Elt F) → (⟨S1x256x256, .f32⟩ : BufTy).Contents (Elt F)),
    StableHlo.reshape main_v239 main_v240 rfl shapeCasts_S1x256x256_S256x256,
    StableHlo.unary main_arg4 main_v241 ((extractStridedSlice S1x256 ![2, 0] · slices_S4x256_S1x256_2_0) : (⟨S4x256, .f32⟩ : BufTy).Contents (Elt F) → (⟨S1x256, .f32⟩ : BufTy).Contents (Elt F)),
    StableHlo.reshape main_v241 main_v242 rfl shapeCasts_S1x256_S256,
    StableHlo.unary main_arg9 main_v243 ((extractStridedSlice S1x400000 ![2, 0] · slices_S4x400000_S1x400000_2_0) : (⟨S4x400000, .i32⟩ : BufTy).Contents (Elt F) → (⟨S1x400000, .i32⟩ : BufTy).Contents (Elt F)),
    StableHlo.reshape main_v243 main_v244 rfl shapeCasts_S1x400000_S400000,
    StableHlo.unary main_arg10 main_v245 ((extractStridedSlice S1x400000 ![2, 0] · slices_S4x400000_S1x400000_2_0) : (⟨S4x400000, .i32⟩ : BufTy).Contents (Elt F) → (⟨S1x400000, .i32⟩ : BufTy).Contents (Elt F)),
    StableHlo.reshape main_v245 main_v246 rfl shapeCasts_S1x400000_S400000,
    StableHlo.nullary main_cst_46 (constant S_ .f32 0x3F800000#32),
    StableHlo.unary main_cst_46 main_v247 (broadcastInDim S400000 ![] bcast_S_S400000 : (⟨S_, .f32⟩ : BufTy).Contents (Elt F) → (⟨S400000, .f32⟩ : BufTy).Contents (Elt F)),
    StableHlo.nullary main_cst_47 (constant S_ .f32 0x00000000#32),
    StableHlo.unary main_cst_47 main_v248 (broadcastInDim S50000 ![] bcast_S_S50000 : (⟨S_, .f32⟩ : BufTy).Contents (Elt F) → (⟨S50000, .f32⟩ : BufTy).Contents (Elt F)),
    StableHlo.unary main_v244 main_v249 (broadcastInDim S400000x1 ![0] bcast_S400000_S400000x1_0 : (⟨S400000, .i32⟩ : BufTy).Contents (Elt F) → (⟨S400000x1, .i32⟩ : BufTy).Contents (Elt F)) ]

theorem ck21_sub : (ck21 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., unary_bufs_sub ..⟩

theorem ck21_fresh : ∀ op ∈ (ck21 : List (HloOp τ sig (Elt F))), op.fresh = ∅ := by
  intro _ h; (repeat (cases h with | head => rfl | tail _ h => ?_)); exact nomatch h

/-- The lists of this stretch of statements, in order. -/
abbrev win4 : List (HloOp τ sig (Elt F)) := ck18 ++ (ck19 ++ (ck20 ++ (ck21)))

theorem win4_sub : ∀ op ∈ (win4 : List (HloOp τ sig (Elt F))), op.bufs ⊆ tcRefs τ sig :=
  (forall_mem_append_of (List.forall_iff_forall_mem.1 ck18_sub) (forall_mem_append_of (List.forall_iff_forall_mem.1 ck19_sub) (forall_mem_append_of (List.forall_iff_forall_mem.1 ck20_sub) (List.forall_iff_forall_mem.1 ck21_sub))))

theorem win4_fresh : ∀ op ∈ (win4 : List (HloOp τ sig (Elt F))), op.fresh = ∅ :=
  (forall_mem_append_of ck18_fresh (forall_mem_append_of ck19_fresh (forall_mem_append_of ck20_fresh ck21_fresh)))

set_option maxRecDepth 8192 in
set_option maxHeartbeats 4000000 in
/-- The statements are exactly these operations, one after the other. -/
theorem part4_eq (c : Dev nD) : main_part4 (F := F) c = seq win4 := rfl

end Cert.RefHand

end
-- ==== Proof.Ref.Win5.lean ====
import proofs.«111407_j24215025614983_1_alg».proof.Proof.Gen.ReferenceIdeal
import proofs.«111407_j24215025614983_1_alg».proof.Proof.Ref.Basic

/-!
Statements 301 to 360 of the reference program's entry function, written as lists of host
operations (a called function's body is listed at its call, over that call's own buffers), and the fact that
running those statements is running the lists in order.
-/

noncomputable section

namespace Cert.RefHand

open Cert.ReferenceIdeal Cert.ReferenceIdeal.Gen Idealize.ShloMosaic Idealize.ShloMosaic.TcCoe Idealize.SL.Sem Idealize.ShloMosaic.StableHlo

variable {F : FTy → Type} [FloatOps F]

/-- Operations 326 to 338 of the program, in order. -/
abbrev ck22 : List (HloOp τ sig (Elt F)) :=
  [
    StableHlo.ternary main_v248 main_v249 main_v247 main_v250 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_48 (constant S_ .f32 0x3F800000#32),
    StableHlo.TRef.unary (.of main_cst_48 : StableHlo.TRef sig ⟨S_, .f32⟩) (.of main_call13_v0 : StableHlo.TRef sig ⟨S_, .f32⟩) id,
    StableHlo.TRef.unary (.of main_call13_v0 : StableHlo.TRef sig ⟨S_, .f32⟩) (.of main_call13_v1 : StableHlo.TRef sig ⟨S50000, .f32⟩) (broadcastInDim S50000 ![] bcast_S_S50000),
    StableHlo.TRef.binary (.of main_call13_v1 : StableHlo.TRef sig ⟨S50000, .f32⟩) (.of main_v250 : StableHlo.TRef sig ⟨S50000, .f32⟩) (.of main_v251 : StableHlo.TRef sig ⟨S50000, .f32⟩) maximumf,
    StableHlo.nullary main_cst_49 (constant S_ .f32 0x00000000#32),
    StableHlo.unary main_cst_49 main_v252 (broadcastInDim S50000 ![] bcast_S_S50000 : (⟨S_, .f32⟩ : BufTy).Contents (Elt F) → (⟨S50000, .f32⟩ : BufTy).Contents (Elt F)),
    StableHlo.unary main_v246 main_v253 (broadcastInDim S400000x1 ![0] bcast_S400000_S400000x1_0 : (⟨S400000, .i32⟩ : BufTy).Contents (Elt F) → (⟨S400000x1, .i32⟩ : BufTy).Contents (Elt F)),
    StableHlo.ternary main_v252 main_v253 main_v247 main_v254 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_50 (constant S_ .f32 0x3F800000#32),
    StableHlo.TRef.unary (.of main_cst_50 : StableHlo.TRef sig ⟨S_, .f32⟩) (.of main_call14_v0 : StableHlo.TRef sig ⟨S_, .f32⟩) id,
    StableHlo.TRef.unary (.of main_call14_v0 : StableHlo.TRef sig ⟨S_, .f32⟩) (.of main_call14_v1 : StableHlo.TRef sig ⟨S50000, .f32⟩) (broadcastInDim S50000 ![] bcast_S_S50000),
    StableHlo.TRef.binary (.of main_call14_v1 : StableHlo.TRef sig ⟨S50000, .f32⟩) (.of main_v254 : StableHlo.TRef sig ⟨S50000, .f32⟩) (.of main_v255 : StableHlo.TRef sig ⟨S50000, .f32⟩) maximumf ]

theorem ck22_sub : (ck22 : List (HloOp τ sig (Elt F))).Forall fun op => op.bufs ⊆ tcRefs τ sig :=
  ⟨ternary_bufs_sub .., nullary_bufs_sub .., unary_bufs_sub .., unary_bufs_sub .., binary_bufs_sub .., nullary_bufs_sub .., unary_bufs_sub .., unary_bufs_sub .., ternary_bufs_sub .., nullary_bufs_sub .., unary_bufs_sub .., unary_bufs_sub .., binary_bufs_sub ..⟩

theorem ck22_fresh : ∀ op ∈ (ck22 : List (HloOp τ sig (Elt F))), op.fresh = ∅ := by
  intro _ h; (repeat (cases h with | head => rfl | tail _ h => ?_)); exact nomatch h

/-- Operations 339 to 363 of the program, in order. -/
abbrev ck23 : List (HloOp τ sig (Elt F)) :=
  [
    StableHlo.unary main_v251 main_v256 (Host.rsqrt : (⟨S50000, .f32⟩ : BufTy).Contents (Elt F) → (⟨S50000, .f32⟩ : BufTy).Contents (Elt F)),
    StableHlo.unary main_v256 main_v257 (broadcastInDim S50000x1 ![0] bcast_S50000_S50000x1_0 : (⟨S50000, .f32⟩ : BufTy).Contents (Elt F) → (⟨S50000x1, .f32⟩ : BufTy).Contents (Elt F)),
    StableHlo.unary main_v257 main_v258 (broadcastInDim S50000x256 ![0, 1] bcast_S50000x1_S50000x256_0_1 : (⟨S50000x1, .f32⟩ : BufTy).Contents (Elt F) → (⟨S50000x256, .f32⟩ : BufTy).Contents (Elt F)),
    StableHlo.binary main_v159 main_v258 main_v259 (mulf : (⟨S50000x256, .f32⟩ : BufTy).Contents (Elt F) → (⟨S50000x256, .f32⟩ : BufTy).Contents (Elt F) → (⟨S50000x256, .f32⟩ : BufTy).Contents (Elt F)),
    StableHlo.binary main_v259 main_v240 main_v260 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_c_51 (constantI S_ 32 0#32),
    StableHlo.unary main_c_51 main_v261 (broadcastInDim S400000 ![] bcast_S_S400000 : (⟨S_, .i32⟩ : BufTy).Contents (Elt F) → (⟨S400000, .i32⟩ : BufTy).Contents (Elt F)),
    StableHlo.binary main_v244 main_v261 main_v262 (cmpi .slt : (⟨S400000, .i32⟩ : BufTy).Contents (Elt F) → (⟨S400000, .i32⟩ : BufTy).Contents (Elt F) → (⟨S400000, .i1⟩ : BufTy).Contents (Elt F)),
    StableHlo.nullary main_c_52 (constantI S_ 32 50000#32),
    StableHlo.unary main_c_52 main_v263 (broadcastInDim S400000 ![] bcast_S_S400000 : (⟨S_, .i32⟩ : BufTy).Contents (Elt F) → (⟨S400000, .i32⟩ : BufTy).Contents (Elt F)),
    StableHlo.binary main_v244 main_v263 main_v264 (addi : (⟨S400000, .i32⟩ : BufTy).Contents (Elt F) → (⟨S400000, .i32⟩ : BufTy).Contents (Elt F) → (⟨S400000, .i32⟩ : BufTy).Contents (Elt F)),
    StableHlo.ternary main_v262 main_v264 main_v244 main_v265 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v265 main_v266 (broadcastInDim S400000x1 ![0] bcast_S400000_S400000x1_0 : (⟨S400000, .i32⟩ : BufTy).Contents (Elt F) → (⟨S400000x1, .i32⟩ : BufTy).Contents (Elt F)),
    StableHlo.binary main_v260 main_v266 main_v267 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    StableHlo.nullary main_cst_53 (constant S_ .f32 0x00000000#32),
    StableHlo.unary main_cst_53 main_v268 (broadcastInDim S50000x256 ![] bcast_S_S50000x256 : (⟨S_, .f32⟩ : BufTy).Contents (Elt F) → (⟨S50000x256, .f32⟩ : BufTy).Contents (Elt F)),
    StableHlo.unary main_v246 main_v269 (broadcastInDim S400000x1 ![0] bcast_S400000_S400000x1_0 : (⟨S400000, .i32⟩ : BufTy).Contents (Elt F) → (⟨S400000x1, .i32⟩ : BufTy).Contents (Elt F)),
    StableHlo.ternary main_v268 main_v269 main_v267 main_v270 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    StableHlo.unary main_v255 main_v271 (Host.rsqrt : (⟨S50000, .f32⟩ : BufTy).Contents (Elt F) → (⟨S50000, .f32⟩ : BufTy).Contents (Elt F)),
    StableHlo.unary main_v271 main_v272 (broadcastInDim S50000x1 ![0] bcast_S50000_S50000x1_0 : (⟨S50000, .f32⟩ : BufTy).Contents (Elt F) → (⟨S50000x1, .f32⟩ : BufTy).Contents (Elt F)),
    StableHlo.unary main_v272 main_v273 (broadcastInDim S50000x256 ![0, 1] bcast_S50000x1_S50000x256_0_1 : (⟨S50000x1, .f32⟩ : BufTy).Contents (Elt F) → (⟨S50000x256, .f32⟩ : BufTy).Contents (Elt F)),
    StableHlo.binary main_v270 main_v273 main_v274 (mulf : (⟨S50000x256, .f32⟩ : BufTy).Contents (Elt F) → (⟨S50000x256, .f32⟩ : BufTy).Contents (Elt F) → (⟨S50000x256, .f32⟩ : BufTy).Contents (Elt F)),
    StableHlo.unary main_v242 main_v275 (broadcastInDim S1x256 ![1] bcast_S256_S1x256_1 : (⟨S256, .f32⟩ : BufTy).Contents (Elt F) → (⟨S1x256, .f32⟩ : BufTy).Contents (Elt F)),
    StableHlo.unary main_v275 main_v276 (broadcastInDim S50000x256 ![0, 1] bcast_S1x256_S50000x256_0_1 : (⟨S1x256, .f32⟩ : BufTy).Contents (Elt F) → (⟨S50000x256, .f32⟩ : BufTy).Contents (Elt F)),
    StableHlo.binary main_v274 main_v276 main_v277 (addf : (⟨S50000x256, .f32⟩ : BufTy).Contents (Elt F) → (⟨S50000x256, .f32⟩ : BufTy).Contents (Elt F) → (⟨S50000x256, .f32⟩ : BufTy).Contents (Elt F)) ]

theorem ck23_sub : (ck23 : List (HloOp τ sig (Elt F))).Forall fun op => op.bufs ⊆ tcRefs τ sig :=
  ⟨unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., unary_bufs_sub .., binary_bufs_sub .., unary_bufs_sub .., unary_bufs_sub .., binary_bufs_sub ..⟩

theorem ck23_fresh : ∀ op ∈ (ck23 : List (HloOp τ sig (Elt F))), op.fresh = ∅ := by
  intro _ h; (repeat (cases h with | head => rfl | tail _ h => ?_)); exact nomatch h

/-- Operations 364 to 364 of the program, in order. -/
abbrev ck24 : List (HloOp τ sig (Elt F)) :=
  [
    StableHlo.binary main_v238 main_v277 main_v278 (addf : (⟨S50000x256, .f32⟩ : BufTy).Contents (Elt F) → (⟨S50000x256, .f32⟩ : BufTy).Contents (Elt F) → (⟨S50000x256, .f32⟩ : BufTy).Contents (Elt F)) ]

theorem ck24_sub : (ck24 : List (HloOp τ sig (Elt F))).Forall fun op => op.bufs ⊆ tcRefs τ sig :=
  (binary_bufs_sub ..)

theorem ck24_fresh : ∀ op ∈ (ck24 : List (HloOp τ sig (Elt F))), op.fresh = ∅ := by
  intro _ h; (repeat (cases h with | head => rfl | tail _ h => ?_)); exact nomatch h

/-- Operations 365 to 390 of the program, in order. -/
abbrev ck25 : List (HloOp τ sig (Elt F)) :=
  [
    StableHlo.unary main_arg3 main_v279 ((extractStridedSlice S1x256x256 ![3, 0, 0] · slices_S4x256x256_S1x256x256_3_0_0) : (⟨S4x256x256, .f32⟩ : BufTy).Contents (Elt F) → (⟨S1x256x256, .f32⟩ : BufTy).Contents (Elt F)),
    StableHlo.reshape main_v279 main_v280 rfl shapeCasts_S1x256x256_S256x256,
    StableHlo.unary main_arg4 main_v281 ((extractStridedSlice S1x256 ![3, 0] · slices_S4x256_S1x256_3_0) : (⟨S4x256, .f32⟩ : BufTy).Contents (Elt F) → (⟨S1x256, .f32⟩ : BufTy).Contents (Elt F)),
    StableHlo.reshape main_v281 main_v282 rfl shapeCasts_S1x256_S256,
    StableHlo.unary main_arg9 main_v283 ((extractStridedSlice S1x400000 ![3, 0] · slices_S4x400000_S1x400000_3_0) : (⟨S4x400000, .i32⟩ : BufTy).Contents (Elt F) → (⟨S1x400000, .i32⟩ : BufTy).Contents (Elt F)),
    StableHlo.reshape main_v283 main_v284 rfl shapeCasts_S1x400000_S400000,
    StableHlo.unary main_arg10 main_v285 ((extractStridedSlice S1x400000 ![3, 0] · slices_S4x400000_S1x400000_3_0) : (⟨S4x400000, .i32⟩ : BufTy).Contents (Elt F) → (⟨S1x400000, .i32⟩ : BufTy).Contents (Elt F)),
    StableHlo.reshape main_v285 main_v286 rfl shapeCasts_S1x400000_S400000,
    StableHlo.nullary main_cst_54 (constant S_ .f32 0x3F800000#32),
    StableHlo.unary main_cst_54 main_v287 (broadcastInDim S400000 ![] bcast_S_S400000 : (⟨S_, .f32⟩ : BufTy).Contents (Elt F) → (⟨S400000, .f32⟩ : BufTy).Contents (Elt F)),
    StableHlo.nullary main_cst_55 (constant S_ .f32 0x00000000#32),
    StableHlo.unary main_cst_55 main_v288 (broadcastInDim S50000 ![] bcast_S_S50000 : (⟨S_, .f32⟩ : BufTy).Contents (Elt F) → (⟨S50000, .f32⟩ : BufTy).Contents (Elt F)),
    StableHlo.unary main_v284 main_v289 (broadcastInDim S400000x1 ![0] bcast_S400000_S400000x1_0 : (⟨S400000, .i32⟩ : BufTy).Contents (Elt F) → (⟨S400000x1, .i32⟩ : BufTy).Contents (Elt F)),
    StableHlo.ternary main_v288 main_v289 main_v287 main_v290 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_56 (constant S_ .f32 0x3F800000#32),
    StableHlo.TRef.unary (.of main_cst_56 : StableHlo.TRef sig ⟨S_, .f32⟩) (.of main_call15_v0 : StableHlo.TRef sig ⟨S_, .f32⟩) id,
    StableHlo.TRef.unary (.of main_call15_v0 : StableHlo.TRef sig ⟨S_, .f32⟩) (.of main_call15_v1 : StableHlo.TRef sig ⟨S50000, .f32⟩) (broadcastInDim S50000 ![] bcast_S_S50000),
    StableHlo.TRef.binary (.of main_call15_v1 : StableHlo.TRef sig ⟨S50000, .f32⟩) (.of main_v290 : StableHlo.TRef sig ⟨S50000, .f32⟩) (.of main_v291 : StableHlo.TRef sig ⟨S50000, .f32⟩) maximumf,
    StableHlo.nullary main_cst_57 (constant S_ .f32 0x00000000#32),
    StableHlo.unary main_cst_57 main_v292 (broadcastInDim S50000 ![] bcast_S_S50000 : (⟨S_, .f32⟩ : BufTy).Contents (Elt F) → (⟨S50000, .f32⟩ : BufTy).Contents (Elt F)),
    StableHlo.unary main_v286 main_v293 (broadcastInDim S400000x1 ![0] bcast_S400000_S400000x1_0 : (⟨S400000, .i32⟩ : BufTy).Contents (Elt F) → (⟨S400000x1, .i32⟩ : BufTy).Contents (Elt F)),
    StableHlo.ternary main_v292 main_v293 main_v287 main_v294 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_58 (constant S_ .f32 0x3F800000#32),
    StableHlo.TRef.unary (.of main_cst_58 : StableHlo.TRef sig ⟨S_, .f32⟩) (.of main_call16_v0 : StableHlo.TRef sig ⟨S_, .f32⟩) id,
    StableHlo.TRef.unary (.of main_call16_v0 : StableHlo.TRef sig ⟨S_, .f32⟩) (.of main_call16_v1 : StableHlo.TRef sig ⟨S50000, .f32⟩) (broadcastInDim S50000 ![] bcast_S_S50000),
    StableHlo.TRef.binary (.of main_call16_v1 : StableHlo.TRef sig ⟨S50000, .f32⟩) (.of main_v294 : StableHlo.TRef sig ⟨S50000, .f32⟩) (.of main_v295 : StableHlo.TRef sig ⟨S50000, .f32⟩) maximumf ]

theorem ck25_sub : (ck25 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., unary_bufs_sub .., ternary_bufs_sub .., nullary_bufs_sub .., unary_bufs_sub .., unary_bufs_sub .., binary_bufs_sub ..⟩

theorem ck25_fresh : ∀ op ∈ (ck25 : List (HloOp τ sig (Elt F))), op.fresh = ∅ := by
  intro _ h; (repeat (cases h with | head => rfl | tail _ h => ?_)); exact nomatch h

/-- Operations 391 to 393 of the program, in order. -/
abbrev ck26 : List (HloOp τ sig (Elt F)) :=
  [
    StableHlo.unary main_v291 main_v296 (Host.rsqrt : (⟨S50000, .f32⟩ : BufTy).Contents (Elt F) → (⟨S50000, .f32⟩ : BufTy).Contents (Elt F)),
    StableHlo.unary main_v296 main_v297 (broadcastInDim S50000x1 ![0] bcast_S50000_S50000x1_0 : (⟨S50000, .f32⟩ : BufTy).Contents (Elt F) → (⟨S50000x1, .f32⟩ : BufTy).Contents (Elt F)),
    StableHlo.unary main_v297 main_v298 (broadcastInDim S50000x256 ![0, 1] bcast_S50000x1_S50000x256_0_1 : (⟨S50000x1, .f32⟩ : BufTy).Contents (Elt F) → (⟨S50000x256, .f32⟩ : BufTy).Contents (Elt F)) ]

theorem ck26_sub : (ck26 : List (HloOp τ sig (Elt F))).Forall fun op => op.bufs ⊆ tcRefs τ sig :=
  ⟨unary_bufs_sub .., unary_bufs_sub .., unary_bufs_sub ..⟩

theorem ck26_fresh : ∀ op ∈ (ck26 : List (HloOp τ sig (Elt F))), op.fresh = ∅ := by
  intro _ h; (repeat (cases h with | head => rfl | tail _ h => ?_)); exact nomatch h

/-- The lists of this stretch of statements, in order. -/
abbrev win5 : List (HloOp τ sig (Elt F)) := ck22 ++ (ck23 ++ (ck24 ++ (ck25 ++ (ck26))))

theorem win5_sub : ∀ op ∈ (win5 : List (HloOp τ sig (Elt F))), op.bufs ⊆ tcRefs τ sig :=
  (forall_mem_append_of (List.forall_iff_forall_mem.1 ck22_sub) (forall_mem_append_of (List.forall_iff_forall_mem.1 ck23_sub) (forall_mem_append_of (List.forall_iff_forall_mem.1 ck24_sub) (forall_mem_append_of (List.forall_iff_forall_mem.1 ck25_sub) (List.forall_iff_forall_mem.1 ck26_sub)))))

theorem win5_fresh : ∀ op ∈ (win5 : List (HloOp τ sig (Elt F))), op.fresh = ∅ :=
  (forall_mem_append_of ck22_fresh (forall_mem_append_of ck23_fresh (forall_mem_append_of ck24_fresh (forall_mem_append_of ck25_fresh ck26_fresh))))

set_option maxRecDepth 8192 in
set_option maxHeartbeats 4000000 in
/-- The statements are exactly these operations, one after the other. -/
theorem part5_eq (c : Dev nD) : main_part5 (F := F) c = seq win5 := rfl

end Cert.RefHand

end
-- ==== Proof.Ref.Win6.lean ====
import proofs.«111407_j24215025614983_1_alg».proof.Proof.Gen.ReferenceIdeal
import proofs.«111407_j24215025614983_1_alg».proof.Proof.Ref.Basic

/-!
Statements 361 to 420 of the reference program's entry function, written as lists of host
operations (a called function's body is listed at its call, over that call's own buffers), and the fact that
running those statements is running the lists in order.
-/

noncomputable section

namespace Cert.RefHand

open Cert.ReferenceIdeal Cert.ReferenceIdeal.Gen Idealize.ShloMosaic Idealize.ShloMosaic.TcCoe Idealize.SL.Sem Idealize.ShloMosaic.StableHlo

variable {F : FTy → Type} [FloatOps F]

/-- Operations 394 to 415 of the program, in order. -/
abbrev ck27 : List (HloOp τ sig (Elt F)) :=
  [
    StableHlo.binary main_v159 main_v298 main_v299 (mulf : (⟨S50000x256, .f32⟩ : BufTy).Contents (Elt F) → (⟨S50000x256, .f32⟩ : BufTy).Contents (Elt F) → (⟨S50000x256, .f32⟩ : BufTy).Contents (Elt F)),
    StableHlo.binary main_v299 main_v280 main_v300 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_c_59 (constantI S_ 32 0#32),
    StableHlo.unary main_c_59 main_v301 (broadcastInDim S400000 ![] bcast_S_S400000 : (⟨S_, .i32⟩ : BufTy).Contents (Elt F) → (⟨S400000, .i32⟩ : BufTy).Contents (Elt F)),
    StableHlo.binary main_v284 main_v301 main_v302 (cmpi .slt : (⟨S400000, .i32⟩ : BufTy).Contents (Elt F) → (⟨S400000, .i32⟩ : BufTy).Contents (Elt F) → (⟨S400000, .i1⟩ : BufTy).Contents (Elt F)),
    StableHlo.nullary main_c_60 (constantI S_ 32 50000#32),
    StableHlo.unary main_c_60 main_v303 (broadcastInDim S400000 ![] bcast_S_S400000 : (⟨S_, .i32⟩ : BufTy).Contents (Elt F) → (⟨S400000, .i32⟩ : BufTy).Contents (Elt F)),
    StableHlo.binary main_v284 main_v303 main_v304 (addi : (⟨S400000, .i32⟩ : BufTy).Contents (Elt F) → (⟨S400000, .i32⟩ : BufTy).Contents (Elt F) → (⟨S400000, .i32⟩ : BufTy).Contents (Elt F)),
    StableHlo.ternary main_v302 main_v304 main_v284 main_v305 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v305 main_v306 (broadcastInDim S400000x1 ![0] bcast_S400000_S400000x1_0 : (⟨S400000, .i32⟩ : BufTy).Contents (Elt F) → (⟨S400000x1, .i32⟩ : BufTy).Contents (Elt F)),
    StableHlo.binary main_v300 main_v306 main_v307 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    StableHlo.nullary main_cst_61 (constant S_ .f32 0x00000000#32),
    StableHlo.unary main_cst_61 main_v308 (broadcastInDim S50000x256 ![] bcast_S_S50000x256 : (⟨S_, .f32⟩ : BufTy).Contents (Elt F) → (⟨S50000x256, .f32⟩ : BufTy).Contents (Elt F)),
    StableHlo.unary main_v286 main_v309 (broadcastInDim S400000x1 ![0] bcast_S400000_S400000x1_0 : (⟨S400000, .i32⟩ : BufTy).Contents (Elt F) → (⟨S400000x1, .i32⟩ : BufTy).Contents (Elt F)),
    StableHlo.ternary main_v308 main_v309 main_v307 main_v310 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    StableHlo.unary main_v295 main_v311 (Host.rsqrt : (⟨S50000, .f32⟩ : BufTy).Contents (Elt F) → (⟨S50000, .f32⟩ : BufTy).Contents (Elt F)),
    StableHlo.unary main_v311 main_v312 (broadcastInDim S50000x1 ![0] bcast_S50000_S50000x1_0 : (⟨S50000, .f32⟩ : BufTy).Contents (Elt F) → (⟨S50000x1, .f32⟩ : BufTy).Contents (Elt F)),
    StableHlo.unary main_v312 main_v313 (broadcastInDim S50000x256 ![0, 1] bcast_S50000x1_S50000x256_0_1 : (⟨S50000x1, .f32⟩ : BufTy).Contents (Elt F) → (⟨S50000x256, .f32⟩ : BufTy).Contents (Elt F)),
    StableHlo.binary main_v310 main_v313 main_v314 (mulf : (⟨S50000x256, .f32⟩ : BufTy).Contents (Elt F) → (⟨S50000x256, .f32⟩ : BufTy).Contents (Elt F) → (⟨S50000x256, .f32⟩ : BufTy).Contents (Elt F)),
    StableHlo.unary main_v282 main_v315 (broadcastInDim S1x256 ![1] bcast_S256_S1x256_1 : (⟨S256, .f32⟩ : BufTy).Contents (Elt F) → (⟨S1x256, .f32⟩ : BufTy).Contents (Elt F)),
    StableHlo.unary main_v315 main_v316 (broadcastInDim S50000x256 ![0, 1] bcast_S1x256_S50000x256_0_1 : (⟨S1x256, .f32⟩ : BufTy).Contents (Elt F) → (⟨S50000x256, .f32⟩ : BufTy).Contents (Elt F)),
    StableHlo.binary main_v314 main_v316 main_v317 (addf : (⟨S50000x256, .f32⟩ : BufTy).Contents (Elt F) → (⟨S50000x256, .f32⟩ : BufTy).Contents (Elt F) → (⟨S50000x256, .f32⟩ : BufTy).Contents (Elt F)) ]

theorem ck27_sub : (ck27 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., unary_bufs_sub .., binary_bufs_sub .., unary_bufs_sub .., unary_bufs_sub .., binary_bufs_sub ..⟩

theorem ck27_fresh : ∀ op ∈ (ck27 : List (HloOp τ sig (Elt F))), op.fresh = ∅ := by
  intro _ h; (repeat (cases h with | head => rfl | tail _ h => ?_)); exact nomatch h

/-- Operations 416 to 416 of the program, in order. -/
abbrev ck28 : List (HloOp τ sig (Elt F)) :=
  [
    StableHlo.binary main_v278 main_v317 main_v318 (addf : (⟨S50000x256, .f32⟩ : BufTy).Contents (Elt F) → (⟨S50000x256, .f32⟩ : BufTy).Contents (Elt F) → (⟨S50000x256, .f32⟩ : BufTy).Contents (Elt F)) ]

theorem ck28_sub : (ck28 : List (HloOp τ sig (Elt F))).Forall fun op => op.bufs ⊆ tcRefs τ sig :=
  (binary_bufs_sub ..)

theorem ck28_fresh : ∀ op ∈ (ck28 : List (HloOp τ sig (Elt F))), op.fresh = ∅ := by
  intro _ h; (repeat (cases h with | head => rfl | tail _ h => ?_)); exact nomatch h

/-- Operations 417 to 419 of the program, in order. -/
abbrev ck29 : List (HloOp τ sig (Elt F)) :=
  [
    StableHlo.TRef.nullary (.of main_call17_cst : StableHlo.TRef sig ⟨S_, .f32⟩) (constant S_ .f32 0x00000000#32),
    StableHlo.TRef.unary (.of main_call17_cst : StableHlo.TRef sig ⟨S_, .f32⟩) (.of main_call17_v0 : StableHlo.TRef sig ⟨S50000x256, .f32⟩) (broadcastInDim S50000x256 ![] bcast_S_S50000x256),
    StableHlo.TRef.binary (.of main_v318 : StableHlo.TRef sig ⟨S50000x256, .f32⟩) (.of main_call17_v0 : StableHlo.TRef sig ⟨S50000x256, .f32⟩) (.of main_v319 : StableHlo.TRef sig ⟨S50000x256, .f32⟩) maximumf ]

theorem ck29_sub : (ck29 : List (HloOp τ sig (Elt F))).Forall fun op => op.bufs ⊆ tcRefs τ sig :=
  ⟨nullary_bufs_sub .., unary_bufs_sub .., binary_bufs_sub ..⟩

theorem ck29_fresh : ∀ op ∈ (ck29 : List (HloOp τ sig (Elt F))), op.fresh = ∅ := by
  intro _ h; (repeat (cases h with | head => rfl | tail _ h => ?_)); exact nomatch h

/-- Operations 420 to 445 of the program, in order. -/
abbrev ck30 : List (HloOp τ sig (Elt F)) :=
  [
    StableHlo.unary main_arg5 main_v320 ((extractStridedSlice S1x256x256 ![0, 0, 0] · slices_S4x256x256_S1x256x256_0_0_0) : (⟨S4x256x256, .f32⟩ : BufTy).Contents (Elt F) → (⟨S1x256x256, .f32⟩ : BufTy).Contents (Elt F)),
    StableHlo.reshape main_v320 main_v321 rfl shapeCasts_S1x256x256_S256x256,
    StableHlo.unary main_arg6 main_v322 ((extractStridedSlice S1x256 ![0, 0] · slices_S4x256_S1x256_0_0) : (⟨S4x256, .f32⟩ : BufTy).Contents (Elt F) → (⟨S1x256, .f32⟩ : BufTy).Contents (Elt F)),
    StableHlo.reshape main_v322 main_v323 rfl shapeCasts_S1x256_S256,
    StableHlo.unary main_arg9 main_v324 ((extractStridedSlice S1x400000 ![0, 0] · slices_S4x400000_S1x400000_0_0) : (⟨S4x400000, .i32⟩ : BufTy).Contents (Elt F) → (⟨S1x400000, .i32⟩ : BufTy).Contents (Elt F)),
    StableHlo.reshape main_v324 main_v325 rfl shapeCasts_S1x400000_S400000,
    StableHlo.unary main_arg10 main_v326 ((extractStridedSlice S1x400000 ![0, 0] · slices_S4x400000_S1x400000_0_0) : (⟨S4x400000, .i32⟩ : BufTy).Contents (Elt F) → (⟨S1x400000, .i32⟩ : BufTy).Contents (Elt F)),
    StableHlo.reshape main_v326 main_v327 rfl shapeCasts_S1x400000_S400000,
    StableHlo.nullary main_cst_62 (constant S_ .f32 0x3F800000#32),
    StableHlo.unary main_cst_62 main_v328 (broadcastInDim S400000 ![] bcast_S_S400000 : (⟨S_, .f32⟩ : BufTy).Contents (Elt F) → (⟨S400000, .f32⟩ : BufTy).Contents (Elt F)),
    StableHlo.nullary main_cst_63 (constant S_ .f32 0x00000000#32),
    StableHlo.unary main_cst_63 main_v329 (broadcastInDim S50000 ![] bcast_S_S50000 : (⟨S_, .f32⟩ : BufTy).Contents (Elt F) → (⟨S50000, .f32⟩ : BufTy).Contents (Elt F)),
    StableHlo.unary main_v325 main_v330 (broadcastInDim S400000x1 ![0] bcast_S400000_S400000x1_0 : (⟨S400000, .i32⟩ : BufTy).Contents (Elt F) → (⟨S400000x1, .i32⟩ : BufTy).Contents (Elt F)),
    StableHlo.ternary main_v329 main_v330 main_v328 main_v331 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_64 (constant S_ .f32 0x3F800000#32),
    StableHlo.TRef.unary (.of main_cst_64 : StableHlo.TRef sig ⟨S_, .f32⟩) (.of main_call18_v0 : StableHlo.TRef sig ⟨S_, .f32⟩) id,
    StableHlo.TRef.unary (.of main_call18_v0 : StableHlo.TRef sig ⟨S_, .f32⟩) (.of main_call18_v1 : StableHlo.TRef sig ⟨S50000, .f32⟩) (broadcastInDim S50000 ![] bcast_S_S50000),
    StableHlo.TRef.binary (.of main_call18_v1 : StableHlo.TRef sig ⟨S50000, .f32⟩) (.of main_v331 : StableHlo.TRef sig ⟨S50000, .f32⟩) (.of main_v332 : StableHlo.TRef sig ⟨S50000, .f32⟩) maximumf,
    StableHlo.nullary main_cst_65 (constant S_ .f32 0x00000000#32),
    StableHlo.unary main_cst_65 main_v333 (broadcastInDim S50000 ![] bcast_S_S50000 : (⟨S_, .f32⟩ : BufTy).Contents (Elt F) → (⟨S50000, .f32⟩ : BufTy).Contents (Elt F)),
    StableHlo.unary main_v327 main_v334 (broadcastInDim S400000x1 ![0] bcast_S400000_S400000x1_0 : (⟨S400000, .i32⟩ : BufTy).Contents (Elt F) → (⟨S400000x1, .i32⟩ : BufTy).Contents (Elt F)),
    StableHlo.ternary main_v333 main_v334 main_v328 main_v335 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_66 (constant S_ .f32 0x3F800000#32),
    StableHlo.TRef.unary (.of main_cst_66 : StableHlo.TRef sig ⟨S_, .f32⟩) (.of main_call19_v0 : StableHlo.TRef sig ⟨S_, .f32⟩) id,
    StableHlo.TRef.unary (.of main_call19_v0 : StableHlo.TRef sig ⟨S_, .f32⟩) (.of main_call19_v1 : StableHlo.TRef sig ⟨S50000, .f32⟩) (broadcastInDim S50000 ![] bcast_S_S50000),
    StableHlo.TRef.binary (.of main_call19_v1 : StableHlo.TRef sig ⟨S50000, .f32⟩) (.of main_v335 : StableHlo.TRef sig ⟨S50000, .f32⟩) (.of main_v336 : StableHlo.TRef sig ⟨S50000, .f32⟩) maximumf ]

theorem ck30_sub : (ck30 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., unary_bufs_sub .., ternary_bufs_sub .., nullary_bufs_sub .., unary_bufs_sub .., unary_bufs_sub .., binary_bufs_sub ..⟩

theorem ck30_fresh : ∀ op ∈ (ck30 : List (HloOp τ sig (Elt F))), op.fresh = ∅ := by
  intro _ h; (repeat (cases h with | head => rfl | tail _ h => ?_)); exact nomatch h

/-- Operations 446 to 459 of the program, in order. -/
abbrev ck31 : List (HloOp τ sig (Elt F)) :=
  [
    StableHlo.unary main_v332 main_v337 (Host.rsqrt : (⟨S50000, .f32⟩ : BufTy).Contents (Elt F) → (⟨S50000, .f32⟩ : BufTy).Contents (Elt F)),
    StableHlo.unary main_v337 main_v338 (broadcastInDim S50000x1 ![0] bcast_S50000_S50000x1_0 : (⟨S50000, .f32⟩ : BufTy).Contents (Elt F) → (⟨S50000x1, .f32⟩ : BufTy).Contents (Elt F)),
    StableHlo.unary main_v338 main_v339 (broadcastInDim S50000x256 ![0, 1] bcast_S50000x1_S50000x256_0_1 : (⟨S50000x1, .f32⟩ : BufTy).Contents (Elt F) → (⟨S50000x256, .f32⟩ : BufTy).Contents (Elt F)),
    StableHlo.binary main_v319 main_v339 main_v340 (mulf : (⟨S50000x256, .f32⟩ : BufTy).Contents (Elt F) → (⟨S50000x256, .f32⟩ : BufTy).Contents (Elt F) → (⟨S50000x256, .f32⟩ : BufTy).Contents (Elt F)),
    StableHlo.binary main_v340 main_v321 main_v341 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_c_67 (constantI S_ 32 0#32),
    StableHlo.unary main_c_67 main_v342 (broadcastInDim S400000 ![] bcast_S_S400000 : (⟨S_, .i32⟩ : BufTy).Contents (Elt F) → (⟨S400000, .i32⟩ : BufTy).Contents (Elt F)),
    StableHlo.binary main_v325 main_v342 main_v343 (cmpi .slt : (⟨S400000, .i32⟩ : BufTy).Contents (Elt F) → (⟨S400000, .i32⟩ : BufTy).Contents (Elt F) → (⟨S400000, .i1⟩ : BufTy).Contents (Elt F)),
    StableHlo.nullary main_c_68 (constantI S_ 32 50000#32),
    StableHlo.unary main_c_68 main_v344 (broadcastInDim S400000 ![] bcast_S_S400000 : (⟨S_, .i32⟩ : BufTy).Contents (Elt F) → (⟨S400000, .i32⟩ : BufTy).Contents (Elt F)),
    StableHlo.binary main_v325 main_v344 main_v345 (addi : (⟨S400000, .i32⟩ : BufTy).Contents (Elt F) → (⟨S400000, .i32⟩ : BufTy).Contents (Elt F) → (⟨S400000, .i32⟩ : BufTy).Contents (Elt F)),
    StableHlo.ternary main_v343 main_v345 main_v325 main_v346 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v346 main_v347 (broadcastInDim S400000x1 ![0] bcast_S400000_S400000x1_0 : (⟨S400000, .i32⟩ : BufTy).Contents (Elt F) → (⟨S400000x1, .i32⟩ : BufTy).Contents (Elt F)),
    StableHlo.binary main_v341 main_v347 main_v348 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)) ]

theorem ck31_sub : (ck31 : List (HloOp τ sig (Elt F))).Forall fun op => op.bufs ⊆ tcRefs τ sig :=
  ⟨unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem ck31_fresh : ∀ op ∈ (ck31 : List (HloOp τ sig (Elt F))), op.fresh = ∅ := by
  intro _ h; (repeat (cases h with | head => rfl | tail _ h => ?_)); exact nomatch h

/-- The lists of this stretch of statements, in order. -/
abbrev win6 : List (HloOp τ sig (Elt F)) := ck27 ++ (ck28 ++ (ck29 ++ (ck30 ++ (ck31))))

theorem win6_sub : ∀ op ∈ (win6 : List (HloOp τ sig (Elt F))), op.bufs ⊆ tcRefs τ sig :=
  (forall_mem_append_of (List.forall_iff_forall_mem.1 ck27_sub) (forall_mem_append_of (List.forall_iff_forall_mem.1 ck28_sub) (forall_mem_append_of (List.forall_iff_forall_mem.1 ck29_sub) (forall_mem_append_of (List.forall_iff_forall_mem.1 ck30_sub) (List.forall_iff_forall_mem.1 ck31_sub)))))

theorem win6_fresh : ∀ op ∈ (win6 : List (HloOp τ sig (Elt F))), op.fresh = ∅ :=
  (forall_mem_append_of ck27_fresh (forall_mem_append_of ck28_fresh (forall_mem_append_of ck29_fresh (forall_mem_append_of ck30_fresh ck31_fresh))))

set_option maxRecDepth 8192 in
set_option maxHeartbeats 4000000 in
/-- The statements are exactly these operations, one after the other. -/
theorem part6_eq (c : Dev nD) : main_part6 (F := F) c = seq win6 := rfl

end Cert.RefHand

end
-- ==== Proof.Ref.Win7.lean ====
import proofs.«111407_j24215025614983_1_alg».proof.Proof.Gen.ReferenceIdeal
import proofs.«111407_j24215025614983_1_alg».proof.Proof.Ref.Basic

/-!
Statements 421 to 480 of the reference program's entry function, written as lists of host
operations (a called function's body is listed at its call, over that call's own buffers), and the fact that
running those statements is running the lists in order.
-/

noncomputable section

namespace Cert.RefHand

open Cert.ReferenceIdeal Cert.ReferenceIdeal.Gen Idealize.ShloMosaic Idealize.ShloMosaic.TcCoe Idealize.SL.Sem Idealize.ShloMosaic.StableHlo

variable {F : FTy → Type} [FloatOps F]

/-- Operations 460 to 470 of the program, in order. -/
abbrev ck32 : List (HloOp τ sig (Elt F)) :=
  [
    StableHlo.nullary main_cst_69 (constant S_ .f32 0x00000000#32),
    StableHlo.unary main_cst_69 main_v349 (broadcastInDim S50000x256 ![] bcast_S_S50000x256 : (⟨S_, .f32⟩ : BufTy).Contents (Elt F) → (⟨S50000x256, .f32⟩ : BufTy).Contents (Elt F)),
    StableHlo.unary main_v327 main_v350 (broadcastInDim S400000x1 ![0] bcast_S400000_S400000x1_0 : (⟨S400000, .i32⟩ : BufTy).Contents (Elt F) → (⟨S400000x1, .i32⟩ : BufTy).Contents (Elt F)),
    StableHlo.ternary main_v349 main_v350 main_v348 main_v351 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    StableHlo.unary main_v336 main_v352 (Host.rsqrt : (⟨S50000, .f32⟩ : BufTy).Contents (Elt F) → (⟨S50000, .f32⟩ : BufTy).Contents (Elt F)),
    StableHlo.unary main_v352 main_v353 (broadcastInDim S50000x1 ![0] bcast_S50000_S50000x1_0 : (⟨S50000, .f32⟩ : BufTy).Contents (Elt F) → (⟨S50000x1, .f32⟩ : BufTy).Contents (Elt F)),
    StableHlo.unary main_v353 main_v354 (broadcastInDim S50000x256 ![0, 1] bcast_S50000x1_S50000x256_0_1 : (⟨S50000x1, .f32⟩ : BufTy).Contents (Elt F) → (⟨S50000x256, .f32⟩ : BufTy).Contents (Elt F)),
    StableHlo.binary main_v351 main_v354 main_v355 (mulf : (⟨S50000x256, .f32⟩ : BufTy).Contents (Elt F) → (⟨S50000x256, .f32⟩ : BufTy).Contents (Elt F) → (⟨S50000x256, .f32⟩ : BufTy).Contents (Elt F)),
    StableHlo.unary main_v323 main_v356 (broadcastInDim S1x256 ![1] bcast_S256_S1x256_1 : (⟨S256, .f32⟩ : BufTy).Contents (Elt F) → (⟨S1x256, .f32⟩ : BufTy).Contents (Elt F)),
    StableHlo.unary main_v356 main_v357 (broadcastInDim S50000x256 ![0, 1] bcast_S1x256_S50000x256_0_1 : (⟨S1x256, .f32⟩ : BufTy).Contents (Elt F) → (⟨S50000x256, .f32⟩ : BufTy).Contents (Elt F)),
    StableHlo.binary main_v355 main_v357 main_v358 (addf : (⟨S50000x256, .f32⟩ : BufTy).Contents (Elt F) → (⟨S50000x256, .f32⟩ : BufTy).Contents (Elt F) → (⟨S50000x256, .f32⟩ : BufTy).Contents (Elt F)) ]

theorem ck32_sub : (ck32 : List (HloOp τ sig (Elt F))).Forall fun op => op.bufs ⊆ tcRefs τ sig :=
  ⟨nullary_bufs_sub .., unary_bufs_sub .., unary_bufs_sub .., ternary_bufs_sub .., unary_bufs_sub .., unary_bufs_sub .., unary_bufs_sub .., binary_bufs_sub .., unary_bufs_sub .., unary_bufs_sub .., binary_bufs_sub ..⟩

theorem ck32_fresh : ∀ op ∈ (ck32 : List (HloOp τ sig (Elt F))), op.fresh = ∅ := by
  intro _ h; (repeat (cases h with | head => rfl | tail _ h => ?_)); exact nomatch h

/-- Operations 471 to 496 of the program, in order. -/
abbrev ck33 : List (HloOp τ sig (Elt F)) :=
  [
    StableHlo.unary main_arg5 main_v359 ((extractStridedSlice S1x256x256 ![1, 0, 0] · slices_S4x256x256_S1x256x256_1_0_0) : (⟨S4x256x256, .f32⟩ : BufTy).Contents (Elt F) → (⟨S1x256x256, .f32⟩ : BufTy).Contents (Elt F)),
    StableHlo.reshape main_v359 main_v360 rfl shapeCasts_S1x256x256_S256x256,
    StableHlo.unary main_arg6 main_v361 ((extractStridedSlice S1x256 ![1, 0] · slices_S4x256_S1x256_1_0) : (⟨S4x256, .f32⟩ : BufTy).Contents (Elt F) → (⟨S1x256, .f32⟩ : BufTy).Contents (Elt F)),
    StableHlo.reshape main_v361 main_v362 rfl shapeCasts_S1x256_S256,
    StableHlo.unary main_arg9 main_v363 ((extractStridedSlice S1x400000 ![1, 0] · slices_S4x400000_S1x400000_1_0) : (⟨S4x400000, .i32⟩ : BufTy).Contents (Elt F) → (⟨S1x400000, .i32⟩ : BufTy).Contents (Elt F)),
    StableHlo.reshape main_v363 main_v364 rfl shapeCasts_S1x400000_S400000,
    StableHlo.unary main_arg10 main_v365 ((extractStridedSlice S1x400000 ![1, 0] · slices_S4x400000_S1x400000_1_0) : (⟨S4x400000, .i32⟩ : BufTy).Contents (Elt F) → (⟨S1x400000, .i32⟩ : BufTy).Contents (Elt F)),
    StableHlo.reshape main_v365 main_v366 rfl shapeCasts_S1x400000_S400000,
    StableHlo.nullary main_cst_70 (constant S_ .f32 0x3F800000#32),
    StableHlo.unary main_cst_70 main_v367 (broadcastInDim S400000 ![] bcast_S_S400000 : (⟨S_, .f32⟩ : BufTy).Contents (Elt F) → (⟨S400000, .f32⟩ : BufTy).Contents (Elt F)),
    StableHlo.nullary main_cst_71 (constant S_ .f32 0x00000000#32),
    StableHlo.unary main_cst_71 main_v368 (broadcastInDim S50000 ![] bcast_S_S50000 : (⟨S_, .f32⟩ : BufTy).Contents (Elt F) → (⟨S50000, .f32⟩ : BufTy).Contents (Elt F)),
    StableHlo.unary main_v364 main_v369 (broadcastInDim S400000x1 ![0] bcast_S400000_S400000x1_0 : (⟨S400000, .i32⟩ : BufTy).Contents (Elt F) → (⟨S400000x1, .i32⟩ : BufTy).Contents (Elt F)),
    StableHlo.ternary main_v368 main_v369 main_v367 main_v370 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_72 (constant S_ .f32 0x3F800000#32),
    StableHlo.TRef.unary (.of main_cst_72 : StableHlo.TRef sig ⟨S_, .f32⟩) (.of main_call20_v0 : StableHlo.TRef sig ⟨S_, .f32⟩) id,
    StableHlo.TRef.unary (.of main_call20_v0 : StableHlo.TRef sig ⟨S_, .f32⟩) (.of main_call20_v1 : StableHlo.TRef sig ⟨S50000, .f32⟩) (broadcastInDim S50000 ![] bcast_S_S50000),
    StableHlo.TRef.binary (.of main_call20_v1 : StableHlo.TRef sig ⟨S50000, .f32⟩) (.of main_v370 : StableHlo.TRef sig ⟨S50000, .f32⟩) (.of main_v371 : StableHlo.TRef sig ⟨S50000, .f32⟩) maximumf,
    StableHlo.nullary main_cst_73 (constant S_ .f32 0x00000000#32),
    StableHlo.unary main_cst_73 main_v372 (broadcastInDim S50000 ![] bcast_S_S50000 : (⟨S_, .f32⟩ : BufTy).Contents (Elt F) → (⟨S50000, .f32⟩ : BufTy).Contents (Elt F)),
    StableHlo.unary main_v366 main_v373 (broadcastInDim S400000x1 ![0] bcast_S400000_S400000x1_0 : (⟨S400000, .i32⟩ : BufTy).Contents (Elt F) → (⟨S400000x1, .i32⟩ : BufTy).Contents (Elt F)),
    StableHlo.ternary main_v372 main_v373 main_v367 main_v374 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_74 (constant S_ .f32 0x3F800000#32),
    StableHlo.TRef.unary (.of main_cst_74 : StableHlo.TRef sig ⟨S_, .f32⟩) (.of main_call21_v0 : StableHlo.TRef sig ⟨S_, .f32⟩) id,
    StableHlo.TRef.unary (.of main_call21_v0 : StableHlo.TRef sig ⟨S_, .f32⟩) (.of main_call21_v1 : StableHlo.TRef sig ⟨S50000, .f32⟩) (broadcastInDim S50000 ![] bcast_S_S50000),
    StableHlo.TRef.binary (.of main_call21_v1 : StableHlo.TRef sig ⟨S50000, .f32⟩) (.of main_v374 : StableHlo.TRef sig ⟨S50000, .f32⟩) (.of main_v375 : StableHlo.TRef sig ⟨S50000, .f32⟩) maximumf ]

theorem ck33_sub : (ck33 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., unary_bufs_sub .., ternary_bufs_sub .., nullary_bufs_sub .., unary_bufs_sub .., unary_bufs_sub .., binary_bufs_sub ..⟩

theorem ck33_fresh : ∀ op ∈ (ck33 : List (HloOp τ sig (Elt F))), op.fresh = ∅ := by
  intro _ h; (repeat (cases h with | head => rfl | tail _ h => ?_)); exact nomatch h

/-- Operations 497 to 521 of the program, in order. -/
abbrev ck34 : List (HloOp τ sig (Elt F)) :=
  [
    StableHlo.unary main_v371 main_v376 (Host.rsqrt : (⟨S50000, .f32⟩ : BufTy).Contents (Elt F) → (⟨S50000, .f32⟩ : BufTy).Contents (Elt F)),
    StableHlo.unary main_v376 main_v377 (broadcastInDim S50000x1 ![0] bcast_S50000_S50000x1_0 : (⟨S50000, .f32⟩ : BufTy).Contents (Elt F) → (⟨S50000x1, .f32⟩ : BufTy).Contents (Elt F)),
    StableHlo.unary main_v377 main_v378 (broadcastInDim S50000x256 ![0, 1] bcast_S50000x1_S50000x256_0_1 : (⟨S50000x1, .f32⟩ : BufTy).Contents (Elt F) → (⟨S50000x256, .f32⟩ : BufTy).Contents (Elt F)),
    StableHlo.binary main_v319 main_v378 main_v379 (mulf : (⟨S50000x256, .f32⟩ : BufTy).Contents (Elt F) → (⟨S50000x256, .f32⟩ : BufTy).Contents (Elt F) → (⟨S50000x256, .f32⟩ : BufTy).Contents (Elt F)),
    StableHlo.binary main_v379 main_v360 main_v380 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_c_75 (constantI S_ 32 0#32),
    StableHlo.unary main_c_75 main_v381 (broadcastInDim S400000 ![] bcast_S_S400000 : (⟨S_, .i32⟩ : BufTy).Contents (Elt F) → (⟨S400000, .i32⟩ : BufTy).Contents (Elt F)),
    StableHlo.binary main_v364 main_v381 main_v382 (cmpi .slt : (⟨S400000, .i32⟩ : BufTy).Contents (Elt F) → (⟨S400000, .i32⟩ : BufTy).Contents (Elt F) → (⟨S400000, .i1⟩ : BufTy).Contents (Elt F)),
    StableHlo.nullary main_c_76 (constantI S_ 32 50000#32),
    StableHlo.unary main_c_76 main_v383 (broadcastInDim S400000 ![] bcast_S_S400000 : (⟨S_, .i32⟩ : BufTy).Contents (Elt F) → (⟨S400000, .i32⟩ : BufTy).Contents (Elt F)),
    StableHlo.binary main_v364 main_v383 main_v384 (addi : (⟨S400000, .i32⟩ : BufTy).Contents (Elt F) → (⟨S400000, .i32⟩ : BufTy).Contents (Elt F) → (⟨S400000, .i32⟩ : BufTy).Contents (Elt F)),
    StableHlo.ternary main_v382 main_v384 main_v364 main_v385 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v385 main_v386 (broadcastInDim S400000x1 ![0] bcast_S400000_S400000x1_0 : (⟨S400000, .i32⟩ : BufTy).Contents (Elt F) → (⟨S400000x1, .i32⟩ : BufTy).Contents (Elt F)),
    StableHlo.binary main_v380 main_v386 main_v387 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    StableHlo.nullary main_cst_77 (constant S_ .f32 0x00000000#32),
    StableHlo.unary main_cst_77 main_v388 (broadcastInDim S50000x256 ![] bcast_S_S50000x256 : (⟨S_, .f32⟩ : BufTy).Contents (Elt F) → (⟨S50000x256, .f32⟩ : BufTy).Contents (Elt F)),
    StableHlo.unary main_v366 main_v389 (broadcastInDim S400000x1 ![0] bcast_S400000_S400000x1_0 : (⟨S400000, .i32⟩ : BufTy).Contents (Elt F) → (⟨S400000x1, .i32⟩ : BufTy).Contents (Elt F)),
    StableHlo.ternary main_v388 main_v389 main_v387 main_v390 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    StableHlo.unary main_v375 main_v391 (Host.rsqrt : (⟨S50000, .f32⟩ : BufTy).Contents (Elt F) → (⟨S50000, .f32⟩ : BufTy).Contents (Elt F)),
    StableHlo.unary main_v391 main_v392 (broadcastInDim S50000x1 ![0] bcast_S50000_S50000x1_0 : (⟨S50000, .f32⟩ : BufTy).Contents (Elt F) → (⟨S50000x1, .f32⟩ : BufTy).Contents (Elt F)),
    StableHlo.unary main_v392 main_v393 (broadcastInDim S50000x256 ![0, 1] bcast_S50000x1_S50000x256_0_1 : (⟨S50000x1, .f32⟩ : BufTy).Contents (Elt F) → (⟨S50000x256, .f32⟩ : BufTy).Contents (Elt F)),
    StableHlo.binary main_v390 main_v393 main_v394 (mulf : (⟨S50000x256, .f32⟩ : BufTy).Contents (Elt F) → (⟨S50000x256, .f32⟩ : BufTy).Contents (Elt F) → (⟨S50000x256, .f32⟩ : BufTy).Contents (Elt F)),
    StableHlo.unary main_v362 main_v395 (broadcastInDim S1x256 ![1] bcast_S256_S1x256_1 : (⟨S256, .f32⟩ : BufTy).Contents (Elt F) → (⟨S1x256, .f32⟩ : BufTy).Contents (Elt F)),
    StableHlo.unary main_v395 main_v396 (broadcastInDim S50000x256 ![0, 1] bcast_S1x256_S50000x256_0_1 : (⟨S1x256, .f32⟩ : BufTy).Contents (Elt F) → (⟨S50000x256, .f32⟩ : BufTy).Contents (Elt F)),
    StableHlo.binary main_v394 main_v396 main_v397 (addf : (⟨S50000x256, .f32⟩ : BufTy).Contents (Elt F) → (⟨S50000x256, .f32⟩ : BufTy).Contents (Elt F) → (⟨S50000x256, .f32⟩ : BufTy).Contents (Elt F)) ]

theorem ck34_sub : (ck34 : List (HloOp τ sig (Elt F))).Forall fun op => op.bufs ⊆ tcRefs τ sig :=
  ⟨unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., unary_bufs_sub .., binary_bufs_sub .., unary_bufs_sub .., unary_bufs_sub .., binary_bufs_sub ..⟩

theorem ck34_fresh : ∀ op ∈ (ck34 : List (HloOp τ sig (Elt F))), op.fresh = ∅ := by
  intro _ h; (repeat (cases h with | head => rfl | tail _ h => ?_)); exact nomatch h

/-- Operations 522 to 522 of the program, in order. -/
abbrev ck35 : List (HloOp τ sig (Elt F)) :=
  [
    StableHlo.binary main_v358 main_v397 main_v398 (addf : (⟨S50000x256, .f32⟩ : BufTy).Contents (Elt F) → (⟨S50000x256, .f32⟩ : BufTy).Contents (Elt F) → (⟨S50000x256, .f32⟩ : BufTy).Contents (Elt F)) ]

theorem ck35_sub : (ck35 : List (HloOp τ sig (Elt F))).Forall fun op => op.bufs ⊆ tcRefs τ sig :=
  (binary_bufs_sub ..)

theorem ck35_fresh : ∀ op ∈ (ck35 : List (HloOp τ sig (Elt F))), op.fresh = ∅ := by
  intro _ h; (repeat (cases h with | head => rfl | tail _ h => ?_)); exact nomatch h

/-- Operations 523 to 523 of the program, in order. -/
abbrev ck36 : List (HloOp τ sig (Elt F)) :=
  [
    StableHlo.unary main_arg5 main_v399 ((extractStridedSlice S1x256x256 ![2, 0, 0] · slices_S4x256x256_S1x256x256_2_0_0) : (⟨S4x256x256, .f32⟩ : BufTy).Contents (Elt F) → (⟨S1x256x256, .f32⟩ : BufTy).Contents (Elt F)) ]

theorem ck36_sub : (ck36 : List (HloOp τ sig (Elt F))).Forall fun op => op.bufs ⊆ tcRefs τ sig :=
  (unary_bufs_sub ..)

theorem ck36_fresh : ∀ op ∈ (ck36 : List (HloOp τ sig (Elt F))), op.fresh = ∅ := by
  intro _ h; (repeat (cases h with | head => rfl | tail _ h => ?_)); exact nomatch h

/-- The lists of this stretch of statements, in order. -/
abbrev win7 : List (HloOp τ sig (Elt F)) := ck32 ++ (ck33 ++ (ck34 ++ (ck35 ++ (ck36))))

theorem win7_sub : ∀ op ∈ (win7 : List (HloOp τ sig (Elt F))), op.bufs ⊆ tcRefs τ sig :=
  (forall_mem_append_of (List.forall_iff_forall_mem.1 ck32_sub) (forall_mem_append_of (List.forall_iff_forall_mem.1 ck33_sub) (forall_mem_append_of (List.forall_iff_forall_mem.1 ck34_sub) (forall_mem_append_of (List.forall_iff_forall_mem.1 ck35_sub) (List.forall_iff_forall_mem.1 ck36_sub)))))

theorem win7_fresh : ∀ op ∈ (win7 : List (HloOp τ sig (Elt F))), op.fresh = ∅ :=
  (forall_mem_append_of ck32_fresh (forall_mem_append_of ck33_fresh (forall_mem_append_of ck34_fresh (forall_mem_append_of ck35_fresh ck36_fresh))))

set_option maxRecDepth 8192 in
set_option maxHeartbeats 4000000 in
/-- The statements are exactly these operations, one after the other. -/
theorem part7_eq (c : Dev nD) : main_part7 (F := F) c = seq win7 := rfl

end Cert.RefHand

end
-- ==== Proof.Ref.Win8.lean ====
import proofs.«111407_j24215025614983_1_alg».proof.Proof.Gen.ReferenceIdeal
import proofs.«111407_j24215025614983_1_alg».proof.Proof.Ref.Basic

/-!
Statements 481 to 540 of the reference program's entry function, written as lists of host
operations (a called function's body is listed at its call, over that call's own buffers), and the fact that
running those statements is running the lists in order.
-/

noncomputable section

namespace Cert.RefHand

open Cert.ReferenceIdeal Cert.ReferenceIdeal.Gen Idealize.ShloMosaic Idealize.ShloMosaic.TcCoe Idealize.SL.Sem Idealize.ShloMosaic.StableHlo

variable {F : FTy → Type} [FloatOps F]

/-- Operations 524 to 548 of the program, in order. -/
abbrev ck37 : List (HloOp τ sig (Elt F)) :=
  [
    StableHlo.reshape main_v399 main_v400 rfl shapeCasts_S1x256x256_S256x256,
    StableHlo.unary main_arg6 main_v401 ((extractStridedSlice S1x256 ![2, 0] · slices_S4x256_S1x256_2_0) : (⟨S4x256, .f32⟩ : BufTy).Contents (Elt F) → (⟨S1x256, .f32⟩ : BufTy).Contents (Elt F)),
    StableHlo.reshape main_v401 main_v402 rfl shapeCasts_S1x256_S256,
    StableHlo.unary main_arg9 main_v403 ((extractStridedSlice S1x400000 ![2, 0] · slices_S4x400000_S1x400000_2_0) : (⟨S4x400000, .i32⟩ : BufTy).Contents (Elt F) → (⟨S1x400000, .i32⟩ : BufTy).Contents (Elt F)),
    StableHlo.reshape main_v403 main_v404 rfl shapeCasts_S1x400000_S400000,
    StableHlo.unary main_arg10 main_v405 ((extractStridedSlice S1x400000 ![2, 0] · slices_S4x400000_S1x400000_2_0) : (⟨S4x400000, .i32⟩ : BufTy).Contents (Elt F) → (⟨S1x400000, .i32⟩ : BufTy).Contents (Elt F)),
    StableHlo.reshape main_v405 main_v406 rfl shapeCasts_S1x400000_S400000,
    StableHlo.nullary main_cst_78 (constant S_ .f32 0x3F800000#32),
    StableHlo.unary main_cst_78 main_v407 (broadcastInDim S400000 ![] bcast_S_S400000 : (⟨S_, .f32⟩ : BufTy).Contents (Elt F) → (⟨S400000, .f32⟩ : BufTy).Contents (Elt F)),
    StableHlo.nullary main_cst_79 (constant S_ .f32 0x00000000#32),
    StableHlo.unary main_cst_79 main_v408 (broadcastInDim S50000 ![] bcast_S_S50000 : (⟨S_, .f32⟩ : BufTy).Contents (Elt F) → (⟨S50000, .f32⟩ : BufTy).Contents (Elt F)),
    StableHlo.unary main_v404 main_v409 (broadcastInDim S400000x1 ![0] bcast_S400000_S400000x1_0 : (⟨S400000, .i32⟩ : BufTy).Contents (Elt F) → (⟨S400000x1, .i32⟩ : BufTy).Contents (Elt F)),
    StableHlo.ternary main_v408 main_v409 main_v407 main_v410 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_80 (constant S_ .f32 0x3F800000#32),
    StableHlo.TRef.unary (.of main_cst_80 : StableHlo.TRef sig ⟨S_, .f32⟩) (.of main_call22_v0 : StableHlo.TRef sig ⟨S_, .f32⟩) id,
    StableHlo.TRef.unary (.of main_call22_v0 : StableHlo.TRef sig ⟨S_, .f32⟩) (.of main_call22_v1 : StableHlo.TRef sig ⟨S50000, .f32⟩) (broadcastInDim S50000 ![] bcast_S_S50000),
    StableHlo.TRef.binary (.of main_call22_v1 : StableHlo.TRef sig ⟨S50000, .f32⟩) (.of main_v410 : StableHlo.TRef sig ⟨S50000, .f32⟩) (.of main_v411 : StableHlo.TRef sig ⟨S50000, .f32⟩) maximumf,
    StableHlo.nullary main_cst_81 (constant S_ .f32 0x00000000#32),
    StableHlo.unary main_cst_81 main_v412 (broadcastInDim S50000 ![] bcast_S_S50000 : (⟨S_, .f32⟩ : BufTy).Contents (Elt F) → (⟨S50000, .f32⟩ : BufTy).Contents (Elt F)),
    StableHlo.unary main_v406 main_v413 (broadcastInDim S400000x1 ![0] bcast_S400000_S400000x1_0 : (⟨S400000, .i32⟩ : BufTy).Contents (Elt F) → (⟨S400000x1, .i32⟩ : BufTy).Contents (Elt F)),
    StableHlo.ternary main_v412 main_v413 main_v407 main_v414 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_82 (constant S_ .f32 0x3F800000#32),
    StableHlo.TRef.unary (.of main_cst_82 : StableHlo.TRef sig ⟨S_, .f32⟩) (.of main_call23_v0 : StableHlo.TRef sig ⟨S_, .f32⟩) id,
    StableHlo.TRef.unary (.of main_call23_v0 : StableHlo.TRef sig ⟨S_, .f32⟩) (.of main_call23_v1 : StableHlo.TRef sig ⟨S50000, .f32⟩) (broadcastInDim S50000 ![] bcast_S_S50000),
    StableHlo.TRef.binary (.of main_call23_v1 : StableHlo.TRef sig ⟨S50000, .f32⟩) (.of main_v414 : StableHlo.TRef sig ⟨S50000, .f32⟩) (.of main_v415 : StableHlo.TRef sig ⟨S50000, .f32⟩) maximumf ]

theorem ck37_sub : (ck37 : List (HloOp τ sig (Elt F))).Forall fun op => op.bufs ⊆ tcRefs τ sig :=
  ⟨reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., unary_bufs_sub .., ternary_bufs_sub .., nullary_bufs_sub .., unary_bufs_sub .., unary_bufs_sub .., binary_bufs_sub ..⟩

theorem ck37_fresh : ∀ op ∈ (ck37 : List (HloOp τ sig (Elt F))), op.fresh = ∅ := by
  intro _ h; (repeat (cases h with | head => rfl | tail _ h => ?_)); exact nomatch h

/-- Operations 549 to 573 of the program, in order. -/
abbrev ck38 : List (HloOp τ sig (Elt F)) :=
  [
    StableHlo.unary main_v411 main_v416 (Host.rsqrt : (⟨S50000, .f32⟩ : BufTy).Contents (Elt F) → (⟨S50000, .f32⟩ : BufTy).Contents (Elt F)),
    StableHlo.unary main_v416 main_v417 (broadcastInDim S50000x1 ![0] bcast_S50000_S50000x1_0 : (⟨S50000, .f32⟩ : BufTy).Contents (Elt F) → (⟨S50000x1, .f32⟩ : BufTy).Contents (Elt F)),
    StableHlo.unary main_v417 main_v418 (broadcastInDim S50000x256 ![0, 1] bcast_S50000x1_S50000x256_0_1 : (⟨S50000x1, .f32⟩ : BufTy).Contents (Elt F) → (⟨S50000x256, .f32⟩ : BufTy).Contents (Elt F)),
    StableHlo.binary main_v319 main_v418 main_v419 (mulf : (⟨S50000x256, .f32⟩ : BufTy).Contents (Elt F) → (⟨S50000x256, .f32⟩ : BufTy).Contents (Elt F) → (⟨S50000x256, .f32⟩ : BufTy).Contents (Elt F)),
    StableHlo.binary main_v419 main_v400 main_v420 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_c_83 (constantI S_ 32 0#32),
    StableHlo.unary main_c_83 main_v421 (broadcastInDim S400000 ![] bcast_S_S400000 : (⟨S_, .i32⟩ : BufTy).Contents (Elt F) → (⟨S400000, .i32⟩ : BufTy).Contents (Elt F)),
    StableHlo.binary main_v404 main_v421 main_v422 (cmpi .slt : (⟨S400000, .i32⟩ : BufTy).Contents (Elt F) → (⟨S400000, .i32⟩ : BufTy).Contents (Elt F) → (⟨S400000, .i1⟩ : BufTy).Contents (Elt F)),
    StableHlo.nullary main_c_84 (constantI S_ 32 50000#32),
    StableHlo.unary main_c_84 main_v423 (broadcastInDim S400000 ![] bcast_S_S400000 : (⟨S_, .i32⟩ : BufTy).Contents (Elt F) → (⟨S400000, .i32⟩ : BufTy).Contents (Elt F)),
    StableHlo.binary main_v404 main_v423 main_v424 (addi : (⟨S400000, .i32⟩ : BufTy).Contents (Elt F) → (⟨S400000, .i32⟩ : BufTy).Contents (Elt F) → (⟨S400000, .i32⟩ : BufTy).Contents (Elt F)),
    StableHlo.ternary main_v422 main_v424 main_v404 main_v425 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v425 main_v426 (broadcastInDim S400000x1 ![0] bcast_S400000_S400000x1_0 : (⟨S400000, .i32⟩ : BufTy).Contents (Elt F) → (⟨S400000x1, .i32⟩ : BufTy).Contents (Elt F)),
    StableHlo.binary main_v420 main_v426 main_v427 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    StableHlo.nullary main_cst_85 (constant S_ .f32 0x00000000#32),
    StableHlo.unary main_cst_85 main_v428 (broadcastInDim S50000x256 ![] bcast_S_S50000x256 : (⟨S_, .f32⟩ : BufTy).Contents (Elt F) → (⟨S50000x256, .f32⟩ : BufTy).Contents (Elt F)),
    StableHlo.unary main_v406 main_v429 (broadcastInDim S400000x1 ![0] bcast_S400000_S400000x1_0 : (⟨S400000, .i32⟩ : BufTy).Contents (Elt F) → (⟨S400000x1, .i32⟩ : BufTy).Contents (Elt F)),
    StableHlo.ternary main_v428 main_v429 main_v427 main_v430 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    StableHlo.unary main_v415 main_v431 (Host.rsqrt : (⟨S50000, .f32⟩ : BufTy).Contents (Elt F) → (⟨S50000, .f32⟩ : BufTy).Contents (Elt F)),
    StableHlo.unary main_v431 main_v432 (broadcastInDim S50000x1 ![0] bcast_S50000_S50000x1_0 : (⟨S50000, .f32⟩ : BufTy).Contents (Elt F) → (⟨S50000x1, .f32⟩ : BufTy).Contents (Elt F)),
    StableHlo.unary main_v432 main_v433 (broadcastInDim S50000x256 ![0, 1] bcast_S50000x1_S50000x256_0_1 : (⟨S50000x1, .f32⟩ : BufTy).Contents (Elt F) → (⟨S50000x256, .f32⟩ : BufTy).Contents (Elt F)),
    StableHlo.binary main_v430 main_v433 main_v434 (mulf : (⟨S50000x256, .f32⟩ : BufTy).Contents (Elt F) → (⟨S50000x256, .f32⟩ : BufTy).Contents (Elt F) → (⟨S50000x256, .f32⟩ : BufTy).Contents (Elt F)),
    StableHlo.unary main_v402 main_v435 (broadcastInDim S1x256 ![1] bcast_S256_S1x256_1 : (⟨S256, .f32⟩ : BufTy).Contents (Elt F) → (⟨S1x256, .f32⟩ : BufTy).Contents (Elt F)),
    StableHlo.unary main_v435 main_v436 (broadcastInDim S50000x256 ![0, 1] bcast_S1x256_S50000x256_0_1 : (⟨S1x256, .f32⟩ : BufTy).Contents (Elt F) → (⟨S50000x256, .f32⟩ : BufTy).Contents (Elt F)),
    StableHlo.binary main_v434 main_v436 main_v437 (addf : (⟨S50000x256, .f32⟩ : BufTy).Contents (Elt F) → (⟨S50000x256, .f32⟩ : BufTy).Contents (Elt F) → (⟨S50000x256, .f32⟩ : BufTy).Contents (Elt F)) ]

theorem ck38_sub : (ck38 : List (HloOp τ sig (Elt F))).Forall fun op => op.bufs ⊆ tcRefs τ sig :=
  ⟨unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., unary_bufs_sub .., binary_bufs_sub .., unary_bufs_sub .., unary_bufs_sub .., binary_bufs_sub ..⟩

theorem ck38_fresh : ∀ op ∈ (ck38 : List (HloOp τ sig (Elt F))), op.fresh = ∅ := by
  intro _ h; (repeat (cases h with | head => rfl | tail _ h => ?_)); exact nomatch h

/-- Operations 574 to 574 of the program, in order. -/
abbrev ck39 : List (HloOp τ sig (Elt F)) :=
  [
    StableHlo.binary main_v398 main_v437 main_v438 (addf : (⟨S50000x256, .f32⟩ : BufTy).Contents (Elt F) → (⟨S50000x256, .f32⟩ : BufTy).Contents (Elt F) → (⟨S50000x256, .f32⟩ : BufTy).Contents (Elt F)) ]

theorem ck39_sub : (ck39 : List (HloOp τ sig (Elt F))).Forall fun op => op.bufs ⊆ tcRefs τ sig :=
  (binary_bufs_sub ..)

theorem ck39_fresh : ∀ op ∈ (ck39 : List (HloOp τ sig (Elt F))), op.fresh = ∅ := by
  intro _ h; (repeat (cases h with | head => rfl | tail _ h => ?_)); exact nomatch h

/-- Operations 575 to 587 of the program, in order. -/
abbrev ck40 : List (HloOp τ sig (Elt F)) :=
  [
    StableHlo.unary main_arg5 main_v439 ((extractStridedSlice S1x256x256 ![3, 0, 0] · slices_S4x256x256_S1x256x256_3_0_0) : (⟨S4x256x256, .f32⟩ : BufTy).Contents (Elt F) → (⟨S1x256x256, .f32⟩ : BufTy).Contents (Elt F)),
    StableHlo.reshape main_v439 main_v440 rfl shapeCasts_S1x256x256_S256x256,
    StableHlo.unary main_arg6 main_v441 ((extractStridedSlice S1x256 ![3, 0] · slices_S4x256_S1x256_3_0) : (⟨S4x256, .f32⟩ : BufTy).Contents (Elt F) → (⟨S1x256, .f32⟩ : BufTy).Contents (Elt F)),
    StableHlo.reshape main_v441 main_v442 rfl shapeCasts_S1x256_S256,
    StableHlo.unary main_arg9 main_v443 ((extractStridedSlice S1x400000 ![3, 0] · slices_S4x400000_S1x400000_3_0) : (⟨S4x400000, .i32⟩ : BufTy).Contents (Elt F) → (⟨S1x400000, .i32⟩ : BufTy).Contents (Elt F)),
    StableHlo.reshape main_v443 main_v444 rfl shapeCasts_S1x400000_S400000,
    StableHlo.unary main_arg10 main_v445 ((extractStridedSlice S1x400000 ![3, 0] · slices_S4x400000_S1x400000_3_0) : (⟨S4x400000, .i32⟩ : BufTy).Contents (Elt F) → (⟨S1x400000, .i32⟩ : BufTy).Contents (Elt F)),
    StableHlo.reshape main_v445 main_v446 rfl shapeCasts_S1x400000_S400000,
    StableHlo.nullary main_cst_86 (constant S_ .f32 0x3F800000#32),
    StableHlo.unary main_cst_86 main_v447 (broadcastInDim S400000 ![] bcast_S_S400000 : (⟨S_, .f32⟩ : BufTy).Contents (Elt F) → (⟨S400000, .f32⟩ : BufTy).Contents (Elt F)),
    StableHlo.nullary main_cst_87 (constant S_ .f32 0x00000000#32),
    StableHlo.unary main_cst_87 main_v448 (broadcastInDim S50000 ![] bcast_S_S50000 : (⟨S_, .f32⟩ : BufTy).Contents (Elt F) → (⟨S50000, .f32⟩ : BufTy).Contents (Elt F)),
    StableHlo.unary main_v444 main_v449 (broadcastInDim S400000x1 ![0] bcast_S400000_S400000x1_0 : (⟨S400000, .i32⟩ : BufTy).Contents (Elt F) → (⟨S400000x1, .i32⟩ : BufTy).Contents (Elt F)) ]

theorem ck40_sub : (ck40 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., unary_bufs_sub ..⟩

theorem ck40_fresh : ∀ op ∈ (ck40 : List (HloOp τ sig (Elt F))), op.fresh = ∅ := by
  intro _ h; (repeat (cases h with | head => rfl | tail _ h => ?_)); exact nomatch h

/-- The lists of this stretch of statements, in order. -/
abbrev win8 : List (HloOp τ sig (Elt F)) := ck37 ++ (ck38 ++ (ck39 ++ (ck40)))

theorem win8_sub : ∀ op ∈ (win8 : List (HloOp τ sig (Elt F))), op.bufs ⊆ tcRefs τ sig :=
  (forall_mem_append_of (List.forall_iff_forall_mem.1 ck37_sub) (forall_mem_append_of (List.forall_iff_forall_mem.1 ck38_sub) (forall_mem_append_of (List.forall_iff_forall_mem.1 ck39_sub) (List.forall_iff_forall_mem.1 ck40_sub))))

theorem win8_fresh : ∀ op ∈ (win8 : List (HloOp τ sig (Elt F))), op.fresh = ∅ :=
  (forall_mem_append_of ck37_fresh (forall_mem_append_of ck38_fresh (forall_mem_append_of ck39_fresh ck40_fresh)))

set_option maxRecDepth 8192 in
set_option maxHeartbeats 4000000 in
/-- The statements are exactly these operations, one after the other. -/
theorem part8_eq (c : Dev nD) : main_part8 (F := F) c = seq win8 := rfl

end Cert.RefHand

end
-- ==== Proof.Ref.Win9.lean ====
import proofs.«111407_j24215025614983_1_alg».proof.Proof.Gen.ReferenceIdeal
import proofs.«111407_j24215025614983_1_alg».proof.Proof.Ref.Basic

/-!
Statements 541 to 600 of the reference program's entry function, written as lists of host
operations (a called function's body is listed at its call, over that call's own buffers), and the fact that
running those statements is running the lists in order.
-/

noncomputable section

namespace Cert.RefHand

open Cert.ReferenceIdeal Cert.ReferenceIdeal.Gen Idealize.ShloMosaic Idealize.ShloMosaic.TcCoe Idealize.SL.Sem Idealize.ShloMosaic.StableHlo

variable {F : FTy → Type} [FloatOps F]

/-- Operations 588 to 600 of the program, in order. -/
abbrev ck41 : List (HloOp τ sig (Elt F)) :=
  [
    StableHlo.ternary main_v448 main_v449 main_v447 main_v450 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_88 (constant S_ .f32 0x3F800000#32),
    StableHlo.TRef.unary (.of main_cst_88 : StableHlo.TRef sig ⟨S_, .f32⟩) (.of main_call24_v0 : StableHlo.TRef sig ⟨S_, .f32⟩) id,
    StableHlo.TRef.unary (.of main_call24_v0 : StableHlo.TRef sig ⟨S_, .f32⟩) (.of main_call24_v1 : StableHlo.TRef sig ⟨S50000, .f32⟩) (broadcastInDim S50000 ![] bcast_S_S50000),
    StableHlo.TRef.binary (.of main_call24_v1 : StableHlo.TRef sig ⟨S50000, .f32⟩) (.of main_v450 : StableHlo.TRef sig ⟨S50000, .f32⟩) (.of main_v451 : StableHlo.TRef sig ⟨S50000, .f32⟩) maximumf,
    StableHlo.nullary main_cst_89 (constant S_ .f32 0x00000000#32),
    StableHlo.unary main_cst_89 main_v452 (broadcastInDim S50000 ![] bcast_S_S50000 : (⟨S_, .f32⟩ : BufTy).Contents (Elt F) → (⟨S50000, .f32⟩ : BufTy).Contents (Elt F)),
    StableHlo.unary main_v446 main_v453 (broadcastInDim S400000x1 ![0] bcast_S400000_S400000x1_0 : (⟨S400000, .i32⟩ : BufTy).Contents (Elt F) → (⟨S400000x1, .i32⟩ : BufTy).Contents (Elt F)),
    StableHlo.ternary main_v452 main_v453 main_v447 main_v454 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_90 (constant S_ .f32 0x3F800000#32),
    StableHlo.TRef.unary (.of main_cst_90 : StableHlo.TRef sig ⟨S_, .f32⟩) (.of main_call25_v0 : StableHlo.TRef sig ⟨S_, .f32⟩) id,
    StableHlo.TRef.unary (.of main_call25_v0 : StableHlo.TRef sig ⟨S_, .f32⟩) (.of main_call25_v1 : StableHlo.TRef sig ⟨S50000, .f32⟩) (broadcastInDim S50000 ![] bcast_S_S50000),
    StableHlo.TRef.binary (.of main_call25_v1 : StableHlo.TRef sig ⟨S50000, .f32⟩) (.of main_v454 : StableHlo.TRef sig ⟨S50000, .f32⟩) (.of main_v455 : StableHlo.TRef sig ⟨S50000, .f32⟩) maximumf ]

theorem ck41_sub : (ck41 : List (HloOp τ sig (Elt F))).Forall fun op => op.bufs ⊆ tcRefs τ sig :=
  ⟨ternary_bufs_sub .., nullary_bufs_sub .., unary_bufs_sub .., unary_bufs_sub .., binary_bufs_sub .., nullary_bufs_sub .., unary_bufs_sub .., unary_bufs_sub .., ternary_bufs_sub .., nullary_bufs_sub .., unary_bufs_sub .., unary_bufs_sub .., binary_bufs_sub ..⟩

theorem ck41_fresh : ∀ op ∈ (ck41 : List (HloOp τ sig (Elt F))), op.fresh = ∅ := by
  intro _ h; (repeat (cases h with | head => rfl | tail _ h => ?_)); exact nomatch h

/-- Operations 601 to 625 of the program, in order. -/
abbrev ck42 : List (HloOp τ sig (Elt F)) :=
  [
    StableHlo.unary main_v451 main_v456 (Host.rsqrt : (⟨S50000, .f32⟩ : BufTy).Contents (Elt F) → (⟨S50000, .f32⟩ : BufTy).Contents (Elt F)),
    StableHlo.unary main_v456 main_v457 (broadcastInDim S50000x1 ![0] bcast_S50000_S50000x1_0 : (⟨S50000, .f32⟩ : BufTy).Contents (Elt F) → (⟨S50000x1, .f32⟩ : BufTy).Contents (Elt F)),
    StableHlo.unary main_v457 main_v458 (broadcastInDim S50000x256 ![0, 1] bcast_S50000x1_S50000x256_0_1 : (⟨S50000x1, .f32⟩ : BufTy).Contents (Elt F) → (⟨S50000x256, .f32⟩ : BufTy).Contents (Elt F)),
    StableHlo.binary main_v319 main_v458 main_v459 (mulf : (⟨S50000x256, .f32⟩ : BufTy).Contents (Elt F) → (⟨S50000x256, .f32⟩ : BufTy).Contents (Elt F) → (⟨S50000x256, .f32⟩ : BufTy).Contents (Elt F)),
    StableHlo.binary main_v459 main_v440 main_v460 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_c_91 (constantI S_ 32 0#32),
    StableHlo.unary main_c_91 main_v461 (broadcastInDim S400000 ![] bcast_S_S400000 : (⟨S_, .i32⟩ : BufTy).Contents (Elt F) → (⟨S400000, .i32⟩ : BufTy).Contents (Elt F)),
    StableHlo.binary main_v444 main_v461 main_v462 (cmpi .slt : (⟨S400000, .i32⟩ : BufTy).Contents (Elt F) → (⟨S400000, .i32⟩ : BufTy).Contents (Elt F) → (⟨S400000, .i1⟩ : BufTy).Contents (Elt F)),
    StableHlo.nullary main_c_92 (constantI S_ 32 50000#32),
    StableHlo.unary main_c_92 main_v463 (broadcastInDim S400000 ![] bcast_S_S400000 : (⟨S_, .i32⟩ : BufTy).Contents (Elt F) → (⟨S400000, .i32⟩ : BufTy).Contents (Elt F)),
    StableHlo.binary main_v444 main_v463 main_v464 (addi : (⟨S400000, .i32⟩ : BufTy).Contents (Elt F) → (⟨S400000, .i32⟩ : BufTy).Contents (Elt F) → (⟨S400000, .i32⟩ : BufTy).Contents (Elt F)),
    StableHlo.ternary main_v462 main_v464 main_v444 main_v465 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v465 main_v466 (broadcastInDim S400000x1 ![0] bcast_S400000_S400000x1_0 : (⟨S400000, .i32⟩ : BufTy).Contents (Elt F) → (⟨S400000x1, .i32⟩ : BufTy).Contents (Elt F)),
    StableHlo.binary main_v460 main_v466 main_v467 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    StableHlo.nullary main_cst_93 (constant S_ .f32 0x00000000#32),
    StableHlo.unary main_cst_93 main_v468 (broadcastInDim S50000x256 ![] bcast_S_S50000x256 : (⟨S_, .f32⟩ : BufTy).Contents (Elt F) → (⟨S50000x256, .f32⟩ : BufTy).Contents (Elt F)),
    StableHlo.unary main_v446 main_v469 (broadcastInDim S400000x1 ![0] bcast_S400000_S400000x1_0 : (⟨S400000, .i32⟩ : BufTy).Contents (Elt F) → (⟨S400000x1, .i32⟩ : BufTy).Contents (Elt F)),
    StableHlo.ternary main_v468 main_v469 main_v467 main_v470 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    StableHlo.unary main_v455 main_v471 (Host.rsqrt : (⟨S50000, .f32⟩ : BufTy).Contents (Elt F) → (⟨S50000, .f32⟩ : BufTy).Contents (Elt F)),
    StableHlo.unary main_v471 main_v472 (broadcastInDim S50000x1 ![0] bcast_S50000_S50000x1_0 : (⟨S50000, .f32⟩ : BufTy).Contents (Elt F) → (⟨S50000x1, .f32⟩ : BufTy).Contents (Elt F)),
    StableHlo.unary main_v472 main_v473 (broadcastInDim S50000x256 ![0, 1] bcast_S50000x1_S50000x256_0_1 : (⟨S50000x1, .f32⟩ : BufTy).Contents (Elt F) → (⟨S50000x256, .f32⟩ : BufTy).Contents (Elt F)),
    StableHlo.binary main_v470 main_v473 main_v474 (mulf : (⟨S50000x256, .f32⟩ : BufTy).Contents (Elt F) → (⟨S50000x256, .f32⟩ : BufTy).Contents (Elt F) → (⟨S50000x256, .f32⟩ : BufTy).Contents (Elt F)),
    StableHlo.unary main_v442 main_v475 (broadcastInDim S1x256 ![1] bcast_S256_S1x256_1 : (⟨S256, .f32⟩ : BufTy).Contents (Elt F) → (⟨S1x256, .f32⟩ : BufTy).Contents (Elt F)),
    StableHlo.unary main_v475 main_v476 (broadcastInDim S50000x256 ![0, 1] bcast_S1x256_S50000x256_0_1 : (⟨S1x256, .f32⟩ : BufTy).Contents (Elt F) → (⟨S50000x256, .f32⟩ : BufTy).Contents (Elt F)),
    StableHlo.binary main_v474 main_v476 main_v477 (addf : (⟨S50000x256, .f32⟩ : BufTy).Contents (Elt F) → (⟨S50000x256, .f32⟩ : BufTy).Contents (Elt F) → (⟨S50000x256, .f32⟩ : BufTy).Contents (Elt F)) ]

theorem ck42_sub : (ck42 : List (HloOp τ sig (Elt F))).Forall fun op => op.bufs ⊆ tcRefs τ sig :=
  ⟨unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., unary_bufs_sub .., binary_bufs_sub .., unary_bufs_sub .., unary_bufs_sub .., binary_bufs_sub ..⟩

theorem ck42_fresh : ∀ op ∈ (ck42 : List (HloOp τ sig (Elt F))), op.fresh = ∅ := by
  intro _ h; (repeat (cases h with | head => rfl | tail _ h => ?_)); exact nomatch h

/-- Operations 626 to 626 of the program, in order. -/
abbrev ck43 : List (HloOp τ sig (Elt F)) :=
  [
    StableHlo.binary main_v438 main_v477 main_v478 (addf : (⟨S50000x256, .f32⟩ : BufTy).Contents (Elt F) → (⟨S50000x256, .f32⟩ : BufTy).Contents (Elt F) → (⟨S50000x256, .f32⟩ : BufTy).Contents (Elt F)) ]

theorem ck43_sub : (ck43 : List (HloOp τ sig (Elt F))).Forall fun op => op.bufs ⊆ tcRefs τ sig :=
  (binary_bufs_sub ..)

theorem ck43_fresh : ∀ op ∈ (ck43 : List (HloOp τ sig (Elt F))), op.fresh = ∅ := by
  intro _ h; (repeat (cases h with | head => rfl | tail _ h => ?_)); exact nomatch h

/-- Operations 627 to 629 of the program, in order. -/
abbrev ck44 : List (HloOp τ sig (Elt F)) :=
  [
    StableHlo.TRef.nullary (.of main_call26_cst : StableHlo.TRef sig ⟨S_, .f32⟩) (constant S_ .f32 0x00000000#32),
    StableHlo.TRef.unary (.of main_call26_cst : StableHlo.TRef sig ⟨S_, .f32⟩) (.of main_call26_v0 : StableHlo.TRef sig ⟨S50000x256, .f32⟩) (broadcastInDim S50000x256 ![] bcast_S_S50000x256),
    StableHlo.TRef.binary (.of main_v478 : StableHlo.TRef sig ⟨S50000x256, .f32⟩) (.of main_call26_v0 : StableHlo.TRef sig ⟨S50000x256, .f32⟩) (.of main_v479 : StableHlo.TRef sig ⟨S50000x256, .f32⟩) maximumf ]

theorem ck44_sub : (ck44 : List (HloOp τ sig (Elt F))).Forall fun op => op.bufs ⊆ tcRefs τ sig :=
  ⟨nullary_bufs_sub .., unary_bufs_sub .., binary_bufs_sub ..⟩

theorem ck44_fresh : ∀ op ∈ (ck44 : List (HloOp τ sig (Elt F))), op.fresh = ∅ := by
  intro _ h; (repeat (cases h with | head => rfl | tail _ h => ?_)); exact nomatch h

/-- Operations 630 to 655 of the program, in order. -/
abbrev ck45 : List (HloOp τ sig (Elt F)) :=
  [
    StableHlo.unary main_arg7 main_v480 ((extractStridedSlice S1x256x128 ![0, 0, 0] · slices_S4x256x128_S1x256x128_0_0_0) : (⟨S4x256x128, .f32⟩ : BufTy).Contents (Elt F) → (⟨S1x256x128, .f32⟩ : BufTy).Contents (Elt F)),
    StableHlo.reshape main_v480 main_v481 rfl shapeCasts_S1x256x128_S256x128,
    StableHlo.unary main_arg8 main_v482 ((extractStridedSlice S1x128 ![0, 0] · slices_S4x128_S1x128_0_0) : (⟨S4x128, .f32⟩ : BufTy).Contents (Elt F) → (⟨S1x128, .f32⟩ : BufTy).Contents (Elt F)),
    StableHlo.reshape main_v482 main_v483 rfl shapeCasts_S1x128_S128,
    StableHlo.unary main_arg9 main_v484 ((extractStridedSlice S1x400000 ![0, 0] · slices_S4x400000_S1x400000_0_0) : (⟨S4x400000, .i32⟩ : BufTy).Contents (Elt F) → (⟨S1x400000, .i32⟩ : BufTy).Contents (Elt F)),
    StableHlo.reshape main_v484 main_v485 rfl shapeCasts_S1x400000_S400000,
    StableHlo.unary main_arg10 main_v486 ((extractStridedSlice S1x400000 ![0, 0] · slices_S4x400000_S1x400000_0_0) : (⟨S4x400000, .i32⟩ : BufTy).Contents (Elt F) → (⟨S1x400000, .i32⟩ : BufTy).Contents (Elt F)),
    StableHlo.reshape main_v486 main_v487 rfl shapeCasts_S1x400000_S400000,
    StableHlo.nullary main_cst_94 (constant S_ .f32 0x3F800000#32),
    StableHlo.unary main_cst_94 main_v488 (broadcastInDim S400000 ![] bcast_S_S400000 : (⟨S_, .f32⟩ : BufTy).Contents (Elt F) → (⟨S400000, .f32⟩ : BufTy).Contents (Elt F)),
    StableHlo.nullary main_cst_95 (constant S_ .f32 0x00000000#32),
    StableHlo.unary main_cst_95 main_v489 (broadcastInDim S50000 ![] bcast_S_S50000 : (⟨S_, .f32⟩ : BufTy).Contents (Elt F) → (⟨S50000, .f32⟩ : BufTy).Contents (Elt F)),
    StableHlo.unary main_v485 main_v490 (broadcastInDim S400000x1 ![0] bcast_S400000_S400000x1_0 : (⟨S400000, .i32⟩ : BufTy).Contents (Elt F) → (⟨S400000x1, .i32⟩ : BufTy).Contents (Elt F)),
    StableHlo.ternary main_v489 main_v490 main_v488 main_v491 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_96 (constant S_ .f32 0x3F800000#32),
    StableHlo.TRef.unary (.of main_cst_96 : StableHlo.TRef sig ⟨S_, .f32⟩) (.of main_call27_v0 : StableHlo.TRef sig ⟨S_, .f32⟩) id,
    StableHlo.TRef.unary (.of main_call27_v0 : StableHlo.TRef sig ⟨S_, .f32⟩) (.of main_call27_v1 : StableHlo.TRef sig ⟨S50000, .f32⟩) (broadcastInDim S50000 ![] bcast_S_S50000),
    StableHlo.TRef.binary (.of main_call27_v1 : StableHlo.TRef sig ⟨S50000, .f32⟩) (.of main_v491 : StableHlo.TRef sig ⟨S50000, .f32⟩) (.of main_v492 : StableHlo.TRef sig ⟨S50000, .f32⟩) maximumf,
    StableHlo.nullary main_cst_97 (constant S_ .f32 0x00000000#32),
    StableHlo.unary main_cst_97 main_v493 (broadcastInDim S50000 ![] bcast_S_S50000 : (⟨S_, .f32⟩ : BufTy).Contents (Elt F) → (⟨S50000, .f32⟩ : BufTy).Contents (Elt F)),
    StableHlo.unary main_v487 main_v494 (broadcastInDim S400000x1 ![0] bcast_S400000_S400000x1_0 : (⟨S400000, .i32⟩ : BufTy).Contents (Elt F) → (⟨S400000x1, .i32⟩ : BufTy).Contents (Elt F)),
    StableHlo.ternary main_v493 main_v494 main_v488 main_v495 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_98 (constant S_ .f32 0x3F800000#32),
    StableHlo.TRef.unary (.of main_cst_98 : StableHlo.TRef sig ⟨S_, .f32⟩) (.of main_call28_v0 : StableHlo.TRef sig ⟨S_, .f32⟩) id,
    StableHlo.TRef.unary (.of main_call28_v0 : StableHlo.TRef sig ⟨S_, .f32⟩) (.of main_call28_v1 : StableHlo.TRef sig ⟨S50000, .f32⟩) (broadcastInDim S50000 ![] bcast_S_S50000),
    StableHlo.TRef.binary (.of main_call28_v1 : StableHlo.TRef sig ⟨S50000, .f32⟩) (.of main_v495 : StableHlo.TRef sig ⟨S50000, .f32⟩) (.of main_v496 : StableHlo.TRef sig ⟨S50000, .f32⟩) maximumf ]

theorem ck45_sub : (ck45 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., unary_bufs_sub .., ternary_bufs_sub .., nullary_bufs_sub .., unary_bufs_sub .., unary_bufs_sub .., binary_bufs_sub ..⟩

theorem ck45_fresh : ∀ op ∈ (ck45 : List (HloOp τ sig (Elt F))), op.fresh = ∅ := by
  intro _ h; (repeat (cases h with | head => rfl | tail _ h => ?_)); exact nomatch h

/-- Operations 656 to 657 of the program, in order. -/
abbrev ck46 : List (HloOp τ sig (Elt F)) :=
  [
    StableHlo.unary main_v492 main_v497 (Host.rsqrt : (⟨S50000, .f32⟩ : BufTy).Contents (Elt F) → (⟨S50000, .f32⟩ : BufTy).Contents (Elt F)),
    StableHlo.unary main_v497 main_v498 (broadcastInDim S50000x1 ![0] bcast_S50000_S50000x1_0 : (⟨S50000, .f32⟩ : BufTy).Contents (Elt F) → (⟨S50000x1, .f32⟩ : BufTy).Contents (Elt F)) ]

theorem ck46_sub : (ck46 : List (HloOp τ sig (Elt F))).Forall fun op => op.bufs ⊆ tcRefs τ sig :=
  ⟨unary_bufs_sub .., unary_bufs_sub ..⟩

theorem ck46_fresh : ∀ op ∈ (ck46 : List (HloOp τ sig (Elt F))), op.fresh = ∅ := by
  intro _ h; (repeat (cases h with | head => rfl | tail _ h => ?_)); exact nomatch h

/-- The lists of this stretch of statements, in order. -/
abbrev win9 : List (HloOp τ sig (Elt F)) := ck41 ++ (ck42 ++ (ck43 ++ (ck44 ++ (ck45 ++ (ck46)))))

theorem win9_sub : ∀ op ∈ (win9 : List (HloOp τ sig (Elt F))), op.bufs ⊆ tcRefs τ sig :=
  (forall_mem_append_of (List.forall_iff_forall_mem.1 ck41_sub) (forall_mem_append_of (List.forall_iff_forall_mem.1 ck42_sub) (forall_mem_append_of (List.forall_iff_forall_mem.1 ck43_sub) (forall_mem_append_of (List.forall_iff_forall_mem.1 ck44_sub) (forall_mem_append_of (List.forall_iff_forall_mem.1 ck45_sub) (List.forall_iff_forall_mem.1 ck46_sub))))))

theorem win9_fresh : ∀ op ∈ (win9 : List (HloOp τ sig (Elt F))), op.fresh = ∅ :=
  (forall_mem_append_of ck41_fresh (forall_mem_append_of ck42_fresh (forall_mem_append_of ck43_fresh (forall_mem_append_of ck44_fresh (forall_mem_append_of ck45_fresh ck46_fresh)))))

set_option maxRecDepth 8192 in
set_option maxHeartbeats 4000000 in
/-- The statements are exactly these operations, one after the other. -/
theorem part9_eq (c : Dev nD) : main_part9 (F := F) c = seq win9 := rfl

end Cert.RefHand

end
-- ==== Proof.Ref.Win10.lean ====
import proofs.«111407_j24215025614983_1_alg».proof.Proof.Gen.ReferenceIdeal
import proofs.«111407_j24215025614983_1_alg».proof.Proof.Ref.Basic

/-!
Statements 601 to 660 of the reference program's entry function, written as lists of host
operations (a called function's body is listed at its call, over that call's own buffers), and the fact that
running those statements is running the lists in order.
-/

noncomputable section

namespace Cert.RefHand

open Cert.ReferenceIdeal Cert.ReferenceIdeal.Gen Idealize.ShloMosaic Idealize.ShloMosaic.TcCoe Idealize.SL.Sem Idealize.ShloMosaic.StableHlo

variable {F : FTy → Type} [FloatOps F]

/-- Operations 658 to 680 of the program, in order. -/
abbrev ck47 : List (HloOp τ sig (Elt F)) :=
  [
    StableHlo.unary main_v498 main_v499 (broadcastInDim S50000x256 ![0, 1] bcast_S50000x1_S50000x256_0_1 : (⟨S50000x1, .f32⟩ : BufTy).Contents (Elt F) → (⟨S50000x256, .f32⟩ : BufTy).Contents (Elt F)),
    StableHlo.binary main_v479 main_v499 main_v500 (mulf : (⟨S50000x256, .f32⟩ : BufTy).Contents (Elt F) → (⟨S50000x256, .f32⟩ : BufTy).Contents (Elt F) → (⟨S50000x256, .f32⟩ : BufTy).Contents (Elt F)),
    StableHlo.binary main_v500 main_v481 main_v501 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.nullary main_c_99 (constantI S_ 32 0#32),
    StableHlo.unary main_c_99 main_v502 (broadcastInDim S400000 ![] bcast_S_S400000 : (⟨S_, .i32⟩ : BufTy).Contents (Elt F) → (⟨S400000, .i32⟩ : BufTy).Contents (Elt F)),
    StableHlo.binary main_v485 main_v502 main_v503 (cmpi .slt : (⟨S400000, .i32⟩ : BufTy).Contents (Elt F) → (⟨S400000, .i32⟩ : BufTy).Contents (Elt F) → (⟨S400000, .i1⟩ : BufTy).Contents (Elt F)),
    StableHlo.nullary main_c_100 (constantI S_ 32 50000#32),
    StableHlo.unary main_c_100 main_v504 (broadcastInDim S400000 ![] bcast_S_S400000 : (⟨S_, .i32⟩ : BufTy).Contents (Elt F) → (⟨S400000, .i32⟩ : BufTy).Contents (Elt F)),
    StableHlo.binary main_v485 main_v504 main_v505 (addi : (⟨S400000, .i32⟩ : BufTy).Contents (Elt F) → (⟨S400000, .i32⟩ : BufTy).Contents (Elt F) → (⟨S400000, .i32⟩ : BufTy).Contents (Elt F)),
    StableHlo.ternary main_v503 main_v505 main_v485 main_v506 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v506 main_v507 (broadcastInDim S400000x1 ![0] bcast_S400000_S400000x1_0 : (⟨S400000, .i32⟩ : BufTy).Contents (Elt F) → (⟨S400000x1, .i32⟩ : BufTy).Contents (Elt F)),
    StableHlo.binary main_v501 main_v507 main_v508 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    StableHlo.nullary main_cst_101 (constant S_ .f32 0x00000000#32),
    StableHlo.unary main_cst_101 main_v509 (broadcastInDim S50000x128 ![] bcast_S_S50000x128 : (⟨S_, .f32⟩ : BufTy).Contents (Elt F) → (⟨S50000x128, .f32⟩ : BufTy).Contents (Elt F)),
    StableHlo.unary main_v487 main_v510 (broadcastInDim S400000x1 ![0] bcast_S400000_S400000x1_0 : (⟨S400000, .i32⟩ : BufTy).Contents (Elt F) → (⟨S400000x1, .i32⟩ : BufTy).Contents (Elt F)),
    StableHlo.ternary main_v509 main_v510 main_v508 main_v511 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    StableHlo.unary main_v496 main_v512 (Host.rsqrt : (⟨S50000, .f32⟩ : BufTy).Contents (Elt F) → (⟨S50000, .f32⟩ : BufTy).Contents (Elt F)),
    StableHlo.unary main_v512 main_v513 (broadcastInDim S50000x1 ![0] bcast_S50000_S50000x1_0 : (⟨S50000, .f32⟩ : BufTy).Contents (Elt F) → (⟨S50000x1, .f32⟩ : BufTy).Contents (Elt F)),
    StableHlo.unary main_v513 main_v514 (broadcastInDim S50000x128 ![0, 1] bcast_S50000x1_S50000x128_0_1 : (⟨S50000x1, .f32⟩ : BufTy).Contents (Elt F) → (⟨S50000x128, .f32⟩ : BufTy).Contents (Elt F)),
    StableHlo.binary main_v511 main_v514 main_v515 (mulf : (⟨S50000x128, .f32⟩ : BufTy).Contents (Elt F) → (⟨S50000x128, .f32⟩ : BufTy).Contents (Elt F) → (⟨S50000x128, .f32⟩ : BufTy).Contents (Elt F)),
    StableHlo.unary main_v483 main_v516 (broadcastInDim S1x128 ![1] bcast_S128_S1x128_1 : (⟨S128, .f32⟩ : BufTy).Contents (Elt F) → (⟨S1x128, .f32⟩ : BufTy).Contents (Elt F)),
    StableHlo.unary main_v516 main_v517 (broadcastInDim S50000x128 ![0, 1] bcast_S1x128_S50000x128_0_1 : (⟨S1x128, .f32⟩ : BufTy).Contents (Elt F) → (⟨S50000x128, .f32⟩ : BufTy).Contents (Elt F)),
    StableHlo.binary main_v515 main_v517 main_v518 (addf : (⟨S50000x128, .f32⟩ : BufTy).Contents (Elt F) → (⟨S50000x128, .f32⟩ : BufTy).Contents (Elt F) → (⟨S50000x128, .f32⟩ : BufTy).Contents (Elt F)) ]

theorem ck47_sub : (ck47 : List (HloOp τ sig (Elt F))).Forall fun op => op.bufs ⊆ tcRefs τ sig :=
  ⟨unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., unary_bufs_sub .., binary_bufs_sub .., unary_bufs_sub .., unary_bufs_sub .., binary_bufs_sub ..⟩

theorem ck47_fresh : ∀ op ∈ (ck47 : List (HloOp τ sig (Elt F))), op.fresh = ∅ := by
  intro _ h; (repeat (cases h with | head => rfl | tail _ h => ?_)); exact nomatch h

/-- Operations 681 to 706 of the program, in order. -/
abbrev ck48 : List (HloOp τ sig (Elt F)) :=
  [
    StableHlo.unary main_arg7 main_v519 ((extractStridedSlice S1x256x128 ![1, 0, 0] · slices_S4x256x128_S1x256x128_1_0_0) : (⟨S4x256x128, .f32⟩ : BufTy).Contents (Elt F) → (⟨S1x256x128, .f32⟩ : BufTy).Contents (Elt F)),
    StableHlo.reshape main_v519 main_v520 rfl shapeCasts_S1x256x128_S256x128,
    StableHlo.unary main_arg8 main_v521 ((extractStridedSlice S1x128 ![1, 0] · slices_S4x128_S1x128_1_0) : (⟨S4x128, .f32⟩ : BufTy).Contents (Elt F) → (⟨S1x128, .f32⟩ : BufTy).Contents (Elt F)),
    StableHlo.reshape main_v521 main_v522 rfl shapeCasts_S1x128_S128,
    StableHlo.unary main_arg9 main_v523 ((extractStridedSlice S1x400000 ![1, 0] · slices_S4x400000_S1x400000_1_0) : (⟨S4x400000, .i32⟩ : BufTy).Contents (Elt F) → (⟨S1x400000, .i32⟩ : BufTy).Contents (Elt F)),
    StableHlo.reshape main_v523 main_v524 rfl shapeCasts_S1x400000_S400000,
    StableHlo.unary main_arg10 main_v525 ((extractStridedSlice S1x400000 ![1, 0] · slices_S4x400000_S1x400000_1_0) : (⟨S4x400000, .i32⟩ : BufTy).Contents (Elt F) → (⟨S1x400000, .i32⟩ : BufTy).Contents (Elt F)),
    StableHlo.reshape main_v525 main_v526 rfl shapeCasts_S1x400000_S400000,
    StableHlo.nullary main_cst_102 (constant S_ .f32 0x3F800000#32),
    StableHlo.unary main_cst_102 main_v527 (broadcastInDim S400000 ![] bcast_S_S400000 : (⟨S_, .f32⟩ : BufTy).Contents (Elt F) → (⟨S400000, .f32⟩ : BufTy).Contents (Elt F)),
    StableHlo.nullary main_cst_103 (constant S_ .f32 0x00000000#32),
    StableHlo.unary main_cst_103 main_v528 (broadcastInDim S50000 ![] bcast_S_S50000 : (⟨S_, .f32⟩ : BufTy).Contents (Elt F) → (⟨S50000, .f32⟩ : BufTy).Contents (Elt F)),
    StableHlo.unary main_v524 main_v529 (broadcastInDim S400000x1 ![0] bcast_S400000_S400000x1_0 : (⟨S400000, .i32⟩ : BufTy).Contents (Elt F) → (⟨S400000x1, .i32⟩ : BufTy).Contents (Elt F)),
    StableHlo.ternary main_v528 main_v529 main_v527 main_v530 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_104 (constant S_ .f32 0x3F800000#32),
    StableHlo.TRef.unary (.of main_cst_104 : StableHlo.TRef sig ⟨S_, .f32⟩) (.of main_call29_v0 : StableHlo.TRef sig ⟨S_, .f32⟩) id,
    StableHlo.TRef.unary (.of main_call29_v0 : StableHlo.TRef sig ⟨S_, .f32⟩) (.of main_call29_v1 : StableHlo.TRef sig ⟨S50000, .f32⟩) (broadcastInDim S50000 ![] bcast_S_S50000),
    StableHlo.TRef.binary (.of main_call29_v1 : StableHlo.TRef sig ⟨S50000, .f32⟩) (.of main_v530 : StableHlo.TRef sig ⟨S50000, .f32⟩) (.of main_v531 : StableHlo.TRef sig ⟨S50000, .f32⟩) maximumf,
    StableHlo.nullary main_cst_105 (constant S_ .f32 0x00000000#32),
    StableHlo.unary main_cst_105 main_v532 (broadcastInDim S50000 ![] bcast_S_S50000 : (⟨S_, .f32⟩ : BufTy).Contents (Elt F) → (⟨S50000, .f32⟩ : BufTy).Contents (Elt F)),
    StableHlo.unary main_v526 main_v533 (broadcastInDim S400000x1 ![0] bcast_S400000_S400000x1_0 : (⟨S400000, .i32⟩ : BufTy).Contents (Elt F) → (⟨S400000x1, .i32⟩ : BufTy).Contents (Elt F)),
    StableHlo.ternary main_v532 main_v533 main_v527 main_v534 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_106 (constant S_ .f32 0x3F800000#32),
    StableHlo.TRef.unary (.of main_cst_106 : StableHlo.TRef sig ⟨S_, .f32⟩) (.of main_call30_v0 : StableHlo.TRef sig ⟨S_, .f32⟩) id,
    StableHlo.TRef.unary (.of main_call30_v0 : StableHlo.TRef sig ⟨S_, .f32⟩) (.of main_call30_v1 : StableHlo.TRef sig ⟨S50000, .f32⟩) (broadcastInDim S50000 ![] bcast_S_S50000),
    StableHlo.TRef.binary (.of main_call30_v1 : StableHlo.TRef sig ⟨S50000, .f32⟩) (.of main_v534 : StableHlo.TRef sig ⟨S50000, .f32⟩) (.of main_v535 : StableHlo.TRef sig ⟨S50000, .f32⟩) maximumf ]

theorem ck48_sub : (ck48 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., unary_bufs_sub .., ternary_bufs_sub .., nullary_bufs_sub .., unary_bufs_sub .., unary_bufs_sub .., binary_bufs_sub ..⟩

theorem ck48_fresh : ∀ op ∈ (ck48 : List (HloOp τ sig (Elt F))), op.fresh = ∅ := by
  intro _ h; (repeat (cases h with | head => rfl | tail _ h => ?_)); exact nomatch h

/-- Operations 707 to 721 of the program, in order. -/
abbrev ck49 : List (HloOp τ sig (Elt F)) :=
  [
    StableHlo.unary main_v531 main_v536 (Host.rsqrt : (⟨S50000, .f32⟩ : BufTy).Contents (Elt F) → (⟨S50000, .f32⟩ : BufTy).Contents (Elt F)),
    StableHlo.unary main_v536 main_v537 (broadcastInDim S50000x1 ![0] bcast_S50000_S50000x1_0 : (⟨S50000, .f32⟩ : BufTy).Contents (Elt F) → (⟨S50000x1, .f32⟩ : BufTy).Contents (Elt F)),
    StableHlo.unary main_v537 main_v538 (broadcastInDim S50000x256 ![0, 1] bcast_S50000x1_S50000x256_0_1 : (⟨S50000x1, .f32⟩ : BufTy).Contents (Elt F) → (⟨S50000x256, .f32⟩ : BufTy).Contents (Elt F)),
    StableHlo.binary main_v479 main_v538 main_v539 (mulf : (⟨S50000x256, .f32⟩ : BufTy).Contents (Elt F) → (⟨S50000x256, .f32⟩ : BufTy).Contents (Elt F) → (⟨S50000x256, .f32⟩ : BufTy).Contents (Elt F)),
    StableHlo.binary main_v539 main_v520 main_v540 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.nullary main_c_107 (constantI S_ 32 0#32),
    StableHlo.unary main_c_107 main_v541 (broadcastInDim S400000 ![] bcast_S_S400000 : (⟨S_, .i32⟩ : BufTy).Contents (Elt F) → (⟨S400000, .i32⟩ : BufTy).Contents (Elt F)),
    StableHlo.binary main_v524 main_v541 main_v542 (cmpi .slt : (⟨S400000, .i32⟩ : BufTy).Contents (Elt F) → (⟨S400000, .i32⟩ : BufTy).Contents (Elt F) → (⟨S400000, .i1⟩ : BufTy).Contents (Elt F)),
    StableHlo.nullary main_c_108 (constantI S_ 32 50000#32),
    StableHlo.unary main_c_108 main_v543 (broadcastInDim S400000 ![] bcast_S_S400000 : (⟨S_, .i32⟩ : BufTy).Contents (Elt F) → (⟨S400000, .i32⟩ : BufTy).Contents (Elt F)),
    StableHlo.binary main_v524 main_v543 main_v544 (addi : (⟨S400000, .i32⟩ : BufTy).Contents (Elt F) → (⟨S400000, .i32⟩ : BufTy).Contents (Elt F) → (⟨S400000, .i32⟩ : BufTy).Contents (Elt F)),
    StableHlo.ternary main_v542 main_v544 main_v524 main_v545 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v545 main_v546 (broadcastInDim S400000x1 ![0] bcast_S400000_S400000x1_0 : (⟨S400000, .i32⟩ : BufTy).Contents (Elt F) → (⟨S400000x1, .i32⟩ : BufTy).Contents (Elt F)),
    StableHlo.binary main_v540 main_v546 main_v547 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    StableHlo.nullary main_cst_109 (constant S_ .f32 0x00000000#32) ]

theorem ck49_sub : (ck49 : List (HloOp τ sig (Elt F))).Forall fun op => op.bufs ⊆ tcRefs τ sig :=
  ⟨unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub ..⟩

theorem ck49_fresh : ∀ op ∈ (ck49 : List (HloOp τ sig (Elt F))), op.fresh = ∅ := by
  intro _ h; (repeat (cases h with | head => rfl | tail _ h => ?_)); exact nomatch h

/-- The lists of this stretch of statements, in order. -/
abbrev win10 : List (HloOp τ sig (Elt F)) := ck47 ++ (ck48 ++ (ck49))

theorem win10_sub : ∀ op ∈ (win10 : List (HloOp τ sig (Elt F))), op.bufs ⊆ tcRefs τ sig :=
  (forall_mem_append_of (List.forall_iff_forall_mem.1 ck47_sub) (forall_mem_append_of (List.forall_iff_forall_mem.1 ck48_sub) (List.forall_iff_forall_mem.1 ck49_sub)))

theorem win10_fresh : ∀ op ∈ (win10 : List (HloOp τ sig (Elt F))), op.fresh = ∅ :=
  (forall_mem_append_of ck47_fresh (forall_mem_append_of ck48_fresh ck49_fresh))

set_option maxRecDepth 8192 in
set_option maxHeartbeats 4000000 in
/-- The statements are exactly these operations, one after the other. -/
theorem part10_eq (c : Dev nD) : main_part10 (F := F) c = seq win10 := rfl

end Cert.RefHand

end
-- ==== Proof.Ref.Win11.lean ====
import proofs.«111407_j24215025614983_1_alg».proof.Proof.Gen.ReferenceIdeal
import proofs.«111407_j24215025614983_1_alg».proof.Proof.Ref.Basic

/-!
Statements 661 to 720 of the reference program's entry function, written as lists of host
operations (a called function's body is listed at its call, over that call's own buffers), and the fact that
running those statements is running the lists in order.
-/

noncomputable section

namespace Cert.RefHand

open Cert.ReferenceIdeal Cert.ReferenceIdeal.Gen Idealize.ShloMosaic Idealize.ShloMosaic.TcCoe Idealize.SL.Sem Idealize.ShloMosaic.StableHlo

variable {F : FTy → Type} [FloatOps F]

/-- Operations 722 to 731 of the program, in order. -/
abbrev ck50 : List (HloOp τ sig (Elt F)) :=
  [
    StableHlo.unary main_cst_109 main_v548 (broadcastInDim S50000x128 ![] bcast_S_S50000x128 : (⟨S_, .f32⟩ : BufTy).Contents (Elt F) → (⟨S50000x128, .f32⟩ : BufTy).Contents (Elt F)),
    StableHlo.unary main_v526 main_v549 (broadcastInDim S400000x1 ![0] bcast_S400000_S400000x1_0 : (⟨S400000, .i32⟩ : BufTy).Contents (Elt F) → (⟨S400000x1, .i32⟩ : BufTy).Contents (Elt F)),
    StableHlo.ternary main_v548 main_v549 main_v547 main_v550 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    StableHlo.unary main_v535 main_v551 (Host.rsqrt : (⟨S50000, .f32⟩ : BufTy).Contents (Elt F) → (⟨S50000, .f32⟩ : BufTy).Contents (Elt F)),
    StableHlo.unary main_v551 main_v552 (broadcastInDim S50000x1 ![0] bcast_S50000_S50000x1_0 : (⟨S50000, .f32⟩ : BufTy).Contents (Elt F) → (⟨S50000x1, .f32⟩ : BufTy).Contents (Elt F)),
    StableHlo.unary main_v552 main_v553 (broadcastInDim S50000x128 ![0, 1] bcast_S50000x1_S50000x128_0_1 : (⟨S50000x1, .f32⟩ : BufTy).Contents (Elt F) → (⟨S50000x128, .f32⟩ : BufTy).Contents (Elt F)),
    StableHlo.binary main_v550 main_v553 main_v554 (mulf : (⟨S50000x128, .f32⟩ : BufTy).Contents (Elt F) → (⟨S50000x128, .f32⟩ : BufTy).Contents (Elt F) → (⟨S50000x128, .f32⟩ : BufTy).Contents (Elt F)),
    StableHlo.unary main_v522 main_v555 (broadcastInDim S1x128 ![1] bcast_S128_S1x128_1 : (⟨S128, .f32⟩ : BufTy).Contents (Elt F) → (⟨S1x128, .f32⟩ : BufTy).Contents (Elt F)),
    StableHlo.unary main_v555 main_v556 (broadcastInDim S50000x128 ![0, 1] bcast_S1x128_S50000x128_0_1 : (⟨S1x128, .f32⟩ : BufTy).Contents (Elt F) → (⟨S50000x128, .f32⟩ : BufTy).Contents (Elt F)),
    StableHlo.binary main_v554 main_v556 main_v557 (addf : (⟨S50000x128, .f32⟩ : BufTy).Contents (Elt F) → (⟨S50000x128, .f32⟩ : BufTy).Contents (Elt F) → (⟨S50000x128, .f32⟩ : BufTy).Contents (Elt F)) ]

theorem ck50_sub : (ck50 : List (HloOp τ sig (Elt F))).Forall fun op => op.bufs ⊆ tcRefs τ sig :=
  ⟨unary_bufs_sub .., unary_bufs_sub .., ternary_bufs_sub .., unary_bufs_sub .., unary_bufs_sub .., unary_bufs_sub .., binary_bufs_sub .., unary_bufs_sub .., unary_bufs_sub .., binary_bufs_sub ..⟩

theorem ck50_fresh : ∀ op ∈ (ck50 : List (HloOp τ sig (Elt F))), op.fresh = ∅ := by
  intro _ h; (repeat (cases h with | head => rfl | tail _ h => ?_)); exact nomatch h

/-- Operations 732 to 732 of the program, in order. -/
abbrev ck51 : List (HloOp τ sig (Elt F)) :=
  [
    StableHlo.binary main_v518 main_v557 main_v558 (addf : (⟨S50000x128, .f32⟩ : BufTy).Contents (Elt F) → (⟨S50000x128, .f32⟩ : BufTy).Contents (Elt F) → (⟨S50000x128, .f32⟩ : BufTy).Contents (Elt F)) ]

theorem ck51_sub : (ck51 : List (HloOp τ sig (Elt F))).Forall fun op => op.bufs ⊆ tcRefs τ sig :=
  (binary_bufs_sub ..)

theorem ck51_fresh : ∀ op ∈ (ck51 : List (HloOp τ sig (Elt F))), op.fresh = ∅ := by
  intro _ h; (repeat (cases h with | head => rfl | tail _ h => ?_)); exact nomatch h

/-- Operations 733 to 758 of the program, in order. -/
abbrev ck52 : List (HloOp τ sig (Elt F)) :=
  [
    StableHlo.unary main_arg7 main_v559 ((extractStridedSlice S1x256x128 ![2, 0, 0] · slices_S4x256x128_S1x256x128_2_0_0) : (⟨S4x256x128, .f32⟩ : BufTy).Contents (Elt F) → (⟨S1x256x128, .f32⟩ : BufTy).Contents (Elt F)),
    StableHlo.reshape main_v559 main_v560 rfl shapeCasts_S1x256x128_S256x128,
    StableHlo.unary main_arg8 main_v561 ((extractStridedSlice S1x128 ![2, 0] · slices_S4x128_S1x128_2_0) : (⟨S4x128, .f32⟩ : BufTy).Contents (Elt F) → (⟨S1x128, .f32⟩ : BufTy).Contents (Elt F)),
    StableHlo.reshape main_v561 main_v562 rfl shapeCasts_S1x128_S128,
    StableHlo.unary main_arg9 main_v563 ((extractStridedSlice S1x400000 ![2, 0] · slices_S4x400000_S1x400000_2_0) : (⟨S4x400000, .i32⟩ : BufTy).Contents (Elt F) → (⟨S1x400000, .i32⟩ : BufTy).Contents (Elt F)),
    StableHlo.reshape main_v563 main_v564 rfl shapeCasts_S1x400000_S400000,
    StableHlo.unary main_arg10 main_v565 ((extractStridedSlice S1x400000 ![2, 0] · slices_S4x400000_S1x400000_2_0) : (⟨S4x400000, .i32⟩ : BufTy).Contents (Elt F) → (⟨S1x400000, .i32⟩ : BufTy).Contents (Elt F)),
    StableHlo.reshape main_v565 main_v566 rfl shapeCasts_S1x400000_S400000,
    StableHlo.nullary main_cst_110 (constant S_ .f32 0x3F800000#32),
    StableHlo.unary main_cst_110 main_v567 (broadcastInDim S400000 ![] bcast_S_S400000 : (⟨S_, .f32⟩ : BufTy).Contents (Elt F) → (⟨S400000, .f32⟩ : BufTy).Contents (Elt F)),
    StableHlo.nullary main_cst_111 (constant S_ .f32 0x00000000#32),
    StableHlo.unary main_cst_111 main_v568 (broadcastInDim S50000 ![] bcast_S_S50000 : (⟨S_, .f32⟩ : BufTy).Contents (Elt F) → (⟨S50000, .f32⟩ : BufTy).Contents (Elt F)),
    StableHlo.unary main_v564 main_v569 (broadcastInDim S400000x1 ![0] bcast_S400000_S400000x1_0 : (⟨S400000, .i32⟩ : BufTy).Contents (Elt F) → (⟨S400000x1, .i32⟩ : BufTy).Contents (Elt F)),
    StableHlo.ternary main_v568 main_v569 main_v567 main_v570 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_112 (constant S_ .f32 0x3F800000#32),
    StableHlo.TRef.unary (.of main_cst_112 : StableHlo.TRef sig ⟨S_, .f32⟩) (.of main_call31_v0 : StableHlo.TRef sig ⟨S_, .f32⟩) id,
    StableHlo.TRef.unary (.of main_call31_v0 : StableHlo.TRef sig ⟨S_, .f32⟩) (.of main_call31_v1 : StableHlo.TRef sig ⟨S50000, .f32⟩) (broadcastInDim S50000 ![] bcast_S_S50000),
    StableHlo.TRef.binary (.of main_call31_v1 : StableHlo.TRef sig ⟨S50000, .f32⟩) (.of main_v570 : StableHlo.TRef sig ⟨S50000, .f32⟩) (.of main_v571 : StableHlo.TRef sig ⟨S50000, .f32⟩) maximumf,
    StableHlo.nullary main_cst_113 (constant S_ .f32 0x00000000#32),
    StableHlo.unary main_cst_113 main_v572 (broadcastInDim S50000 ![] bcast_S_S50000 : (⟨S_, .f32⟩ : BufTy).Contents (Elt F) → (⟨S50000, .f32⟩ : BufTy).Contents (Elt F)),
    StableHlo.unary main_v566 main_v573 (broadcastInDim S400000x1 ![0] bcast_S400000_S400000x1_0 : (⟨S400000, .i32⟩ : BufTy).Contents (Elt F) → (⟨S400000x1, .i32⟩ : BufTy).Contents (Elt F)),
    StableHlo.ternary main_v572 main_v573 main_v567 main_v574 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_114 (constant S_ .f32 0x3F800000#32),
    StableHlo.TRef.unary (.of main_cst_114 : StableHlo.TRef sig ⟨S_, .f32⟩) (.of main_call32_v0 : StableHlo.TRef sig ⟨S_, .f32⟩) id,
    StableHlo.TRef.unary (.of main_call32_v0 : StableHlo.TRef sig ⟨S_, .f32⟩) (.of main_call32_v1 : StableHlo.TRef sig ⟨S50000, .f32⟩) (broadcastInDim S50000 ![] bcast_S_S50000),
    StableHlo.TRef.binary (.of main_call32_v1 : StableHlo.TRef sig ⟨S50000, .f32⟩) (.of main_v574 : StableHlo.TRef sig ⟨S50000, .f32⟩) (.of main_v575 : StableHlo.TRef sig ⟨S50000, .f32⟩) maximumf ]

theorem ck52_sub : (ck52 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., unary_bufs_sub .., ternary_bufs_sub .., nullary_bufs_sub .., unary_bufs_sub .., unary_bufs_sub .., binary_bufs_sub ..⟩

theorem ck52_fresh : ∀ op ∈ (ck52 : List (HloOp τ sig (Elt F))), op.fresh = ∅ := by
  intro _ h; (repeat (cases h with | head => rfl | tail _ h => ?_)); exact nomatch h

/-- Operations 759 to 783 of the program, in order. -/
abbrev ck53 : List (HloOp τ sig (Elt F)) :=
  [
    StableHlo.unary main_v571 main_v576 (Host.rsqrt : (⟨S50000, .f32⟩ : BufTy).Contents (Elt F) → (⟨S50000, .f32⟩ : BufTy).Contents (Elt F)),
    StableHlo.unary main_v576 main_v577 (broadcastInDim S50000x1 ![0] bcast_S50000_S50000x1_0 : (⟨S50000, .f32⟩ : BufTy).Contents (Elt F) → (⟨S50000x1, .f32⟩ : BufTy).Contents (Elt F)),
    StableHlo.unary main_v577 main_v578 (broadcastInDim S50000x256 ![0, 1] bcast_S50000x1_S50000x256_0_1 : (⟨S50000x1, .f32⟩ : BufTy).Contents (Elt F) → (⟨S50000x256, .f32⟩ : BufTy).Contents (Elt F)),
    StableHlo.binary main_v479 main_v578 main_v579 (mulf : (⟨S50000x256, .f32⟩ : BufTy).Contents (Elt F) → (⟨S50000x256, .f32⟩ : BufTy).Contents (Elt F) → (⟨S50000x256, .f32⟩ : BufTy).Contents (Elt F)),
    StableHlo.binary main_v579 main_v560 main_v580 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.nullary main_c_115 (constantI S_ 32 0#32),
    StableHlo.unary main_c_115 main_v581 (broadcastInDim S400000 ![] bcast_S_S400000 : (⟨S_, .i32⟩ : BufTy).Contents (Elt F) → (⟨S400000, .i32⟩ : BufTy).Contents (Elt F)),
    StableHlo.binary main_v564 main_v581 main_v582 (cmpi .slt : (⟨S400000, .i32⟩ : BufTy).Contents (Elt F) → (⟨S400000, .i32⟩ : BufTy).Contents (Elt F) → (⟨S400000, .i1⟩ : BufTy).Contents (Elt F)),
    StableHlo.nullary main_c_116 (constantI S_ 32 50000#32),
    StableHlo.unary main_c_116 main_v583 (broadcastInDim S400000 ![] bcast_S_S400000 : (⟨S_, .i32⟩ : BufTy).Contents (Elt F) → (⟨S400000, .i32⟩ : BufTy).Contents (Elt F)),
    StableHlo.binary main_v564 main_v583 main_v584 (addi : (⟨S400000, .i32⟩ : BufTy).Contents (Elt F) → (⟨S400000, .i32⟩ : BufTy).Contents (Elt F) → (⟨S400000, .i32⟩ : BufTy).Contents (Elt F)),
    StableHlo.ternary main_v582 main_v584 main_v564 main_v585 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v585 main_v586 (broadcastInDim S400000x1 ![0] bcast_S400000_S400000x1_0 : (⟨S400000, .i32⟩ : BufTy).Contents (Elt F) → (⟨S400000x1, .i32⟩ : BufTy).Contents (Elt F)),
    StableHlo.binary main_v580 main_v586 main_v587 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    StableHlo.nullary main_cst_117 (constant S_ .f32 0x00000000#32),
    StableHlo.unary main_cst_117 main_v588 (broadcastInDim S50000x128 ![] bcast_S_S50000x128 : (⟨S_, .f32⟩ : BufTy).Contents (Elt F) → (⟨S50000x128, .f32⟩ : BufTy).Contents (Elt F)),
    StableHlo.unary main_v566 main_v589 (broadcastInDim S400000x1 ![0] bcast_S400000_S400000x1_0 : (⟨S400000, .i32⟩ : BufTy).Contents (Elt F) → (⟨S400000x1, .i32⟩ : BufTy).Contents (Elt F)),
    StableHlo.ternary main_v588 main_v589 main_v587 main_v590 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    StableHlo.unary main_v575 main_v591 (Host.rsqrt : (⟨S50000, .f32⟩ : BufTy).Contents (Elt F) → (⟨S50000, .f32⟩ : BufTy).Contents (Elt F)),
    StableHlo.unary main_v591 main_v592 (broadcastInDim S50000x1 ![0] bcast_S50000_S50000x1_0 : (⟨S50000, .f32⟩ : BufTy).Contents (Elt F) → (⟨S50000x1, .f32⟩ : BufTy).Contents (Elt F)),
    StableHlo.unary main_v592 main_v593 (broadcastInDim S50000x128 ![0, 1] bcast_S50000x1_S50000x128_0_1 : (⟨S50000x1, .f32⟩ : BufTy).Contents (Elt F) → (⟨S50000x128, .f32⟩ : BufTy).Contents (Elt F)),
    StableHlo.binary main_v590 main_v593 main_v594 (mulf : (⟨S50000x128, .f32⟩ : BufTy).Contents (Elt F) → (⟨S50000x128, .f32⟩ : BufTy).Contents (Elt F) → (⟨S50000x128, .f32⟩ : BufTy).Contents (Elt F)),
    StableHlo.unary main_v562 main_v595 (broadcastInDim S1x128 ![1] bcast_S128_S1x128_1 : (⟨S128, .f32⟩ : BufTy).Contents (Elt F) → (⟨S1x128, .f32⟩ : BufTy).Contents (Elt F)),
    StableHlo.unary main_v595 main_v596 (broadcastInDim S50000x128 ![0, 1] bcast_S1x128_S50000x128_0_1 : (⟨S1x128, .f32⟩ : BufTy).Contents (Elt F) → (⟨S50000x128, .f32⟩ : BufTy).Contents (Elt F)),
    StableHlo.binary main_v594 main_v596 main_v597 (addf : (⟨S50000x128, .f32⟩ : BufTy).Contents (Elt F) → (⟨S50000x128, .f32⟩ : BufTy).Contents (Elt F) → (⟨S50000x128, .f32⟩ : BufTy).Contents (Elt F)) ]

theorem ck53_sub : (ck53 : List (HloOp τ sig (Elt F))).Forall fun op => op.bufs ⊆ tcRefs τ sig :=
  ⟨unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., unary_bufs_sub .., binary_bufs_sub .., unary_bufs_sub .., unary_bufs_sub .., binary_bufs_sub ..⟩

theorem ck53_fresh : ∀ op ∈ (ck53 : List (HloOp τ sig (Elt F))), op.fresh = ∅ := by
  intro _ h; (repeat (cases h with | head => rfl | tail _ h => ?_)); exact nomatch h

/-- Operations 784 to 784 of the program, in order. -/
abbrev ck54 : List (HloOp τ sig (Elt F)) :=
  [
    StableHlo.binary main_v558 main_v597 main_v598 (addf : (⟨S50000x128, .f32⟩ : BufTy).Contents (Elt F) → (⟨S50000x128, .f32⟩ : BufTy).Contents (Elt F) → (⟨S50000x128, .f32⟩ : BufTy).Contents (Elt F)) ]

theorem ck54_sub : (ck54 : List (HloOp τ sig (Elt F))).Forall fun op => op.bufs ⊆ tcRefs τ sig :=
  (binary_bufs_sub ..)

theorem ck54_fresh : ∀ op ∈ (ck54 : List (HloOp τ sig (Elt F))), op.fresh = ∅ := by
  intro _ h; (repeat (cases h with | head => rfl | tail _ h => ?_)); exact nomatch h

/-- Operations 785 to 785 of the program, in order. -/
abbrev ck55 : List (HloOp τ sig (Elt F)) :=
  [
    StableHlo.unary main_arg7 main_v599 ((extractStridedSlice S1x256x128 ![3, 0, 0] · slices_S4x256x128_S1x256x128_3_0_0) : (⟨S4x256x128, .f32⟩ : BufTy).Contents (Elt F) → (⟨S1x256x128, .f32⟩ : BufTy).Contents (Elt F)) ]

theorem ck55_sub : (ck55 : List (HloOp τ sig (Elt F))).Forall fun op => op.bufs ⊆ tcRefs τ sig :=
  (unary_bufs_sub ..)

theorem ck55_fresh : ∀ op ∈ (ck55 : List (HloOp τ sig (Elt F))), op.fresh = ∅ := by
  intro _ h; (repeat (cases h with | head => rfl | tail _ h => ?_)); exact nomatch h

/-- The lists of this stretch of statements, in order. -/
abbrev win11 : List (HloOp τ sig (Elt F)) := ck50 ++ (ck51 ++ (ck52 ++ (ck53 ++ (ck54 ++ (ck55)))))

theorem win11_sub : ∀ op ∈ (win11 : List (HloOp τ sig (Elt F))), op.bufs ⊆ tcRefs τ sig :=
  (forall_mem_append_of (List.forall_iff_forall_mem.1 ck50_sub) (forall_mem_append_of (List.forall_iff_forall_mem.1 ck51_sub) (forall_mem_append_of (List.forall_iff_forall_mem.1 ck52_sub) (forall_mem_append_of (List.forall_iff_forall_mem.1 ck53_sub) (forall_mem_append_of (List.forall_iff_forall_mem.1 ck54_sub) (List.forall_iff_forall_mem.1 ck55_sub))))))

theorem win11_fresh : ∀ op ∈ (win11 : List (HloOp τ sig (Elt F))), op.fresh = ∅ :=
  (forall_mem_append_of ck50_fresh (forall_mem_append_of ck51_fresh (forall_mem_append_of ck52_fresh (forall_mem_append_of ck53_fresh (forall_mem_append_of ck54_fresh ck55_fresh)))))

set_option maxRecDepth 8192 in
set_option maxHeartbeats 4000000 in
/-- The statements are exactly these operations, one after the other. -/
theorem part11_eq (c : Dev nD) : main_part11 (F := F) c = seq win11 := rfl

end Cert.RefHand

end
-- ==== Proof.Ref.Win12.lean ====
import proofs.«111407_j24215025614983_1_alg».proof.Proof.Gen.ReferenceIdeal
import proofs.«111407_j24215025614983_1_alg».proof.Proof.Ref.Basic

/-!
Statements 721 to 768 of the reference program's entry function, written as lists of host
operations (a called function's body is listed at its call, over that call's own buffers), and the fact that
running those statements is running the lists in order.
-/

noncomputable section

namespace Cert.RefHand

open Cert.ReferenceIdeal Cert.ReferenceIdeal.Gen Idealize.ShloMosaic Idealize.ShloMosaic.TcCoe Idealize.SL.Sem Idealize.ShloMosaic.StableHlo

variable {F : FTy → Type} [FloatOps F]

/-- Operations 786 to 810 of the program, in order. -/
abbrev ck56 : List (HloOp τ sig (Elt F)) :=
  [
    StableHlo.reshape main_v599 main_v600 rfl shapeCasts_S1x256x128_S256x128,
    StableHlo.unary main_arg8 main_v601 ((extractStridedSlice S1x128 ![3, 0] · slices_S4x128_S1x128_3_0) : (⟨S4x128, .f32⟩ : BufTy).Contents (Elt F) → (⟨S1x128, .f32⟩ : BufTy).Contents (Elt F)),
    StableHlo.reshape main_v601 main_v602 rfl shapeCasts_S1x128_S128,
    StableHlo.unary main_arg9 main_v603 ((extractStridedSlice S1x400000 ![3, 0] · slices_S4x400000_S1x400000_3_0) : (⟨S4x400000, .i32⟩ : BufTy).Contents (Elt F) → (⟨S1x400000, .i32⟩ : BufTy).Contents (Elt F)),
    StableHlo.reshape main_v603 main_v604 rfl shapeCasts_S1x400000_S400000,
    StableHlo.unary main_arg10 main_v605 ((extractStridedSlice S1x400000 ![3, 0] · slices_S4x400000_S1x400000_3_0) : (⟨S4x400000, .i32⟩ : BufTy).Contents (Elt F) → (⟨S1x400000, .i32⟩ : BufTy).Contents (Elt F)),
    StableHlo.reshape main_v605 main_v606 rfl shapeCasts_S1x400000_S400000,
    StableHlo.nullary main_cst_118 (constant S_ .f32 0x3F800000#32),
    StableHlo.unary main_cst_118 main_v607 (broadcastInDim S400000 ![] bcast_S_S400000 : (⟨S_, .f32⟩ : BufTy).Contents (Elt F) → (⟨S400000, .f32⟩ : BufTy).Contents (Elt F)),
    StableHlo.nullary main_cst_119 (constant S_ .f32 0x00000000#32),
    StableHlo.unary main_cst_119 main_v608 (broadcastInDim S50000 ![] bcast_S_S50000 : (⟨S_, .f32⟩ : BufTy).Contents (Elt F) → (⟨S50000, .f32⟩ : BufTy).Contents (Elt F)),
    StableHlo.unary main_v604 main_v609 (broadcastInDim S400000x1 ![0] bcast_S400000_S400000x1_0 : (⟨S400000, .i32⟩ : BufTy).Contents (Elt F) → (⟨S400000x1, .i32⟩ : BufTy).Contents (Elt F)),
    StableHlo.ternary main_v608 main_v609 main_v607 main_v610 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_120 (constant S_ .f32 0x3F800000#32),
    StableHlo.TRef.unary (.of main_cst_120 : StableHlo.TRef sig ⟨S_, .f32⟩) (.of main_call33_v0 : StableHlo.TRef sig ⟨S_, .f32⟩) id,
    StableHlo.TRef.unary (.of main_call33_v0 : StableHlo.TRef sig ⟨S_, .f32⟩) (.of main_call33_v1 : StableHlo.TRef sig ⟨S50000, .f32⟩) (broadcastInDim S50000 ![] bcast_S_S50000),
    StableHlo.TRef.binary (.of main_call33_v1 : StableHlo.TRef sig ⟨S50000, .f32⟩) (.of main_v610 : StableHlo.TRef sig ⟨S50000, .f32⟩) (.of main_v611 : StableHlo.TRef sig ⟨S50000, .f32⟩) maximumf,
    StableHlo.nullary main_cst_121 (constant S_ .f32 0x00000000#32),
    StableHlo.unary main_cst_121 main_v612 (broadcastInDim S50000 ![] bcast_S_S50000 : (⟨S_, .f32⟩ : BufTy).Contents (Elt F) → (⟨S50000, .f32⟩ : BufTy).Contents (Elt F)),
    StableHlo.unary main_v606 main_v613 (broadcastInDim S400000x1 ![0] bcast_S400000_S400000x1_0 : (⟨S400000, .i32⟩ : BufTy).Contents (Elt F) → (⟨S400000x1, .i32⟩ : BufTy).Contents (Elt F)),
    StableHlo.ternary main_v612 main_v613 main_v607 main_v614 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_122 (constant S_ .f32 0x3F800000#32),
    StableHlo.TRef.unary (.of main_cst_122 : StableHlo.TRef sig ⟨S_, .f32⟩) (.of main_call34_v0 : StableHlo.TRef sig ⟨S_, .f32⟩) id,
    StableHlo.TRef.unary (.of main_call34_v0 : StableHlo.TRef sig ⟨S_, .f32⟩) (.of main_call34_v1 : StableHlo.TRef sig ⟨S50000, .f32⟩) (broadcastInDim S50000 ![] bcast_S_S50000),
    StableHlo.TRef.binary (.of main_call34_v1 : StableHlo.TRef sig ⟨S50000, .f32⟩) (.of main_v614 : StableHlo.TRef sig ⟨S50000, .f32⟩) (.of main_v615 : StableHlo.TRef sig ⟨S50000, .f32⟩) maximumf ]

theorem ck56_sub : (ck56 : List (HloOp τ sig (Elt F))).Forall fun op => op.bufs ⊆ tcRefs τ sig :=
  ⟨reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., unary_bufs_sub .., ternary_bufs_sub .., nullary_bufs_sub .., unary_bufs_sub .., unary_bufs_sub .., binary_bufs_sub ..⟩

theorem ck56_fresh : ∀ op ∈ (ck56 : List (HloOp τ sig (Elt F))), op.fresh = ∅ := by
  intro _ h; (repeat (cases h with | head => rfl | tail _ h => ?_)); exact nomatch h

/-- Operations 811 to 835 of the program, in order. -/
abbrev ck57 : List (HloOp τ sig (Elt F)) :=
  [
    StableHlo.unary main_v611 main_v616 (Host.rsqrt : (⟨S50000, .f32⟩ : BufTy).Contents (Elt F) → (⟨S50000, .f32⟩ : BufTy).Contents (Elt F)),
    StableHlo.unary main_v616 main_v617 (broadcastInDim S50000x1 ![0] bcast_S50000_S50000x1_0 : (⟨S50000, .f32⟩ : BufTy).Contents (Elt F) → (⟨S50000x1, .f32⟩ : BufTy).Contents (Elt F)),
    StableHlo.unary main_v617 main_v618 (broadcastInDim S50000x256 ![0, 1] bcast_S50000x1_S50000x256_0_1 : (⟨S50000x1, .f32⟩ : BufTy).Contents (Elt F) → (⟨S50000x256, .f32⟩ : BufTy).Contents (Elt F)),
    StableHlo.binary main_v479 main_v618 main_v619 (mulf : (⟨S50000x256, .f32⟩ : BufTy).Contents (Elt F) → (⟨S50000x256, .f32⟩ : BufTy).Contents (Elt F) → (⟨S50000x256, .f32⟩ : BufTy).Contents (Elt F)),
    StableHlo.binary main_v619 main_v600 main_v620 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.nullary main_c_123 (constantI S_ 32 0#32),
    StableHlo.unary main_c_123 main_v621 (broadcastInDim S400000 ![] bcast_S_S400000 : (⟨S_, .i32⟩ : BufTy).Contents (Elt F) → (⟨S400000, .i32⟩ : BufTy).Contents (Elt F)),
    StableHlo.binary main_v604 main_v621 main_v622 (cmpi .slt : (⟨S400000, .i32⟩ : BufTy).Contents (Elt F) → (⟨S400000, .i32⟩ : BufTy).Contents (Elt F) → (⟨S400000, .i1⟩ : BufTy).Contents (Elt F)),
    StableHlo.nullary main_c_124 (constantI S_ 32 50000#32),
    StableHlo.unary main_c_124 main_v623 (broadcastInDim S400000 ![] bcast_S_S400000 : (⟨S_, .i32⟩ : BufTy).Contents (Elt F) → (⟨S400000, .i32⟩ : BufTy).Contents (Elt F)),
    StableHlo.binary main_v604 main_v623 main_v624 (addi : (⟨S400000, .i32⟩ : BufTy).Contents (Elt F) → (⟨S400000, .i32⟩ : BufTy).Contents (Elt F) → (⟨S400000, .i32⟩ : BufTy).Contents (Elt F)),
    StableHlo.ternary main_v622 main_v624 main_v604 main_v625 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v625 main_v626 (broadcastInDim S400000x1 ![0] bcast_S400000_S400000x1_0 : (⟨S400000, .i32⟩ : BufTy).Contents (Elt F) → (⟨S400000x1, .i32⟩ : BufTy).Contents (Elt F)),
    StableHlo.binary main_v620 main_v626 main_v627 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    StableHlo.nullary main_cst_125 (constant S_ .f32 0x00000000#32),
    StableHlo.unary main_cst_125 main_v628 (broadcastInDim S50000x128 ![] bcast_S_S50000x128 : (⟨S_, .f32⟩ : BufTy).Contents (Elt F) → (⟨S50000x128, .f32⟩ : BufTy).Contents (Elt F)),
    StableHlo.unary main_v606 main_v629 (broadcastInDim S400000x1 ![0] bcast_S400000_S400000x1_0 : (⟨S400000, .i32⟩ : BufTy).Contents (Elt F) → (⟨S400000x1, .i32⟩ : BufTy).Contents (Elt F)),
    StableHlo.ternary main_v628 main_v629 main_v627 main_v630 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    StableHlo.unary main_v615 main_v631 (Host.rsqrt : (⟨S50000, .f32⟩ : BufTy).Contents (Elt F) → (⟨S50000, .f32⟩ : BufTy).Contents (Elt F)),
    StableHlo.unary main_v631 main_v632 (broadcastInDim S50000x1 ![0] bcast_S50000_S50000x1_0 : (⟨S50000, .f32⟩ : BufTy).Contents (Elt F) → (⟨S50000x1, .f32⟩ : BufTy).Contents (Elt F)),
    StableHlo.unary main_v632 main_v633 (broadcastInDim S50000x128 ![0, 1] bcast_S50000x1_S50000x128_0_1 : (⟨S50000x1, .f32⟩ : BufTy).Contents (Elt F) → (⟨S50000x128, .f32⟩ : BufTy).Contents (Elt F)),
    StableHlo.binary main_v630 main_v633 main_v634 (mulf : (⟨S50000x128, .f32⟩ : BufTy).Contents (Elt F) → (⟨S50000x128, .f32⟩ : BufTy).Contents (Elt F) → (⟨S50000x128, .f32⟩ : BufTy).Contents (Elt F)),
    StableHlo.unary main_v602 main_v635 (broadcastInDim S1x128 ![1] bcast_S128_S1x128_1 : (⟨S128, .f32⟩ : BufTy).Contents (Elt F) → (⟨S1x128, .f32⟩ : BufTy).Contents (Elt F)),
    StableHlo.unary main_v635 main_v636 (broadcastInDim S50000x128 ![0, 1] bcast_S1x128_S50000x128_0_1 : (⟨S1x128, .f32⟩ : BufTy).Contents (Elt F) → (⟨S50000x128, .f32⟩ : BufTy).Contents (Elt F)),
    StableHlo.binary main_v634 main_v636 main_v637 (addf : (⟨S50000x128, .f32⟩ : BufTy).Contents (Elt F) → (⟨S50000x128, .f32⟩ : BufTy).Contents (Elt F) → (⟨S50000x128, .f32⟩ : BufTy).Contents (Elt F)) ]

theorem ck57_sub : (ck57 : List (HloOp τ sig (Elt F))).Forall fun op => op.bufs ⊆ tcRefs τ sig :=
  ⟨unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., unary_bufs_sub .., binary_bufs_sub .., unary_bufs_sub .., unary_bufs_sub .., binary_bufs_sub ..⟩

theorem ck57_fresh : ∀ op ∈ (ck57 : List (HloOp τ sig (Elt F))), op.fresh = ∅ := by
  intro _ h; (repeat (cases h with | head => rfl | tail _ h => ?_)); exact nomatch h

/-- Operations 836 to 836 of the program, in order. -/
abbrev ck58 : List (HloOp τ sig (Elt F)) :=
  [
    StableHlo.binary main_v598 main_v637 main_v638 (addf : (⟨S50000x128, .f32⟩ : BufTy).Contents (Elt F) → (⟨S50000x128, .f32⟩ : BufTy).Contents (Elt F) → (⟨S50000x128, .f32⟩ : BufTy).Contents (Elt F)) ]

theorem ck58_sub : (ck58 : List (HloOp τ sig (Elt F))).Forall fun op => op.bufs ⊆ tcRefs τ sig :=
  (binary_bufs_sub ..)

theorem ck58_fresh : ∀ op ∈ (ck58 : List (HloOp τ sig (Elt F))), op.fresh = ∅ := by
  intro _ h; (repeat (cases h with | head => rfl | tail _ h => ?_)); exact nomatch h

/-- The lists of this stretch of statements, in order. -/
abbrev win12 : List (HloOp τ sig (Elt F)) := ck56 ++ (ck57 ++ (ck58))

theorem win12_sub : ∀ op ∈ (win12 : List (HloOp τ sig (Elt F))), op.bufs ⊆ tcRefs τ sig :=
  (forall_mem_append_of (List.forall_iff_forall_mem.1 ck56_sub) (forall_mem_append_of (List.forall_iff_forall_mem.1 ck57_sub) (List.forall_iff_forall_mem.1 ck58_sub)))

theorem win12_fresh : ∀ op ∈ (win12 : List (HloOp τ sig (Elt F))), op.fresh = ∅ :=
  (forall_mem_append_of ck56_fresh (forall_mem_append_of ck57_fresh ck58_fresh))

set_option maxRecDepth 8192 in
set_option maxHeartbeats 4000000 in
/-- The statements are exactly these operations, one after the other. -/
theorem part12_eq (c : Dev nD) : main_part12 (F := F) c = seq win12 := rfl

end Cert.RefHand

end
-- ==== Proof.Ref.Main.lean ====
import proofs.«111407_j24215025614983_1_alg».proof.Proof.Ref.Win0
import proofs.«111407_j24215025614983_1_alg».proof.Proof.Ref.Win1
import proofs.«111407_j24215025614983_1_alg».proof.Proof.Ref.Win2
import proofs.«111407_j24215025614983_1_alg».proof.Proof.Ref.Win3
import proofs.«111407_j24215025614983_1_alg».proof.Proof.Ref.Win4
import proofs.«111407_j24215025614983_1_alg».proof.Proof.Ref.Win5
import proofs.«111407_j24215025614983_1_alg».proof.Proof.Ref.Win6
import proofs.«111407_j24215025614983_1_alg».proof.Proof.Ref.Win7
import proofs.«111407_j24215025614983_1_alg».proof.Proof.Ref.Win8
import proofs.«111407_j24215025614983_1_alg».proof.Proof.Ref.Win9
import proofs.«111407_j24215025614983_1_alg».proof.Proof.Ref.Win10
import proofs.«111407_j24215025614983_1_alg».proof.Proof.Ref.Win11
import proofs.«111407_j24215025614983_1_alg».proof.Proof.Ref.Win12

/-!
The reference program's entry function is one straight line of host operations: the thirteen stretches of statements
one after the other. Hence every weakly fair execution terminates with each buffer holding the fold of the operations'
results over the launch contents; and that fold is the stretches' folds composed in order.
-/

noncomputable section

namespace Cert.RefHand

open Cert.ReferenceIdeal Cert.ReferenceIdeal.Gen Idealize.ShloMosaic Idealize.ShloMosaic.TcCoe Idealize.SL.Sem Idealize.ShloMosaic.StableHlo

variable {F : FTy → Type} [FloatOps F]

/-- Every operation of the entry function, in order. -/
abbrev allOps : List (HloOp τ sig (Elt F)) := win0 ++ (win1 ++ (win2 ++ (win3 ++ (win4 ++ (win5 ++ (win6 ++ (win7 ++ (win8 ++ (win9 ++ (win10 ++ (win11 ++ (win12))))))))))))

theorem allOps_sub : ∀ op ∈ (allOps : List (HloOp τ sig (Elt F))), op.bufs ⊆ tcRefs τ sig :=
  (forall_mem_append_of win0_sub (forall_mem_append_of win1_sub (forall_mem_append_of win2_sub (forall_mem_append_of win3_sub (forall_mem_append_of win4_sub (forall_mem_append_of win5_sub (forall_mem_append_of win6_sub (forall_mem_append_of win7_sub (forall_mem_append_of win8_sub (forall_mem_append_of win9_sub (forall_mem_append_of win10_sub (forall_mem_append_of win11_sub win12_sub))))))))))))

theorem allOps_fresh : ∀ op ∈ (allOps : List (HloOp τ sig (Elt F))), op.fresh = ∅ :=
  (forall_mem_append_of win0_fresh (forall_mem_append_of win1_fresh (forall_mem_append_of win2_fresh (forall_mem_append_of win3_fresh (forall_mem_append_of win4_fresh (forall_mem_append_of win5_fresh (forall_mem_append_of win6_fresh (forall_mem_append_of win7_fresh (forall_mem_append_of win8_fresh (forall_mem_append_of win9_fresh (forall_mem_append_of win10_fresh (forall_mem_append_of win11_fresh win12_fresh))))))))))))

/-- Running the whole list is running the stretches in order. -/
theorem allOps_seq : (seq (allOps : List (HloOp τ sig (Elt F))) : Prog (TpuEff nD τ sig (Elt F) (Pipeline.Sig Λ₀ (Fin 0) fun p => (pcfgs (F := F) p).Adm) .tc) PUnit)
    = (seq win0 >>= fun _ => seq win1 >>= fun _ => seq win2 >>= fun _ => seq win3 >>= fun _ => seq win4 >>= fun _ => seq win5 >>= fun _ => seq win6 >>= fun _ => seq win7 >>= fun _ => seq win8 >>= fun _ => seq win9 >>= fun _ => seq win10 >>= fun _ => seq win11 >>= fun _ => seq win12) := by
  unfold allOps
  rw [seq_append win0, seq_append win1, seq_append win2, seq_append win3, seq_append win4, seq_append win5, seq_append win6, seq_append win7, seq_append win8, seq_append win9, seq_append win10, seq_append win11]

/-- The entry function is that straight line. -/
theorem main_eq (c : Dev nD) : main (F := F) c = seq allOps := by
  rw [allOps_seq]
  unfold main
  rw [part0_eq, part1_eq, part2_eq, part3_eq, part4_eq, part5_eq, part6_eq, part7_eq, part8_eq, part9_eq, part10_eq, part11_eq, part12_eq]

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of the entry
    function terminates with each buffer at the fold of the operations' results over the launch contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = after allOps (launchContents m d) (Proc.devRef .tc b) :=
  run_seq scopedRefs_eq scopedSems_eq defs main (fun _ => allOps) main_eq (fun _ => List.forall_iff_forall_mem.2 allOps_sub) m ρ
    (fun _ => allOps_fresh)

/-- The fold over the whole list is the lists' folds composed in order. -/
theorem after_allOps (V : Valuation τ sig (Elt F)) :
    after allOps V = after ck58 (after ck57 (after ck56 (after ck55 (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))))))))))) := by
  simp only [allOps, win0, win1, win2, win3, win4, win5, win6, win7, win8, win9, win10, win11, win12, StableHlo.after_append]

end Cert.RefHand

end
-- ==== Proof.SpecR.lean ====
import proofs.«111407_j24215025614983_1_alg».proof.Proof.Gen.ReferenceIdeal
import Idealize.ShloMosaic.PureOps.Ideal

/-!
The network as functions of whole arrays, written with this program's own printed operations.

Four relations r = 0..3 share one node set of 50000 nodes; relation r has 400000 edges, the edge k going from node
`src[r,k]` to node `dst[r,k]`. One layer maps node features h to

  sum over r of ( A_r ( (h * rsqrt(degOut_r)) W_r ) * rsqrt(degIn_r) + b_r ),

where `degOut_r` / `degIn_r` count the edges leaving / entering each node (at least 1), and `A_r` gathers the
rows of its operand at the edges' sources and adds each into the row of the edge's target. Four layers are
composed, with max(., 0) after the first three.

This file holds the pieces common to both programs: a row of an edge table, the degrees, the gather index with
negative entries wrapped, the aggregation `A_r`, and the bias laid out over all rows.
-/

noncomputable section

namespace Cert.RSpec

open Idealize.ShloMosaic Idealize.ShloMosaic.TcCoe Cert.ReferenceIdeal Cert.ReferenceIdeal.Gen

variable {F : FTy → Type} [FloatOps F]

/-- The constant-one weight of every edge. -/
def onesE : Vec F S400000 .f32 := broadcastInDim S400000 ![] bcast_S_S400000 (constant S_ .f32 0x3F800000#32)

/-- An edge vector as one column. -/
def col (v : Vec F S400000 .i32) : Vec F S400000x1 .i32 := (broadcastInDim S400000x1 ![0] bcast_S400000_S400000x1_0 : Vec F S400000 .i32 → Vec F S400000x1 .i32) v

/-- Row `r` of an edge table `[4, 400000]`. -/
def edgeRow (r : Fin 4) (t : Vec F S4x400000 .i32) : Vec F S400000 .i32 :=
  match r with
  | 0 => shapeCast S400000 (extractStridedSlice S1x400000 ![0, 0] t slices_S4x400000_S1x400000_0_0) shapeCasts_S1x400000_S400000
  | 1 => shapeCast S400000 (extractStridedSlice S1x400000 ![1, 0] t slices_S4x400000_S1x400000_1_0) shapeCasts_S1x400000_S400000
  | 2 => shapeCast S400000 (extractStridedSlice S1x400000 ![2, 0] t slices_S4x400000_S1x400000_2_0) shapeCasts_S1x400000_S400000
  | 3 => shapeCast S400000 (extractStridedSlice S1x400000 ![3, 0] t slices_S4x400000_S1x400000_3_0) shapeCasts_S1x400000_S400000

/-- The number of edges of an edge vector at each node, at least one: max(1, sum over the edges at that node of 1). -/
def degOf (e : Vec F S400000 .i32) : Vec F S50000 .f32 :=
  maximumf (broadcastInDim S50000 ![] bcast_S_S50000 (id (constant S_ .f32 0x3F800000#32)))
    (Host.scatterAdd scatter_S50000_S400000x1_S400000_n_0_0_1
      (broadcastInDim S50000 ![] bcast_S_S50000 (constant S_ .f32 0x00000000#32)) (col e) onesE)

/-- The gather index of an edge vector: a negative entry wrapped by 50000, as one column. -/
def wrapIdx (e : Vec F S400000 .i32) : Vec F S400000x1 .i32 :=
  col (select (cmpi .slt e (broadcastInDim S400000 ![] bcast_S_S400000 (constantI S_ 32 0#32)))
    (addi e (broadcastInDim S400000 ![] bcast_S_S400000 (constantI S_ 32 50000#32))) e)

/-- Aggregation over one relation's edges, 256 features: row `n` of the result is the sum, over the edges `k`
    with target `n`, of row `source k` of `hw`. -/
def agg256 (hw : Vec F S50000x256 .f32) (s d : Vec F S400000 .i32) : Vec F S50000x256 .f32 :=
  Host.scatterAdd scatter_S50000x256_S400000x1_S400000x256_1_0_0_1
    (broadcastInDim S50000x256 ![] bcast_S_S50000x256 (constant S_ .f32 0x00000000#32)) (col d)
    (Host.gather gather_S50000x256_S400000x1_S400000x256_1_0_n_n_0_1_1256 hw (wrapIdx s))

/-- The same with 128 features. -/
def agg128 (hw : Vec F S50000x128 .f32) (s d : Vec F S400000 .i32) : Vec F S50000x128 .f32 :=
  Host.scatterAdd scatter_S50000x128_S400000x1_S400000x128_1_0_0_1
    (broadcastInDim S50000x128 ![] bcast_S_S50000x128 (constant S_ .f32 0x00000000#32)) (col d)
    (Host.gather gather_S50000x128_S400000x1_S400000x128_1_0_n_n_0_1_1128 hw (wrapIdx s))

/-- Row `r` of a bias table `[4, 256]`, laid out over all 50000 rows. -/
def bias256 (r : Fin 4) (b : Vec F S4x256 .f32) : Vec F S50000x256 .f32 :=
  match r with
  | 0 => (broadcastInDim S50000x256 ![0, 1] bcast_S1x256_S50000x256_0_1 : Vec F S1x256 .f32 → Vec F S50000x256 .f32) ((broadcastInDim S1x256 ![1] bcast_S256_S1x256_1 : Vec F S256 .f32 → Vec F S1x256 .f32) (shapeCast S256 (extractStridedSlice S1x256 ![0, 0] b slices_S4x256_S1x256_0_0) shapeCasts_S1x256_S256))
  | 1 => (broadcastInDim S50000x256 ![0, 1] bcast_S1x256_S50000x256_0_1 : Vec F S1x256 .f32 → Vec F S50000x256 .f32) ((broadcastInDim S1x256 ![1] bcast_S256_S1x256_1 : Vec F S256 .f32 → Vec F S1x256 .f32) (shapeCast S256 (extractStridedSlice S1x256 ![1, 0] b slices_S4x256_S1x256_1_0) shapeCasts_S1x256_S256))
  | 2 => (broadcastInDim S50000x256 ![0, 1] bcast_S1x256_S50000x256_0_1 : Vec F S1x256 .f32 → Vec F S50000x256 .f32) ((broadcastInDim S1x256 ![1] bcast_S256_S1x256_1 : Vec F S256 .f32 → Vec F S1x256 .f32) (shapeCast S256 (extractStridedSlice S1x256 ![2, 0] b slices_S4x256_S1x256_2_0) shapeCasts_S1x256_S256))
  | 3 => (broadcastInDim S50000x256 ![0, 1] bcast_S1x256_S50000x256_0_1 : Vec F S1x256 .f32 → Vec F S50000x256 .f32) ((broadcastInDim S1x256 ![1] bcast_S256_S1x256_1 : Vec F S256 .f32 → Vec F S1x256 .f32) (shapeCast S256 (extractStridedSlice S1x256 ![3, 0] b slices_S4x256_S1x256_3_0) shapeCasts_S1x256_S256))

/-- Row `r` of a bias table `[4, 128]`, laid out over all 50000 rows. -/
def bias128 (r : Fin 4) (b : Vec F S4x128 .f32) : Vec F S50000x128 .f32 :=
  match r with
  | 0 => (broadcastInDim S50000x128 ![0, 1] bcast_S1x128_S50000x128_0_1 : Vec F S1x128 .f32 → Vec F S50000x128 .f32) ((broadcastInDim S1x128 ![1] bcast_S128_S1x128_1 : Vec F S128 .f32 → Vec F S1x128 .f32) (shapeCast S128 (extractStridedSlice S1x128 ![0, 0] b slices_S4x128_S1x128_0_0) shapeCasts_S1x128_S128))
  | 1 => (broadcastInDim S50000x128 ![0, 1] bcast_S1x128_S50000x128_0_1 : Vec F S1x128 .f32 → Vec F S50000x128 .f32) ((broadcastInDim S1x128 ![1] bcast_S128_S1x128_1 : Vec F S128 .f32 → Vec F S1x128 .f32) (shapeCast S128 (extractStridedSlice S1x128 ![1, 0] b slices_S4x128_S1x128_1_0) shapeCasts_S1x128_S128))
  | 2 => (broadcastInDim S50000x128 ![0, 1] bcast_S1x128_S50000x128_0_1 : Vec F S1x128 .f32 → Vec F S50000x128 .f32) ((broadcastInDim S1x128 ![1] bcast_S128_S1x128_1 : Vec F S128 .f32 → Vec F S1x128 .f32) (shapeCast S128 (extractStridedSlice S1x128 ![2, 0] b slices_S4x128_S1x128_2_0) shapeCasts_S1x128_S128))
  | 3 => (broadcastInDim S50000x128 ![0, 1] bcast_S1x128_S50000x128_0_1 : Vec F S1x128 .f32 → Vec F S50000x128 .f32) ((broadcastInDim S1x128 ![1] bcast_S128_S1x128_1 : Vec F S128 .f32 → Vec F S1x128 .f32) (shapeCast S128 (extractStridedSlice S1x128 ![3, 0] b slices_S4x128_S1x128_3_0) shapeCasts_S1x128_S128))

/-- max(., 0) on 256 features. -/
def relu256 (x : Vec F S50000x256 .f32) : Vec F S50000x256 .f32 :=
  maximumf x (broadcastInDim S50000x256 ![] bcast_S_S50000x256 (constant S_ .f32 0x00000000#32))

/-! ## The reference program's own arrangement

Each relation recomputes its two degree vectors, scales the features by rsqrt of the source degree before one
whole-array matrix product, and scales the aggregate by rsqrt of the target degree; the layer adds the four
relations' results left to right. -/

/-- rsqrt of an edge vector's degrees, laid out over 256 columns. -/
def scale256 (e : Vec F S400000 .i32) : Vec F S50000x256 .f32 :=
  (broadcastInDim S50000x256 ![0, 1] bcast_S50000x1_S50000x256_0_1 : Vec F S50000x1 .f32 → Vec F S50000x256 .f32)
    ((broadcastInDim S50000x1 ![0] bcast_S50000_S50000x1_0 : Vec F S50000 .f32 → Vec F S50000x1 .f32) (Host.rsqrt (degOf e)))

/-- rsqrt of an edge vector's degrees, laid out over 128 columns. -/
def scale128 (e : Vec F S400000 .i32) : Vec F S50000x128 .f32 :=
  (broadcastInDim S50000x128 ![0, 1] bcast_S50000x1_S50000x128_0_1 : Vec F S50000x1 .f32 → Vec F S50000x128 .f32)
    ((broadcastInDim S50000x1 ![0] bcast_S50000_S50000x1_0 : Vec F S50000 .f32 → Vec F S50000x1 .f32) (Host.rsqrt (degOf e)))

/-- Relation `r`'s weight matrix `[256, 256]`. -/
def wSlice256 (r : Fin 4) (W : Vec F S4x256x256 .f32) : Vec F S256x256 .f32 :=
  match r with
  | 0 => shapeCast S256x256 (extractStridedSlice S1x256x256 ![0, 0, 0] W slices_S4x256x256_S1x256x256_0_0_0) shapeCasts_S1x256x256_S256x256
  | 1 => shapeCast S256x256 (extractStridedSlice S1x256x256 ![1, 0, 0] W slices_S4x256x256_S1x256x256_1_0_0) shapeCasts_S1x256x256_S256x256
  | 2 => shapeCast S256x256 (extractStridedSlice S1x256x256 ![2, 0, 0] W slices_S4x256x256_S1x256x256_2_0_0) shapeCasts_S1x256x256_S256x256
  | 3 => shapeCast S256x256 (extractStridedSlice S1x256x256 ![3, 0, 0] W slices_S4x256x256_S1x256x256_3_0_0) shapeCasts_S1x256x256_S256x256

/-- Relation `r`'s weight matrix `[256, 128]`. -/
def wSlice128 (r : Fin 4) (W : Vec F S4x256x128 .f32) : Vec F S256x128 .f32 :=
  match r with
  | 0 => shapeCast S256x128 (extractStridedSlice S1x256x128 ![0, 0, 0] W slices_S4x256x128_S1x256x128_0_0_0) shapeCasts_S1x256x128_S256x128
  | 1 => shapeCast S256x128 (extractStridedSlice S1x256x128 ![1, 0, 0] W slices_S4x256x128_S1x256x128_1_0_0) shapeCasts_S1x256x128_S256x128
  | 2 => shapeCast S256x128 (extractStridedSlice S1x256x128 ![2, 0, 0] W slices_S4x256x128_S1x256x128_2_0_0) shapeCasts_S1x256x128_S256x128
  | 3 => shapeCast S256x128 (extractStridedSlice S1x256x128 ![3, 0, 0] W slices_S4x256x128_S1x256x128_3_0_0) shapeCasts_S1x256x128_S256x128

/-- Relation `r`'s projected features: (h * rsqrt(degOut_r)) W_r. -/
def hw256 (r : Fin 4) (h : Vec F S50000x256 .f32) (W : Vec F S4x256x256 .f32) (s : Vec F S4x400000 .i32) : Vec F S50000x256 .f32 :=
  Host.dotGeneral dot_S50000x256_S256x256_S50000x256_1_0_0_1_n_n none (mulf h (scale256 (edgeRow r s))) (wSlice256 r W)

def hw128 (r : Fin 4) (h : Vec F S50000x256 .f32) (W : Vec F S4x256x128 .f32) (s : Vec F S4x400000 .i32) : Vec F S50000x128 .f32 :=
  Host.dotGeneral dot_S50000x256_S256x128_S50000x128_1_0_0_1_n_n none (mulf h (scale256 (edgeRow r s))) (wSlice128 r W)

/-- Relation `r`'s graph convolution: A_r(hw_r) * rsqrt(degIn_r) + b_r. -/
def conv256 (r : Fin 4) (h : Vec F S50000x256 .f32) (W : Vec F S4x256x256 .f32) (b : Vec F S4x256 .f32)
    (s d : Vec F S4x400000 .i32) : Vec F S50000x256 .f32 :=
  addf (mulf (agg256 (hw256 r h W s) (edgeRow r s) (edgeRow r d)) (scale256 (edgeRow r d))) (bias256 r b)

def conv128 (r : Fin 4) (h : Vec F S50000x256 .f32) (W : Vec F S4x256x128 .f32) (b : Vec F S4x128 .f32)
    (s d : Vec F S4x400000 .i32) : Vec F S50000x128 .f32 :=
  addf (mulf (agg128 (hw128 r h W s) (edgeRow r s) (edgeRow r d)) (scale128 (edgeRow r d))) (bias128 r b)

/-- One layer of the reference program: the four relations' convolutions added left to right. -/
def layer256 (h : Vec F S50000x256 .f32) (W : Vec F S4x256x256 .f32) (b : Vec F S4x256 .f32) (s d : Vec F S4x400000 .i32) :
    Vec F S50000x256 .f32 :=
  addf (addf (addf (conv256 0 h W b s d) (conv256 1 h W b s d)) (conv256 2 h W b s d)) (conv256 3 h W b s d)

def layer128 (h : Vec F S50000x256 .f32) (W : Vec F S4x256x128 .f32) (b : Vec F S4x128 .f32) (s d : Vec F S4x400000 .i32) :
    Vec F S50000x128 .f32 :=
  addf (addf (addf (conv128 0 h W b s d) (conv128 1 h W b s d)) (conv128 2 h W b s d)) (conv128 3 h W b s d)

/-- The reference program's result. -/
def net (x : Vec F S50000x256 .f32) (W1 : Vec F S4x256x256 .f32) (b1 : Vec F S4x256 .f32)
    (W2 : Vec F S4x256x256 .f32) (b2 : Vec F S4x256 .f32) (W3 : Vec F S4x256x256 .f32) (b3 : Vec F S4x256 .f32)
    (W4 : Vec F S4x256x128 .f32) (b4 : Vec F S4x128 .f32) (s d : Vec F S4x400000 .i32) : Vec F S50000x128 .f32 :=
  layer128 (relu256 (layer256 (relu256 (layer256 (relu256 (layer256 x W1 b1 s d)) W2 b2 s d)) W3 b3 s d)) W4 b4 s d

end Cert.RSpec

end
-- ==== Proof.Ref.Rel00.lean ====
import proofs.«111407_j24215025614983_1_alg».proof.Proof.Ref.Win0
import proofs.«111407_j24215025614983_1_alg».proof.Proof.SpecR

/-!
Relation 0 of layer 1 in the reference program: operations 0 to 50. From any buffer contents, after these
operations the relation's result buffer holds the relation's graph convolution of the layer's input features, weights,
bias and the two edge tables, and the buffers that are read later keep their contents.
-/

noncomputable section

namespace Cert.RefHand

open Cert.ReferenceIdeal Cert.ReferenceIdeal.Gen Idealize.ShloMosaic Idealize.ShloMosaic.TcCoe Idealize.SL.Sem Idealize.ShloMosaic.StableHlo

open Cert.RSpec
set_option maxRecDepth 8192
set_option maxHeartbeats 4000000

variable {F : FTy → Type} [FloatOps F]

/-- The relation's result: the fold of the operations' results read at the result buffer is the convolution, term for term. -/
theorem rel00_read (W : Valuation τ sig (Elt F)) :
    after ck1 (after ck0 (W)) (main_v38 : DevRef τ sig)
      = conv256 0 (W (main_arg0 : DevRef τ sig)) (W (main_arg1 : DevRef τ sig)) (W (main_arg2 : DevRef τ sig)) (W (main_arg9 : DevRef τ sig)) (W (main_arg10 : DevRef τ sig)) := by
  after_results_simp
  rfl

/-- None of these operations writes this buffer. -/
theorem rel00_keep_arg0 (W : Valuation τ sig (Elt F)) :
    after ck1 (after ck0 (W)) (main_arg0 : DevRef τ sig) = W (main_arg0 : DevRef τ sig) := by
  after_results_simp

/-- None of these operations writes this buffer. -/
theorem rel00_keep_arg1 (W : Valuation τ sig (Elt F)) :
    after ck1 (after ck0 (W)) (main_arg1 : DevRef τ sig) = W (main_arg1 : DevRef τ sig) := by
  after_results_simp

/-- None of these operations writes this buffer. -/
theorem rel00_keep_arg2 (W : Valuation τ sig (Elt F)) :
    after ck1 (after ck0 (W)) (main_arg2 : DevRef τ sig) = W (main_arg2 : DevRef τ sig) := by
  after_results_simp

/-- None of these operations writes this buffer. -/
theorem rel00_keep_arg3 (W : Valuation τ sig (Elt F)) :
    after ck1 (after ck0 (W)) (main_arg3 : DevRef τ sig) = W (main_arg3 : DevRef τ sig) := by
  after_results_simp

/-- None of these operations writes this buffer. -/
theorem rel00_keep_arg4 (W : Valuation τ sig (Elt F)) :
    after ck1 (after ck0 (W)) (main_arg4 : DevRef τ sig) = W (main_arg4 : DevRef τ sig) := by
  after_results_simp

/-- None of these operations writes this buffer. -/
theorem rel00_keep_arg5 (W : Valuation τ sig (Elt F)) :
    after ck1 (after ck0 (W)) (main_arg5 : DevRef τ sig) = W (main_arg5 : DevRef τ sig) := by
  after_results_simp

/-- None of these operations writes this buffer. -/
theorem rel00_keep_arg6 (W : Valuation τ sig (Elt F)) :
    after ck1 (after ck0 (W)) (main_arg6 : DevRef τ sig) = W (main_arg6 : DevRef τ sig) := by
  after_results_simp

/-- None of these operations writes this buffer. -/
theorem rel00_keep_arg7 (W : Valuation τ sig (Elt F)) :
    after ck1 (after ck0 (W)) (main_arg7 : DevRef τ sig) = W (main_arg7 : DevRef τ sig) := by
  after_results_simp

/-- None of these operations writes this buffer. -/
theorem rel00_keep_arg8 (W : Valuation τ sig (Elt F)) :
    after ck1 (after ck0 (W)) (main_arg8 : DevRef τ sig) = W (main_arg8 : DevRef τ sig) := by
  after_results_simp

/-- None of these operations writes this buffer. -/
theorem rel00_keep_arg9 (W : Valuation τ sig (Elt F)) :
    after ck1 (after ck0 (W)) (main_arg9 : DevRef τ sig) = W (main_arg9 : DevRef τ sig) := by
  after_results_simp

/-- None of these operations writes this buffer. -/
theorem rel00_keep_arg10 (W : Valuation τ sig (Elt F)) :
    after ck1 (after ck0 (W)) (main_arg10 : DevRef τ sig) = W (main_arg10 : DevRef τ sig) := by
  after_results_simp

end Cert.RefHand

end
-- ==== Proof.Ref.Rel01.lean ====
import proofs.«111407_j24215025614983_1_alg».proof.Proof.Ref.Win0
import proofs.«111407_j24215025614983_1_alg».proof.Proof.Ref.Win1
import proofs.«111407_j24215025614983_1_alg».proof.Proof.SpecR

/-!
Relation 1 of layer 1 in the reference program: operations 51 to 101. From any buffer contents, after these
operations the relation's result buffer holds the relation's graph convolution of the layer's input features, weights,
bias and the two edge tables, and the buffers that are read later keep their contents.
-/

noncomputable section

namespace Cert.RefHand

open Cert.ReferenceIdeal Cert.ReferenceIdeal.Gen Idealize.ShloMosaic Idealize.ShloMosaic.TcCoe Idealize.SL.Sem Idealize.ShloMosaic.StableHlo

open Cert.RSpec
set_option maxRecDepth 8192
set_option maxHeartbeats 4000000

variable {F : FTy → Type} [FloatOps F]

/-- The relation's result: the fold of the operations' results read at the result buffer is the convolution, term for term. -/
theorem rel01_read (W : Valuation τ sig (Elt F)) :
    after ck4 (after ck3 (after ck2 (W))) (main_v77 : DevRef τ sig)
      = conv256 1 (W (main_arg0 : DevRef τ sig)) (W (main_arg1 : DevRef τ sig)) (W (main_arg2 : DevRef τ sig)) (W (main_arg9 : DevRef τ sig)) (W (main_arg10 : DevRef τ sig)) := by
  after_results_simp
  rfl

/-- None of these operations writes this buffer. -/
theorem rel01_keep_v38 (W : Valuation τ sig (Elt F)) :
    after ck4 (after ck3 (after ck2 (W))) (main_v38 : DevRef τ sig) = W (main_v38 : DevRef τ sig) := by
  after_results_simp

/-- None of these operations writes this buffer. -/
theorem rel01_keep_arg0 (W : Valuation τ sig (Elt F)) :
    after ck4 (after ck3 (after ck2 (W))) (main_arg0 : DevRef τ sig) = W (main_arg0 : DevRef τ sig) := by
  after_results_simp

/-- None of these operations writes this buffer. -/
theorem rel01_keep_arg1 (W : Valuation τ sig (Elt F)) :
    after ck4 (after ck3 (after ck2 (W))) (main_arg1 : DevRef τ sig) = W (main_arg1 : DevRef τ sig) := by
  after_results_simp

/-- None of these operations writes this buffer. -/
theorem rel01_keep_arg2 (W : Valuation τ sig (Elt F)) :
    after ck4 (after ck3 (after ck2 (W))) (main_arg2 : DevRef τ sig) = W (main_arg2 : DevRef τ sig) := by
  after_results_simp

/-- None of these operations writes this buffer. -/
theorem rel01_keep_arg3 (W : Valuation τ sig (Elt F)) :
    after ck4 (after ck3 (after ck2 (W))) (main_arg3 : DevRef τ sig) = W (main_arg3 : DevRef τ sig) := by
  after_results_simp

/-- None of these operations writes this buffer. -/
theorem rel01_keep_arg4 (W : Valuation τ sig (Elt F)) :
    after ck4 (after ck3 (after ck2 (W))) (main_arg4 : DevRef τ sig) = W (main_arg4 : DevRef τ sig) := by
  after_results_simp

/-- None of these operations writes this buffer. -/
theorem rel01_keep_arg5 (W : Valuation τ sig (Elt F)) :
    after ck4 (after ck3 (after ck2 (W))) (main_arg5 : DevRef τ sig) = W (main_arg5 : DevRef τ sig) := by
  after_results_simp

/-- None of these operations writes this buffer. -/
theorem rel01_keep_arg6 (W : Valuation τ sig (Elt F)) :
    after ck4 (after ck3 (after ck2 (W))) (main_arg6 : DevRef τ sig) = W (main_arg6 : DevRef τ sig) := by
  after_results_simp

/-- None of these operations writes this buffer. -/
theorem rel01_keep_arg7 (W : Valuation τ sig (Elt F)) :
    after ck4 (after ck3 (after ck2 (W))) (main_arg7 : DevRef τ sig) = W (main_arg7 : DevRef τ sig) := by
  after_results_simp

/-- None of these operations writes this buffer. -/
theorem rel01_keep_arg8 (W : Valuation τ sig (Elt F)) :
    after ck4 (after ck3 (after ck2 (W))) (main_arg8 : DevRef τ sig) = W (main_arg8 : DevRef τ sig) := by
  after_results_simp

/-- None of these operations writes this buffer. -/
theorem rel01_keep_arg9 (W : Valuation τ sig (Elt F)) :
    after ck4 (after ck3 (after ck2 (W))) (main_arg9 : DevRef τ sig) = W (main_arg9 : DevRef τ sig) := by
  after_results_simp

/-- None of these operations writes this buffer. -/
theorem rel01_keep_arg10 (W : Valuation τ sig (Elt F)) :
    after ck4 (after ck3 (after ck2 (W))) (main_arg10 : DevRef τ sig) = W (main_arg10 : DevRef τ sig) := by
  after_results_simp

end Cert.RefHand

end
-- ==== Proof.Ref.Rel02.lean ====
import proofs.«111407_j24215025614983_1_alg».proof.Proof.Ref.Win1
import proofs.«111407_j24215025614983_1_alg».proof.Proof.Ref.Win2
import proofs.«111407_j24215025614983_1_alg».proof.Proof.SpecR

/-!
Relation 2 of layer 1 in the reference program: operations 103 to 153. From any buffer contents, after these
operations the relation's result buffer holds the relation's graph convolution of the layer's input features, weights,
bias and the two edge tables, and the buffers that are read later keep their contents.
-/

noncomputable section

namespace Cert.RefHand

open Cert.ReferenceIdeal Cert.ReferenceIdeal.Gen Idealize.ShloMosaic Idealize.ShloMosaic.TcCoe Idealize.SL.Sem Idealize.ShloMosaic.StableHlo

open Cert.RSpec
set_option maxRecDepth 8192
set_option maxHeartbeats 4000000

variable {F : FTy → Type} [FloatOps F]

/-- The relation's result: the fold of the operations' results read at the result buffer is the convolution, term for term. -/
theorem rel02_read (W : Valuation τ sig (Elt F)) :
    after ck8 (after ck7 (after ck6 (W))) (main_v117 : DevRef τ sig)
      = conv256 2 (W (main_arg0 : DevRef τ sig)) (W (main_arg1 : DevRef τ sig)) (W (main_arg2 : DevRef τ sig)) (W (main_arg9 : DevRef τ sig)) (W (main_arg10 : DevRef τ sig)) := by
  after_results_simp
  rfl

/-- None of these operations writes this buffer. -/
theorem rel02_keep_v78 (W : Valuation τ sig (Elt F)) :
    after ck8 (after ck7 (after ck6 (W))) (main_v78 : DevRef τ sig) = W (main_v78 : DevRef τ sig) := by
  after_results_simp

/-- None of these operations writes this buffer. -/
theorem rel02_keep_arg0 (W : Valuation τ sig (Elt F)) :
    after ck8 (after ck7 (after ck6 (W))) (main_arg0 : DevRef τ sig) = W (main_arg0 : DevRef τ sig) := by
  after_results_simp

/-- None of these operations writes this buffer. -/
theorem rel02_keep_arg1 (W : Valuation τ sig (Elt F)) :
    after ck8 (after ck7 (after ck6 (W))) (main_arg1 : DevRef τ sig) = W (main_arg1 : DevRef τ sig) := by
  after_results_simp

/-- None of these operations writes this buffer. -/
theorem rel02_keep_arg2 (W : Valuation τ sig (Elt F)) :
    after ck8 (after ck7 (after ck6 (W))) (main_arg2 : DevRef τ sig) = W (main_arg2 : DevRef τ sig) := by
  after_results_simp

/-- None of these operations writes this buffer. -/
theorem rel02_keep_arg3 (W : Valuation τ sig (Elt F)) :
    after ck8 (after ck7 (after ck6 (W))) (main_arg3 : DevRef τ sig) = W (main_arg3 : DevRef τ sig) := by
  after_results_simp

/-- None of these operations writes this buffer. -/
theorem rel02_keep_arg4 (W : Valuation τ sig (Elt F)) :
    after ck8 (after ck7 (after ck6 (W))) (main_arg4 : DevRef τ sig) = W (main_arg4 : DevRef τ sig) := by
  after_results_simp

/-- None of these operations writes this buffer. -/
theorem rel02_keep_arg5 (W : Valuation τ sig (Elt F)) :
    after ck8 (after ck7 (after ck6 (W))) (main_arg5 : DevRef τ sig) = W (main_arg5 : DevRef τ sig) := by
  after_results_simp

/-- None of these operations writes this buffer. -/
theorem rel02_keep_arg6 (W : Valuation τ sig (Elt F)) :
    after ck8 (after ck7 (after ck6 (W))) (main_arg6 : DevRef τ sig) = W (main_arg6 : DevRef τ sig) := by
  after_results_simp

/-- None of these operations writes this buffer. -/
theorem rel02_keep_arg7 (W : Valuation τ sig (Elt F)) :
    after ck8 (after ck7 (after ck6 (W))) (main_arg7 : DevRef τ sig) = W (main_arg7 : DevRef τ sig) := by
  after_results_simp

/-- None of these operations writes this buffer. -/
theorem rel02_keep_arg8 (W : Valuation τ sig (Elt F)) :
    after ck8 (after ck7 (after ck6 (W))) (main_arg8 : DevRef τ sig) = W (main_arg8 : DevRef τ sig) := by
  after_results_simp

/-- None of these operations writes this buffer. -/
theorem rel02_keep_arg9 (W : Valuation τ sig (Elt F)) :
    after ck8 (after ck7 (after ck6 (W))) (main_arg9 : DevRef τ sig) = W (main_arg9 : DevRef τ sig) := by
  after_results_simp

/-- None of these operations writes this buffer. -/
theorem rel02_keep_arg10 (W : Valuation τ sig (Elt F)) :
    after ck8 (after ck7 (after ck6 (W))) (main_arg10 : DevRef τ sig) = W (main_arg10 : DevRef τ sig) := by
  after_results_simp

end Cert.RefHand

end
-- ==== Proof.Ref.Rel03.lean ====
import proofs.«111407_j24215025614983_1_alg».proof.Proof.Ref.Win2
import proofs.«111407_j24215025614983_1_alg».proof.Proof.Ref.Win3
import proofs.«111407_j24215025614983_1_alg».proof.Proof.SpecR

/-!
Relation 3 of layer 1 in the reference program: operations 155 to 205. From any buffer contents, after these
operations the relation's result buffer holds the relation's graph convolution of the layer's input features, weights,
bias and the two edge tables, and the buffers that are read later keep their contents.
-/

noncomputable section

namespace Cert.RefHand

open Cert.ReferenceIdeal Cert.ReferenceIdeal.Gen Idealize.ShloMosaic Idealize.ShloMosaic.TcCoe Idealize.SL.Sem Idealize.ShloMosaic.StableHlo

open Cert.RSpec
set_option maxRecDepth 8192
set_option maxHeartbeats 4000000

variable {F : FTy → Type} [FloatOps F]

/-- The relation's result: the fold of the operations' results read at the result buffer is the convolution, term for term. -/
theorem rel03_read (W : Valuation τ sig (Elt F)) :
    after ck12 (after ck11 (after ck10 (W))) (main_v157 : DevRef τ sig)
      = conv256 3 (W (main_arg0 : DevRef τ sig)) (W (main_arg1 : DevRef τ sig)) (W (main_arg2 : DevRef τ sig)) (W (main_arg9 : DevRef τ sig)) (W (main_arg10 : DevRef τ sig)) := by
  after_results_simp
  rfl

/-- None of these operations writes this buffer. -/
theorem rel03_keep_v118 (W : Valuation τ sig (Elt F)) :
    after ck12 (after ck11 (after ck10 (W))) (main_v118 : DevRef τ sig) = W (main_v118 : DevRef τ sig) := by
  after_results_simp

/-- None of these operations writes this buffer. -/
theorem rel03_keep_arg0 (W : Valuation τ sig (Elt F)) :
    after ck12 (after ck11 (after ck10 (W))) (main_arg0 : DevRef τ sig) = W (main_arg0 : DevRef τ sig) := by
  after_results_simp

/-- None of these operations writes this buffer. -/
theorem rel03_keep_arg1 (W : Valuation τ sig (Elt F)) :
    after ck12 (after ck11 (after ck10 (W))) (main_arg1 : DevRef τ sig) = W (main_arg1 : DevRef τ sig) := by
  after_results_simp

/-- None of these operations writes this buffer. -/
theorem rel03_keep_arg2 (W : Valuation τ sig (Elt F)) :
    after ck12 (after ck11 (after ck10 (W))) (main_arg2 : DevRef τ sig) = W (main_arg2 : DevRef τ sig) := by
  after_results_simp

/-- None of these operations writes this buffer. -/
theorem rel03_keep_arg3 (W : Valuation τ sig (Elt F)) :
    after ck12 (after ck11 (after ck10 (W))) (main_arg3 : DevRef τ sig) = W (main_arg3 : DevRef τ sig) := by
  after_results_simp

/-- None of these operations writes this buffer. -/
theorem rel03_keep_arg4 (W : Valuation τ sig (Elt F)) :
    after ck12 (after ck11 (after ck10 (W))) (main_arg4 : DevRef τ sig) = W (main_arg4 : DevRef τ sig) := by
  after_results_simp

/-- None of these operations writes this buffer. -/
theorem rel03_keep_arg5 (W : Valuation τ sig (Elt F)) :
    after ck12 (after ck11 (after ck10 (W))) (main_arg5 : DevRef τ sig) = W (main_arg5 : DevRef τ sig) := by
  after_results_simp

/-- None of these operations writes this buffer. -/
theorem rel03_keep_arg6 (W : Valuation τ sig (Elt F)) :
    after ck12 (after ck11 (after ck10 (W))) (main_arg6 : DevRef τ sig) = W (main_arg6 : DevRef τ sig) := by
  after_results_simp

/-- None of these operations writes this buffer. -/
theorem rel03_keep_arg7 (W : Valuation τ sig (Elt F)) :
    after ck12 (after ck11 (after ck10 (W))) (main_arg7 : DevRef τ sig) = W (main_arg7 : DevRef τ sig) := by
  after_results_simp

/-- None of these operations writes this buffer. -/
theorem rel03_keep_arg8 (W : Valuation τ sig (Elt F)) :
    after ck12 (after ck11 (after ck10 (W))) (main_arg8 : DevRef τ sig) = W (main_arg8 : DevRef τ sig) := by
  after_results_simp

/-- None of these operations writes this buffer. -/
theorem rel03_keep_arg9 (W : Valuation τ sig (Elt F)) :
    after ck12 (after ck11 (after ck10 (W))) (main_arg9 : DevRef τ sig) = W (main_arg9 : DevRef τ sig) := by
  after_results_simp

/-- None of these operations writes this buffer. -/
theorem rel03_keep_arg10 (W : Valuation τ sig (Elt F)) :
    after ck12 (after ck11 (after ck10 (W))) (main_arg10 : DevRef τ sig) = W (main_arg10 : DevRef τ sig) := by
  after_results_simp

end Cert.RefHand

end
-- ==== Proof.Ref.Rel10.lean ====
import proofs.«111407_j24215025614983_1_alg».proof.Proof.Ref.Win3
import proofs.«111407_j24215025614983_1_alg».proof.Proof.SpecR

/-!
Relation 0 of layer 2 in the reference program: operations 210 to 260. From any buffer contents, after these
operations the relation's result buffer holds the relation's graph convolution of the layer's input features, weights,
bias and the two edge tables, and the buffers that are read later keep their contents.
-/

noncomputable section

namespace Cert.RefHand

open Cert.ReferenceIdeal Cert.ReferenceIdeal.Gen Idealize.ShloMosaic Idealize.ShloMosaic.TcCoe Idealize.SL.Sem Idealize.ShloMosaic.StableHlo

open Cert.RSpec
set_option maxRecDepth 8192
set_option maxHeartbeats 4000000

variable {F : FTy → Type} [FloatOps F]

/-- The relation's result: the fold of the operations' results read at the result buffer is the convolution, term for term. -/
theorem rel10_read (W : Valuation τ sig (Elt F)) :
    after ck16 (after ck15 (W)) (main_v198 : DevRef τ sig)
      = conv256 0 (W (main_v159 : DevRef τ sig)) (W (main_arg3 : DevRef τ sig)) (W (main_arg4 : DevRef τ sig)) (W (main_arg9 : DevRef τ sig)) (W (main_arg10 : DevRef τ sig)) := by
  after_results_simp
  rfl

/-- None of these operations writes this buffer. -/
theorem rel10_keep_v159 (W : Valuation τ sig (Elt F)) :
    after ck16 (after ck15 (W)) (main_v159 : DevRef τ sig) = W (main_v159 : DevRef τ sig) := by
  after_results_simp

/-- None of these operations writes this buffer. -/
theorem rel10_keep_arg0 (W : Valuation τ sig (Elt F)) :
    after ck16 (after ck15 (W)) (main_arg0 : DevRef τ sig) = W (main_arg0 : DevRef τ sig) := by
  after_results_simp

/-- None of these operations writes this buffer. -/
theorem rel10_keep_arg1 (W : Valuation τ sig (Elt F)) :
    after ck16 (after ck15 (W)) (main_arg1 : DevRef τ sig) = W (main_arg1 : DevRef τ sig) := by
  after_results_simp

/-- None of these operations writes this buffer. -/
theorem rel10_keep_arg2 (W : Valuation τ sig (Elt F)) :
    after ck16 (after ck15 (W)) (main_arg2 : DevRef τ sig) = W (main_arg2 : DevRef τ sig) := by
  after_results_simp

/-- None of these operations writes this buffer. -/
theorem rel10_keep_arg3 (W : Valuation τ sig (Elt F)) :
    after ck16 (after ck15 (W)) (main_arg3 : DevRef τ sig) = W (main_arg3 : DevRef τ sig) := by
  after_results_simp

/-- None of these operations writes this buffer. -/
theorem rel10_keep_arg4 (W : Valuation τ sig (Elt F)) :
    after ck16 (after ck15 (W)) (main_arg4 : DevRef τ sig) = W (main_arg4 : DevRef τ sig) := by
  after_results_simp

/-- None of these operations writes this buffer. -/
theorem rel10_keep_arg5 (W : Valuation τ sig (Elt F)) :
    after ck16 (after ck15 (W)) (main_arg5 : DevRef τ sig) = W (main_arg5 : DevRef τ sig) := by
  after_results_simp

/-- None of these operations writes this buffer. -/
theorem rel10_keep_arg6 (W : Valuation τ sig (Elt F)) :
    after ck16 (after ck15 (W)) (main_arg6 : DevRef τ sig) = W (main_arg6 : DevRef τ sig) := by
  after_results_simp

/-- None of these operations writes this buffer. -/
theorem rel10_keep_arg7 (W : Valuation τ sig (Elt F)) :
    after ck16 (after ck15 (W)) (main_arg7 : DevRef τ sig) = W (main_arg7 : DevRef τ sig) := by
  after_results_simp

/-- None of these operations writes this buffer. -/
theorem rel10_keep_arg8 (W : Valuation τ sig (Elt F)) :
    after ck16 (after ck15 (W)) (main_arg8 : DevRef τ sig) = W (main_arg8 : DevRef τ sig) := by
  after_results_simp

/-- None of these operations writes this buffer. -/
theorem rel10_keep_arg9 (W : Valuation τ sig (Elt F)) :
    after ck16 (after ck15 (W)) (main_arg9 : DevRef τ sig) = W (main_arg9 : DevRef τ sig) := by
  after_results_simp

/-- None of these operations writes this buffer. -/
theorem rel10_keep_arg10 (W : Valuation τ sig (Elt F)) :
    after ck16 (after ck15 (W)) (main_arg10 : DevRef τ sig) = W (main_arg10 : DevRef τ sig) := by
  after_results_simp

end Cert.RefHand

end
-- ==== Proof.Ref.Rel11.lean ====
import proofs.«111407_j24215025614983_1_alg».proof.Proof.Ref.Win3
import proofs.«111407_j24215025614983_1_alg».proof.Proof.Ref.Win4
import proofs.«111407_j24215025614983_1_alg».proof.Proof.SpecR

/-!
Relation 1 of layer 2 in the reference program: operations 261 to 311. From any buffer contents, after these
operations the relation's result buffer holds the relation's graph convolution of the layer's input features, weights,
bias and the two edge tables, and the buffers that are read later keep their contents.
-/

noncomputable section

namespace Cert.RefHand

open Cert.ReferenceIdeal Cert.ReferenceIdeal.Gen Idealize.ShloMosaic Idealize.ShloMosaic.TcCoe Idealize.SL.Sem Idealize.ShloMosaic.StableHlo

open Cert.RSpec
set_option maxRecDepth 8192
set_option maxHeartbeats 4000000

variable {F : FTy → Type} [FloatOps F]

/-- The relation's result: the fold of the operations' results read at the result buffer is the convolution, term for term. -/
theorem rel11_read (W : Valuation τ sig (Elt F)) :
    after ck19 (after ck18 (after ck17 (W))) (main_v237 : DevRef τ sig)
      = conv256 1 (W (main_v159 : DevRef τ sig)) (W (main_arg3 : DevRef τ sig)) (W (main_arg4 : DevRef τ sig)) (W (main_arg9 : DevRef τ sig)) (W (main_arg10 : DevRef τ sig)) := by
  after_results_simp
  rfl

/-- None of these operations writes this buffer. -/
theorem rel11_keep_v159 (W : Valuation τ sig (Elt F)) :
    after ck19 (after ck18 (after ck17 (W))) (main_v159 : DevRef τ sig) = W (main_v159 : DevRef τ sig) := by
  after_results_simp

/-- None of these operations writes this buffer. -/
theorem rel11_keep_v198 (W : Valuation τ sig (Elt F)) :
    after ck19 (after ck18 (after ck17 (W))) (main_v198 : DevRef τ sig) = W (main_v198 : DevRef τ sig) := by
  after_results_simp

/-- None of these operations writes this buffer. -/
theorem rel11_keep_arg0 (W : Valuation τ sig (Elt F)) :
    after ck19 (after ck18 (after ck17 (W))) (main_arg0 : DevRef τ sig) = W (main_arg0 : DevRef τ sig) := by
  after_results_simp

/-- None of these operations writes this buffer. -/
theorem rel11_keep_arg1 (W : Valuation τ sig (Elt F)) :
    after ck19 (after ck18 (after ck17 (W))) (main_arg1 : DevRef τ sig) = W (main_arg1 : DevRef τ sig) := by
  after_results_simp

/-- None of these operations writes this buffer. -/
theorem rel11_keep_arg2 (W : Valuation τ sig (Elt F)) :
    after ck19 (after ck18 (after ck17 (W))) (main_arg2 : DevRef τ sig) = W (main_arg2 : DevRef τ sig) := by
  after_results_simp

/-- None of these operations writes this buffer. -/
theorem rel11_keep_arg3 (W : Valuation τ sig (Elt F)) :
    after ck19 (after ck18 (after ck17 (W))) (main_arg3 : DevRef τ sig) = W (main_arg3 : DevRef τ sig) := by
  after_results_simp

/-- None of these operations writes this buffer. -/
theorem rel11_keep_arg4 (W : Valuation τ sig (Elt F)) :
    after ck19 (after ck18 (after ck17 (W))) (main_arg4 : DevRef τ sig) = W (main_arg4 : DevRef τ sig) := by
  after_results_simp

/-- None of these operations writes this buffer. -/
theorem rel11_keep_arg5 (W : Valuation τ sig (Elt F)) :
    after ck19 (after ck18 (after ck17 (W))) (main_arg5 : DevRef τ sig) = W (main_arg5 : DevRef τ sig) := by
  after_results_simp

/-- None of these operations writes this buffer. -/
theorem rel11_keep_arg6 (W : Valuation τ sig (Elt F)) :
    after ck19 (after ck18 (after ck17 (W))) (main_arg6 : DevRef τ sig) = W (main_arg6 : DevRef τ sig) := by
  after_results_simp

/-- None of these operations writes this buffer. -/
theorem rel11_keep_arg7 (W : Valuation τ sig (Elt F)) :
    after ck19 (after ck18 (after ck17 (W))) (main_arg7 : DevRef τ sig) = W (main_arg7 : DevRef τ sig) := by
  after_results_simp

/-- None of these operations writes this buffer. -/
theorem rel11_keep_arg8 (W : Valuation τ sig (Elt F)) :
    after ck19 (after ck18 (after ck17 (W))) (main_arg8 : DevRef τ sig) = W (main_arg8 : DevRef τ sig) := by
  after_results_simp

/-- None of these operations writes this buffer. -/
theorem rel11_keep_arg9 (W : Valuation τ sig (Elt F)) :
    after ck19 (after ck18 (after ck17 (W))) (main_arg9 : DevRef τ sig) = W (main_arg9 : DevRef τ sig) := by
  after_results_simp

/-- None of these operations writes this buffer. -/
theorem rel11_keep_arg10 (W : Valuation τ sig (Elt F)) :
    after ck19 (after ck18 (after ck17 (W))) (main_arg10 : DevRef τ sig) = W (main_arg10 : DevRef τ sig) := by
  after_results_simp

end Cert.RefHand

end
-- ==== Proof.Ref.Rel12.lean ====
import proofs.«111407_j24215025614983_1_alg».proof.Proof.Ref.Win4
import proofs.«111407_j24215025614983_1_alg».proof.Proof.Ref.Win5
import proofs.«111407_j24215025614983_1_alg».proof.Proof.SpecR

/-!
Relation 2 of layer 2 in the reference program: operations 313 to 363. From any buffer contents, after these
operations the relation's result buffer holds the relation's graph convolution of the layer's input features, weights,
bias and the two edge tables, and the buffers that are read later keep their contents.
-/

noncomputable section

namespace Cert.RefHand

open Cert.ReferenceIdeal Cert.ReferenceIdeal.Gen Idealize.ShloMosaic Idealize.ShloMosaic.TcCoe Idealize.SL.Sem Idealize.ShloMosaic.StableHlo

open Cert.RSpec
set_option maxRecDepth 8192
set_option maxHeartbeats 4000000

variable {F : FTy → Type} [FloatOps F]

/-- The relation's result: the fold of the operations' results read at the result buffer is the convolution, term for term. -/
theorem rel12_read (W : Valuation τ sig (Elt F)) :
    after ck23 (after ck22 (after ck21 (W))) (main_v277 : DevRef τ sig)
      = conv256 2 (W (main_v159 : DevRef τ sig)) (W (main_arg3 : DevRef τ sig)) (W (main_arg4 : DevRef τ sig)) (W (main_arg9 : DevRef τ sig)) (W (main_arg10 : DevRef τ sig)) := by
  after_results_simp
  rfl

/-- None of these operations writes this buffer. -/
theorem rel12_keep_v159 (W : Valuation τ sig (Elt F)) :
    after ck23 (after ck22 (after ck21 (W))) (main_v159 : DevRef τ sig) = W (main_v159 : DevRef τ sig) := by
  after_results_simp

/-- None of these operations writes this buffer. -/
theorem rel12_keep_v238 (W : Valuation τ sig (Elt F)) :
    after ck23 (after ck22 (after ck21 (W))) (main_v238 : DevRef τ sig) = W (main_v238 : DevRef τ sig) := by
  after_results_simp

/-- None of these operations writes this buffer. -/
theorem rel12_keep_arg0 (W : Valuation τ sig (Elt F)) :
    after ck23 (after ck22 (after ck21 (W))) (main_arg0 : DevRef τ sig) = W (main_arg0 : DevRef τ sig) := by
  after_results_simp

/-- None of these operations writes this buffer. -/
theorem rel12_keep_arg1 (W : Valuation τ sig (Elt F)) :
    after ck23 (after ck22 (after ck21 (W))) (main_arg1 : DevRef τ sig) = W (main_arg1 : DevRef τ sig) := by
  after_results_simp

/-- None of these operations writes this buffer. -/
theorem rel12_keep_arg2 (W : Valuation τ sig (Elt F)) :
    after ck23 (after ck22 (after ck21 (W))) (main_arg2 : DevRef τ sig) = W (main_arg2 : DevRef τ sig) := by
  after_results_simp

/-- None of these operations writes this buffer. -/
theorem rel12_keep_arg3 (W : Valuation τ sig (Elt F)) :
    after ck23 (after ck22 (after ck21 (W))) (main_arg3 : DevRef τ sig) = W (main_arg3 : DevRef τ sig) := by
  after_results_simp

/-- None of these operations writes this buffer. -/
theorem rel12_keep_arg4 (W : Valuation τ sig (Elt F)) :
    after ck23 (after ck22 (after ck21 (W))) (main_arg4 : DevRef τ sig) = W (main_arg4 : DevRef τ sig) := by
  after_results_simp

/-- None of these operations writes this buffer. -/
theorem rel12_keep_arg5 (W : Valuation τ sig (Elt F)) :
    after ck23 (after ck22 (after ck21 (W))) (main_arg5 : DevRef τ sig) = W (main_arg5 : DevRef τ sig) := by
  after_results_simp

/-- None of these operations writes this buffer. -/
theorem rel12_keep_arg6 (W : Valuation τ sig (Elt F)) :
    after ck23 (after ck22 (after ck21 (W))) (main_arg6 : DevRef τ sig) = W (main_arg6 : DevRef τ sig) := by
  after_results_simp

/-- None of these operations writes this buffer. -/
theorem rel12_keep_arg7 (W : Valuation τ sig (Elt F)) :
    after ck23 (after ck22 (after ck21 (W))) (main_arg7 : DevRef τ sig) = W (main_arg7 : DevRef τ sig) := by
  after_results_simp

/-- None of these operations writes this buffer. -/
theorem rel12_keep_arg8 (W : Valuation τ sig (Elt F)) :
    after ck23 (after ck22 (after ck21 (W))) (main_arg8 : DevRef τ sig) = W (main_arg8 : DevRef τ sig) := by
  after_results_simp

/-- None of these operations writes this buffer. -/
theorem rel12_keep_arg9 (W : Valuation τ sig (Elt F)) :
    after ck23 (after ck22 (after ck21 (W))) (main_arg9 : DevRef τ sig) = W (main_arg9 : DevRef τ sig) := by
  after_results_simp

/-- None of these operations writes this buffer. -/
theorem rel12_keep_arg10 (W : Valuation τ sig (Elt F)) :
    after ck23 (after ck22 (after ck21 (W))) (main_arg10 : DevRef τ sig) = W (main_arg10 : DevRef τ sig) := by
  after_results_simp

end Cert.RefHand

end
-- ==== Proof.Ref.Rel13.lean ====
import proofs.«111407_j24215025614983_1_alg».proof.Proof.Ref.Win5
import proofs.«111407_j24215025614983_1_alg».proof.Proof.Ref.Win6
import proofs.«111407_j24215025614983_1_alg».proof.Proof.SpecR

/-!
Relation 3 of layer 2 in the reference program: operations 365 to 415. From any buffer contents, after these
operations the relation's result buffer holds the relation's graph convolution of the layer's input features, weights,
bias and the two edge tables, and the buffers that are read later keep their contents.
-/

noncomputable section

namespace Cert.RefHand

open Cert.ReferenceIdeal Cert.ReferenceIdeal.Gen Idealize.ShloMosaic Idealize.ShloMosaic.TcCoe Idealize.SL.Sem Idealize.ShloMosaic.StableHlo

open Cert.RSpec
set_option maxRecDepth 8192
set_option maxHeartbeats 4000000

variable {F : FTy → Type} [FloatOps F]

/-- The relation's result: the fold of the operations' results read at the result buffer is the convolution, term for term. -/
theorem rel13_read (W : Valuation τ sig (Elt F)) :
    after ck27 (after ck26 (after ck25 (W))) (main_v317 : DevRef τ sig)
      = conv256 3 (W (main_v159 : DevRef τ sig)) (W (main_arg3 : DevRef τ sig)) (W (main_arg4 : DevRef τ sig)) (W (main_arg9 : DevRef τ sig)) (W (main_arg10 : DevRef τ sig)) := by
  after_results_simp
  rfl

/-- None of these operations writes this buffer. -/
theorem rel13_keep_v278 (W : Valuation τ sig (Elt F)) :
    after ck27 (after ck26 (after ck25 (W))) (main_v278 : DevRef τ sig) = W (main_v278 : DevRef τ sig) := by
  after_results_simp

/-- None of these operations writes this buffer. -/
theorem rel13_keep_arg0 (W : Valuation τ sig (Elt F)) :
    after ck27 (after ck26 (after ck25 (W))) (main_arg0 : DevRef τ sig) = W (main_arg0 : DevRef τ sig) := by
  after_results_simp

/-- None of these operations writes this buffer. -/
theorem rel13_keep_arg1 (W : Valuation τ sig (Elt F)) :
    after ck27 (after ck26 (after ck25 (W))) (main_arg1 : DevRef τ sig) = W (main_arg1 : DevRef τ sig) := by
  after_results_simp

/-- None of these operations writes this buffer. -/
theorem rel13_keep_arg2 (W : Valuation τ sig (Elt F)) :
    after ck27 (after ck26 (after ck25 (W))) (main_arg2 : DevRef τ sig) = W (main_arg2 : DevRef τ sig) := by
  after_results_simp

/-- None of these operations writes this buffer. -/
theorem rel13_keep_arg3 (W : Valuation τ sig (Elt F)) :
    after ck27 (after ck26 (after ck25 (W))) (main_arg3 : DevRef τ sig) = W (main_arg3 : DevRef τ sig) := by
  after_results_simp

/-- None of these operations writes this buffer. -/
theorem rel13_keep_arg4 (W : Valuation τ sig (Elt F)) :
    after ck27 (after ck26 (after ck25 (W))) (main_arg4 : DevRef τ sig) = W (main_arg4 : DevRef τ sig) := by
  after_results_simp

/-- None of these operations writes this buffer. -/
theorem rel13_keep_arg5 (W : Valuation τ sig (Elt F)) :
    after ck27 (after ck26 (after ck25 (W))) (main_arg5 : DevRef τ sig) = W (main_arg5 : DevRef τ sig) := by
  after_results_simp

/-- None of these operations writes this buffer. -/
theorem rel13_keep_arg6 (W : Valuation τ sig (Elt F)) :
    after ck27 (after ck26 (after ck25 (W))) (main_arg6 : DevRef τ sig) = W (main_arg6 : DevRef τ sig) := by
  after_results_simp

/-- None of these operations writes this buffer. -/
theorem rel13_keep_arg7 (W : Valuation τ sig (Elt F)) :
    after ck27 (after ck26 (after ck25 (W))) (main_arg7 : DevRef τ sig) = W (main_arg7 : DevRef τ sig) := by
  after_results_simp

/-- None of these operations writes this buffer. -/
theorem rel13_keep_arg8 (W : Valuation τ sig (Elt F)) :
    after ck27 (after ck26 (after ck25 (W))) (main_arg8 : DevRef τ sig) = W (main_arg8 : DevRef τ sig) := by
  after_results_simp

/-- None of these operations writes this buffer. -/
theorem rel13_keep_arg9 (W : Valuation τ sig (Elt F)) :
    after ck27 (after ck26 (after ck25 (W))) (main_arg9 : DevRef τ sig) = W (main_arg9 : DevRef τ sig) := by
  after_results_simp

/-- None of these operations writes this buffer. -/
theorem rel13_keep_arg10 (W : Valuation τ sig (Elt F)) :
    after ck27 (after ck26 (after ck25 (W))) (main_arg10 : DevRef τ sig) = W (main_arg10 : DevRef τ sig) := by
  after_results_simp

end Cert.RefHand

end
-- ==== Proof.Ref.Rel20.lean ====
import proofs.«111407_j24215025614983_1_alg».proof.Proof.Ref.Win6
import proofs.«111407_j24215025614983_1_alg».proof.Proof.Ref.Win7
import proofs.«111407_j24215025614983_1_alg».proof.Proof.SpecR

/-!
Relation 0 of layer 3 in the reference program: operations 420 to 470. From any buffer contents, after these
operations the relation's result buffer holds the relation's graph convolution of the layer's input features, weights,
bias and the two edge tables, and the buffers that are read later keep their contents.
-/

noncomputable section

namespace Cert.RefHand

open Cert.ReferenceIdeal Cert.ReferenceIdeal.Gen Idealize.ShloMosaic Idealize.ShloMosaic.TcCoe Idealize.SL.Sem Idealize.ShloMosaic.StableHlo

open Cert.RSpec
set_option maxRecDepth 8192
set_option maxHeartbeats 4000000

variable {F : FTy → Type} [FloatOps F]

/-- The relation's result: the fold of the operations' results read at the result buffer is the convolution, term for term. -/
theorem rel20_read (W : Valuation τ sig (Elt F)) :
    after ck32 (after ck31 (after ck30 (W))) (main_v358 : DevRef τ sig)
      = conv256 0 (W (main_v319 : DevRef τ sig)) (W (main_arg5 : DevRef τ sig)) (W (main_arg6 : DevRef τ sig)) (W (main_arg9 : DevRef τ sig)) (W (main_arg10 : DevRef τ sig)) := by
  after_results_simp
  rfl

/-- None of these operations writes this buffer. -/
theorem rel20_keep_v319 (W : Valuation τ sig (Elt F)) :
    after ck32 (after ck31 (after ck30 (W))) (main_v319 : DevRef τ sig) = W (main_v319 : DevRef τ sig) := by
  after_results_simp

/-- None of these operations writes this buffer. -/
theorem rel20_keep_arg0 (W : Valuation τ sig (Elt F)) :
    after ck32 (after ck31 (after ck30 (W))) (main_arg0 : DevRef τ sig) = W (main_arg0 : DevRef τ sig) := by
  after_results_simp

/-- None of these operations writes this buffer. -/
theorem rel20_keep_arg1 (W : Valuation τ sig (Elt F)) :
    after ck32 (after ck31 (after ck30 (W))) (main_arg1 : DevRef τ sig) = W (main_arg1 : DevRef τ sig) := by
  after_results_simp

/-- None of these operations writes this buffer. -/
theorem rel20_keep_arg2 (W : Valuation τ sig (Elt F)) :
    after ck32 (after ck31 (after ck30 (W))) (main_arg2 : DevRef τ sig) = W (main_arg2 : DevRef τ sig) := by
  after_results_simp

/-- None of these operations writes this buffer. -/
theorem rel20_keep_arg3 (W : Valuation τ sig (Elt F)) :
    after ck32 (after ck31 (after ck30 (W))) (main_arg3 : DevRef τ sig) = W (main_arg3 : DevRef τ sig) := by
  after_results_simp

/-- None of these operations writes this buffer. -/
theorem rel20_keep_arg4 (W : Valuation τ sig (Elt F)) :
    after ck32 (after ck31 (after ck30 (W))) (main_arg4 : DevRef τ sig) = W (main_arg4 : DevRef τ sig) := by
  after_results_simp

/-- None of these operations writes this buffer. -/
theorem rel20_keep_arg5 (W : Valuation τ sig (Elt F)) :
    after ck32 (after ck31 (after ck30 (W))) (main_arg5 : DevRef τ sig) = W (main_arg5 : DevRef τ sig) := by
  after_results_simp

/-- None of these operations writes this buffer. -/
theorem rel20_keep_arg6 (W : Valuation τ sig (Elt F)) :
    after ck32 (after ck31 (after ck30 (W))) (main_arg6 : DevRef τ sig) = W (main_arg6 : DevRef τ sig) := by
  after_results_simp

/-- None of these operations writes this buffer. -/
theorem rel20_keep_arg7 (W : Valuation τ sig (Elt F)) :
    after ck32 (after ck31 (after ck30 (W))) (main_arg7 : DevRef τ sig) = W (main_arg7 : DevRef τ sig) := by
  after_results_simp

/-- None of these operations writes this buffer. -/
theorem rel20_keep_arg8 (W : Valuation τ sig (Elt F)) :
    after ck32 (after ck31 (after ck30 (W))) (main_arg8 : DevRef τ sig) = W (main_arg8 : DevRef τ sig) := by
  after_results_simp

/-- None of these operations writes this buffer. -/
theorem rel20_keep_arg9 (W : Valuation τ sig (Elt F)) :
    after ck32 (after ck31 (after ck30 (W))) (main_arg9 : DevRef τ sig) = W (main_arg9 : DevRef τ sig) := by
  after_results_simp

/-- None of these operations writes this buffer. -/
theorem rel20_keep_arg10 (W : Valuation τ sig (Elt F)) :
    after ck32 (after ck31 (after ck30 (W))) (main_arg10 : DevRef τ sig) = W (main_arg10 : DevRef τ sig) := by
  after_results_simp

end Cert.RefHand

end
-- ==== Proof.Ref.Rel21.lean ====
import proofs.«111407_j24215025614983_1_alg».proof.Proof.Ref.Win7
import proofs.«111407_j24215025614983_1_alg».proof.Proof.SpecR

/-!
Relation 1 of layer 3 in the reference program: operations 471 to 521. From any buffer contents, after these
operations the relation's result buffer holds the relation's graph convolution of the layer's input features, weights,
bias and the two edge tables, and the buffers that are read later keep their contents.
-/

noncomputable section

namespace Cert.RefHand

open Cert.ReferenceIdeal Cert.ReferenceIdeal.Gen Idealize.ShloMosaic Idealize.ShloMosaic.TcCoe Idealize.SL.Sem Idealize.ShloMosaic.StableHlo

open Cert.RSpec
set_option maxRecDepth 8192
set_option maxHeartbeats 4000000

variable {F : FTy → Type} [FloatOps F]

/-- The relation's result: the fold of the operations' results read at the result buffer is the convolution, term for term. -/
theorem rel21_read (W : Valuation τ sig (Elt F)) :
    after ck34 (after ck33 (W)) (main_v397 : DevRef τ sig)
      = conv256 1 (W (main_v319 : DevRef τ sig)) (W (main_arg5 : DevRef τ sig)) (W (main_arg6 : DevRef τ sig)) (W (main_arg9 : DevRef τ sig)) (W (main_arg10 : DevRef τ sig)) := by
  after_results_simp
  rfl

/-- None of these operations writes this buffer. -/
theorem rel21_keep_v319 (W : Valuation τ sig (Elt F)) :
    after ck34 (after ck33 (W)) (main_v319 : DevRef τ sig) = W (main_v319 : DevRef τ sig) := by
  after_results_simp

/-- None of these operations writes this buffer. -/
theorem rel21_keep_v358 (W : Valuation τ sig (Elt F)) :
    after ck34 (after ck33 (W)) (main_v358 : DevRef τ sig) = W (main_v358 : DevRef τ sig) := by
  after_results_simp

/-- None of these operations writes this buffer. -/
theorem rel21_keep_arg0 (W : Valuation τ sig (Elt F)) :
    after ck34 (after ck33 (W)) (main_arg0 : DevRef τ sig) = W (main_arg0 : DevRef τ sig) := by
  after_results_simp

/-- None of these operations writes this buffer. -/
theorem rel21_keep_arg1 (W : Valuation τ sig (Elt F)) :
    after ck34 (after ck33 (W)) (main_arg1 : DevRef τ sig) = W (main_arg1 : DevRef τ sig) := by
  after_results_simp

/-- None of these operations writes this buffer. -/
theorem rel21_keep_arg2 (W : Valuation τ sig (Elt F)) :
    after ck34 (after ck33 (W)) (main_arg2 : DevRef τ sig) = W (main_arg2 : DevRef τ sig) := by
  after_results_simp

/-- None of these operations writes this buffer. -/
theorem rel21_keep_arg3 (W : Valuation τ sig (Elt F)) :
    after ck34 (after ck33 (W)) (main_arg3 : DevRef τ sig) = W (main_arg3 : DevRef τ sig) := by
  after_results_simp

/-- None of these operations writes this buffer. -/
theorem rel21_keep_arg4 (W : Valuation τ sig (Elt F)) :
    after ck34 (after ck33 (W)) (main_arg4 : DevRef τ sig) = W (main_arg4 : DevRef τ sig) := by
  after_results_simp

/-- None of these operations writes this buffer. -/
theorem rel21_keep_arg5 (W : Valuation τ sig (Elt F)) :
    after ck34 (after ck33 (W)) (main_arg5 : DevRef τ sig) = W (main_arg5 : DevRef τ sig) := by
  after_results_simp

/-- None of these operations writes this buffer. -/
theorem rel21_keep_arg6 (W : Valuation τ sig (Elt F)) :
    after ck34 (after ck33 (W)) (main_arg6 : DevRef τ sig) = W (main_arg6 : DevRef τ sig) := by
  after_results_simp

/-- None of these operations writes this buffer. -/
theorem rel21_keep_arg7 (W : Valuation τ sig (Elt F)) :
    after ck34 (after ck33 (W)) (main_arg7 : DevRef τ sig) = W (main_arg7 : DevRef τ sig) := by
  after_results_simp

/-- None of these operations writes this buffer. -/
theorem rel21_keep_arg8 (W : Valuation τ sig (Elt F)) :
    after ck34 (after ck33 (W)) (main_arg8 : DevRef τ sig) = W (main_arg8 : DevRef τ sig) := by
  after_results_simp

/-- None of these operations writes this buffer. -/
theorem rel21_keep_arg9 (W : Valuation τ sig (Elt F)) :
    after ck34 (after ck33 (W)) (main_arg9 : DevRef τ sig) = W (main_arg9 : DevRef τ sig) := by
  after_results_simp

/-- None of these operations writes this buffer. -/
theorem rel21_keep_arg10 (W : Valuation τ sig (Elt F)) :
    after ck34 (after ck33 (W)) (main_arg10 : DevRef τ sig) = W (main_arg10 : DevRef τ sig) := by
  after_results_simp

end Cert.RefHand

end
-- ==== Proof.Ref.Rel22.lean ====
import proofs.«111407_j24215025614983_1_alg».proof.Proof.Ref.Win7
import proofs.«111407_j24215025614983_1_alg».proof.Proof.Ref.Win8
import proofs.«111407_j24215025614983_1_alg».proof.Proof.SpecR

/-!
Relation 2 of layer 3 in the reference program: operations 523 to 573. From any buffer contents, after these
operations the relation's result buffer holds the relation's graph convolution of the layer's input features, weights,
bias and the two edge tables, and the buffers that are read later keep their contents.
-/

noncomputable section

namespace Cert.RefHand

open Cert.ReferenceIdeal Cert.ReferenceIdeal.Gen Idealize.ShloMosaic Idealize.ShloMosaic.TcCoe Idealize.SL.Sem Idealize.ShloMosaic.StableHlo

open Cert.RSpec
set_option maxRecDepth 8192
set_option maxHeartbeats 4000000

variable {F : FTy → Type} [FloatOps F]

/-- The relation's result: the fold of the operations' results read at the result buffer is the convolution, term for term. -/
theorem rel22_read (W : Valuation τ sig (Elt F)) :
    after ck38 (after ck37 (after ck36 (W))) (main_v437 : DevRef τ sig)
      = conv256 2 (W (main_v319 : DevRef τ sig)) (W (main_arg5 : DevRef τ sig)) (W (main_arg6 : DevRef τ sig)) (W (main_arg9 : DevRef τ sig)) (W (main_arg10 : DevRef τ sig)) := by
  after_results_simp
  rfl

/-- None of these operations writes this buffer. -/
theorem rel22_keep_v319 (W : Valuation τ sig (Elt F)) :
    after ck38 (after ck37 (after ck36 (W))) (main_v319 : DevRef τ sig) = W (main_v319 : DevRef τ sig) := by
  after_results_simp

/-- None of these operations writes this buffer. -/
theorem rel22_keep_v398 (W : Valuation τ sig (Elt F)) :
    after ck38 (after ck37 (after ck36 (W))) (main_v398 : DevRef τ sig) = W (main_v398 : DevRef τ sig) := by
  after_results_simp

/-- None of these operations writes this buffer. -/
theorem rel22_keep_arg0 (W : Valuation τ sig (Elt F)) :
    after ck38 (after ck37 (after ck36 (W))) (main_arg0 : DevRef τ sig) = W (main_arg0 : DevRef τ sig) := by
  after_results_simp

/-- None of these operations writes this buffer. -/
theorem rel22_keep_arg1 (W : Valuation τ sig (Elt F)) :
    after ck38 (after ck37 (after ck36 (W))) (main_arg1 : DevRef τ sig) = W (main_arg1 : DevRef τ sig) := by
  after_results_simp

/-- None of these operations writes this buffer. -/
theorem rel22_keep_arg2 (W : Valuation τ sig (Elt F)) :
    after ck38 (after ck37 (after ck36 (W))) (main_arg2 : DevRef τ sig) = W (main_arg2 : DevRef τ sig) := by
  after_results_simp

/-- None of these operations writes this buffer. -/
theorem rel22_keep_arg3 (W : Valuation τ sig (Elt F)) :
    after ck38 (after ck37 (after ck36 (W))) (main_arg3 : DevRef τ sig) = W (main_arg3 : DevRef τ sig) := by
  after_results_simp

/-- None of these operations writes this buffer. -/
theorem rel22_keep_arg4 (W : Valuation τ sig (Elt F)) :
    after ck38 (after ck37 (after ck36 (W))) (main_arg4 : DevRef τ sig) = W (main_arg4 : DevRef τ sig) := by
  after_results_simp

/-- None of these operations writes this buffer. -/
theorem rel22_keep_arg5 (W : Valuation τ sig (Elt F)) :
    after ck38 (after ck37 (after ck36 (W))) (main_arg5 : DevRef τ sig) = W (main_arg5 : DevRef τ sig) := by
  after_results_simp

/-- None of these operations writes this buffer. -/
theorem rel22_keep_arg6 (W : Valuation τ sig (Elt F)) :
    after ck38 (after ck37 (after ck36 (W))) (main_arg6 : DevRef τ sig) = W (main_arg6 : DevRef τ sig) := by
  after_results_simp

/-- None of these operations writes this buffer. -/
theorem rel22_keep_arg7 (W : Valuation τ sig (Elt F)) :
    after ck38 (after ck37 (after ck36 (W))) (main_arg7 : DevRef τ sig) = W (main_arg7 : DevRef τ sig) := by
  after_results_simp

/-- None of these operations writes this buffer. -/
theorem rel22_keep_arg8 (W : Valuation τ sig (Elt F)) :
    after ck38 (after ck37 (after ck36 (W))) (main_arg8 : DevRef τ sig) = W (main_arg8 : DevRef τ sig) := by
  after_results_simp

/-- None of these operations writes this buffer. -/
theorem rel22_keep_arg9 (W : Valuation τ sig (Elt F)) :
    after ck38 (after ck37 (after ck36 (W))) (main_arg9 : DevRef τ sig) = W (main_arg9 : DevRef τ sig) := by
  after_results_simp

/-- None of these operations writes this buffer. -/
theorem rel22_keep_arg10 (W : Valuation τ sig (Elt F)) :
    after ck38 (after ck37 (after ck36 (W))) (main_arg10 : DevRef τ sig) = W (main_arg10 : DevRef τ sig) := by
  after_results_simp

end Cert.RefHand

end
-- ==== Proof.Ref.Rel23.lean ====
import proofs.«111407_j24215025614983_1_alg».proof.Proof.Ref.Win8
import proofs.«111407_j24215025614983_1_alg».proof.Proof.Ref.Win9
import proofs.«111407_j24215025614983_1_alg».proof.Proof.SpecR

/-!
Relation 3 of layer 3 in the reference program: operations 575 to 625. From any buffer contents, after these
operations the relation's result buffer holds the relation's graph convolution of the layer's input features, weights,
bias and the two edge tables, and the buffers that are read later keep their contents.
-/

noncomputable section

namespace Cert.RefHand

open Cert.ReferenceIdeal Cert.ReferenceIdeal.Gen Idealize.ShloMosaic Idealize.ShloMosaic.TcCoe Idealize.SL.Sem Idealize.ShloMosaic.StableHlo

open Cert.RSpec
set_option maxRecDepth 8192
set_option maxHeartbeats 4000000

variable {F : FTy → Type} [FloatOps F]

/-- The relation's result: the fold of the operations' results read at the result buffer is the convolution, term for term. -/
theorem rel23_read (W : Valuation τ sig (Elt F)) :
    after ck42 (after ck41 (after ck40 (W))) (main_v477 : DevRef τ sig)
      = conv256 3 (W (main_v319 : DevRef τ sig)) (W (main_arg5 : DevRef τ sig)) (W (main_arg6 : DevRef τ sig)) (W (main_arg9 : DevRef τ sig)) (W (main_arg10 : DevRef τ sig)) := by
  after_results_simp
  rfl

/-- None of these operations writes this buffer. -/
theorem rel23_keep_v438 (W : Valuation τ sig (Elt F)) :
    after ck42 (after ck41 (after ck40 (W))) (main_v438 : DevRef τ sig) = W (main_v438 : DevRef τ sig) := by
  after_results_simp

/-- None of these operations writes this buffer. -/
theorem rel23_keep_arg0 (W : Valuation τ sig (Elt F)) :
    after ck42 (after ck41 (after ck40 (W))) (main_arg0 : DevRef τ sig) = W (main_arg0 : DevRef τ sig) := by
  after_results_simp

/-- None of these operations writes this buffer. -/
theorem rel23_keep_arg1 (W : Valuation τ sig (Elt F)) :
    after ck42 (after ck41 (after ck40 (W))) (main_arg1 : DevRef τ sig) = W (main_arg1 : DevRef τ sig) := by
  after_results_simp

/-- None of these operations writes this buffer. -/
theorem rel23_keep_arg2 (W : Valuation τ sig (Elt F)) :
    after ck42 (after ck41 (after ck40 (W))) (main_arg2 : DevRef τ sig) = W (main_arg2 : DevRef τ sig) := by
  after_results_simp

/-- None of these operations writes this buffer. -/
theorem rel23_keep_arg3 (W : Valuation τ sig (Elt F)) :
    after ck42 (after ck41 (after ck40 (W))) (main_arg3 : DevRef τ sig) = W (main_arg3 : DevRef τ sig) := by
  after_results_simp

/-- None of these operations writes this buffer. -/
theorem rel23_keep_arg4 (W : Valuation τ sig (Elt F)) :
    after ck42 (after ck41 (after ck40 (W))) (main_arg4 : DevRef τ sig) = W (main_arg4 : DevRef τ sig) := by
  after_results_simp

/-- None of these operations writes this buffer. -/
theorem rel23_keep_arg5 (W : Valuation τ sig (Elt F)) :
    after ck42 (after ck41 (after ck40 (W))) (main_arg5 : DevRef τ sig) = W (main_arg5 : DevRef τ sig) := by
  after_results_simp

/-- None of these operations writes this buffer. -/
theorem rel23_keep_arg6 (W : Valuation τ sig (Elt F)) :
    after ck42 (after ck41 (after ck40 (W))) (main_arg6 : DevRef τ sig) = W (main_arg6 : DevRef τ sig) := by
  after_results_simp

/-- None of these operations writes this buffer. -/
theorem rel23_keep_arg7 (W : Valuation τ sig (Elt F)) :
    after ck42 (after ck41 (after ck40 (W))) (main_arg7 : DevRef τ sig) = W (main_arg7 : DevRef τ sig) := by
  after_results_simp

/-- None of these operations writes this buffer. -/
theorem rel23_keep_arg8 (W : Valuation τ sig (Elt F)) :
    after ck42 (after ck41 (after ck40 (W))) (main_arg8 : DevRef τ sig) = W (main_arg8 : DevRef τ sig) := by
  after_results_simp

/-- None of these operations writes this buffer. -/
theorem rel23_keep_arg9 (W : Valuation τ sig (Elt F)) :
    after ck42 (after ck41 (after ck40 (W))) (main_arg9 : DevRef τ sig) = W (main_arg9 : DevRef τ sig) := by
  after_results_simp

/-- None of these operations writes this buffer. -/
theorem rel23_keep_arg10 (W : Valuation τ sig (Elt F)) :
    after ck42 (after ck41 (after ck40 (W))) (main_arg10 : DevRef τ sig) = W (main_arg10 : DevRef τ sig) := by
  after_results_simp

end Cert.RefHand

end
-- ==== Proof.Ref.Rel30.lean ====
import proofs.«111407_j24215025614983_1_alg».proof.Proof.Ref.Win9
import proofs.«111407_j24215025614983_1_alg».proof.Proof.Ref.Win10
import proofs.«111407_j24215025614983_1_alg».proof.Proof.SpecR

/-!
Relation 0 of layer 4 in the reference program: operations 630 to 680. From any buffer contents, after these
operations the relation's result buffer holds the relation's graph convolution of the layer's input features, weights,
bias and the two edge tables, and the buffers that are read later keep their contents.
-/

noncomputable section

namespace Cert.RefHand

open Cert.ReferenceIdeal Cert.ReferenceIdeal.Gen Idealize.ShloMosaic Idealize.ShloMosaic.TcCoe Idealize.SL.Sem Idealize.ShloMosaic.StableHlo

open Cert.RSpec
set_option maxRecDepth 8192
set_option maxHeartbeats 4000000

variable {F : FTy → Type} [FloatOps F]

/-- The relation's result: the fold of the operations' results read at the result buffer is the convolution, term for term. -/
theorem rel30_read (W : Valuation τ sig (Elt F)) :
    after ck47 (after ck46 (after ck45 (W))) (main_v518 : DevRef τ sig)
      = conv128 0 (W (main_v479 : DevRef τ sig)) (W (main_arg7 : DevRef τ sig)) (W (main_arg8 : DevRef τ sig)) (W (main_arg9 : DevRef τ sig)) (W (main_arg10 : DevRef τ sig)) := by
  after_results_simp
  rfl

/-- None of these operations writes this buffer. -/
theorem rel30_keep_v479 (W : Valuation τ sig (Elt F)) :
    after ck47 (after ck46 (after ck45 (W))) (main_v479 : DevRef τ sig) = W (main_v479 : DevRef τ sig) := by
  after_results_simp

/-- None of these operations writes this buffer. -/
theorem rel30_keep_arg0 (W : Valuation τ sig (Elt F)) :
    after ck47 (after ck46 (after ck45 (W))) (main_arg0 : DevRef τ sig) = W (main_arg0 : DevRef τ sig) := by
  after_results_simp

/-- None of these operations writes this buffer. -/
theorem rel30_keep_arg1 (W : Valuation τ sig (Elt F)) :
    after ck47 (after ck46 (after ck45 (W))) (main_arg1 : DevRef τ sig) = W (main_arg1 : DevRef τ sig) := by
  after_results_simp

/-- None of these operations writes this buffer. -/
theorem rel30_keep_arg2 (W : Valuation τ sig (Elt F)) :
    after ck47 (after ck46 (after ck45 (W))) (main_arg2 : DevRef τ sig) = W (main_arg2 : DevRef τ sig) := by
  after_results_simp

/-- None of these operations writes this buffer. -/
theorem rel30_keep_arg3 (W : Valuation τ sig (Elt F)) :
    after ck47 (after ck46 (after ck45 (W))) (main_arg3 : DevRef τ sig) = W (main_arg3 : DevRef τ sig) := by
  after_results_simp

/-- None of these operations writes this buffer. -/
theorem rel30_keep_arg4 (W : Valuation τ sig (Elt F)) :
    after ck47 (after ck46 (after ck45 (W))) (main_arg4 : DevRef τ sig) = W (main_arg4 : DevRef τ sig) := by
  after_results_simp

/-- None of these operations writes this buffer. -/
theorem rel30_keep_arg5 (W : Valuation τ sig (Elt F)) :
    after ck47 (after ck46 (after ck45 (W))) (main_arg5 : DevRef τ sig) = W (main_arg5 : DevRef τ sig) := by
  after_results_simp

/-- None of these operations writes this buffer. -/
theorem rel30_keep_arg6 (W : Valuation τ sig (Elt F)) :
    after ck47 (after ck46 (after ck45 (W))) (main_arg6 : DevRef τ sig) = W (main_arg6 : DevRef τ sig) := by
  after_results_simp

/-- None of these operations writes this buffer. -/
theorem rel30_keep_arg7 (W : Valuation τ sig (Elt F)) :
    after ck47 (after ck46 (after ck45 (W))) (main_arg7 : DevRef τ sig) = W (main_arg7 : DevRef τ sig) := by
  after_results_simp

/-- None of these operations writes this buffer. -/
theorem rel30_keep_arg8 (W : Valuation τ sig (Elt F)) :
    after ck47 (after ck46 (after ck45 (W))) (main_arg8 : DevRef τ sig) = W (main_arg8 : DevRef τ sig) := by
  after_results_simp

/-- None of these operations writes this buffer. -/
theorem rel30_keep_arg9 (W : Valuation τ sig (Elt F)) :
    after ck47 (after ck46 (after ck45 (W))) (main_arg9 : DevRef τ sig) = W (main_arg9 : DevRef τ sig) := by
  after_results_simp

/-- None of these operations writes this buffer. -/
theorem rel30_keep_arg10 (W : Valuation τ sig (Elt F)) :
    after ck47 (after ck46 (after ck45 (W))) (main_arg10 : DevRef τ sig) = W (main_arg10 : DevRef τ sig) := by
  after_results_simp

end Cert.RefHand

end
-- ==== Proof.Ref.Rel31.lean ====
import proofs.«111407_j24215025614983_1_alg».proof.Proof.Ref.Win10
import proofs.«111407_j24215025614983_1_alg».proof.Proof.Ref.Win11
import proofs.«111407_j24215025614983_1_alg».proof.Proof.SpecR

/-!
Relation 1 of layer 4 in the reference program: operations 681 to 731. From any buffer contents, after these
operations the relation's result buffer holds the relation's graph convolution of the layer's input features, weights,
bias and the two edge tables, and the buffers that are read later keep their contents.
-/

noncomputable section

namespace Cert.RefHand

open Cert.ReferenceIdeal Cert.ReferenceIdeal.Gen Idealize.ShloMosaic Idealize.ShloMosaic.TcCoe Idealize.SL.Sem Idealize.ShloMosaic.StableHlo

open Cert.RSpec
set_option maxRecDepth 8192
set_option maxHeartbeats 4000000

variable {F : FTy → Type} [FloatOps F]

/-- The relation's result: the fold of the operations' results read at the result buffer is the convolution, term for term. -/
theorem rel31_read (W : Valuation τ sig (Elt F)) :
    after ck50 (after ck49 (after ck48 (W))) (main_v557 : DevRef τ sig)
      = conv128 1 (W (main_v479 : DevRef τ sig)) (W (main_arg7 : DevRef τ sig)) (W (main_arg8 : DevRef τ sig)) (W (main_arg9 : DevRef τ sig)) (W (main_arg10 : DevRef τ sig)) := by
  after_results_simp
  rfl

/-- None of these operations writes this buffer. -/
theorem rel31_keep_v479 (W : Valuation τ sig (Elt F)) :
    after ck50 (after ck49 (after ck48 (W))) (main_v479 : DevRef τ sig) = W (main_v479 : DevRef τ sig) := by
  after_results_simp

/-- None of these operations writes this buffer. -/
theorem rel31_keep_v518 (W : Valuation τ sig (Elt F)) :
    after ck50 (after ck49 (after ck48 (W))) (main_v518 : DevRef τ sig) = W (main_v518 : DevRef τ sig) := by
  after_results_simp

/-- None of these operations writes this buffer. -/
theorem rel31_keep_arg0 (W : Valuation τ sig (Elt F)) :
    after ck50 (after ck49 (after ck48 (W))) (main_arg0 : DevRef τ sig) = W (main_arg0 : DevRef τ sig) := by
  after_results_simp

/-- None of these operations writes this buffer. -/
theorem rel31_keep_arg1 (W : Valuation τ sig (Elt F)) :
    after ck50 (after ck49 (after ck48 (W))) (main_arg1 : DevRef τ sig) = W (main_arg1 : DevRef τ sig) := by
  after_results_simp

/-- None of these operations writes this buffer. -/
theorem rel31_keep_arg2 (W : Valuation τ sig (Elt F)) :
    after ck50 (after ck49 (after ck48 (W))) (main_arg2 : DevRef τ sig) = W (main_arg2 : DevRef τ sig) := by
  after_results_simp

/-- None of these operations writes this buffer. -/
theorem rel31_keep_arg3 (W : Valuation τ sig (Elt F)) :
    after ck50 (after ck49 (after ck48 (W))) (main_arg3 : DevRef τ sig) = W (main_arg3 : DevRef τ sig) := by
  after_results_simp

/-- None of these operations writes this buffer. -/
theorem rel31_keep_arg4 (W : Valuation τ sig (Elt F)) :
    after ck50 (after ck49 (after ck48 (W))) (main_arg4 : DevRef τ sig) = W (main_arg4 : DevRef τ sig) := by
  after_results_simp

/-- None of these operations writes this buffer. -/
theorem rel31_keep_arg5 (W : Valuation τ sig (Elt F)) :
    after ck50 (after ck49 (after ck48 (W))) (main_arg5 : DevRef τ sig) = W (main_arg5 : DevRef τ sig) := by
  after_results_simp

/-- None of these operations writes this buffer. -/
theorem rel31_keep_arg6 (W : Valuation τ sig (Elt F)) :
    after ck50 (after ck49 (after ck48 (W))) (main_arg6 : DevRef τ sig) = W (main_arg6 : DevRef τ sig) := by
  after_results_simp

/-- None of these operations writes this buffer. -/
theorem rel31_keep_arg7 (W : Valuation τ sig (Elt F)) :
    after ck50 (after ck49 (after ck48 (W))) (main_arg7 : DevRef τ sig) = W (main_arg7 : DevRef τ sig) := by
  after_results_simp

/-- None of these operations writes this buffer. -/
theorem rel31_keep_arg8 (W : Valuation τ sig (Elt F)) :
    after ck50 (after ck49 (after ck48 (W))) (main_arg8 : DevRef τ sig) = W (main_arg8 : DevRef τ sig) := by
  after_results_simp

/-- None of these operations writes this buffer. -/
theorem rel31_keep_arg9 (W : Valuation τ sig (Elt F)) :
    after ck50 (after ck49 (after ck48 (W))) (main_arg9 : DevRef τ sig) = W (main_arg9 : DevRef τ sig) := by
  after_results_simp

/-- None of these operations writes this buffer. -/
theorem rel31_keep_arg10 (W : Valuation τ sig (Elt F)) :
    after ck50 (after ck49 (after ck48 (W))) (main_arg10 : DevRef τ sig) = W (main_arg10 : DevRef τ sig) := by
  after_results_simp

end Cert.RefHand

end
-- ==== Proof.Ref.Rel32.lean ====
import proofs.«111407_j24215025614983_1_alg».proof.Proof.Ref.Win11
import proofs.«111407_j24215025614983_1_alg».proof.Proof.SpecR

/-!
Relation 2 of layer 4 in the reference program: operations 733 to 783. From any buffer contents, after these
operations the relation's result buffer holds the relation's graph convolution of the layer's input features, weights,
bias and the two edge tables, and the buffers that are read later keep their contents.
-/

noncomputable section

namespace Cert.RefHand

open Cert.ReferenceIdeal Cert.ReferenceIdeal.Gen Idealize.ShloMosaic Idealize.ShloMosaic.TcCoe Idealize.SL.Sem Idealize.ShloMosaic.StableHlo

open Cert.RSpec
set_option maxRecDepth 8192
set_option maxHeartbeats 4000000

variable {F : FTy → Type} [FloatOps F]

/-- The relation's result: the fold of the operations' results read at the result buffer is the convolution, term for term. -/
theorem rel32_read (W : Valuation τ sig (Elt F)) :
    after ck53 (after ck52 (W)) (main_v597 : DevRef τ sig)
      = conv128 2 (W (main_v479 : DevRef τ sig)) (W (main_arg7 : DevRef τ sig)) (W (main_arg8 : DevRef τ sig)) (W (main_arg9 : DevRef τ sig)) (W (main_arg10 : DevRef τ sig)) := by
  after_results_simp
  rfl

/-- None of these operations writes this buffer. -/
theorem rel32_keep_v479 (W : Valuation τ sig (Elt F)) :
    after ck53 (after ck52 (W)) (main_v479 : DevRef τ sig) = W (main_v479 : DevRef τ sig) := by
  after_results_simp

/-- None of these operations writes this buffer. -/
theorem rel32_keep_v558 (W : Valuation τ sig (Elt F)) :
    after ck53 (after ck52 (W)) (main_v558 : DevRef τ sig) = W (main_v558 : DevRef τ sig) := by
  after_results_simp

/-- None of these operations writes this buffer. -/
theorem rel32_keep_arg0 (W : Valuation τ sig (Elt F)) :
    after ck53 (after ck52 (W)) (main_arg0 : DevRef τ sig) = W (main_arg0 : DevRef τ sig) := by
  after_results_simp

/-- None of these operations writes this buffer. -/
theorem rel32_keep_arg1 (W : Valuation τ sig (Elt F)) :
    after ck53 (after ck52 (W)) (main_arg1 : DevRef τ sig) = W (main_arg1 : DevRef τ sig) := by
  after_results_simp

/-- None of these operations writes this buffer. -/
theorem rel32_keep_arg2 (W : Valuation τ sig (Elt F)) :
    after ck53 (after ck52 (W)) (main_arg2 : DevRef τ sig) = W (main_arg2 : DevRef τ sig) := by
  after_results_simp

/-- None of these operations writes this buffer. -/
theorem rel32_keep_arg3 (W : Valuation τ sig (Elt F)) :
    after ck53 (after ck52 (W)) (main_arg3 : DevRef τ sig) = W (main_arg3 : DevRef τ sig) := by
  after_results_simp

/-- None of these operations writes this buffer. -/
theorem rel32_keep_arg4 (W : Valuation τ sig (Elt F)) :
    after ck53 (after ck52 (W)) (main_arg4 : DevRef τ sig) = W (main_arg4 : DevRef τ sig) := by
  after_results_simp

/-- None of these operations writes this buffer. -/
theorem rel32_keep_arg5 (W : Valuation τ sig (Elt F)) :
    after ck53 (after ck52 (W)) (main_arg5 : DevRef τ sig) = W (main_arg5 : DevRef τ sig) := by
  after_results_simp

/-- None of these operations writes this buffer. -/
theorem rel32_keep_arg6 (W : Valuation τ sig (Elt F)) :
    after ck53 (after ck52 (W)) (main_arg6 : DevRef τ sig) = W (main_arg6 : DevRef τ sig) := by
  after_results_simp

/-- None of these operations writes this buffer. -/
theorem rel32_keep_arg7 (W : Valuation τ sig (Elt F)) :
    after ck53 (after ck52 (W)) (main_arg7 : DevRef τ sig) = W (main_arg7 : DevRef τ sig) := by
  after_results_simp

/-- None of these operations writes this buffer. -/
theorem rel32_keep_arg8 (W : Valuation τ sig (Elt F)) :
    after ck53 (after ck52 (W)) (main_arg8 : DevRef τ sig) = W (main_arg8 : DevRef τ sig) := by
  after_results_simp

/-- None of these operations writes this buffer. -/
theorem rel32_keep_arg9 (W : Valuation τ sig (Elt F)) :
    after ck53 (after ck52 (W)) (main_arg9 : DevRef τ sig) = W (main_arg9 : DevRef τ sig) := by
  after_results_simp

/-- None of these operations writes this buffer. -/
theorem rel32_keep_arg10 (W : Valuation τ sig (Elt F)) :
    after ck53 (after ck52 (W)) (main_arg10 : DevRef τ sig) = W (main_arg10 : DevRef τ sig) := by
  after_results_simp

end Cert.RefHand

end
-- ==== Proof.Ref.Rel33.lean ====
import proofs.«111407_j24215025614983_1_alg».proof.Proof.Ref.Win11
import proofs.«111407_j24215025614983_1_alg».proof.Proof.Ref.Win12
import proofs.«111407_j24215025614983_1_alg».proof.Proof.SpecR

/-!
Relation 3 of layer 4 in the reference program: operations 785 to 835. From any buffer contents, after these
operations the relation's result buffer holds the relation's graph convolution of the layer's input features, weights,
bias and the two edge tables, and the buffers that are read later keep their contents.
-/

noncomputable section

namespace Cert.RefHand

open Cert.ReferenceIdeal Cert.ReferenceIdeal.Gen Idealize.ShloMosaic Idealize.ShloMosaic.TcCoe Idealize.SL.Sem Idealize.ShloMosaic.StableHlo

open Cert.RSpec
set_option maxRecDepth 8192
set_option maxHeartbeats 4000000

variable {F : FTy → Type} [FloatOps F]

/-- The relation's result: the fold of the operations' results read at the result buffer is the convolution, term for term. -/
theorem rel33_read (W : Valuation τ sig (Elt F)) :
    after ck57 (after ck56 (after ck55 (W))) (main_v637 : DevRef τ sig)
      = conv128 3 (W (main_v479 : DevRef τ sig)) (W (main_arg7 : DevRef τ sig)) (W (main_arg8 : DevRef τ sig)) (W (main_arg9 : DevRef τ sig)) (W (main_arg10 : DevRef τ sig)) := by
  after_results_simp
  rfl

/-- None of these operations writes this buffer. -/
theorem rel33_keep_v598 (W : Valuation τ sig (Elt F)) :
    after ck57 (after ck56 (after ck55 (W))) (main_v598 : DevRef τ sig) = W (main_v598 : DevRef τ sig) := by
  after_results_simp

/-- None of these operations writes this buffer. -/
theorem rel33_keep_arg0 (W : Valuation τ sig (Elt F)) :
    after ck57 (after ck56 (after ck55 (W))) (main_arg0 : DevRef τ sig) = W (main_arg0 : DevRef τ sig) := by
  after_results_simp

/-- None of these operations writes this buffer. -/
theorem rel33_keep_arg1 (W : Valuation τ sig (Elt F)) :
    after ck57 (after ck56 (after ck55 (W))) (main_arg1 : DevRef τ sig) = W (main_arg1 : DevRef τ sig) := by
  after_results_simp

/-- None of these operations writes this buffer. -/
theorem rel33_keep_arg2 (W : Valuation τ sig (Elt F)) :
    after ck57 (after ck56 (after ck55 (W))) (main_arg2 : DevRef τ sig) = W (main_arg2 : DevRef τ sig) := by
  after_results_simp

/-- None of these operations writes this buffer. -/
theorem rel33_keep_arg3 (W : Valuation τ sig (Elt F)) :
    after ck57 (after ck56 (after ck55 (W))) (main_arg3 : DevRef τ sig) = W (main_arg3 : DevRef τ sig) := by
  after_results_simp

/-- None of these operations writes this buffer. -/
theorem rel33_keep_arg4 (W : Valuation τ sig (Elt F)) :
    after ck57 (after ck56 (after ck55 (W))) (main_arg4 : DevRef τ sig) = W (main_arg4 : DevRef τ sig) := by
  after_results_simp

/-- None of these operations writes this buffer. -/
theorem rel33_keep_arg5 (W : Valuation τ sig (Elt F)) :
    after ck57 (after ck56 (after ck55 (W))) (main_arg5 : DevRef τ sig) = W (main_arg5 : DevRef τ sig) := by
  after_results_simp

/-- None of these operations writes this buffer. -/
theorem rel33_keep_arg6 (W : Valuation τ sig (Elt F)) :
    after ck57 (after ck56 (after ck55 (W))) (main_arg6 : DevRef τ sig) = W (main_arg6 : DevRef τ sig) := by
  after_results_simp

/-- None of these operations writes this buffer. -/
theorem rel33_keep_arg7 (W : Valuation τ sig (Elt F)) :
    after ck57 (after ck56 (after ck55 (W))) (main_arg7 : DevRef τ sig) = W (main_arg7 : DevRef τ sig) := by
  after_results_simp

/-- None of these operations writes this buffer. -/
theorem rel33_keep_arg8 (W : Valuation τ sig (Elt F)) :
    after ck57 (after ck56 (after ck55 (W))) (main_arg8 : DevRef τ sig) = W (main_arg8 : DevRef τ sig) := by
  after_results_simp

/-- None of these operations writes this buffer. -/
theorem rel33_keep_arg9 (W : Valuation τ sig (Elt F)) :
    after ck57 (after ck56 (after ck55 (W))) (main_arg9 : DevRef τ sig) = W (main_arg9 : DevRef τ sig) := by
  after_results_simp

/-- None of these operations writes this buffer. -/
theorem rel33_keep_arg10 (W : Valuation τ sig (Elt F)) :
    after ck57 (after ck56 (after ck55 (W))) (main_arg10 : DevRef τ sig) = W (main_arg10 : DevRef τ sig) := by
  after_results_simp

end Cert.RefHand

end
-- ==== Proof.Ref.Glue.lean ====
import proofs.«111407_j24215025614983_1_alg».proof.Proof.Ref.Win1
import proofs.«111407_j24215025614983_1_alg».proof.Proof.Ref.Win2
import proofs.«111407_j24215025614983_1_alg».proof.Proof.Ref.Win3
import proofs.«111407_j24215025614983_1_alg».proof.Proof.Ref.Win4
import proofs.«111407_j24215025614983_1_alg».proof.Proof.Ref.Win5
import proofs.«111407_j24215025614983_1_alg».proof.Proof.Ref.Win6
import proofs.«111407_j24215025614983_1_alg».proof.Proof.Ref.Win7
import proofs.«111407_j24215025614983_1_alg».proof.Proof.Ref.Win8
import proofs.«111407_j24215025614983_1_alg».proof.Proof.Ref.Win9
import proofs.«111407_j24215025614983_1_alg».proof.Proof.Ref.Win11
import proofs.«111407_j24215025614983_1_alg».proof.Proof.Ref.Win12
import proofs.«111407_j24215025614983_1_alg».proof.Proof.SpecR

/-!
The operations between the relations: each sum of two relations' results, and max(., 0) after each of the first three
layers. From any buffer contents, each leaves its result at the sum (the maximum) of what its operands held, and every
other buffer as it was.
-/

noncomputable section

namespace Cert.RefHand

open Cert.ReferenceIdeal Cert.ReferenceIdeal.Gen Idealize.ShloMosaic Idealize.ShloMosaic.TcCoe Idealize.SL.Sem Idealize.ShloMosaic.StableHlo

open Cert.RSpec
set_option maxRecDepth 8192
set_option maxHeartbeats 4000000

variable {F : FTy → Type} [FloatOps F]

theorem sum01_read (W : Valuation τ sig (Elt F)) :
    after ck5 (W) (main_v78 : DevRef τ sig) = addf (W (main_v38 : DevRef τ sig)) (W (main_v77 : DevRef τ sig)) := by
  after_results_simp <;> rfl

theorem sum01_keep_arg0 (W : Valuation τ sig (Elt F)) :
    after ck5 (W) (main_arg0 : DevRef τ sig) = W (main_arg0 : DevRef τ sig) := by
  after_results_simp

theorem sum01_keep_arg1 (W : Valuation τ sig (Elt F)) :
    after ck5 (W) (main_arg1 : DevRef τ sig) = W (main_arg1 : DevRef τ sig) := by
  after_results_simp

theorem sum01_keep_arg2 (W : Valuation τ sig (Elt F)) :
    after ck5 (W) (main_arg2 : DevRef τ sig) = W (main_arg2 : DevRef τ sig) := by
  after_results_simp

theorem sum01_keep_arg3 (W : Valuation τ sig (Elt F)) :
    after ck5 (W) (main_arg3 : DevRef τ sig) = W (main_arg3 : DevRef τ sig) := by
  after_results_simp

theorem sum01_keep_arg4 (W : Valuation τ sig (Elt F)) :
    after ck5 (W) (main_arg4 : DevRef τ sig) = W (main_arg4 : DevRef τ sig) := by
  after_results_simp

theorem sum01_keep_arg5 (W : Valuation τ sig (Elt F)) :
    after ck5 (W) (main_arg5 : DevRef τ sig) = W (main_arg5 : DevRef τ sig) := by
  after_results_simp

theorem sum01_keep_arg6 (W : Valuation τ sig (Elt F)) :
    after ck5 (W) (main_arg6 : DevRef τ sig) = W (main_arg6 : DevRef τ sig) := by
  after_results_simp

theorem sum01_keep_arg7 (W : Valuation τ sig (Elt F)) :
    after ck5 (W) (main_arg7 : DevRef τ sig) = W (main_arg7 : DevRef τ sig) := by
  after_results_simp

theorem sum01_keep_arg8 (W : Valuation τ sig (Elt F)) :
    after ck5 (W) (main_arg8 : DevRef τ sig) = W (main_arg8 : DevRef τ sig) := by
  after_results_simp

theorem sum01_keep_arg9 (W : Valuation τ sig (Elt F)) :
    after ck5 (W) (main_arg9 : DevRef τ sig) = W (main_arg9 : DevRef τ sig) := by
  after_results_simp

theorem sum01_keep_arg10 (W : Valuation τ sig (Elt F)) :
    after ck5 (W) (main_arg10 : DevRef τ sig) = W (main_arg10 : DevRef τ sig) := by
  after_results_simp

theorem sum02_read (W : Valuation τ sig (Elt F)) :
    after ck9 (W) (main_v118 : DevRef τ sig) = addf (W (main_v78 : DevRef τ sig)) (W (main_v117 : DevRef τ sig)) := by
  after_results_simp <;> rfl

theorem sum02_keep_arg0 (W : Valuation τ sig (Elt F)) :
    after ck9 (W) (main_arg0 : DevRef τ sig) = W (main_arg0 : DevRef τ sig) := by
  after_results_simp

theorem sum02_keep_arg1 (W : Valuation τ sig (Elt F)) :
    after ck9 (W) (main_arg1 : DevRef τ sig) = W (main_arg1 : DevRef τ sig) := by
  after_results_simp

theorem sum02_keep_arg2 (W : Valuation τ sig (Elt F)) :
    after ck9 (W) (main_arg2 : DevRef τ sig) = W (main_arg2 : DevRef τ sig) := by
  after_results_simp

theorem sum02_keep_arg3 (W : Valuation τ sig (Elt F)) :
    after ck9 (W) (main_arg3 : DevRef τ sig) = W (main_arg3 : DevRef τ sig) := by
  after_results_simp

theorem sum02_keep_arg4 (W : Valuation τ sig (Elt F)) :
    after ck9 (W) (main_arg4 : DevRef τ sig) = W (main_arg4 : DevRef τ sig) := by
  after_results_simp

theorem sum02_keep_arg5 (W : Valuation τ sig (Elt F)) :
    after ck9 (W) (main_arg5 : DevRef τ sig) = W (main_arg5 : DevRef τ sig) := by
  after_results_simp

theorem sum02_keep_arg6 (W : Valuation τ sig (Elt F)) :
    after ck9 (W) (main_arg6 : DevRef τ sig) = W (main_arg6 : DevRef τ sig) := by
  after_results_simp

theorem sum02_keep_arg7 (W : Valuation τ sig (Elt F)) :
    after ck9 (W) (main_arg7 : DevRef τ sig) = W (main_arg7 : DevRef τ sig) := by
  after_results_simp

theorem sum02_keep_arg8 (W : Valuation τ sig (Elt F)) :
    after ck9 (W) (main_arg8 : DevRef τ sig) = W (main_arg8 : DevRef τ sig) := by
  after_results_simp

theorem sum02_keep_arg9 (W : Valuation τ sig (Elt F)) :
    after ck9 (W) (main_arg9 : DevRef τ sig) = W (main_arg9 : DevRef τ sig) := by
  after_results_simp

theorem sum02_keep_arg10 (W : Valuation τ sig (Elt F)) :
    after ck9 (W) (main_arg10 : DevRef τ sig) = W (main_arg10 : DevRef τ sig) := by
  after_results_simp

theorem sum03_read (W : Valuation τ sig (Elt F)) :
    after ck13 (W) (main_v158 : DevRef τ sig) = addf (W (main_v118 : DevRef τ sig)) (W (main_v157 : DevRef τ sig)) := by
  after_results_simp <;> rfl

theorem sum03_keep_arg0 (W : Valuation τ sig (Elt F)) :
    after ck13 (W) (main_arg0 : DevRef τ sig) = W (main_arg0 : DevRef τ sig) := by
  after_results_simp

theorem sum03_keep_arg1 (W : Valuation τ sig (Elt F)) :
    after ck13 (W) (main_arg1 : DevRef τ sig) = W (main_arg1 : DevRef τ sig) := by
  after_results_simp

theorem sum03_keep_arg2 (W : Valuation τ sig (Elt F)) :
    after ck13 (W) (main_arg2 : DevRef τ sig) = W (main_arg2 : DevRef τ sig) := by
  after_results_simp

theorem sum03_keep_arg3 (W : Valuation τ sig (Elt F)) :
    after ck13 (W) (main_arg3 : DevRef τ sig) = W (main_arg3 : DevRef τ sig) := by
  after_results_simp

theorem sum03_keep_arg4 (W : Valuation τ sig (Elt F)) :
    after ck13 (W) (main_arg4 : DevRef τ sig) = W (main_arg4 : DevRef τ sig) := by
  after_results_simp

theorem sum03_keep_arg5 (W : Valuation τ sig (Elt F)) :
    after ck13 (W) (main_arg5 : DevRef τ sig) = W (main_arg5 : DevRef τ sig) := by
  after_results_simp

theorem sum03_keep_arg6 (W : Valuation τ sig (Elt F)) :
    after ck13 (W) (main_arg6 : DevRef τ sig) = W (main_arg6 : DevRef τ sig) := by
  after_results_simp

theorem sum03_keep_arg7 (W : Valuation τ sig (Elt F)) :
    after ck13 (W) (main_arg7 : DevRef τ sig) = W (main_arg7 : DevRef τ sig) := by
  after_results_simp

theorem sum03_keep_arg8 (W : Valuation τ sig (Elt F)) :
    after ck13 (W) (main_arg8 : DevRef τ sig) = W (main_arg8 : DevRef τ sig) := by
  after_results_simp

theorem sum03_keep_arg9 (W : Valuation τ sig (Elt F)) :
    after ck13 (W) (main_arg9 : DevRef τ sig) = W (main_arg9 : DevRef τ sig) := by
  after_results_simp

theorem sum03_keep_arg10 (W : Valuation τ sig (Elt F)) :
    after ck13 (W) (main_arg10 : DevRef τ sig) = W (main_arg10 : DevRef τ sig) := by
  after_results_simp

theorem relu0_read (W : Valuation τ sig (Elt F)) :
    after ck14 (W) (main_v159 : DevRef τ sig) = relu256 (W (main_v158 : DevRef τ sig)) := by
  after_results_simp <;> rfl

theorem relu0_keep_arg0 (W : Valuation τ sig (Elt F)) :
    after ck14 (W) (main_arg0 : DevRef τ sig) = W (main_arg0 : DevRef τ sig) := by
  after_results_simp

theorem relu0_keep_arg1 (W : Valuation τ sig (Elt F)) :
    after ck14 (W) (main_arg1 : DevRef τ sig) = W (main_arg1 : DevRef τ sig) := by
  after_results_simp

theorem relu0_keep_arg2 (W : Valuation τ sig (Elt F)) :
    after ck14 (W) (main_arg2 : DevRef τ sig) = W (main_arg2 : DevRef τ sig) := by
  after_results_simp

theorem relu0_keep_arg3 (W : Valuation τ sig (Elt F)) :
    after ck14 (W) (main_arg3 : DevRef τ sig) = W (main_arg3 : DevRef τ sig) := by
  after_results_simp

theorem relu0_keep_arg4 (W : Valuation τ sig (Elt F)) :
    after ck14 (W) (main_arg4 : DevRef τ sig) = W (main_arg4 : DevRef τ sig) := by
  after_results_simp

theorem relu0_keep_arg5 (W : Valuation τ sig (Elt F)) :
    after ck14 (W) (main_arg5 : DevRef τ sig) = W (main_arg5 : DevRef τ sig) := by
  after_results_simp

theorem relu0_keep_arg6 (W : Valuation τ sig (Elt F)) :
    after ck14 (W) (main_arg6 : DevRef τ sig) = W (main_arg6 : DevRef τ sig) := by
  after_results_simp

theorem relu0_keep_arg7 (W : Valuation τ sig (Elt F)) :
    after ck14 (W) (main_arg7 : DevRef τ sig) = W (main_arg7 : DevRef τ sig) := by
  after_results_simp

theorem relu0_keep_arg8 (W : Valuation τ sig (Elt F)) :
    after ck14 (W) (main_arg8 : DevRef τ sig) = W (main_arg8 : DevRef τ sig) := by
  after_results_simp

theorem relu0_keep_arg9 (W : Valuation τ sig (Elt F)) :
    after ck14 (W) (main_arg9 : DevRef τ sig) = W (main_arg9 : DevRef τ sig) := by
  after_results_simp

theorem relu0_keep_arg10 (W : Valuation τ sig (Elt F)) :
    after ck14 (W) (main_arg10 : DevRef τ sig) = W (main_arg10 : DevRef τ sig) := by
  after_results_simp

theorem sum11_read (W : Valuation τ sig (Elt F)) :
    after ck20 (W) (main_v238 : DevRef τ sig) = addf (W (main_v198 : DevRef τ sig)) (W (main_v237 : DevRef τ sig)) := by
  after_results_simp <;> rfl

theorem sum11_keep_v159 (W : Valuation τ sig (Elt F)) :
    after ck20 (W) (main_v159 : DevRef τ sig) = W (main_v159 : DevRef τ sig) := by
  after_results_simp

theorem sum11_keep_arg0 (W : Valuation τ sig (Elt F)) :
    after ck20 (W) (main_arg0 : DevRef τ sig) = W (main_arg0 : DevRef τ sig) := by
  after_results_simp

theorem sum11_keep_arg1 (W : Valuation τ sig (Elt F)) :
    after ck20 (W) (main_arg1 : DevRef τ sig) = W (main_arg1 : DevRef τ sig) := by
  after_results_simp

theorem sum11_keep_arg2 (W : Valuation τ sig (Elt F)) :
    after ck20 (W) (main_arg2 : DevRef τ sig) = W (main_arg2 : DevRef τ sig) := by
  after_results_simp

theorem sum11_keep_arg3 (W : Valuation τ sig (Elt F)) :
    after ck20 (W) (main_arg3 : DevRef τ sig) = W (main_arg3 : DevRef τ sig) := by
  after_results_simp

theorem sum11_keep_arg4 (W : Valuation τ sig (Elt F)) :
    after ck20 (W) (main_arg4 : DevRef τ sig) = W (main_arg4 : DevRef τ sig) := by
  after_results_simp

theorem sum11_keep_arg5 (W : Valuation τ sig (Elt F)) :
    after ck20 (W) (main_arg5 : DevRef τ sig) = W (main_arg5 : DevRef τ sig) := by
  after_results_simp

theorem sum11_keep_arg6 (W : Valuation τ sig (Elt F)) :
    after ck20 (W) (main_arg6 : DevRef τ sig) = W (main_arg6 : DevRef τ sig) := by
  after_results_simp

theorem sum11_keep_arg7 (W : Valuation τ sig (Elt F)) :
    after ck20 (W) (main_arg7 : DevRef τ sig) = W (main_arg7 : DevRef τ sig) := by
  after_results_simp

theorem sum11_keep_arg8 (W : Valuation τ sig (Elt F)) :
    after ck20 (W) (main_arg8 : DevRef τ sig) = W (main_arg8 : DevRef τ sig) := by
  after_results_simp

theorem sum11_keep_arg9 (W : Valuation τ sig (Elt F)) :
    after ck20 (W) (main_arg9 : DevRef τ sig) = W (main_arg9 : DevRef τ sig) := by
  after_results_simp

theorem sum11_keep_arg10 (W : Valuation τ sig (Elt F)) :
    after ck20 (W) (main_arg10 : DevRef τ sig) = W (main_arg10 : DevRef τ sig) := by
  after_results_simp

theorem sum12_read (W : Valuation τ sig (Elt F)) :
    after ck24 (W) (main_v278 : DevRef τ sig) = addf (W (main_v238 : DevRef τ sig)) (W (main_v277 : DevRef τ sig)) := by
  after_results_simp <;> rfl

theorem sum12_keep_v159 (W : Valuation τ sig (Elt F)) :
    after ck24 (W) (main_v159 : DevRef τ sig) = W (main_v159 : DevRef τ sig) := by
  after_results_simp

theorem sum12_keep_arg0 (W : Valuation τ sig (Elt F)) :
    after ck24 (W) (main_arg0 : DevRef τ sig) = W (main_arg0 : DevRef τ sig) := by
  after_results_simp

theorem sum12_keep_arg1 (W : Valuation τ sig (Elt F)) :
    after ck24 (W) (main_arg1 : DevRef τ sig) = W (main_arg1 : DevRef τ sig) := by
  after_results_simp

theorem sum12_keep_arg2 (W : Valuation τ sig (Elt F)) :
    after ck24 (W) (main_arg2 : DevRef τ sig) = W (main_arg2 : DevRef τ sig) := by
  after_results_simp

theorem sum12_keep_arg3 (W : Valuation τ sig (Elt F)) :
    after ck24 (W) (main_arg3 : DevRef τ sig) = W (main_arg3 : DevRef τ sig) := by
  after_results_simp

theorem sum12_keep_arg4 (W : Valuation τ sig (Elt F)) :
    after ck24 (W) (main_arg4 : DevRef τ sig) = W (main_arg4 : DevRef τ sig) := by
  after_results_simp

theorem sum12_keep_arg5 (W : Valuation τ sig (Elt F)) :
    after ck24 (W) (main_arg5 : DevRef τ sig) = W (main_arg5 : DevRef τ sig) := by
  after_results_simp

theorem sum12_keep_arg6 (W : Valuation τ sig (Elt F)) :
    after ck24 (W) (main_arg6 : DevRef τ sig) = W (main_arg6 : DevRef τ sig) := by
  after_results_simp

theorem sum12_keep_arg7 (W : Valuation τ sig (Elt F)) :
    after ck24 (W) (main_arg7 : DevRef τ sig) = W (main_arg7 : DevRef τ sig) := by
  after_results_simp

theorem sum12_keep_arg8 (W : Valuation τ sig (Elt F)) :
    after ck24 (W) (main_arg8 : DevRef τ sig) = W (main_arg8 : DevRef τ sig) := by
  after_results_simp

theorem sum12_keep_arg9 (W : Valuation τ sig (Elt F)) :
    after ck24 (W) (main_arg9 : DevRef τ sig) = W (main_arg9 : DevRef τ sig) := by
  after_results_simp

theorem sum12_keep_arg10 (W : Valuation τ sig (Elt F)) :
    after ck24 (W) (main_arg10 : DevRef τ sig) = W (main_arg10 : DevRef τ sig) := by
  after_results_simp

theorem sum13_read (W : Valuation τ sig (Elt F)) :
    after ck28 (W) (main_v318 : DevRef τ sig) = addf (W (main_v278 : DevRef τ sig)) (W (main_v317 : DevRef τ sig)) := by
  after_results_simp <;> rfl

theorem sum13_keep_arg0 (W : Valuation τ sig (Elt F)) :
    after ck28 (W) (main_arg0 : DevRef τ sig) = W (main_arg0 : DevRef τ sig) := by
  after_results_simp

theorem sum13_keep_arg1 (W : Valuation τ sig (Elt F)) :
    after ck28 (W) (main_arg1 : DevRef τ sig) = W (main_arg1 : DevRef τ sig) := by
  after_results_simp

theorem sum13_keep_arg2 (W : Valuation τ sig (Elt F)) :
    after ck28 (W) (main_arg2 : DevRef τ sig) = W (main_arg2 : DevRef τ sig) := by
  after_results_simp

theorem sum13_keep_arg3 (W : Valuation τ sig (Elt F)) :
    after ck28 (W) (main_arg3 : DevRef τ sig) = W (main_arg3 : DevRef τ sig) := by
  after_results_simp

theorem sum13_keep_arg4 (W : Valuation τ sig (Elt F)) :
    after ck28 (W) (main_arg4 : DevRef τ sig) = W (main_arg4 : DevRef τ sig) := by
  after_results_simp

theorem sum13_keep_arg5 (W : Valuation τ sig (Elt F)) :
    after ck28 (W) (main_arg5 : DevRef τ sig) = W (main_arg5 : DevRef τ sig) := by
  after_results_simp

theorem sum13_keep_arg6 (W : Valuation τ sig (Elt F)) :
    after ck28 (W) (main_arg6 : DevRef τ sig) = W (main_arg6 : DevRef τ sig) := by
  after_results_simp

theorem sum13_keep_arg7 (W : Valuation τ sig (Elt F)) :
    after ck28 (W) (main_arg7 : DevRef τ sig) = W (main_arg7 : DevRef τ sig) := by
  after_results_simp

theorem sum13_keep_arg8 (W : Valuation τ sig (Elt F)) :
    after ck28 (W) (main_arg8 : DevRef τ sig) = W (main_arg8 : DevRef τ sig) := by
  after_results_simp

theorem sum13_keep_arg9 (W : Valuation τ sig (Elt F)) :
    after ck28 (W) (main_arg9 : DevRef τ sig) = W (main_arg9 : DevRef τ sig) := by
  after_results_simp

theorem sum13_keep_arg10 (W : Valuation τ sig (Elt F)) :
    after ck28 (W) (main_arg10 : DevRef τ sig) = W (main_arg10 : DevRef τ sig) := by
  after_results_simp

theorem relu1_read (W : Valuation τ sig (Elt F)) :
    after ck29 (W) (main_v319 : DevRef τ sig) = relu256 (W (main_v318 : DevRef τ sig)) := by
  after_results_simp <;> rfl

theorem relu1_keep_arg0 (W : Valuation τ sig (Elt F)) :
    after ck29 (W) (main_arg0 : DevRef τ sig) = W (main_arg0 : DevRef τ sig) := by
  after_results_simp

theorem relu1_keep_arg1 (W : Valuation τ sig (Elt F)) :
    after ck29 (W) (main_arg1 : DevRef τ sig) = W (main_arg1 : DevRef τ sig) := by
  after_results_simp

theorem relu1_keep_arg2 (W : Valuation τ sig (Elt F)) :
    after ck29 (W) (main_arg2 : DevRef τ sig) = W (main_arg2 : DevRef τ sig) := by
  after_results_simp

theorem relu1_keep_arg3 (W : Valuation τ sig (Elt F)) :
    after ck29 (W) (main_arg3 : DevRef τ sig) = W (main_arg3 : DevRef τ sig) := by
  after_results_simp

theorem relu1_keep_arg4 (W : Valuation τ sig (Elt F)) :
    after ck29 (W) (main_arg4 : DevRef τ sig) = W (main_arg4 : DevRef τ sig) := by
  after_results_simp

theorem relu1_keep_arg5 (W : Valuation τ sig (Elt F)) :
    after ck29 (W) (main_arg5 : DevRef τ sig) = W (main_arg5 : DevRef τ sig) := by
  after_results_simp

theorem relu1_keep_arg6 (W : Valuation τ sig (Elt F)) :
    after ck29 (W) (main_arg6 : DevRef τ sig) = W (main_arg6 : DevRef τ sig) := by
  after_results_simp

theorem relu1_keep_arg7 (W : Valuation τ sig (Elt F)) :
    after ck29 (W) (main_arg7 : DevRef τ sig) = W (main_arg7 : DevRef τ sig) := by
  after_results_simp

theorem relu1_keep_arg8 (W : Valuation τ sig (Elt F)) :
    after ck29 (W) (main_arg8 : DevRef τ sig) = W (main_arg8 : DevRef τ sig) := by
  after_results_simp

theorem relu1_keep_arg9 (W : Valuation τ sig (Elt F)) :
    after ck29 (W) (main_arg9 : DevRef τ sig) = W (main_arg9 : DevRef τ sig) := by
  after_results_simp

theorem relu1_keep_arg10 (W : Valuation τ sig (Elt F)) :
    after ck29 (W) (main_arg10 : DevRef τ sig) = W (main_arg10 : DevRef τ sig) := by
  after_results_simp

theorem sum21_read (W : Valuation τ sig (Elt F)) :
    after ck35 (W) (main_v398 : DevRef τ sig) = addf (W (main_v358 : DevRef τ sig)) (W (main_v397 : DevRef τ sig)) := by
  after_results_simp <;> rfl

theorem sum21_keep_v319 (W : Valuation τ sig (Elt F)) :
    after ck35 (W) (main_v319 : DevRef τ sig) = W (main_v319 : DevRef τ sig) := by
  after_results_simp

theorem sum21_keep_arg0 (W : Valuation τ sig (Elt F)) :
    after ck35 (W) (main_arg0 : DevRef τ sig) = W (main_arg0 : DevRef τ sig) := by
  after_results_simp

theorem sum21_keep_arg1 (W : Valuation τ sig (Elt F)) :
    after ck35 (W) (main_arg1 : DevRef τ sig) = W (main_arg1 : DevRef τ sig) := by
  after_results_simp

theorem sum21_keep_arg2 (W : Valuation τ sig (Elt F)) :
    after ck35 (W) (main_arg2 : DevRef τ sig) = W (main_arg2 : DevRef τ sig) := by
  after_results_simp

theorem sum21_keep_arg3 (W : Valuation τ sig (Elt F)) :
    after ck35 (W) (main_arg3 : DevRef τ sig) = W (main_arg3 : DevRef τ sig) := by
  after_results_simp

theorem sum21_keep_arg4 (W : Valuation τ sig (Elt F)) :
    after ck35 (W) (main_arg4 : DevRef τ sig) = W (main_arg4 : DevRef τ sig) := by
  after_results_simp

theorem sum21_keep_arg5 (W : Valuation τ sig (Elt F)) :
    after ck35 (W) (main_arg5 : DevRef τ sig) = W (main_arg5 : DevRef τ sig) := by
  after_results_simp

theorem sum21_keep_arg6 (W : Valuation τ sig (Elt F)) :
    after ck35 (W) (main_arg6 : DevRef τ sig) = W (main_arg6 : DevRef τ sig) := by
  after_results_simp

theorem sum21_keep_arg7 (W : Valuation τ sig (Elt F)) :
    after ck35 (W) (main_arg7 : DevRef τ sig) = W (main_arg7 : DevRef τ sig) := by
  after_results_simp

theorem sum21_keep_arg8 (W : Valuation τ sig (Elt F)) :
    after ck35 (W) (main_arg8 : DevRef τ sig) = W (main_arg8 : DevRef τ sig) := by
  after_results_simp

theorem sum21_keep_arg9 (W : Valuation τ sig (Elt F)) :
    after ck35 (W) (main_arg9 : DevRef τ sig) = W (main_arg9 : DevRef τ sig) := by
  after_results_simp

theorem sum21_keep_arg10 (W : Valuation τ sig (Elt F)) :
    after ck35 (W) (main_arg10 : DevRef τ sig) = W (main_arg10 : DevRef τ sig) := by
  after_results_simp

theorem sum22_read (W : Valuation τ sig (Elt F)) :
    after ck39 (W) (main_v438 : DevRef τ sig) = addf (W (main_v398 : DevRef τ sig)) (W (main_v437 : DevRef τ sig)) := by
  after_results_simp <;> rfl

theorem sum22_keep_v319 (W : Valuation τ sig (Elt F)) :
    after ck39 (W) (main_v319 : DevRef τ sig) = W (main_v319 : DevRef τ sig) := by
  after_results_simp

theorem sum22_keep_arg0 (W : Valuation τ sig (Elt F)) :
    after ck39 (W) (main_arg0 : DevRef τ sig) = W (main_arg0 : DevRef τ sig) := by
  after_results_simp

theorem sum22_keep_arg1 (W : Valuation τ sig (Elt F)) :
    after ck39 (W) (main_arg1 : DevRef τ sig) = W (main_arg1 : DevRef τ sig) := by
  after_results_simp

theorem sum22_keep_arg2 (W : Valuation τ sig (Elt F)) :
    after ck39 (W) (main_arg2 : DevRef τ sig) = W (main_arg2 : DevRef τ sig) := by
  after_results_simp

theorem sum22_keep_arg3 (W : Valuation τ sig (Elt F)) :
    after ck39 (W) (main_arg3 : DevRef τ sig) = W (main_arg3 : DevRef τ sig) := by
  after_results_simp

theorem sum22_keep_arg4 (W : Valuation τ sig (Elt F)) :
    after ck39 (W) (main_arg4 : DevRef τ sig) = W (main_arg4 : DevRef τ sig) := by
  after_results_simp

theorem sum22_keep_arg5 (W : Valuation τ sig (Elt F)) :
    after ck39 (W) (main_arg5 : DevRef τ sig) = W (main_arg5 : DevRef τ sig) := by
  after_results_simp

theorem sum22_keep_arg6 (W : Valuation τ sig (Elt F)) :
    after ck39 (W) (main_arg6 : DevRef τ sig) = W (main_arg6 : DevRef τ sig) := by
  after_results_simp

theorem sum22_keep_arg7 (W : Valuation τ sig (Elt F)) :
    after ck39 (W) (main_arg7 : DevRef τ sig) = W (main_arg7 : DevRef τ sig) := by
  after_results_simp

theorem sum22_keep_arg8 (W : Valuation τ sig (Elt F)) :
    after ck39 (W) (main_arg8 : DevRef τ sig) = W (main_arg8 : DevRef τ sig) := by
  after_results_simp

theorem sum22_keep_arg9 (W : Valuation τ sig (Elt F)) :
    after ck39 (W) (main_arg9 : DevRef τ sig) = W (main_arg9 : DevRef τ sig) := by
  after_results_simp

theorem sum22_keep_arg10 (W : Valuation τ sig (Elt F)) :
    after ck39 (W) (main_arg10 : DevRef τ sig) = W (main_arg10 : DevRef τ sig) := by
  after_results_simp

theorem sum23_read (W : Valuation τ sig (Elt F)) :
    after ck43 (W) (main_v478 : DevRef τ sig) = addf (W (main_v438 : DevRef τ sig)) (W (main_v477 : DevRef τ sig)) := by
  after_results_simp <;> rfl

theorem sum23_keep_arg0 (W : Valuation τ sig (Elt F)) :
    after ck43 (W) (main_arg0 : DevRef τ sig) = W (main_arg0 : DevRef τ sig) := by
  after_results_simp

theorem sum23_keep_arg1 (W : Valuation τ sig (Elt F)) :
    after ck43 (W) (main_arg1 : DevRef τ sig) = W (main_arg1 : DevRef τ sig) := by
  after_results_simp

theorem sum23_keep_arg2 (W : Valuation τ sig (Elt F)) :
    after ck43 (W) (main_arg2 : DevRef τ sig) = W (main_arg2 : DevRef τ sig) := by
  after_results_simp

theorem sum23_keep_arg3 (W : Valuation τ sig (Elt F)) :
    after ck43 (W) (main_arg3 : DevRef τ sig) = W (main_arg3 : DevRef τ sig) := by
  after_results_simp

theorem sum23_keep_arg4 (W : Valuation τ sig (Elt F)) :
    after ck43 (W) (main_arg4 : DevRef τ sig) = W (main_arg4 : DevRef τ sig) := by
  after_results_simp

theorem sum23_keep_arg5 (W : Valuation τ sig (Elt F)) :
    after ck43 (W) (main_arg5 : DevRef τ sig) = W (main_arg5 : DevRef τ sig) := by
  after_results_simp

theorem sum23_keep_arg6 (W : Valuation τ sig (Elt F)) :
    after ck43 (W) (main_arg6 : DevRef τ sig) = W (main_arg6 : DevRef τ sig) := by
  after_results_simp

theorem sum23_keep_arg7 (W : Valuation τ sig (Elt F)) :
    after ck43 (W) (main_arg7 : DevRef τ sig) = W (main_arg7 : DevRef τ sig) := by
  after_results_simp

theorem sum23_keep_arg8 (W : Valuation τ sig (Elt F)) :
    after ck43 (W) (main_arg8 : DevRef τ sig) = W (main_arg8 : DevRef τ sig) := by
  after_results_simp

theorem sum23_keep_arg9 (W : Valuation τ sig (Elt F)) :
    after ck43 (W) (main_arg9 : DevRef τ sig) = W (main_arg9 : DevRef τ sig) := by
  after_results_simp

theorem sum23_keep_arg10 (W : Valuation τ sig (Elt F)) :
    after ck43 (W) (main_arg10 : DevRef τ sig) = W (main_arg10 : DevRef τ sig) := by
  after_results_simp

theorem relu2_read (W : Valuation τ sig (Elt F)) :
    after ck44 (W) (main_v479 : DevRef τ sig) = relu256 (W (main_v478 : DevRef τ sig)) := by
  after_results_simp <;> rfl

theorem relu2_keep_arg0 (W : Valuation τ sig (Elt F)) :
    after ck44 (W) (main_arg0 : DevRef τ sig) = W (main_arg0 : DevRef τ sig) := by
  after_results_simp

theorem relu2_keep_arg1 (W : Valuation τ sig (Elt F)) :
    after ck44 (W) (main_arg1 : DevRef τ sig) = W (main_arg1 : DevRef τ sig) := by
  after_results_simp

theorem relu2_keep_arg2 (W : Valuation τ sig (Elt F)) :
    after ck44 (W) (main_arg2 : DevRef τ sig) = W (main_arg2 : DevRef τ sig) := by
  after_results_simp

theorem relu2_keep_arg3 (W : Valuation τ sig (Elt F)) :
    after ck44 (W) (main_arg3 : DevRef τ sig) = W (main_arg3 : DevRef τ sig) := by
  after_results_simp

theorem relu2_keep_arg4 (W : Valuation τ sig (Elt F)) :
    after ck44 (W) (main_arg4 : DevRef τ sig) = W (main_arg4 : DevRef τ sig) := by
  after_results_simp

theorem relu2_keep_arg5 (W : Valuation τ sig (Elt F)) :
    after ck44 (W) (main_arg5 : DevRef τ sig) = W (main_arg5 : DevRef τ sig) := by
  after_results_simp

theorem relu2_keep_arg6 (W : Valuation τ sig (Elt F)) :
    after ck44 (W) (main_arg6 : DevRef τ sig) = W (main_arg6 : DevRef τ sig) := by
  after_results_simp

theorem relu2_keep_arg7 (W : Valuation τ sig (Elt F)) :
    after ck44 (W) (main_arg7 : DevRef τ sig) = W (main_arg7 : DevRef τ sig) := by
  after_results_simp

theorem relu2_keep_arg8 (W : Valuation τ sig (Elt F)) :
    after ck44 (W) (main_arg8 : DevRef τ sig) = W (main_arg8 : DevRef τ sig) := by
  after_results_simp

theorem relu2_keep_arg9 (W : Valuation τ sig (Elt F)) :
    after ck44 (W) (main_arg9 : DevRef τ sig) = W (main_arg9 : DevRef τ sig) := by
  after_results_simp

theorem relu2_keep_arg10 (W : Valuation τ sig (Elt F)) :
    after ck44 (W) (main_arg10 : DevRef τ sig) = W (main_arg10 : DevRef τ sig) := by
  after_results_simp

theorem sum31_read (W : Valuation τ sig (Elt F)) :
    after ck51 (W) (main_v558 : DevRef τ sig) = addf (W (main_v518 : DevRef τ sig)) (W (main_v557 : DevRef τ sig)) := by
  after_results_simp <;> rfl

theorem sum31_keep_v479 (W : Valuation τ sig (Elt F)) :
    after ck51 (W) (main_v479 : DevRef τ sig) = W (main_v479 : DevRef τ sig) := by
  after_results_simp

theorem sum31_keep_arg0 (W : Valuation τ sig (Elt F)) :
    after ck51 (W) (main_arg0 : DevRef τ sig) = W (main_arg0 : DevRef τ sig) := by
  after_results_simp

theorem sum31_keep_arg1 (W : Valuation τ sig (Elt F)) :
    after ck51 (W) (main_arg1 : DevRef τ sig) = W (main_arg1 : DevRef τ sig) := by
  after_results_simp

theorem sum31_keep_arg2 (W : Valuation τ sig (Elt F)) :
    after ck51 (W) (main_arg2 : DevRef τ sig) = W (main_arg2 : DevRef τ sig) := by
  after_results_simp

theorem sum31_keep_arg3 (W : Valuation τ sig (Elt F)) :
    after ck51 (W) (main_arg3 : DevRef τ sig) = W (main_arg3 : DevRef τ sig) := by
  after_results_simp

theorem sum31_keep_arg4 (W : Valuation τ sig (Elt F)) :
    after ck51 (W) (main_arg4 : DevRef τ sig) = W (main_arg4 : DevRef τ sig) := by
  after_results_simp

theorem sum31_keep_arg5 (W : Valuation τ sig (Elt F)) :
    after ck51 (W) (main_arg5 : DevRef τ sig) = W (main_arg5 : DevRef τ sig) := by
  after_results_simp

theorem sum31_keep_arg6 (W : Valuation τ sig (Elt F)) :
    after ck51 (W) (main_arg6 : DevRef τ sig) = W (main_arg6 : DevRef τ sig) := by
  after_results_simp

theorem sum31_keep_arg7 (W : Valuation τ sig (Elt F)) :
    after ck51 (W) (main_arg7 : DevRef τ sig) = W (main_arg7 : DevRef τ sig) := by
  after_results_simp

theorem sum31_keep_arg8 (W : Valuation τ sig (Elt F)) :
    after ck51 (W) (main_arg8 : DevRef τ sig) = W (main_arg8 : DevRef τ sig) := by
  after_results_simp

theorem sum31_keep_arg9 (W : Valuation τ sig (Elt F)) :
    after ck51 (W) (main_arg9 : DevRef τ sig) = W (main_arg9 : DevRef τ sig) := by
  after_results_simp

theorem sum31_keep_arg10 (W : Valuation τ sig (Elt F)) :
    after ck51 (W) (main_arg10 : DevRef τ sig) = W (main_arg10 : DevRef τ sig) := by
  after_results_simp

theorem sum32_read (W : Valuation τ sig (Elt F)) :
    after ck54 (W) (main_v598 : DevRef τ sig) = addf (W (main_v558 : DevRef τ sig)) (W (main_v597 : DevRef τ sig)) := by
  after_results_simp <;> rfl

theorem sum32_keep_v479 (W : Valuation τ sig (Elt F)) :
    after ck54 (W) (main_v479 : DevRef τ sig) = W (main_v479 : DevRef τ sig) := by
  after_results_simp

theorem sum32_keep_arg0 (W : Valuation τ sig (Elt F)) :
    after ck54 (W) (main_arg0 : DevRef τ sig) = W (main_arg0 : DevRef τ sig) := by
  after_results_simp

theorem sum32_keep_arg1 (W : Valuation τ sig (Elt F)) :
    after ck54 (W) (main_arg1 : DevRef τ sig) = W (main_arg1 : DevRef τ sig) := by
  after_results_simp

theorem sum32_keep_arg2 (W : Valuation τ sig (Elt F)) :
    after ck54 (W) (main_arg2 : DevRef τ sig) = W (main_arg2 : DevRef τ sig) := by
  after_results_simp

theorem sum32_keep_arg3 (W : Valuation τ sig (Elt F)) :
    after ck54 (W) (main_arg3 : DevRef τ sig) = W (main_arg3 : DevRef τ sig) := by
  after_results_simp

theorem sum32_keep_arg4 (W : Valuation τ sig (Elt F)) :
    after ck54 (W) (main_arg4 : DevRef τ sig) = W (main_arg4 : DevRef τ sig) := by
  after_results_simp

theorem sum32_keep_arg5 (W : Valuation τ sig (Elt F)) :
    after ck54 (W) (main_arg5 : DevRef τ sig) = W (main_arg5 : DevRef τ sig) := by
  after_results_simp

theorem sum32_keep_arg6 (W : Valuation τ sig (Elt F)) :
    after ck54 (W) (main_arg6 : DevRef τ sig) = W (main_arg6 : DevRef τ sig) := by
  after_results_simp

theorem sum32_keep_arg7 (W : Valuation τ sig (Elt F)) :
    after ck54 (W) (main_arg7 : DevRef τ sig) = W (main_arg7 : DevRef τ sig) := by
  after_results_simp

theorem sum32_keep_arg8 (W : Valuation τ sig (Elt F)) :
    after ck54 (W) (main_arg8 : DevRef τ sig) = W (main_arg8 : DevRef τ sig) := by
  after_results_simp

theorem sum32_keep_arg9 (W : Valuation τ sig (Elt F)) :
    after ck54 (W) (main_arg9 : DevRef τ sig) = W (main_arg9 : DevRef τ sig) := by
  after_results_simp

theorem sum32_keep_arg10 (W : Valuation τ sig (Elt F)) :
    after ck54 (W) (main_arg10 : DevRef τ sig) = W (main_arg10 : DevRef τ sig) := by
  after_results_simp

theorem sum33_read (W : Valuation τ sig (Elt F)) :
    after ck58 (W) (main_v638 : DevRef τ sig) = addf (W (main_v598 : DevRef τ sig)) (W (main_v637 : DevRef τ sig)) := by
  after_results_simp <;> rfl

theorem sum33_keep_arg0 (W : Valuation τ sig (Elt F)) :
    after ck58 (W) (main_arg0 : DevRef τ sig) = W (main_arg0 : DevRef τ sig) := by
  after_results_simp

theorem sum33_keep_arg1 (W : Valuation τ sig (Elt F)) :
    after ck58 (W) (main_arg1 : DevRef τ sig) = W (main_arg1 : DevRef τ sig) := by
  after_results_simp

theorem sum33_keep_arg2 (W : Valuation τ sig (Elt F)) :
    after ck58 (W) (main_arg2 : DevRef τ sig) = W (main_arg2 : DevRef τ sig) := by
  after_results_simp

theorem sum33_keep_arg3 (W : Valuation τ sig (Elt F)) :
    after ck58 (W) (main_arg3 : DevRef τ sig) = W (main_arg3 : DevRef τ sig) := by
  after_results_simp

theorem sum33_keep_arg4 (W : Valuation τ sig (Elt F)) :
    after ck58 (W) (main_arg4 : DevRef τ sig) = W (main_arg4 : DevRef τ sig) := by
  after_results_simp

theorem sum33_keep_arg5 (W : Valuation τ sig (Elt F)) :
    after ck58 (W) (main_arg5 : DevRef τ sig) = W (main_arg5 : DevRef τ sig) := by
  after_results_simp

theorem sum33_keep_arg6 (W : Valuation τ sig (Elt F)) :
    after ck58 (W) (main_arg6 : DevRef τ sig) = W (main_arg6 : DevRef τ sig) := by
  after_results_simp

theorem sum33_keep_arg7 (W : Valuation τ sig (Elt F)) :
    after ck58 (W) (main_arg7 : DevRef τ sig) = W (main_arg7 : DevRef τ sig) := by
  after_results_simp

theorem sum33_keep_arg8 (W : Valuation τ sig (Elt F)) :
    after ck58 (W) (main_arg8 : DevRef τ sig) = W (main_arg8 : DevRef τ sig) := by
  after_results_simp

theorem sum33_keep_arg9 (W : Valuation τ sig (Elt F)) :
    after ck58 (W) (main_arg9 : DevRef τ sig) = W (main_arg9 : DevRef τ sig) := by
  after_results_simp

theorem sum33_keep_arg10 (W : Valuation τ sig (Elt F)) :
    after ck58 (W) (main_arg10 : DevRef τ sig) = W (main_arg10 : DevRef τ sig) := by
  after_results_simp

end Cert.RefHand

end
-- ==== Proof.Ref.Run.lean ====
import proofs.«111407_j24215025614983_1_alg».proof.Proof.Ref.Main
import proofs.«111407_j24215025614983_1_alg».proof.Proof.Ref.Rel00
import proofs.«111407_j24215025614983_1_alg».proof.Proof.Ref.Rel01
import proofs.«111407_j24215025614983_1_alg».proof.Proof.Ref.Rel02
import proofs.«111407_j24215025614983_1_alg».proof.Proof.Ref.Rel03
import proofs.«111407_j24215025614983_1_alg».proof.Proof.Ref.Rel10
import proofs.«111407_j24215025614983_1_alg».proof.Proof.Ref.Rel11
import proofs.«111407_j24215025614983_1_alg».proof.Proof.Ref.Rel12
import proofs.«111407_j24215025614983_1_alg».proof.Proof.Ref.Rel13
import proofs.«111407_j24215025614983_1_alg».proof.Proof.Ref.Rel20
import proofs.«111407_j24215025614983_1_alg».proof.Proof.Ref.Rel21
import proofs.«111407_j24215025614983_1_alg».proof.Proof.Ref.Rel22
import proofs.«111407_j24215025614983_1_alg».proof.Proof.Ref.Rel23
import proofs.«111407_j24215025614983_1_alg».proof.Proof.Ref.Rel30
import proofs.«111407_j24215025614983_1_alg».proof.Proof.Ref.Rel31
import proofs.«111407_j24215025614983_1_alg».proof.Proof.Ref.Rel32
import proofs.«111407_j24215025614983_1_alg».proof.Proof.Ref.Rel33
import proofs.«111407_j24215025614983_1_alg».proof.Proof.Ref.Glue
import proofs.«111407_j24215025614983_1_alg».proof.Proof.SpecR

/-!
The reference program's run. After each relation, sum and maximum in turn, every buffer that is still to be read holds
the corresponding piece of the network as a function of the eleven arguments' launch contents, and the arguments are
unchanged; after the last sum the result buffer holds the whole network.
-/

noncomputable section

namespace Cert.RefHand

open Cert.ReferenceIdeal Cert.ReferenceIdeal.Gen Idealize.ShloMosaic Idealize.ShloMosaic.TcCoe Idealize.SL.Sem Idealize.ShloMosaic.StableHlo

open Cert.RSpec
set_option maxRecDepth 8192
set_option maxHeartbeats 4000000

variable {F : FTy → Type} [FloatOps F]

/-- The buffers still to be read after relation 0 of layer 1. -/
theorem state0 (V : Valuation τ sig (Elt F)) :
    (after ck1 (after ck0 (V)) (main_v38 : DevRef τ sig) = (conv256 0 (V (main_arg0 : DevRef τ sig)) (V (main_arg1 : DevRef τ sig)) (V (main_arg2 : DevRef τ sig)) (V (main_arg9 : DevRef τ sig)) (V (main_arg10 : DevRef τ sig))))
      ∧ (after ck1 (after ck0 (V)) (main_arg0 : DevRef τ sig) = (V (main_arg0 : DevRef τ sig)))
      ∧ (after ck1 (after ck0 (V)) (main_arg1 : DevRef τ sig) = (V (main_arg1 : DevRef τ sig)))
      ∧ (after ck1 (after ck0 (V)) (main_arg2 : DevRef τ sig) = (V (main_arg2 : DevRef τ sig)))
      ∧ (after ck1 (after ck0 (V)) (main_arg3 : DevRef τ sig) = (V (main_arg3 : DevRef τ sig)))
      ∧ (after ck1 (after ck0 (V)) (main_arg4 : DevRef τ sig) = (V (main_arg4 : DevRef τ sig)))
      ∧ (after ck1 (after ck0 (V)) (main_arg5 : DevRef τ sig) = (V (main_arg5 : DevRef τ sig)))
      ∧ (after ck1 (after ck0 (V)) (main_arg6 : DevRef τ sig) = (V (main_arg6 : DevRef τ sig)))
      ∧ (after ck1 (after ck0 (V)) (main_arg7 : DevRef τ sig) = (V (main_arg7 : DevRef τ sig)))
      ∧ (after ck1 (after ck0 (V)) (main_arg8 : DevRef τ sig) = (V (main_arg8 : DevRef τ sig)))
      ∧ (after ck1 (after ck0 (V)) (main_arg9 : DevRef τ sig) = (V (main_arg9 : DevRef τ sig)))
      ∧ (after ck1 (after ck0 (V)) (main_arg10 : DevRef τ sig) = (V (main_arg10 : DevRef τ sig))) := by
  exact ⟨(rel00_read V),
    (rel00_keep_arg0 V),
    (rel00_keep_arg1 V),
    (rel00_keep_arg2 V),
    (rel00_keep_arg3 V),
    (rel00_keep_arg4 V),
    (rel00_keep_arg5 V),
    (rel00_keep_arg6 V),
    (rel00_keep_arg7 V),
    (rel00_keep_arg8 V),
    (rel00_keep_arg9 V),
    (rel00_keep_arg10 V)⟩

/-- The buffers still to be read after relation 1 of layer 1. -/
theorem state1 (V : Valuation τ sig (Elt F)) :
    (after ck4 (after ck3 (after ck2 (after ck1 (after ck0 (V))))) (main_v38 : DevRef τ sig) = (conv256 0 (V (main_arg0 : DevRef τ sig)) (V (main_arg1 : DevRef τ sig)) (V (main_arg2 : DevRef τ sig)) (V (main_arg9 : DevRef τ sig)) (V (main_arg10 : DevRef τ sig))))
      ∧ (after ck4 (after ck3 (after ck2 (after ck1 (after ck0 (V))))) (main_v77 : DevRef τ sig) = (conv256 1 (V (main_arg0 : DevRef τ sig)) (V (main_arg1 : DevRef τ sig)) (V (main_arg2 : DevRef τ sig)) (V (main_arg9 : DevRef τ sig)) (V (main_arg10 : DevRef τ sig))))
      ∧ (after ck4 (after ck3 (after ck2 (after ck1 (after ck0 (V))))) (main_arg0 : DevRef τ sig) = (V (main_arg0 : DevRef τ sig)))
      ∧ (after ck4 (after ck3 (after ck2 (after ck1 (after ck0 (V))))) (main_arg1 : DevRef τ sig) = (V (main_arg1 : DevRef τ sig)))
      ∧ (after ck4 (after ck3 (after ck2 (after ck1 (after ck0 (V))))) (main_arg2 : DevRef τ sig) = (V (main_arg2 : DevRef τ sig)))
      ∧ (after ck4 (after ck3 (after ck2 (after ck1 (after ck0 (V))))) (main_arg3 : DevRef τ sig) = (V (main_arg3 : DevRef τ sig)))
      ∧ (after ck4 (after ck3 (after ck2 (after ck1 (after ck0 (V))))) (main_arg4 : DevRef τ sig) = (V (main_arg4 : DevRef τ sig)))
      ∧ (after ck4 (after ck3 (after ck2 (after ck1 (after ck0 (V))))) (main_arg5 : DevRef τ sig) = (V (main_arg5 : DevRef τ sig)))
      ∧ (after ck4 (after ck3 (after ck2 (after ck1 (after ck0 (V))))) (main_arg6 : DevRef τ sig) = (V (main_arg6 : DevRef τ sig)))
      ∧ (after ck4 (after ck3 (after ck2 (after ck1 (after ck0 (V))))) (main_arg7 : DevRef τ sig) = (V (main_arg7 : DevRef τ sig)))
      ∧ (after ck4 (after ck3 (after ck2 (after ck1 (after ck0 (V))))) (main_arg8 : DevRef τ sig) = (V (main_arg8 : DevRef τ sig)))
      ∧ (after ck4 (after ck3 (after ck2 (after ck1 (after ck0 (V))))) (main_arg9 : DevRef τ sig) = (V (main_arg9 : DevRef τ sig)))
      ∧ (after ck4 (after ck3 (after ck2 (after ck1 (after ck0 (V))))) (main_arg10 : DevRef τ sig) = (V (main_arg10 : DevRef τ sig))) := by
  obtain ⟨h_v38, h_arg0, h_arg1, h_arg2, h_arg3, h_arg4, h_arg5, h_arg6, h_arg7, h_arg8, h_arg9, h_arg10⟩ := state0 V
  generalize after ck1 (after ck0 (V)) = W at h_v38 h_arg0 h_arg1 h_arg2 h_arg3 h_arg4 h_arg5 h_arg6 h_arg7 h_arg8 h_arg9 h_arg10 ⊢
  exact ⟨((rel01_keep_v38 W).trans h_v38),
    ((rel01_read W).trans (by rw [h_arg1, h_arg2, h_arg9, h_arg10, h_arg0])),
    ((rel01_keep_arg0 W).trans h_arg0),
    ((rel01_keep_arg1 W).trans h_arg1),
    ((rel01_keep_arg2 W).trans h_arg2),
    ((rel01_keep_arg3 W).trans h_arg3),
    ((rel01_keep_arg4 W).trans h_arg4),
    ((rel01_keep_arg5 W).trans h_arg5),
    ((rel01_keep_arg6 W).trans h_arg6),
    ((rel01_keep_arg7 W).trans h_arg7),
    ((rel01_keep_arg8 W).trans h_arg8),
    ((rel01_keep_arg9 W).trans h_arg9),
    ((rel01_keep_arg10 W).trans h_arg10)⟩

/-- The buffers still to be read after adding relation 1 of layer 1. -/
theorem state2 (V : Valuation τ sig (Elt F)) :
    (after ck5 (after ck4 (after ck3 (after ck2 (after ck1 (after ck0 (V)))))) (main_v78 : DevRef τ sig) = (addf (conv256 0 (V (main_arg0 : DevRef τ sig)) (V (main_arg1 : DevRef τ sig)) (V (main_arg2 : DevRef τ sig)) (V (main_arg9 : DevRef τ sig)) (V (main_arg10 : DevRef τ sig))) (conv256 1 (V (main_arg0 : DevRef τ sig)) (V (main_arg1 : DevRef τ sig)) (V (main_arg2 : DevRef τ sig)) (V (main_arg9 : DevRef τ sig)) (V (main_arg10 : DevRef τ sig)))))
      ∧ (after ck5 (after ck4 (after ck3 (after ck2 (after ck1 (after ck0 (V)))))) (main_arg0 : DevRef τ sig) = (V (main_arg0 : DevRef τ sig)))
      ∧ (after ck5 (after ck4 (after ck3 (after ck2 (after ck1 (after ck0 (V)))))) (main_arg1 : DevRef τ sig) = (V (main_arg1 : DevRef τ sig)))
      ∧ (after ck5 (after ck4 (after ck3 (after ck2 (after ck1 (after ck0 (V)))))) (main_arg2 : DevRef τ sig) = (V (main_arg2 : DevRef τ sig)))
      ∧ (after ck5 (after ck4 (after ck3 (after ck2 (after ck1 (after ck0 (V)))))) (main_arg3 : DevRef τ sig) = (V (main_arg3 : DevRef τ sig)))
      ∧ (after ck5 (after ck4 (after ck3 (after ck2 (after ck1 (after ck0 (V)))))) (main_arg4 : DevRef τ sig) = (V (main_arg4 : DevRef τ sig)))
      ∧ (after ck5 (after ck4 (after ck3 (after ck2 (after ck1 (after ck0 (V)))))) (main_arg5 : DevRef τ sig) = (V (main_arg5 : DevRef τ sig)))
      ∧ (after ck5 (after ck4 (after ck3 (after ck2 (after ck1 (after ck0 (V)))))) (main_arg6 : DevRef τ sig) = (V (main_arg6 : DevRef τ sig)))
      ∧ (after ck5 (after ck4 (after ck3 (after ck2 (after ck1 (after ck0 (V)))))) (main_arg7 : DevRef τ sig) = (V (main_arg7 : DevRef τ sig)))
      ∧ (after ck5 (after ck4 (after ck3 (after ck2 (after ck1 (after ck0 (V)))))) (main_arg8 : DevRef τ sig) = (V (main_arg8 : DevRef τ sig)))
      ∧ (after ck5 (after ck4 (after ck3 (after ck2 (after ck1 (after ck0 (V)))))) (main_arg9 : DevRef τ sig) = (V (main_arg9 : DevRef τ sig)))
      ∧ (after ck5 (after ck4 (after ck3 (after ck2 (after ck1 (after ck0 (V)))))) (main_arg10 : DevRef τ sig) = (V (main_arg10 : DevRef τ sig))) := by
  obtain ⟨h_v38, h_v77, h_arg0, h_arg1, h_arg2, h_arg3, h_arg4, h_arg5, h_arg6, h_arg7, h_arg8, h_arg9, h_arg10⟩ := state1 V
  generalize after ck4 (after ck3 (after ck2 (after ck1 (after ck0 (V))))) = W at h_v38 h_v77 h_arg0 h_arg1 h_arg2 h_arg3 h_arg4 h_arg5 h_arg6 h_arg7 h_arg8 h_arg9 h_arg10 ⊢
  exact ⟨((sum01_read W).trans (by rw [h_v38, h_v77])),
    ((sum01_keep_arg0 W).trans h_arg0),
    ((sum01_keep_arg1 W).trans h_arg1),
    ((sum01_keep_arg2 W).trans h_arg2),
    ((sum01_keep_arg3 W).trans h_arg3),
    ((sum01_keep_arg4 W).trans h_arg4),
    ((sum01_keep_arg5 W).trans h_arg5),
    ((sum01_keep_arg6 W).trans h_arg6),
    ((sum01_keep_arg7 W).trans h_arg7),
    ((sum01_keep_arg8 W).trans h_arg8),
    ((sum01_keep_arg9 W).trans h_arg9),
    ((sum01_keep_arg10 W).trans h_arg10)⟩

/-- The buffers still to be read after relation 2 of layer 1. -/
theorem state3 (V : Valuation τ sig (Elt F)) :
    (after ck8 (after ck7 (after ck6 (after ck5 (after ck4 (after ck3 (after ck2 (after ck1 (after ck0 (V))))))))) (main_v78 : DevRef τ sig) = (addf (conv256 0 (V (main_arg0 : DevRef τ sig)) (V (main_arg1 : DevRef τ sig)) (V (main_arg2 : DevRef τ sig)) (V (main_arg9 : DevRef τ sig)) (V (main_arg10 : DevRef τ sig))) (conv256 1 (V (main_arg0 : DevRef τ sig)) (V (main_arg1 : DevRef τ sig)) (V (main_arg2 : DevRef τ sig)) (V (main_arg9 : DevRef τ sig)) (V (main_arg10 : DevRef τ sig)))))
      ∧ (after ck8 (after ck7 (after ck6 (after ck5 (after ck4 (after ck3 (after ck2 (after ck1 (after ck0 (V))))))))) (main_v117 : DevRef τ sig) = (conv256 2 (V (main_arg0 : DevRef τ sig)) (V (main_arg1 : DevRef τ sig)) (V (main_arg2 : DevRef τ sig)) (V (main_arg9 : DevRef τ sig)) (V (main_arg10 : DevRef τ sig))))
      ∧ (after ck8 (after ck7 (after ck6 (after ck5 (after ck4 (after ck3 (after ck2 (after ck1 (after ck0 (V))))))))) (main_arg0 : DevRef τ sig) = (V (main_arg0 : DevRef τ sig)))
      ∧ (after ck8 (after ck7 (after ck6 (after ck5 (after ck4 (after ck3 (after ck2 (after ck1 (after ck0 (V))))))))) (main_arg1 : DevRef τ sig) = (V (main_arg1 : DevRef τ sig)))
      ∧ (after ck8 (after ck7 (after ck6 (after ck5 (after ck4 (after ck3 (after ck2 (after ck1 (after ck0 (V))))))))) (main_arg2 : DevRef τ sig) = (V (main_arg2 : DevRef τ sig)))
      ∧ (after ck8 (after ck7 (after ck6 (after ck5 (after ck4 (after ck3 (after ck2 (after ck1 (after ck0 (V))))))))) (main_arg3 : DevRef τ sig) = (V (main_arg3 : DevRef τ sig)))
      ∧ (after ck8 (after ck7 (after ck6 (after ck5 (after ck4 (after ck3 (after ck2 (after ck1 (after ck0 (V))))))))) (main_arg4 : DevRef τ sig) = (V (main_arg4 : DevRef τ sig)))
      ∧ (after ck8 (after ck7 (after ck6 (after ck5 (after ck4 (after ck3 (after ck2 (after ck1 (after ck0 (V))))))))) (main_arg5 : DevRef τ sig) = (V (main_arg5 : DevRef τ sig)))
      ∧ (after ck8 (after ck7 (after ck6 (after ck5 (after ck4 (after ck3 (after ck2 (after ck1 (after ck0 (V))))))))) (main_arg6 : DevRef τ sig) = (V (main_arg6 : DevRef τ sig)))
      ∧ (after ck8 (after ck7 (after ck6 (after ck5 (after ck4 (after ck3 (after ck2 (after ck1 (after ck0 (V))))))))) (main_arg7 : DevRef τ sig) = (V (main_arg7 : DevRef τ sig)))
      ∧ (after ck8 (after ck7 (after ck6 (after ck5 (after ck4 (after ck3 (after ck2 (after ck1 (after ck0 (V))))))))) (main_arg8 : DevRef τ sig) = (V (main_arg8 : DevRef τ sig)))
      ∧ (after ck8 (after ck7 (after ck6 (after ck5 (after ck4 (after ck3 (after ck2 (after ck1 (after ck0 (V))))))))) (main_arg9 : DevRef τ sig) = (V (main_arg9 : DevRef τ sig)))
      ∧ (after ck8 (after ck7 (after ck6 (after ck5 (after ck4 (after ck3 (after ck2 (after ck1 (after ck0 (V))))))))) (main_arg10 : DevRef τ sig) = (V (main_arg10 : DevRef τ sig))) := by
  obtain ⟨h_v78, h_arg0, h_arg1, h_arg2, h_arg3, h_arg4, h_arg5, h_arg6, h_arg7, h_arg8, h_arg9, h_arg10⟩ := state2 V
  generalize after ck5 (after ck4 (after ck3 (after ck2 (after ck1 (after ck0 (V)))))) = W at h_v78 h_arg0 h_arg1 h_arg2 h_arg3 h_arg4 h_arg5 h_arg6 h_arg7 h_arg8 h_arg9 h_arg10 ⊢
  exact ⟨((rel02_keep_v78 W).trans h_v78),
    ((rel02_read W).trans (by rw [h_arg1, h_arg2, h_arg9, h_arg10, h_arg0])),
    ((rel02_keep_arg0 W).trans h_arg0),
    ((rel02_keep_arg1 W).trans h_arg1),
    ((rel02_keep_arg2 W).trans h_arg2),
    ((rel02_keep_arg3 W).trans h_arg3),
    ((rel02_keep_arg4 W).trans h_arg4),
    ((rel02_keep_arg5 W).trans h_arg5),
    ((rel02_keep_arg6 W).trans h_arg6),
    ((rel02_keep_arg7 W).trans h_arg7),
    ((rel02_keep_arg8 W).trans h_arg8),
    ((rel02_keep_arg9 W).trans h_arg9),
    ((rel02_keep_arg10 W).trans h_arg10)⟩

/-- The buffers still to be read after adding relation 2 of layer 1. -/
theorem state4 (V : Valuation τ sig (Elt F)) :
    (after ck9 (after ck8 (after ck7 (after ck6 (after ck5 (after ck4 (after ck3 (after ck2 (after ck1 (after ck0 (V)))))))))) (main_v118 : DevRef τ sig) = (addf (addf (conv256 0 (V (main_arg0 : DevRef τ sig)) (V (main_arg1 : DevRef τ sig)) (V (main_arg2 : DevRef τ sig)) (V (main_arg9 : DevRef τ sig)) (V (main_arg10 : DevRef τ sig))) (conv256 1 (V (main_arg0 : DevRef τ sig)) (V (main_arg1 : DevRef τ sig)) (V (main_arg2 : DevRef τ sig)) (V (main_arg9 : DevRef τ sig)) (V (main_arg10 : DevRef τ sig)))) (conv256 2 (V (main_arg0 : DevRef τ sig)) (V (main_arg1 : DevRef τ sig)) (V (main_arg2 : DevRef τ sig)) (V (main_arg9 : DevRef τ sig)) (V (main_arg10 : DevRef τ sig)))))
      ∧ (after ck9 (after ck8 (after ck7 (after ck6 (after ck5 (after ck4 (after ck3 (after ck2 (after ck1 (after ck0 (V)))))))))) (main_arg0 : DevRef τ sig) = (V (main_arg0 : DevRef τ sig)))
      ∧ (after ck9 (after ck8 (after ck7 (after ck6 (after ck5 (after ck4 (after ck3 (after ck2 (after ck1 (after ck0 (V)))))))))) (main_arg1 : DevRef τ sig) = (V (main_arg1 : DevRef τ sig)))
      ∧ (after ck9 (after ck8 (after ck7 (after ck6 (after ck5 (after ck4 (after ck3 (after ck2 (after ck1 (after ck0 (V)))))))))) (main_arg2 : DevRef τ sig) = (V (main_arg2 : DevRef τ sig)))
      ∧ (after ck9 (after ck8 (after ck7 (after ck6 (after ck5 (after ck4 (after ck3 (after ck2 (after ck1 (after ck0 (V)))))))))) (main_arg3 : DevRef τ sig) = (V (main_arg3 : DevRef τ sig)))
      ∧ (after ck9 (after ck8 (after ck7 (after ck6 (after ck5 (after ck4 (after ck3 (after ck2 (after ck1 (after ck0 (V)))))))))) (main_arg4 : DevRef τ sig) = (V (main_arg4 : DevRef τ sig)))
      ∧ (after ck9 (after ck8 (after ck7 (after ck6 (after ck5 (after ck4 (after ck3 (after ck2 (after ck1 (after ck0 (V)))))))))) (main_arg5 : DevRef τ sig) = (V (main_arg5 : DevRef τ sig)))
      ∧ (after ck9 (after ck8 (after ck7 (after ck6 (after ck5 (after ck4 (after ck3 (after ck2 (after ck1 (after ck0 (V)))))))))) (main_arg6 : DevRef τ sig) = (V (main_arg6 : DevRef τ sig)))
      ∧ (after ck9 (after ck8 (after ck7 (after ck6 (after ck5 (after ck4 (after ck3 (after ck2 (after ck1 (after ck0 (V)))))))))) (main_arg7 : DevRef τ sig) = (V (main_arg7 : DevRef τ sig)))
      ∧ (after ck9 (after ck8 (after ck7 (after ck6 (after ck5 (after ck4 (after ck3 (after ck2 (after ck1 (after ck0 (V)))))))))) (main_arg8 : DevRef τ sig) = (V (main_arg8 : DevRef τ sig)))
      ∧ (after ck9 (after ck8 (after ck7 (after ck6 (after ck5 (after ck4 (after ck3 (after ck2 (after ck1 (after ck0 (V)))))))))) (main_arg9 : DevRef τ sig) = (V (main_arg9 : DevRef τ sig)))
      ∧ (after ck9 (after ck8 (after ck7 (after ck6 (after ck5 (after ck4 (after ck3 (after ck2 (after ck1 (after ck0 (V)))))))))) (main_arg10 : DevRef τ sig) = (V (main_arg10 : DevRef τ sig))) := by
  obtain ⟨h_v78, h_v117, h_arg0, h_arg1, h_arg2, h_arg3, h_arg4, h_arg5, h_arg6, h_arg7, h_arg8, h_arg9, h_arg10⟩ := state3 V
  generalize after ck8 (after ck7 (after ck6 (after ck5 (after ck4 (after ck3 (after ck2 (after ck1 (after ck0 (V))))))))) = W at h_v78 h_v117 h_arg0 h_arg1 h_arg2 h_arg3 h_arg4 h_arg5 h_arg6 h_arg7 h_arg8 h_arg9 h_arg10 ⊢
  exact ⟨((sum02_read W).trans (by rw [h_v78, h_v117])),
    ((sum02_keep_arg0 W).trans h_arg0),
    ((sum02_keep_arg1 W).trans h_arg1),
    ((sum02_keep_arg2 W).trans h_arg2),
    ((sum02_keep_arg3 W).trans h_arg3),
    ((sum02_keep_arg4 W).trans h_arg4),
    ((sum02_keep_arg5 W).trans h_arg5),
    ((sum02_keep_arg6 W).trans h_arg6),
    ((sum02_keep_arg7 W).trans h_arg7),
    ((sum02_keep_arg8 W).trans h_arg8),
    ((sum02_keep_arg9 W).trans h_arg9),
    ((sum02_keep_arg10 W).trans h_arg10)⟩

/-- The buffers still to be read after relation 3 of layer 1. -/
theorem state5 (V : Valuation τ sig (Elt F)) :
    (after ck12 (after ck11 (after ck10 (after ck9 (after ck8 (after ck7 (after ck6 (after ck5 (after ck4 (after ck3 (after ck2 (after ck1 (after ck0 (V))))))))))))) (main_v118 : DevRef τ sig) = (addf (addf (conv256 0 (V (main_arg0 : DevRef τ sig)) (V (main_arg1 : DevRef τ sig)) (V (main_arg2 : DevRef τ sig)) (V (main_arg9 : DevRef τ sig)) (V (main_arg10 : DevRef τ sig))) (conv256 1 (V (main_arg0 : DevRef τ sig)) (V (main_arg1 : DevRef τ sig)) (V (main_arg2 : DevRef τ sig)) (V (main_arg9 : DevRef τ sig)) (V (main_arg10 : DevRef τ sig)))) (conv256 2 (V (main_arg0 : DevRef τ sig)) (V (main_arg1 : DevRef τ sig)) (V (main_arg2 : DevRef τ sig)) (V (main_arg9 : DevRef τ sig)) (V (main_arg10 : DevRef τ sig)))))
      ∧ (after ck12 (after ck11 (after ck10 (after ck9 (after ck8 (after ck7 (after ck6 (after ck5 (after ck4 (after ck3 (after ck2 (after ck1 (after ck0 (V))))))))))))) (main_v157 : DevRef τ sig) = (conv256 3 (V (main_arg0 : DevRef τ sig)) (V (main_arg1 : DevRef τ sig)) (V (main_arg2 : DevRef τ sig)) (V (main_arg9 : DevRef τ sig)) (V (main_arg10 : DevRef τ sig))))
      ∧ (after ck12 (after ck11 (after ck10 (after ck9 (after ck8 (after ck7 (after ck6 (after ck5 (after ck4 (after ck3 (after ck2 (after ck1 (after ck0 (V))))))))))))) (main_arg0 : DevRef τ sig) = (V (main_arg0 : DevRef τ sig)))
      ∧ (after ck12 (after ck11 (after ck10 (after ck9 (after ck8 (after ck7 (after ck6 (after ck5 (after ck4 (after ck3 (after ck2 (after ck1 (after ck0 (V))))))))))))) (main_arg1 : DevRef τ sig) = (V (main_arg1 : DevRef τ sig)))
      ∧ (after ck12 (after ck11 (after ck10 (after ck9 (after ck8 (after ck7 (after ck6 (after ck5 (after ck4 (after ck3 (after ck2 (after ck1 (after ck0 (V))))))))))))) (main_arg2 : DevRef τ sig) = (V (main_arg2 : DevRef τ sig)))
      ∧ (after ck12 (after ck11 (after ck10 (after ck9 (after ck8 (after ck7 (after ck6 (after ck5 (after ck4 (after ck3 (after ck2 (after ck1 (after ck0 (V))))))))))))) (main_arg3 : DevRef τ sig) = (V (main_arg3 : DevRef τ sig)))
      ∧ (after ck12 (after ck11 (after ck10 (after ck9 (after ck8 (after ck7 (after ck6 (after ck5 (after ck4 (after ck3 (after ck2 (after ck1 (after ck0 (V))))))))))))) (main_arg4 : DevRef τ sig) = (V (main_arg4 : DevRef τ sig)))
      ∧ (after ck12 (after ck11 (after ck10 (after ck9 (after ck8 (after ck7 (after ck6 (after ck5 (after ck4 (after ck3 (after ck2 (after ck1 (after ck0 (V))))))))))))) (main_arg5 : DevRef τ sig) = (V (main_arg5 : DevRef τ sig)))
      ∧ (after ck12 (after ck11 (after ck10 (after ck9 (after ck8 (after ck7 (after ck6 (after ck5 (after ck4 (after ck3 (after ck2 (after ck1 (after ck0 (V))))))))))))) (main_arg6 : DevRef τ sig) = (V (main_arg6 : DevRef τ sig)))
      ∧ (after ck12 (after ck11 (after ck10 (after ck9 (after ck8 (after ck7 (after ck6 (after ck5 (after ck4 (after ck3 (after ck2 (after ck1 (after ck0 (V))))))))))))) (main_arg7 : DevRef τ sig) = (V (main_arg7 : DevRef τ sig)))
      ∧ (after ck12 (after ck11 (after ck10 (after ck9 (after ck8 (after ck7 (after ck6 (after ck5 (after ck4 (after ck3 (after ck2 (after ck1 (after ck0 (V))))))))))))) (main_arg8 : DevRef τ sig) = (V (main_arg8 : DevRef τ sig)))
      ∧ (after ck12 (after ck11 (after ck10 (after ck9 (after ck8 (after ck7 (after ck6 (after ck5 (after ck4 (after ck3 (after ck2 (after ck1 (after ck0 (V))))))))))))) (main_arg9 : DevRef τ sig) = (V (main_arg9 : DevRef τ sig)))
      ∧ (after ck12 (after ck11 (after ck10 (after ck9 (after ck8 (after ck7 (after ck6 (after ck5 (after ck4 (after ck3 (after ck2 (after ck1 (after ck0 (V))))))))))))) (main_arg10 : DevRef τ sig) = (V (main_arg10 : DevRef τ sig))) := by
  obtain ⟨h_v118, h_arg0, h_arg1, h_arg2, h_arg3, h_arg4, h_arg5, h_arg6, h_arg7, h_arg8, h_arg9, h_arg10⟩ := state4 V
  generalize after ck9 (after ck8 (after ck7 (after ck6 (after ck5 (after ck4 (after ck3 (after ck2 (after ck1 (after ck0 (V)))))))))) = W at h_v118 h_arg0 h_arg1 h_arg2 h_arg3 h_arg4 h_arg5 h_arg6 h_arg7 h_arg8 h_arg9 h_arg10 ⊢
  exact ⟨((rel03_keep_v118 W).trans h_v118),
    ((rel03_read W).trans (by rw [h_arg1, h_arg2, h_arg9, h_arg10, h_arg0])),
    ((rel03_keep_arg0 W).trans h_arg0),
    ((rel03_keep_arg1 W).trans h_arg1),
    ((rel03_keep_arg2 W).trans h_arg2),
    ((rel03_keep_arg3 W).trans h_arg3),
    ((rel03_keep_arg4 W).trans h_arg4),
    ((rel03_keep_arg5 W).trans h_arg5),
    ((rel03_keep_arg6 W).trans h_arg6),
    ((rel03_keep_arg7 W).trans h_arg7),
    ((rel03_keep_arg8 W).trans h_arg8),
    ((rel03_keep_arg9 W).trans h_arg9),
    ((rel03_keep_arg10 W).trans h_arg10)⟩

/-- The buffers still to be read after adding relation 3 of layer 1. -/
theorem state6 (V : Valuation τ sig (Elt F)) :
    (after ck13 (after ck12 (after ck11 (after ck10 (after ck9 (after ck8 (after ck7 (after ck6 (after ck5 (after ck4 (after ck3 (after ck2 (after ck1 (after ck0 (V)))))))))))))) (main_v158 : DevRef τ sig) = (layer256 (V (main_arg0 : DevRef τ sig)) (V (main_arg1 : DevRef τ sig)) (V (main_arg2 : DevRef τ sig)) (V (main_arg9 : DevRef τ sig)) (V (main_arg10 : DevRef τ sig))))
      ∧ (after ck13 (after ck12 (after ck11 (after ck10 (after ck9 (after ck8 (after ck7 (after ck6 (after ck5 (after ck4 (after ck3 (after ck2 (after ck1 (after ck0 (V)))))))))))))) (main_arg0 : DevRef τ sig) = (V (main_arg0 : DevRef τ sig)))
      ∧ (after ck13 (after ck12 (after ck11 (after ck10 (after ck9 (after ck8 (after ck7 (after ck6 (after ck5 (after ck4 (after ck3 (after ck2 (after ck1 (after ck0 (V)))))))))))))) (main_arg1 : DevRef τ sig) = (V (main_arg1 : DevRef τ sig)))
      ∧ (after ck13 (after ck12 (after ck11 (after ck10 (after ck9 (after ck8 (after ck7 (after ck6 (after ck5 (after ck4 (after ck3 (after ck2 (after ck1 (after ck0 (V)))))))))))))) (main_arg2 : DevRef τ sig) = (V (main_arg2 : DevRef τ sig)))
      ∧ (after ck13 (after ck12 (after ck11 (after ck10 (after ck9 (after ck8 (after ck7 (after ck6 (after ck5 (after ck4 (after ck3 (after ck2 (after ck1 (after ck0 (V)))))))))))))) (main_arg3 : DevRef τ sig) = (V (main_arg3 : DevRef τ sig)))
      ∧ (after ck13 (after ck12 (after ck11 (after ck10 (after ck9 (after ck8 (after ck7 (after ck6 (after ck5 (after ck4 (after ck3 (after ck2 (after ck1 (after ck0 (V)))))))))))))) (main_arg4 : DevRef τ sig) = (V (main_arg4 : DevRef τ sig)))
      ∧ (after ck13 (after ck12 (after ck11 (after ck10 (after ck9 (after ck8 (after ck7 (after ck6 (after ck5 (after ck4 (after ck3 (after ck2 (after ck1 (after ck0 (V)))))))))))))) (main_arg5 : DevRef τ sig) = (V (main_arg5 : DevRef τ sig)))
      ∧ (after ck13 (after ck12 (after ck11 (after ck10 (after ck9 (after ck8 (after ck7 (after ck6 (after ck5 (after ck4 (after ck3 (after ck2 (after ck1 (after ck0 (V)))))))))))))) (main_arg6 : DevRef τ sig) = (V (main_arg6 : DevRef τ sig)))
      ∧ (after ck13 (after ck12 (after ck11 (after ck10 (after ck9 (after ck8 (after ck7 (after ck6 (after ck5 (after ck4 (after ck3 (after ck2 (after ck1 (after ck0 (V)))))))))))))) (main_arg7 : DevRef τ sig) = (V (main_arg7 : DevRef τ sig)))
      ∧ (after ck13 (after ck12 (after ck11 (after ck10 (after ck9 (after ck8 (after ck7 (after ck6 (after ck5 (after ck4 (after ck3 (after ck2 (after ck1 (after ck0 (V)))))))))))))) (main_arg8 : DevRef τ sig) = (V (main_arg8 : DevRef τ sig)))
      ∧ (after ck13 (after ck12 (after ck11 (after ck10 (after ck9 (after ck8 (after ck7 (after ck6 (after ck5 (after ck4 (after ck3 (after ck2 (after ck1 (after ck0 (V)))))))))))))) (main_arg9 : DevRef τ sig) = (V (main_arg9 : DevRef τ sig)))
      ∧ (after ck13 (after ck12 (after ck11 (after ck10 (after ck9 (after ck8 (after ck7 (after ck6 (after ck5 (after ck4 (after ck3 (after ck2 (after ck1 (after ck0 (V)))))))))))))) (main_arg10 : DevRef τ sig) = (V (main_arg10 : DevRef τ sig))) := by
  obtain ⟨h_v118, h_v157, h_arg0, h_arg1, h_arg2, h_arg3, h_arg4, h_arg5, h_arg6, h_arg7, h_arg8, h_arg9, h_arg10⟩ := state5 V
  generalize after ck12 (after ck11 (after ck10 (after ck9 (after ck8 (after ck7 (after ck6 (after ck5 (after ck4 (after ck3 (after ck2 (after ck1 (after ck0 (V))))))))))))) = W at h_v118 h_v157 h_arg0 h_arg1 h_arg2 h_arg3 h_arg4 h_arg5 h_arg6 h_arg7 h_arg8 h_arg9 h_arg10 ⊢
  exact ⟨((sum03_read W).trans (by rw [h_v118, h_v157]; exact rfl)),
    ((sum03_keep_arg0 W).trans h_arg0),
    ((sum03_keep_arg1 W).trans h_arg1),
    ((sum03_keep_arg2 W).trans h_arg2),
    ((sum03_keep_arg3 W).trans h_arg3),
    ((sum03_keep_arg4 W).trans h_arg4),
    ((sum03_keep_arg5 W).trans h_arg5),
    ((sum03_keep_arg6 W).trans h_arg6),
    ((sum03_keep_arg7 W).trans h_arg7),
    ((sum03_keep_arg8 W).trans h_arg8),
    ((sum03_keep_arg9 W).trans h_arg9),
    ((sum03_keep_arg10 W).trans h_arg10)⟩

/-- The buffers still to be read after the maximum after layer 1. -/
theorem state7 (V : Valuation τ sig (Elt F)) :
    (after ck14 (after ck13 (after ck12 (after ck11 (after ck10 (after ck9 (after ck8 (after ck7 (after ck6 (after ck5 (after ck4 (after ck3 (after ck2 (after ck1 (after ck0 (V))))))))))))))) (main_v159 : DevRef τ sig) = (relu256 (layer256 (V (main_arg0 : DevRef τ sig)) (V (main_arg1 : DevRef τ sig)) (V (main_arg2 : DevRef τ sig)) (V (main_arg9 : DevRef τ sig)) (V (main_arg10 : DevRef τ sig)))))
      ∧ (after ck14 (after ck13 (after ck12 (after ck11 (after ck10 (after ck9 (after ck8 (after ck7 (after ck6 (after ck5 (after ck4 (after ck3 (after ck2 (after ck1 (after ck0 (V))))))))))))))) (main_arg0 : DevRef τ sig) = (V (main_arg0 : DevRef τ sig)))
      ∧ (after ck14 (after ck13 (after ck12 (after ck11 (after ck10 (after ck9 (after ck8 (after ck7 (after ck6 (after ck5 (after ck4 (after ck3 (after ck2 (after ck1 (after ck0 (V))))))))))))))) (main_arg1 : DevRef τ sig) = (V (main_arg1 : DevRef τ sig)))
      ∧ (after ck14 (after ck13 (after ck12 (after ck11 (after ck10 (after ck9 (after ck8 (after ck7 (after ck6 (after ck5 (after ck4 (after ck3 (after ck2 (after ck1 (after ck0 (V))))))))))))))) (main_arg2 : DevRef τ sig) = (V (main_arg2 : DevRef τ sig)))
      ∧ (after ck14 (after ck13 (after ck12 (after ck11 (after ck10 (after ck9 (after ck8 (after ck7 (after ck6 (after ck5 (after ck4 (after ck3 (after ck2 (after ck1 (after ck0 (V))))))))))))))) (main_arg3 : DevRef τ sig) = (V (main_arg3 : DevRef τ sig)))
      ∧ (after ck14 (after ck13 (after ck12 (after ck11 (after ck10 (after ck9 (after ck8 (after ck7 (after ck6 (after ck5 (after ck4 (after ck3 (after ck2 (after ck1 (after ck0 (V))))))))))))))) (main_arg4 : DevRef τ sig) = (V (main_arg4 : DevRef τ sig)))
      ∧ (after ck14 (after ck13 (after ck12 (after ck11 (after ck10 (after ck9 (after ck8 (after ck7 (after ck6 (after ck5 (after ck4 (after ck3 (after ck2 (after ck1 (after ck0 (V))))))))))))))) (main_arg5 : DevRef τ sig) = (V (main_arg5 : DevRef τ sig)))
      ∧ (after ck14 (after ck13 (after ck12 (after ck11 (after ck10 (after ck9 (after ck8 (after ck7 (after ck6 (after ck5 (after ck4 (after ck3 (after ck2 (after ck1 (after ck0 (V))))))))))))))) (main_arg6 : DevRef τ sig) = (V (main_arg6 : DevRef τ sig)))
      ∧ (after ck14 (after ck13 (after ck12 (after ck11 (after ck10 (after ck9 (after ck8 (after ck7 (after ck6 (after ck5 (after ck4 (after ck3 (after ck2 (after ck1 (after ck0 (V))))))))))))))) (main_arg7 : DevRef τ sig) = (V (main_arg7 : DevRef τ sig)))
      ∧ (after ck14 (after ck13 (after ck12 (after ck11 (after ck10 (after ck9 (after ck8 (after ck7 (after ck6 (after ck5 (after ck4 (after ck3 (after ck2 (after ck1 (after ck0 (V))))))))))))))) (main_arg8 : DevRef τ sig) = (V (main_arg8 : DevRef τ sig)))
      ∧ (after ck14 (after ck13 (after ck12 (after ck11 (after ck10 (after ck9 (after ck8 (after ck7 (after ck6 (after ck5 (after ck4 (after ck3 (after ck2 (after ck1 (after ck0 (V))))))))))))))) (main_arg9 : DevRef τ sig) = (V (main_arg9 : DevRef τ sig)))
      ∧ (after ck14 (after ck13 (after ck12 (after ck11 (after ck10 (after ck9 (after ck8 (after ck7 (after ck6 (after ck5 (after ck4 (after ck3 (after ck2 (after ck1 (after ck0 (V))))))))))))))) (main_arg10 : DevRef τ sig) = (V (main_arg10 : DevRef τ sig))) := by
  obtain ⟨h_v158, h_arg0, h_arg1, h_arg2, h_arg3, h_arg4, h_arg5, h_arg6, h_arg7, h_arg8, h_arg9, h_arg10⟩ := state6 V
  generalize after ck13 (after ck12 (after ck11 (after ck10 (after ck9 (after ck8 (after ck7 (after ck6 (after ck5 (after ck4 (after ck3 (after ck2 (after ck1 (after ck0 (V)))))))))))))) = W at h_v158 h_arg0 h_arg1 h_arg2 h_arg3 h_arg4 h_arg5 h_arg6 h_arg7 h_arg8 h_arg9 h_arg10 ⊢
  exact ⟨((relu0_read W).trans (by rw [h_v158])),
    ((relu0_keep_arg0 W).trans h_arg0),
    ((relu0_keep_arg1 W).trans h_arg1),
    ((relu0_keep_arg2 W).trans h_arg2),
    ((relu0_keep_arg3 W).trans h_arg3),
    ((relu0_keep_arg4 W).trans h_arg4),
    ((relu0_keep_arg5 W).trans h_arg5),
    ((relu0_keep_arg6 W).trans h_arg6),
    ((relu0_keep_arg7 W).trans h_arg7),
    ((relu0_keep_arg8 W).trans h_arg8),
    ((relu0_keep_arg9 W).trans h_arg9),
    ((relu0_keep_arg10 W).trans h_arg10)⟩

/-- The buffers still to be read after relation 0 of layer 2. -/
theorem state8 (V : Valuation τ sig (Elt F)) :
    (after ck16 (after ck15 (after ck14 (after ck13 (after ck12 (after ck11 (after ck10 (after ck9 (after ck8 (after ck7 (after ck6 (after ck5 (after ck4 (after ck3 (after ck2 (after ck1 (after ck0 (V))))))))))))))))) (main_v159 : DevRef τ sig) = (relu256 (layer256 (V (main_arg0 : DevRef τ sig)) (V (main_arg1 : DevRef τ sig)) (V (main_arg2 : DevRef τ sig)) (V (main_arg9 : DevRef τ sig)) (V (main_arg10 : DevRef τ sig)))))
      ∧ (after ck16 (after ck15 (after ck14 (after ck13 (after ck12 (after ck11 (after ck10 (after ck9 (after ck8 (after ck7 (after ck6 (after ck5 (after ck4 (after ck3 (after ck2 (after ck1 (after ck0 (V))))))))))))))))) (main_v198 : DevRef τ sig) = (conv256 0 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig))))
      ∧ (after ck16 (after ck15 (after ck14 (after ck13 (after ck12 (after ck11 (after ck10 (after ck9 (after ck8 (after ck7 (after ck6 (after ck5 (after ck4 (after ck3 (after ck2 (after ck1 (after ck0 (V))))))))))))))))) (main_arg0 : DevRef τ sig) = (V (main_arg0 : DevRef τ sig)))
      ∧ (after ck16 (after ck15 (after ck14 (after ck13 (after ck12 (after ck11 (after ck10 (after ck9 (after ck8 (after ck7 (after ck6 (after ck5 (after ck4 (after ck3 (after ck2 (after ck1 (after ck0 (V))))))))))))))))) (main_arg1 : DevRef τ sig) = (V (main_arg1 : DevRef τ sig)))
      ∧ (after ck16 (after ck15 (after ck14 (after ck13 (after ck12 (after ck11 (after ck10 (after ck9 (after ck8 (after ck7 (after ck6 (after ck5 (after ck4 (after ck3 (after ck2 (after ck1 (after ck0 (V))))))))))))))))) (main_arg2 : DevRef τ sig) = (V (main_arg2 : DevRef τ sig)))
      ∧ (after ck16 (after ck15 (after ck14 (after ck13 (after ck12 (after ck11 (after ck10 (after ck9 (after ck8 (after ck7 (after ck6 (after ck5 (after ck4 (after ck3 (after ck2 (after ck1 (after ck0 (V))))))))))))))))) (main_arg3 : DevRef τ sig) = (V (main_arg3 : DevRef τ sig)))
      ∧ (after ck16 (after ck15 (after ck14 (after ck13 (after ck12 (after ck11 (after ck10 (after ck9 (after ck8 (after ck7 (after ck6 (after ck5 (after ck4 (after ck3 (after ck2 (after ck1 (after ck0 (V))))))))))))))))) (main_arg4 : DevRef τ sig) = (V (main_arg4 : DevRef τ sig)))
      ∧ (after ck16 (after ck15 (after ck14 (after ck13 (after ck12 (after ck11 (after ck10 (after ck9 (after ck8 (after ck7 (after ck6 (after ck5 (after ck4 (after ck3 (after ck2 (after ck1 (after ck0 (V))))))))))))))))) (main_arg5 : DevRef τ sig) = (V (main_arg5 : DevRef τ sig)))
      ∧ (after ck16 (after ck15 (after ck14 (after ck13 (after ck12 (after ck11 (after ck10 (after ck9 (after ck8 (after ck7 (after ck6 (after ck5 (after ck4 (after ck3 (after ck2 (after ck1 (after ck0 (V))))))))))))))))) (main_arg6 : DevRef τ sig) = (V (main_arg6 : DevRef τ sig)))
      ∧ (after ck16 (after ck15 (after ck14 (after ck13 (after ck12 (after ck11 (after ck10 (after ck9 (after ck8 (after ck7 (after ck6 (after ck5 (after ck4 (after ck3 (after ck2 (after ck1 (after ck0 (V))))))))))))))))) (main_arg7 : DevRef τ sig) = (V (main_arg7 : DevRef τ sig)))
      ∧ (after ck16 (after ck15 (after ck14 (after ck13 (after ck12 (after ck11 (after ck10 (after ck9 (after ck8 (after ck7 (after ck6 (after ck5 (after ck4 (after ck3 (after ck2 (after ck1 (after ck0 (V))))))))))))))))) (main_arg8 : DevRef τ sig) = (V (main_arg8 : DevRef τ sig)))
      ∧ (after ck16 (after ck15 (after ck14 (after ck13 (after ck12 (after ck11 (after ck10 (after ck9 (after ck8 (after ck7 (after ck6 (after ck5 (after ck4 (after ck3 (after ck2 (after ck1 (after ck0 (V))))))))))))))))) (main_arg9 : DevRef τ sig) = (V (main_arg9 : DevRef τ sig)))
      ∧ (after ck16 (after ck15 (after ck14 (after ck13 (after ck12 (after ck11 (after ck10 (after ck9 (after ck8 (after ck7 (after ck6 (after ck5 (after ck4 (after ck3 (after ck2 (after ck1 (after ck0 (V))))))))))))))))) (main_arg10 : DevRef τ sig) = (V (main_arg10 : DevRef τ sig))) := by
  obtain ⟨h_v159, h_arg0, h_arg1, h_arg2, h_arg3, h_arg4, h_arg5, h_arg6, h_arg7, h_arg8, h_arg9, h_arg10⟩ := state7 V
  generalize after ck14 (after ck13 (after ck12 (after ck11 (after ck10 (after ck9 (after ck8 (after ck7 (after ck6 (after ck5 (after ck4 (after ck3 (after ck2 (after ck1 (after ck0 (V))))))))))))))) = W at h_v159 h_arg0 h_arg1 h_arg2 h_arg3 h_arg4 h_arg5 h_arg6 h_arg7 h_arg8 h_arg9 h_arg10 ⊢
  exact ⟨((rel10_keep_v159 W).trans h_v159),
    ((rel10_read W).trans (by rw [h_arg3, h_arg4, h_arg9, h_arg10, h_v159])),
    ((rel10_keep_arg0 W).trans h_arg0),
    ((rel10_keep_arg1 W).trans h_arg1),
    ((rel10_keep_arg2 W).trans h_arg2),
    ((rel10_keep_arg3 W).trans h_arg3),
    ((rel10_keep_arg4 W).trans h_arg4),
    ((rel10_keep_arg5 W).trans h_arg5),
    ((rel10_keep_arg6 W).trans h_arg6),
    ((rel10_keep_arg7 W).trans h_arg7),
    ((rel10_keep_arg8 W).trans h_arg8),
    ((rel10_keep_arg9 W).trans h_arg9),
    ((rel10_keep_arg10 W).trans h_arg10)⟩

/-- The buffers still to be read after relation 1 of layer 2. -/
theorem state9 (V : Valuation τ sig (Elt F)) :
    (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))) (main_v159 : DevRef τ sig) = (relu256 (layer256 (V (main_arg0 : DevRef τ sig)) (V (main_arg1 : DevRef τ sig)) (V (main_arg2 : DevRef τ sig)) (V (main_arg9 : DevRef τ sig)) (V (main_arg10 : DevRef τ sig)))))
      ∧ (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))) (main_v198 : DevRef τ sig) = (conv256 0 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig))))
      ∧ (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))) (main_v237 : DevRef τ sig) = (conv256 1 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig))))
      ∧ (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))) (main_arg0 : DevRef τ sig) = (V (main_arg0 : DevRef τ sig)))
      ∧ (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))) (main_arg1 : DevRef τ sig) = (V (main_arg1 : DevRef τ sig)))
      ∧ (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))) (main_arg2 : DevRef τ sig) = (V (main_arg2 : DevRef τ sig)))
      ∧ (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))) (main_arg3 : DevRef τ sig) = (V (main_arg3 : DevRef τ sig)))
      ∧ (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))) (main_arg4 : DevRef τ sig) = (V (main_arg4 : DevRef τ sig)))
      ∧ (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))) (main_arg5 : DevRef τ sig) = (V (main_arg5 : DevRef τ sig)))
      ∧ (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))) (main_arg6 : DevRef τ sig) = (V (main_arg6 : DevRef τ sig)))
      ∧ (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))) (main_arg7 : DevRef τ sig) = (V (main_arg7 : DevRef τ sig)))
      ∧ (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))) (main_arg8 : DevRef τ sig) = (V (main_arg8 : DevRef τ sig)))
      ∧ (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))) (main_arg9 : DevRef τ sig) = (V (main_arg9 : DevRef τ sig)))
      ∧ (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))) (main_arg10 : DevRef τ sig) = (V (main_arg10 : DevRef τ sig))) := by
  obtain ⟨h_v159, h_v198, h_arg0, h_arg1, h_arg2, h_arg3, h_arg4, h_arg5, h_arg6, h_arg7, h_arg8, h_arg9, h_arg10⟩ := state8 V
  generalize after ck16 (after ck15 (after ck14 (after ck13 (after ck12 (after ck11 (after ck10 (after ck9 (after ck8 (after ck7 (after ck6 (after ck5 (after ck4 (after ck3 (after ck2 (after ck1 (after ck0 (V))))))))))))))))) = W at h_v159 h_v198 h_arg0 h_arg1 h_arg2 h_arg3 h_arg4 h_arg5 h_arg6 h_arg7 h_arg8 h_arg9 h_arg10 ⊢
  exact ⟨((rel11_keep_v159 W).trans h_v159),
    ((rel11_keep_v198 W).trans h_v198),
    ((rel11_read W).trans (by rw [h_arg3, h_arg4, h_arg9, h_arg10, h_v159])),
    ((rel11_keep_arg0 W).trans h_arg0),
    ((rel11_keep_arg1 W).trans h_arg1),
    ((rel11_keep_arg2 W).trans h_arg2),
    ((rel11_keep_arg3 W).trans h_arg3),
    ((rel11_keep_arg4 W).trans h_arg4),
    ((rel11_keep_arg5 W).trans h_arg5),
    ((rel11_keep_arg6 W).trans h_arg6),
    ((rel11_keep_arg7 W).trans h_arg7),
    ((rel11_keep_arg8 W).trans h_arg8),
    ((rel11_keep_arg9 W).trans h_arg9),
    ((rel11_keep_arg10 W).trans h_arg10)⟩

/-- The buffers still to be read after adding relation 1 of layer 2. -/
theorem state10 (V : Valuation τ sig (Elt F)) :
    (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))) (main_v159 : DevRef τ sig) = (relu256 (layer256 (V (main_arg0 : DevRef τ sig)) (V (main_arg1 : DevRef τ sig)) (V (main_arg2 : DevRef τ sig)) (V (main_arg9 : DevRef τ sig)) (V (main_arg10 : DevRef τ sig)))))
      ∧ (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))) (main_v238 : DevRef τ sig) = (addf (conv256 0 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig))) (conv256 1 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))))
      ∧ (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))) (main_arg0 : DevRef τ sig) = (V (main_arg0 : DevRef τ sig)))
      ∧ (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))) (main_arg1 : DevRef τ sig) = (V (main_arg1 : DevRef τ sig)))
      ∧ (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))) (main_arg2 : DevRef τ sig) = (V (main_arg2 : DevRef τ sig)))
      ∧ (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))) (main_arg3 : DevRef τ sig) = (V (main_arg3 : DevRef τ sig)))
      ∧ (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))) (main_arg4 : DevRef τ sig) = (V (main_arg4 : DevRef τ sig)))
      ∧ (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))) (main_arg5 : DevRef τ sig) = (V (main_arg5 : DevRef τ sig)))
      ∧ (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))) (main_arg6 : DevRef τ sig) = (V (main_arg6 : DevRef τ sig)))
      ∧ (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))) (main_arg7 : DevRef τ sig) = (V (main_arg7 : DevRef τ sig)))
      ∧ (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))) (main_arg8 : DevRef τ sig) = (V (main_arg8 : DevRef τ sig)))
      ∧ (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))) (main_arg9 : DevRef τ sig) = (V (main_arg9 : DevRef τ sig)))
      ∧ (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))) (main_arg10 : DevRef τ sig) = (V (main_arg10 : DevRef τ sig))) := by
  obtain ⟨h_v159, h_v198, h_v237, h_arg0, h_arg1, h_arg2, h_arg3, h_arg4, h_arg5, h_arg6, h_arg7, h_arg8, h_arg9, h_arg10⟩ := state9 V
  generalize after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))) = W at h_v159 h_v198 h_v237 h_arg0 h_arg1 h_arg2 h_arg3 h_arg4 h_arg5 h_arg6 h_arg7 h_arg8 h_arg9 h_arg10 ⊢
  exact ⟨((sum11_keep_v159 W).trans h_v159),
    ((sum11_read W).trans (by rw [h_v198, h_v237])),
    ((sum11_keep_arg0 W).trans h_arg0),
    ((sum11_keep_arg1 W).trans h_arg1),
    ((sum11_keep_arg2 W).trans h_arg2),
    ((sum11_keep_arg3 W).trans h_arg3),
    ((sum11_keep_arg4 W).trans h_arg4),
    ((sum11_keep_arg5 W).trans h_arg5),
    ((sum11_keep_arg6 W).trans h_arg6),
    ((sum11_keep_arg7 W).trans h_arg7),
    ((sum11_keep_arg8 W).trans h_arg8),
    ((sum11_keep_arg9 W).trans h_arg9),
    ((sum11_keep_arg10 W).trans h_arg10)⟩

/-- The buffers still to be read after relation 2 of layer 2. -/
theorem state11 (V : Valuation τ sig (Elt F)) :
    (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))) (main_v159 : DevRef τ sig) = (relu256 (layer256 (V (main_arg0 : DevRef τ sig)) (V (main_arg1 : DevRef τ sig)) (V (main_arg2 : DevRef τ sig)) (V (main_arg9 : DevRef τ sig)) (V (main_arg10 : DevRef τ sig)))))
      ∧ (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))) (main_v238 : DevRef τ sig) = (addf (conv256 0 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig))) (conv256 1 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))))
      ∧ (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))) (main_v277 : DevRef τ sig) = (conv256 2 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig))))
      ∧ (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))) (main_arg0 : DevRef τ sig) = (V (main_arg0 : DevRef τ sig)))
      ∧ (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))) (main_arg1 : DevRef τ sig) = (V (main_arg1 : DevRef τ sig)))
      ∧ (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))) (main_arg2 : DevRef τ sig) = (V (main_arg2 : DevRef τ sig)))
      ∧ (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))) (main_arg3 : DevRef τ sig) = (V (main_arg3 : DevRef τ sig)))
      ∧ (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))) (main_arg4 : DevRef τ sig) = (V (main_arg4 : DevRef τ sig)))
      ∧ (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))) (main_arg5 : DevRef τ sig) = (V (main_arg5 : DevRef τ sig)))
      ∧ (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))) (main_arg6 : DevRef τ sig) = (V (main_arg6 : DevRef τ sig)))
      ∧ (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))) (main_arg7 : DevRef τ sig) = (V (main_arg7 : DevRef τ sig)))
      ∧ (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))) (main_arg8 : DevRef τ sig) = (V (main_arg8 : DevRef τ sig)))
      ∧ (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))) (main_arg9 : DevRef τ sig) = (V (main_arg9 : DevRef τ sig)))
      ∧ (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))) (main_arg10 : DevRef τ sig) = (V (main_arg10 : DevRef τ sig))) := by
  obtain ⟨h_v159, h_v238, h_arg0, h_arg1, h_arg2, h_arg3, h_arg4, h_arg5, h_arg6, h_arg7, h_arg8, h_arg9, h_arg10⟩ := state10 V
  generalize after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))) = W at h_v159 h_v238 h_arg0 h_arg1 h_arg2 h_arg3 h_arg4 h_arg5 h_arg6 h_arg7 h_arg8 h_arg9 h_arg10 ⊢
  exact ⟨((rel12_keep_v159 W).trans h_v159),
    ((rel12_keep_v238 W).trans h_v238),
    ((rel12_read W).trans (by rw [h_arg3, h_arg4, h_arg9, h_arg10, h_v159])),
    ((rel12_keep_arg0 W).trans h_arg0),
    ((rel12_keep_arg1 W).trans h_arg1),
    ((rel12_keep_arg2 W).trans h_arg2),
    ((rel12_keep_arg3 W).trans h_arg3),
    ((rel12_keep_arg4 W).trans h_arg4),
    ((rel12_keep_arg5 W).trans h_arg5),
    ((rel12_keep_arg6 W).trans h_arg6),
    ((rel12_keep_arg7 W).trans h_arg7),
    ((rel12_keep_arg8 W).trans h_arg8),
    ((rel12_keep_arg9 W).trans h_arg9),
    ((rel12_keep_arg10 W).trans h_arg10)⟩

/-- The buffers still to be read after adding relation 2 of layer 2. -/
theorem state12 (V : Valuation τ sig (Elt F)) :
    (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))) (main_v159 : DevRef τ sig) = (relu256 (layer256 (V (main_arg0 : DevRef τ sig)) (V (main_arg1 : DevRef τ sig)) (V (main_arg2 : DevRef τ sig)) (V (main_arg9 : DevRef τ sig)) (V (main_arg10 : DevRef τ sig)))))
      ∧ (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))) (main_v278 : DevRef τ sig) = (addf (addf (conv256 0 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig))) (conv256 1 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (conv256 2 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))))
      ∧ (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))) (main_arg0 : DevRef τ sig) = (V (main_arg0 : DevRef τ sig)))
      ∧ (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))) (main_arg1 : DevRef τ sig) = (V (main_arg1 : DevRef τ sig)))
      ∧ (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))) (main_arg2 : DevRef τ sig) = (V (main_arg2 : DevRef τ sig)))
      ∧ (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))) (main_arg3 : DevRef τ sig) = (V (main_arg3 : DevRef τ sig)))
      ∧ (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))) (main_arg4 : DevRef τ sig) = (V (main_arg4 : DevRef τ sig)))
      ∧ (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))) (main_arg5 : DevRef τ sig) = (V (main_arg5 : DevRef τ sig)))
      ∧ (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))) (main_arg6 : DevRef τ sig) = (V (main_arg6 : DevRef τ sig)))
      ∧ (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))) (main_arg7 : DevRef τ sig) = (V (main_arg7 : DevRef τ sig)))
      ∧ (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))) (main_arg8 : DevRef τ sig) = (V (main_arg8 : DevRef τ sig)))
      ∧ (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))) (main_arg9 : DevRef τ sig) = (V (main_arg9 : DevRef τ sig)))
      ∧ (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))) (main_arg10 : DevRef τ sig) = (V (main_arg10 : DevRef τ sig))) := by
  obtain ⟨h_v159, h_v238, h_v277, h_arg0, h_arg1, h_arg2, h_arg3, h_arg4, h_arg5, h_arg6, h_arg7, h_arg8, h_arg9, h_arg10⟩ := state11 V
  generalize after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))) = W at h_v159 h_v238 h_v277 h_arg0 h_arg1 h_arg2 h_arg3 h_arg4 h_arg5 h_arg6 h_arg7 h_arg8 h_arg9 h_arg10 ⊢
  exact ⟨((sum12_keep_v159 W).trans h_v159),
    ((sum12_read W).trans (by rw [h_v238, h_v277])),
    ((sum12_keep_arg0 W).trans h_arg0),
    ((sum12_keep_arg1 W).trans h_arg1),
    ((sum12_keep_arg2 W).trans h_arg2),
    ((sum12_keep_arg3 W).trans h_arg3),
    ((sum12_keep_arg4 W).trans h_arg4),
    ((sum12_keep_arg5 W).trans h_arg5),
    ((sum12_keep_arg6 W).trans h_arg6),
    ((sum12_keep_arg7 W).trans h_arg7),
    ((sum12_keep_arg8 W).trans h_arg8),
    ((sum12_keep_arg9 W).trans h_arg9),
    ((sum12_keep_arg10 W).trans h_arg10)⟩

/-- The buffers still to be read after relation 3 of layer 2. -/
theorem state13 (V : Valuation τ sig (Elt F)) :
    (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))) (main_v278 : DevRef τ sig) = (addf (addf (conv256 0 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig))) (conv256 1 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (conv256 2 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))))
      ∧ (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))) (main_v317 : DevRef τ sig) = (conv256 3 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig))))
      ∧ (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))) (main_arg0 : DevRef τ sig) = (V (main_arg0 : DevRef τ sig)))
      ∧ (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))) (main_arg1 : DevRef τ sig) = (V (main_arg1 : DevRef τ sig)))
      ∧ (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))) (main_arg2 : DevRef τ sig) = (V (main_arg2 : DevRef τ sig)))
      ∧ (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))) (main_arg3 : DevRef τ sig) = (V (main_arg3 : DevRef τ sig)))
      ∧ (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))) (main_arg4 : DevRef τ sig) = (V (main_arg4 : DevRef τ sig)))
      ∧ (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))) (main_arg5 : DevRef τ sig) = (V (main_arg5 : DevRef τ sig)))
      ∧ (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))) (main_arg6 : DevRef τ sig) = (V (main_arg6 : DevRef τ sig)))
      ∧ (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))) (main_arg7 : DevRef τ sig) = (V (main_arg7 : DevRef τ sig)))
      ∧ (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))) (main_arg8 : DevRef τ sig) = (V (main_arg8 : DevRef τ sig)))
      ∧ (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))) (main_arg9 : DevRef τ sig) = (V (main_arg9 : DevRef τ sig)))
      ∧ (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))) (main_arg10 : DevRef τ sig) = (V (main_arg10 : DevRef τ sig))) := by
  obtain ⟨h_v159, h_v278, h_arg0, h_arg1, h_arg2, h_arg3, h_arg4, h_arg5, h_arg6, h_arg7, h_arg8, h_arg9, h_arg10⟩ := state12 V
  generalize after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))) = W at h_v159 h_v278 h_arg0 h_arg1 h_arg2 h_arg3 h_arg4 h_arg5 h_arg6 h_arg7 h_arg8 h_arg9 h_arg10 ⊢
  exact ⟨((rel13_keep_v278 W).trans h_v278),
    ((rel13_read W).trans (by rw [h_arg3, h_arg4, h_arg9, h_arg10, h_v159])),
    ((rel13_keep_arg0 W).trans h_arg0),
    ((rel13_keep_arg1 W).trans h_arg1),
    ((rel13_keep_arg2 W).trans h_arg2),
    ((rel13_keep_arg3 W).trans h_arg3),
    ((rel13_keep_arg4 W).trans h_arg4),
    ((rel13_keep_arg5 W).trans h_arg5),
    ((rel13_keep_arg6 W).trans h_arg6),
    ((rel13_keep_arg7 W).trans h_arg7),
    ((rel13_keep_arg8 W).trans h_arg8),
    ((rel13_keep_arg9 W).trans h_arg9),
    ((rel13_keep_arg10 W).trans h_arg10)⟩

/-- The buffers still to be read after adding relation 3 of layer 2. -/
theorem state14 (V : Valuation τ sig (Elt F)) :
    (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))) (main_v318 : DevRef τ sig) = (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig))))
      ∧ (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))) (main_arg0 : DevRef τ sig) = (V (main_arg0 : DevRef τ sig)))
      ∧ (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))) (main_arg1 : DevRef τ sig) = (V (main_arg1 : DevRef τ sig)))
      ∧ (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))) (main_arg2 : DevRef τ sig) = (V (main_arg2 : DevRef τ sig)))
      ∧ (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))) (main_arg3 : DevRef τ sig) = (V (main_arg3 : DevRef τ sig)))
      ∧ (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))) (main_arg4 : DevRef τ sig) = (V (main_arg4 : DevRef τ sig)))
      ∧ (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))) (main_arg5 : DevRef τ sig) = (V (main_arg5 : DevRef τ sig)))
      ∧ (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))) (main_arg6 : DevRef τ sig) = (V (main_arg6 : DevRef τ sig)))
      ∧ (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))) (main_arg7 : DevRef τ sig) = (V (main_arg7 : DevRef τ sig)))
      ∧ (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))) (main_arg8 : DevRef τ sig) = (V (main_arg8 : DevRef τ sig)))
      ∧ (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))) (main_arg9 : DevRef τ sig) = (V (main_arg9 : DevRef τ sig)))
      ∧ (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))) (main_arg10 : DevRef τ sig) = (V (main_arg10 : DevRef τ sig))) := by
  obtain ⟨h_v278, h_v317, h_arg0, h_arg1, h_arg2, h_arg3, h_arg4, h_arg5, h_arg6, h_arg7, h_arg8, h_arg9, h_arg10⟩ := state13 V
  generalize after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))) = W at h_v278 h_v317 h_arg0 h_arg1 h_arg2 h_arg3 h_arg4 h_arg5 h_arg6 h_arg7 h_arg8 h_arg9 h_arg10 ⊢
  exact ⟨((sum13_read W).trans (by rw [h_v278, h_v317]; exact rfl)),
    ((sum13_keep_arg0 W).trans h_arg0),
    ((sum13_keep_arg1 W).trans h_arg1),
    ((sum13_keep_arg2 W).trans h_arg2),
    ((sum13_keep_arg3 W).trans h_arg3),
    ((sum13_keep_arg4 W).trans h_arg4),
    ((sum13_keep_arg5 W).trans h_arg5),
    ((sum13_keep_arg6 W).trans h_arg6),
    ((sum13_keep_arg7 W).trans h_arg7),
    ((sum13_keep_arg8 W).trans h_arg8),
    ((sum13_keep_arg9 W).trans h_arg9),
    ((sum13_keep_arg10 W).trans h_arg10)⟩

/-- The buffers still to be read after the maximum after layer 2. -/
theorem state15 (V : Valuation τ sig (Elt F)) :
    (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))) (main_v319 : DevRef τ sig) = (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))))
      ∧ (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))) (main_arg0 : DevRef τ sig) = (V (main_arg0 : DevRef τ sig)))
      ∧ (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))) (main_arg1 : DevRef τ sig) = (V (main_arg1 : DevRef τ sig)))
      ∧ (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))) (main_arg2 : DevRef τ sig) = (V (main_arg2 : DevRef τ sig)))
      ∧ (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))) (main_arg3 : DevRef τ sig) = (V (main_arg3 : DevRef τ sig)))
      ∧ (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))) (main_arg4 : DevRef τ sig) = (V (main_arg4 : DevRef τ sig)))
      ∧ (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))) (main_arg5 : DevRef τ sig) = (V (main_arg5 : DevRef τ sig)))
      ∧ (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))) (main_arg6 : DevRef τ sig) = (V (main_arg6 : DevRef τ sig)))
      ∧ (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))) (main_arg7 : DevRef τ sig) = (V (main_arg7 : DevRef τ sig)))
      ∧ (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))) (main_arg8 : DevRef τ sig) = (V (main_arg8 : DevRef τ sig)))
      ∧ (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))) (main_arg9 : DevRef τ sig) = (V (main_arg9 : DevRef τ sig)))
      ∧ (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))) (main_arg10 : DevRef τ sig) = (V (main_arg10 : DevRef τ sig))) := by
  obtain ⟨h_v318, h_arg0, h_arg1, h_arg2, h_arg3, h_arg4, h_arg5, h_arg6, h_arg7, h_arg8, h_arg9, h_arg10⟩ := state14 V
  generalize after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))) = W at h_v318 h_arg0 h_arg1 h_arg2 h_arg3 h_arg4 h_arg5 h_arg6 h_arg7 h_arg8 h_arg9 h_arg10 ⊢
  exact ⟨((relu1_read W).trans (by rw [h_v318])),
    ((relu1_keep_arg0 W).trans h_arg0),
    ((relu1_keep_arg1 W).trans h_arg1),
    ((relu1_keep_arg2 W).trans h_arg2),
    ((relu1_keep_arg3 W).trans h_arg3),
    ((relu1_keep_arg4 W).trans h_arg4),
    ((relu1_keep_arg5 W).trans h_arg5),
    ((relu1_keep_arg6 W).trans h_arg6),
    ((relu1_keep_arg7 W).trans h_arg7),
    ((relu1_keep_arg8 W).trans h_arg8),
    ((relu1_keep_arg9 W).trans h_arg9),
    ((relu1_keep_arg10 W).trans h_arg10)⟩

/-- The buffers still to be read after relation 0 of layer 3. -/
theorem state16 (V : Valuation τ sig (Elt F)) :
    (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))) (main_v319 : DevRef τ sig) = (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))))
      ∧ (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))) (main_v358 : DevRef τ sig) = (conv256 0 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig))))
      ∧ (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))) (main_arg0 : DevRef τ sig) = (V (main_arg0 : DevRef τ sig)))
      ∧ (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))) (main_arg1 : DevRef τ sig) = (V (main_arg1 : DevRef τ sig)))
      ∧ (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))) (main_arg2 : DevRef τ sig) = (V (main_arg2 : DevRef τ sig)))
      ∧ (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))) (main_arg3 : DevRef τ sig) = (V (main_arg3 : DevRef τ sig)))
      ∧ (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))) (main_arg4 : DevRef τ sig) = (V (main_arg4 : DevRef τ sig)))
      ∧ (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))) (main_arg5 : DevRef τ sig) = (V (main_arg5 : DevRef τ sig)))
      ∧ (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))) (main_arg6 : DevRef τ sig) = (V (main_arg6 : DevRef τ sig)))
      ∧ (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))) (main_arg7 : DevRef τ sig) = (V (main_arg7 : DevRef τ sig)))
      ∧ (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))) (main_arg8 : DevRef τ sig) = (V (main_arg8 : DevRef τ sig)))
      ∧ (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))) (main_arg9 : DevRef τ sig) = (V (main_arg9 : DevRef τ sig)))
      ∧ (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))) (main_arg10 : DevRef τ sig) = (V (main_arg10 : DevRef τ sig))) := by
  obtain ⟨h_v319, h_arg0, h_arg1, h_arg2, h_arg3, h_arg4, h_arg5, h_arg6, h_arg7, h_arg8, h_arg9, h_arg10⟩ := state15 V
  generalize after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))) = W at h_v319 h_arg0 h_arg1 h_arg2 h_arg3 h_arg4 h_arg5 h_arg6 h_arg7 h_arg8 h_arg9 h_arg10 ⊢
  exact ⟨((rel20_keep_v319 W).trans h_v319),
    ((rel20_read W).trans (by rw [h_arg5, h_arg6, h_arg9, h_arg10, h_v319])),
    ((rel20_keep_arg0 W).trans h_arg0),
    ((rel20_keep_arg1 W).trans h_arg1),
    ((rel20_keep_arg2 W).trans h_arg2),
    ((rel20_keep_arg3 W).trans h_arg3),
    ((rel20_keep_arg4 W).trans h_arg4),
    ((rel20_keep_arg5 W).trans h_arg5),
    ((rel20_keep_arg6 W).trans h_arg6),
    ((rel20_keep_arg7 W).trans h_arg7),
    ((rel20_keep_arg8 W).trans h_arg8),
    ((rel20_keep_arg9 W).trans h_arg9),
    ((rel20_keep_arg10 W).trans h_arg10)⟩

/-- The buffers still to be read after relation 1 of layer 3. -/
theorem state17 (V : Valuation τ sig (Elt F)) :
    (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))) (main_v319 : DevRef τ sig) = (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))))
      ∧ (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))) (main_v358 : DevRef τ sig) = (conv256 0 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig))))
      ∧ (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))) (main_v397 : DevRef τ sig) = (conv256 1 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig))))
      ∧ (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))) (main_arg0 : DevRef τ sig) = (V (main_arg0 : DevRef τ sig)))
      ∧ (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))) (main_arg1 : DevRef τ sig) = (V (main_arg1 : DevRef τ sig)))
      ∧ (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))) (main_arg2 : DevRef τ sig) = (V (main_arg2 : DevRef τ sig)))
      ∧ (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))) (main_arg3 : DevRef τ sig) = (V (main_arg3 : DevRef τ sig)))
      ∧ (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))) (main_arg4 : DevRef τ sig) = (V (main_arg4 : DevRef τ sig)))
      ∧ (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))) (main_arg5 : DevRef τ sig) = (V (main_arg5 : DevRef τ sig)))
      ∧ (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))) (main_arg6 : DevRef τ sig) = (V (main_arg6 : DevRef τ sig)))
      ∧ (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))) (main_arg7 : DevRef τ sig) = (V (main_arg7 : DevRef τ sig)))
      ∧ (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))) (main_arg8 : DevRef τ sig) = (V (main_arg8 : DevRef τ sig)))
      ∧ (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))) (main_arg9 : DevRef τ sig) = (V (main_arg9 : DevRef τ sig)))
      ∧ (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))) (main_arg10 : DevRef τ sig) = (V (main_arg10 : DevRef τ sig))) := by
  obtain ⟨h_v319, h_v358, h_arg0, h_arg1, h_arg2, h_arg3, h_arg4, h_arg5, h_arg6, h_arg7, h_arg8, h_arg9, h_arg10⟩ := state16 V
  generalize after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))) = W at h_v319 h_v358 h_arg0 h_arg1 h_arg2 h_arg3 h_arg4 h_arg5 h_arg6 h_arg7 h_arg8 h_arg9 h_arg10 ⊢
  exact ⟨((rel21_keep_v319 W).trans h_v319),
    ((rel21_keep_v358 W).trans h_v358),
    ((rel21_read W).trans (by rw [h_arg5, h_arg6, h_arg9, h_arg10, h_v319])),
    ((rel21_keep_arg0 W).trans h_arg0),
    ((rel21_keep_arg1 W).trans h_arg1),
    ((rel21_keep_arg2 W).trans h_arg2),
    ((rel21_keep_arg3 W).trans h_arg3),
    ((rel21_keep_arg4 W).trans h_arg4),
    ((rel21_keep_arg5 W).trans h_arg5),
    ((rel21_keep_arg6 W).trans h_arg6),
    ((rel21_keep_arg7 W).trans h_arg7),
    ((rel21_keep_arg8 W).trans h_arg8),
    ((rel21_keep_arg9 W).trans h_arg9),
    ((rel21_keep_arg10 W).trans h_arg10)⟩

/-- The buffers still to be read after adding relation 1 of layer 3. -/
theorem state18 (V : Valuation τ sig (Elt F)) :
    (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))) (main_v319 : DevRef τ sig) = (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))))
      ∧ (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))) (main_v398 : DevRef τ sig) = (addf (conv256 0 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig))) (conv256 1 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig)))))
      ∧ (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))) (main_arg0 : DevRef τ sig) = (V (main_arg0 : DevRef τ sig)))
      ∧ (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))) (main_arg1 : DevRef τ sig) = (V (main_arg1 : DevRef τ sig)))
      ∧ (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))) (main_arg2 : DevRef τ sig) = (V (main_arg2 : DevRef τ sig)))
      ∧ (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))) (main_arg3 : DevRef τ sig) = (V (main_arg3 : DevRef τ sig)))
      ∧ (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))) (main_arg4 : DevRef τ sig) = (V (main_arg4 : DevRef τ sig)))
      ∧ (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))) (main_arg5 : DevRef τ sig) = (V (main_arg5 : DevRef τ sig)))
      ∧ (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))) (main_arg6 : DevRef τ sig) = (V (main_arg6 : DevRef τ sig)))
      ∧ (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))) (main_arg7 : DevRef τ sig) = (V (main_arg7 : DevRef τ sig)))
      ∧ (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))) (main_arg8 : DevRef τ sig) = (V (main_arg8 : DevRef τ sig)))
      ∧ (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))) (main_arg9 : DevRef τ sig) = (V (main_arg9 : DevRef τ sig)))
      ∧ (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))) (main_arg10 : DevRef τ sig) = (V (main_arg10 : DevRef τ sig))) := by
  obtain ⟨h_v319, h_v358, h_v397, h_arg0, h_arg1, h_arg2, h_arg3, h_arg4, h_arg5, h_arg6, h_arg7, h_arg8, h_arg9, h_arg10⟩ := state17 V
  generalize after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))) = W at h_v319 h_v358 h_v397 h_arg0 h_arg1 h_arg2 h_arg3 h_arg4 h_arg5 h_arg6 h_arg7 h_arg8 h_arg9 h_arg10 ⊢
  exact ⟨((sum21_keep_v319 W).trans h_v319),
    ((sum21_read W).trans (by rw [h_v358, h_v397])),
    ((sum21_keep_arg0 W).trans h_arg0),
    ((sum21_keep_arg1 W).trans h_arg1),
    ((sum21_keep_arg2 W).trans h_arg2),
    ((sum21_keep_arg3 W).trans h_arg3),
    ((sum21_keep_arg4 W).trans h_arg4),
    ((sum21_keep_arg5 W).trans h_arg5),
    ((sum21_keep_arg6 W).trans h_arg6),
    ((sum21_keep_arg7 W).trans h_arg7),
    ((sum21_keep_arg8 W).trans h_arg8),
    ((sum21_keep_arg9 W).trans h_arg9),
    ((sum21_keep_arg10 W).trans h_arg10)⟩

/-- The buffers still to be read after relation 2 of layer 3. -/
theorem state19 (V : Valuation τ sig (Elt F)) :
    (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))) (main_v319 : DevRef τ sig) = (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))))
      ∧ (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))) (main_v398 : DevRef τ sig) = (addf (conv256 0 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig))) (conv256 1 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig)))))
      ∧ (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))) (main_v437 : DevRef τ sig) = (conv256 2 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig))))
      ∧ (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))) (main_arg0 : DevRef τ sig) = (V (main_arg0 : DevRef τ sig)))
      ∧ (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))) (main_arg1 : DevRef τ sig) = (V (main_arg1 : DevRef τ sig)))
      ∧ (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))) (main_arg2 : DevRef τ sig) = (V (main_arg2 : DevRef τ sig)))
      ∧ (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))) (main_arg3 : DevRef τ sig) = (V (main_arg3 : DevRef τ sig)))
      ∧ (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))) (main_arg4 : DevRef τ sig) = (V (main_arg4 : DevRef τ sig)))
      ∧ (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))) (main_arg5 : DevRef τ sig) = (V (main_arg5 : DevRef τ sig)))
      ∧ (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))) (main_arg6 : DevRef τ sig) = (V (main_arg6 : DevRef τ sig)))
      ∧ (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))) (main_arg7 : DevRef τ sig) = (V (main_arg7 : DevRef τ sig)))
      ∧ (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))) (main_arg8 : DevRef τ sig) = (V (main_arg8 : DevRef τ sig)))
      ∧ (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))) (main_arg9 : DevRef τ sig) = (V (main_arg9 : DevRef τ sig)))
      ∧ (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))) (main_arg10 : DevRef τ sig) = (V (main_arg10 : DevRef τ sig))) := by
  obtain ⟨h_v319, h_v398, h_arg0, h_arg1, h_arg2, h_arg3, h_arg4, h_arg5, h_arg6, h_arg7, h_arg8, h_arg9, h_arg10⟩ := state18 V
  generalize after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))) = W at h_v319 h_v398 h_arg0 h_arg1 h_arg2 h_arg3 h_arg4 h_arg5 h_arg6 h_arg7 h_arg8 h_arg9 h_arg10 ⊢
  exact ⟨((rel22_keep_v319 W).trans h_v319),
    ((rel22_keep_v398 W).trans h_v398),
    ((rel22_read W).trans (by rw [h_arg5, h_arg6, h_arg9, h_arg10, h_v319])),
    ((rel22_keep_arg0 W).trans h_arg0),
    ((rel22_keep_arg1 W).trans h_arg1),
    ((rel22_keep_arg2 W).trans h_arg2),
    ((rel22_keep_arg3 W).trans h_arg3),
    ((rel22_keep_arg4 W).trans h_arg4),
    ((rel22_keep_arg5 W).trans h_arg5),
    ((rel22_keep_arg6 W).trans h_arg6),
    ((rel22_keep_arg7 W).trans h_arg7),
    ((rel22_keep_arg8 W).trans h_arg8),
    ((rel22_keep_arg9 W).trans h_arg9),
    ((rel22_keep_arg10 W).trans h_arg10)⟩

/-- The buffers still to be read after adding relation 2 of layer 3. -/
theorem state20 (V : Valuation τ sig (Elt F)) :
    (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))) (main_v319 : DevRef τ sig) = (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))))
      ∧ (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))) (main_v438 : DevRef τ sig) = (addf (addf (conv256 0 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig))) (conv256 1 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig)))) (conv256 2 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig)))))
      ∧ (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))) (main_arg0 : DevRef τ sig) = (V (main_arg0 : DevRef τ sig)))
      ∧ (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))) (main_arg1 : DevRef τ sig) = (V (main_arg1 : DevRef τ sig)))
      ∧ (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))) (main_arg2 : DevRef τ sig) = (V (main_arg2 : DevRef τ sig)))
      ∧ (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))) (main_arg3 : DevRef τ sig) = (V (main_arg3 : DevRef τ sig)))
      ∧ (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))) (main_arg4 : DevRef τ sig) = (V (main_arg4 : DevRef τ sig)))
      ∧ (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))) (main_arg5 : DevRef τ sig) = (V (main_arg5 : DevRef τ sig)))
      ∧ (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))) (main_arg6 : DevRef τ sig) = (V (main_arg6 : DevRef τ sig)))
      ∧ (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))) (main_arg7 : DevRef τ sig) = (V (main_arg7 : DevRef τ sig)))
      ∧ (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))) (main_arg8 : DevRef τ sig) = (V (main_arg8 : DevRef τ sig)))
      ∧ (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))) (main_arg9 : DevRef τ sig) = (V (main_arg9 : DevRef τ sig)))
      ∧ (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))) (main_arg10 : DevRef τ sig) = (V (main_arg10 : DevRef τ sig))) := by
  obtain ⟨h_v319, h_v398, h_v437, h_arg0, h_arg1, h_arg2, h_arg3, h_arg4, h_arg5, h_arg6, h_arg7, h_arg8, h_arg9, h_arg10⟩ := state19 V
  generalize after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))) = W at h_v319 h_v398 h_v437 h_arg0 h_arg1 h_arg2 h_arg3 h_arg4 h_arg5 h_arg6 h_arg7 h_arg8 h_arg9 h_arg10 ⊢
  exact ⟨((sum22_keep_v319 W).trans h_v319),
    ((sum22_read W).trans (by rw [h_v398, h_v437])),
    ((sum22_keep_arg0 W).trans h_arg0),
    ((sum22_keep_arg1 W).trans h_arg1),
    ((sum22_keep_arg2 W).trans h_arg2),
    ((sum22_keep_arg3 W).trans h_arg3),
    ((sum22_keep_arg4 W).trans h_arg4),
    ((sum22_keep_arg5 W).trans h_arg5),
    ((sum22_keep_arg6 W).trans h_arg6),
    ((sum22_keep_arg7 W).trans h_arg7),
    ((sum22_keep_arg8 W).trans h_arg8),
    ((sum22_keep_arg9 W).trans h_arg9),
    ((sum22_keep_arg10 W).trans h_arg10)⟩

/-- The buffers still to be read after relation 3 of layer 3. -/
theorem state21 (V : Valuation τ sig (Elt F)) :
    (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))) (main_v438 : DevRef τ sig) = (addf (addf (conv256 0 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig))) (conv256 1 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig)))) (conv256 2 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig)))))
      ∧ (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))) (main_v477 : DevRef τ sig) = (conv256 3 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig))))
      ∧ (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))) (main_arg0 : DevRef τ sig) = (V (main_arg0 : DevRef τ sig)))
      ∧ (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))) (main_arg1 : DevRef τ sig) = (V (main_arg1 : DevRef τ sig)))
      ∧ (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))) (main_arg2 : DevRef τ sig) = (V (main_arg2 : DevRef τ sig)))
      ∧ (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))) (main_arg3 : DevRef τ sig) = (V (main_arg3 : DevRef τ sig)))
      ∧ (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))) (main_arg4 : DevRef τ sig) = (V (main_arg4 : DevRef τ sig)))
      ∧ (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))) (main_arg5 : DevRef τ sig) = (V (main_arg5 : DevRef τ sig)))
      ∧ (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))) (main_arg6 : DevRef τ sig) = (V (main_arg6 : DevRef τ sig)))
      ∧ (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))) (main_arg7 : DevRef τ sig) = (V (main_arg7 : DevRef τ sig)))
      ∧ (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))) (main_arg8 : DevRef τ sig) = (V (main_arg8 : DevRef τ sig)))
      ∧ (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))) (main_arg9 : DevRef τ sig) = (V (main_arg9 : DevRef τ sig)))
      ∧ (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))) (main_arg10 : DevRef τ sig) = (V (main_arg10 : DevRef τ sig))) := by
  obtain ⟨h_v319, h_v438, h_arg0, h_arg1, h_arg2, h_arg3, h_arg4, h_arg5, h_arg6, h_arg7, h_arg8, h_arg9, h_arg10⟩ := state20 V
  generalize after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))) = W at h_v319 h_v438 h_arg0 h_arg1 h_arg2 h_arg3 h_arg4 h_arg5 h_arg6 h_arg7 h_arg8 h_arg9 h_arg10 ⊢
  exact ⟨((rel23_keep_v438 W).trans h_v438),
    ((rel23_read W).trans (by rw [h_arg5, h_arg6, h_arg9, h_arg10, h_v319])),
    ((rel23_keep_arg0 W).trans h_arg0),
    ((rel23_keep_arg1 W).trans h_arg1),
    ((rel23_keep_arg2 W).trans h_arg2),
    ((rel23_keep_arg3 W).trans h_arg3),
    ((rel23_keep_arg4 W).trans h_arg4),
    ((rel23_keep_arg5 W).trans h_arg5),
    ((rel23_keep_arg6 W).trans h_arg6),
    ((rel23_keep_arg7 W).trans h_arg7),
    ((rel23_keep_arg8 W).trans h_arg8),
    ((rel23_keep_arg9 W).trans h_arg9),
    ((rel23_keep_arg10 W).trans h_arg10)⟩

/-- The buffers still to be read after adding relation 3 of layer 3. -/
theorem state22 (V : Valuation τ sig (Elt F)) :
    (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))) (main_v478 : DevRef τ sig) = (layer256 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig))))
      ∧ (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))) (main_arg0 : DevRef τ sig) = (V (main_arg0 : DevRef τ sig)))
      ∧ (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))) (main_arg1 : DevRef τ sig) = (V (main_arg1 : DevRef τ sig)))
      ∧ (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))) (main_arg2 : DevRef τ sig) = (V (main_arg2 : DevRef τ sig)))
      ∧ (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))) (main_arg3 : DevRef τ sig) = (V (main_arg3 : DevRef τ sig)))
      ∧ (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))) (main_arg4 : DevRef τ sig) = (V (main_arg4 : DevRef τ sig)))
      ∧ (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))) (main_arg5 : DevRef τ sig) = (V (main_arg5 : DevRef τ sig)))
      ∧ (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))) (main_arg6 : DevRef τ sig) = (V (main_arg6 : DevRef τ sig)))
      ∧ (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))) (main_arg7 : DevRef τ sig) = (V (main_arg7 : DevRef τ sig)))
      ∧ (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))) (main_arg8 : DevRef τ sig) = (V (main_arg8 : DevRef τ sig)))
      ∧ (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))) (main_arg9 : DevRef τ sig) = (V (main_arg9 : DevRef τ sig)))
      ∧ (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))) (main_arg10 : DevRef τ sig) = (V (main_arg10 : DevRef τ sig))) := by
  obtain ⟨h_v438, h_v477, h_arg0, h_arg1, h_arg2, h_arg3, h_arg4, h_arg5, h_arg6, h_arg7, h_arg8, h_arg9, h_arg10⟩ := state21 V
  generalize after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))) = W at h_v438 h_v477 h_arg0 h_arg1 h_arg2 h_arg3 h_arg4 h_arg5 h_arg6 h_arg7 h_arg8 h_arg9 h_arg10 ⊢
  exact ⟨((sum23_read W).trans (by rw [h_v438, h_v477]; exact rfl)),
    ((sum23_keep_arg0 W).trans h_arg0),
    ((sum23_keep_arg1 W).trans h_arg1),
    ((sum23_keep_arg2 W).trans h_arg2),
    ((sum23_keep_arg3 W).trans h_arg3),
    ((sum23_keep_arg4 W).trans h_arg4),
    ((sum23_keep_arg5 W).trans h_arg5),
    ((sum23_keep_arg6 W).trans h_arg6),
    ((sum23_keep_arg7 W).trans h_arg7),
    ((sum23_keep_arg8 W).trans h_arg8),
    ((sum23_keep_arg9 W).trans h_arg9),
    ((sum23_keep_arg10 W).trans h_arg10)⟩

/-- The buffers still to be read after the maximum after layer 3. -/
theorem state23 (V : Valuation τ sig (Elt F)) :
    (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))) (main_v479 : DevRef τ sig) = (relu256 (layer256 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig)))))
      ∧ (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))) (main_arg0 : DevRef τ sig) = (V (main_arg0 : DevRef τ sig)))
      ∧ (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))) (main_arg1 : DevRef τ sig) = (V (main_arg1 : DevRef τ sig)))
      ∧ (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))) (main_arg2 : DevRef τ sig) = (V (main_arg2 : DevRef τ sig)))
      ∧ (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))) (main_arg3 : DevRef τ sig) = (V (main_arg3 : DevRef τ sig)))
      ∧ (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))) (main_arg4 : DevRef τ sig) = (V (main_arg4 : DevRef τ sig)))
      ∧ (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))) (main_arg5 : DevRef τ sig) = (V (main_arg5 : DevRef τ sig)))
      ∧ (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))) (main_arg6 : DevRef τ sig) = (V (main_arg6 : DevRef τ sig)))
      ∧ (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))) (main_arg7 : DevRef τ sig) = (V (main_arg7 : DevRef τ sig)))
      ∧ (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))) (main_arg8 : DevRef τ sig) = (V (main_arg8 : DevRef τ sig)))
      ∧ (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))) (main_arg9 : DevRef τ sig) = (V (main_arg9 : DevRef τ sig)))
      ∧ (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))) (main_arg10 : DevRef τ sig) = (V (main_arg10 : DevRef τ sig))) := by
  obtain ⟨h_v478, h_arg0, h_arg1, h_arg2, h_arg3, h_arg4, h_arg5, h_arg6, h_arg7, h_arg8, h_arg9, h_arg10⟩ := state22 V
  generalize after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))) = W at h_v478 h_arg0 h_arg1 h_arg2 h_arg3 h_arg4 h_arg5 h_arg6 h_arg7 h_arg8 h_arg9 h_arg10 ⊢
  exact ⟨((relu2_read W).trans (by rw [h_v478])),
    ((relu2_keep_arg0 W).trans h_arg0),
    ((relu2_keep_arg1 W).trans h_arg1),
    ((relu2_keep_arg2 W).trans h_arg2),
    ((relu2_keep_arg3 W).trans h_arg3),
    ((relu2_keep_arg4 W).trans h_arg4),
    ((relu2_keep_arg5 W).trans h_arg5),
    ((relu2_keep_arg6 W).trans h_arg6),
    ((relu2_keep_arg7 W).trans h_arg7),
    ((relu2_keep_arg8 W).trans h_arg8),
    ((relu2_keep_arg9 W).trans h_arg9),
    ((relu2_keep_arg10 W).trans h_arg10)⟩

/-- The buffers still to be read after relation 0 of layer 4. -/
theorem state24 (V : Valuation τ sig (Elt F)) :
    (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))) (main_v479 : DevRef τ sig) = (relu256 (layer256 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig)))))
      ∧ (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))) (main_v518 : DevRef τ sig) = (conv128 0 (relu256 (layer256 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig)))) (V (main_arg7 : DevRef τ sig)) (V (main_arg8 : DevRef τ sig)) (V (main_arg9 : DevRef τ sig)) (V (main_arg10 : DevRef τ sig))))
      ∧ (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))) (main_arg0 : DevRef τ sig) = (V (main_arg0 : DevRef τ sig)))
      ∧ (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))) (main_arg1 : DevRef τ sig) = (V (main_arg1 : DevRef τ sig)))
      ∧ (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))) (main_arg2 : DevRef τ sig) = (V (main_arg2 : DevRef τ sig)))
      ∧ (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))) (main_arg3 : DevRef τ sig) = (V (main_arg3 : DevRef τ sig)))
      ∧ (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))) (main_arg4 : DevRef τ sig) = (V (main_arg4 : DevRef τ sig)))
      ∧ (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))) (main_arg5 : DevRef τ sig) = (V (main_arg5 : DevRef τ sig)))
      ∧ (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))) (main_arg6 : DevRef τ sig) = (V (main_arg6 : DevRef τ sig)))
      ∧ (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))) (main_arg7 : DevRef τ sig) = (V (main_arg7 : DevRef τ sig)))
      ∧ (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))) (main_arg8 : DevRef τ sig) = (V (main_arg8 : DevRef τ sig)))
      ∧ (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))) (main_arg9 : DevRef τ sig) = (V (main_arg9 : DevRef τ sig)))
      ∧ (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))) (main_arg10 : DevRef τ sig) = (V (main_arg10 : DevRef τ sig))) := by
  obtain ⟨h_v479, h_arg0, h_arg1, h_arg2, h_arg3, h_arg4, h_arg5, h_arg6, h_arg7, h_arg8, h_arg9, h_arg10⟩ := state23 V
  generalize after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))) = W at h_v479 h_arg0 h_arg1 h_arg2 h_arg3 h_arg4 h_arg5 h_arg6 h_arg7 h_arg8 h_arg9 h_arg10 ⊢
  exact ⟨((rel30_keep_v479 W).trans h_v479),
    ((rel30_read W).trans (by rw [h_arg7, h_arg8, h_arg9, h_arg10, h_v479])),
    ((rel30_keep_arg0 W).trans h_arg0),
    ((rel30_keep_arg1 W).trans h_arg1),
    ((rel30_keep_arg2 W).trans h_arg2),
    ((rel30_keep_arg3 W).trans h_arg3),
    ((rel30_keep_arg4 W).trans h_arg4),
    ((rel30_keep_arg5 W).trans h_arg5),
    ((rel30_keep_arg6 W).trans h_arg6),
    ((rel30_keep_arg7 W).trans h_arg7),
    ((rel30_keep_arg8 W).trans h_arg8),
    ((rel30_keep_arg9 W).trans h_arg9),
    ((rel30_keep_arg10 W).trans h_arg10)⟩

/-- The buffers still to be read after relation 1 of layer 4. -/
theorem state25 (V : Valuation τ sig (Elt F)) :
    (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))) (main_v479 : DevRef τ sig) = (relu256 (layer256 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig)))))
      ∧ (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))) (main_v518 : DevRef τ sig) = (conv128 0 (relu256 (layer256 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig)))) (V (main_arg7 : DevRef τ sig)) (V (main_arg8 : DevRef τ sig)) (V (main_arg9 : DevRef τ sig)) (V (main_arg10 : DevRef τ sig))))
      ∧ (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))) (main_v557 : DevRef τ sig) = (conv128 1 (relu256 (layer256 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig)))) (V (main_arg7 : DevRef τ sig)) (V (main_arg8 : DevRef τ sig)) (V (main_arg9 : DevRef τ sig)) (V (main_arg10 : DevRef τ sig))))
      ∧ (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))) (main_arg0 : DevRef τ sig) = (V (main_arg0 : DevRef τ sig)))
      ∧ (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))) (main_arg1 : DevRef τ sig) = (V (main_arg1 : DevRef τ sig)))
      ∧ (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))) (main_arg2 : DevRef τ sig) = (V (main_arg2 : DevRef τ sig)))
      ∧ (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))) (main_arg3 : DevRef τ sig) = (V (main_arg3 : DevRef τ sig)))
      ∧ (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))) (main_arg4 : DevRef τ sig) = (V (main_arg4 : DevRef τ sig)))
      ∧ (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))) (main_arg5 : DevRef τ sig) = (V (main_arg5 : DevRef τ sig)))
      ∧ (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))) (main_arg6 : DevRef τ sig) = (V (main_arg6 : DevRef τ sig)))
      ∧ (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))) (main_arg7 : DevRef τ sig) = (V (main_arg7 : DevRef τ sig)))
      ∧ (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))) (main_arg8 : DevRef τ sig) = (V (main_arg8 : DevRef τ sig)))
      ∧ (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))) (main_arg9 : DevRef τ sig) = (V (main_arg9 : DevRef τ sig)))
      ∧ (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))) (main_arg10 : DevRef τ sig) = (V (main_arg10 : DevRef τ sig))) := by
  obtain ⟨h_v479, h_v518, h_arg0, h_arg1, h_arg2, h_arg3, h_arg4, h_arg5, h_arg6, h_arg7, h_arg8, h_arg9, h_arg10⟩ := state24 V
  generalize after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))) = W at h_v479 h_v518 h_arg0 h_arg1 h_arg2 h_arg3 h_arg4 h_arg5 h_arg6 h_arg7 h_arg8 h_arg9 h_arg10 ⊢
  exact ⟨((rel31_keep_v479 W).trans h_v479),
    ((rel31_keep_v518 W).trans h_v518),
    ((rel31_read W).trans (by rw [h_arg7, h_arg8, h_arg9, h_arg10, h_v479])),
    ((rel31_keep_arg0 W).trans h_arg0),
    ((rel31_keep_arg1 W).trans h_arg1),
    ((rel31_keep_arg2 W).trans h_arg2),
    ((rel31_keep_arg3 W).trans h_arg3),
    ((rel31_keep_arg4 W).trans h_arg4),
    ((rel31_keep_arg5 W).trans h_arg5),
    ((rel31_keep_arg6 W).trans h_arg6),
    ((rel31_keep_arg7 W).trans h_arg7),
    ((rel31_keep_arg8 W).trans h_arg8),
    ((rel31_keep_arg9 W).trans h_arg9),
    ((rel31_keep_arg10 W).trans h_arg10)⟩

/-- The buffers still to be read after adding relation 1 of layer 4. -/
theorem state26 (V : Valuation τ sig (Elt F)) :
    (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))) (main_v479 : DevRef τ sig) = (relu256 (layer256 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig)))))
      ∧ (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))) (main_v558 : DevRef τ sig) = (addf (conv128 0 (relu256 (layer256 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig)))) (V (main_arg7 : DevRef τ sig)) (V (main_arg8 : DevRef τ sig)) (V (main_arg9 : DevRef τ sig)) (V (main_arg10 : DevRef τ sig))) (conv128 1 (relu256 (layer256 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig)))) (V (main_arg7 : DevRef τ sig)) (V (main_arg8 : DevRef τ sig)) (V (main_arg9 : DevRef τ sig)) (V (main_arg10 : DevRef τ sig)))))
      ∧ (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))) (main_arg0 : DevRef τ sig) = (V (main_arg0 : DevRef τ sig)))
      ∧ (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))) (main_arg1 : DevRef τ sig) = (V (main_arg1 : DevRef τ sig)))
      ∧ (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))) (main_arg2 : DevRef τ sig) = (V (main_arg2 : DevRef τ sig)))
      ∧ (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))) (main_arg3 : DevRef τ sig) = (V (main_arg3 : DevRef τ sig)))
      ∧ (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))) (main_arg4 : DevRef τ sig) = (V (main_arg4 : DevRef τ sig)))
      ∧ (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))) (main_arg5 : DevRef τ sig) = (V (main_arg5 : DevRef τ sig)))
      ∧ (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))) (main_arg6 : DevRef τ sig) = (V (main_arg6 : DevRef τ sig)))
      ∧ (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))) (main_arg7 : DevRef τ sig) = (V (main_arg7 : DevRef τ sig)))
      ∧ (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))) (main_arg8 : DevRef τ sig) = (V (main_arg8 : DevRef τ sig)))
      ∧ (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))) (main_arg9 : DevRef τ sig) = (V (main_arg9 : DevRef τ sig)))
      ∧ (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))) (main_arg10 : DevRef τ sig) = (V (main_arg10 : DevRef τ sig))) := by
  obtain ⟨h_v479, h_v518, h_v557, h_arg0, h_arg1, h_arg2, h_arg3, h_arg4, h_arg5, h_arg6, h_arg7, h_arg8, h_arg9, h_arg10⟩ := state25 V
  generalize after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))) = W at h_v479 h_v518 h_v557 h_arg0 h_arg1 h_arg2 h_arg3 h_arg4 h_arg5 h_arg6 h_arg7 h_arg8 h_arg9 h_arg10 ⊢
  exact ⟨((sum31_keep_v479 W).trans h_v479),
    ((sum31_read W).trans (by rw [h_v518, h_v557])),
    ((sum31_keep_arg0 W).trans h_arg0),
    ((sum31_keep_arg1 W).trans h_arg1),
    ((sum31_keep_arg2 W).trans h_arg2),
    ((sum31_keep_arg3 W).trans h_arg3),
    ((sum31_keep_arg4 W).trans h_arg4),
    ((sum31_keep_arg5 W).trans h_arg5),
    ((sum31_keep_arg6 W).trans h_arg6),
    ((sum31_keep_arg7 W).trans h_arg7),
    ((sum31_keep_arg8 W).trans h_arg8),
    ((sum31_keep_arg9 W).trans h_arg9),
    ((sum31_keep_arg10 W).trans h_arg10)⟩

/-- The buffers still to be read after relation 2 of layer 4. -/
theorem state27 (V : Valuation τ sig (Elt F)) :
    (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))))) (main_v479 : DevRef τ sig) = (relu256 (layer256 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig)))))
      ∧ (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))))) (main_v558 : DevRef τ sig) = (addf (conv128 0 (relu256 (layer256 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig)))) (V (main_arg7 : DevRef τ sig)) (V (main_arg8 : DevRef τ sig)) (V (main_arg9 : DevRef τ sig)) (V (main_arg10 : DevRef τ sig))) (conv128 1 (relu256 (layer256 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig)))) (V (main_arg7 : DevRef τ sig)) (V (main_arg8 : DevRef τ sig)) (V (main_arg9 : DevRef τ sig)) (V (main_arg10 : DevRef τ sig)))))
      ∧ (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))))) (main_v597 : DevRef τ sig) = (conv128 2 (relu256 (layer256 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig)))) (V (main_arg7 : DevRef τ sig)) (V (main_arg8 : DevRef τ sig)) (V (main_arg9 : DevRef τ sig)) (V (main_arg10 : DevRef τ sig))))
      ∧ (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))))) (main_arg0 : DevRef τ sig) = (V (main_arg0 : DevRef τ sig)))
      ∧ (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))))) (main_arg1 : DevRef τ sig) = (V (main_arg1 : DevRef τ sig)))
      ∧ (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))))) (main_arg2 : DevRef τ sig) = (V (main_arg2 : DevRef τ sig)))
      ∧ (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))))) (main_arg3 : DevRef τ sig) = (V (main_arg3 : DevRef τ sig)))
      ∧ (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))))) (main_arg4 : DevRef τ sig) = (V (main_arg4 : DevRef τ sig)))
      ∧ (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))))) (main_arg5 : DevRef τ sig) = (V (main_arg5 : DevRef τ sig)))
      ∧ (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))))) (main_arg6 : DevRef τ sig) = (V (main_arg6 : DevRef τ sig)))
      ∧ (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))))) (main_arg7 : DevRef τ sig) = (V (main_arg7 : DevRef τ sig)))
      ∧ (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))))) (main_arg8 : DevRef τ sig) = (V (main_arg8 : DevRef τ sig)))
      ∧ (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))))) (main_arg9 : DevRef τ sig) = (V (main_arg9 : DevRef τ sig)))
      ∧ (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))))) (main_arg10 : DevRef τ sig) = (V (main_arg10 : DevRef τ sig))) := by
  obtain ⟨h_v479, h_v558, h_arg0, h_arg1, h_arg2, h_arg3, h_arg4, h_arg5, h_arg6, h_arg7, h_arg8, h_arg9, h_arg10⟩ := state26 V
  generalize after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))) = W at h_v479 h_v558 h_arg0 h_arg1 h_arg2 h_arg3 h_arg4 h_arg5 h_arg6 h_arg7 h_arg8 h_arg9 h_arg10 ⊢
  exact ⟨((rel32_keep_v479 W).trans h_v479),
    ((rel32_keep_v558 W).trans h_v558),
    ((rel32_read W).trans (by rw [h_arg7, h_arg8, h_arg9, h_arg10, h_v479])),
    ((rel32_keep_arg0 W).trans h_arg0),
    ((rel32_keep_arg1 W).trans h_arg1),
    ((rel32_keep_arg2 W).trans h_arg2),
    ((rel32_keep_arg3 W).trans h_arg3),
    ((rel32_keep_arg4 W).trans h_arg4),
    ((rel32_keep_arg5 W).trans h_arg5),
    ((rel32_keep_arg6 W).trans h_arg6),
    ((rel32_keep_arg7 W).trans h_arg7),
    ((rel32_keep_arg8 W).trans h_arg8),
    ((rel32_keep_arg9 W).trans h_arg9),
    ((rel32_keep_arg10 W).trans h_arg10)⟩

/-- The buffers still to be read after adding relation 2 of layer 4. -/
theorem state28 (V : Valuation τ sig (Elt F)) :
    (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))))))) (main_v479 : DevRef τ sig) = (relu256 (layer256 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig)))))
      ∧ (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))))))) (main_v598 : DevRef τ sig) = (addf (addf (conv128 0 (relu256 (layer256 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig)))) (V (main_arg7 : DevRef τ sig)) (V (main_arg8 : DevRef τ sig)) (V (main_arg9 : DevRef τ sig)) (V (main_arg10 : DevRef τ sig))) (conv128 1 (relu256 (layer256 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig)))) (V (main_arg7 : DevRef τ sig)) (V (main_arg8 : DevRef τ sig)) (V (main_arg9 : DevRef τ sig)) (V (main_arg10 : DevRef τ sig)))) (conv128 2 (relu256 (layer256 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig)))) (V (main_arg7 : DevRef τ sig)) (V (main_arg8 : DevRef τ sig)) (V (main_arg9 : DevRef τ sig)) (V (main_arg10 : DevRef τ sig)))))
      ∧ (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))))))) (main_arg0 : DevRef τ sig) = (V (main_arg0 : DevRef τ sig)))
      ∧ (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))))))) (main_arg1 : DevRef τ sig) = (V (main_arg1 : DevRef τ sig)))
      ∧ (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))))))) (main_arg2 : DevRef τ sig) = (V (main_arg2 : DevRef τ sig)))
      ∧ (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))))))) (main_arg3 : DevRef τ sig) = (V (main_arg3 : DevRef τ sig)))
      ∧ (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))))))) (main_arg4 : DevRef τ sig) = (V (main_arg4 : DevRef τ sig)))
      ∧ (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))))))) (main_arg5 : DevRef τ sig) = (V (main_arg5 : DevRef τ sig)))
      ∧ (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))))))) (main_arg6 : DevRef τ sig) = (V (main_arg6 : DevRef τ sig)))
      ∧ (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))))))) (main_arg7 : DevRef τ sig) = (V (main_arg7 : DevRef τ sig)))
      ∧ (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))))))) (main_arg8 : DevRef τ sig) = (V (main_arg8 : DevRef τ sig)))
      ∧ (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))))))) (main_arg9 : DevRef τ sig) = (V (main_arg9 : DevRef τ sig)))
      ∧ (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))))))) (main_arg10 : DevRef τ sig) = (V (main_arg10 : DevRef τ sig))) := by
  obtain ⟨h_v479, h_v558, h_v597, h_arg0, h_arg1, h_arg2, h_arg3, h_arg4, h_arg5, h_arg6, h_arg7, h_arg8, h_arg9, h_arg10⟩ := state27 V
  generalize after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))))) = W at h_v479 h_v558 h_v597 h_arg0 h_arg1 h_arg2 h_arg3 h_arg4 h_arg5 h_arg6 h_arg7 h_arg8 h_arg9 h_arg10 ⊢
  exact ⟨((sum32_keep_v479 W).trans h_v479),
    ((sum32_read W).trans (by rw [h_v558, h_v597])),
    ((sum32_keep_arg0 W).trans h_arg0),
    ((sum32_keep_arg1 W).trans h_arg1),
    ((sum32_keep_arg2 W).trans h_arg2),
    ((sum32_keep_arg3 W).trans h_arg3),
    ((sum32_keep_arg4 W).trans h_arg4),
    ((sum32_keep_arg5 W).trans h_arg5),
    ((sum32_keep_arg6 W).trans h_arg6),
    ((sum32_keep_arg7 W).trans h_arg7),
    ((sum32_keep_arg8 W).trans h_arg8),
    ((sum32_keep_arg9 W).trans h_arg9),
    ((sum32_keep_arg10 W).trans h_arg10)⟩

/-- The buffers still to be read after relation 3 of layer 4. -/
theorem state29 (V : Valuation τ sig (Elt F)) :
    (after ck57 (after ck56 (after ck55 (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))))))))) (main_v598 : DevRef τ sig) = (addf (addf (conv128 0 (relu256 (layer256 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig)))) (V (main_arg7 : DevRef τ sig)) (V (main_arg8 : DevRef τ sig)) (V (main_arg9 : DevRef τ sig)) (V (main_arg10 : DevRef τ sig))) (conv128 1 (relu256 (layer256 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig)))) (V (main_arg7 : DevRef τ sig)) (V (main_arg8 : DevRef τ sig)) (V (main_arg9 : DevRef τ sig)) (V (main_arg10 : DevRef τ sig)))) (conv128 2 (relu256 (layer256 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig)))) (V (main_arg7 : DevRef τ sig)) (V (main_arg8 : DevRef τ sig)) (V (main_arg9 : DevRef τ sig)) (V (main_arg10 : DevRef τ sig)))))
      ∧ (after ck57 (after ck56 (after ck55 (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))))))))) (main_v637 : DevRef τ sig) = (conv128 3 (relu256 (layer256 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig)))) (V (main_arg7 : DevRef τ sig)) (V (main_arg8 : DevRef τ sig)) (V (main_arg9 : DevRef τ sig)) (V (main_arg10 : DevRef τ sig))))
      ∧ (after ck57 (after ck56 (after ck55 (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))))))))) (main_arg0 : DevRef τ sig) = (V (main_arg0 : DevRef τ sig)))
      ∧ (after ck57 (after ck56 (after ck55 (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))))))))) (main_arg1 : DevRef τ sig) = (V (main_arg1 : DevRef τ sig)))
      ∧ (after ck57 (after ck56 (after ck55 (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))))))))) (main_arg2 : DevRef τ sig) = (V (main_arg2 : DevRef τ sig)))
      ∧ (after ck57 (after ck56 (after ck55 (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))))))))) (main_arg3 : DevRef τ sig) = (V (main_arg3 : DevRef τ sig)))
      ∧ (after ck57 (after ck56 (after ck55 (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))))))))) (main_arg4 : DevRef τ sig) = (V (main_arg4 : DevRef τ sig)))
      ∧ (after ck57 (after ck56 (after ck55 (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))))))))) (main_arg5 : DevRef τ sig) = (V (main_arg5 : DevRef τ sig)))
      ∧ (after ck57 (after ck56 (after ck55 (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))))))))) (main_arg6 : DevRef τ sig) = (V (main_arg6 : DevRef τ sig)))
      ∧ (after ck57 (after ck56 (after ck55 (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))))))))) (main_arg7 : DevRef τ sig) = (V (main_arg7 : DevRef τ sig)))
      ∧ (after ck57 (after ck56 (after ck55 (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))))))))) (main_arg8 : DevRef τ sig) = (V (main_arg8 : DevRef τ sig)))
      ∧ (after ck57 (after ck56 (after ck55 (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))))))))) (main_arg9 : DevRef τ sig) = (V (main_arg9 : DevRef τ sig)))
      ∧ (after ck57 (after ck56 (after ck55 (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))))))))) (main_arg10 : DevRef τ sig) = (V (main_arg10 : DevRef τ sig))) := by
  obtain ⟨h_v479, h_v598, h_arg0, h_arg1, h_arg2, h_arg3, h_arg4, h_arg5, h_arg6, h_arg7, h_arg8, h_arg9, h_arg10⟩ := state28 V
  generalize after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))))))) = W at h_v479 h_v598 h_arg0 h_arg1 h_arg2 h_arg3 h_arg4 h_arg5 h_arg6 h_arg7 h_arg8 h_arg9 h_arg10 ⊢
  exact ⟨((rel33_keep_v598 W).trans h_v598),
    ((rel33_read W).trans (by rw [h_arg7, h_arg8, h_arg9, h_arg10, h_v479])),
    ((rel33_keep_arg0 W).trans h_arg0),
    ((rel33_keep_arg1 W).trans h_arg1),
    ((rel33_keep_arg2 W).trans h_arg2),
    ((rel33_keep_arg3 W).trans h_arg3),
    ((rel33_keep_arg4 W).trans h_arg4),
    ((rel33_keep_arg5 W).trans h_arg5),
    ((rel33_keep_arg6 W).trans h_arg6),
    ((rel33_keep_arg7 W).trans h_arg7),
    ((rel33_keep_arg8 W).trans h_arg8),
    ((rel33_keep_arg9 W).trans h_arg9),
    ((rel33_keep_arg10 W).trans h_arg10)⟩

/-- The buffers still to be read after adding relation 3 of layer 4. -/
theorem state30 (V : Valuation τ sig (Elt F)) :
    (after ck58 (after ck57 (after ck56 (after ck55 (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))))))))))) (main_v638 : DevRef τ sig) = (layer128 (relu256 (layer256 (relu256 (layer256 (relu256 (layer256 (V (main_arg0 : DevRef τ sig)) (V (main_arg1 : DevRef τ sig)) (V (main_arg2 : DevRef τ sig)) (V (main_arg9 : DevRef τ sig)) (V (main_arg10 : DevRef τ sig)))) (V (main_arg3 : DevRef τ sig)) (V (main_arg4 : DevRef τ sig)) (V (main_arg9 : DevRef τ sig)) (V (main_arg10 : DevRef τ sig)))) (V (main_arg5 : DevRef τ sig)) (V (main_arg6 : DevRef τ sig)) (V (main_arg9 : DevRef τ sig)) (V (main_arg10 : DevRef τ sig)))) (V (main_arg7 : DevRef τ sig)) (V (main_arg8 : DevRef τ sig)) (V (main_arg9 : DevRef τ sig)) (V (main_arg10 : DevRef τ sig))))
      ∧ (after ck58 (after ck57 (after ck56 (after ck55 (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))))))))))) (main_arg0 : DevRef τ sig) = (V (main_arg0 : DevRef τ sig)))
      ∧ (after ck58 (after ck57 (after ck56 (after ck55 (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))))))))))) (main_arg1 : DevRef τ sig) = (V (main_arg1 : DevRef τ sig)))
      ∧ (after ck58 (after ck57 (after ck56 (after ck55 (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))))))))))) (main_arg2 : DevRef τ sig) = (V (main_arg2 : DevRef τ sig)))
      ∧ (after ck58 (after ck57 (after ck56 (after ck55 (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))))))))))) (main_arg3 : DevRef τ sig) = (V (main_arg3 : DevRef τ sig)))
      ∧ (after ck58 (after ck57 (after ck56 (after ck55 (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))))))))))) (main_arg4 : DevRef τ sig) = (V (main_arg4 : DevRef τ sig)))
      ∧ (after ck58 (after ck57 (after ck56 (after ck55 (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))))))))))) (main_arg5 : DevRef τ sig) = (V (main_arg5 : DevRef τ sig)))
      ∧ (after ck58 (after ck57 (after ck56 (after ck55 (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))))))))))) (main_arg6 : DevRef τ sig) = (V (main_arg6 : DevRef τ sig)))
      ∧ (after ck58 (after ck57 (after ck56 (after ck55 (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))))))))))) (main_arg7 : DevRef τ sig) = (V (main_arg7 : DevRef τ sig)))
      ∧ (after ck58 (after ck57 (after ck56 (after ck55 (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))))))))))) (main_arg8 : DevRef τ sig) = (V (main_arg8 : DevRef τ sig)))
      ∧ (after ck58 (after ck57 (after ck56 (after ck55 (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))))))))))) (main_arg9 : DevRef τ sig) = (V (main_arg9 : DevRef τ sig)))
      ∧ (after ck58 (after ck57 (after ck56 (after ck55 (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V))))))))))))))))))))))))))))))))))))))))))))))))))))))))))) (main_arg10 : DevRef τ sig) = (V (main_arg10 : DevRef τ sig))) := by
  obtain ⟨h_v598, h_v637, h_arg0, h_arg1, h_arg2, h_arg3, h_arg4, h_arg5, h_arg6, h_arg7, h_arg8, h_arg9, h_arg10⟩ := state29 V
  generalize after ck57 (after ck56 (after ck55 (after ck54 (after ck53 (after ck52 (after ck51 (after ck50 (after ck49 (after ck48 (after ck47 (after ck46 (after ck45 (after ck44 (after ck43 (after ck42 (after ck41 (after ck40 (after ck39 (after ck38 (after ck37 (after ck36 (after ck35 (after ck34 (after ck33 (after ck32 (after ck31 (after ck30 (after ck29 (after ck28 (after ck27 (after ck26 (after ck25 (after ck24 (after ck23 (after ck22 (after ck21 (after ck20 (after ck19 (after ck18 (after ck17 (after ck16 (after ck15 (after ck14 (after ck13 (after ck12 (after ck11 (after ck10 (after ck9 (after ck8 (after ck7 (after ck6 (after ck5 (after ck4 (after ck3 (after ck2 (after ck1 (after ck0 (V)))))))))))))))))))))))))))))))))))))))))))))))))))))))))) = W at h_v598 h_v637 h_arg0 h_arg1 h_arg2 h_arg3 h_arg4 h_arg5 h_arg6 h_arg7 h_arg8 h_arg9 h_arg10 ⊢
  exact ⟨((sum33_read W).trans (by rw [h_v598, h_v637]; exact rfl)),
    ((sum33_keep_arg0 W).trans h_arg0),
    ((sum33_keep_arg1 W).trans h_arg1),
    ((sum33_keep_arg2 W).trans h_arg2),
    ((sum33_keep_arg3 W).trans h_arg3),
    ((sum33_keep_arg4 W).trans h_arg4),
    ((sum33_keep_arg5 W).trans h_arg5),
    ((sum33_keep_arg6 W).trans h_arg6),
    ((sum33_keep_arg7 W).trans h_arg7),
    ((sum33_keep_arg8 W).trans h_arg8),
    ((sum33_keep_arg9 W).trans h_arg9),
    ((sum33_keep_arg10 W).trans h_arg10)⟩

/-- The whole fold at the result buffer and at the arguments. -/
theorem after_allOps_read (V : Valuation τ sig (Elt F)) :
    (after allOps V (main_v638 : DevRef τ sig) = net (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)))
      ∧ (after allOps V (main_arg0 : DevRef τ sig) = V (main_arg0 : DevRef τ sig))
      ∧ (after allOps V (main_arg1 : DevRef τ sig) = V (main_arg1 : DevRef τ sig))
      ∧ (after allOps V (main_arg2 : DevRef τ sig) = V (main_arg2 : DevRef τ sig))
      ∧ (after allOps V (main_arg3 : DevRef τ sig) = V (main_arg3 : DevRef τ sig))
      ∧ (after allOps V (main_arg4 : DevRef τ sig) = V (main_arg4 : DevRef τ sig))
      ∧ (after allOps V (main_arg5 : DevRef τ sig) = V (main_arg5 : DevRef τ sig))
      ∧ (after allOps V (main_arg6 : DevRef τ sig) = V (main_arg6 : DevRef τ sig))
      ∧ (after allOps V (main_arg7 : DevRef τ sig) = V (main_arg7 : DevRef τ sig))
      ∧ (after allOps V (main_arg8 : DevRef τ sig) = V (main_arg8 : DevRef τ sig))
      ∧ (after allOps V (main_arg9 : DevRef τ sig) = V (main_arg9 : DevRef τ sig))
      ∧ (after allOps V (main_arg10 : DevRef τ sig) = V (main_arg10 : DevRef τ sig)) := by
  rw [after_allOps]
  obtain ⟨h_v638, h_arg0, h_arg1, h_arg2, h_arg3, h_arg4, h_arg5, h_arg6, h_arg7, h_arg8, h_arg9, h_arg10⟩ := state30 V
  exact ⟨h_v638.trans rfl, h_arg0, h_arg1, h_arg2, h_arg3, h_arg4, h_arg5, h_arg6, h_arg7, h_arg8, h_arg9, h_arg10⟩

/-- On every device, from any memory with zero counters: every weakly fair execution of the reference program
    terminates with the result buffer at the network of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v638) = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => by
      obtain ⟨h_v638, h_arg0, h_arg1, h_arg2, h_arg3, h_arg4, h_arg5, h_arg6, h_arg7, h_arg8, h_arg9, h_arg10⟩ := after_allOps_read (F := Ideal) (launchContents m c)
      exact ⟨(h c main_v638).trans h_v638, (h c main_arg0).trans h_arg0, (h c main_arg1).trans h_arg1, (h c main_arg2).trans h_arg2, (h c main_arg3).trans h_arg3, (h c main_arg4).trans h_arg4, (h c main_arg5).trans h_arg5, (h c main_arg6).trans h_arg6, (h c main_arg7).trans h_arg7, (h c main_arg8).trans h_arg8, (h c main_arg9).trans h_arg9, (h c main_arg10).trans h_arg10⟩)
    (run_all m ρ)

/-- The same run, keeping only that the arguments are unchanged. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => (h c).2) (run m ρ)

end Cert.RefHand

end
-- ==== Proof.BridgeCommon.lean ====
import proofs.«111407_j24215025614983_1_alg».proof.Proof.SpecK
import proofs.«111407_j24215025614983_1_alg».proof.Proof.SpecR

/-!
The pieces that the two specifications share are written with the same operations over shapes that are
abbreviations of the same literals, with shape-relation proofs (equal by proof irrelevance) and dimension records
with equal fields. Each is therefore the same function, by unfolding one small definition.
-/

noncomputable section

namespace Cert.Bridge

open Idealize.ShloMosaic Idealize.ShloMosaic.TcCoe Cert.KernelIdeal

theorem col_eq (v : Vec Ideal S400000 .i32) : Cert.KSpec.col v = Cert.RSpec.col v := rfl

theorem onesE_eq : Cert.KSpec.onesE (F := Ideal) = Cert.RSpec.onesE (F := Ideal) := rfl

theorem edgeRow_eq (r : Fin 4) (t : Vec Ideal S4x400000 .i32) : Cert.KSpec.edgeRow r t = Cert.RSpec.edgeRow r t := by
  fin_cases r <;> rfl

theorem degOf_eq (e : Vec Ideal S400000 .i32) : Cert.KSpec.degOf e = Cert.RSpec.degOf e := rfl

theorem wrapIdx_eq (e : Vec Ideal S400000 .i32) : Cert.KSpec.wrapIdx e = Cert.RSpec.wrapIdx e := rfl

theorem agg256_eq (hw : Vec Ideal S50000x256 .f32) (s d : Vec Ideal S400000 .i32) :
    Cert.KSpec.agg256 hw s d = Cert.RSpec.agg256 hw s d := rfl

theorem agg128_eq (hw : Vec Ideal S50000x128 .f32) (s d : Vec Ideal S400000 .i32) :
    Cert.KSpec.agg128 hw s d = Cert.RSpec.agg128 hw s d := rfl

theorem bias256_eq (r : Fin 4) (b : Vec Ideal S4x256 .f32) : Cert.KSpec.bias256 r b = Cert.RSpec.bias256 r b := by
  fin_cases r <;> rfl

theorem bias128_eq (r : Fin 4) (b : Vec Ideal S4x128 .f32) : Cert.KSpec.bias128 r b = Cert.RSpec.bias128 r b := by
  fin_cases r <;> rfl

theorem relu256_eq (x : Vec Ideal S50000x256 .f32) : Cert.KSpec.relu256 x = Cert.RSpec.relu256 x := rfl

end Cert.Bridge

end
-- ==== Proof.BridgeSum.lean ====
import proofs.«111407_j24215025614983_1_alg».proof.Proof.SpecK
import Idealize.ShloMosaic.Lib.IdealHost
import Idealize.ShloMosaic.PureOps.Ideal.Laws

/-!
The order of the additions. One program starts from the zero array and adds, relation after relation, first the
scaled aggregate and then the bias; the other forms each relation's (aggregate + bias) and adds the four left to
right. At every index both are sums of the same eight extended reals, and addition of extended reals is
associative and commutative with 0 neutral (at the infinities too), so the two arrays are equal.
-/

noncomputable section

namespace Cert.Bridge

open Idealize.ShloMosaic Idealize.ShloMosaic.TcCoe Idealize.ShloMosaic.ValueIdx Cert.KernelIdeal Cert.KernelIdeal.Gen

/-- The zero word of f32 broadcast from a scalar reads the extended real 0 at every index. -/
theorem zeroSplat_apply {T : Shape} (h : S_.BroadcastsInDim T ![]) (i : T.Idx) :
    (broadcastInDim T ![] h (constant (F := Ideal) S_ .f32 0x00000000#32) : Vec Ideal T .f32) i = (0 : EReal) := by
  refine (broadcastInDim_scalar_apply h _ i).trans ?_
  exact Ideal.ofBits_zero_f32

/-- Eight extended reals added one after the other onto 0, against the four pairs added left to right. -/
theorem ereal_sum_reorder (a0 c0 a1 c1 a2 c2 a3 c3 : EReal) :
    ((((((((0 : EReal) + a0) + c0) + a1) + c1) + a2) + c2) + a3) + c3
      = (((a0 + c0) + (a1 + c1)) + (a2 + c2)) + (a3 + c3) := by
  rw [zero_add]
  ac_rfl

/-- The same for whole arrays over any shape, the running sum starting from an array that reads 0 everywhere. -/
theorem sum_reorder {T : Shape} (Z a0 c0 a1 c1 a2 c2 a3 c3 : FVec Ideal T .f32) (hZ : ∀ i, Z i = (0 : EReal)) :
    addf (addf (addf (addf (addf (addf (addf (addf Z a0) c0) a1) c1) a2) c2) a3) c3
      = addf (addf (addf (addf a0 c0) (addf a1 c1)) (addf a2 c2)) (addf a3 c3) := by
  funext i
  simp only [addf_apply]
  rw [hZ i]
  exact ereal_sum_reorder _ _ _ _ _ _ _ _

end Cert.Bridge

end
-- ==== Proof.BridgeLayout.lean ====
import Idealize.ShloMosaic.Lib.ValueLayout
import Idealize.ShloMosaic.Lib.StackMember

/-!
Three layout facts read at an index: member r of a stack of four matrices; one column laid over c columns; and a
plain matrix product as the sum over the contracted coordinate.
-/

noncomputable section

namespace Cert.Bridge

open Idealize.ShloMosaic Idealize.ShloMosaic.ValueIdx

/-- The [a, b] matrix cut out of a [4, a, b] stack at offset o on the leading axis, with the unit axis dropped,
    reads at (i, j) the stack at (o, i, j). -/
theorem member_apply {α : Type} {a b : Nat} (o : Nat) (X : (⟨3, ![4, a, b]⟩ : Shape).Idx → α)
    (hs : (⟨3, ![4, a, b]⟩ : Shape).Slices ![o, 0, 0] (⟨3, ![1, a, b]⟩ : Shape))
    (hc : (⟨3, ![1, a, b]⟩ : Shape).ShapeCasts (⟨2, ![a, b]⟩ : Shape))
    (r : Fin 4) (hr : r.val = o) (i : Fin a) (j : Fin b) :
    shapeCast (⟨2, ![a, b]⟩ : Shape) (extractStridedSlice (⟨3, ![1, a, b]⟩ : Shape) ![o, 0, 0] X hs) hc (ix2 i j)
      = X (ix3 r i j) := by
  refine (shapeCast_1ab_ab_apply _ _ i j).trans ?_
  exact extractStridedSlice_apply _ _ _ (ix3 (0 : Fin 1) i j) (ix3 r i j) (fun ax =>
    match ax with
    | ⟨0, _⟩ => hr
    | ⟨1, _⟩ => (Nat.zero_add _).symm
    | ⟨2, _⟩ => (Nat.zero_add _).symm)

/-- One column laid over c columns reads, at (n, j), the column at (n, 0). -/
theorem colBcast_apply {α : Type} {m c : Nat}
    (h : (⟨2, ![m, 1]⟩ : Shape).BroadcastsInDim (⟨2, ![m, c]⟩ : Shape) ![0, 1])
    (x : (⟨2, ![m, 1]⟩ : Shape).Idx → α) (n : Fin m) (j : Fin c) (hm : m ≠ 1) :
    broadcastInDim (⟨2, ![m, c]⟩ : Shape) ![0, 1] h x (ix2 n j) = x (ix2 n (0 : Fin 1)) := by
  refine broadcastInDim_apply _ _ _ (ix2 n j) (ix2 n (0 : Fin 1)) (fun a => ?_)
  match a with
  | ⟨0, _⟩ => exact (if_neg hm).symm
  | ⟨1, _⟩ => rfl

/-- A vector as one column reads, at (n, 0), the vector at n. -/
theorem nodeCol_apply {α : Type} {m : Nat} (h : (⟨1, ![m]⟩ : Shape).BroadcastsInDim (⟨2, ![m, 1]⟩ : Shape) ![0])
    (v : (⟨1, ![m]⟩ : Shape).Idx → α) (n : Fin m) (u : Fin 1) (hm : m ≠ 1) :
    broadcastInDim (⟨2, ![m, 1]⟩ : Shape) ![0] h v (ix2 n u) = v (ix1 n) := by
  refine broadcastInDim_apply _ _ _ (ix2 n u) (ix1 n) (fun a => ?_)
  match a with
  | ⟨0, _⟩ => exact (if_neg hm).symm

/-- A product of an m×k by a k×n matrix whose dimension numbers are the plain ones reads, at (a, b), the sum over
    the contracted coordinate of the products of the entries. -/
theorem dot_apply {m k n : Nat} (D : DotDims (⟨2, ![m, k]⟩ : Shape) (⟨2, ![k, n]⟩ : Shape) (⟨2, ![m, n]⟩ : Shape))
    (hD : D = DotDims.plain m k n) (prec : Option ContractPrecision)
    (A : FVec Ideal (⟨2, ![m, k]⟩ : Shape) .f32) (B : FVec Ideal (⟨2, ![k, n]⟩ : Shape) .f32) (a : Fin m) (b : Fin n) :
    Host.dotGeneral D prec A B (ix2 a b) = ∑ c : Fin k, A (ix2 a c) * B (ix2 c b) := by
  subst hD
  exact StackMember.dotGeneral_plain_apply prec A B a b

end Cert.Bridge

end
-- ==== Proof.BridgeDeg.lean ====
import proofs.«111407_j24215025614983_1_alg».proof.Proof.SpecK
import Idealize.ShloMosaic.Lib.ValueLayout
import Idealize.ShloMosaic.Lib.IdealHost

/-!
The stacked degree scale read at an index. The four relations' degree vectors are laid as the four rows of a
[4, 50000] array, rsqrt is taken entry by entry, and a unit axis is appended; so entry (r, n, 0) is rsqrt of
relation r's degree at node n.
-/

noncomputable section

namespace Cert.Bridge

open Idealize.ShloMosaic Idealize.ShloMosaic.TcCoe Idealize.ShloMosaic.ValueIdx Cert.KernelIdeal Cert.KernelIdeal.Gen

/-- A node vector laid as one row reads, at (0, n), the vector at n. -/
theorem row_apply (v : Vec Ideal S50000 .f32) (u : Fin 1) (n : Fin 50000) :
    Cert.KSpec.row v (ix2 u n) = v (ix1 n) := by
  unfold Cert.KSpec.row
  refine broadcastInDim_apply _ _ _ (ix2 u n) (ix1 n) (fun a => ?_)
  match a with
  | ⟨0, _⟩ => rfl

/-- Four rows stacked along axis 0: row k of the stack, read at n, is the k-th vector at n. -/
theorem stack4_apply (v0 v1 v2 v3 : Vec Ideal S50000 .f32) (k : Nat) (hk : k < 4) (v : Vec Ideal S50000 .f32)
    (hv : [v0, v1, v2, v3][k]'hk = v) (n : Fin 50000) :
    concatenate S4x50000 0 [⟨S1x50000, Cert.KSpec.row v0⟩, ⟨S1x50000, Cert.KSpec.row v1⟩, ⟨S1x50000, Cert.KSpec.row v2⟩, ⟨S1x50000, Cert.KSpec.row v3⟩]
      concatenates_S1x50000_S1x50000_S1x50000_S1x50000_S4x50000_d0 (ix2 (⟨k, hk⟩ : Fin 4) n) = v (ix1 n) := by
  subst hv
  match k, hk with
  | 0, _ =>
    refine (concatenate_apply_piece (t := S4x50000) (0 : Fin 2) [⟨S1x50000, Cert.KSpec.row v0⟩, ⟨S1x50000, Cert.KSpec.row v1⟩, ⟨S1x50000, Cert.KSpec.row v2⟩, ⟨S1x50000, Cert.KSpec.row v3⟩]
      concatenates_S1x50000_S1x50000_S1x50000_S1x50000_S4x50000_d0 (ix2 (⟨0, _⟩ : Fin 4) n) 0 (show 0 < 4 by decide) S1x50000
      (Cert.KSpec.row v0) rfl rfl 0 rfl (ix2 (0 : Fin 1) n) (fun b hb => ?_) rfl).trans (row_apply _ _ _)
    match b, hb with
    | ⟨0, _⟩, hb => exact absurd rfl hb
    | ⟨1, _⟩, _ => rfl
  | 1, _ =>
    refine (concatenate_apply_piece (t := S4x50000) (0 : Fin 2) [⟨S1x50000, Cert.KSpec.row v0⟩, ⟨S1x50000, Cert.KSpec.row v1⟩, ⟨S1x50000, Cert.KSpec.row v2⟩, ⟨S1x50000, Cert.KSpec.row v3⟩]
      concatenates_S1x50000_S1x50000_S1x50000_S1x50000_S4x50000_d0 (ix2 (⟨1, _⟩ : Fin 4) n) 1 (show 1 < 4 by decide) S1x50000
      (Cert.KSpec.row v1) rfl rfl 1 rfl (ix2 (0 : Fin 1) n) (fun b hb => ?_) rfl).trans (row_apply _ _ _)
    match b, hb with
    | ⟨0, _⟩, hb => exact absurd rfl hb
    | ⟨1, _⟩, _ => rfl
  | 2, _ =>
    refine (concatenate_apply_piece (t := S4x50000) (0 : Fin 2) [⟨S1x50000, Cert.KSpec.row v0⟩, ⟨S1x50000, Cert.KSpec.row v1⟩, ⟨S1x50000, Cert.KSpec.row v2⟩, ⟨S1x50000, Cert.KSpec.row v3⟩]
      concatenates_S1x50000_S1x50000_S1x50000_S1x50000_S4x50000_d0 (ix2 (⟨2, _⟩ : Fin 4) n) 2 (show 2 < 4 by decide) S1x50000
      (Cert.KSpec.row v2) rfl rfl 2 rfl (ix2 (0 : Fin 1) n) (fun b hb => ?_) rfl).trans (row_apply _ _ _)
    match b, hb with
    | ⟨0, _⟩, hb => exact absurd rfl hb
    | ⟨1, _⟩, _ => rfl
  | 3, _ =>
    refine (concatenate_apply_piece (t := S4x50000) (0 : Fin 2) [⟨S1x50000, Cert.KSpec.row v0⟩, ⟨S1x50000, Cert.KSpec.row v1⟩, ⟨S1x50000, Cert.KSpec.row v2⟩, ⟨S1x50000, Cert.KSpec.row v3⟩]
      concatenates_S1x50000_S1x50000_S1x50000_S1x50000_S4x50000_d0 (ix2 (⟨3, _⟩ : Fin 4) n) 3 (show 3 < 4 by decide) S1x50000
      (Cert.KSpec.row v3) rfl rfl 3 rfl (ix2 (0 : Fin 1) n) (fun b hb => ?_) rfl).trans (row_apply _ _ _)
    match b, hb with
    | ⟨0, _⟩, hb => exact absurd rfl hb
    | ⟨1, _⟩, _ => rfl

/-- Entry (r, n, 0) of the stacked degree scale is rsqrt of relation r's degree at node n. -/
theorem degScale_apply (t : Vec Ideal S4x400000 .i32) (r : Fin 4) (n : Fin 50000) (u : Fin 1) :
    Cert.KSpec.degScale t (ix3 r n u)
      = FloatOps.hostUnary (F := Ideal) (φ := .f32) .rsqrt (Cert.KSpec.degOf (Cert.KSpec.edgeRow r t) (ix1 n)) := by
  unfold Cert.KSpec.degScale
  refine (broadcastInDim_apply _ _ _ (ix3 r n u) (ix2 r n) (fun a => ?_)).trans ?_
  · match a with
    | ⟨0, _⟩ => rfl
    | ⟨1, _⟩ => rfl
  · show FloatOps.hostUnary (F := Ideal) (φ := .f32) .rsqrt _ = _
    refine congrArg _ ?_
    match r with
    | 0 => exact stack4_apply _ _ _ _ 0 (by decide) _ rfl n
    | 1 => exact stack4_apply _ _ _ _ 1 (by decide) _ rfl n
    | 2 => exact stack4_apply _ _ _ _ 2 (by decide) _ rfl n
    | 3 => exact stack4_apply _ _ _ _ 3 (by decide) _ rfl n

end Cert.Bridge

end
-- ==== Proof.BridgeScale.lean ====
import proofs.«111407_j24215025614983_1_alg».proof.Proof.SpecK
import proofs.«111407_j24215025614983_1_alg».proof.Proof.SpecR
import proofs.«111407_j24215025614983_1_alg».proof.Proof.BridgeCommon
import proofs.«111407_j24215025614983_1_alg».proof.Proof.BridgeLayout
import proofs.«111407_j24215025614983_1_alg».proof.Proof.BridgeDeg

/-!
The target-degree scale. One program cuts relation r's column out of the stacked degree scale [4, 50000, 1] and
lays it over all feature columns; the other takes rsqrt of relation r's degrees and lays it over the columns
directly. Both read, at (n, j), rsqrt of relation r's degree at node n.
-/

noncomputable section

namespace Cert.Bridge

open Idealize.ShloMosaic Idealize.ShloMosaic.TcCoe Idealize.ShloMosaic.ValueIdx Cert.KernelIdeal Cert.KernelIdeal.Gen

/-- Relation r's column of a stacked scale D, laid over 256 columns, reads D(r, n, 0) at (n, j). -/
theorem scaleCol256_apply (r : Fin 4) (D : Vec Ideal S4x50000x1 .f32) (n : Fin 50000) (j : Fin 256) :
    Cert.KSpec.scaleCol256 r D (ix2 n j) = D (ix3 r n (0 : Fin 1)) := by
  match r with
  | 0 =>
    show (broadcastInDim S50000x256 ![0, 1] bcast_S50000x1_S50000x256_0_1
      (shapeCast S50000x1 (extractStridedSlice S1x50000x1 ![0, 0, 0] D slices_S4x50000x1_S1x50000x1_0_0_0)
        shapeCasts_S1x50000x1_S50000x1) : Vec Ideal S50000x256 .f32) (ix2 n j) = _
    refine (colBcast_apply _ _ n j (by decide)).trans ?_
    exact member_apply 0 D _ _ 0 rfl n 0
  | 1 =>
    show (broadcastInDim S50000x256 ![0, 1] bcast_S50000x1_S50000x256_0_1
      (shapeCast S50000x1 (extractStridedSlice S1x50000x1 ![1, 0, 0] D slices_S4x50000x1_S1x50000x1_1_0_0)
        shapeCasts_S1x50000x1_S50000x1) : Vec Ideal S50000x256 .f32) (ix2 n j) = _
    refine (colBcast_apply _ _ n j (by decide)).trans ?_
    exact member_apply 1 D _ _ 1 rfl n 0
  | 2 =>
    show (broadcastInDim S50000x256 ![0, 1] bcast_S50000x1_S50000x256_0_1
      (shapeCast S50000x1 (extractStridedSlice S1x50000x1 ![2, 0, 0] D slices_S4x50000x1_S1x50000x1_2_0_0)
        shapeCasts_S1x50000x1_S50000x1) : Vec Ideal S50000x256 .f32) (ix2 n j) = _
    refine (colBcast_apply _ _ n j (by decide)).trans ?_
    exact member_apply 2 D _ _ 2 rfl n 0
  | 3 =>
    show (broadcastInDim S50000x256 ![0, 1] bcast_S50000x1_S50000x256_0_1
      (shapeCast S50000x1 (extractStridedSlice S1x50000x1 ![3, 0, 0] D slices_S4x50000x1_S1x50000x1_3_0_0)
        shapeCasts_S1x50000x1_S50000x1) : Vec Ideal S50000x256 .f32) (ix2 n j) = _
    refine (colBcast_apply _ _ n j (by decide)).trans ?_
    exact member_apply 3 D _ _ 3 rfl n 0

/-- The same over 128 columns. -/
theorem scaleCol128_apply (r : Fin 4) (D : Vec Ideal S4x50000x1 .f32) (n : Fin 50000) (j : Fin 128) :
    Cert.KSpec.scaleCol128 r D (ix2 n j) = D (ix3 r n (0 : Fin 1)) := by
  match r with
  | 0 =>
    show (broadcastInDim S50000x128 ![0, 1] bcast_S50000x1_S50000x128_0_1
      (shapeCast S50000x1 (extractStridedSlice S1x50000x1 ![0, 0, 0] D slices_S4x50000x1_S1x50000x1_0_0_0)
        shapeCasts_S1x50000x1_S50000x1) : Vec Ideal S50000x128 .f32) (ix2 n j) = _
    refine (colBcast_apply _ _ n j (by decide)).trans ?_
    exact member_apply 0 D _ _ 0 rfl n 0
  | 1 =>
    show (broadcastInDim S50000x128 ![0, 1] bcast_S50000x1_S50000x128_0_1
      (shapeCast S50000x1 (extractStridedSlice S1x50000x1 ![1, 0, 0] D slices_S4x50000x1_S1x50000x1_1_0_0)
        shapeCasts_S1x50000x1_S50000x1) : Vec Ideal S50000x128 .f32) (ix2 n j) = _
    refine (colBcast_apply _ _ n j (by decide)).trans ?_
    exact member_apply 1 D _ _ 1 rfl n 0
  | 2 =>
    show (broadcastInDim S50000x128 ![0, 1] bcast_S50000x1_S50000x128_0_1
      (shapeCast S50000x1 (extractStridedSlice S1x50000x1 ![2, 0, 0] D slices_S4x50000x1_S1x50000x1_2_0_0)
        shapeCasts_S1x50000x1_S50000x1) : Vec Ideal S50000x128 .f32) (ix2 n j) = _
    refine (colBcast_apply _ _ n j (by decide)).trans ?_
    exact member_apply 2 D _ _ 2 rfl n 0
  | 3 =>
    show (broadcastInDim S50000x128 ![0, 1] bcast_S50000x1_S50000x128_0_1
      (shapeCast S50000x1 (extractStridedSlice S1x50000x1 ![3, 0, 0] D slices_S4x50000x1_S1x50000x1_3_0_0)
        shapeCasts_S1x50000x1_S50000x1) : Vec Ideal S50000x128 .f32) (ix2 n j) = _
    refine (colBcast_apply _ _ n j (by decide)).trans ?_
    exact member_apply 3 D _ _ 3 rfl n 0

/-- rsqrt of an edge vector's degrees laid over 256 columns reads, at (n, j), rsqrt of the degree at n. -/
theorem scale256_apply (e : Vec Ideal S400000 .i32) (n : Fin 50000) (j : Fin 256) :
    Cert.RSpec.scale256 e (ix2 n j)
      = FloatOps.hostUnary (F := Ideal) (φ := .f32) .rsqrt (Cert.RSpec.degOf e (ix1 n)) := by
  unfold Cert.RSpec.scale256
  refine (colBcast_apply _ _ n j (by decide)).trans ?_
  exact nodeCol_apply _ _ n 0 (by decide)

/-- The same over 128 columns. -/
theorem scale128_apply (e : Vec Ideal S400000 .i32) (n : Fin 50000) (j : Fin 128) :
    Cert.RSpec.scale128 e (ix2 n j)
      = FloatOps.hostUnary (F := Ideal) (φ := .f32) .rsqrt (Cert.RSpec.degOf e (ix1 n)) := by
  unfold Cert.RSpec.scale128
  refine (colBcast_apply _ _ n j (by decide)).trans ?_
  exact nodeCol_apply _ _ n 0 (by decide)

/-- The two programs' target-degree scales are one array, 256 columns. -/
theorem scaleCol256_eq (r : Fin 4) (d : Vec Ideal S4x400000 .i32) :
    Cert.KSpec.scaleCol256 r (Cert.KSpec.degScale d) = Cert.RSpec.scale256 (Cert.RSpec.edgeRow r d) := by
  funext i
  obtain ⟨n, j, rfl⟩ : ∃ (n : Fin 50000) (j : Fin 256), i = ix2 n j := ⟨i 0, i 1, eq_ix2 i⟩
  refine (scaleCol256_apply r _ n j).trans ((degScale_apply d r n 0).trans ?_)
  rw [edgeRow_eq, degOf_eq]
  exact (scale256_apply _ n j).symm

/-- The two programs' target-degree scales are one array, 128 columns. -/
theorem scaleCol128_eq (r : Fin 4) (d : Vec Ideal S4x400000 .i32) :
    Cert.KSpec.scaleCol128 r (Cert.KSpec.degScale d) = Cert.RSpec.scale128 (Cert.RSpec.edgeRow r d) := by
  funext i
  obtain ⟨n, j, rfl⟩ : ∃ (n : Fin 50000) (j : Fin 128), i = ix2 n j := ⟨i 0, i 1, eq_ix2 i⟩
  refine (scaleCol128_apply r _ n j).trans ((degScale_apply d r n 0).trans ?_)
  rw [edgeRow_eq, degOf_eq]
  exact (scale128_apply _ n j).symm

end Cert.Bridge

end
-- ==== Proof.BridgeProj.lean ====
import proofs.«111407_j24215025614983_1_alg».proof.Proof.SpecK
import proofs.«111407_j24215025614983_1_alg».proof.Proof.SpecR
import proofs.«111407_j24215025614983_1_alg».proof.Proof.BridgeCommon
import proofs.«111407_j24215025614983_1_alg».proof.Proof.BridgeLayout
import proofs.«111407_j24215025614983_1_alg».proof.Proof.BridgeDeg
import proofs.«111407_j24215025614983_1_alg».proof.Proof.BridgeScale

/-!
The projected features. One program holds all four relations' projections as one array whose entry (r, n, j) is
the sum over k of (h(n,k) * D(r,n,0)) * W(r,k,j), D the stacked source-degree scale, and cuts relation r's slice
out of it; the other scales h by rsqrt of relation r's source degrees and multiplies by relation r's weight
matrix. At every index both are the same sum with the same summands.
-/

noncomputable section

namespace Cert.Bridge

open Idealize.ShloMosaic Idealize.ShloMosaic.TcCoe Idealize.ShloMosaic.ValueIdx Cert.KernelIdeal Cert.KernelIdeal.Gen

/-- Relation r's slice of a stack of projections reads the stack at (r, n, j). -/
theorem hwSlice256_apply (r : Fin 4) (HW : Vec Ideal S4x50000x256 .f32) (n : Fin 50000) (j : Fin 256) :
    Cert.KSpec.hwSlice256 r HW (ix2 n j) = HW (ix3 r n j) := by
  match r with
  | 0 => exact member_apply 0 HW slices_S4x50000x256_S1x50000x256_0_0_0 shapeCasts_S1x50000x256_S50000x256 0 rfl n j
  | 1 => exact member_apply 1 HW slices_S4x50000x256_S1x50000x256_1_0_0 shapeCasts_S1x50000x256_S50000x256 1 rfl n j
  | 2 => exact member_apply 2 HW slices_S4x50000x256_S1x50000x256_2_0_0 shapeCasts_S1x50000x256_S50000x256 2 rfl n j
  | 3 => exact member_apply 3 HW slices_S4x50000x256_S1x50000x256_3_0_0 shapeCasts_S1x50000x256_S50000x256 3 rfl n j

theorem hwSlice128_apply (r : Fin 4) (HW : Vec Ideal S4x50000x128 .f32) (n : Fin 50000) (j : Fin 128) :
    Cert.KSpec.hwSlice128 r HW (ix2 n j) = HW (ix3 r n j) := by
  match r with
  | 0 => exact member_apply 0 HW slices_S4x50000x128_S1x50000x128_0_0_0 shapeCasts_S1x50000x128_S50000x128 0 rfl n j
  | 1 => exact member_apply 1 HW slices_S4x50000x128_S1x50000x128_1_0_0 shapeCasts_S1x50000x128_S50000x128 1 rfl n j
  | 2 => exact member_apply 2 HW slices_S4x50000x128_S1x50000x128_2_0_0 shapeCasts_S1x50000x128_S50000x128 2 rfl n j
  | 3 => exact member_apply 3 HW slices_S4x50000x128_S1x50000x128_3_0_0 shapeCasts_S1x50000x128_S50000x128 3 rfl n j

/-- Relation r's weight matrix reads the weight table at (r, k, j). -/
theorem wSlice256_apply (r : Fin 4) (W : Vec Ideal S4x256x256 .f32) (k : Fin 256) (j : Fin 256) :
    Cert.RSpec.wSlice256 r W (ix2 k j) = W (ix3 r k j) := by
  match r with
  | 0 =>
    show (shapeCast Cert.ReferenceIdeal.S256x256 (extractStridedSlice Cert.ReferenceIdeal.S1x256x256 ![0, 0, 0] W
      Cert.ReferenceIdeal.Gen.slices_S4x256x256_S1x256x256_0_0_0) Cert.ReferenceIdeal.Gen.shapeCasts_S1x256x256_S256x256
        : Vec Ideal Cert.ReferenceIdeal.S256x256 .f32) (ix2 k j) = _
    exact member_apply 0 W _ _ 0 rfl k j
  | 1 =>
    show (shapeCast Cert.ReferenceIdeal.S256x256 (extractStridedSlice Cert.ReferenceIdeal.S1x256x256 ![1, 0, 0] W
      Cert.ReferenceIdeal.Gen.slices_S4x256x256_S1x256x256_1_0_0) Cert.ReferenceIdeal.Gen.shapeCasts_S1x256x256_S256x256
        : Vec Ideal Cert.ReferenceIdeal.S256x256 .f32) (ix2 k j) = _
    exact member_apply 1 W _ _ 1 rfl k j
  | 2 =>
    show (shapeCast Cert.ReferenceIdeal.S256x256 (extractStridedSlice Cert.ReferenceIdeal.S1x256x256 ![2, 0, 0] W
      Cert.ReferenceIdeal.Gen.slices_S4x256x256_S1x256x256_2_0_0) Cert.ReferenceIdeal.Gen.shapeCasts_S1x256x256_S256x256
        : Vec Ideal Cert.ReferenceIdeal.S256x256 .f32) (ix2 k j) = _
    exact member_apply 2 W _ _ 2 rfl k j
  | 3 =>
    show (shapeCast Cert.ReferenceIdeal.S256x256 (extractStridedSlice Cert.ReferenceIdeal.S1x256x256 ![3, 0, 0] W
      Cert.ReferenceIdeal.Gen.slices_S4x256x256_S1x256x256_3_0_0) Cert.ReferenceIdeal.Gen.shapeCasts_S1x256x256_S256x256
        : Vec Ideal Cert.ReferenceIdeal.S256x256 .f32) (ix2 k j) = _
    exact member_apply 3 W _ _ 3 rfl k j

theorem wSlice128_apply (r : Fin 4) (W : Vec Ideal S4x256x128 .f32) (k : Fin 256) (j : Fin 128) :
    Cert.RSpec.wSlice128 r W (ix2 k j) = W (ix3 r k j) := by
  match r with
  | 0 =>
    show (shapeCast Cert.ReferenceIdeal.S256x128 (extractStridedSlice Cert.ReferenceIdeal.S1x256x128 ![0, 0, 0] W
      Cert.ReferenceIdeal.Gen.slices_S4x256x128_S1x256x128_0_0_0) Cert.ReferenceIdeal.Gen.shapeCasts_S1x256x128_S256x128
        : Vec Ideal Cert.ReferenceIdeal.S256x128 .f32) (ix2 k j) = _
    exact member_apply 0 W _ _ 0 rfl k j
  | 1 =>
    show (shapeCast Cert.ReferenceIdeal.S256x128 (extractStridedSlice Cert.ReferenceIdeal.S1x256x128 ![1, 0, 0] W
      Cert.ReferenceIdeal.Gen.slices_S4x256x128_S1x256x128_1_0_0) Cert.ReferenceIdeal.Gen.shapeCasts_S1x256x128_S256x128
        : Vec Ideal Cert.ReferenceIdeal.S256x128 .f32) (ix2 k j) = _
    exact member_apply 1 W _ _ 1 rfl k j
  | 2 =>
    show (shapeCast Cert.ReferenceIdeal.S256x128 (extractStridedSlice Cert.ReferenceIdeal.S1x256x128 ![2, 0, 0] W
      Cert.ReferenceIdeal.Gen.slices_S4x256x128_S1x256x128_2_0_0) Cert.ReferenceIdeal.Gen.shapeCasts_S1x256x128_S256x128
        : Vec Ideal Cert.ReferenceIdeal.S256x128 .f32) (ix2 k j) = _
    exact member_apply 2 W _ _ 2 rfl k j
  | 3 =>
    show (shapeCast Cert.ReferenceIdeal.S256x128 (extractStridedSlice Cert.ReferenceIdeal.S1x256x128 ![3, 0, 0] W
      Cert.ReferenceIdeal.Gen.slices_S4x256x128_S1x256x128_3_0_0) Cert.ReferenceIdeal.Gen.shapeCasts_S1x256x128_S256x128
        : Vec Ideal Cert.ReferenceIdeal.S256x128 .f32) (ix2 k j) = _
    exact member_apply 3 W _ _ 3 rfl k j

/-- The whole-array product at (n, j): the sum over k of (h(n,k) * rsqrt(deg_r(n))) * W(r,k,j). -/
theorem hw256_apply (r : Fin 4) (h : Vec Ideal S50000x256 .f32) (W : Vec Ideal S4x256x256 .f32)
    (s : Vec Ideal S4x400000 .i32) (n : Fin 50000) (j : Fin 256) :
    Cert.RSpec.hw256 r h W s (ix2 n j)
      = ∑ k : Fin 256, (h (ix2 n k)
          * FloatOps.hostUnary (F := Ideal) (φ := .f32) .rsqrt (Cert.RSpec.degOf (Cert.RSpec.edgeRow r s) (ix1 n)))
          * W (ix3 r k j) := by
  unfold Cert.RSpec.hw256
  refine (dot_apply _ rfl none _ _ n j).trans ?_
  refine Finset.sum_congr rfl fun k _ => ?_
  rw [mulf_apply, scale256_apply, wSlice256_apply]

theorem hw128_apply (r : Fin 4) (h : Vec Ideal S50000x256 .f32) (W : Vec Ideal S4x256x128 .f32)
    (s : Vec Ideal S4x400000 .i32) (n : Fin 50000) (j : Fin 128) :
    Cert.RSpec.hw128 r h W s (ix2 n j)
      = ∑ k : Fin 256, (h (ix2 n k)
          * FloatOps.hostUnary (F := Ideal) (φ := .f32) .rsqrt (Cert.RSpec.degOf (Cert.RSpec.edgeRow r s) (ix1 n)))
          * W (ix3 r k j) := by
  unfold Cert.RSpec.hw128
  refine (dot_apply _ rfl none _ _ n j).trans ?_
  refine Finset.sum_congr rfl fun k _ => ?_
  rw [mulf_apply, scale256_apply, wSlice128_apply]

/-- Relation r's slice of the stacked projections is the whole-array product, 256 features. -/
theorem hwSlice256_proj_eq (r : Fin 4) (h : Vec Ideal S50000x256 .f32) (W : Vec Ideal S4x256x256 .f32)
    (s : Vec Ideal S4x400000 .i32) :
    Cert.KSpec.hwSlice256 r (Cert.KSpec.proj256 h (Cert.KSpec.degScale s) W) = Cert.RSpec.hw256 r h W s := by
  funext i
  obtain ⟨n, j, rfl⟩ : ∃ (n : Fin 50000) (j : Fin 256), i = ix2 n j := ⟨i 0, i 1, eq_ix2 i⟩
  refine (hwSlice256_apply r _ n j).trans ?_
  show Cert.KSpec.projAt256 h (Cert.KSpec.degScale s) W r n j = _
  unfold Cert.KSpec.projAt256
  rw [degScale_apply s r n 0, edgeRow_eq, degOf_eq]
  exact (hw256_apply r h W s n j).symm

/-- The same with 128 features. -/
theorem hwSlice128_proj_eq (r : Fin 4) (h : Vec Ideal S50000x256 .f32) (W : Vec Ideal S4x256x128 .f32)
    (s : Vec Ideal S4x400000 .i32) :
    Cert.KSpec.hwSlice128 r (Cert.KSpec.proj128 h (Cert.KSpec.degScale s) W) = Cert.RSpec.hw128 r h W s := by
  funext i
  obtain ⟨n, j, rfl⟩ : ∃ (n : Fin 50000) (j : Fin 128), i = ix2 n j := ⟨i 0, i 1, eq_ix2 i⟩
  refine (hwSlice128_apply r _ n j).trans ?_
  show Cert.KSpec.projAt128 h (Cert.KSpec.degScale s) W r n j = _
  unfold Cert.KSpec.projAt128
  rw [degScale_apply s r n 0, edgeRow_eq, degOf_eq]
  exact (hw128_apply r h W s n j).symm

end Cert.Bridge

end
-- ==== Proof.Bridge.lean ====
import proofs.«111407_j24215025614983_1_alg».proof.Proof.SpecK
import proofs.«111407_j24215025614983_1_alg».proof.Proof.SpecR
import proofs.«111407_j24215025614983_1_alg».proof.Proof.BridgeCommon
import proofs.«111407_j24215025614983_1_alg».proof.Proof.BridgeSum
import proofs.«111407_j24215025614983_1_alg».proof.Proof.BridgeScale
import proofs.«111407_j24215025614983_1_alg».proof.Proof.BridgeProj

/-!
The two specifications are one function. In each layer, relation r's projected features and its target-degree
scale are the same arrays in both programs, so the aggregations (never opened) act on equal operands; what is left
is the order in which the eight summands of a layer are added. The four layers are then composed, each layer's
input being the previous layer's output.
-/

noncomputable section

namespace Cert.Bridge

open Idealize.ShloMosaic Idealize.ShloMosaic.TcCoe Cert.KernelIdeal Cert.KernelIdeal.Gen

/-- One layer with 256 output features. -/
theorem layer256_eq (h : Vec Ideal S50000x256 .f32) (W : Vec Ideal S4x256x256 .f32) (b : Vec Ideal S4x256 .f32)
    (s d : Vec Ideal S4x400000 .i32) :
    Cert.KSpec.layer256 h W b s d = Cert.RSpec.layer256 h W b s d := by
  unfold Cert.KSpec.layer256 Cert.KSpec.tail256 Cert.KSpec.step256 Cert.RSpec.layer256 Cert.RSpec.conv256
  rw [hwSlice256_proj_eq 0, hwSlice256_proj_eq 1, hwSlice256_proj_eq 2, hwSlice256_proj_eq 3,
    scaleCol256_eq 0, scaleCol256_eq 1, scaleCol256_eq 2, scaleCol256_eq 3]
  simp only [edgeRow_eq, agg256_eq, bias256_eq]
  exact sum_reorder _ _ _ _ _ _ _ _ _ (fun i => zeroSplat_apply _ i)

/-- The last layer, 128 output features. -/
theorem layer128_eq (h : Vec Ideal S50000x256 .f32) (W : Vec Ideal S4x256x128 .f32) (b : Vec Ideal S4x128 .f32)
    (s d : Vec Ideal S4x400000 .i32) :
    Cert.KSpec.layer128 h W b s d = Cert.RSpec.layer128 h W b s d := by
  unfold Cert.KSpec.layer128 Cert.KSpec.tail128 Cert.KSpec.step128 Cert.RSpec.layer128 Cert.RSpec.conv128
  rw [hwSlice128_proj_eq 0, hwSlice128_proj_eq 1, hwSlice128_proj_eq 2, hwSlice128_proj_eq 3,
    scaleCol128_eq 0, scaleCol128_eq 1, scaleCol128_eq 2, scaleCol128_eq 3]
  simp only [edgeRow_eq, agg128_eq, bias128_eq]
  exact sum_reorder _ _ _ _ _ _ _ _ _ (fun i => zeroSplat_apply _ i)

/-- The whole network. -/
theorem net_eq (x : Vec Ideal S50000x256 .f32) (W1 : Vec Ideal S4x256x256 .f32) (b1 : Vec Ideal S4x256 .f32)
    (W2 : Vec Ideal S4x256x256 .f32) (b2 : Vec Ideal S4x256 .f32) (W3 : Vec Ideal S4x256x256 .f32) (b3 : Vec Ideal S4x256 .f32)
    (W4 : Vec Ideal S4x256x128 .f32) (b4 : Vec Ideal S4x128 .f32) (s d : Vec Ideal S4x400000 .i32) :
    Cert.KSpec.net x W1 b1 W2 b2 W3 b3 W4 b4 s d = Cert.RSpec.net x W1 b1 W2 b2 W3 b3 W4 b4 s d := by
  unfold Cert.KSpec.net Cert.RSpec.net
  simp only [layer256_eq, layer128_eq, relu256_eq]

end Cert.Bridge

end
-- ==== Proof.lean ====
import proofs.«111407_j24215025614983_1_alg».proof.Defs
import proofs.«111407_j24215025614983_1_alg».proof.Proof.Gen.Kernel
import proofs.«111407_j24215025614983_1_alg».proof.Proof.Gen.KernelIdeal
import proofs.«111407_j24215025614983_1_alg».proof.Proof.Gen.ReferenceIdeal
import proofs.«111407_j24215025614983_1_alg».proof.Proof.Gen.Pre_finite_inputs
import proofs.«111407_j24215025614983_1_alg».proof.Proof.K.Run
import proofs.«111407_j24215025614983_1_alg».proof.Proof.KI.Run
import proofs.«111407_j24215025614983_1_alg».proof.Proof.KI.Value
import proofs.«111407_j24215025614983_1_alg».proof.Proof.Ref.Run
import proofs.«111407_j24215025614983_1_alg».proof.Proof.Bridge

/-!
The certificate of a four-layer relational graph convolution.

Both programs compute, layer by layer over four relations r,

  h ↦ sum over r of ( A_r ( (h * rsqrt degOut_r) W_r ) * rsqrt degIn_r + b_r ),     max(., 0) after the first three layers,

where `A_r` gathers rows at the edges' sources and adds them into the rows of the edges' targets. The kernel program
computes the products `(h * rsqrt degOut_r) W_r` of all four relations in one grid of row blocks, with the degree
scales computed once and stacked; the reference computes everything on whole arrays, relation by relation. At the
ideal values a change of float format is the identity and a matrix product is a plain sum, so block by block the
kernel's product is the reference's; the degree scales agree entry by entry through the stacking; and the kernel's
running sum `(((0 + a_0) + b_0) + a_1) + …` is the reference's `((a_0 + b_0) + (a_1 + b_1)) + …` because addition
of extended reals is commutative and associative with 0 neutral — at infinities too, so the precondition (finite
inputs) is never used. The gather and the scatter-add are the same operations of equal operands on both sides and
are never opened.

The three frames: each kernel program runs its 28 items (host stretches and four regions) to the end with every
argument array unchanged; the reference is a straight line of host operations. The idealization rewrote nothing,
so there is nothing to preserve.
-/

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefHand.run m ρ)

/-- The ideal pass rewrote nothing. -/
theorem preserves : Cert.preserves_Kernel_KernelIdeal := trivial

/-- Run from memories that agree on the arguments, both idealized programs end with the result at the network of
    the arguments: the kernel program's arrangement of it and the reference's are one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KSpec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), Cert.KernelIdeal.Hand.run_value m ρ, ?_⟩
  refine (θ_run Cert.ReferenceIdeal.defs _ _).mono (fun _ h c => ⟨(h c).1.trans ?_, (h c).2⟩) (Cert.RefHand.run m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
  exact (Cert.Bridge.net_eq _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
